-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x200 : Shape := ⟨2, ![16384, 200]⟩
abbrev S16384 : Shape := ⟨1, ![16384]⟩
abbrev S8 : Shape := ⟨1, ![8]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S8 : S_.BroadcastsInDim S8 (![] : Fin 0 → Fin S8.rank)
  reducesTo_S8_S_d0 : S8.ReducesTo [0] S_
  bcast_S_S16384x200 : S_.BroadcastsInDim S16384x200 (![] : Fin 0 → Fin S16384x200.rank)
  reducesTo_S16384x200_S_d0_1 : S16384x200.ReducesTo [0, 1] S_

variable [Facts]

def fn {F : FTy → Type} [FloatOps F] (main_arg0 : IVec S16384x200 32) (main_arg1 : FVec F S16384 .f32) (main_arg2 : FVec F S8 .f32) : IVec S_ 1 :=
  let main_v0 : FVec F S16384 .f32 := Host.absf main_arg1
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  let main_v4 : FVec F S8 .f32 := Host.absf main_arg2
  let main_cst_0 : FVec F S_ .f32 := constant S_ .f32 0x7F800000#32
  let main_v5 : FVec F S8 .f32 := broadcastInDim S8 ![] bcast_S_S8 main_cst_0
  let main_v6 : IVec S8 1 := cmpf .olt main_v4 main_v5
  let main_c_1 : IVec S_ 1 := constantI S_ 1 1#1
  let main_v7 : IVec S_ 1 := (fun x v => Host.reduce IntOp.andi x v reducesTo_S8_S_d0 h_S_) main_v6 main_c_1
  let main_v8 : IVec S_ 1 := andi main_v3 main_v7
  let main_c_2 : IVec S_ 32 := constantI S_ 32 0#32
  let main_v9 : IVec S16384x200 32 := broadcastInDim S16384x200 ![] bcast_S_S16384x200 main_c_2
  let main_v10 : IVec S16384x200 1 := cmpi .sge main_arg0 main_v9
  let main_c_3 : IVec S_ 32 := constantI S_ 32 7#32
  let main_v11 : IVec S16384x200 32 := broadcastInDim S16384x200 ![] bcast_S_S16384x200 main_c_3
  let main_v12 : IVec S16384x200 1 := cmpi .sle main_arg0 main_v11
  let main_v13 : IVec S16384x200 1 := andi main_v10 main_v12
  let main_c_4 : IVec S_ 1 := constantI S_ 1 1#1
  let main_v14 : IVec S_ 1 := (fun x v => Host.reduce IntOp.andi x v reducesTo_S16384x200_S_d0_1 h_S_) main_v13 main_c_4
  let main_v15 : IVec S_ 1 := andi main_v8 main_v14
  main_v15
-- ==== Kernel.lean ====
abbrev S16384x200 : Shape := ⟨2, ![16384, 200]⟩
abbrev S16384 : Shape := ⟨1, ![16384]⟩
abbrev S8 : Shape := ⟨1, ![8]⟩
abbrev S200x16384 : Shape := ⟨2, ![200, 16384]⟩
abbrev S4x200x128 : Shape := ⟨3, ![4, 200, 128]⟩
abbrev S512 : Shape := ⟨1, ![512]⟩
abbrev S16 : Shape := ⟨1, ![16]⟩
abbrev S4096 : Shape := ⟨1, ![4096]⟩
abbrev S_ : Shape := ⟨0, ![]⟩
abbrev S1x200x128 : Shape := ⟨3, ![1, 200, 128]⟩
abbrev S200x128 : Shape := ⟨2, ![200, 128]⟩
abbrev S1x1x16 : Shape := ⟨3, ![1, 1, 16]⟩

abbrev nBuf : Table → Nat
  | .hbm => 7
  | .local .scVector .vmem => 5
  | _ => 0

abbrev bufTy : (tb : Table) → Fin (nBuf tb) → BufTy
  | .hbm, ⟨0, _⟩ => ⟨S16384x200, .i32⟩
  | .hbm, ⟨1, _⟩ => ⟨S16384, .f32⟩
  | .hbm, ⟨2, _⟩ => ⟨S8, .f32⟩
  | .hbm, ⟨3, _⟩ => ⟨S200x16384, .i32⟩
  | .hbm, ⟨4, _⟩ => ⟨S16384, .f32⟩
  | .hbm, ⟨5, _⟩ => ⟨S200x16384, .i32⟩
  | .hbm, ⟨6, _⟩ => ⟨S16384x200, .i32⟩
  | .local .scVector .vmem, ⟨0, _⟩ => ⟨S4x200x128, .i32⟩
  | .local .scVector .vmem, ⟨1, _⟩ => ⟨S512, .f32⟩
  | .local .scVector .vmem, ⟨2, _⟩ => ⟨S512, .f32⟩
  | .local .scVector .vmem, ⟨3, _⟩ => ⟨S16, .f32⟩
  | .local .scVector .vmem, ⟨4, _⟩ => ⟨S4096, .f32⟩
  | _, _ => ⟨S16384x200, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v2 : Ref sig .tc := ⟨.hbm, 6, rfl⟩
abbrev main_v0_scv : Ref sig .scVector := ⟨.hbm, 3, rfl⟩
abbrev main_arg1_scv : Ref sig .scVector := ⟨.hbm, 1, rfl⟩
abbrev main_arg2_scv : Ref sig .scVector := ⟨.hbm, 2, rfl⟩
abbrev main_v1_0_scv : Ref sig .scVector := ⟨.hbm, 4, rfl⟩
abbrev main_v1_1_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let c0_i32_3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![0, v3.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]

def k0_chk1 (v33 : IVec S16 32) : Prop :=
  (∀ a x, ((![v33] : Fin 1 → IVec S16 32) a x).toNat < S16.size a)
instance k0_chk1.dec : ∀ (v33 : IVec S16 32), Decidable (k0_chk1 v33) := fun v33 => decidable_of_iff' _ (Iff.of_eq (k0_chk1.eq_1 v33))
theorem k0_idx1_inb : ∀ (v33 : IVec S16 32) (k0_hw1 : k0_chk1 v33), ∀ a x, ((![v33] : Fin 1 → IVec S16 32) a x).toNat < S16.size a := fun v33 k0_hw1 => k0_hw1
@[reducible] def k0_t1_loop : Scf.Loop 32 :=
  let c0_i32_28 : BitVec 32 := 0#32
  let c256_i32_29 : BitVec 32 := 256#32
  let v37 : BitVec 32 := Scalar.addi c0_i32_28 c256_i32_29
  let c1_i32_30 : BitVec 32 := 1#32
  ⟨c0_i32_28, v37, c1_i32_30⟩

def k0_chk2 (v256 : IVec S16 32) : Prop :=
  (∀ a x, ((![v256] : Fin 1 → IVec S16 32) a x).toNat < S16.size a)
instance k0_chk2.dec : ∀ (v256 : IVec S16 32), Decidable (k0_chk2 v256) := fun v256 => decidable_of_iff' _ (Iff.of_eq (k0_chk2.eq_1 v256))
theorem k0_idx2_inb : ∀ (v256 : IVec S16 32) (k0_hw2 : k0_chk2 v256), ∀ a x, ((![v256] : Fin 1 → IVec S16 32) a x).toNat < S16.size a := fun v256 k0_hw2 => k0_hw2

def k0_chk3 (v258 : IVec S16 32) : Prop :=
  (∀ a x, ((![v258] : Fin 1 → IVec S16 32) a x).toNat < S16.size a)
instance k0_chk3.dec : ∀ (v258 : IVec S16 32), Decidable (k0_chk3 v258) := fun v258 => decidable_of_iff' _ (Iff.of_eq (k0_chk3.eq_1 v258))
theorem k0_idx3_inb : ∀ (v258 : IVec S16 32) (k0_hw3 : k0_chk3 v258), ∀ a x, ((![v258] : Fin 1 → IVec S16 32) a x).toNat < S16.size a := fun v258 k0_hw3 => k0_hw3

def k0_chk4 (v261 : IVec S16 32) : Prop :=
  (∀ a x, ((![v261] : Fin 1 → IVec S16 32) a x).toNat < S16.size a)
instance k0_chk4.dec : ∀ (v261 : IVec S16 32), Decidable (k0_chk4 v261) := fun v261 => decidable_of_iff' _ (Iff.of_eq (k0_chk4.eq_1 v261))
theorem k0_idx4_inb : ∀ (v261 : IVec S16 32) (k0_hw4 : k0_chk4 v261), ∀ a x, ((![v261] : Fin 1 → IVec S16 32) a x).toNat < S16.size a := fun v261 k0_hw4 => k0_hw4
def k0_off3 (k0_t1 : Fin k0_t1_loop.trips) : Fin 1 → Nat :=
  let c0_i32_28 : BitVec 32 := 0#32
  let c1_i32_30 : BitVec 32 := 1#32
  let arg20 : BitVec 32 := Scf.iv c0_i32_28 c1_i32_30 k0_t1
  let c16_i32 : BitVec 32 := 16#32
  let v266 : BitVec 32 := Scalar.muli arg20 c16_i32
  let v267 : Index := Scalar.indexCast v266
  ![v267.toNat]
def k0_off4 (i : grid0.Coords) (c0_i32 : BitVec 32) : Fin 2 → Nat :=
  let c0_i32_35 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let v3 : BitVec 32 := Scalar.addi v2 c0_i32
  ![0, v3.toNat]
@[reducible] def k0_t2_loop : Scf.Loop 32 :=
  let c0_i32_54 : BitVec 32 := 0#32
  let c50_i32 : BitVec 32 := 50#32
  let v60 : BitVec 32 := Scalar.addi c0_i32_54 c50_i32
  let c1_i32_55 : BitVec 32 := 1#32
  ⟨c0_i32_54, v60, c1_i32_55⟩
def k0_off5 (k0_t2 : Fin k0_t2_loop.trips) : Fin 3 → Nat :=
  let c0_i32_198 : BitVec 32 := 0#32
  let v252 : Index := Scalar.indexCast c0_i32_198
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v253 : Index := Scalar.indexCast v251
  let c0_199 : Index := 0#32
  ![0, v253.toNat, 0]
def k0_off6 (k0_t2 : Fin k0_t2_loop.trips) (c1_i32_200 : BitVec 32) : Fin 3 → Nat :=
  let c0_i32_201 : BitVec 32 := 0#32
  let v256 : Index := Scalar.indexCast c0_i32_201
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v255 : BitVec 32 := Scalar.addi v251 c1_i32_200
  let v257 : Index := Scalar.indexCast v255
  let c0_202 : Index := 0#32
  ![0, v257.toNat, 0]

def k0_chk5 (v275 : IVec S16 32) : Prop :=
  (∀ a x, ((![v275] : Fin 1 → IVec S16 32) a x).toNat < S4096.size a)
instance k0_chk5.dec : ∀ (v275 : IVec S16 32), Decidable (k0_chk5 v275) := fun v275 => decidable_of_iff' _ (Iff.of_eq (k0_chk5.eq_1 v275))
theorem k0_idx5_inb : ∀ (v275 : IVec S16 32) (k0_hw5 : k0_chk5 v275), ∀ a x, ((![v275] : Fin 1 → IVec S16 32) a x).toNat < S4096.size a := fun v275 k0_hw5 => k0_hw5
def k0_off7 (k0_t2 : Fin k0_t2_loop.trips) : Fin 3 → Nat :=
  let c0_i32_210 : BitVec 32 := 0#32
  let v278 : Index := Scalar.indexCast c0_i32_210
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v279 : Index := Scalar.indexCast v251
  let c16_211 : Index := 16#32
  ![0, v279.toNat, 16]
def k0_off8 (k0_t2 : Fin k0_t2_loop.trips) (c1_i32_212 : BitVec 32) : Fin 3 → Nat :=
  let c0_i32_213 : BitVec 32 := 0#32
  let v282 : Index := Scalar.indexCast c0_i32_213
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v281 : BitVec 32 := Scalar.addi v251 c1_i32_212
  let v283 : Index := Scalar.indexCast v281
  let c16_214 : Index := 16#32
  ![0, v283.toNat, 16]

def k0_chk6 (v301 : IVec S16 32) : Prop :=
  (∀ a x, ((![v301] : Fin 1 → IVec S16 32) a x).toNat < S4096.size a)
instance k0_chk6.dec : ∀ (v301 : IVec S16 32), Decidable (k0_chk6 v301) := fun v301 => decidable_of_iff' _ (Iff.of_eq (k0_chk6.eq_1 v301))
theorem k0_idx6_inb : ∀ (v301 : IVec S16 32) (k0_hw6 : k0_chk6 v301), ∀ a x, ((![v301] : Fin 1 → IVec S16 32) a x).toNat < S4096.size a := fun v301 k0_hw6 => k0_hw6
def k0_off9 (k0_t2 : Fin k0_t2_loop.trips) : Fin 3 → Nat :=
  let c0_i32_224 : BitVec 32 := 0#32
  let v304 : Index := Scalar.indexCast c0_i32_224
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v305 : Index := Scalar.indexCast v251
  let c32_225 : Index := 32#32
  ![0, v305.toNat, 32]
def k0_off10 (k0_t2 : Fin k0_t2_loop.trips) (c1_i32_226 : BitVec 32) : Fin 3 → Nat :=
  let c0_i32_227 : BitVec 32 := 0#32
  let v308 : Index := Scalar.indexCast c0_i32_227
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v307 : BitVec 32 := Scalar.addi v251 c1_i32_226
  let v309 : Index := Scalar.indexCast v307
  let c32_228 : Index := 32#32
  ![0, v309.toNat, 32]

def k0_chk7 (v327 : IVec S16 32) : Prop :=
  (∀ a x, ((![v327] : Fin 1 → IVec S16 32) a x).toNat < S4096.size a)
instance k0_chk7.dec : ∀ (v327 : IVec S16 32), Decidable (k0_chk7 v327) := fun v327 => decidable_of_iff' _ (Iff.of_eq (k0_chk7.eq_1 v327))
theorem k0_idx7_inb : ∀ (v327 : IVec S16 32) (k0_hw7 : k0_chk7 v327), ∀ a x, ((![v327] : Fin 1 → IVec S16 32) a x).toNat < S4096.size a := fun v327 k0_hw7 => k0_hw7
def k0_off11 (k0_t2 : Fin k0_t2_loop.trips) : Fin 3 → Nat :=
  let c0_i32_238 : BitVec 32 := 0#32
  let v330 : Index := Scalar.indexCast c0_i32_238
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v331 : Index := Scalar.indexCast v251
  let c48_239 : Index := 48#32
  ![0, v331.toNat, 48]
def k0_off12 (k0_t2 : Fin k0_t2_loop.trips) (c1_i32_240 : BitVec 32) : Fin 3 → Nat :=
  let c0_i32_241 : BitVec 32 := 0#32
  let v334 : Index := Scalar.indexCast c0_i32_241
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v333 : BitVec 32 := Scalar.addi v251 c1_i32_240
  let v335 : Index := Scalar.indexCast v333
  let c48_242 : Index := 48#32
  ![0, v335.toNat, 48]

def k0_chk8 (v353 : IVec S16 32) : Prop :=
  (∀ a x, ((![v353] : Fin 1 → IVec S16 32) a x).toNat < S4096.size a)
instance k0_chk8.dec : ∀ (v353 : IVec S16 32), Decidable (k0_chk8 v353) := fun v353 => decidable_of_iff' _ (Iff.of_eq (k0_chk8.eq_1 v353))
theorem k0_idx8_inb : ∀ (v353 : IVec S16 32) (k0_hw8 : k0_chk8 v353), ∀ a x, ((![v353] : Fin 1 → IVec S16 32) a x).toNat < S4096.size a := fun v353 k0_hw8 => k0_hw8
def k0_off13 (k0_t2 : Fin k0_t2_loop.trips) : Fin 3 → Nat :=
  let c0_i32_252 : BitVec 32 := 0#32
  let v356 : Index := Scalar.indexCast c0_i32_252
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v357 : Index := Scalar.indexCast v251
  let c64_253 : Index := 64#32
  ![0, v357.toNat, 64]
def k0_off14 (k0_t2 : Fin k0_t2_loop.trips) (c1_i32_254 : BitVec 32) : Fin 3 → Nat :=
  let c0_i32_255 : BitVec 32 := 0#32
  let v360 : Index := Scalar.indexCast c0_i32_255
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v359 : BitVec 32 := Scalar.addi v251 c1_i32_254
  let v361 : Index := Scalar.indexCast v359
  let c64_256 : Index := 64#32
  ![0, v361.toNat, 64]

def k0_chk9 (v379 : IVec S16 32) : Prop :=
  (∀ a x, ((![v379] : Fin 1 → IVec S16 32) a x).toNat < S4096.size a)
instance k0_chk9.dec : ∀ (v379 : IVec S16 32), Decidable (k0_chk9 v379) := fun v379 => decidable_of_iff' _ (Iff.of_eq (k0_chk9.eq_1 v379))
theorem k0_idx9_inb : ∀ (v379 : IVec S16 32) (k0_hw9 : k0_chk9 v379), ∀ a x, ((![v379] : Fin 1 → IVec S16 32) a x).toNat < S4096.size a := fun v379 k0_hw9 => k0_hw9
def k0_off15 (k0_t2 : Fin k0_t2_loop.trips) : Fin 3 → Nat :=
  let c0_i32_266 : BitVec 32 := 0#32
  let v382 : Index := Scalar.indexCast c0_i32_266
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v383 : Index := Scalar.indexCast v251
  let c80_267 : Index := 80#32
  ![0, v383.toNat, 80]
def k0_off16 (k0_t2 : Fin k0_t2_loop.trips) (c1_i32_268 : BitVec 32) : Fin 3 → Nat :=
  let c0_i32_269 : BitVec 32 := 0#32
  let v386 : Index := Scalar.indexCast c0_i32_269
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v385 : BitVec 32 := Scalar.addi v251 c1_i32_268
  let v387 : Index := Scalar.indexCast v385
  let c80_270 : Index := 80#32
  ![0, v387.toNat, 80]

def k0_chk10 (v405 : IVec S16 32) : Prop :=
  (∀ a x, ((![v405] : Fin 1 → IVec S16 32) a x).toNat < S4096.size a)
instance k0_chk10.dec : ∀ (v405 : IVec S16 32), Decidable (k0_chk10 v405) := fun v405 => decidable_of_iff' _ (Iff.of_eq (k0_chk10.eq_1 v405))
theorem k0_idx10_inb : ∀ (v405 : IVec S16 32) (k0_hw10 : k0_chk10 v405), ∀ a x, ((![v405] : Fin 1 → IVec S16 32) a x).toNat < S4096.size a := fun v405 k0_hw10 => k0_hw10
def k0_off17 (k0_t2 : Fin k0_t2_loop.trips) : Fin 3 → Nat :=
  let c0_i32_280 : BitVec 32 := 0#32
  let v408 : Index := Scalar.indexCast c0_i32_280
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v409 : Index := Scalar.indexCast v251
  let c96_281 : Index := 96#32
  ![0, v409.toNat, 96]
def k0_off18 (k0_t2 : Fin k0_t2_loop.trips) (c1_i32_282 : BitVec 32) : Fin 3 → Nat :=
  let c0_i32_283 : BitVec 32 := 0#32
  let v412 : Index := Scalar.indexCast c0_i32_283
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v411 : BitVec 32 := Scalar.addi v251 c1_i32_282
  let v413 : Index := Scalar.indexCast v411
  let c96_284 : Index := 96#32
  ![0, v413.toNat, 96]

def k0_chk11 (v431 : IVec S16 32) : Prop :=
  (∀ a x, ((![v431] : Fin 1 → IVec S16 32) a x).toNat < S4096.size a)
instance k0_chk11.dec : ∀ (v431 : IVec S16 32), Decidable (k0_chk11 v431) := fun v431 => decidable_of_iff' _ (Iff.of_eq (k0_chk11.eq_1 v431))
theorem k0_idx11_inb : ∀ (v431 : IVec S16 32) (k0_hw11 : k0_chk11 v431), ∀ a x, ((![v431] : Fin 1 → IVec S16 32) a x).toNat < S4096.size a := fun v431 k0_hw11 => k0_hw11
def k0_off19 (k0_t2 : Fin k0_t2_loop.trips) : Fin 3 → Nat :=
  let c0_i32_294 : BitVec 32 := 0#32
  let v434 : Index := Scalar.indexCast c0_i32_294
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v435 : Index := Scalar.indexCast v251
  let c112_295 : Index := 112#32
  ![0, v435.toNat, 112]
def k0_off20 (k0_t2 : Fin k0_t2_loop.trips) (c1_i32_296 : BitVec 32) : Fin 3 → Nat :=
  let c0_i32_297 : BitVec 32 := 0#32
  let v438 : Index := Scalar.indexCast c0_i32_297
  let c0_i32_54 : BitVec 32 := 0#32
  let c1_i32_55 : BitVec 32 := 1#32
  let arg20 : BitVec 32 := Scf.iv c0_i32_54 c1_i32_55 k0_t2
  let c4_i32 : BitVec 32 := 4#32
  let v251 : BitVec 32 := Scalar.muli arg20 c4_i32
  let v437 : BitVec 32 := Scalar.addi v251 c1_i32_296
  let v439 : Index := Scalar.indexCast v437
  let c112_298 : Index := 112#32
  ![0, v439.toNat, 112]

def k0_chk12 (v457 : IVec S16 32) : Prop :=
  (∀ a x, ((![v457] : Fin 1 → IVec S16 32) a x).toNat < S4096.size a)
instance k0_chk12.dec : ∀ (v457 : IVec S16 32), Decidable (k0_chk12 v457) := fun v457 => decidable_of_iff' _ (Iff.of_eq (k0_chk12.eq_1 v457))
theorem k0_idx12_inb : ∀ (v457 : IVec S16 32) (k0_hw12 : k0_chk12 v457), ∀ a x, ((![v457] : Fin 1 → IVec S16 32) a x).toNat < S4096.size a := fun v457 k0_hw12 => k0_hw12
@[reducible] def k0_t3_loop : Scf.Loop 32 :=
  let c0_i32_88 : BitVec 32 := 0#32
  let c50_i32_89 : BitVec 32 := 50#32
  let v107 : BitVec 32 := Scalar.addi c0_i32_88 c50_i32_89
  let c1_i32_90 : BitVec 32 := 1#32
  ⟨c0_i32_88, v107, c1_i32_90⟩
def k0_off21 (k0_t3 : Fin k0_t3_loop.trips) : Fin 3 → Nat :=
  let c1_i32_198 : BitVec 32 := 1#32
  let v252 : Index := Scalar.indexCast c1_i32_198
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v253 : Index := Scalar.indexCast v251
  let c0_199 : Index := 0#32
  ![1, v253.toNat, 0]
def k0_off22 (k0_t3 : Fin k0_t3_loop.trips) (c1_i32_200 : BitVec 32) : Fin 3 → Nat :=
  let c1_i32_201 : BitVec 32 := 1#32
  let v256 : Index := Scalar.indexCast c1_i32_201
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v255 : BitVec 32 := Scalar.addi v251 c1_i32_200
  let v257 : Index := Scalar.indexCast v255
  let c0_202 : Index := 0#32
  ![1, v257.toNat, 0]

def k0_chk13 (v275 : IVec S16 32) : Prop :=
  (∀ a x, ((![v275] : Fin 1 → IVec S16 32) a x).toNat < S4096.size a)
instance k0_chk13.dec : ∀ (v275 : IVec S16 32), Decidable (k0_chk13 v275) := fun v275 => decidable_of_iff' _ (Iff.of_eq (k0_chk13.eq_1 v275))
theorem k0_idx13_inb : ∀ (v275 : IVec S16 32) (k0_hw13 : k0_chk13 v275), ∀ a x, ((![v275] : Fin 1 → IVec S16 32) a x).toNat < S4096.size a := fun v275 k0_hw13 => k0_hw13
def k0_off23 (k0_t3 : Fin k0_t3_loop.trips) : Fin 3 → Nat :=
  let c1_i32_210 : BitVec 32 := 1#32
  let v278 : Index := Scalar.indexCast c1_i32_210
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v279 : Index := Scalar.indexCast v251
  let c16_211 : Index := 16#32
  ![1, v279.toNat, 16]
def k0_off24 (k0_t3 : Fin k0_t3_loop.trips) (c1_i32_212 : BitVec 32) : Fin 3 → Nat :=
  let c1_i32_213 : BitVec 32 := 1#32
  let v282 : Index := Scalar.indexCast c1_i32_213
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v281 : BitVec 32 := Scalar.addi v251 c1_i32_212
  let v283 : Index := Scalar.indexCast v281
  let c16_214 : Index := 16#32
  ![1, v283.toNat, 16]

def k0_chk14 (v301 : IVec S16 32) : Prop :=
  (∀ a x, ((![v301] : Fin 1 → IVec S16 32) a x).toNat < S4096.size a)
instance k0_chk14.dec : ∀ (v301 : IVec S16 32), Decidable (k0_chk14 v301) := fun v301 => decidable_of_iff' _ (Iff.of_eq (k0_chk14.eq_1 v301))
theorem k0_idx14_inb : ∀ (v301 : IVec S16 32) (k0_hw14 : k0_chk14 v301), ∀ a x, ((![v301] : Fin 1 → IVec S16 32) a x).toNat < S4096.size a := fun v301 k0_hw14 => k0_hw14
def k0_off25 (k0_t3 : Fin k0_t3_loop.trips) : Fin 3 → Nat :=
  let c1_i32_224 : BitVec 32 := 1#32
  let v304 : Index := Scalar.indexCast c1_i32_224
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v305 : Index := Scalar.indexCast v251
  let c32_225 : Index := 32#32
  ![1, v305.toNat, 32]
def k0_off26 (k0_t3 : Fin k0_t3_loop.trips) (c1_i32_226 : BitVec 32) : Fin 3 → Nat :=
  let c1_i32_227 : BitVec 32 := 1#32
  let v308 : Index := Scalar.indexCast c1_i32_227
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v307 : BitVec 32 := Scalar.addi v251 c1_i32_226
  let v309 : Index := Scalar.indexCast v307
  let c32_228 : Index := 32#32
  ![1, v309.toNat, 32]

def k0_chk15 (v327 : IVec S16 32) : Prop :=
  (∀ a x, ((![v327] : Fin 1 → IVec S16 32) a x).toNat < S4096.size a)
instance k0_chk15.dec : ∀ (v327 : IVec S16 32), Decidable (k0_chk15 v327) := fun v327 => decidable_of_iff' _ (Iff.of_eq (k0_chk15.eq_1 v327))
theorem k0_idx15_inb : ∀ (v327 : IVec S16 32) (k0_hw15 : k0_chk15 v327), ∀ a x, ((![v327] : Fin 1 → IVec S16 32) a x).toNat < S4096.size a := fun v327 k0_hw15 => k0_hw15
def k0_off27 (k0_t3 : Fin k0_t3_loop.trips) : Fin 3 → Nat :=
  let c1_i32_238 : BitVec 32 := 1#32
  let v330 : Index := Scalar.indexCast c1_i32_238
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v331 : Index := Scalar.indexCast v251
  let c48_239 : Index := 48#32
  ![1, v331.toNat, 48]
def k0_off28 (k0_t3 : Fin k0_t3_loop.trips) (c1_i32_240 : BitVec 32) : Fin 3 → Nat :=
  let c1_i32_241 : BitVec 32 := 1#32
  let v334 : Index := Scalar.indexCast c1_i32_241
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v333 : BitVec 32 := Scalar.addi v251 c1_i32_240
  let v335 : Index := Scalar.indexCast v333
  let c48_242 : Index := 48#32
  ![1, v335.toNat, 48]

def k0_chk16 (v353 : IVec S16 32) : Prop :=
  (∀ a x, ((![v353] : Fin 1 → IVec S16 32) a x).toNat < S4096.size a)
instance k0_chk16.dec : ∀ (v353 : IVec S16 32), Decidable (k0_chk16 v353) := fun v353 => decidable_of_iff' _ (Iff.of_eq (k0_chk16.eq_1 v353))
theorem k0_idx16_inb : ∀ (v353 : IVec S16 32) (k0_hw16 : k0_chk16 v353), ∀ a x, ((![v353] : Fin 1 → IVec S16 32) a x).toNat < S4096.size a := fun v353 k0_hw16 => k0_hw16
def k0_off29 (k0_t3 : Fin k0_t3_loop.trips) : Fin 3 → Nat :=
  let c1_i32_252 : BitVec 32 := 1#32
  let v356 : Index := Scalar.indexCast c1_i32_252
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v357 : Index := Scalar.indexCast v251
  let c64_253 : Index := 64#32
  ![1, v357.toNat, 64]
def k0_off30 (k0_t3 : Fin k0_t3_loop.trips) (c1_i32_254 : BitVec 32) : Fin 3 → Nat :=
  let c1_i32_255 : BitVec 32 := 1#32
  let v360 : Index := Scalar.indexCast c1_i32_255
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v359 : BitVec 32 := Scalar.addi v251 c1_i32_254
  let v361 : Index := Scalar.indexCast v359
  let c64_256 : Index := 64#32
  ![1, v361.toNat, 64]

def k0_chk17 (v379 : IVec S16 32) : Prop :=
  (∀ a x, ((![v379] : Fin 1 → IVec S16 32) a x).toNat < S4096.size a)
instance k0_chk17.dec : ∀ (v379 : IVec S16 32), Decidable (k0_chk17 v379) := fun v379 => decidable_of_iff' _ (Iff.of_eq (k0_chk17.eq_1 v379))
theorem k0_idx17_inb : ∀ (v379 : IVec S16 32) (k0_hw17 : k0_chk17 v379), ∀ a x, ((![v379] : Fin 1 → IVec S16 32) a x).toNat < S4096.size a := fun v379 k0_hw17 => k0_hw17
def k0_off31 (k0_t3 : Fin k0_t3_loop.trips) : Fin 3 → Nat :=
  let c1_i32_266 : BitVec 32 := 1#32
  let v382 : Index := Scalar.indexCast c1_i32_266
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v383 : Index := Scalar.indexCast v251
  let c80_267 : Index := 80#32
  ![1, v383.toNat, 80]
def k0_off32 (k0_t3 : Fin k0_t3_loop.trips) (c1_i32_268 : BitVec 32) : Fin 3 → Nat :=
  let c1_i32_269 : BitVec 32 := 1#32
  let v386 : Index := Scalar.indexCast c1_i32_269
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v385 : BitVec 32 := Scalar.addi v251 c1_i32_268
  let v387 : Index := Scalar.indexCast v385
  let c80_270 : Index := 80#32
  ![1, v387.toNat, 80]

def k0_chk18 (v405 : IVec S16 32) : Prop :=
  (∀ a x, ((![v405] : Fin 1 → IVec S16 32) a x).toNat < S4096.size a)
instance k0_chk18.dec : ∀ (v405 : IVec S16 32), Decidable (k0_chk18 v405) := fun v405 => decidable_of_iff' _ (Iff.of_eq (k0_chk18.eq_1 v405))
theorem k0_idx18_inb : ∀ (v405 : IVec S16 32) (k0_hw18 : k0_chk18 v405), ∀ a x, ((![v405] : Fin 1 → IVec S16 32) a x).toNat < S4096.size a := fun v405 k0_hw18 => k0_hw18
def k0_off33 (k0_t3 : Fin k0_t3_loop.trips) : Fin 3 → Nat :=
  let c1_i32_280 : BitVec 32 := 1#32
  let v408 : Index := Scalar.indexCast c1_i32_280
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v409 : Index := Scalar.indexCast v251
  let c96_281 : Index := 96#32
  ![1, v409.toNat, 96]
def k0_off34 (k0_t3 : Fin k0_t3_loop.trips) (c1_i32_282 : BitVec 32) : Fin 3 → Nat :=
  let c1_i32_283 : BitVec 32 := 1#32
  let v412 : Index := Scalar.indexCast c1_i32_283
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v411 : BitVec 32 := Scalar.addi v251 c1_i32_282
  let v413 : Index := Scalar.indexCast v411
  let c96_284 : Index := 96#32
  ![1, v413.toNat, 96]

def k0_chk19 (v431 : IVec S16 32) : Prop :=
  (∀ a x, ((![v431] : Fin 1 → IVec S16 32) a x).toNat < S4096.size a)
instance k0_chk19.dec : ∀ (v431 : IVec S16 32), Decidable (k0_chk19 v431) := fun v431 => decidable_of_iff' _ (Iff.of_eq (k0_chk19.eq_1 v431))
theorem k0_idx19_inb : ∀ (v431 : IVec S16 32) (k0_hw19 : k0_chk19 v431), ∀ a x, ((![v431] : Fin 1 → IVec S16 32) a x).toNat < S4096.size a := fun v431 k0_hw19 => k0_hw19
def k0_off35 (k0_t3 : Fin k0_t3_loop.trips) : Fin 3 → Nat :=
  let c1_i32_294 : BitVec 32 := 1#32
  let v434 : Index := Scalar.indexCast c1_i32_294
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v435 : Index := Scalar.indexCast v251
  let c112_295 : Index := 112#32
  ![1, v435.toNat, 112]
def k0_off36 (k0_t3 : Fin k0_t3_loop.trips) (c1_i32_296 : BitVec 32) : Fin 3 → Nat :=
  let c1_i32_297 : BitVec 32 := 1#32
  let v438 : Index := Scalar.indexCast c1_i32_297
  let c0_i32_88 : BitVec 32 := 0#32
  let c1_i32_90 : BitVec 32 := 1#32
  let arg20 : BitVec 32 := Scf.iv c0_i32_88 c1_i32_90 k0_t3
  let c4_i32 : BitVec 32 := 4#32
  let v251 : BitVec 32 := Scalar.muli arg20 c4_i32
  let v437 : BitVec 32 := Scalar.addi v251 c1_i32_296
  let v439 : Index := Scalar.indexCast v437
  let c112_298 : Index := 112#32
  ![1, v439.toNat, 112]

def k0_chk20 (v457 : IVec S16 32) : Prop :=
  (∀ a x, ((![v457] : Fin 1 → IVec S16 32) a x).toNat < S4096.size a)
instance k0_chk20.dec : ∀ (v457 : IVec S16 32), Decidable (k0_chk20 v457) := fun v457 => decidable_of_iff' _ (Iff.of_eq (k0_chk20.eq_1 v457))
theorem k0_idx20_inb : ∀ (v457 : IVec S16 32) (k0_hw20 : k0_chk20 v457), ∀ a x, ((![v457] : Fin 1 → IVec S16 32) a x).toNat < S4096.size a := fun v457 k0_hw20 => k0_hw20
@[reducible] def k0_t4_loop : Scf.Loop 32 :=
  let c0_i32_123 : BitVec 32 := 0#32
  let c50_i32_124 : BitVec 32 := 50#32
  let v154 : BitVec 32 := Scalar.addi c0_i32_123 c50_i32_124
  let c1_i32_125 : BitVec 32 := 1#32
  ⟨c0_i32_123, v154, c1_i32_125⟩
def k0_off37 (k0_t4 : Fin k0_t4_loop.trips) : Fin 3 → Nat :=
  let c2_i32_198 : BitVec 32 := 2#32
  let v252 : Index := Scalar.indexCast c2_i32_198
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v253 : Index := Scalar.indexCast v251
  let c0_199 : Index := 0#32
  ![2, v253.toNat, 0]
def k0_off38 (k0_t4 : Fin k0_t4_loop.trips) (c1_i32_200 : BitVec 32) : Fin 3 → Nat :=
  let c2_i32_201 : BitVec 32 := 2#32
  let v256 : Index := Scalar.indexCast c2_i32_201
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v255 : BitVec 32 := Scalar.addi v251 c1_i32_200
  let v257 : Index := Scalar.indexCast v255
  let c0_202 : Index := 0#32
  ![2, v257.toNat, 0]

def k0_chk21 (v275 : IVec S16 32) : Prop :=
  (∀ a x, ((![v275] : Fin 1 → IVec S16 32) a x).toNat < S4096.size a)
instance k0_chk21.dec : ∀ (v275 : IVec S16 32), Decidable (k0_chk21 v275) := fun v275 => decidable_of_iff' _ (Iff.of_eq (k0_chk21.eq_1 v275))
theorem k0_idx21_inb : ∀ (v275 : IVec S16 32) (k0_hw21 : k0_chk21 v275), ∀ a x, ((![v275] : Fin 1 → IVec S16 32) a x).toNat < S4096.size a := fun v275 k0_hw21 => k0_hw21
def k0_off39 (k0_t4 : Fin k0_t4_loop.trips) : Fin 3 → Nat :=
  let c2_i32_210 : BitVec 32 := 2#32
  let v278 : Index := Scalar.indexCast c2_i32_210
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v279 : Index := Scalar.indexCast v251
  let c16_211 : Index := 16#32
  ![2, v279.toNat, 16]
def k0_off40 (k0_t4 : Fin k0_t4_loop.trips) (c1_i32_212 : BitVec 32) : Fin 3 → Nat :=
  let c2_i32_213 : BitVec 32 := 2#32
  let v282 : Index := Scalar.indexCast c2_i32_213
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v281 : BitVec 32 := Scalar.addi v251 c1_i32_212
  let v283 : Index := Scalar.indexCast v281
  let c16_214 : Index := 16#32
  ![2, v283.toNat, 16]

def k0_chk22 (v301 : IVec S16 32) : Prop :=
  (∀ a x, ((![v301] : Fin 1 → IVec S16 32) a x).toNat < S4096.size a)
instance k0_chk22.dec : ∀ (v301 : IVec S16 32), Decidable (k0_chk22 v301) := fun v301 => decidable_of_iff' _ (Iff.of_eq (k0_chk22.eq_1 v301))
theorem k0_idx22_inb : ∀ (v301 : IVec S16 32) (k0_hw22 : k0_chk22 v301), ∀ a x, ((![v301] : Fin 1 → IVec S16 32) a x).toNat < S4096.size a := fun v301 k0_hw22 => k0_hw22
def k0_off41 (k0_t4 : Fin k0_t4_loop.trips) : Fin 3 → Nat :=
  let c2_i32_224 : BitVec 32 := 2#32
  let v304 : Index := Scalar.indexCast c2_i32_224
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v305 : Index := Scalar.indexCast v251
  let c32_225 : Index := 32#32
  ![2, v305.toNat, 32]
def k0_off42 (k0_t4 : Fin k0_t4_loop.trips) (c1_i32_226 : BitVec 32) : Fin 3 → Nat :=
  let c2_i32_227 : BitVec 32 := 2#32
  let v308 : Index := Scalar.indexCast c2_i32_227
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v307 : BitVec 32 := Scalar.addi v251 c1_i32_226
  let v309 : Index := Scalar.indexCast v307
  let c32_228 : Index := 32#32
  ![2, v309.toNat, 32]

def k0_chk23 (v327 : IVec S16 32) : Prop :=
  (∀ a x, ((![v327] : Fin 1 → IVec S16 32) a x).toNat < S4096.size a)
instance k0_chk23.dec : ∀ (v327 : IVec S16 32), Decidable (k0_chk23 v327) := fun v327 => decidable_of_iff' _ (Iff.of_eq (k0_chk23.eq_1 v327))
theorem k0_idx23_inb : ∀ (v327 : IVec S16 32) (k0_hw23 : k0_chk23 v327), ∀ a x, ((![v327] : Fin 1 → IVec S16 32) a x).toNat < S4096.size a := fun v327 k0_hw23 => k0_hw23
def k0_off43 (k0_t4 : Fin k0_t4_loop.trips) : Fin 3 → Nat :=
  let c2_i32_238 : BitVec 32 := 2#32
  let v330 : Index := Scalar.indexCast c2_i32_238
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v331 : Index := Scalar.indexCast v251
  let c48_239 : Index := 48#32
  ![2, v331.toNat, 48]
def k0_off44 (k0_t4 : Fin k0_t4_loop.trips) (c1_i32_240 : BitVec 32) : Fin 3 → Nat :=
  let c2_i32_241 : BitVec 32 := 2#32
  let v334 : Index := Scalar.indexCast c2_i32_241
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v333 : BitVec 32 := Scalar.addi v251 c1_i32_240
  let v335 : Index := Scalar.indexCast v333
  let c48_242 : Index := 48#32
  ![2, v335.toNat, 48]

def k0_chk24 (v353 : IVec S16 32) : Prop :=
  (∀ a x, ((![v353] : Fin 1 → IVec S16 32) a x).toNat < S4096.size a)
instance k0_chk24.dec : ∀ (v353 : IVec S16 32), Decidable (k0_chk24 v353) := fun v353 => decidable_of_iff' _ (Iff.of_eq (k0_chk24.eq_1 v353))
theorem k0_idx24_inb : ∀ (v353 : IVec S16 32) (k0_hw24 : k0_chk24 v353), ∀ a x, ((![v353] : Fin 1 → IVec S16 32) a x).toNat < S4096.size a := fun v353 k0_hw24 => k0_hw24
def k0_off45 (k0_t4 : Fin k0_t4_loop.trips) : Fin 3 → Nat :=
  let c2_i32_252 : BitVec 32 := 2#32
  let v356 : Index := Scalar.indexCast c2_i32_252
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v357 : Index := Scalar.indexCast v251
  let c64_253 : Index := 64#32
  ![2, v357.toNat, 64]
def k0_off46 (k0_t4 : Fin k0_t4_loop.trips) (c1_i32_254 : BitVec 32) : Fin 3 → Nat :=
  let c2_i32_255 : BitVec 32 := 2#32
  let v360 : Index := Scalar.indexCast c2_i32_255
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v359 : BitVec 32 := Scalar.addi v251 c1_i32_254
  let v361 : Index := Scalar.indexCast v359
  let c64_256 : Index := 64#32
  ![2, v361.toNat, 64]

def k0_chk25 (v379 : IVec S16 32) : Prop :=
  (∀ a x, ((![v379] : Fin 1 → IVec S16 32) a x).toNat < S4096.size a)
instance k0_chk25.dec : ∀ (v379 : IVec S16 32), Decidable (k0_chk25 v379) := fun v379 => decidable_of_iff' _ (Iff.of_eq (k0_chk25.eq_1 v379))
theorem k0_idx25_inb : ∀ (v379 : IVec S16 32) (k0_hw25 : k0_chk25 v379), ∀ a x, ((![v379] : Fin 1 → IVec S16 32) a x).toNat < S4096.size a := fun v379 k0_hw25 => k0_hw25
def k0_off47 (k0_t4 : Fin k0_t4_loop.trips) : Fin 3 → Nat :=
  let c2_i32_266 : BitVec 32 := 2#32
  let v382 : Index := Scalar.indexCast c2_i32_266
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v383 : Index := Scalar.indexCast v251
  let c80_267 : Index := 80#32
  ![2, v383.toNat, 80]
def k0_off48 (k0_t4 : Fin k0_t4_loop.trips) (c1_i32_268 : BitVec 32) : Fin 3 → Nat :=
  let c2_i32_269 : BitVec 32 := 2#32
  let v386 : Index := Scalar.indexCast c2_i32_269
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v385 : BitVec 32 := Scalar.addi v251 c1_i32_268
  let v387 : Index := Scalar.indexCast v385
  let c80_270 : Index := 80#32
  ![2, v387.toNat, 80]

def k0_chk26 (v405 : IVec S16 32) : Prop :=
  (∀ a x, ((![v405] : Fin 1 → IVec S16 32) a x).toNat < S4096.size a)
instance k0_chk26.dec : ∀ (v405 : IVec S16 32), Decidable (k0_chk26 v405) := fun v405 => decidable_of_iff' _ (Iff.of_eq (k0_chk26.eq_1 v405))
theorem k0_idx26_inb : ∀ (v405 : IVec S16 32) (k0_hw26 : k0_chk26 v405), ∀ a x, ((![v405] : Fin 1 → IVec S16 32) a x).toNat < S4096.size a := fun v405 k0_hw26 => k0_hw26
def k0_off49 (k0_t4 : Fin k0_t4_loop.trips) : Fin 3 → Nat :=
  let c2_i32_280 : BitVec 32 := 2#32
  let v408 : Index := Scalar.indexCast c2_i32_280
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v409 : Index := Scalar.indexCast v251
  let c96_281 : Index := 96#32
  ![2, v409.toNat, 96]
def k0_off50 (k0_t4 : Fin k0_t4_loop.trips) (c1_i32_282 : BitVec 32) : Fin 3 → Nat :=
  let c2_i32_283 : BitVec 32 := 2#32
  let v412 : Index := Scalar.indexCast c2_i32_283
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v411 : BitVec 32 := Scalar.addi v251 c1_i32_282
  let v413 : Index := Scalar.indexCast v411
  let c96_284 : Index := 96#32
  ![2, v413.toNat, 96]

def k0_chk27 (v431 : IVec S16 32) : Prop :=
  (∀ a x, ((![v431] : Fin 1 → IVec S16 32) a x).toNat < S4096.size a)
instance k0_chk27.dec : ∀ (v431 : IVec S16 32), Decidable (k0_chk27 v431) := fun v431 => decidable_of_iff' _ (Iff.of_eq (k0_chk27.eq_1 v431))
theorem k0_idx27_inb : ∀ (v431 : IVec S16 32) (k0_hw27 : k0_chk27 v431), ∀ a x, ((![v431] : Fin 1 → IVec S16 32) a x).toNat < S4096.size a := fun v431 k0_hw27 => k0_hw27
def k0_off51 (k0_t4 : Fin k0_t4_loop.trips) : Fin 3 → Nat :=
  let c2_i32_294 : BitVec 32 := 2#32
  let v434 : Index := Scalar.indexCast c2_i32_294
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v435 : Index := Scalar.indexCast v251
  let c112_295 : Index := 112#32
  ![2, v435.toNat, 112]
def k0_off52 (k0_t4 : Fin k0_t4_loop.trips) (c1_i32_296 : BitVec 32) : Fin 3 → Nat :=
  let c2_i32_297 : BitVec 32 := 2#32
  let v438 : Index := Scalar.indexCast c2_i32_297
  let c0_i32_123 : BitVec 32 := 0#32
  let c1_i32_125 : BitVec 32 := 1#32
  let arg20 : BitVec 32 := Scf.iv c0_i32_123 c1_i32_125 k0_t4
  let c4_i32 : BitVec 32 := 4#32
  let v251 : BitVec 32 := Scalar.muli arg20 c4_i32
  let v437 : BitVec 32 := Scalar.addi v251 c1_i32_296
  let v439 : Index := Scalar.indexCast v437
  let c112_298 : Index := 112#32
  ![2, v439.toNat, 112]

def k0_chk28 (v457 : IVec S16 32) : Prop :=
  (∀ a x, ((![v457] : Fin 1 → IVec S16 32) a x).toNat < S4096.size a)
instance k0_chk28.dec : ∀ (v457 : IVec S16 32), Decidable (k0_chk28 v457) := fun v457 => decidable_of_iff' _ (Iff.of_eq (k0_chk28.eq_1 v457))
theorem k0_idx28_inb : ∀ (v457 : IVec S16 32) (k0_hw28 : k0_chk28 v457), ∀ a x, ((![v457] : Fin 1 → IVec S16 32) a x).toNat < S4096.size a := fun v457 k0_hw28 => k0_hw28
@[reducible] def k0_t5_loop : Scf.Loop 32 :=
  let c0_i32_158 : BitVec 32 := 0#32
  let c50_i32_159 : BitVec 32 := 50#32
  let v201 : BitVec 32 := Scalar.addi c0_i32_158 c50_i32_159
  let c1_i32_160 : BitVec 32 := 1#32
  ⟨c0_i32_158, v201, c1_i32_160⟩
def k0_off53 (k0_t5 : Fin k0_t5_loop.trips) : Fin 3 → Nat :=
  let c3_i32_198 : BitVec 32 := 3#32
  let v252 : Index := Scalar.indexCast c3_i32_198
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v253 : Index := Scalar.indexCast v251
  let c0_199 : Index := 0#32
  ![3, v253.toNat, 0]
def k0_off54 (k0_t5 : Fin k0_t5_loop.trips) (c1_i32_200 : BitVec 32) : Fin 3 → Nat :=
  let c3_i32_201 : BitVec 32 := 3#32
  let v256 : Index := Scalar.indexCast c3_i32_201
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v255 : BitVec 32 := Scalar.addi v251 c1_i32_200
  let v257 : Index := Scalar.indexCast v255
  let c0_202 : Index := 0#32
  ![3, v257.toNat, 0]

def k0_chk29 (v275 : IVec S16 32) : Prop :=
  (∀ a x, ((![v275] : Fin 1 → IVec S16 32) a x).toNat < S4096.size a)
instance k0_chk29.dec : ∀ (v275 : IVec S16 32), Decidable (k0_chk29 v275) := fun v275 => decidable_of_iff' _ (Iff.of_eq (k0_chk29.eq_1 v275))
theorem k0_idx29_inb : ∀ (v275 : IVec S16 32) (k0_hw29 : k0_chk29 v275), ∀ a x, ((![v275] : Fin 1 → IVec S16 32) a x).toNat < S4096.size a := fun v275 k0_hw29 => k0_hw29
def k0_off55 (k0_t5 : Fin k0_t5_loop.trips) : Fin 3 → Nat :=
  let c3_i32_210 : BitVec 32 := 3#32
  let v278 : Index := Scalar.indexCast c3_i32_210
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v279 : Index := Scalar.indexCast v251
  let c16_211 : Index := 16#32
  ![3, v279.toNat, 16]
def k0_off56 (k0_t5 : Fin k0_t5_loop.trips) (c1_i32_212 : BitVec 32) : Fin 3 → Nat :=
  let c3_i32_213 : BitVec 32 := 3#32
  let v282 : Index := Scalar.indexCast c3_i32_213
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v281 : BitVec 32 := Scalar.addi v251 c1_i32_212
  let v283 : Index := Scalar.indexCast v281
  let c16_214 : Index := 16#32
  ![3, v283.toNat, 16]

def k0_chk30 (v301 : IVec S16 32) : Prop :=
  (∀ a x, ((![v301] : Fin 1 → IVec S16 32) a x).toNat < S4096.size a)
instance k0_chk30.dec : ∀ (v301 : IVec S16 32), Decidable (k0_chk30 v301) := fun v301 => decidable_of_iff' _ (Iff.of_eq (k0_chk30.eq_1 v301))
theorem k0_idx30_inb : ∀ (v301 : IVec S16 32) (k0_hw30 : k0_chk30 v301), ∀ a x, ((![v301] : Fin 1 → IVec S16 32) a x).toNat < S4096.size a := fun v301 k0_hw30 => k0_hw30
def k0_off57 (k0_t5 : Fin k0_t5_loop.trips) : Fin 3 → Nat :=
  let c3_i32_224 : BitVec 32 := 3#32
  let v304 : Index := Scalar.indexCast c3_i32_224
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v305 : Index := Scalar.indexCast v251
  let c32_225 : Index := 32#32
  ![3, v305.toNat, 32]
def k0_off58 (k0_t5 : Fin k0_t5_loop.trips) (c1_i32_226 : BitVec 32) : Fin 3 → Nat :=
  let c3_i32_227 : BitVec 32 := 3#32
  let v308 : Index := Scalar.indexCast c3_i32_227
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v307 : BitVec 32 := Scalar.addi v251 c1_i32_226
  let v309 : Index := Scalar.indexCast v307
  let c32_228 : Index := 32#32
  ![3, v309.toNat, 32]

def k0_chk31 (v327 : IVec S16 32) : Prop :=
  (∀ a x, ((![v327] : Fin 1 → IVec S16 32) a x).toNat < S4096.size a)
instance k0_chk31.dec : ∀ (v327 : IVec S16 32), Decidable (k0_chk31 v327) := fun v327 => decidable_of_iff' _ (Iff.of_eq (k0_chk31.eq_1 v327))
theorem k0_idx31_inb : ∀ (v327 : IVec S16 32) (k0_hw31 : k0_chk31 v327), ∀ a x, ((![v327] : Fin 1 → IVec S16 32) a x).toNat < S4096.size a := fun v327 k0_hw31 => k0_hw31
def k0_off59 (k0_t5 : Fin k0_t5_loop.trips) : Fin 3 → Nat :=
  let c3_i32_238 : BitVec 32 := 3#32
  let v330 : Index := Scalar.indexCast c3_i32_238
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v331 : Index := Scalar.indexCast v251
  let c48_239 : Index := 48#32
  ![3, v331.toNat, 48]
def k0_off60 (k0_t5 : Fin k0_t5_loop.trips) (c1_i32_240 : BitVec 32) : Fin 3 → Nat :=
  let c3_i32_241 : BitVec 32 := 3#32
  let v334 : Index := Scalar.indexCast c3_i32_241
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v333 : BitVec 32 := Scalar.addi v251 c1_i32_240
  let v335 : Index := Scalar.indexCast v333
  let c48_242 : Index := 48#32
  ![3, v335.toNat, 48]

def k0_chk32 (v353 : IVec S16 32) : Prop :=
  (∀ a x, ((![v353] : Fin 1 → IVec S16 32) a x).toNat < S4096.size a)
instance k0_chk32.dec : ∀ (v353 : IVec S16 32), Decidable (k0_chk32 v353) := fun v353 => decidable_of_iff' _ (Iff.of_eq (k0_chk32.eq_1 v353))
theorem k0_idx32_inb : ∀ (v353 : IVec S16 32) (k0_hw32 : k0_chk32 v353), ∀ a x, ((![v353] : Fin 1 → IVec S16 32) a x).toNat < S4096.size a := fun v353 k0_hw32 => k0_hw32
def k0_off61 (k0_t5 : Fin k0_t5_loop.trips) : Fin 3 → Nat :=
  let c3_i32_252 : BitVec 32 := 3#32
  let v356 : Index := Scalar.indexCast c3_i32_252
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v357 : Index := Scalar.indexCast v251
  let c64_253 : Index := 64#32
  ![3, v357.toNat, 64]
def k0_off62 (k0_t5 : Fin k0_t5_loop.trips) (c1_i32_254 : BitVec 32) : Fin 3 → Nat :=
  let c3_i32_255 : BitVec 32 := 3#32
  let v360 : Index := Scalar.indexCast c3_i32_255
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v359 : BitVec 32 := Scalar.addi v251 c1_i32_254
  let v361 : Index := Scalar.indexCast v359
  let c64_256 : Index := 64#32
  ![3, v361.toNat, 64]

def k0_chk33 (v379 : IVec S16 32) : Prop :=
  (∀ a x, ((![v379] : Fin 1 → IVec S16 32) a x).toNat < S4096.size a)
instance k0_chk33.dec : ∀ (v379 : IVec S16 32), Decidable (k0_chk33 v379) := fun v379 => decidable_of_iff' _ (Iff.of_eq (k0_chk33.eq_1 v379))
theorem k0_idx33_inb : ∀ (v379 : IVec S16 32) (k0_hw33 : k0_chk33 v379), ∀ a x, ((![v379] : Fin 1 → IVec S16 32) a x).toNat < S4096.size a := fun v379 k0_hw33 => k0_hw33
def k0_off63 (k0_t5 : Fin k0_t5_loop.trips) : Fin 3 → Nat :=
  let c3_i32_266 : BitVec 32 := 3#32
  let v382 : Index := Scalar.indexCast c3_i32_266
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v383 : Index := Scalar.indexCast v251
  let c80_267 : Index := 80#32
  ![3, v383.toNat, 80]
def k0_off64 (k0_t5 : Fin k0_t5_loop.trips) (c1_i32_268 : BitVec 32) : Fin 3 → Nat :=
  let c3_i32_269 : BitVec 32 := 3#32
  let v386 : Index := Scalar.indexCast c3_i32_269
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v385 : BitVec 32 := Scalar.addi v251 c1_i32_268
  let v387 : Index := Scalar.indexCast v385
  let c80_270 : Index := 80#32
  ![3, v387.toNat, 80]

def k0_chk34 (v405 : IVec S16 32) : Prop :=
  (∀ a x, ((![v405] : Fin 1 → IVec S16 32) a x).toNat < S4096.size a)
instance k0_chk34.dec : ∀ (v405 : IVec S16 32), Decidable (k0_chk34 v405) := fun v405 => decidable_of_iff' _ (Iff.of_eq (k0_chk34.eq_1 v405))
theorem k0_idx34_inb : ∀ (v405 : IVec S16 32) (k0_hw34 : k0_chk34 v405), ∀ a x, ((![v405] : Fin 1 → IVec S16 32) a x).toNat < S4096.size a := fun v405 k0_hw34 => k0_hw34
def k0_off65 (k0_t5 : Fin k0_t5_loop.trips) : Fin 3 → Nat :=
  let c3_i32_280 : BitVec 32 := 3#32
  let v408 : Index := Scalar.indexCast c3_i32_280
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v409 : Index := Scalar.indexCast v251
  let c96_281 : Index := 96#32
  ![3, v409.toNat, 96]
def k0_off66 (k0_t5 : Fin k0_t5_loop.trips) (c1_i32_282 : BitVec 32) : Fin 3 → Nat :=
  let c3_i32_283 : BitVec 32 := 3#32
  let v412 : Index := Scalar.indexCast c3_i32_283
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v411 : BitVec 32 := Scalar.addi v251 c1_i32_282
  let v413 : Index := Scalar.indexCast v411
  let c96_284 : Index := 96#32
  ![3, v413.toNat, 96]

def k0_chk35 (v431 : IVec S16 32) : Prop :=
  (∀ a x, ((![v431] : Fin 1 → IVec S16 32) a x).toNat < S4096.size a)
instance k0_chk35.dec : ∀ (v431 : IVec S16 32), Decidable (k0_chk35 v431) := fun v431 => decidable_of_iff' _ (Iff.of_eq (k0_chk35.eq_1 v431))
theorem k0_idx35_inb : ∀ (v431 : IVec S16 32) (k0_hw35 : k0_chk35 v431), ∀ a x, ((![v431] : Fin 1 → IVec S16 32) a x).toNat < S4096.size a := fun v431 k0_hw35 => k0_hw35
def k0_off67 (k0_t5 : Fin k0_t5_loop.trips) : Fin 3 → Nat :=
  let c3_i32_294 : BitVec 32 := 3#32
  let v434 : Index := Scalar.indexCast c3_i32_294
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v435 : Index := Scalar.indexCast v251
  let c112_295 : Index := 112#32
  ![3, v435.toNat, 112]
def k0_off68 (k0_t5 : Fin k0_t5_loop.trips) (c1_i32_296 : BitVec 32) : Fin 3 → Nat :=
  let c3_i32_297 : BitVec 32 := 3#32
  let v438 : Index := Scalar.indexCast c3_i32_297
  let c0_i32_158 : BitVec 32 := 0#32
  let c1_i32_160 : BitVec 32 := 1#32
  let arg20 : BitVec 32 := Scf.iv c0_i32_158 c1_i32_160 k0_t5
  let c4_i32 : BitVec 32 := 4#32
  let v251 : BitVec 32 := Scalar.muli arg20 c4_i32
  let v437 : BitVec 32 := Scalar.addi v251 c1_i32_296
  let v439 : Index := Scalar.indexCast v437
  let c112_298 : Index := 112#32
  ![3, v439.toNat, 112]

def k0_chk36 (v457 : IVec S16 32) : Prop :=
  (∀ a x, ((![v457] : Fin 1 → IVec S16 32) a x).toNat < S4096.size a)
instance k0_chk36.dec : ∀ (v457 : IVec S16 32), Decidable (k0_chk36 v457) := fun v457 => decidable_of_iff' _ (Iff.of_eq (k0_chk36.eq_1 v457))
theorem k0_idx36_inb : ∀ (v457 : IVec S16 32) (k0_hw36 : k0_chk36 v457), ∀ a x, ((![v457] : Fin 1 → IVec S16 32) a x).toNat < S4096.size a := fun v457 k0_hw36 => k0_hw36
def k0_off69 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x200_S200x16384_1_0 : S16384x200.Transposes [1, 0] S200x16384
  inb_S4x200x128_S1x200x128_0_0_0 : ∀ a, (![0, 0, 0] : Fin 3 → Nat) a + S1x200x128.size a ≤ S4x200x128.size a
  squeezes_S1x200x128_S200x128 : S1x200x128.Squeezes S200x128
  inb_S4x200x128_S1x200x128_1_0_0 : ∀ a, (![1, 0, 0] : Fin 3 → Nat) a + S1x200x128.size a ≤ S4x200x128.size a
  inb_S4x200x128_S1x200x128_2_0_0 : ∀ a, (![2, 0, 0] : Fin 3 → Nat) a + S1x200x128.size a ≤ S4x200x128.size a
  inb_S4x200x128_S1x200x128_3_0_0 : ∀ a, (![3, 0, 0] : Fin 3 → Nat) a + S1x200x128.size a ≤ S4x200x128.size a
  inb_S16_S8_0 : ∀ a, (![0] : Fin 1 → Nat) a + S8.size a ≤ S16.size a
  iota_S16_d0_w32_scVector : S16.Iotas .scVector 32 [0]
  h_S16 : 0 < S16.numel
  h_S1x1x16 : 0 < S1x1x16.numel
  shapeCasts_S1x1x16_S16 : S1x1x16.ShapeCasts S16
  h_S4096 : 0 < S4096.numel
  inb_S512_S16_0 : ∀ a, (![0] : Fin 1 → Nat) a + S16.size a ≤ S512.size a
  inb_S512_S16_16 : ∀ a, (![16] : Fin 1 → Nat) a + S16.size a ≤ S512.size a
  inb_S512_S16_32 : ∀ a, (![32] : Fin 1 → Nat) a + S16.size a ≤ S512.size a
  inb_S512_S16_48 : ∀ a, (![48] : Fin 1 → Nat) a + S16.size a ≤ S512.size a
  inb_S512_S16_64 : ∀ a, (![64] : Fin 1 → Nat) a + S16.size a ≤ S512.size a
  inb_S512_S16_80 : ∀ a, (![80] : Fin 1 → Nat) a + S16.size a ≤ S512.size a
  inb_S512_S16_96 : ∀ a, (![96] : Fin 1 → Nat) a + S16.size a ≤ S512.size a
  inb_S512_S16_112 : ∀ a, (![112] : Fin 1 → Nat) a + S16.size a ≤ S512.size a
  inb_S512_S16_128 : ∀ a, (![128] : Fin 1 → Nat) a + S16.size a ≤ S512.size a
  inb_S512_S16_144 : ∀ a, (![144] : Fin 1 → Nat) a + S16.size a ≤ S512.size a
  inb_S512_S16_160 : ∀ a, (![160] : Fin 1 → Nat) a + S16.size a ≤ S512.size a
  inb_S512_S16_176 : ∀ a, (![176] : Fin 1 → Nat) a + S16.size a ≤ S512.size a
  inb_S512_S16_192 : ∀ a, (![192] : Fin 1 → Nat) a + S16.size a ≤ S512.size a
  inb_S512_S16_208 : ∀ a, (![208] : Fin 1 → Nat) a + S16.size a ≤ S512.size a
  inb_S512_S16_224 : ∀ a, (![224] : Fin 1 → Nat) a + S16.size a ≤ S512.size a
  inb_S512_S16_240 : ∀ a, (![240] : Fin 1 → Nat) a + S16.size a ≤ S512.size a
  inb_S512_S16_256 : ∀ a, (![256] : Fin 1 → Nat) a + S16.size a ≤ S512.size a
  inb_S512_S16_272 : ∀ a, (![272] : Fin 1 → Nat) a + S16.size a ≤ S512.size a
  inb_S512_S16_288 : ∀ a, (![288] : Fin 1 → Nat) a + S16.size a ≤ S512.size a
  inb_S512_S16_304 : ∀ a, (![304] : Fin 1 → Nat) a + S16.size a ≤ S512.size a
  inb_S512_S16_320 : ∀ a, (![320] : Fin 1 → Nat) a + S16.size a ≤ S512.size a
  inb_S512_S16_336 : ∀ a, (![336] : Fin 1 → Nat) a + S16.size a ≤ S512.size a
  inb_S512_S16_352 : ∀ a, (![352] : Fin 1 → Nat) a + S16.size a ≤ S512.size a
  inb_S512_S16_368 : ∀ a, (![368] : Fin 1 → Nat) a + S16.size a ≤ S512.size a
  inb_S512_S16_384 : ∀ a, (![384] : Fin 1 → Nat) a + S16.size a ≤ S512.size a
  inb_S512_S16_400 : ∀ a, (![400] : Fin 1 → Nat) a + S16.size a ≤ S512.size a
  inb_S512_S16_416 : ∀ a, (![416] : Fin 1 → Nat) a + S16.size a ≤ S512.size a
  inb_S512_S16_432 : ∀ a, (![432] : Fin 1 → Nat) a + S16.size a ≤ S512.size a
  inb_S512_S16_448 : ∀ a, (![448] : Fin 1 → Nat) a + S16.size a ≤ S512.size a
  inb_S512_S16_464 : ∀ a, (![464] : Fin 1 → Nat) a + S16.size a ≤ S512.size a
  inb_S512_S16_480 : ∀ a, (![480] : Fin 1 → Nat) a + S16.size a ≤ S512.size a
  inb_S512_S16_496 : ∀ a, (![496] : Fin 1 → Nat) a + S16.size a ≤ S512.size a
  transposes_S200x16384_S16384x200_1_0 : S200x16384.Transposes [1, 0] S16384x200
  hcc0_scratch5 : 0 + S_.numel ≤ 11
  hcc0_scratch6 : 1 + S_.numel ≤ 11
  hcc0_scratch7 : 2 + S_.numel ≤ 11
  hcc0_scratch8 : 3 + S_.numel ≤ 11
  hcc0_scratch9 : 4 + S_.numel ≤ 11
  hcc0_scratch10 : 5 + S_.numel ≤ 11
  hcc0_scratch11 : 6 + S_.numel ≤ 11
  hcc0_scratch12 : 7 + S_.numel ≤ 11
  hcc0_scoped0 : 8 + S_.numel ≤ 11
  hcc0_scoped1 : 9 + S_.numel ≤ 11
  hcc0_scoped2 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 (128 * r.val))) a + S200x128.size a ≤ S200x16384.size a
  k0_off2_inb : ∀ i : grid0.Coords, ∀ a, (k0_off2 i) a + S512.size a ≤ S16384.size a
  k0_t1_ok : k0_t1_loop.OK
  k0_off3_inb : ∀ k0_t1 : Fin k0_t1_loop.trips, ∀ a, (k0_off3 k0_t1) a + S16.size a ≤ S4096.size a
  k0_off4_inb : ∀ i : grid0.Coords, ∀ (r : Fin 4), ∀ a, (k0_off4 i (BitVec.ofNat 32 (128 * r.val))) a + S200x128.size a ≤ S200x16384.size a
  k0_t2_ok : k0_t2_loop.OK
  k0_off5_inb : ∀ k0_t2 : Fin k0_t2_loop.trips, ∀ a, (k0_off5 k0_t2) a + S1x1x16.size a ≤ S4x200x128.size a
  k0_off6_inb : ∀ k0_t2 : Fin k0_t2_loop.trips, ∀ (r : Fin 3), ∀ a, (k0_off6 k0_t2 (BitVec.ofNat 32 (1 + r.val))) a + S1x1x16.size a ≤ S4x200x128.size a
  k0_off7_inb : ∀ k0_t2 : Fin k0_t2_loop.trips, ∀ a, (k0_off7 k0_t2) a + S1x1x16.size a ≤ S4x200x128.size a
  k0_off8_inb : ∀ k0_t2 : Fin k0_t2_loop.trips, ∀ (r : Fin 3), ∀ a, (k0_off8 k0_t2 (BitVec.ofNat 32 (1 + r.val))) a + S1x1x16.size a ≤ S4x200x128.size a
  k0_off9_inb : ∀ k0_t2 : Fin k0_t2_loop.trips, ∀ a, (k0_off9 k0_t2) a + S1x1x16.size a ≤ S4x200x128.size a
  k0_off10_inb : ∀ k0_t2 : Fin k0_t2_loop.trips, ∀ (r : Fin 3), ∀ a, (k0_off10 k0_t2 (BitVec.ofNat 32 (1 + r.val))) a + S1x1x16.size a ≤ S4x200x128.size a
  k0_off11_inb : ∀ k0_t2 : Fin k0_t2_loop.trips, ∀ a, (k0_off11 k0_t2) a + S1x1x16.size a ≤ S4x200x128.size a
  k0_off12_inb : ∀ k0_t2 : Fin k0_t2_loop.trips, ∀ (r : Fin 3), ∀ a, (k0_off12 k0_t2 (BitVec.ofNat 32 (1 + r.val))) a + S1x1x16.size a ≤ S4x200x128.size a
  k0_off13_inb : ∀ k0_t2 : Fin k0_t2_loop.trips, ∀ a, (k0_off13 k0_t2) a + S1x1x16.size a ≤ S4x200x128.size a
  k0_off14_inb : ∀ k0_t2 : Fin k0_t2_loop.trips, ∀ (r : Fin 3), ∀ a, (k0_off14 k0_t2 (BitVec.ofNat 32 (1 + r.val))) a + S1x1x16.size a ≤ S4x200x128.size a
  k0_off15_inb : ∀ k0_t2 : Fin k0_t2_loop.trips, ∀ a, (k0_off15 k0_t2) a + S1x1x16.size a ≤ S4x200x128.size a
  k0_off16_inb : ∀ k0_t2 : Fin k0_t2_loop.trips, ∀ (r : Fin 3), ∀ a, (k0_off16 k0_t2 (BitVec.ofNat 32 (1 + r.val))) a + S1x1x16.size a ≤ S4x200x128.size a
  k0_off17_inb : ∀ k0_t2 : Fin k0_t2_loop.trips, ∀ a, (k0_off17 k0_t2) a + S1x1x16.size a ≤ S4x200x128.size a
  k0_off18_inb : ∀ k0_t2 : Fin k0_t2_loop.trips, ∀ (r : Fin 3), ∀ a, (k0_off18 k0_t2 (BitVec.ofNat 32 (1 + r.val))) a + S1x1x16.size a ≤ S4x200x128.size a
  k0_off19_inb : ∀ k0_t2 : Fin k0_t2_loop.trips, ∀ a, (k0_off19 k0_t2) a + S1x1x16.size a ≤ S4x200x128.size a
  k0_off20_inb : ∀ k0_t2 : Fin k0_t2_loop.trips, ∀ (r : Fin 3), ∀ a, (k0_off20 k0_t2 (BitVec.ofNat 32 (1 + r.val))) a + S1x1x16.size a ≤ S4x200x128.size a
  k0_t3_ok : k0_t3_loop.OK
  k0_off21_inb : ∀ k0_t3 : Fin k0_t3_loop.trips, ∀ a, (k0_off21 k0_t3) a + S1x1x16.size a ≤ S4x200x128.size a
  k0_off22_inb : ∀ k0_t3 : Fin k0_t3_loop.trips, ∀ (r : Fin 3), ∀ a, (k0_off22 k0_t3 (BitVec.ofNat 32 (1 + r.val))) a + S1x1x16.size a ≤ S4x200x128.size a
  k0_off23_inb : ∀ k0_t3 : Fin k0_t3_loop.trips, ∀ a, (k0_off23 k0_t3) a + S1x1x16.size a ≤ S4x200x128.size a
  k0_off24_inb : ∀ k0_t3 : Fin k0_t3_loop.trips, ∀ (r : Fin 3), ∀ a, (k0_off24 k0_t3 (BitVec.ofNat 32 (1 + r.val))) a + S1x1x16.size a ≤ S4x200x128.size a
  k0_off25_inb : ∀ k0_t3 : Fin k0_t3_loop.trips, ∀ a, (k0_off25 k0_t3) a + S1x1x16.size a ≤ S4x200x128.size a
  k0_off26_inb : ∀ k0_t3 : Fin k0_t3_loop.trips, ∀ (r : Fin 3), ∀ a, (k0_off26 k0_t3 (BitVec.ofNat 32 (1 + r.val))) a + S1x1x16.size a ≤ S4x200x128.size a
  k0_off27_inb : ∀ k0_t3 : Fin k0_t3_loop.trips, ∀ a, (k0_off27 k0_t3) a + S1x1x16.size a ≤ S4x200x128.size a
  k0_off28_inb : ∀ k0_t3 : Fin k0_t3_loop.trips, ∀ (r : Fin 3), ∀ a, (k0_off28 k0_t3 (BitVec.ofNat 32 (1 + r.val))) a + S1x1x16.size a ≤ S4x200x128.size a
  k0_off29_inb : ∀ k0_t3 : Fin k0_t3_loop.trips, ∀ a, (k0_off29 k0_t3) a + S1x1x16.size a ≤ S4x200x128.size a
  k0_off30_inb : ∀ k0_t3 : Fin k0_t3_loop.trips, ∀ (r : Fin 3), ∀ a, (k0_off30 k0_t3 (BitVec.ofNat 32 (1 + r.val))) a + S1x1x16.size a ≤ S4x200x128.size a
  k0_off31_inb : ∀ k0_t3 : Fin k0_t3_loop.trips, ∀ a, (k0_off31 k0_t3) a + S1x1x16.size a ≤ S4x200x128.size a
  k0_off32_inb : ∀ k0_t3 : Fin k0_t3_loop.trips, ∀ (r : Fin 3), ∀ a, (k0_off32 k0_t3 (BitVec.ofNat 32 (1 + r.val))) a + S1x1x16.size a ≤ S4x200x128.size a
  k0_off33_inb : ∀ k0_t3 : Fin k0_t3_loop.trips, ∀ a, (k0_off33 k0_t3) a + S1x1x16.size a ≤ S4x200x128.size a
  k0_off34_inb : ∀ k0_t3 : Fin k0_t3_loop.trips, ∀ (r : Fin 3), ∀ a, (k0_off34 k0_t3 (BitVec.ofNat 32 (1 + r.val))) a + S1x1x16.size a ≤ S4x200x128.size a
  k0_off35_inb : ∀ k0_t3 : Fin k0_t3_loop.trips, ∀ a, (k0_off35 k0_t3) a + S1x1x16.size a ≤ S4x200x128.size a
  k0_off36_inb : ∀ k0_t3 : Fin k0_t3_loop.trips, ∀ (r : Fin 3), ∀ a, (k0_off36 k0_t3 (BitVec.ofNat 32 (1 + r.val))) a + S1x1x16.size a ≤ S4x200x128.size a
  k0_t4_ok : k0_t4_loop.OK
  k0_off37_inb : ∀ k0_t4 : Fin k0_t4_loop.trips, ∀ a, (k0_off37 k0_t4) a + S1x1x16.size a ≤ S4x200x128.size a
  k0_off38_inb : ∀ k0_t4 : Fin k0_t4_loop.trips, ∀ (r : Fin 3), ∀ a, (k0_off38 k0_t4 (BitVec.ofNat 32 (1 + r.val))) a + S1x1x16.size a ≤ S4x200x128.size a
  k0_off39_inb : ∀ k0_t4 : Fin k0_t4_loop.trips, ∀ a, (k0_off39 k0_t4) a + S1x1x16.size a ≤ S4x200x128.size a
  k0_off40_inb : ∀ k0_t4 : Fin k0_t4_loop.trips, ∀ (r : Fin 3), ∀ a, (k0_off40 k0_t4 (BitVec.ofNat 32 (1 + r.val))) a + S1x1x16.size a ≤ S4x200x128.size a
  k0_off41_inb : ∀ k0_t4 : Fin k0_t4_loop.trips, ∀ a, (k0_off41 k0_t4) a + S1x1x16.size a ≤ S4x200x128.size a
  k0_off42_inb : ∀ k0_t4 : Fin k0_t4_loop.trips, ∀ (r : Fin 3), ∀ a, (k0_off42 k0_t4 (BitVec.ofNat 32 (1 + r.val))) a + S1x1x16.size a ≤ S4x200x128.size a
  k0_off43_inb : ∀ k0_t4 : Fin k0_t4_loop.trips, ∀ a, (k0_off43 k0_t4) a + S1x1x16.size a ≤ S4x200x128.size a
  k0_off44_inb : ∀ k0_t4 : Fin k0_t4_loop.trips, ∀ (r : Fin 3), ∀ a, (k0_off44 k0_t4 (BitVec.ofNat 32 (1 + r.val))) a + S1x1x16.size a ≤ S4x200x128.size a
  k0_off45_inb : ∀ k0_t4 : Fin k0_t4_loop.trips, ∀ a, (k0_off45 k0_t4) a + S1x1x16.size a ≤ S4x200x128.size a
  k0_off46_inb : ∀ k0_t4 : Fin k0_t4_loop.trips, ∀ (r : Fin 3), ∀ a, (k0_off46 k0_t4 (BitVec.ofNat 32 (1 + r.val))) a + S1x1x16.size a ≤ S4x200x128.size a
  k0_off47_inb : ∀ k0_t4 : Fin k0_t4_loop.trips, ∀ a, (k0_off47 k0_t4) a + S1x1x16.size a ≤ S4x200x128.size a
  k0_off48_inb : ∀ k0_t4 : Fin k0_t4_loop.trips, ∀ (r : Fin 3), ∀ a, (k0_off48 k0_t4 (BitVec.ofNat 32 (1 + r.val))) a + S1x1x16.size a ≤ S4x200x128.size a
  k0_off49_inb : ∀ k0_t4 : Fin k0_t4_loop.trips, ∀ a, (k0_off49 k0_t4) a + S1x1x16.size a ≤ S4x200x128.size a
  k0_off50_inb : ∀ k0_t4 : Fin k0_t4_loop.trips, ∀ (r : Fin 3), ∀ a, (k0_off50 k0_t4 (BitVec.ofNat 32 (1 + r.val))) a + S1x1x16.size a ≤ S4x200x128.size a
  k0_off51_inb : ∀ k0_t4 : Fin k0_t4_loop.trips, ∀ a, (k0_off51 k0_t4) a + S1x1x16.size a ≤ S4x200x128.size a
  k0_off52_inb : ∀ k0_t4 : Fin k0_t4_loop.trips, ∀ (r : Fin 3), ∀ a, (k0_off52 k0_t4 (BitVec.ofNat 32 (1 + r.val))) a + S1x1x16.size a ≤ S4x200x128.size a
  k0_t5_ok : k0_t5_loop.OK
  k0_off53_inb : ∀ k0_t5 : Fin k0_t5_loop.trips, ∀ a, (k0_off53 k0_t5) a + S1x1x16.size a ≤ S4x200x128.size a
  k0_off54_inb : ∀ k0_t5 : Fin k0_t5_loop.trips, ∀ (r : Fin 3), ∀ a, (k0_off54 k0_t5 (BitVec.ofNat 32 (1 + r.val))) a + S1x1x16.size a ≤ S4x200x128.size a
  k0_off55_inb : ∀ k0_t5 : Fin k0_t5_loop.trips, ∀ a, (k0_off55 k0_t5) a + S1x1x16.size a ≤ S4x200x128.size a
  k0_off56_inb : ∀ k0_t5 : Fin k0_t5_loop.trips, ∀ (r : Fin 3), ∀ a, (k0_off56 k0_t5 (BitVec.ofNat 32 (1 + r.val))) a + S1x1x16.size a ≤ S4x200x128.size a
  k0_off57_inb : ∀ k0_t5 : Fin k0_t5_loop.trips, ∀ a, (k0_off57 k0_t5) a + S1x1x16.size a ≤ S4x200x128.size a
  k0_off58_inb : ∀ k0_t5 : Fin k0_t5_loop.trips, ∀ (r : Fin 3), ∀ a, (k0_off58 k0_t5 (BitVec.ofNat 32 (1 + r.val))) a + S1x1x16.size a ≤ S4x200x128.size a
  k0_off59_inb : ∀ k0_t5 : Fin k0_t5_loop.trips, ∀ a, (k0_off59 k0_t5) a + S1x1x16.size a ≤ S4x200x128.size a
  k0_off60_inb : ∀ k0_t5 : Fin k0_t5_loop.trips, ∀ (r : Fin 3), ∀ a, (k0_off60 k0_t5 (BitVec.ofNat 32 (1 + r.val))) a + S1x1x16.size a ≤ S4x200x128.size a
  k0_off61_inb : ∀ k0_t5 : Fin k0_t5_loop.trips, ∀ a, (k0_off61 k0_t5) a + S1x1x16.size a ≤ S4x200x128.size a
  k0_off62_inb : ∀ k0_t5 : Fin k0_t5_loop.trips, ∀ (r : Fin 3), ∀ a, (k0_off62 k0_t5 (BitVec.ofNat 32 (1 + r.val))) a + S1x1x16.size a ≤ S4x200x128.size a
  k0_off63_inb : ∀ k0_t5 : Fin k0_t5_loop.trips, ∀ a, (k0_off63 k0_t5) a + S1x1x16.size a ≤ S4x200x128.size a
  k0_off64_inb : ∀ k0_t5 : Fin k0_t5_loop.trips, ∀ (r : Fin 3), ∀ a, (k0_off64 k0_t5 (BitVec.ofNat 32 (1 + r.val))) a + S1x1x16.size a ≤ S4x200x128.size a
  k0_off65_inb : ∀ k0_t5 : Fin k0_t5_loop.trips, ∀ a, (k0_off65 k0_t5) a + S1x1x16.size a ≤ S4x200x128.size a
  k0_off66_inb : ∀ k0_t5 : Fin k0_t5_loop.trips, ∀ (r : Fin 3), ∀ a, (k0_off66 k0_t5 (BitVec.ofNat 32 (1 + r.val))) a + S1x1x16.size a ≤ S4x200x128.size a
  k0_off67_inb : ∀ k0_t5 : Fin k0_t5_loop.trips, ∀ a, (k0_off67 k0_t5) a + S1x1x16.size a ≤ S4x200x128.size a
  k0_off68_inb : ∀ k0_t5 : Fin k0_t5_loop.trips, ∀ (r : Fin 3), ∀ a, (k0_off68 k0_t5 (BitVec.ofNat 32 (1 + r.val))) a + S1x1x16.size a ≤ S4x200x128.size a
  k0_off69_inb : ∀ i : grid0.Coords, ∀ a, (k0_off69 i) a + S512.size a ≤ S16384.size a

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scratch9 : DmaSems sig S_ := SemArray.consecutive 4 S_ hcc0_scratch9
abbrev cc0_scratch10 : DmaSems sig S_ := SemArray.consecutive 5 S_ hcc0_scratch10
abbrev cc0_scratch11 : DmaSems sig S_ := SemArray.consecutive 6 S_ hcc0_scratch11
abbrev cc0_scratch12 : DmaSems sig S_ := SemArray.consecutive 7 S_ hcc0_scratch12
abbrev cc0_scoped0 : DmaSems sig S_ := SemArray.consecutive 8 S_ hcc0_scoped0
abbrev cc0_scoped1 : DmaSems sig S_ := SemArray.consecutive 9 S_ hcc0_scoped1
abbrev cc0_scoped2 : DmaSems sig S_ := SemArray.consecutive 10 S_ hcc0_scoped2

class Facts : Prop extends Facts₀ where

variable [Facts]
-- ==== ReferenceIdeal.lean ====
abbrev S16384x200 : Shape := ⟨2, ![16384, 200]⟩
abbrev S16384 : Shape := ⟨1, ![16384]⟩
abbrev S8 : Shape := ⟨1, ![8]⟩
abbrev S_ : Shape := ⟨0, ![]⟩
abbrev S16384x200x1 : Shape := ⟨3, ![16384, 200, 1]⟩
abbrev S1 : Shape := ⟨1, ![1]⟩
abbrev S1x1x1 : Shape := ⟨3, ![1, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S16384x200, .i32⟩
  | .hbm, ⟨1, _⟩ => ⟨S16384, .f32⟩
  | .hbm, ⟨2, _⟩ => ⟨S8, .f32⟩
  | .hbm, ⟨3, _⟩ => ⟨S_, .i32⟩
  | .hbm, ⟨4, _⟩ => ⟨S16384x200, .i32⟩
  | .hbm, ⟨5, _⟩ => ⟨S16384x200, .i1⟩
  | .hbm, ⟨6, _⟩ => ⟨S_, .i32⟩
  | .hbm, ⟨7, _⟩ => ⟨S_, .i32⟩
  | .hbm, ⟨8, _⟩ => ⟨S16384x200, .i32⟩
  | .hbm, ⟨9, _⟩ => ⟨S16384x200, .i32⟩
  | .hbm, ⟨10, _⟩ => ⟨S_, .i32⟩
  | .hbm, ⟨11, _⟩ => ⟨S16384x200, .i32⟩
  | .hbm, ⟨12, _⟩ => ⟨S16384x200, .i1⟩
  | .hbm, ⟨13, _⟩ => ⟨S_, .i32⟩
  | .hbm, ⟨14, _⟩ => ⟨S16384x200, .i32⟩
  | .hbm, ⟨15, _⟩ => ⟨S16384x200, .i32⟩
  | .hbm, ⟨16, _⟩ => ⟨S16384x200, .i32⟩
  | .hbm, ⟨17, _⟩ => ⟨S16384x200x1, .i32⟩
  | .hbm, ⟨18, _⟩ => ⟨S1, .i32⟩
  | .hbm, ⟨19, _⟩ => ⟨S_, .i32⟩
  | .hbm, ⟨20, _⟩ => ⟨S16384x200x1, .i32⟩
  | .hbm, ⟨21, _⟩ => ⟨S16384x200x1, .i1⟩
  | .hbm, ⟨22, _⟩ => ⟨S1x1x1, .i32⟩
  | .hbm, ⟨23, _⟩ => ⟨S16384x200x1, .i32⟩
  | .hbm, ⟨24, _⟩ => ⟨S16384x200x1, .i1⟩
  | .hbm, ⟨25, _⟩ => ⟨S16384x200x1, .i1⟩
  | .hbm, ⟨26, _⟩ => ⟨S_, .i1⟩
  | .hbm, ⟨27, _⟩ => ⟨S16384x200, .i1⟩
  | .hbm, ⟨28, _⟩ => ⟨S16384x200, .f32⟩
  | .hbm, ⟨29, _⟩ => ⟨S_, .f32⟩
  | .hbm, ⟨30, _⟩ => ⟨S16384x200, .f32⟩
  | .hbm, ⟨31, _⟩ => ⟨S16384x200, .f32⟩
  | .hbm, ⟨32, _⟩ => ⟨S_, .f32⟩
  | .hbm, ⟨33, _⟩ => ⟨S_, .f32⟩
  | .hbm, ⟨34, _⟩ => ⟨S16384x200, .f32⟩
  | .hbm, ⟨35, _⟩ => ⟨S16384x200, .f32⟩
  | .hbm, ⟨36, _⟩ => ⟨S_, .f32⟩
  | .hbm, ⟨37, _⟩ => ⟨S16384, .f32⟩
  | .hbm, ⟨38, _⟩ => ⟨S16384, .f32⟩
  | _, _ => ⟨S16384x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_call1_c : Ref sig .tc := ⟨.hbm, 10, rfl⟩
abbrev main_call1_v0 : Ref sig .tc := ⟨.hbm, 11, rfl⟩
abbrev main_call1_v1 : Ref sig .tc := ⟨.hbm, 12, rfl⟩
abbrev main_call1_c_0 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_c_1 : Ref sig .tc := ⟨.hbm, 18, rfl⟩
abbrev main_call1_c_2 : Ref sig .tc := ⟨.hbm, 19, rfl⟩
abbrev main_call1_v6 : Ref sig .tc := ⟨.hbm, 20, rfl⟩
abbrev main_call1_v7 : Ref sig .tc := ⟨.hbm, 21, rfl⟩
abbrev main_call1_v8 : Ref sig .tc := ⟨.hbm, 22, rfl⟩
abbrev main_call1_v9 : Ref sig .tc := ⟨.hbm, 23, rfl⟩
abbrev main_call1_v10 : Ref sig .tc := ⟨.hbm, 24, rfl⟩
abbrev main_call1_v11 : Ref sig .tc := ⟨.hbm, 25, rfl⟩
abbrev main_call1_c_3 : Ref sig .tc := ⟨.hbm, 26, rfl⟩
abbrev main_call1_v12 : Ref sig .tc := ⟨.hbm, 27, rfl⟩
abbrev main_call1_v13 : Ref sig .tc := ⟨.hbm, 28, rfl⟩
abbrev main_call1_cst : Ref sig .tc := ⟨.hbm, 29, rfl⟩
abbrev main_call1_v14 : Ref sig .tc := ⟨.hbm, 30, rfl⟩
abbrev main_v3 : Ref sig .tc := ⟨.hbm, 31, rfl⟩
abbrev main_cst : Ref sig .tc := ⟨.hbm, 32, rfl⟩
abbrev main_call2_v0 : Ref sig .tc := ⟨.hbm, 33, rfl⟩
abbrev main_call2_v1 : Ref sig .tc := ⟨.hbm, 34, rfl⟩
abbrev main_v4 : Ref sig .tc := ⟨.hbm, 35, rfl⟩
abbrev main_cst_1 : Ref sig .tc := ⟨.hbm, 36, rfl⟩
abbrev main_v5 : Ref sig .tc := ⟨.hbm, 37, rfl⟩
abbrev main_v6 : Ref sig .tc := ⟨.hbm, 38, rfl⟩

abbrev nD : Nat := 1
abbrev τ : Topo := Topo.v7x

variable {F : FTy → Type} [FloatOps F]

class Facts₀ : Prop where
  bcast_S_S16384x200 : S_.BroadcastsInDim S16384x200 (![] : Fin 0 → Fin S16384x200.rank)
  bcast_S16384x200_S16384x200x1_0_1 : S16384x200.BroadcastsInDim S16384x200x1 (![0, 1] : Fin 2 → Fin S16384x200x1.rank)
  bcast_S_S16384x200x1 : S_.BroadcastsInDim S16384x200x1 (![] : Fin 0 → Fin S16384x200x1.rank)
  bcast_S1_S1x1x1_2 : S1.BroadcastsInDim S1x1x1 (![2] : Fin 1 → Fin S1x1x1.rank)
  bcast_S1x1x1_S16384x200x1_0_1_2 : S1x1x1.BroadcastsInDim S16384x200x1 (![0, 1, 2] : Fin 3 → Fin S16384x200x1.rank)
  reducesTo_S16384x200x1_S16384x200_d2 : S16384x200x1.ReducesTo [2] S16384x200
  h_S_ : 0 < S_.numel
  reducesTo_S16384x200_S16384_d1 : S16384x200.ReducesTo [1] S16384
  gather_S8_S16384x200x1_S16384x200_n_0_n_n_0_2_1_wf : GatherDims.WF S8 S16384x200x1 S16384x200 [] [0] [] [0] [] 2 ![1]

variable [Facts₀]

def gather_S8_S16384x200x1_S16384x200_n_0_n_n_0_2_1 : GatherDims S8 S16384x200x1 S16384x200 where
  offsetDims := []
  collapsedSliceDims := [0]
  operandBatchingDims := []
  startIndicesBatchingDims := []
  startIndexMap := [0]
  indexVectorDim := 2
  sliceSizes := ![1]
  wf := gather_S8_S16384x200x1_S16384x200_n_0_n_n_0_2_1_wf

class Facts : Prop extends Facts₀ where

variable [Facts]
-- ==== Proof.SetupKI.lean ====
/-
  The idealized kernel as the SparseCore launch theorem sees it: the configuration, the body table, the variants, the
  side conditions of the handshake semaphores, and the resource algebra (the handshakes' rounds beside the local
  transfers' counters). One vector-subcore kernel on two SparseCores of sixteen tiles each: tile (c, s) is worker
  2 s + c and owns molecules 512 (2 s + c) .. 512 (2 s + c) + 511.
-/
import proofs.«206988_g4337916970008_retrytranche1_694_23_alg».proof.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206988_g4337916970008_retrytranche1_694_23_alg».proof.Proof.Gen.KernelIdeal
import proofs.«206988_g4337916970008_retrytranche1_694_23_alg».proof.Proof.Gen.KernelIdeal.Skeleton

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The grid point of tile (c, s). -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

end Cert.Proof.KI

end
-- ==== Proof.LibScSplit.lean ====
/-
  Cutting a points-to among the tiles of two SparseCores, and joining it again.

  Three ways an array held whole is cut, each an equation between the whole and the parts side by side:
  along the share (the share halved n times has 2 ^ n leaves; the full share halved five times gives one leaf per
  tile, numbered 16 * core + subcore); along a finite family of pairwise disjoint sets of elements that cover the array;
  and, for a rectangle's n equal parts along one axis, along any numbering of the parts by a finite type. Joining
  parts held at different contents gives the whole at some contents.
-/
import Idealize.ShloMosaic.Lib.SparseCore.Launch
import Idealize.ShloMosaic.Lib.Tactic

noncomputable section

namespace Cert.Lib.ScSplit

open Idealize.ShloMosaic
open Idealize.SL Idealize.SL.RA Idealize.SL.BI
open scoped Idealize.SL.BI
open Idealize.SL.BI.BIBase Idealize.SL.BI.Laws Idealize.SL.ProofMode Idealize.SL.Sem

/-! ## Sums over places -/

section BigSep

universe u
variable {M : Type u} [URA M]

/-- A sum over the numbers below 32 is a sum over core and subcore, number 16 * core + subcore. -/
theorem bigSep_range_places (Φ : ℕ → sProp M) :
    bigSep (Finset.range 32) Φ
      = bigSep Finset.univ fun c : Fin 2 => bigSep Finset.univ fun s : Fin 16 => Φ (16 * c.val + s.val) := by
  rw [← bigSep_univ_prod (fun p : Fin 2 × Fin 16 => Φ (16 * p.1.val + p.2.val))]
  have hinj : Function.Injective fun p : Fin 2 × Fin 16 => 16 * p.1.val + p.2.val := by
    rintro ⟨c, s⟩ ⟨c', s'⟩ h
    have h' : 16 * c.val + s.val = 16 * c'.val + s'.val := h
    have hc : c = c' := Fin.ext (by omega)
    have hs : s = s' := Fin.ext (by omega)
    rw [hc, hs]
  have hr : Finset.range 32 = (Finset.univ : Finset (Fin 2 × Fin 16)).map ⟨_, hinj⟩ := by
    ext i
    simp only [Finset.mem_range, Finset.mem_map, Finset.mem_univ, true_and, Function.Embedding.coeFn_mk, Prod.exists]
    constructor
    · intro hi
      exact ⟨⟨i / 16, by omega⟩, ⟨i % 16, by omega⟩, by simp only []; omega⟩
    · rintro ⟨c, s, rfl⟩
      omega
  rw [hr, bigSep_map]
  rfl

/-- A sum over two indices of a product is the product of the sums. -/
theorem bigSep2_sep {α β : Type} [Fintype α] [Fintype β] (Φ Ψ : α → β → sProp M) :
    (bigSep Finset.univ fun a => bigSep Finset.univ fun b => iprop(Φ a b ∗ Ψ a b))
      = iprop((bigSep Finset.univ fun a => bigSep Finset.univ fun b => Φ a b)
          ∗ bigSep Finset.univ fun a => bigSep Finset.univ fun b => Ψ a b) :=
  (bigSep_congr fun a _ => bigSep_sep' Finset.univ (Φ a) (Ψ a)).trans (bigSep_sep' Finset.univ _ _)

/-- A sum over ten indices, written out. -/
theorem bigSep_univ_ten (Φ : Fin 10 → sProp M) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [show (Finset.univ : Finset (Fin 10)) = {0, 1, 2, 3, 4, 5, 6, 7, 8, 9} from by decide,
    bigSep_insert (by decide), bigSep_insert (by decide), bigSep_insert (by decide), bigSep_insert (by decide),
    bigSep_insert (by decide), bigSep_insert (by decide), bigSep_insert (by decide), bigSep_insert (by decide),
    bigSep_insert (by decide), bigSep_singleton]
  rfl

end BigSep

/-! ## The share halved n times -/

/-- Leaf i of the share q halved n times: the lower half of the numbers lies in the left half of q. -/
def leaf : ℕ → PosShare TreeShare → ℕ → PosShare TreeShare
  | 0, q, _ => q
  | n + 1, q, i => if i < 2 ^ n then leaf n q.left i else leaf n q.right (i - 2 ^ n)

/-- The share of the tile on core c, subcore s: leaf 16 * c + s of the full share halved five times. -/
def sh (c s : ℕ) : PosShare TreeShare := leaf 5 fullShare (16 * c + s)

section PointsTo

variable {nD : Nat} {τ : Topo} {sig : RefSig} {Ix : Type} [DecidableEq Ix]
variable {Val : EltTy → Type} {Name : Type} [DecidableEq Name]
variable {U : Type} [URA U] {Lvl : Type}
local notation "𝕄" => MT nD τ sig Ix Val Name U Lvl

variable {ℓ : Loc nD τ sig}

/-- A points-to at a share is its 2 ^ n leaves' side by side. -/
theorem pointsTo_leaves (I : Finset (Idx ℓ)) (f : Buf Val ℓ) :
    ∀ (n : ℕ) (q : PosShare TreeShare),
      (ℓ ↦[I]{q} f : sProp 𝕄) = bigSep (Finset.range (2 ^ n)) fun i => ℓ ↦[I]{leaf n q i} f
  | 0, q => by
    rw [show Finset.range (2 ^ 0) = {0} from rfl, bigSep_singleton]
    rfl
  | n + 1, q => by
    have hq : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    have hr : Finset.range (2 ^ (n + 1)) = Finset.range (2 ^ n) ∪ (Finset.range (2 ^ n)).map (addLeftEmbedding (2 ^ n)) := by
      rw [← Finset.range_add_eq_union, pow_succ, Nat.mul_two]
    have hd : Disjoint (Finset.range (2 ^ n)) ((Finset.range (2 ^ n)).map (addLeftEmbedding (2 ^ n))) := by
      rw [Finset.disjoint_left]
      intro i hi hi'
      obtain ⟨j, -, rfl⟩ := Finset.mem_map.mp hi'
      have hlt := Finset.mem_range.mp hi
      have e : (addLeftEmbedding (2 ^ n)) j = 2 ^ n + j := rfl
      omega
    rw [hq, pointsTo_leaves I f n q.left, pointsTo_leaves I f n q.right, hr, bigSep_union hd, bigSep_map]
    congr 1 <;> refine bigSep_congr fun i hi => ?_
    · rw [leaf, if_pos (Finset.mem_range.mp hi)]
    · have e : (addLeftEmbedding (2 ^ n)) i = 2 ^ n + i := rfl
      rw [e, leaf, if_neg (by omega), Nat.add_sub_cancel_left]

/-- The full share is the thirty-two tiles' shares side by side. -/
theorem pointsTo_sh (I : Finset (Idx ℓ)) (f : Buf Val ℓ) :
    (ℓ ↦[I]{fullShare} f : sProp 𝕄)
      = bigSep Finset.univ fun c : Fin 2 => bigSep Finset.univ fun s : Fin 16 => ℓ ↦[I]{sh c.val s.val} f :=
  (pointsTo_leaves I f 5 fullShare).trans (bigSep_range_places fun i => (ℓ ↦[I]{leaf 5 fullShare i} f : sProp 𝕄))

/-- A points-to on the whole array is the points-tos on a family of pairwise disjoint sets that cover it. -/
theorem pointsTo_cut {T : Type} [Fintype T] (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f : Buf Val ℓ) :
    (ℓ ↦[Finset.univ]{q} f : sProp 𝕄) = bigSep Finset.univ fun t => ℓ ↦[K t]{q} f := by
  rw [← pointsTo_biUnion Finset.univ K hd, hc]

/-- Points-tos on such a family, each at some contents, join to one on the whole array at some contents. -/
theorem pointsTo_glue {T : Type} [Fintype T] [DecidableEq T] (K : T → Finset (Idx ℓ))
    (hd : ∀ t ∈ (Finset.univ : Finset T), ∀ t' ∈ (Finset.univ : Finset T), t ≠ t' → Disjoint (K t) (K t'))
    (hc : (Finset.univ : Finset T).biUnion K = Finset.univ) (q : PosShare TreeShare) (f₀ : Buf Val ℓ) :
    (bigSep Finset.univ fun t => iprop(∃ f, ℓ ↦[K t]{q} f)) ⊢ (iprop(∃ f, ℓ ↦[Finset.univ]{q} f) : sProp 𝕄) := by
  have : Nonempty (Buf Val ℓ) := ⟨f₀⟩
  refine (bigSep_exists_pi Finset.univ (fun t (f : Buf Val ℓ) => (ℓ ↦[K t]{q} f : sProp 𝕄))).trans ?_
  iintro ⟨%fs, H⟩
  ihave H' := (pointsTo_biUnion_join (ℓ := ℓ) (q := q) (Val := Val) Finset.univ K fs f₀ hd) $$ H
  icases H' with ⟨%g, -, Hg⟩
  rw [hc]
  iexists g; iexact Hg

end PointsTo

/-! ## A rectangle's parts along an axis, numbered by a finite type -/

section Parts

variable {s : Shape} {a₀ : Fin s.rank} {n : ℕ} (hn : n ∣ s.size a₀) {T : Type} [Fintype T] (num : T → Fin n)

/-- Two unit-stride rectangles of equal offsets and sizes are one. -/
theorem unit_congr {off size off' size' : Fin s.rank → ℕ} {inb : ∀ a, off a + size a ≤ s.size a}
    {inb' : ∀ a, off' a + size' a ≤ s.size a} (ho : off = off') (hs : size = size') :
    Rect.unit off size inb = Rect.unit off' size' inb' := by
  subst ho; subst hs; rfl

/-- Parts of different numbers are disjoint. -/
theorem parts_disjoint (hinj : Function.Injective num) :
    ∀ t ∈ (Finset.univ : Finset T), ∀ t' ∈ (Finset.univ : Finset T), t ≠ t' →
      Disjoint (Rect.part hn (num t)).set (Rect.part hn (num t')).set :=
  fun _ _ _ _ h => Rect.part_disjoint hn fun e => h (hinj e)

/-- Every element lies in a part. -/
theorem parts_cover (hsurj : Function.Surjective num) :
    (Finset.univ : Finset T).biUnion (fun t => (Rect.part hn (num t)).set) = Finset.univ := by
  ext i
  simp only [Finset.mem_biUnion, Finset.mem_univ, true_and, iff_true]
  obtain ⟨j, hj⟩ := Rect.exists_mem_part hn i
  obtain ⟨t, rfl⟩ := hsurj j
  exact ⟨t, hj⟩

end Parts

end Cert.Lib.ScSplit

end
-- ==== Proof.TileRes.lean ====
/-
  What one tile is handed and hands back, and the handshakes' payloads.

  Tile (c, s) is worker 2 s + c; it owns the molecules 512 (2 s + c) + p, p < 512, in four panels of 128.
  It is handed, of the transposed species array [200, 16384], the four column panels [200, 128] of its molecules; of the
  energies its 512 entries; a read share of the eight self energies; and, to fill, its 512 entries of the shifted
  energies and its four panels of the copy of the transposed species. It hands back the same, the shifted energies'
  entries at the result function and the copy's panels at the transposed species.

  The result function, at molecule M with species words s_0 .. s_199 and table t: the fifty quads
  (t[s_4q] + t[s_4q+1]) + (t[s_4q+2] + t[s_4q+3]) added one after the other onto zero, and then the energy of M added.
-/
import proofs.«206988_g4337916970008_retrytranche1_694_23_alg».proof.Proof.SetupKI
import proofs.«206988_g4337916970008_retrytranche1_694_23_alg».proof.Proof.LibScSplit
import Idealize.ShloMosaic.Lib.ValueIdx

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

abbrev sV : Memref sig .scVector .hbm S200x16384 .i32 := Memref.whole main_v0_scv
abbrev eV : Memref sig .scVector .hbm S16384 .f32 := Memref.whole main_arg1_scv
abbrev tV : Memref sig .scVector .hbm S8 .f32 := Memref.whole main_arg2_scv
abbrev oV : Memref sig .scVector .hbm S16384 .f32 := Memref.whole main_v1_0_scv
abbrev wV : Memref sig .scVector .hbm S200x16384 .i32 := Memref.whole main_v1_1_scv
abbrev b7 : Memref sig .scVector .vmem S4x200x128 .i32 := Memref.whole cc0_scratch0
abbrev b8 : Memref sig .scVector .vmem S512 .f32 := Memref.whole cc0_scratch1
abbrev b9 : Memref sig .scVector .vmem S512 .f32 := Memref.whole cc0_scratch2
abbrev b10 : Memref sig .scVector .vmem S16 .f32 := Memref.whole cc0_scratch3
abbrev b11 : Memref sig .scVector .vmem S4096 .f32 := Memref.whole cc0_scratch4

/-- The thread of the tile at grid point L. -/
abbrev thr (d : Dev nD) (L : grid0.Coords) : Thread nD τ := V d (cV L) (jV L)

/-! ## The arrays as the TensorCore names them -/

abbrev a0Loc (d : Dev nD) : Loc nD τ sig := (SparseCore.T d).loc main_arg0
abbrev sLoc (d : Dev nD) : Loc nD τ sig := (SparseCore.T d).loc main_v0
abbrev eLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v1_0
abbrev wLoc (d : Dev nD) : Loc nD τ sig := (SparseCore.T d).loc main_v1_1
abbrev rLoc (d : Dev nD) : Loc nD τ sig := (SparseCore.T d).loc main_v2

/-! ## A tile's pieces, spelt as the body slices them -/

abbrev sIn0 (L : grid0.Coords) : Memref sig .scVector .hbm S200x128 .i32 := sV.slice (Rect.unit (s := S200x16384) (k0_off1 L 0#32) S200x128.size (k0_off1_inb L 0)) (fun _ => rfl)
abbrev sIn1 (L : grid0.Coords) : Memref sig .scVector .hbm S200x128 .i32 := sV.slice (Rect.unit (s := S200x16384) (k0_off1 L 128#32) S200x128.size (k0_off1_inb L 1)) (fun _ => rfl)
abbrev sIn2 (L : grid0.Coords) : Memref sig .scVector .hbm S200x128 .i32 := sV.slice (Rect.unit (s := S200x16384) (k0_off1 L 256#32) S200x128.size (k0_off1_inb L 2)) (fun _ => rfl)
abbrev sIn3 (L : grid0.Coords) : Memref sig .scVector .hbm S200x128 .i32 := sV.slice (Rect.unit (s := S200x16384) (k0_off1 L 384#32) S200x128.size (k0_off1_inb L 3)) (fun _ => rfl)
abbrev wOut0 (L : grid0.Coords) : Memref sig .scVector .hbm S200x128 .i32 := wV.slice (Rect.unit (s := S200x16384) (k0_off4 L 0#32) S200x128.size (k0_off4_inb L 0)) (fun _ => rfl)
abbrev wOut1 (L : grid0.Coords) : Memref sig .scVector .hbm S200x128 .i32 := wV.slice (Rect.unit (s := S200x16384) (k0_off4 L 128#32) S200x128.size (k0_off4_inb L 1)) (fun _ => rfl)
abbrev wOut2 (L : grid0.Coords) : Memref sig .scVector .hbm S200x128 .i32 := wV.slice (Rect.unit (s := S200x16384) (k0_off4 L 256#32) S200x128.size (k0_off4_inb L 2)) (fun _ => rfl)
abbrev wOut3 (L : grid0.Coords) : Memref sig .scVector .hbm S200x128 .i32 := wV.slice (Rect.unit (s := S200x16384) (k0_off4 L 384#32) S200x128.size (k0_off4_inb L 3)) (fun _ => rfl)
abbrev eCh (L : grid0.Coords) : Memref sig .scVector .hbm S512 .f32 := eV.slice (Rect.unit (s := S16384) (k0_off2 L) S512.size (k0_off2_inb L)) (fun _ => rfl)
abbrev oCh (L : grid0.Coords) : Memref sig .scVector .hbm S512 .f32 := oV.slice (Rect.unit (s := S16384) (k0_off69 L) S512.size (k0_off69_inb L)) (fun _ => rfl)

/-! ## The result function -/

section Spec
variable [FloatOps F]

/-- Entry v of the table of eight. -/
def tabAt (fT : S8.Idx → F .f32) (v : ℕ) : F .f32 := fT (ValueIdx.ix1 ⟨v % 8, Nat.mod_lt _ (by decide)⟩)
/-- One quad of table entries, grouped two and two. -/
def quadF (fT : S8.Idx → F .f32) (a b c e : ℕ) : F .f32 :=
  FloatOps.addf (FloatOps.addf (tabAt fT a) (tabAt fT b)) (FloatOps.addf (tabAt fT c) (tabAt fT e))
/-- The first n terms of g added one after the other onto zero. -/
def accF (g : ℕ → F .f32) : ℕ → F .f32
  | 0 => FloatOps.ofBits .f32 0x00000000#32
  | n + 1 => FloatOps.addf (accF g n) (g n)
/-- Species word k of molecule M in the transposed array. -/
def spAt (fS : S200x16384.Idx → BitVec 32) (M k : ℕ) : ℕ := (fS (ValueIdx.ix2 ⟨k % 200, Nat.mod_lt _ (by decide)⟩ ⟨M % 16384, Nat.mod_lt _ (by decide)⟩)).toNat
/-- The shifted energy of molecule M. -/
def outSpec (fS : S200x16384.Idx → BitVec 32) (fE : S16384.Idx → F .f32) (fT : S8.Idx → F .f32) : S16384.Idx → F .f32 := fun M =>
  FloatOps.addf (accF (fun q => quadF fT (spAt fS (M 0).val (4 * q)) (spAt fS (M 0).val (4 * q + 1)) (spAt fS (M 0).val (4 * q + 2)) (spAt fS (M 0).val (4 * q + 3))) 50) (fE M)

end Spec

/-! ## The launch memory, the handed pieces, the payloads -/

variable (m : (ℓ : Loc nD τ sig) → Buf (Elt F) ℓ)

variable [FloatOps F]

/-- The transposed species array, as the host's transpose leaves it. -/
def fS (d : Dev nD) : Buf (Elt F) (sLoc d) :=
  (transpose S200x16384 [1, 0] · transposes_S16384x200_S200x16384_1_0 : (⟨S16384x200, .i32⟩ : BufTy).Contents (Elt F) → (⟨S200x16384, .i32⟩ : BufTy).Contents (Elt F)) (m (a0Loc d))
/-- The shifted energies, whole. -/
def outF (d : Dev nD) : Buf (Elt F) (oLoc d) := outSpec (F := F) (fS m d) (m (eLoc d)) (m (tLoc d))

/-- What the tile at L is handed. -/
def tileGo (d : Dev nD) (L : grid0.Coords) : sProp 𝕄 :=
  iprop((sLoc d ↦[(sIn0 L).view.set]{fullShare} fS m d) ∗ (sLoc d ↦[(sIn1 L).view.set]{fullShare} fS m d)
    ∗ (sLoc d ↦[(sIn2 L).view.set]{fullShare} fS m d) ∗ (sLoc d ↦[(sIn3 L).view.set]{fullShare} fS m d)
    ∗ (eLoc d ↦[(eCh L).view.set]{fullShare} m (eLoc d))
    ∗ (tLoc d ↦{Cert.Lib.ScSplit.sh (L 0).val (L 1).val} m (tLoc d))
    ∗ (oLoc d ↦[(oCh L).view.set]{fullShare} m (oLoc d))
    ∗ (wLoc d ↦[(wOut0 L).view.set]{fullShare} m (wLoc d)) ∗ (wLoc d ↦[(wOut1 L).view.set]{fullShare} m (wLoc d))
    ∗ (wLoc d ↦[(wOut2 L).view.set]{fullShare} m (wLoc d)) ∗ (wLoc d ↦[(wOut3 L).view.set]{fullShare} m (wLoc d)))

/-- What it hands back: its entries of the result at the result function, its panels of the copy at the transposed species. -/
def tileTd (d : Dev nD) (L : grid0.Coords) : sProp 𝕄 :=
  iprop((sLoc d ↦[(sIn0 L).view.set]{fullShare} fS m d) ∗ (sLoc d ↦[(sIn1 L).view.set]{fullShare} fS m d)
    ∗ (sLoc d ↦[(sIn2 L).view.set]{fullShare} fS m d) ∗ (sLoc d ↦[(sIn3 L).view.set]{fullShare} fS m d)
    ∗ (eLoc d ↦[(eCh L).view.set]{fullShare} m (eLoc d))
    ∗ (tLoc d ↦{Cert.Lib.ScSplit.sh (L 0).val (L 1).val} m (tLoc d))
    ∗ (oLoc d ↦[(oCh L).view.set]{fullShare} outF m d)
    ∗ (wLoc d ↦[(wOut0 L).view.set]{fullShare} fS m d) ∗ (wLoc d ↦[(wOut1 L).view.set]{fullShare} fS m d)
    ∗ (wLoc d ↦[(wOut2 L).view.set]{fullShare} fS m d) ∗ (wLoc d ↦[(wOut3 L).view.set]{fullShare} fS m d))

omit [FloatOps F] in
theorem bound_zero : grid0.bound 0 = 2 := rfl
omit [FloatOps F] in
theorem bound_one : grid0.bound 1 = 16 := rfl

/-- The grid point of SparseCore c's tile i of the one call. -/
def Lof (c : Fin ((K (F := F)).nCore 0)) (i : Fin ((K (F := F)).nSub 0)) : grid0.Coords :=
  coordsV ⟨c.val, c.isLt⟩ ⟨i.val, i.isLt⟩

/-- The one call: a SparseCore is handed its sixteen tiles' pieces side by side and hands them back so. -/
def P : (K (F := F)).Pay (nD := nD) (Val := Elt F) (Name := ℕ) (U := UU) where
  st := fun q d c => match q with | 0 => bigSep Finset.univ fun i : Fin ((K (F := F)).nSub 0) => tileGo m d (Lof c i)
  dn := fun q d c => match q with | 0 => bigSep Finset.univ fun i : Fin ((K (F := F)).nSub 0) => tileTd m d (Lof c i)
  go := fun q d c i => match q with | 0 => tileGo m d (Lof c i)
  td := fun q d c i => match q with | 0 => tileTd m d (Lof c i)
  x := fun _ _ => iprop(emp)

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

instance P_storable : (P (F := F) m).IsStorable where
  st q d c := match q with | 0 => (inferInstance : BI.Storable (upEmb : UEmb _ 𝕄) (bigSep Finset.univ fun i : Fin ((K (F := F)).nSub 0) => tileGo m d (Lof c i)))
  dn q d c := match q with | 0 => (inferInstance : BI.Storable (upEmb : UEmb _ 𝕄) (bigSep Finset.univ fun i : Fin ((K (F := F)).nSub 0) => tileTd m d (Lof c i)))
  go q d c i := match q with | 0 => (inferInstance : BI.Storable (upEmb : UEmb _ 𝕄) (tileGo m d (Lof c i)))
  td q d c i := match q with | 0 => (inferInstance : BI.Storable (upEmb : UEmb _ 𝕄) (tileTd m d (Lof c i)))

/-- A SparseCore's operands are its tiles' pieces, and its results theirs: nothing to cut here. -/
theorem vecSplit : (K (F := F)).VecSplit' (P m) 0 := by
  intro d c
  show (bigSep Finset.univ fun i : Fin ((K (F := F)).nSub 0) => tileGo m d (Lof c i)) ⊢ |={Set.univ}=> iprop(
      (bigSep Finset.univ fun i : Fin ((K (F := F)).nSub 0) => tileGo m d (Lof c i))
      ∗ ((bigSep Finset.univ fun i : Fin ((K (F := F)).nSub 0) => tileTd m d (Lof c i))
          -∗ (bigSep Finset.univ fun i : Fin ((K (F := F)).nSub 0) => tileTd m d (Lof c i))))
  iintro H; imodintro
  isplitl [H]; · iexact H
  iintro H; iexact H

end Cert.Proof.KI

end
-- ==== Proof.TileOwn.lean ====
/-
  A tile's own storage, opened: its eleven DMA semaphores' counters one by one and its five scratch buffers, each
  beside the rest of what the tile owns.
-/
import proofs.«206988_g4337916970008_retrytranche1_694_23_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The cell of the tile's j-th DMA semaphore. -/
abbrev dcell (d : Dev nD) (L : grid0.Coords) (j : DmaSem sig) : GSem nD τ sig := (thr d L, SemLoc.dma j)

theorem dcell_mem (d : Dev nD) (L : grid0.Coords) (j : DmaSem sig) : dcell d L j ∈ ownCells (thr d L) :=
  mem_ownCells.mpr ⟨rfl, by show (SemLoc.dma j : SemLoc sig).isScoped .scVector = true; revert j; decide⟩

theorem dcell_inj (d : Dev nD) (L : grid0.Coords) : Set.InjOn (dcell d L) ((Finset.univ : Finset (DmaSem sig)) : Set _) :=
  fun _ _ _ _ e => SemLoc.dma.inj (Prod.mk.inj e).2

/-- The eleven counters, then the rest of the tile's own cells. -/
theorem ownSems0_V (d : Dev nD) (L : grid0.Coords) :
    (ownSems0 (thr d L) : sProp 𝕄)
      = iprop((semVal (dcell d L 0) 0 ∗ semVal (dcell d L 1) 0 ∗ semVal (dcell d L 2) 0 ∗ semVal (dcell d L 3) 0
          ∗ semVal (dcell d L 4) 0 ∗ semVal (dcell d L 5) 0 ∗ semVal (dcell d L 6) 0 ∗ semVal (dcell d L 7) 0
          ∗ semVal (dcell d L 8) 0 ∗ semVal (dcell d L 9) 0 ∗ semVal (dcell d L 10) 0)
          ∗ bigSep (ownCells (thr d L) \ (Finset.univ.image (dcell d L))) fun g => semVal g 0) := by
  unfold SparseCore.Cfg.ownSems0
  rw [SparseCore.bigSep_sdiff_split' (t := Finset.univ.image (dcell d L))
    (fun g hg => by obtain ⟨j, -, rfl⟩ := Finset.mem_image.mp hg; exact dcell_mem d L j),
    SparseCore.bigSep_image_of_injOn (dcell_inj d L) (fun g => (semVal g 0 : sProp 𝕄)),
    show (Finset.univ : Finset (DmaSem sig)) = {0, 1, 2, 3, 4, 5, 6, 7, 8, 9, 10} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A scratch buffer of the tile as one of its own references. -/
abbrev sref (L : grid0.Coords) (b : Ref sig .scVector) : DevRef τ sig := (Proc.scVector (cV L) (jV L)).devRef b

theorem sref_mem (L : grid0.Coords) (b : Ref sig .scVector) (h : ((Proc.scVector (cV L) (jV L)).devRef b).owner = .proc (Proc.scVector (cV L) (jV L))) :
    sref L b ∈ ownRefs (τ := τ) (sig := sig) (Proc.scVector (cV L) (jV L)) :=
  SparseCore.Cfg.mem_ownRefs_of_owner h

/-- The five scratch buffers at some contents, then the rest of the tile's own buffers. -/
theorem ownBufs_V (d : Dev nD) (L : grid0.Coords) :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f))
          ∗ bigSep (ownRefs (τ := τ) (sig := sig) (Proc.scVector (cV L) (jV L)) \ {sref L cc0_scratch0, sref L cc0_scratch1, sref L cc0_scratch2, sref L cc0_scratch3, sref L cc0_scratch4})
              fun b => iprop(∃ f, ((d, b) : Loc nD τ sig) ↦{fullShare} f)) := by
  unfold SparseCore.Cfg.ownBufs
  rw [SparseCore.bigSep_sdiff_split' (t := {sref L cc0_scratch0, sref L cc0_scratch1, sref L cc0_scratch2, sref L cc0_scratch3, sref L cc0_scratch4})
    (fun b hb => by
      simp only [Finset.mem_insert, Finset.mem_singleton] at hb
      rcases hb with rfl | rfl | rfl | rfl | rfl <;> exact SparseCore.Cfg.mem_ownRefs_of_owner rfl),
    SparseCore.bigSep_insert' (by simp only [Finset.mem_insert, Finset.mem_singleton, not_or]; exact ⟨fun e => absurd (Proc.devRef_injective _ e) (show (cc0_scratch0 : Ref sig .scVector) ≠ cc0_scratch1 by decide), fun e => absurd (Proc.devRef_injective _ e) (show (cc0_scratch0 : Ref sig .scVector) ≠ cc0_scratch2 by decide), fun e => absurd (Proc.devRef_injective _ e) (show (cc0_scratch0 : Ref sig .scVector) ≠ cc0_scratch3 by decide), fun e => absurd (Proc.devRef_injective _ e) (show (cc0_scratch0 : Ref sig .scVector) ≠ cc0_scratch4 by decide)⟩),
    SparseCore.bigSep_insert' (by simp only [Finset.mem_insert, Finset.mem_singleton, not_or]; exact ⟨fun e => absurd (Proc.devRef_injective _ e) (show (cc0_scratch1 : Ref sig .scVector) ≠ cc0_scratch2 by decide), fun e => absurd (Proc.devRef_injective _ e) (show (cc0_scratch1 : Ref sig .scVector) ≠ cc0_scratch3 by decide), fun e => absurd (Proc.devRef_injective _ e) (show (cc0_scratch1 : Ref sig .scVector) ≠ cc0_scratch4 by decide)⟩),
    SparseCore.bigSep_insert' (by simp only [Finset.mem_insert, Finset.mem_singleton, not_or]; exact ⟨fun e => absurd (Proc.devRef_injective _ e) (show (cc0_scratch2 : Ref sig .scVector) ≠ cc0_scratch3 by decide), fun e => absurd (Proc.devRef_injective _ e) (show (cc0_scratch2 : Ref sig .scVector) ≠ cc0_scratch4 by decide)⟩),
    SparseCore.bigSep_insert' (by simp only [Finset.mem_singleton]; exact fun e => absurd (Proc.devRef_injective _ e) (show (cc0_scratch3 : Ref sig .scVector) ≠ cc0_scratch4 by decide)),
    bigSep_singleton]

end Cert.Proof.KI

end
-- ==== Proof.TilePre.lean ====
/-
  What the tile's body asks of the launch memory: every species word is below eight (the precondition's integer range),
  so every index word the body packs out of four of them names an entry of the table of 4096.
-/
import proofs.«206988_g4337916970008_retrytranche1_694_23_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- Every species word of the launch memory is below eight. -/
def PreOK (m : (ℓ : Loc nD τ sig) → Buf (Elt F) ℓ) : Prop :=
  ∀ (d : Dev nD) (idx : S16384x200.Idx), (m (a0Loc d) idx).toNat < 8

end Cert.Proof.KI

end
-- ==== Proof.SlabCut.lean ====
/-
  The species scratch [4, 200, 128] as its four panels: the whole is the four panels side by side, and a panel's
  elements are those of the whole outside the other three.
-/
import proofs.«206988_g4337916970008_retrytranche1_694_23_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- Panel t of the species scratch, as the body slices it. -/
abbrev slab0 : Memref sig .scVector .vmem S200x128 .i32 := (b7.slice (Rect.unit (s := S4x200x128) ![0, 0, 0] S1x200x128.size inb_S4x200x128_S1x200x128_0_0_0) (fun _ => rfl)).squeeze S200x128 squeezes_S1x200x128_S200x128
abbrev slab1 : Memref sig .scVector .vmem S200x128 .i32 := (b7.slice (Rect.unit (s := S4x200x128) ![1, 0, 0] S1x200x128.size inb_S4x200x128_S1x200x128_1_0_0) (fun _ => rfl)).squeeze S200x128 squeezes_S1x200x128_S200x128
abbrev slab2 : Memref sig .scVector .vmem S200x128 .i32 := (b7.slice (Rect.unit (s := S4x200x128) ![2, 0, 0] S1x200x128.size inb_S4x200x128_S1x200x128_2_0_0) (fun _ => rfl)).squeeze S200x128 squeezes_S1x200x128_S200x128
abbrev slab3 : Memref sig .scVector .vmem S200x128 .i32 := (b7.slice (Rect.unit (s := S4x200x128) ![3, 0, 0] S1x200x128.size inb_S4x200x128_S1x200x128_3_0_0) (fun _ => rfl)).squeeze S200x128 squeezes_S1x200x128_S200x128

namespace Slab

section BigSep
universe u
variable {M : Type u} [URA M]
theorem bigSep_univ_four (Φ : Fin 4 → sProp M) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl
end BigSep

theorem hdiv4 : 4 ∣ S4x200x128.size 0 := ⟨1, rfl⟩

/-- Panel t of a [4, 200, 128] array: the elements whose first coordinate is t. -/
abbrev slabP (t : Fin 4) : Rect S4x200x128 := Rect.part (s := S4x200x128) (a₀ := 0) hdiv4 t

/-- A [1, 200, 128] window at first coordinate t is panel t. -/
theorem slabK_eq (t : Fin 4) {off : Fin S4x200x128.rank → ℕ} (ho : off = ![t.val, 0, 0])
    (inb : ∀ a, off a + S1x200x128.size a ≤ S4x200x128.size a) :
    Rect.unit (s := S4x200x128) off S1x200x128.size inb = slabP t := by
  subst ho
  unfold slabP Rect.part Rect.block
  refine Cert.Lib.ScSplit.unit_congr ?_ ?_
  · funext a
    match a with
    | 0 => simp [Shape.partIx, Shape.partSize]
    | 1 => simp [Shape.partIx, Shape.partSize]
    | 2 => simp [Shape.partIx, Shape.partSize]
  · funext a
    match a with
    | 0 => simp [Shape.partSize]
    | 1 => simp [Shape.partSize]
    | 2 => simp [Shape.partSize]

theorem set_slab0 : (slab0).view.set = (slabP 0).set :=
  (View.set_reshape _ _).trans ((View.set_slice_whole cc0_scratch0 _).trans (congrArg (fun R : Rect S4x200x128 => R.set) (slabK_eq 0 rfl _)))
theorem set_slab1 : (slab1).view.set = (slabP 1).set :=
  (View.set_reshape _ _).trans ((View.set_slice_whole cc0_scratch0 _).trans (congrArg (fun R : Rect S4x200x128 => R.set) (slabK_eq 1 rfl _)))
theorem set_slab2 : (slab2).view.set = (slabP 2).set :=
  (View.set_reshape _ _).trans ((View.set_slice_whole cc0_scratch0 _).trans (congrArg (fun R : Rect S4x200x128 => R.set) (slabK_eq 2 rfl _)))
theorem set_slab3 : (slab3).view.set = (slabP 3).set :=
  (View.set_reshape _ _).trans ((View.set_slice_whole cc0_scratch0 _).trans (congrArg (fun R : Rect S4x200x128 => R.set) (slabK_eq 3 rfl _)))

theorem slabs_disjoint : ∀ i ∈ (Finset.univ : Finset (Fin 4)), ∀ j ∈ (Finset.univ : Finset (Fin 4)), i ≠ j → Disjoint (slabP i).set (slabP j).set :=
  fun _ _ _ _ h => Rect.part_disjoint hdiv4 h
theorem slabs_cover : (Finset.univ : Finset (Fin 4)).biUnion (fun t => (slabP t).set) = Finset.univ := Rect.biUnion_part hdiv4

/-- An element lies in panel t exactly when it lies in no other panel. -/
theorem mem_slab_iff (t : Fin 4) (i : S4x200x128.Idx) : i ∈ (slabP t).set ↔ ∀ t' : Fin 4, t' ≠ t → i ∉ (slabP t').set := by
  constructor
  · intro hi t' hne hi'
    exact Finset.disjoint_left.mp (Rect.part_disjoint hdiv4 hne) hi' hi
  · intro h
    obtain ⟨j, hj⟩ := Rect.exists_mem_part hdiv4 i
    by_cases e : j = t
    · exact e ▸ hj
    · exact absurd hj (h j e)

theorem holes0 : (slabP 0).set = ((Finset.univ \ (slabP 1).set) \ (slabP 2).set) \ (slabP 3).set := by
  ext i
  simp only [Finset.mem_sdiff, Finset.mem_univ, true_and]
  rw [mem_slab_iff]
  constructor
  · intro h; exact ⟨⟨h 1 (by decide), h 2 (by decide)⟩, h 3 (by decide)⟩
  · rintro ⟨⟨h1, h2⟩, h3⟩ t' hne
    fin_cases t'
    · exact absurd rfl hne
    · exact h1
    · exact h2
    · exact h3
theorem holes1 : (slabP 1).set = ((Finset.univ \ (slabP 0).set) \ (slabP 2).set) \ (slabP 3).set := by
  ext i
  simp only [Finset.mem_sdiff, Finset.mem_univ, true_and]
  rw [mem_slab_iff]
  constructor
  · intro h; exact ⟨⟨h 0 (by decide), h 2 (by decide)⟩, h 3 (by decide)⟩
  · rintro ⟨⟨h0, h2⟩, h3⟩ t' hne
    fin_cases t'
    · exact h0
    · exact absurd rfl hne
    · exact h2
    · exact h3
theorem holes2 : (slabP 2).set = ((Finset.univ \ (slabP 0).set) \ (slabP 1).set) \ (slabP 3).set := by
  ext i
  simp only [Finset.mem_sdiff, Finset.mem_univ, true_and]
  rw [mem_slab_iff]
  constructor
  · intro h; exact ⟨⟨h 0 (by decide), h 1 (by decide)⟩, h 3 (by decide)⟩
  · rintro ⟨⟨h0, h1⟩, h3⟩ t' hne
    fin_cases t'
    · exact h0
    · exact h1
    · exact absurd rfl hne
    · exact h3
theorem holes3 : (slabP 3).set = ((Finset.univ \ (slabP 0).set) \ (slabP 1).set) \ (slabP 2).set := by
  ext i
  simp only [Finset.mem_sdiff, Finset.mem_univ, true_and]
  rw [mem_slab_iff]
  constructor
  · intro h; exact ⟨⟨h 0 (by decide), h 1 (by decide)⟩, h 2 (by decide)⟩
  · rintro ⟨⟨h0, h1⟩, h2⟩ t' hne
    fin_cases t'
    · exact h0
    · exact h1
    · exact h2
    · exact absurd rfl hne

end Slab

open Slab

theorem b7_cut (d : Dev nD) (L : grid0.Coords) (f : Buf (Elt F) ((thr d L).loc cc0_scratch0)) :
    ((thr d L).loc cc0_scratch0 ↦{fullShare} f : sProp 𝕄)
      = iprop(((slab0).view.loc (thr d L) ↦[(slab0).view.set]{fullShare} f) ∗ ((slab1).view.loc (thr d L) ↦[(slab1).view.set]{fullShare} f)
          ∗ ((slab2).view.loc (thr d L) ↦[(slab2).view.set]{fullShare} f) ∗ ((slab3).view.loc (thr d L) ↦[(slab3).view.set]{fullShare} f)) := by
  rw [set_slab0, set_slab1, set_slab2, set_slab3]
  exact (Cert.Lib.ScSplit.pointsTo_cut (ℓ := (thr d L).loc cc0_scratch0) (fun t : Fin 4 => (slabP t).set) slabs_disjoint slabs_cover fullShare f).trans
    (bigSep_univ_four _)

theorem slab0_holes (d : Dev nD) (L : grid0.Coords) (q : PosShare TreeShare) (f : Buf (Elt F) ((thr d L).loc cc0_scratch0)) :
    ((slab0).view.loc (thr d L) ↦[(slab0).view.set]{q} f : sProp 𝕄)
      = ((b7).view.loc (thr d L) ↦[((Finset.univ \ ((b7.slice (Rect.unit (s := S4x200x128) ![1, 0, 0] S1x200x128.size inb_S4x200x128_S1x200x128_1_0_0) (fun _ => rfl)).squeeze S200x128 squeezes_S1x200x128_S200x128).view.set) \ ((b7.slice (Rect.unit (s := S4x200x128) ![2, 0, 0] S1x200x128.size inb_S4x200x128_S1x200x128_2_0_0) (fun _ => rfl)).squeeze S200x128 squeezes_S1x200x128_S200x128).view.set) \ ((b7.slice (Rect.unit (s := S4x200x128) ![3, 0, 0] S1x200x128.size inb_S4x200x128_S1x200x128_3_0_0) (fun _ => rfl)).squeeze S200x128 squeezes_S1x200x128_S200x128).view.set]{q} f) := by
  show ((slab0).view.loc (thr d L) ↦[(slab0).view.set]{q} f : sProp 𝕄)
    = ((b7).view.loc (thr d L) ↦[((Finset.univ \ (slab1).view.set) \ (slab2).view.set) \ (slab3).view.set]{q} f)
  rw [set_slab0, set_slab1, set_slab2, set_slab3, ← holes0]

theorem slab1_holes (d : Dev nD) (L : grid0.Coords) (q : PosShare TreeShare) (f : Buf (Elt F) ((thr d L).loc cc0_scratch0)) :
    ((slab1).view.loc (thr d L) ↦[(slab1).view.set]{q} f : sProp 𝕄)
      = ((b7).view.loc (thr d L) ↦[((Finset.univ \ ((b7.slice (Rect.unit (s := S4x200x128) ![0, 0, 0] S1x200x128.size inb_S4x200x128_S1x200x128_0_0_0) (fun _ => rfl)).squeeze S200x128 squeezes_S1x200x128_S200x128).view.set) \ ((b7.slice (Rect.unit (s := S4x200x128) ![2, 0, 0] S1x200x128.size inb_S4x200x128_S1x200x128_2_0_0) (fun _ => rfl)).squeeze S200x128 squeezes_S1x200x128_S200x128).view.set) \ ((b7.slice (Rect.unit (s := S4x200x128) ![3, 0, 0] S1x200x128.size inb_S4x200x128_S1x200x128_3_0_0) (fun _ => rfl)).squeeze S200x128 squeezes_S1x200x128_S200x128).view.set]{q} f) := by
  show ((slab1).view.loc (thr d L) ↦[(slab1).view.set]{q} f : sProp 𝕄)
    = ((b7).view.loc (thr d L) ↦[((Finset.univ \ (slab0).view.set) \ (slab2).view.set) \ (slab3).view.set]{q} f)
  rw [set_slab0, set_slab1, set_slab2, set_slab3, ← holes1]

theorem slab2_holes (d : Dev nD) (L : grid0.Coords) (q : PosShare TreeShare) (f : Buf (Elt F) ((thr d L).loc cc0_scratch0)) :
    ((slab2).view.loc (thr d L) ↦[(slab2).view.set]{q} f : sProp 𝕄)
      = ((b7).view.loc (thr d L) ↦[((Finset.univ \ ((b7.slice (Rect.unit (s := S4x200x128) ![0, 0, 0] S1x200x128.size inb_S4x200x128_S1x200x128_0_0_0) (fun _ => rfl)).squeeze S200x128 squeezes_S1x200x128_S200x128).view.set) \ ((b7.slice (Rect.unit (s := S4x200x128) ![1, 0, 0] S1x200x128.size inb_S4x200x128_S1x200x128_1_0_0) (fun _ => rfl)).squeeze S200x128 squeezes_S1x200x128_S200x128).view.set) \ ((b7.slice (Rect.unit (s := S4x200x128) ![3, 0, 0] S1x200x128.size inb_S4x200x128_S1x200x128_3_0_0) (fun _ => rfl)).squeeze S200x128 squeezes_S1x200x128_S200x128).view.set]{q} f) := by
  show ((slab2).view.loc (thr d L) ↦[(slab2).view.set]{q} f : sProp 𝕄)
    = ((b7).view.loc (thr d L) ↦[((Finset.univ \ (slab0).view.set) \ (slab1).view.set) \ (slab3).view.set]{q} f)
  rw [set_slab0, set_slab1, set_slab2, set_slab3, ← holes2]

theorem slab3_holes (d : Dev nD) (L : grid0.Coords) (q : PosShare TreeShare) (f : Buf (Elt F) ((thr d L).loc cc0_scratch0)) :
    ((slab3).view.loc (thr d L) ↦[(slab3).view.set]{q} f : sProp 𝕄)
      = ((b7).view.loc (thr d L) ↦[((Finset.univ \ ((b7.slice (Rect.unit (s := S4x200x128) ![0, 0, 0] S1x200x128.size inb_S4x200x128_S1x200x128_0_0_0) (fun _ => rfl)).squeeze S200x128 squeezes_S1x200x128_S200x128).view.set) \ ((b7.slice (Rect.unit (s := S4x200x128) ![1, 0, 0] S1x200x128.size inb_S4x200x128_S1x200x128_1_0_0) (fun _ => rfl)).squeeze S200x128 squeezes_S1x200x128_S200x128).view.set) \ ((b7.slice (Rect.unit (s := S4x200x128) ![2, 0, 0] S1x200x128.size inb_S4x200x128_S1x200x128_2_0_0) (fun _ => rfl)).squeeze S200x128 squeezes_S1x200x128_S200x128).view.set]{q} f) := by
  show ((slab3).view.loc (thr d L) ↦[(slab3).view.set]{q} f : sProp 𝕄)
    = ((b7).view.loc (thr d L) ↦[((Finset.univ \ (slab0).view.set) \ (slab1).view.set) \ (slab2).view.set]{q} f)
  rw [set_slab0, set_slab1, set_slab2, set_slab3, ← holes3]

end Cert.Proof.KI

end
-- ==== Proof.SlabJoin.lean ====
/-
  Joining pieces of an array: two halves of a share on one set of elements, and the four panels of the species scratch.

  Two points-tos on the same elements agree there, so the left half at one contents and the right half at another are
  the whole share at either; the four panels of the [4, 200, 128] scratch are pairwise disjoint and cover it, so held
  each at its own contents they are the scratch at the contents that is each panel's on that panel.
-/
import proofs.«206988_g4337916970008_retrytranche1_694_23_alg».proof.Proof.SlabCut

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The two halves of a share on one set of elements, at contents that then agree there, are the share at the second's. -/
theorem join_halves {ℓ : Loc nD τ sig} (I : Finset (Idx ℓ)) (q : PosShare TreeShare) (f g : Buf (Elt F) ℓ) :
    iprop((ℓ ↦[I]{q.left} f) ∗ ℓ ↦[I]{q.right} g) ⊢ (ℓ ↦[I]{q} g : sProp 𝕄) := by
  iintro H
  ihave H' := (persistent_entails_right (pointsTo_agree (ℓ := ℓ) (I := I) (J := I) (q₁ := q.left) (q₂ := q.right) (f := f) (g := g))) $$ H
  icases H' with ⟨%h, Hf, Hg⟩
  ihave Hf' := (Entails.of_eq (pointsTo_congr (ℓ := ℓ) (I := I) (q := q.left) (f := f) (g := g)
    (fun i hi => (h i (Finset.mem_inter.mpr ⟨hi, hi⟩)).1))) $$ Hf
  iapply (pointsTo_share (PosShare.mem_left_op_right q)).2
  isplitl [Hf']; · iexact Hf'
  iexact Hg

/-- The four panels of the species scratch, each at its own contents, are the scratch at some contents. -/
theorem b7_glue (d : Dev nD) (L : grid0.Coords) (f0 f1 f2 f3 : Buf (Elt F) ((thr d L).loc cc0_scratch0)) :
    iprop(((slab0).view.loc (thr d L) ↦[(slab0).view.set]{fullShare} f0) ∗ ((slab1).view.loc (thr d L) ↦[(slab1).view.set]{fullShare} f1)
        ∗ ((slab2).view.loc (thr d L) ↦[(slab2).view.set]{fullShare} f2) ∗ ((slab3).view.loc (thr d L) ↦[(slab3).view.set]{fullShare} f3))
      ⊢ (iprop(∃ f, (thr d L).loc cc0_scratch0 ↦{fullShare} f) : sProp 𝕄) := by
  rw [Slab.set_slab0, Slab.set_slab1, Slab.set_slab2, Slab.set_slab3]
  iintro ⟨H0, H1, H2, H3⟩
  iapply (Cert.Lib.ScSplit.pointsTo_glue (ℓ := (thr d L).loc cc0_scratch0) (fun t : Fin 4 => (Slab.slabP t).set)
    Slab.slabs_disjoint Slab.slabs_cover fullShare f0)
  rw [Slab.bigSep_univ_four]
  isplitl [H0]; · iexists f0; iexact H0
  isplitl [H1]; · iexists f1; iexact H1
  isplitl [H2]; · iexists f2; iexact H2
  iexists f3; iexact H3

end Cert.Proof.KI

end
-- ==== Proof.ValueSpec.lean ====
/-
  The values the tile's body carries, stated over the scratch buffers' contents.

  C10 is the table of sixteen (its first eight entries the eight self energies), C11 the table of 4096, C7 the species
  scratch [4, 200, 128] (panel, atom, molecule within the panel), C8 the tile's 512 energies. Entry i of the table of
  4096 is (c[i / 512] + c[i / 64 % 8]) + (c[i / 8 % 8] + c[i % 8]) over the table of sixteen c. The accumulator of
  molecule column col of panel t after k quads is the k terms g(q) = table4096[512 s(4q) + 64 s(4q+1) + 8 s(4q+2) + s(4q+3)]
  added one after the other onto zero, s(a) the species word at atom a.
-/
import proofs.«206988_g4337916970008_retrytranche1_694_23_alg».proof.Proof.TileRes

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

section
variable [FloatOps F]

/-- Entry v of the table of sixteen. -/
def c16 (C10 : S16.Idx → F .f32) (v : ℕ) : F .f32 := C10 (ValueIdx.ix1 ⟨v % 16, Nat.mod_lt _ (by decide)⟩)
/-- Entry i of the table of 4096, as the table loop builds it. -/
def tab4At (C10 : S16.Idx → F .f32) (i : ℕ) : F .f32 :=
  FloatOps.addf (FloatOps.addf (c16 C10 (i / 512)) (c16 C10 (i / 64 % 8))) (FloatOps.addf (c16 C10 (i / 8 % 8)) (c16 C10 (i % 8)))
/-- The first 16 n entries of the table of 4096 are built. -/
def TabOK (C10 : S16.Idx → F .f32) (n : ℕ) (f : S4096.Idx → F .f32) : Prop :=
  ∀ i : Fin 4096, i.val < 16 * n → f (ValueIdx.ix1 i) = tab4At C10 i.val
/-- The table of sixteen holds the eight self energies in its first eight entries. -/
def T10OK (fT : S8.Idx → F .f32) (C10 : S16.Idx → F .f32) : Prop :=
  ∀ v : Fin 8, C10 (ValueIdx.ix1 ⟨v.val, by omega⟩) = fT (ValueIdx.ix1 v)
/-- The species word of panel t, atom a, column c of the scratch. -/
def spW (C7 : S4x200x128.Idx → BitVec 32) (t a c : ℕ) : ℕ :=
  (C7 (ValueIdx.ix3 ⟨t % 4, Nat.mod_lt _ (by decide)⟩ ⟨a % 200, Nat.mod_lt _ (by decide)⟩ ⟨c % 128, Nat.mod_lt _ (by decide)⟩)).toNat
/-- Every species word of panel t is below eight. -/
def SlabLt (C7 : S4x200x128.Idx → BitVec 32) (t : ℕ) : Prop := ∀ a c, a < 200 → c < 128 → spW C7 t a c < 8
/-- Panel t of the scratch holds the tile's columns 128 t .. 128 t + 127 of the transposed species. -/
def SlabOK (fS : S200x16384.Idx → BitVec 32) (L : grid0.Coords) (C7 : S4x200x128.Idx → BitVec 32) (t : ℕ) : Prop :=
  ∀ (a : Fin 200) (p : Fin 128), spW C7 t a.val p.val = spAt fS (1024 * (L 1).val + 512 * (L 0).val + 128 * t + p.val) a.val
/-- The energies scratch holds the tile's 512 energies. -/
def E8OK (fE : S16384.Idx → F .f32) (L : grid0.Coords) (C8 : S512.Idx → F .f32) : Prop :=
  ∀ p : Fin 512, C8 (ValueIdx.ix1 p) = fE (ValueIdx.ix1 ⟨1024 * (L 1).val + 512 * (L 0).val + p.val, by
    have h1 : (L 1).val < 16 := (L 1).isLt
    have h0 : (L 0).val < 2 := (L 0).isLt
    omega⟩)
/-- Quad q of column col of panel t. -/
def gQ (C10 : S16.Idx → F .f32) (C7 : S4x200x128.Idx → BitVec 32) (t col q : ℕ) : F .f32 :=
  tab4At C10 (512 * spW C7 t (4 * q) col + 64 * spW C7 t (4 * q + 1) col + 8 * spW C7 t (4 * q + 2) col + spW C7 t (4 * q + 3) col)
/-- One accumulator vector: lanes are the columns 16 j .. 16 j + 15 of panel t, after k quads. -/
def AccLane (C10 : S16.Idx → F .f32) (C7 : S4x200x128.Idx → BitVec 32) (t j k : ℕ) (acc : FVec F S16 .f32) : Prop :=
  ∀ x : S16.Idx, acc x = accF (gQ C10 C7 t (16 * j + (x 0).val)) k
/-- The eight accumulators of panel t after k quads. -/
def AccOK (C10 : S16.Idx → F .f32) (C7 : S4x200x128.Idx → BitVec 32) (t k : ℕ)
    (accs : FVec F S16 .f32 × FVec F S16 .f32 × FVec F S16 .f32 × FVec F S16 .f32 × FVec F S16 .f32 × FVec F S16 .f32 × FVec F S16 .f32 × FVec F S16 .f32) : Prop :=
  AccLane C10 C7 t 0 k accs.1 ∧ AccLane C10 C7 t 1 k accs.2.1 ∧ AccLane C10 C7 t 2 k accs.2.2.1 ∧ AccLane C10 C7 t 3 k accs.2.2.2.1
    ∧ AccLane C10 C7 t 4 k accs.2.2.2.2.1 ∧ AccLane C10 C7 t 5 k accs.2.2.2.2.2.1 ∧ AccLane C10 C7 t 6 k accs.2.2.2.2.2.2.1 ∧ AccLane C10 C7 t 7 k accs.2.2.2.2.2.2.2

end

end Cert.Proof.KI

end
-- ==== Proof.Words.lean ====
/-
  Words and indices: the arithmetic of the table's index, independent of the programs.

  An index i < 4096 is read as four octal digits, i = 512 a + 64 b + 8 c + e. Packing four words below 8 with shifts
  by 9, 6 and 3 and bitwise or gives that number, since the shifted digits occupy disjoint bits; and an index
  written as 16 k + l with k < 256 and l < 16 has the digits k / 32, k / 4 mod 8, 2 (k mod 4) + l / 8 and l mod 8.
-/
import Idealize.ShloMosaic.PureOps
import Idealize.ShloMosaic.Lib.ValueIdx
import Mathlib.Tactic.Ring
import Mathlib.Tactic.Linarith

namespace Cert.Proof.Words

open Idealize.ShloMosaic

/-! ## The digits of an index -/

/-- The four octal digits of 16 k + l, for k < 256 and l < 16. -/
theorem digits_of_row {k l : ℕ} (hk : k < 256) (hl : l < 16) :
    (16 * k + l) / 512 = k / 32 ∧ (16 * k + l) / 64 % 8 = k / 4 % 8
      ∧ (16 * k + l) / 8 % 8 = (k % 4) * 2 + l / 8 ∧ (16 * k + l) % 8 = l % 8 := by
  refine ⟨?_, ?_, ?_, ?_⟩ <;> omega

/-- 16 k + l stays below 4096. -/
theorem row_lt {k l : ℕ} (hk : k < 256) (hl : l < 16) : 16 * k + l < 4096 := by omega

/-- The four octal digits of 512 a + 64 b + 8 c + e, for digits below 8. -/
theorem digits_of_quad {a b c e : ℕ} (ha : a < 8) (hb : b < 8) (hc : c < 8) (he : e < 8) :
    (512 * a + 64 * b + 8 * c + e) / 512 = a ∧ (512 * a + 64 * b + 8 * c + e) / 64 % 8 = b
      ∧ (512 * a + 64 * b + 8 * c + e) / 8 % 8 = c ∧ (512 * a + 64 * b + 8 * c + e) % 8 = e := by
  refine ⟨?_, ?_, ?_, ?_⟩ <;> omega

/-- Four digits below 8 give an index below 4096. -/
theorem quad_lt {a b c e : ℕ} (ha : a < 8) (hb : b < 8) (hc : c < 8) (he : e < 8) :
    512 * a + 64 * b + 8 * c + e < 4096 := by omega

/-- An index below 4096 is its four digits put together. -/
theorem quad_of_digits {i : ℕ} (hi : i < 4096) :
    512 * (i / 512) + 64 * (i / 64 % 8) + 8 * (i / 8 % 8) + i % 8 = i ∧ i / 512 < 8 := by
  refine ⟨?_, ?_⟩ <;> omega

/-! ## Packing four digits with shifts and or -/

/-- On naturals: the shifted digits occupy disjoint bits, so or is addition. -/
theorem or_quad_nat {a b c e : ℕ} (ha : a < 8) (hb : b < 8) (hc : c < 8) (he : e < 8) :
    ((a <<< 9) ||| (b <<< 6)) ||| ((c <<< 3) ||| e) = 512 * a + 64 * b + 8 * c + e := by
  have h1 : (c <<< 3) ||| e = c <<< 3 + e :=
    (Nat.shiftLeft_add_eq_or_of_lt (i := 3) (by omega : e < 2 ^ 3) c).symm
  have hb6 : b <<< 6 < 2 ^ 9 := by rw [Nat.shiftLeft_eq]; omega
  have h2 : (a <<< 9) ||| (b <<< 6) = a <<< 9 + b <<< 6 :=
    (Nat.shiftLeft_add_eq_or_of_lt (i := 9) hb6 a).symm
  have h3 : a <<< 9 + b <<< 6 = (a * 8 + b) <<< 6 := by
    simp only [Nat.shiftLeft_eq]; omega
  have hce : c <<< 3 + e < 2 ^ 6 := by rw [Nat.shiftLeft_eq]; omega
  rw [h1, h2, h3, ← Nat.shiftLeft_add_eq_or_of_lt (i := 6) hce (a * 8 + b)]
  simp only [Nat.shiftLeft_eq]; omega

/-- A word below 8 shifted left by n ≤ 9 places, as a number. -/
theorem toNat_shl_small {s : BitVec 32} (hs : s.toNat < 8) {n : ℕ} (hn : n ≤ 9) :
    (s <<< n).toNat = s.toNat <<< n := by
  rw [BitVec.toNat_shiftLeft]
  apply Nat.mod_eq_of_lt
  rw [Nat.shiftLeft_eq]
  calc s.toNat * 2 ^ n ≤ 7 * 2 ^ 9 :=
        Nat.mul_le_mul (by omega) (Nat.pow_le_pow_right (by decide) hn)
    _ < 2 ^ 32 := by decide

/-- The gather index of one quad: four words below 8 packed by shifts of 9, 6, 3 and or. -/
theorem toNat_pack (s0 s1 s2 s3 : BitVec 32)
    (h0 : s0.toNat < 8) (h1 : s1.toNat < 8) (h2 : s2.toNat < 8) (h3 : s3.toNat < 8) :
    (IntOp.ori (IntOp.ori (IntOp.shli .vector s0 9#32) (IntOp.shli .vector s1 6#32))
        (IntOp.ori (IntOp.shli .vector s2 3#32) s3)).toNat
      = 512 * s0.toNat + 64 * s1.toNat + 8 * s2.toNat + s3.toNat := by
  have e9 : IntOp.shli .vector s0 9#32 = s0 <<< 9 := by
    unfold IntOp.shli; rw [if_pos (by decide)]; rfl
  have e6 : IntOp.shli .vector s1 6#32 = s1 <<< 6 := by
    unfold IntOp.shli; rw [if_pos (by decide)]; rfl
  have e3 : IntOp.shli .vector s2 3#32 = s2 <<< 3 := by
    unfold IntOp.shli; rw [if_pos (by decide)]; rfl
  rw [e9, e6, e3]
  unfold IntOp.ori
  rw [BitVec.toNat_or, BitVec.toNat_or, BitVec.toNat_or,
    toNat_shl_small h0 (by decide), toNat_shl_small h1 (by decide), toNat_shl_small h2 (by decide)]
  exact or_quad_nat h0 h1 h2 h3

/-- The packed index is below 4096. -/
theorem toNat_pack_lt (s0 s1 s2 s3 : BitVec 32)
    (h0 : s0.toNat < 8) (h1 : s1.toNat < 8) (h2 : s2.toNat < 8) (h3 : s3.toNat < 8) :
    (IntOp.ori (IntOp.ori (IntOp.shli .vector s0 9#32) (IntOp.shli .vector s1 6#32))
        (IntOp.ori (IntOp.shli .vector s2 3#32) s3)).toNat < 4096 := by
  rw [toNat_pack s0 s1 s2 s3 h0 h1 h2 h3]; omega

end Cert.Proof.Words
-- ==== Proof.WordsK.lean ====
/-
  The words of the kernel's two index computations, over the generated payload names.

  The gather index of a quad: each lane packs four species words below 8 into 512 a + 64 b + 8 c + e.
  The table loop at trip k < 256: the scalar digits k / 32 and k / 4 mod 8, the lane digits 2 (k mod 4) + l / 8 and
  l mod 8 for lane l < 16, all below 16, so every gather from the sixteen-entry table is in range.
-/
import proofs.«206988_g4337916970008_retrytranche1_694_23_alg».proof.Proof.Gen.KernelIdeal.Skeleton
import proofs.«206988_g4337916970008_retrytranche1_694_23_alg».proof.Proof.Words

namespace Cert.Proof.Words

open Idealize.ShloMosaic
open Cert.KernelIdeal Cert.KernelIdeal.Gen

variable {F : FTy → Type} [FloatOps F]

/-! ## The quad's gather index, lane by lane -/

/-- The packing read at one lane, for vectors of any shape. -/
theorem toNat_pack_lane {s : Shape} (a b c e : IVec s 32) (x : s.Idx)
    (ha : (a x).toNat < 8) (hb : (b x).toNat < 8) (hc : (c x).toNat < 8) (he : (e x).toNat < 8) :
    (ori (ori (shli a (broadcast s 9#32)) (shli b (broadcast s 6#32))) (ori (shli c (broadcast s 3#32)) e) x).toNat
      = 512 * (a x).toNat + 64 * (b x).toNat + 8 * (c x).toNat + (e x).toNat :=
  toNat_pack (a x) (b x) (c x) (e x) ha hb hc he

/-- A lane of the first quad payload, from the four loaded rows read through their shape casts. -/
theorem k0_pay1_toNat (a b c e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay1 a b c e x).toNat
      = 512 * ((shapeCast S16 a shapeCasts_S1x1x16_S16 : IVec S16 32) x).toNat
        + 64 * ((shapeCast S16 b shapeCasts_S1x1x16_S16 : IVec S16 32) x).toNat
        + 8 * ((shapeCast S16 c shapeCasts_S1x1x16_S16 : IVec S16 32) x).toNat
        + ((shapeCast S16 e shapeCasts_S1x1x16_S16 : IVec S16 32) x).toNat :=
  toNat_pack _ _ _ _ ha hb hc he

/-- The same from bounds on every loaded word; the index is then below 4096. -/
theorem k0_pay1_toNat_of_forall (a b c e : Vec F S1x1x16 .i32)
    (ha : ∀ y, BitVec.toNat (a y) < 8) (hb : ∀ y, BitVec.toNat (b y) < 8)
    (hc : ∀ y, BitVec.toNat (c y) < 8) (he : ∀ y, BitVec.toNat (e y) < 8) (x : S16.Idx) :
    (k0_pay1 a b c e x).toNat
      = 512 * ((shapeCast S16 a shapeCasts_S1x1x16_S16 : IVec S16 32) x).toNat
        + 64 * ((shapeCast S16 b shapeCasts_S1x1x16_S16 : IVec S16 32) x).toNat
        + 8 * ((shapeCast S16 c shapeCasts_S1x1x16_S16 : IVec S16 32) x).toNat
        + ((shapeCast S16 e shapeCasts_S1x1x16_S16 : IVec S16 32) x).toNat
    ∧ (k0_pay1 a b c e x).toNat < 4096 := by
  have h := k0_pay1_toNat a b c e x (ha _) (hb _) (hc _) (he _)
  refine ⟨h, ?_⟩
  have h0 : ((shapeCast S16 a shapeCasts_S1x1x16_S16 : IVec S16 32) x).toNat < 8 := ha _
  have h1 : ((shapeCast S16 b shapeCasts_S1x1x16_S16 : IVec S16 32) x).toNat < 8 := hb _
  have h2 : ((shapeCast S16 c shapeCasts_S1x1x16_S16 : IVec S16 32) x).toNat < 8 := hc _
  have h3 : ((shapeCast S16 e shapeCasts_S1x1x16_S16 : IVec S16 32) x).toNat < 8 := he _
  rw [h]; omega

/-! ## The table loop's words -/

/-- The table loop has at most 256 trips. -/
theorem trip_lt (k : Fin k0_t1_loop.trips) : k.val < 256 := Nat.lt_of_lt_of_le k.isLt k0_t1_abs.2.1

/-- The induction variable at trip k is the word k. -/
theorem iv_toNat (k : Fin k0_t1_loop.trips) : (Scf.iv 0#32 1#32 k).toNat = k.val := by
  have hk := trip_lt k
  unfold Scf.iv
  rw [BitVec.zero_add, BitVec.mul_one, BitVec.toNat_ofNat]
  exact Nat.mod_eq_of_lt (by omega)

/-- A scalar logical right shift of a word by a literal amount n < 32 divides by 2 ^ n. -/
theorem scalar_shrui_toNat (x : BitVec 32) (n : ℕ) (hn : n < 32) :
    (Scalar.shrui x (BitVec.ofNat 32 n)).toNat = x.toNat / 2 ^ n := by
  have hn' : (BitVec.ofNat 32 n).toNat = n := by
    rw [BitVec.toNat_ofNat]; exact Nat.mod_eq_of_lt (by omega)
  unfold Scalar.shrui IntOp.shrui
  rw [if_pos (by rw [hn']; exact hn), BitVec.ushiftRight_eq', BitVec.toNat_ushiftRight, hn',
    Nat.shiftRight_eq_div_pow]

/-- The first digit: k shifted right by 5 is k / 32. -/
theorem shrui5_toNat (k : Fin k0_t1_loop.trips) :
    (Scalar.shrui (Scf.iv 0#32 1#32 k) 5#32).toNat = k.val / 32 := by
  have h := scalar_shrui_toNat (Scf.iv 0#32 1#32 k) 5 (by decide)
  rw [iv_toNat] at h
  exact h

/-- The second digit: k shifted right by 2 and masked by 7 is k / 4 mod 8. -/
theorem andi_shrui2_toNat (k : Fin k0_t1_loop.trips) :
    (Scalar.andi (Scalar.shrui (Scf.iv 0#32 1#32 k) 2#32) 7#32).toNat = k.val / 4 % 8 := by
  have h := scalar_shrui_toNat (Scf.iv 0#32 1#32 k) 2 (by decide)
  rw [iv_toNat] at h
  unfold Scalar.andi IntOp.andi
  rw [BitVec.toNat_and]
  have h7 : (7#32).toNat = 2 ^ 3 - 1 := rfl
  have h2 : (Scalar.shrui (Scf.iv 0#32 1#32 k) 2#32).toNat = k.val / 4 := h
  rw [h2, h7, Nat.and_two_pow_sub_one_eq_mod]

/-- Lane l of the lane sequence is the word l. -/
theorem iota_lane (l : S16.Idx) :
    (iota .scVector S16 32 [0] iota_S16_d0_w32_scVector l).toNat = (l 0).val := by
  have hl : (l 0).val < 16 := (l 0).isLt
  show (BitVec.ofNat 32 (0 * 16 + (l 0).val)).toNat = (l 0).val
  rw [BitVec.toNat_ofNat, Nat.zero_mul, Nat.zero_add]
  exact Nat.mod_eq_of_lt (by omega)

/-- The fourth digit: lane l of the lane sequence masked by 7 is l mod 8. -/
theorem k0_pay93_toNat (l : S16.Idx) : (k0_pay93 l).toNat = (l 0).val % 8 := by
  show (IntOp.andi (iota .scVector S16 32 [0] iota_S16_d0_w32_scVector l) 7#32).toNat = _
  unfold IntOp.andi
  have h7 : (7#32).toNat = 2 ^ 3 - 1 := rfl
  rw [BitVec.toNat_and, iota_lane, h7, Nat.and_two_pow_sub_one_eq_mod]

/-- The third digit: lane l of 2 (k mod 4) + (the lane sequence shifted right by 3) is 2 (k mod 4) + l / 8. -/
theorem k0_pay94_toNat (k : Fin k0_t1_loop.trips) (l : S16.Idx) :
    (k0_pay94 k l).toNat = (k.val % 4) * 2 + (l 0).val / 8 := by
  have hl : (l 0).val < 16 := (l 0).isLt
  show (IntOp.addi (Scalar.muli (Scalar.andi (Scf.iv 0#32 1#32 k) 3#32) 2#32)
      (IntOp.shrsi .vector (iota .scVector S16 32 [0] iota_S16_d0_w32_scVector l) 3#32)).toNat = _
  have hA : (Scalar.muli (Scalar.andi (Scf.iv 0#32 1#32 k) 3#32) 2#32).toNat = (k.val % 4) * 2 := by
    unfold Scalar.muli IntOp.muli Scalar.andi IntOp.andi
    have h3 : (3#32).toNat = 2 ^ 2 - 1 := rfl
    have h2 : (2#32).toNat = 2 := rfl
    rw [BitVec.toNat_mul, BitVec.toNat_and, iv_toNat, h3, Nat.and_two_pow_sub_one_eq_mod, h2]
    exact Nat.mod_eq_of_lt (by omega)
  have hB : (IntOp.shrsi .vector (iota .scVector S16 32 [0] iota_S16_d0_w32_scVector l) 3#32).toNat = (l 0).val / 8 := by
    have hm : (iota .scVector S16 32 [0] iota_S16_d0_w32_scVector l).msb = false := by
      rw [BitVec.msb_eq_false_iff_two_mul_lt, iota_lane]; omega
    unfold IntOp.shrsi
    rw [if_pos (by decide), BitVec.toNat_sshiftRight'_of_msb_false hm, iota_lane]
    show (l 0).val >>> 3 = _
    rw [Nat.shiftRight_eq_div_pow]
  unfold IntOp.addi
  rw [BitVec.toNat_add, hA, hB]
  exact Nat.mod_eq_of_lt (by omega)

/-! ## The table loop's three gathers are in range -/

theorem k0_chk2_holds (k : Fin k0_t1_loop.trips) :
    k0_chk2 (broadcast S16 (Scalar.shrui (Scf.iv 0#32 1#32 k) 5#32)) := by
  have hk := trip_lt k
  intro a x
  obtain rfl : a = 0 := Subsingleton.elim _ _
  show (Scalar.shrui (Scf.iv 0#32 1#32 k) 5#32).toNat < 16
  rw [shrui5_toNat]; omega

theorem k0_chk3_holds (k : Fin k0_t1_loop.trips) :
    k0_chk3 (broadcast S16 (Scalar.andi (Scalar.shrui (Scf.iv 0#32 1#32 k) 2#32) 7#32)) := by
  intro a x
  obtain rfl : a = 0 := Subsingleton.elim _ _
  show (Scalar.andi (Scalar.shrui (Scf.iv 0#32 1#32 k) 2#32) 7#32).toNat < 16
  rw [andi_shrui2_toNat]; omega

theorem k0_chk4_holds (k : Fin k0_t1_loop.trips) : k0_chk4 (k0_pay94 k) := by
  intro a x
  obtain rfl : a = 0 := Subsingleton.elim _ _
  have hl : (x 0).val < 16 := (x 0).isLt
  show (k0_pay94 k x).toNat < 16
  rw [k0_pay94_toNat]; omega

/-- The gather of the fourth digit, before the loop, is in range too. -/
theorem k0_chk1_holds : k0_chk1 k0_pay93 := by
  intro a x
  obtain rfl : a = 0 := Subsingleton.elim _ _
  show (k0_pay93 x).toNat < 16
  rw [k0_pay93_toNat]; omega

end Cert.Proof.Words
-- ==== Proof.ValueRead.lean ====
/-
  Reading the tile's scratch buffers at an index: what a row load, a sixteen-lane load and an indexed load read, lane by lane.
-/
import proofs.«206988_g4337916970008_retrytranche1_694_23_alg».proof.Proof.TileRes
import Idealize.ShloMosaic.Lib.Pipeline.Value
import Idealize.ShloMosaic.Lib.Writes

noncomputable section

namespace Cert.Proof.KI

open Cert.KernelIdeal Cert.KernelIdeal.Gen
open Idealize.ShloMosaic
open Idealize.SL.Sem

variable {F : FTy → Type}

/-! ## A row load from the species panels, lane by lane -/

/-- Sixteen consecutive words of row a of panel t, from column c on, read as a vector of sixteen: lane x is the word at
    column c + x. -/
theorem b7_row_lane (C : S4x200x128.Idx → BitVec 32) (off : Fin 3 → ℕ)
    (inb : ∀ a, off a + S1x1x16.size a ≤ S4x200x128.size a) (t a c : ℕ) (hoff : off = ![t, a, c])
    (ht : t < 4) (ha : a < 200) (hc : c + 16 ≤ 128) (x : S16.Idx) :
    (shapeCast S16 (View.readAt (Elt F) b7.view (Rect.unit (s := S4x200x128) off S1x1x16.size inb).toLoadRect C)
        shapeCasts_S1x1x16_S16 : IVec S16 32) x
      = C (ValueIdx.ix3 ⟨t, ht⟩ ⟨a, ha⟩ ⟨c + (x 0).val, by have hx : (x 0).val < 16 := (x 0).isLt; omega⟩) := by
  subst hoff
  have hx : (x 0).val < 16 := (x 0).isLt
  rw [shapeCast_apply _ _ x (ValueIdx.ix3 ⟨0, by decide⟩ ⟨0, by decide⟩ ⟨(x 0).val, hx⟩)
    (by rw [Shape.rowMajor_val_three, Shape.rowMajor_val_one]; simp)]
  rw [View.readAt_apply, View.read_apply]
  show C _ = C _
  congr 1
  funext d
  match d with
  | ⟨0, _⟩ => exact Fin.ext (by show t + 1 * 0 = t; omega)
  | ⟨1, _⟩ => exact Fin.ext (by show a + 1 * 0 = a; omega)
  | ⟨2, _⟩ => exact Fin.ext (by show c + 1 * (x 0).val = c + (x 0).val; omega)

/-! ## A sixteen-lane load from a flat scratch buffer -/

/-- Sixteen consecutive energies from entry o on: lane x is entry o + x. -/
theorem b8_load_lane (C : S512.Idx → F .f32) (off : Fin 1 → ℕ) (inb : ∀ a, off a + S16.size a ≤ S512.size a)
    (o : ℕ) (hoff : off = ![o]) (x : S16.Idx) :
    View.readAt (Elt F) b8.view (Rect.unit (s := S512) off S16.size inb).toLoadRect C x
      = C (ValueIdx.ix1 ⟨o + (x 0).val, by
          have hx : (x 0).val < 16 := (x 0).isLt
          have h0 : off 0 + 16 ≤ S512.size 0 := inb 0
          have h1 : off 0 = o := by rw [hoff]; rfl
          have h2 : S512.size 0 = 512 := rfl
          omega⟩) := by
  subst hoff
  rw [View.readAt_apply, View.read_apply]
  show C _ = C _
  congr 1
  funext d
  match d with
  | ⟨0, _⟩ => exact Fin.ext (by show o + 1 * (x 0).val = o + (x 0).val; omega)

/-- Sixteen consecutive entries of the output scratch from entry o on: lane x is entry o + x. -/
theorem b9_load_lane (C : S512.Idx → F .f32) (off : Fin 1 → ℕ) (inb : ∀ a, off a + S16.size a ≤ S512.size a)
    (o : ℕ) (hoff : off = ![o]) (x : S16.Idx) :
    View.readAt (Elt F) b9.view (Rect.unit (s := S512) off S16.size inb).toLoadRect C x
      = C (ValueIdx.ix1 ⟨o + (x 0).val, by
          have hx : (x 0).val < 16 := (x 0).isLt
          have h0 : off 0 + 16 ≤ S512.size 0 := inb 0
          have h1 : off 0 = o := by rw [hoff]; rfl
          have h2 : S512.size 0 = 512 := rfl
          omega⟩) := by
  subst hoff
  rw [View.readAt_apply, View.read_apply]
  show C _ = C _
  congr 1
  funext d
  match d with
  | ⟨0, _⟩ => exact Fin.ext (by show o + 1 * (x 0).val = o + (x 0).val; omega)

/-- Sixteen consecutive entries of the table of 4096 from entry o on: lane x is entry o + x. -/
theorem b11_load_lane (C : S4096.Idx → F .f32) (off : Fin 1 → ℕ) (inb : ∀ a, off a + S16.size a ≤ S4096.size a)
    (o : ℕ) (hoff : off = ![o]) (x : S16.Idx) :
    View.readAt (Elt F) b11.view (Rect.unit (s := S4096) off S16.size inb).toLoadRect C x
      = C (ValueIdx.ix1 ⟨o + (x 0).val, by
          have hx : (x 0).val < 16 := (x 0).isLt
          have h0 : off 0 + 16 ≤ S4096.size 0 := inb 0
          have h1 : off 0 = o := by rw [hoff]; rfl
          have h2 : S4096.size 0 = 4096 := rfl
          omega⟩) := by
  subst hoff
  rw [View.readAt_apply, View.read_apply]
  show C _ = C _
  congr 1
  funext d
  match d with
  | ⟨0, _⟩ => exact Fin.ext (by show o + 1 * (x 0).val = o + (x 0).val; omega)

/-- The sixteen entries of the small table from entry o on (o is 0): lane x is entry o + x. -/
theorem b10_load_lane (C : S16.Idx → F .f32) (off : Fin 1 → ℕ) (inb : ∀ a, off a + S16.size a ≤ S16.size a)
    (o : ℕ) (hoff : off = ![o]) (x : S16.Idx) :
    View.readAt (Elt F) b10.view (Rect.unit (s := S16) off S16.size inb).toLoadRect C x
      = C (ValueIdx.ix1 ⟨o + (x 0).val, by
          have hx : (x 0).val < 16 := (x 0).isLt
          have h0 : off 0 + 16 ≤ S16.size 0 := inb 0
          have h1 : off 0 = o := by rw [hoff]; rfl
          have h2 : S16.size 0 = 16 := rfl
          omega⟩) := by
  subst hoff
  rw [View.readAt_apply, View.read_apply]
  show C _ = C _
  congr 1
  funext d
  match d with
  | ⟨0, _⟩ => exact Fin.ext (by show o + 1 * (x 0).val = o + (x 0).val; omega)

/-! ## An indexed load, lane by lane -/

/-- A gather from the table of 4096: lane x reads the entry its index word names. -/
theorem b11_loadIdx_lane [FloatOps F] (C : S4096.Idx → F .f32) (v : IVec S16 32)
    (h : ∀ a x, ((![v] : Fin 1 → IVec S16 32) a x).toNat < (Rect.whole S4096).shape.size a) (x : S16.Idx) :
    loadIdx (F := F) (View.read (Elt F) (b11.access (Rect.whole S4096)) C) ![v] h x
      = C (ValueIdx.ix1 ⟨(v x).toNat, h 0 x⟩) := by
  unfold loadIdx idxAt
  rw [View.read_apply]
  show C _ = C _
  congr 1
  funext d
  match d with
  | ⟨0, _⟩ => exact Fin.ext (by show 0 + 1 * (v x).toNat = (v x).toNat; omega)

/-- A gather from the small table: lane x reads the entry its index word names. -/
theorem b10_loadIdx_lane [FloatOps F] (C : S16.Idx → F .f32) (v : IVec S16 32)
    (h : ∀ a x, ((![v] : Fin 1 → IVec S16 32) a x).toNat < (Rect.whole S16).shape.size a) (x : S16.Idx) :
    loadIdx (F := F) (View.read (Elt F) (b10.access (Rect.whole S16)) C) ![v] h x
      = C (ValueIdx.ix1 ⟨(v x).toNat, h 0 x⟩) := by
  unfold loadIdx idxAt
  rw [View.read_apply]
  show C _ = C _
  congr 1
  funext d
  match d with
  | ⟨0, _⟩ => exact Fin.ext (by show 0 + 1 * (v x).toNat = (v x).toNat; omega)

end Cert.Proof.KI

end
-- ==== Proof.ValueStore.lean ====
/-
  Writing the tile's scratch buffers, read back at an index: the sixteen-lane stores into the table of 4096 and into the output scratch.
-/
import proofs.«206988_g4337916970008_retrytranche1_694_23_alg».proof.Proof.TileRes
import Idealize.ShloMosaic.Lib.Pipeline.Value
import Idealize.ShloMosaic.Lib.Writes

noncomputable section

namespace Cert.Proof.KI

open Cert.KernelIdeal Cert.KernelIdeal.Gen
open Idealize.ShloMosaic
open Idealize.SL.Sem

variable {F : FTy → Type}

/-! ## Sixteen-lane stores into the table of 4096 and into the output scratch -/

/-- The table of 4096 after sixteen-lane stores: an entry under the last store reads its payload. -/
theorem b11_writes_cons_inside (g : S4096.Idx → F .f32) (off : Fin 1 → ℕ) (inb : ∀ a, off a + S16.size a ≤ S4096.size a)
    (w : S16.Idx → F .f32) (L : List (View.Piece (Elt F) S4096 .f32)) (i : Fin 4096)
    (h1 : off 0 ≤ i.val) (h2 : i.val < off 0 + 16) :
    (b11.view.writes (Elt F) g ((⟨Rect.unit (s := S4096) off S16.size inb, w⟩ : View.Piece (Elt F) S4096 .f32) :: L))
        (ValueIdx.ix1 i)
      = w (ValueIdx.ix1 ⟨i.val - off 0, by omega⟩) := by
  have he : (b11.view.slice (Rect.unit (s := S4096) off S16.size inb)).emb (ValueIdx.ix1 ⟨i.val - off 0, by omega⟩)
      = ValueIdx.ix1 i := by
    funext d
    match d with
    | ⟨0, _⟩ => exact Fin.ext (by show off 0 + 1 * (i.val - off 0) = i.val; omega)
  rw [View.writes_cons]
  conv_lhs => rw [← he]
  rw [View.write_emb_of_mem _ _ (Finset.mem_univ _)]
  rfl

/-- The table of 4096 after sixteen-lane stores: an entry outside the last store's sixteen reads what the earlier stores left. -/
theorem b11_writes_cons_outside (g : S4096.Idx → F .f32) (off : Fin 1 → ℕ) (inb : ∀ a, off a + S16.size a ≤ S4096.size a)
    (w : S16.Idx → F .f32) (L : List (View.Piece (Elt F) S4096 .f32)) (i : Fin 4096)
    (h : i.val < off 0 ∨ off 0 + 16 ≤ i.val) :
    (b11.view.writes (Elt F) g ((⟨Rect.unit (s := S4096) off S16.size inb, w⟩ : View.Piece (Elt F) S4096 .f32) :: L))
        (ValueIdx.ix1 i)
      = (b11.view.writes (Elt F) g L) (ValueIdx.ix1 i) := by
  rw [View.writes_cons, View.write_of_not_mem]
  intro hm
  obtain ⟨x, -, hx⟩ := Finset.mem_map.mp hm
  have hx0 : (x 0).val < 16 := (x 0).isLt
  have e : off 0 + 1 * (x 0).val = i.val := congrArg (fun j : S4096.Idx => (j 0).val) hx
  omega

/-- The table of 4096 after sixteen-lane stores: both cases at once. -/
theorem b11_writes_cons_apply (g : S4096.Idx → F .f32) (off : Fin 1 → ℕ) (inb : ∀ a, off a + S16.size a ≤ S4096.size a)
    (w : S16.Idx → F .f32) (L : List (View.Piece (Elt F) S4096 .f32)) (i : Fin 4096) :
    (b11.view.writes (Elt F) g ((⟨Rect.unit (s := S4096) off S16.size inb, w⟩ : View.Piece (Elt F) S4096 .f32) :: L))
        (ValueIdx.ix1 i)
      = if h : off 0 ≤ i.val ∧ i.val < off 0 + 16 then w (ValueIdx.ix1 ⟨i.val - off 0, by omega⟩)
        else (b11.view.writes (Elt F) g L) (ValueIdx.ix1 i) := by
  by_cases h : off 0 ≤ i.val ∧ i.val < off 0 + 16
  · rw [dif_pos h]; exact b11_writes_cons_inside g off inb w L i h.1 h.2
  · rw [dif_neg h]; exact b11_writes_cons_outside g off inb w L i (by omega)

/-- The table of 4096 after sixteen-lane stores: one store over contents g. -/
theorem b11_writes_single_apply (g : S4096.Idx → F .f32) (off : Fin 1 → ℕ) (inb : ∀ a, off a + S16.size a ≤ S4096.size a)
    (w : S16.Idx → F .f32) (i : Fin 4096) :
    (b11.view.writes (Elt F) g [(⟨Rect.unit (s := S4096) off S16.size inb, w⟩ : View.Piece (Elt F) S4096 .f32)])
        (ValueIdx.ix1 i)
      = if h : off 0 ≤ i.val ∧ i.val < off 0 + 16 then w (ValueIdx.ix1 ⟨i.val - off 0, by omega⟩)
        else g (ValueIdx.ix1 i) :=
  b11_writes_cons_apply g off inb w [] i

/-- The output scratch after sixteen-lane stores: an entry under the last store reads its payload. -/
theorem b9_writes_cons_inside (g : S512.Idx → F .f32) (off : Fin 1 → ℕ) (inb : ∀ a, off a + S16.size a ≤ S512.size a)
    (w : S16.Idx → F .f32) (L : List (View.Piece (Elt F) S512 .f32)) (i : Fin 512)
    (h1 : off 0 ≤ i.val) (h2 : i.val < off 0 + 16) :
    (b9.view.writes (Elt F) g ((⟨Rect.unit (s := S512) off S16.size inb, w⟩ : View.Piece (Elt F) S512 .f32) :: L))
        (ValueIdx.ix1 i)
      = w (ValueIdx.ix1 ⟨i.val - off 0, by omega⟩) := by
  have he : (b9.view.slice (Rect.unit (s := S512) off S16.size inb)).emb (ValueIdx.ix1 ⟨i.val - off 0, by omega⟩)
      = ValueIdx.ix1 i := by
    funext d
    match d with
    | ⟨0, _⟩ => exact Fin.ext (by show off 0 + 1 * (i.val - off 0) = i.val; omega)
  rw [View.writes_cons]
  conv_lhs => rw [← he]
  rw [View.write_emb_of_mem _ _ (Finset.mem_univ _)]
  rfl

/-- The output scratch after sixteen-lane stores: an entry outside the last store's sixteen reads what the earlier stores left. -/
theorem b9_writes_cons_outside (g : S512.Idx → F .f32) (off : Fin 1 → ℕ) (inb : ∀ a, off a + S16.size a ≤ S512.size a)
    (w : S16.Idx → F .f32) (L : List (View.Piece (Elt F) S512 .f32)) (i : Fin 512)
    (h : i.val < off 0 ∨ off 0 + 16 ≤ i.val) :
    (b9.view.writes (Elt F) g ((⟨Rect.unit (s := S512) off S16.size inb, w⟩ : View.Piece (Elt F) S512 .f32) :: L))
        (ValueIdx.ix1 i)
      = (b9.view.writes (Elt F) g L) (ValueIdx.ix1 i) := by
  rw [View.writes_cons, View.write_of_not_mem]
  intro hm
  obtain ⟨x, -, hx⟩ := Finset.mem_map.mp hm
  have hx0 : (x 0).val < 16 := (x 0).isLt
  have e : off 0 + 1 * (x 0).val = i.val := congrArg (fun j : S512.Idx => (j 0).val) hx
  omega

/-- The output scratch after sixteen-lane stores: both cases at once. -/
theorem b9_writes_cons_apply (g : S512.Idx → F .f32) (off : Fin 1 → ℕ) (inb : ∀ a, off a + S16.size a ≤ S512.size a)
    (w : S16.Idx → F .f32) (L : List (View.Piece (Elt F) S512 .f32)) (i : Fin 512) :
    (b9.view.writes (Elt F) g ((⟨Rect.unit (s := S512) off S16.size inb, w⟩ : View.Piece (Elt F) S512 .f32) :: L))
        (ValueIdx.ix1 i)
      = if h : off 0 ≤ i.val ∧ i.val < off 0 + 16 then w (ValueIdx.ix1 ⟨i.val - off 0, by omega⟩)
        else (b9.view.writes (Elt F) g L) (ValueIdx.ix1 i) := by
  by_cases h : off 0 ≤ i.val ∧ i.val < off 0 + 16
  · rw [dif_pos h]; exact b9_writes_cons_inside g off inb w L i h.1 h.2
  · rw [dif_neg h]; exact b9_writes_cons_outside g off inb w L i (by omega)

/-- The output scratch after sixteen-lane stores: one store over contents g. -/
theorem b9_writes_single_apply (g : S512.Idx → F .f32) (off : Fin 1 → ℕ) (inb : ∀ a, off a + S16.size a ≤ S512.size a)
    (w : S16.Idx → F .f32) (i : Fin 512) :
    (b9.view.writes (Elt F) g [(⟨Rect.unit (s := S512) off S16.size inb, w⟩ : View.Piece (Elt F) S512 .f32)])
        (ValueIdx.ix1 i)
      = if h : off 0 ≤ i.val ∧ i.val < off 0 + 16 then w (ValueIdx.ix1 ⟨i.val - off 0, by omega⟩)
        else g (ValueIdx.ix1 i) :=
  b9_writes_cons_apply g off inb w [] i

/-- A lane index below sixteen is determined by its value. -/
theorem ix1_lane_eq (n : ℕ) (hn : n < 16) (l : Fin 16) (e : n = l.val) :
    (ValueIdx.ix1 (⟨n, hn⟩ : Fin 16) : S16.Idx) = ValueIdx.ix1 l := by
  funext d
  match d with
  | ⟨0, _⟩ => exact Fin.ext e

/-- Of eight stores at base + 16 j, the entries of store 0. -/
theorem b9_writes_eight_at0 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 0 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w0 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_outside g off3 inb3 w3 _ i (by omega)]
  rw [b9_writes_cons_outside g off2 inb2 w2 _ i (by omega)]
  rw [b9_writes_cons_outside g off1 inb1 w1 _ i (by omega)]
  rw [b9_writes_cons_inside g off0 inb0 w0 _ i (by omega) (by omega)]
  rw [ix1_lane_eq (i.val - off0 0) (by omega) l (by omega)]

/-- Of eight stores at base + 16 j, the entries of store 1. -/
theorem b9_writes_eight_at1 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 1 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w1 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_outside g off3 inb3 w3 _ i (by omega)]
  rw [b9_writes_cons_outside g off2 inb2 w2 _ i (by omega)]
  rw [b9_writes_cons_inside g off1 inb1 w1 _ i (by omega) (by omega)]
  rw [ix1_lane_eq (i.val - off1 0) (by omega) l (by omega)]

/-- Of eight stores at base + 16 j, the entries of store 2. -/
theorem b9_writes_eight_at2 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 2 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w2 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_outside g off3 inb3 w3 _ i (by omega)]
  rw [b9_writes_cons_inside g off2 inb2 w2 _ i (by omega) (by omega)]
  rw [ix1_lane_eq (i.val - off2 0) (by omega) l (by omega)]

/-- Of eight stores at base + 16 j, the entries of store 3. -/
theorem b9_writes_eight_at3 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 3 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w3 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_inside g off3 inb3 w3 _ i (by omega) (by omega)]
  rw [ix1_lane_eq (i.val - off3 0) (by omega) l (by omega)]

/-- Of eight stores at base + 16 j, the entries of store 4. -/
theorem b9_writes_eight_at4 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 4 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w4 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_inside g off4 inb4 w4 _ i (by omega) (by omega)]
  rw [ix1_lane_eq (i.val - off4 0) (by omega) l (by omega)]

/-- Of eight stores at base + 16 j, the entries of store 5. -/
theorem b9_writes_eight_at5 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 5 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w5 (ValueIdx.ix1 l) := by
  have hl : l.val < 16 := l.isLt
  rw [b9_writes_cons_outside g off7 inb7 w7 _ i (by omega)]
  rw [b9_writes_cons_outside g off6 inb6 w6 _ i (by omega)]
  rw [b9_writes_cons_inside g off5 inb5 w5 _ i (by omega) (by omega)]
  rw [ix1_lane_eq (i.val - off5 0) (by omega) l (by omega)]

/-- Of eight stores at base + 16 j, the entries of store 6. -/
theorem b9_writes_eight_at6 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 6 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w6 (ValueIdx.ix1 l) := by
  have hl : l.val < 16 := l.isLt
  rw [b9_writes_cons_outside g off7 inb7 w7 _ i (by omega)]
  rw [b9_writes_cons_inside g off6 inb6 w6 _ i (by omega) (by omega)]
  rw [ix1_lane_eq (i.val - off6 0) (by omega) l (by omega)]

/-- Of eight stores at base + 16 j, the entries of store 7. -/
theorem b9_writes_eight_at7 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 7 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w7 (ValueIdx.ix1 l) := by
  have hl : l.val < 16 := l.isLt
  rw [b9_writes_cons_inside g off7 inb7 w7 _ i (by omega) (by omega)]
  rw [ix1_lane_eq (i.val - off7 0) (by omega) l (by omega)]

/-- Eight sixteen-lane stores at offsets base + 16 j (j < 8), the last store first in the list, over earlier stores L:
    entry base + 16 j + l is lane l of store j's payload. -/
theorem b9_writes_eight (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (j : Fin 8) (l : Fin 16) (i : Fin 512) (hi : i.val = base + 16 * j.val + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = (![w0, w1, w2, w3, w4, w5, w6, w7] : Fin 8 → S16.Idx → F .f32) j (ValueIdx.ix1 l) := by
  obtain ⟨j, hj⟩ := j
  interval_cases j
  · exact b9_writes_eight_at0 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at1 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at2 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at3 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at4 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at5 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at6 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at7 g base off0 off1 off2 off3 off4 off5 off6 off7 inb0 inb1 inb2 inb3 inb4 inb5 inb6 inb7 w0 w1 w2 w3 w4 w5 w6 w7 L h0 h1 h2 h3 h4 h5 h6 h7 l i hi

end Cert.Proof.KI

end
-- ==== Proof.TableLoop.lean ====
/-
  The table loop, as a statement about the table of 4096's contents.

  Trip k stores the sixteen entries 16 k .. 16 k + 15: lane l gets (c[k / 32] + c[k / 4 mod 8]) + (c[2 (k mod 4) + l / 8] + c[l mod 8])
  over the table of sixteen c, which is entry 16 k + l of the table as its digits say. So after trip k the first
  16 (k + 1) entries are built when the first 16 k were.
-/
import proofs.«206988_g4337916970008_retrytranche1_694_23_alg».proof.Proof.ValueSpec
import proofs.«206988_g4337916970008_retrytranche1_694_23_alg».proof.Proof.WordsK
import proofs.«206988_g4337916970008_retrytranche1_694_23_alg».proof.Proof.ValueRead
import proofs.«206988_g4337916970008_retrytranche1_694_23_alg».proof.Proof.ValueStore

noncomputable section

namespace Cert.Proof.KI

open Cert.KernelIdeal Cert.KernelIdeal.Gen
open Idealize.ShloMosaic
open Idealize.SL.Sem

variable {F : FTy → Type} [FloatOps F]

/-- An entry of the table of sixteen named by a number below sixteen. -/
theorem c16_of_lt (C10 : S16.Idx → F .f32) (n : ℕ) (hn : n < 16) (v : ℕ) (e : n = v) :
    C10 (ValueIdx.ix1 ⟨n, hn⟩) = c16 C10 v := by
  subst e
  unfold c16
  congr 1
  funext d
  match d with
  | ⟨0, _⟩ => exact Fin.ext (Nat.mod_eq_of_lt hn).symm

/-- Before the first trip nothing is asked of the table. -/
theorem tab_init (C10 : S16.Idx → F .f32) (f : S4096.Idx → F .f32) : TabOK C10 0 f := by
  intro i hi
  omega

/-- Lane l of trip k's payload is entry 16 k + l of the table of 4096. -/
theorem tab_payload_lane (C10 : S16.Idx → F .f32) (k : Fin k0_t1_loop.trips)
    (h34 : ∀ a x, ((![k0_pay93] : Fin 1 → IVec S16 32) a x).toNat < (Rect.whole S16).shape.size a)
    (h257 : ∀ a x, ((![broadcast S16 (Scalar.shrui (Scf.iv 0#32 1#32 k) 5#32)] : Fin 1 → IVec S16 32) a x).toNat
      < (Rect.whole S16).shape.size a)
    (h259 : ∀ a x, ((![broadcast S16 (Scalar.andi (Scalar.shrui (Scf.iv 0#32 1#32 k) 2#32) 7#32)] : Fin 1 → IVec S16 32) a x).toNat
      < (Rect.whole S16).shape.size a)
    (h262 : ∀ a x, ((![k0_pay94 k] : Fin 1 → IVec S16 32) a x).toNat < (Rect.whole S16).shape.size a)
    (x : S16.Idx) :
    k0_pay95 (loadIdx (F := F) (View.read (Elt F) (b10.access (Rect.whole S16)) C10) ![k0_pay93] h34)
        (loadIdx (F := F) (View.read (Elt F) (b10.access (Rect.whole S16)) C10)
          ![broadcast S16 (Scalar.shrui (Scf.iv 0#32 1#32 k) 5#32)] h257)
        (loadIdx (F := F) (View.read (Elt F) (b10.access (Rect.whole S16)) C10)
          ![broadcast S16 (Scalar.andi (Scalar.shrui (Scf.iv 0#32 1#32 k) 2#32) 7#32)] h259)
        (loadIdx (F := F) (View.read (Elt F) (b10.access (Rect.whole S16)) C10) ![k0_pay94 k] h262) x
      = tab4At C10 (16 * k.val + (x 0).val) := by
  have hk := Words.trip_lt k
  have hx : (x 0).val < 16 := (x 0).isLt
  obtain ⟨d1, d2, d3, d4⟩ := Words.digits_of_row hk hx
  dsimp only [k0_pay95, addf]
  rw [b10_loadIdx_lane, b10_loadIdx_lane, b10_loadIdx_lane, b10_loadIdx_lane]
  unfold tab4At
  refine congrArg₂ FloatOps.addf (congrArg₂ FloatOps.addf ?_ ?_) (congrArg₂ FloatOps.addf ?_ ?_)
  · exact c16_of_lt C10 _ _ _ (by
      show (Scalar.shrui (Scf.iv 0#32 1#32 k) 5#32).toNat = _
      rw [Words.shrui5_toNat, d1])
  · exact c16_of_lt C10 _ _ _ (by
      show (Scalar.andi (Scalar.shrui (Scf.iv 0#32 1#32 k) 2#32) 7#32).toNat = _
      rw [Words.andi_shrui2_toNat, d2])
  · exact c16_of_lt C10 _ _ _ (by rw [Words.k0_pay94_toNat, d3])
  · exact c16_of_lt C10 _ _ _ (by rw [Words.k0_pay93_toNat, d4])

/-- A trip of the table loop: the first 16 (k + 1) entries are built once the first 16 k were. -/
theorem tab_step (C10 : S16.Idx → F .f32) (f : S4096.Idx → F .f32) (k : Fin k0_t1_loop.trips)
    (h34 : ∀ a x, ((![k0_pay93] : Fin 1 → IVec S16 32) a x).toNat < (Rect.whole S16).shape.size a)
    (h257 : ∀ a x, ((![broadcast S16 (Scalar.shrui (Scf.iv 0#32 1#32 k) 5#32)] : Fin 1 → IVec S16 32) a x).toNat
      < (Rect.whole S16).shape.size a)
    (h259 : ∀ a x, ((![broadcast S16 (Scalar.andi (Scalar.shrui (Scf.iv 0#32 1#32 k) 2#32) 7#32)] : Fin 1 → IVec S16 32) a x).toNat
      < (Rect.whole S16).shape.size a)
    (h262 : ∀ a x, ((![k0_pay94 k] : Fin 1 → IVec S16 32) a x).toNat < (Rect.whole S16).shape.size a)
    (hf : TabOK C10 k.val f) :
    TabOK C10 (k.val + 1) (b11.view.writes (Elt F) f
      [(⟨Rect.unit (s := S4096) (k0_off3 k) S16.size (k0_off3_inb k),
        k0_pay95 (loadIdx (F := F) (View.read (Elt F) (b10.access (Rect.whole S16)) C10) ![k0_pay93] h34)
          (loadIdx (F := F) (View.read (Elt F) (b10.access (Rect.whole S16)) C10)
            ![broadcast S16 (Scalar.shrui (Scf.iv 0#32 1#32 k) 5#32)] h257)
          (loadIdx (F := F) (View.read (Elt F) (b10.access (Rect.whole S16)) C10)
            ![broadcast S16 (Scalar.andi (Scalar.shrui (Scf.iv 0#32 1#32 k) 2#32) 7#32)] h259)
          (loadIdx (F := F) (View.read (Elt F) (b10.access (Rect.whole S16)) C10) ![k0_pay94 k] h262)⟩
        : View.Piece (Elt F) S4096 .f32)]) := by
  intro i hi
  have ho : (k0_off3 k) 0 = 16 * k.val := by rw [k0_off3_eq k]; rfl
  by_cases hlt : i.val < 16 * k.val
  · rw [b11_writes_cons_outside f (k0_off3 k) (k0_off3_inb k) _ [] i (by omega)]
    exact hf i hlt
  · rw [b11_writes_cons_inside f (k0_off3 k) (k0_off3_inb k) _ [] i (by omega) (by omega)]
    rw [tab_payload_lane C10 k h34 h257 h259 h262]
    congr 1
    show 16 * k.val + (i.val - (k0_off3 k) 0) = i.val
    omega

end Cert.Proof.KI

end
-- ==== Proof.ValueWrite.lean ====
/-
  Writing the tile's scratch buffers, read back at an index: a landed species panel, the table of eight, the energies,
  and the sixteen-lane stores into the table of 4096 and the output scratch.
-/
import proofs.«206988_g4337916970008_retrytranche1_694_23_alg».proof.Proof.TileRes
import Idealize.ShloMosaic.Lib.Pipeline.Value
import Idealize.ShloMosaic.Lib.Writes

noncomputable section

namespace Cert.Proof.KI

open Cert.KernelIdeal Cert.KernelIdeal.Gen
open Idealize.ShloMosaic
open Idealize.SL.Sem

variable {F : FTy → Type}

/-! ## A landed species panel -/

/-- Panel t of the species scratch after a whole [200, 128] block w landed in it: entry (t, a, p) is w (a, p). -/
theorem slab_writes_apply (g : S4x200x128.Idx → BitVec 32) (w : S200x128.Idx → BitVec 32) (off : Fin 3 → ℕ)
    (inb : ∀ a, off a + S1x200x128.size a ≤ S4x200x128.size a) (t : ℕ) (hoff : off = ![t, 0, 0]) (ht : t < 4)
    (a : Fin 200) (p : Fin 128) :
    (((b7.slice (Rect.unit (s := S4x200x128) off S1x200x128.size inb) (fun _ => rfl)).squeeze S200x128
          squeezes_S1x200x128_S200x128).view.writes (Elt F) g [⟨Rect.whole S200x128, w⟩]) (ValueIdx.ix3 ⟨t, ht⟩ a p)
      = w (ValueIdx.ix2 a p) := by
  subst hoff
  have hr : Shape.reshapeEquiv (s := S1x200x128) (s' := S200x128) squeezes_S1x200x128_S200x128.numel_eq (ValueIdx.ix2 a p)
      = ValueIdx.ix3 ⟨0, by decide⟩ a p :=
    Shape.reshapeEquiv_eq_of_rowMajor _ (by rw [Shape.rowMajor_val_three, Shape.rowMajor_val_two]; simp)
  have he : ((((b7.slice (Rect.unit (s := S4x200x128) ![t, 0, 0] S1x200x128.size inb) (fun _ => rfl)).squeeze S200x128
          squeezes_S1x200x128_S200x128).view).slice (Rect.whole S200x128)).emb (ValueIdx.ix2 a p)
        = ValueIdx.ix3 ⟨t, ht⟩ a p := by
    show (Rect.unit (s := S4x200x128) ![t, 0, 0] S1x200x128.size inb).emb
        (Shape.reshapeEquiv (s := S1x200x128) (s' := S200x128) squeezes_S1x200x128_S200x128.numel_eq
          ((Rect.whole S200x128).emb (ValueIdx.ix2 a p))) = _
    rw [Rect.emb_whole_apply, hr]
    funext d
    match d with
    | ⟨0, _⟩ => exact Fin.ext (by show t + 1 * 0 = t; omega)
    | ⟨1, _⟩ => exact Fin.ext (by show 0 + 1 * a.val = a.val; omega)
    | ⟨2, _⟩ => exact Fin.ext (by show 0 + 1 * p.val = p.val; omega)
  rw [View.writes_singleton, ← he, View.write_emb_of_mem _ _ (Finset.mem_univ _)]
  rfl

/-- The block a panel transfer carries: entry (a, p) of column panel r of the tile at L is the transposed species array at
    row a, column 1024 L₁ + 512 L₀ + 128 r + p. -/
theorem sIn_read_apply (fS : S200x16384.Idx → BitVec 32) (L : grid0.Coords) (r : Fin 4) (a : Fin 200) (p : Fin 128) :
    (ReadAs.same.apply (View.read (Elt F)
        (sV.slice (Rect.unit (s := S200x16384) (k0_off1 L (BitVec.ofNat 32 (128 * r.val))) S200x128.size (k0_off1_inb L r))
          (fun _ => rfl)).view fS)) (ValueIdx.ix2 a p)
      = fS (ValueIdx.ix2 a ⟨1024 * (L 1).val + 512 * (L 0).val + 128 * r.val + p.val, by
          have h := k0_off1_inb L r 1
          rw [k0_off1_eq L r] at h
          have h' : 1024 * (L 1).val + 512 * (L 0).val + 128 * r.val + 128 ≤ 16384 := h
          omega⟩) := by
  rw [ReadAs.apply_same, View.read_apply]
  show fS _ = fS _
  congr 1
  funext d
  have ho := k0_off1_eq L r
  match d with
  | ⟨0, _⟩ =>
    refine Fin.ext ?_
    show (k0_off1 L (BitVec.ofNat 32 (128 * r.val))) 0 + 1 * a.val = a.val
    rw [ho]; show 0 + 1 * a.val = a.val; omega
  | ⟨1, _⟩ =>
    refine Fin.ext ?_
    show (k0_off1 L (BitVec.ofNat 32 (128 * r.val))) 1 + 1 * p.val = 1024 * (L 1).val + 512 * (L 0).val + 128 * r.val + p.val
    rw [ho]; show 1024 * (L 1).val + 512 * (L 0).val + 128 * r.val + 1 * p.val = _; omega

theorem sIn0_read_apply (fS : S200x16384.Idx → BitVec 32) (L : grid0.Coords) (a : Fin 200) (p : Fin 128) :
    (ReadAs.same.apply (View.read (Elt F) (sIn0 L).view fS)) (ValueIdx.ix2 a p)
      = fS (ValueIdx.ix2 a ⟨1024 * (L 1).val + 512 * (L 0).val + 128 * 0 + p.val, by
          have h := k0_off1_inb L 0 1
          rw [k0_off1_eq L 0] at h
          have h' : 1024 * (L 1).val + 512 * (L 0).val + 128 * 0 + 128 ≤ 16384 := h
          omega⟩) := sIn_read_apply fS L 0 a p
theorem sIn1_read_apply (fS : S200x16384.Idx → BitVec 32) (L : grid0.Coords) (a : Fin 200) (p : Fin 128) :
    (ReadAs.same.apply (View.read (Elt F) (sIn1 L).view fS)) (ValueIdx.ix2 a p)
      = fS (ValueIdx.ix2 a ⟨1024 * (L 1).val + 512 * (L 0).val + 128 * 1 + p.val, by
          have h := k0_off1_inb L 1 1
          rw [k0_off1_eq L 1] at h
          have h' : 1024 * (L 1).val + 512 * (L 0).val + 128 * 1 + 128 ≤ 16384 := h
          omega⟩) := sIn_read_apply fS L 1 a p
theorem sIn2_read_apply (fS : S200x16384.Idx → BitVec 32) (L : grid0.Coords) (a : Fin 200) (p : Fin 128) :
    (ReadAs.same.apply (View.read (Elt F) (sIn2 L).view fS)) (ValueIdx.ix2 a p)
      = fS (ValueIdx.ix2 a ⟨1024 * (L 1).val + 512 * (L 0).val + 128 * 2 + p.val, by
          have h := k0_off1_inb L 2 1
          rw [k0_off1_eq L 2] at h
          have h' : 1024 * (L 1).val + 512 * (L 0).val + 128 * 2 + 128 ≤ 16384 := h
          omega⟩) := sIn_read_apply fS L 2 a p
theorem sIn3_read_apply (fS : S200x16384.Idx → BitVec 32) (L : grid0.Coords) (a : Fin 200) (p : Fin 128) :
    (ReadAs.same.apply (View.read (Elt F) (sIn3 L).view fS)) (ValueIdx.ix2 a p)
      = fS (ValueIdx.ix2 a ⟨1024 * (L 1).val + 512 * (L 0).val + 128 * 3 + p.val, by
          have h := k0_off1_inb L 3 1
          rw [k0_off1_eq L 3] at h
          have h' : 1024 * (L 1).val + 512 * (L 0).val + 128 * 3 + 128 ≤ 16384 := h
          omega⟩) := sIn_read_apply fS L 3 a p

/-! ## The table of eight -/

/-- The small table after the eight self energies landed in its first eight entries: entry v < 8 is table entry v. -/
theorem tab8_writes_apply (g : S16.Idx → F .f32) (fT : S8.Idx → F .f32) (off : Fin 1 → ℕ)
    (inb : ∀ a, off a + S8.size a ≤ S16.size a) (hoff : off = ![0]) (v : Fin 8) :
    (b10.view.writes (Elt F) g
        [⟨Rect.unit (s := S16) off S8.size inb, ReadAs.same.apply (View.read (Elt F) tV.view fT)⟩])
        (ValueIdx.ix1 ⟨v.val, by have := v.isLt; omega⟩)
      = fT (ValueIdx.ix1 v) := by
  subst hoff
  have he : (b10.view.slice (Rect.unit (s := S16) ![0] S8.size inb)).emb (ValueIdx.ix1 v)
      = ValueIdx.ix1 ⟨v.val, by have := v.isLt; omega⟩ := by
    funext d
    match d with
    | ⟨0, _⟩ => exact Fin.ext (by show 0 + 1 * v.val = v.val; omega)
  rw [View.writes_singleton, ← he, View.write_emb_of_mem _ _ (Finset.mem_univ _)]
  rfl

/-! ## The energies -/

/-- The energy scratch after the tile's 512 energies landed: entry p is energy 1024 L₁ + 512 L₀ + p. -/
theorem en_write_apply (g : S512.Idx → F .f32) (fE : S16384.Idx → F .f32) (L : grid0.Coords) (p : Fin 512) :
    (View.write (Elt F) b8.view g (ReadAs.same.apply (View.read (Elt F) (eCh L).view fE)) Finset.univ) (ValueIdx.ix1 p)
      = fE (ValueIdx.ix1 ⟨1024 * (L 1).val + 512 * (L 0).val + p.val, by
          have h := k0_off2_inb L 0
          rw [k0_off2_eq L] at h
          have h' : 1024 * (L 1).val + 512 * (L 0).val + 512 ≤ 16384 := h
          omega⟩) := by
  have he : b8.view.emb (ValueIdx.ix1 p) = ValueIdx.ix1 p := rfl
  rw [← he, View.write_emb_of_mem _ _ (Finset.mem_univ _)]
  rw [ReadAs.apply_same, View.read_apply]
  show fE _ = fE _
  congr 1
  funext d
  have ho := k0_off2_eq L
  match d with
  | ⟨0, _⟩ =>
    refine Fin.ext ?_
    show (k0_off2 L) 0 + 1 * p.val = 1024 * (L 1).val + 512 * (L 0).val + p.val
    rw [ho]; show 1024 * (L 1).val + 512 * (L 0).val + 1 * p.val = _; omega

end Cert.Proof.KI

end
-- ==== Proof.Landing.lean ====
/-
  The landing facts: what the scratch buffers hold once the tile's transfers have landed, in the vocabulary of the
  body's value statements. A landed panel holds the tile's columns of the transposed species, whose words are below
  eight when the species are; the small table holds the eight self energies; the energy scratch the tile's energies.
-/
import proofs.«206988_g4337916970008_retrytranche1_694_23_alg».proof.Proof.ValueSpec
import proofs.«206988_g4337916970008_retrytranche1_694_23_alg».proof.Proof.ValueWrite
import proofs.«206988_g4337916970008_retrytranche1_694_23_alg».proof.Proof.TilePre

noncomputable section

namespace Cert.Proof.KI

open Cert.KernelIdeal Cert.KernelIdeal.Gen
open Idealize.ShloMosaic
open Idealize.SL.Sem

variable {F : FTy → Type} [FloatOps F]

/-! ## A landed species panel -/

/-- The species word of panel t, atom a, column p of the scratch, for coordinates in range. -/
theorem spW_of_lt (C7 : S4x200x128.Idx → BitVec 32) (t : ℕ) (ht : t < 4) (a : Fin 200) (p : Fin 128) :
    spW C7 t a.val p.val = (C7 (ValueIdx.ix3 ⟨t, ht⟩ a p)).toNat := by
  unfold spW
  congr 2
  funext d
  match d with
  | ⟨0, _⟩ => exact Fin.ext (Nat.mod_eq_of_lt ht)
  | ⟨1, _⟩ => exact Fin.ext (Nat.mod_eq_of_lt a.isLt)
  | ⟨2, _⟩ => exact Fin.ext (Nat.mod_eq_of_lt p.isLt)

/-- Species word k of molecule M of the transposed array, for coordinates in range. -/
theorem spAt_of_lt (fS : S200x16384.Idx → BitVec 32) (M : ℕ) (hM : M < 16384) (a : Fin 200) :
    spAt fS M a.val = (fS (ValueIdx.ix2 a ⟨M, hM⟩)).toNat := by
  unfold spAt
  congr 2
  funext d
  match d with
  | ⟨0, _⟩ => exact Fin.ext (Nat.mod_eq_of_lt a.isLt)
  | ⟨1, _⟩ => exact Fin.ext (Nat.mod_eq_of_lt hM)

/-- Panel r of the scratch, after column panel r of the tile's species landed in it, holds those columns. -/
theorem slabOK_of_landed_gen (fS : S200x16384.Idx → BitVec 32) (L : grid0.Coords) (g : S4x200x128.Idx → BitVec 32)
    (off : Fin 3 → ℕ) (inb : ∀ a, off a + S1x200x128.size a ≤ S4x200x128.size a) (r : Fin 4)
    (hoff : off = ![r.val, 0, 0]) :
    SlabOK fS L
      (((b7.slice (Rect.unit (s := S4x200x128) off S1x200x128.size inb) (fun _ => rfl)).squeeze S200x128
          squeezes_S1x200x128_S200x128).view.writes (Elt F) g
        [⟨Rect.whole S200x128, ReadAs.same.apply (View.read (Elt F)
          (sV.slice (Rect.unit (s := S200x16384) (k0_off1 L (BitVec.ofNat 32 (128 * r.val))) S200x128.size (k0_off1_inb L r))
            (fun _ => rfl)).view fS)⟩])
      r.val := by
  intro a p
  have hb : 1024 * (L 1).val + 512 * (L 0).val + 128 * r.val + p.val < 16384 := by
    have h := k0_off1_inb L r 1
    rw [k0_off1_eq L r] at h
    have h' : 1024 * (L 1).val + 512 * (L 0).val + 128 * r.val + 128 ≤ 16384 := h
    have := p.isLt
    omega
  rw [spW_of_lt _ r.val r.isLt a p, spAt_of_lt fS _ hb a,
    slab_writes_apply (F := F) g _ off inb r.val hoff r.isLt a p, sIn_read_apply (F := F) fS L r a p]

/-- Panel 0. -/
theorem slabOK_of_landed0 (fS : S200x16384.Idx → BitVec 32) (L : grid0.Coords) (g : S4x200x128.Idx → BitVec 32) :
    SlabOK fS L
      (((b7.slice (Rect.unit (s := S4x200x128) ![0, 0, 0] S1x200x128.size inb_S4x200x128_S1x200x128_0_0_0) (fun _ => rfl)).squeeze S200x128
          squeezes_S1x200x128_S200x128).view.writes (Elt F) g
        [⟨Rect.whole S200x128, ReadAs.same.apply (View.read (Elt F) (sIn0 L).view fS)⟩])
      0 :=
  slabOK_of_landed_gen fS L g _ _ 0 rfl

/-- Panel 1. -/
theorem slabOK_of_landed1 (fS : S200x16384.Idx → BitVec 32) (L : grid0.Coords) (g : S4x200x128.Idx → BitVec 32) :
    SlabOK fS L
      (((b7.slice (Rect.unit (s := S4x200x128) ![1, 0, 0] S1x200x128.size inb_S4x200x128_S1x200x128_1_0_0) (fun _ => rfl)).squeeze S200x128
          squeezes_S1x200x128_S200x128).view.writes (Elt F) g
        [⟨Rect.whole S200x128, ReadAs.same.apply (View.read (Elt F) (sIn1 L).view fS)⟩])
      1 :=
  slabOK_of_landed_gen fS L g _ _ 1 rfl

/-- Panel 2. -/
theorem slabOK_of_landed2 (fS : S200x16384.Idx → BitVec 32) (L : grid0.Coords) (g : S4x200x128.Idx → BitVec 32) :
    SlabOK fS L
      (((b7.slice (Rect.unit (s := S4x200x128) ![2, 0, 0] S1x200x128.size inb_S4x200x128_S1x200x128_2_0_0) (fun _ => rfl)).squeeze S200x128
          squeezes_S1x200x128_S200x128).view.writes (Elt F) g
        [⟨Rect.whole S200x128, ReadAs.same.apply (View.read (Elt F) (sIn2 L).view fS)⟩])
      2 :=
  slabOK_of_landed_gen fS L g _ _ 2 rfl

/-- Panel 3. -/
theorem slabOK_of_landed3 (fS : S200x16384.Idx → BitVec 32) (L : grid0.Coords) (g : S4x200x128.Idx → BitVec 32) :
    SlabOK fS L
      (((b7.slice (Rect.unit (s := S4x200x128) ![3, 0, 0] S1x200x128.size inb_S4x200x128_S1x200x128_3_0_0) (fun _ => rfl)).squeeze S200x128
          squeezes_S1x200x128_S200x128).view.writes (Elt F) g
        [⟨Rect.whole S200x128, ReadAs.same.apply (View.read (Elt F) (sIn3 L).view fS)⟩])
      3 :=
  slabOK_of_landed_gen fS L g _ _ 3 rfl

/-- A panel that holds columns of the transposed species has words below eight when the species are. -/
theorem slabLt_of_slabOK (fS : S200x16384.Idx → BitVec 32) (L : grid0.Coords) (C7 : S4x200x128.Idx → BitVec 32) (t : ℕ)
    (hS8 : ∀ idx, (fS idx).toNat < 8) (hOK : SlabOK fS L C7 t) : SlabLt C7 t := by
  intro a c ha hc
  have h := hOK ⟨a, ha⟩ ⟨c, hc⟩
  have h' : spW C7 t a c = spAt fS (1024 * (L 1).val + 512 * (L 0).val + 128 * t + c) a := h
  rw [h']
  exact hS8 _

/-- Panel 0's words are below eight. -/
theorem slabLt_of_landed0 (fS : S200x16384.Idx → BitVec 32) (L : grid0.Coords) (g : S4x200x128.Idx → BitVec 32)
    (hS8 : ∀ idx, (fS idx).toNat < 8) :
    SlabLt
      (((b7.slice (Rect.unit (s := S4x200x128) ![0, 0, 0] S1x200x128.size inb_S4x200x128_S1x200x128_0_0_0) (fun _ => rfl)).squeeze S200x128
          squeezes_S1x200x128_S200x128).view.writes (Elt F) g
        [⟨Rect.whole S200x128, ReadAs.same.apply (View.read (Elt F) (sIn0 L).view fS)⟩])
      0 :=
  slabLt_of_slabOK fS L _ 0 hS8 (slabOK_of_landed0 fS L g)

/-- Panel 1's words are below eight. -/
theorem slabLt_of_landed1 (fS : S200x16384.Idx → BitVec 32) (L : grid0.Coords) (g : S4x200x128.Idx → BitVec 32)
    (hS8 : ∀ idx, (fS idx).toNat < 8) :
    SlabLt
      (((b7.slice (Rect.unit (s := S4x200x128) ![1, 0, 0] S1x200x128.size inb_S4x200x128_S1x200x128_1_0_0) (fun _ => rfl)).squeeze S200x128
          squeezes_S1x200x128_S200x128).view.writes (Elt F) g
        [⟨Rect.whole S200x128, ReadAs.same.apply (View.read (Elt F) (sIn1 L).view fS)⟩])
      1 :=
  slabLt_of_slabOK fS L _ 1 hS8 (slabOK_of_landed1 fS L g)

/-- Panel 2's words are below eight. -/
theorem slabLt_of_landed2 (fS : S200x16384.Idx → BitVec 32) (L : grid0.Coords) (g : S4x200x128.Idx → BitVec 32)
    (hS8 : ∀ idx, (fS idx).toNat < 8) :
    SlabLt
      (((b7.slice (Rect.unit (s := S4x200x128) ![2, 0, 0] S1x200x128.size inb_S4x200x128_S1x200x128_2_0_0) (fun _ => rfl)).squeeze S200x128
          squeezes_S1x200x128_S200x128).view.writes (Elt F) g
        [⟨Rect.whole S200x128, ReadAs.same.apply (View.read (Elt F) (sIn2 L).view fS)⟩])
      2 :=
  slabLt_of_slabOK fS L _ 2 hS8 (slabOK_of_landed2 fS L g)

/-- Panel 3's words are below eight. -/
theorem slabLt_of_landed3 (fS : S200x16384.Idx → BitVec 32) (L : grid0.Coords) (g : S4x200x128.Idx → BitVec 32)
    (hS8 : ∀ idx, (fS idx).toNat < 8) :
    SlabLt
      (((b7.slice (Rect.unit (s := S4x200x128) ![3, 0, 0] S1x200x128.size inb_S4x200x128_S1x200x128_3_0_0) (fun _ => rfl)).squeeze S200x128
          squeezes_S1x200x128_S200x128).view.writes (Elt F) g
        [⟨Rect.whole S200x128, ReadAs.same.apply (View.read (Elt F) (sIn3 L).view fS)⟩])
      3 :=
  slabLt_of_slabOK fS L _ 3 hS8 (slabOK_of_landed3 fS L g)

/-! ## The table of eight and the energies -/

/-- The small table, after the eight self energies landed, holds them in its first eight entries. -/
theorem t10OK_of_landed (fT : S8.Idx → F .f32) (g : S16.Idx → F .f32) :
    T10OK fT (b10.view.writes (Elt F) g
      [⟨Rect.unit (s := S16) ![0] S8.size inb_S16_S8_0, ReadAs.same.apply (View.read (Elt F) tV.view fT)⟩]) := by
  intro v
  exact tab8_writes_apply g fT ![0] inb_S16_S8_0 rfl v

/-- The energy scratch, after the tile's energies landed, holds them. -/
theorem e8OK_of_landed (fE : S16384.Idx → F .f32) (L : grid0.Coords) (g : S512.Idx → F .f32) :
    E8OK fE L (View.write (Elt F) b8.view g (ReadAs.same.apply (View.read (Elt F) (eCh L).view fE)) Finset.univ) := by
  intro p
  exact en_write_apply g fE L p

/-! ## The launch memory -/

/-- The transposed species words are below eight when the species words are. -/
theorem fS8 (m : (ℓ : Loc nD τ sig) → Buf (Elt F) ℓ) (hm : PreOK m) (d : Dev nD) (idx : S200x16384.Idx) :
    BitVec.toNat (fS m d idx) < 8 :=
  hm d _

end Cert.Proof.KI

end
-- ==== Proof.LoopLane.lean ====
/-
  One lane of one accumulator through one trip of a molecule loop.

  A trip reads, for each of its eight groups of sixteen molecule columns, the four rows of species words of
  atoms 4k .. 4k+3 at those columns; packs the four words of a lane, each below eight, into the index
  512 s0 + 64 s1 + 8 s2 + s3 below 4096; gathers the table of 4096 at it; and adds the entry to the lane's
  accumulator. With the table built, the entry is quad k of the lane's column, so an accumulator that held
  the first k quads added one after the other onto zero holds the first k + 1.
-/
import proofs.«206988_g4337916970008_retrytranche1_694_23_alg».proof.Proof.ValueSpec
import proofs.«206988_g4337916970008_retrytranche1_694_23_alg».proof.Proof.ValueRead

noncomputable section

namespace Cert.Proof.KI

open Cert.KernelIdeal Cert.KernelIdeal.Gen
open Idealize.ShloMosaic
open Idealize.SL.Sem

variable {F : FTy → Type}

/-- Sixteen consecutive species words of one atom's row of the scratch, as the body loads them. -/
abbrev rowLd (C7 : S4x200x128.Idx → BitVec 32) (off : Fin 3 → ℕ)
    (inb : ∀ a, off a + S1x1x16.size a ≤ S4x200x128.size a) : Vec F S1x1x16 .i32 :=
  View.readAt (Elt F) b7.view (Rect.unit (s := S4x200x128) off S1x1x16.size inb).toLoadRect C7

/-- The gather from the table of 4096 at sixteen index words. -/
abbrev tabGather [FloatOps F] (C11 : S4096.Idx → F .f32) (idx : IVec S16 32)
    (h : ∀ a x, ((![idx] : Fin 1 → IVec S16 32) a x).toNat < S4096.size a) : Vec F S16 .f32 :=
  loadIdx (F := F) (View.read (Elt F) (b11.access (Rect.whole S4096)) C11) ![idx] h

/-- Lane x of the row of atom a of panel t from column c on is the species word at column c + x. -/
theorem rowLd_lane (C7 : S4x200x128.Idx → BitVec 32) (off : Fin 3 → ℕ)
    (inb : ∀ a, off a + S1x1x16.size a ≤ S4x200x128.size a) (t a' a c : ℕ) (hoff : off = ![t, a', c]) (hae : a' = a)
    (ht : t < 4) (ha : a < 200) (hc : c + 16 ≤ 128) (x : S16.Idx) :
    ((shapeCast S16 (rowLd (F := F) C7 off inb) shapeCasts_S1x1x16_S16 : IVec S16 32) x).toNat
      = spW C7 t a (c + (x 0).val) := by
  subst hae
  have hx : (x 0).val < 16 := (x 0).isLt
  rw [b7_row_lane (F := F) C7 off inb t a' c hoff ht ha hc x]
  unfold spW
  refine congrArg (fun i => (C7 i).toNat) (funext fun d => ?_)
  match d with
  | ⟨0, _⟩ => exact Fin.ext (Nat.mod_eq_of_lt ht).symm
  | ⟨1, _⟩ => exact Fin.ext (Nat.mod_eq_of_lt ha).symm
  | ⟨2, _⟩ => exact Fin.ext (Nat.mod_eq_of_lt (show c + (x 0).val < 128 by omega)).symm

variable [FloatOps F]

/-- One lane's accumulator after one more trip: the gathered entry is the next quad. -/
theorem lane_step (C10 : S16.Idx → F .f32) (C11 : S4096.Idx → F .f32) (C7 : S4x200x128.Idx → BitVec 32)
    (hT : TabOK C10 256 C11) (t j k : ℕ) (acc : FVec F S16 .f32) (hacc : AccLane C10 C7 t j k acc)
    (idx : IVec S16 32) (h : ∀ a x, ((![idx] : Fin 1 → IVec S16 32) a x).toNat < S4096.size a)
    (hidx : ∀ x : S16.Idx, (idx x).toNat
      = 512 * spW C7 t (4 * k) (16 * j + (x 0).val) + 64 * spW C7 t (4 * k + 1) (16 * j + (x 0).val)
        + 8 * spW C7 t (4 * k + 2) (16 * j + (x 0).val) + spW C7 t (4 * k + 3) (16 * j + (x 0).val)) :
    AccLane C10 C7 t j (k + 1) (addf acc (tabGather C11 idx h)) := by
  intro x
  have hlt : (idx x).toNat < 4096 := h 0 x
  have e1 : tabGather C11 idx h x = C11 (ValueIdx.ix1 ⟨(idx x).toNat, hlt⟩) := b11_loadIdx_lane C11 idx h x
  have e2 : C11 (ValueIdx.ix1 ⟨(idx x).toNat, hlt⟩) = tab4At C10 (idx x).toNat :=
    hT ⟨(idx x).toNat, hlt⟩ (by show (idx x).toNat < 16 * 256; omega)
  show FloatOps.addf (acc x) (tabGather C11 idx h x)
    = FloatOps.addf (accF (gQ C10 C7 t (16 * j + (x 0).val)) k) (gQ C10 C7 t (16 * j + (x 0).val) k)
  rw [hacc x, e1, e2, hidx x]
  rfl

end Cert.Proof.KI

end
-- ==== Proof.WordsQ.lean ====
/-
  The gather index of every quad of the molecule loop, lane by lane.

  Each of the loop's index payloads packs four rows of species words, read at a lane, as 512 a + 64 b + 8 c + e when the
  four words are below 8 (the packing of Words.lean); the index is then below 4096. A row enters a payload either as
  loaded (and is read through its shape cast) or already cast; the statement reads it the way the payload does.
-/
import proofs.«206988_g4337916970008_retrytranche1_694_23_alg».proof.Proof.Gen.KernelIdeal.Skeleton
import proofs.«206988_g4337916970008_retrytranche1_694_23_alg».proof.Proof.Words

namespace Cert.Proof.Words

open Idealize.ShloMosaic
open Cert.KernelIdeal Cert.KernelIdeal.Gen

variable {F : FTy → Type} [FloatOps F]

theorem k0_pay1_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay1 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay1 a b c e x).toNat < 4096 := by
  have h : (k0_pay1 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay4_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay4 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay4 a b c e x).toNat < 4096 := by
  have h : (k0_pay4 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay9_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay9 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay9 a b c e x).toNat < 4096 := by
  have h : (k0_pay9 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay11_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay11 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay11 a b c e x).toNat < 4096 := by
  have h : (k0_pay11 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay13_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay13 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay13 a b c e x).toNat < 4096 := by
  have h : (k0_pay13 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay16_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay16 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay16 a b c e x).toNat < 4096 := by
  have h : (k0_pay16 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay21_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay21 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay21 a b c e x).toNat < 4096 := by
  have h : (k0_pay21 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay23_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay23 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay23 a b c e x).toNat < 4096 := by
  have h : (k0_pay23 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay24_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay24 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay24 a b c e x).toNat < 4096 := by
  have h : (k0_pay24 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay27_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay27 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay27 a b c e x).toNat < 4096 := by
  have h : (k0_pay27 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay32_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay32 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay32 a b c e x).toNat < 4096 := by
  have h : (k0_pay32 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay34_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay34 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay34 a b c e x).toNat < 4096 := by
  have h : (k0_pay34 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay36_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay36 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay36 a b c e x).toNat < 4096 := by
  have h : (k0_pay36 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay39_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay39 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay39 a b c e x).toNat < 4096 := by
  have h : (k0_pay39 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay44_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay44 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay44 a b c e x).toNat < 4096 := by
  have h : (k0_pay44 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay46_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay46 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay46 a b c e x).toNat < 4096 := by
  have h : (k0_pay46 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay47_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay47 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay47 a b c e x).toNat < 4096 := by
  have h : (k0_pay47 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay50_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay50 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay50 a b c e x).toNat < 4096 := by
  have h : (k0_pay50 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay55_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay55 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay55 a b c e x).toNat < 4096 := by
  have h : (k0_pay55 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay57_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay57 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay57 a b c e x).toNat < 4096 := by
  have h : (k0_pay57 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay59_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay59 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay59 a b c e x).toNat < 4096 := by
  have h : (k0_pay59 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay62_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay62 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay62 a b c e x).toNat < 4096 := by
  have h : (k0_pay62 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay67_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay67 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay67 a b c e x).toNat < 4096 := by
  have h : (k0_pay67 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay69_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay69 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay69 a b c e x).toNat < 4096 := by
  have h : (k0_pay69 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay70_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay70 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay70 a b c e x).toNat < 4096 := by
  have h : (k0_pay70 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay73_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay73 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay73 a b c e x).toNat < 4096 := by
  have h : (k0_pay73 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay78_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay78 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay78 a b c e x).toNat < 4096 := by
  have h : (k0_pay78 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay80_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay80 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay80 a b c e x).toNat < 4096 := by
  have h : (k0_pay80 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay82_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay82 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay82 a b c e x).toNat < 4096 := by
  have h : (k0_pay82 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay85_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay85 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay85 a b c e x).toNat < 4096 := by
  have h : (k0_pay85 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay90_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay90 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay90 a b c e x).toNat < 4096 := by
  have h : (k0_pay90 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay92_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay92 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay92 a b c e x).toNat < 4096 := by
  have h : (k0_pay92 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

/-! ## The quads' gathers are in range

Each of the molecule loop's thirty-two gathers from the table of 4096 asks that every lane of its index be below 4096. -/

theorem k0_chk5_of_lt (v : IVec S16 32) (h : ∀ x, (v x).toNat < 4096) : k0_chk5 v := by
  intro a x
  obtain rfl : a = 0 := Subsingleton.elim _ _
  exact h x

theorem k0_chk6_of_lt (v : IVec S16 32) (h : ∀ x, (v x).toNat < 4096) : k0_chk6 v := by
  intro a x
  obtain rfl : a = 0 := Subsingleton.elim _ _
  exact h x

theorem k0_chk7_of_lt (v : IVec S16 32) (h : ∀ x, (v x).toNat < 4096) : k0_chk7 v := by
  intro a x
  obtain rfl : a = 0 := Subsingleton.elim _ _
  exact h x

theorem k0_chk8_of_lt (v : IVec S16 32) (h : ∀ x, (v x).toNat < 4096) : k0_chk8 v := by
  intro a x
  obtain rfl : a = 0 := Subsingleton.elim _ _
  exact h x

theorem k0_chk9_of_lt (v : IVec S16 32) (h : ∀ x, (v x).toNat < 4096) : k0_chk9 v := by
  intro a x
  obtain rfl : a = 0 := Subsingleton.elim _ _
  exact h x

theorem k0_chk10_of_lt (v : IVec S16 32) (h : ∀ x, (v x).toNat < 4096) : k0_chk10 v := by
  intro a x
  obtain rfl : a = 0 := Subsingleton.elim _ _
  exact h x

theorem k0_chk11_of_lt (v : IVec S16 32) (h : ∀ x, (v x).toNat < 4096) : k0_chk11 v := by
  intro a x
  obtain rfl : a = 0 := Subsingleton.elim _ _
  exact h x

theorem k0_chk12_of_lt (v : IVec S16 32) (h : ∀ x, (v x).toNat < 4096) : k0_chk12 v := by
  intro a x
  obtain rfl : a = 0 := Subsingleton.elim _ _
  exact h x

theorem k0_chk13_of_lt (v : IVec S16 32) (h : ∀ x, (v x).toNat < 4096) : k0_chk13 v := by
  intro a x
  obtain rfl : a = 0 := Subsingleton.elim _ _
  exact h x

theorem k0_chk14_of_lt (v : IVec S16 32) (h : ∀ x, (v x).toNat < 4096) : k0_chk14 v := by
  intro a x
  obtain rfl : a = 0 := Subsingleton.elim _ _
  exact h x

theorem k0_chk15_of_lt (v : IVec S16 32) (h : ∀ x, (v x).toNat < 4096) : k0_chk15 v := by
  intro a x
  obtain rfl : a = 0 := Subsingleton.elim _ _
  exact h x

theorem k0_chk16_of_lt (v : IVec S16 32) (h : ∀ x, (v x).toNat < 4096) : k0_chk16 v := by
  intro a x
  obtain rfl : a = 0 := Subsingleton.elim _ _
  exact h x

theorem k0_chk17_of_lt (v : IVec S16 32) (h : ∀ x, (v x).toNat < 4096) : k0_chk17 v := by
  intro a x
  obtain rfl : a = 0 := Subsingleton.elim _ _
  exact h x

theorem k0_chk18_of_lt (v : IVec S16 32) (h : ∀ x, (v x).toNat < 4096) : k0_chk18 v := by
  intro a x
  obtain rfl : a = 0 := Subsingleton.elim _ _
  exact h x

theorem k0_chk19_of_lt (v : IVec S16 32) (h : ∀ x, (v x).toNat < 4096) : k0_chk19 v := by
  intro a x
  obtain rfl : a = 0 := Subsingleton.elim _ _
  exact h x

theorem k0_chk20_of_lt (v : IVec S16 32) (h : ∀ x, (v x).toNat < 4096) : k0_chk20 v := by
  intro a x
  obtain rfl : a = 0 := Subsingleton.elim _ _
  exact h x

theorem k0_chk21_of_lt (v : IVec S16 32) (h : ∀ x, (v x).toNat < 4096) : k0_chk21 v := by
  intro a x
  obtain rfl : a = 0 := Subsingleton.elim _ _
  exact h x

theorem k0_chk22_of_lt (v : IVec S16 32) (h : ∀ x, (v x).toNat < 4096) : k0_chk22 v := by
  intro a x
  obtain rfl : a = 0 := Subsingleton.elim _ _
  exact h x

theorem k0_chk23_of_lt (v : IVec S16 32) (h : ∀ x, (v x).toNat < 4096) : k0_chk23 v := by
  intro a x
  obtain rfl : a = 0 := Subsingleton.elim _ _
  exact h x

theorem k0_chk24_of_lt (v : IVec S16 32) (h : ∀ x, (v x).toNat < 4096) : k0_chk24 v := by
  intro a x
  obtain rfl : a = 0 := Subsingleton.elim _ _
  exact h x

theorem k0_chk25_of_lt (v : IVec S16 32) (h : ∀ x, (v x).toNat < 4096) : k0_chk25 v := by
  intro a x
  obtain rfl : a = 0 := Subsingleton.elim _ _
  exact h x

theorem k0_chk26_of_lt (v : IVec S16 32) (h : ∀ x, (v x).toNat < 4096) : k0_chk26 v := by
  intro a x
  obtain rfl : a = 0 := Subsingleton.elim _ _
  exact h x

theorem k0_chk27_of_lt (v : IVec S16 32) (h : ∀ x, (v x).toNat < 4096) : k0_chk27 v := by
  intro a x
  obtain rfl : a = 0 := Subsingleton.elim _ _
  exact h x

theorem k0_chk28_of_lt (v : IVec S16 32) (h : ∀ x, (v x).toNat < 4096) : k0_chk28 v := by
  intro a x
  obtain rfl : a = 0 := Subsingleton.elim _ _
  exact h x

theorem k0_chk29_of_lt (v : IVec S16 32) (h : ∀ x, (v x).toNat < 4096) : k0_chk29 v := by
  intro a x
  obtain rfl : a = 0 := Subsingleton.elim _ _
  exact h x

theorem k0_chk30_of_lt (v : IVec S16 32) (h : ∀ x, (v x).toNat < 4096) : k0_chk30 v := by
  intro a x
  obtain rfl : a = 0 := Subsingleton.elim _ _
  exact h x

theorem k0_chk31_of_lt (v : IVec S16 32) (h : ∀ x, (v x).toNat < 4096) : k0_chk31 v := by
  intro a x
  obtain rfl : a = 0 := Subsingleton.elim _ _
  exact h x

theorem k0_chk32_of_lt (v : IVec S16 32) (h : ∀ x, (v x).toNat < 4096) : k0_chk32 v := by
  intro a x
  obtain rfl : a = 0 := Subsingleton.elim _ _
  exact h x

theorem k0_chk33_of_lt (v : IVec S16 32) (h : ∀ x, (v x).toNat < 4096) : k0_chk33 v := by
  intro a x
  obtain rfl : a = 0 := Subsingleton.elim _ _
  exact h x

theorem k0_chk34_of_lt (v : IVec S16 32) (h : ∀ x, (v x).toNat < 4096) : k0_chk34 v := by
  intro a x
  obtain rfl : a = 0 := Subsingleton.elim _ _
  exact h x

theorem k0_chk35_of_lt (v : IVec S16 32) (h : ∀ x, (v x).toNat < 4096) : k0_chk35 v := by
  intro a x
  obtain rfl : a = 0 := Subsingleton.elim _ _
  exact h x

theorem k0_chk36_of_lt (v : IVec S16 32) (h : ∀ x, (v x).toNat < 4096) : k0_chk36 v := by
  intro a x
  obtain rfl : a = 0 := Subsingleton.elim _ _
  exact h x

end Cert.Proof.Words
-- ==== Proof.LoopT2.lean ====
/-
  Loop 2 of the tile's body — panel 0 of the species scratch, fifty trips — lane by lane.

  Trip k reads, for each group j < 8 of sixteen molecule columns 16 j .. 16 j + 15 of panel 0, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLane
import proofs.«206988_g4337916970008_retrytranche1_694_23_alg».proof.Proof.WordsQ

noncomputable section

namespace Cert.Proof.KI

open Cert.KernelIdeal Cert.KernelIdeal.Gen
open Idealize.ShloMosaic
open Idealize.SL.Sem

variable {F : FTy → Type} [FloatOps F]

/-- The loop has at most fifty trips. -/
theorem trip2_lt (k : Fin k0_t2_loop.trips) : k.val < 50 := Nat.lt_of_lt_of_le k.isLt k0_t2_abs.2.1

/-! ## The rows a trip loads -/

/-- Group 0: the rows of atoms 4k .. 4k+3 at columns 0 .. 15. -/
abbrev row2_0_0 (C7 : S4x200x128.Idx → BitVec 32) (k : Fin k0_t2_loop.trips) : Vec F S1x1x16 .i32 :=
  rowLd C7 (k0_off5 k) (k0_off5_inb k)
abbrev row2_0_1 (C7 : S4x200x128.Idx → BitVec 32) (k : Fin k0_t2_loop.trips) : Vec F S1x1x16 .i32 :=
  rowLd C7 (k0_off6 k 1#32) (k0_off6_inb k 0)
abbrev row2_0_2 (C7 : S4x200x128.Idx → BitVec 32) (k : Fin k0_t2_loop.trips) : Vec F S1x1x16 .i32 :=
  rowLd C7 (k0_off6 k 2#32) (k0_off6_inb k 1)
abbrev row2_0_3 (C7 : S4x200x128.Idx → BitVec 32) (k : Fin k0_t2_loop.trips) : Vec F S1x1x16 .i32 :=
  rowLd C7 (k0_off6 k 3#32) (k0_off6_inb k 2)

theorem row2_0_0_lane (C7 : S4x200x128.Idx → BitVec 32) (k : Fin k0_t2_loop.trips) (x : S16.Idx) :
    ((shapeCast S16 (row2_0_0 (F := F) C7 k) shapeCasts_S1x1x16_S16 : IVec S16 32) x).toNat
      = spW C7 0 (4 * k.val) (16 * 0 + (x 0).val) :=
  rowLd_lane C7 _ _ 0 (4 * k.val) (4 * k.val) (16 * 0) (Gen.k0_off5_eq k) rfl (by decide)
    (by have := trip2_lt k; omega) (by decide) x
theorem row2_0_1_lane (C7 : S4x200x128.Idx → BitVec 32) (k : Fin k0_t2_loop.trips) (x : S16.Idx) :
    ((shapeCast S16 (row2_0_1 (F := F) C7 k) shapeCasts_S1x1x16_S16 : IVec S16 32) x).toNat
      = spW C7 0 (4 * k.val + 1) (16 * 0 + (x 0).val) :=
  rowLd_lane C7 _ _ 0 (4 * k.val + 0 + 1) (4 * k.val + 1) (16 * 0) (Gen.k0_off6_eq k ⟨0, by decide⟩)
    (by omega) (by decide) (by have := trip2_lt k; omega) (by decide) x
theorem row2_0_2_lane (C7 : S4x200x128.Idx → BitVec 32) (k : Fin k0_t2_loop.trips) (x : S16.Idx) :
    ((shapeCast S16 (row2_0_2 (F := F) C7 k) shapeCasts_S1x1x16_S16 : IVec S16 32) x).toNat
      = spW C7 0 (4 * k.val + 2) (16 * 0 + (x 0).val) :=
  rowLd_lane C7 _ _ 0 (4 * k.val + 1 + 1) (4 * k.val + 2) (16 * 0) (Gen.k0_off6_eq k ⟨1, by decide⟩)
    (by omega) (by decide) (by have := trip2_lt k; omega) (by decide) x
theorem row2_0_3_lane (C7 : S4x200x128.Idx → BitVec 32) (k : Fin k0_t2_loop.trips) (x : S16.Idx) :
    ((shapeCast S16 (row2_0_3 (F := F) C7 k) shapeCasts_S1x1x16_S16 : IVec S16 32) x).toNat
      = spW C7 0 (4 * k.val + 3) (16 * 0 + (x 0).val) :=
  rowLd_lane C7 _ _ 0 (4 * k.val + 2 + 1) (4 * k.val + 3) (16 * 0) (Gen.k0_off6_eq k ⟨2, by decide⟩)
    (by omega) (by decide) (by have := trip2_lt k; omega) (by decide) x

/-- Group 1: the rows of atoms 4k .. 4k+3 at columns 16 .. 31. -/
abbrev row2_1_0 (C7 : S4x200x128.Idx → BitVec 32) (k : Fin k0_t2_loop.trips) : Vec F S1x1x16 .i32 :=
  rowLd C7 (k0_off7 k) (k0_off7_inb k)
abbrev row2_1_1 (C7 : S4x200x128.Idx → BitVec 32) (k : Fin k0_t2_loop.trips) : Vec F S1x1x16 .i32 :=
  rowLd C7 (k0_off8 k 1#32) (k0_off8_inb k 0)
abbrev row2_1_2 (C7 : S4x200x128.Idx → BitVec 32) (k : Fin k0_t2_loop.trips) : Vec F S1x1x16 .i32 :=
  rowLd C7 (k0_off8 k 2#32) (k0_off8_inb k 1)
abbrev row2_1_3 (C7 : S4x200x128.Idx → BitVec 32) (k : Fin k0_t2_loop.trips) : Vec F S1x1x16 .i32 :=
  rowLd C7 (k0_off8 k 3#32) (k0_off8_inb k 2)

theorem row2_1_0_lane (C7 : S4x200x128.Idx → BitVec 32) (k : Fin k0_t2_loop.trips) (x : S16.Idx) :
    ((shapeCast S16 (row2_1_0 (F := F) C7 k) shapeCasts_S1x1x16_S16 : IVec S16 32) x).toNat
      = spW C7 0 (4 * k.val) (16 * 1 + (x 0).val) :=
  rowLd_lane C7 _ _ 0 (4 * k.val) (4 * k.val) (16 * 1) (Gen.k0_off7_eq k) rfl (by decide)
    (by have := trip2_lt k; omega) (by decide) x
theorem row2_1_1_lane (C7 : S4x200x128.Idx → BitVec 32) (k : Fin k0_t2_loop.trips) (x : S16.Idx) :
    ((shapeCast S16 (row2_1_1 (F := F) C7 k) shapeCasts_S1x1x16_S16 : IVec S16 32) x).toNat
      = spW C7 0 (4 * k.val + 1) (16 * 1 + (x 0).val) :=
  rowLd_lane C7 _ _ 0 (4 * k.val + 0 + 1) (4 * k.val + 1) (16 * 1) (Gen.k0_off8_eq k ⟨0, by decide⟩)
    (by omega) (by decide) (by have := trip2_lt k; omega) (by decide) x
theorem row2_1_2_lane (C7 : S4x200x128.Idx → BitVec 32) (k : Fin k0_t2_loop.trips) (x : S16.Idx) :
    ((shapeCast S16 (row2_1_2 (F := F) C7 k) shapeCasts_S1x1x16_S16 : IVec S16 32) x).toNat
      = spW C7 0 (4 * k.val + 2) (16 * 1 + (x 0).val) :=
  rowLd_lane C7 _ _ 0 (4 * k.val + 1 + 1) (4 * k.val + 2) (16 * 1) (Gen.k0_off8_eq k ⟨1, by decide⟩)
    (by omega) (by decide) (by have := trip2_lt k; omega) (by decide) x
theorem row2_1_3_lane (C7 : S4x200x128.Idx → BitVec 32) (k : Fin k0_t2_loop.trips) (x : S16.Idx) :
    ((shapeCast S16 (row2_1_3 (F := F) C7 k) shapeCasts_S1x1x16_S16 : IVec S16 32) x).toNat
      = spW C7 0 (4 * k.val + 3) (16 * 1 + (x 0).val) :=
  rowLd_lane C7 _ _ 0 (4 * k.val + 2 + 1) (4 * k.val + 3) (16 * 1) (Gen.k0_off8_eq k ⟨2, by decide⟩)
    (by omega) (by decide) (by have := trip2_lt k; omega) (by decide) x

/-- Group 2: the rows of atoms 4k .. 4k+3 at columns 32 .. 47. -/
abbrev row2_2_0 (C7 : S4x200x128.Idx → BitVec 32) (k : Fin k0_t2_loop.trips) : Vec F S1x1x16 .i32 :=
  rowLd C7 (k0_off9 k) (k0_off9_inb k)
abbrev row2_2_1 (C7 : S4x200x128.Idx → BitVec 32) (k : Fin k0_t2_loop.trips) : Vec F S1x1x16 .i32 :=
  rowLd C7 (k0_off10 k 1#32) (k0_off10_inb k 0)
abbrev row2_2_2 (C7 : S4x200x128.Idx → BitVec 32) (k : Fin k0_t2_loop.trips) : Vec F S1x1x16 .i32 :=
  rowLd C7 (k0_off10 k 2#32) (k0_off10_inb k 1)
abbrev row2_2_3 (C7 : S4x200x128.Idx → BitVec 32) (k : Fin k0_t2_loop.trips) : Vec F S1x1x16 .i32 :=
  rowLd C7 (k0_off10 k 3#32) (k0_off10_inb k 2)

theorem row2_2_0_lane (C7 : S4x200x128.Idx → BitVec 32) (k : Fin k0_t2_loop.trips) (x : S16.Idx) :
    ((shapeCast S16 (row2_2_0 (F := F) C7 k) shapeCasts_S1x1x16_S16 : IVec S16 32) x).toNat
      = spW C7 0 (4 * k.val) (16 * 2 + (x 0).val) :=
  rowLd_lane C7 _ _ 0 (4 * k.val) (4 * k.val) (16 * 2) (Gen.k0_off9_eq k) rfl (by decide)
    (by have := trip2_lt k; omega) (by decide) x
theorem row2_2_1_lane (C7 : S4x200x128.Idx → BitVec 32) (k : Fin k0_t2_loop.trips) (x : S16.Idx) :
    ((shapeCast S16 (row2_2_1 (F := F) C7 k) shapeCasts_S1x1x16_S16 : IVec S16 32) x).toNat
      = spW C7 0 (4 * k.val + 1) (16 * 2 + (x 0).val) :=
  rowLd_lane C7 _ _ 0 (4 * k.val + 0 + 1) (4 * k.val + 1) (16 * 2) (Gen.k0_off10_eq k ⟨0, by decide⟩)
    (by omega) (by decide) (by have := trip2_lt k; omega) (by decide) x
theorem row2_2_2_lane (C7 : S4x200x128.Idx → BitVec 32) (k : Fin k0_t2_loop.trips) (x : S16.Idx) :
    ((shapeCast S16 (row2_2_2 (F := F) C7 k) shapeCasts_S1x1x16_S16 : IVec S16 32) x).toNat
      = spW C7 0 (4 * k.val + 2) (16 * 2 + (x 0).val) :=
  rowLd_lane C7 _ _ 0 (4 * k.val + 1 + 1) (4 * k.val + 2) (16 * 2) (Gen.k0_off10_eq k ⟨1, by decide⟩)
    (by omega) (by decide) (by have := trip2_lt k; omega) (by decide) x
theorem row2_2_3_lane (C7 : S4x200x128.Idx → BitVec 32) (k : Fin k0_t2_loop.trips) (x : S16.Idx) :
    ((shapeCast S16 (row2_2_3 (F := F) C7 k) shapeCasts_S1x1x16_S16 : IVec S16 32) x).toNat
      = spW C7 0 (4 * k.val + 3) (16 * 2 + (x 0).val) :=
  rowLd_lane C7 _ _ 0 (4 * k.val + 2 + 1) (4 * k.val + 3) (16 * 2) (Gen.k0_off10_eq k ⟨2, by decide⟩)
    (by omega) (by decide) (by have := trip2_lt k; omega) (by decide) x

/-- Group 3: the rows of atoms 4k .. 4k+3 at columns 48 .. 63. -/
abbrev row2_3_0 (C7 : S4x200x128.Idx → BitVec 32) (k : Fin k0_t2_loop.trips) : Vec F S1x1x16 .i32 :=
  rowLd C7 (k0_off11 k) (k0_off11_inb k)
abbrev row2_3_1 (C7 : S4x200x128.Idx → BitVec 32) (k : Fin k0_t2_loop.trips) : Vec F S1x1x16 .i32 :=
  rowLd C7 (k0_off12 k 1#32) (k0_off12_inb k 0)
abbrev row2_3_2 (C7 : S4x200x128.Idx → BitVec 32) (k : Fin k0_t2_loop.trips) : Vec F S1x1x16 .i32 :=
  rowLd C7 (k0_off12 k 2#32) (k0_off12_inb k 1)
abbrev row2_3_3 (C7 : S4x200x128.Idx → BitVec 32) (k : Fin k0_t2_loop.trips) : Vec F S1x1x16 .i32 :=
  rowLd C7 (k0_off12 k 3#32) (k0_off12_inb k 2)

theorem row2_3_0_lane (C7 : S4x200x128.Idx → BitVec 32) (k : Fin k0_t2_loop.trips) (x : S16.Idx) :
    ((shapeCast S16 (row2_3_0 (F := F) C7 k) shapeCasts_S1x1x16_S16 : IVec S16 32) x).toNat
      = spW C7 0 (4 * k.val) (16 * 3 + (x 0).val) :=
  rowLd_lane C7 _ _ 0 (4 * k.val) (4 * k.val) (16 * 3) (Gen.k0_off11_eq k) rfl (by decide)
    (by have := trip2_lt k; omega) (by decide) x
theorem row2_3_1_lane (C7 : S4x200x128.Idx → BitVec 32) (k : Fin k0_t2_loop.trips) (x : S16.Idx) :
    ((shapeCast S16 (row2_3_1 (F := F) C7 k) shapeCasts_S1x1x16_S16 : IVec S16 32) x).toNat
      = spW C7 0 (4 * k.val + 1) (16 * 3 + (x 0).val) :=
  rowLd_lane C7 _ _ 0 (4 * k.val + 0 + 1) (4 * k.val + 1) (16 * 3) (Gen.k0_off12_eq k ⟨0, by decide⟩)
    (by omega) (by decide) (by have := trip2_lt k; omega) (by decide) x
theorem row2_3_2_lane (C7 : S4x200x128.Idx → BitVec 32) (k : Fin k0_t2_loop.trips) (x : S16.Idx) :
    ((shapeCast S16 (row2_3_2 (F := F) C7 k) shapeCasts_S1x1x16_S16 : IVec S16 32) x).toNat
      = spW C7 0 (4 * k.val + 2) (16 * 3 + (x 0).val) :=
  rowLd_lane C7 _ _ 0 (4 * k.val + 1 + 1) (4 * k.val + 2) (16 * 3) (Gen.k0_off12_eq k ⟨1, by decide⟩)
    (by omega) (by decide) (by have := trip2_lt k; omega) (by decide) x
theorem row2_3_3_lane (C7 : S4x200x128.Idx → BitVec 32) (k : Fin k0_t2_loop.trips) (x : S16.Idx) :
    ((shapeCast S16 (row2_3_3 (F := F) C7 k) shapeCasts_S1x1x16_S16 : IVec S16 32) x).toNat
      = spW C7 0 (4 * k.val + 3) (16 * 3 + (x 0).val) :=
  rowLd_lane C7 _ _ 0 (4 * k.val + 2 + 1) (4 * k.val + 3) (16 * 3) (Gen.k0_off12_eq k ⟨2, by decide⟩)
    (by omega) (by decide) (by have := trip2_lt k; omega) (by decide) x

/-- Group 4: the rows of atoms 4k .. 4k+3 at columns 64 .. 79. -/
abbrev row2_4_0 (C7 : S4x200x128.Idx → BitVec 32) (k : Fin k0_t2_loop.trips) : Vec F S1x1x16 .i32 :=
  rowLd C7 (k0_off13 k) (k0_off13_inb k)
abbrev row2_4_1 (C7 : S4x200x128.Idx → BitVec 32) (k : Fin k0_t2_loop.trips) : Vec F S1x1x16 .i32 :=
  rowLd C7 (k0_off14 k 1#32) (k0_off14_inb k 0)
abbrev row2_4_2 (C7 : S4x200x128.Idx → BitVec 32) (k : Fin k0_t2_loop.trips) : Vec F S1x1x16 .i32 :=
  rowLd C7 (k0_off14 k 2#32) (k0_off14_inb k 1)
abbrev row2_4_3 (C7 : S4x200x128.Idx → BitVec 32) (k : Fin k0_t2_loop.trips) : Vec F S1x1x16 .i32 :=
  rowLd C7 (k0_off14 k 3#32) (k0_off14_inb k 2)

theorem row2_4_0_lane (C7 : S4x200x128.Idx → BitVec 32) (k : Fin k0_t2_loop.trips) (x : S16.Idx) :
    ((shapeCast S16 (row2_4_0 (F := F) C7 k) shapeCasts_S1x1x16_S16 : IVec S16 32) x).toNat
      = spW C7 0 (4 * k.val) (16 * 4 + (x 0).val) :=
  rowLd_lane C7 _ _ 0 (4 * k.val) (4 * k.val) (16 * 4) (Gen.k0_off13_eq k) rfl (by decide)
    (by have := trip2_lt k; omega) (by decide) x
theorem row2_4_1_lane (C7 : S4x200x128.Idx → BitVec 32) (k : Fin k0_t2_loop.trips) (x : S16.Idx) :
    ((shapeCast S16 (row2_4_1 (F := F) C7 k) shapeCasts_S1x1x16_S16 : IVec S16 32) x).toNat
      = spW C7 0 (4 * k.val + 1) (16 * 4 + (x 0).val) :=
  rowLd_lane C7 _ _ 0 (4 * k.val + 0 + 1) (4 * k.val + 1) (16 * 4) (Gen.k0_off14_eq k ⟨0, by decide⟩)
    (by omega) (by decide) (by have := trip2_lt k; omega) (by decide) x
theorem row2_4_2_lane (C7 : S4x200x128.Idx → BitVec 32) (k : Fin k0_t2_loop.trips) (x : S16.Idx) :
    ((shapeCast S16 (row2_4_2 (F := F) C7 k) shapeCasts_S1x1x16_S16 : IVec S16 32) x).toNat
      = spW C7 0 (4 * k.val + 2) (16 * 4 + (x 0).val) :=
  rowLd_lane C7 _ _ 0 (4 * k.val + 1 + 1) (4 * k.val + 2) (16 * 4) (Gen.k0_off14_eq k ⟨1, by decide⟩)
    (by omega) (by decide) (by have := trip2_lt k; omega) (by decide) x
theorem row2_4_3_lane (C7 : S4x200x128.Idx → BitVec 32) (k : Fin k0_t2_loop.trips) (x : S16.Idx) :
    ((shapeCast S16 (row2_4_3 (F := F) C7 k) shapeCasts_S1x1x16_S16 : IVec S16 32) x).toNat
      = spW C7 0 (4 * k.val + 3) (16 * 4 + (x 0).val) :=
  rowLd_lane C7 _ _ 0 (4 * k.val + 2 + 1) (4 * k.val + 3) (16 * 4) (Gen.k0_off14_eq k ⟨2, by decide⟩)
    (by omega) (by decide) (by have := trip2_lt k; omega) (by decide) x

/-- Group 5: the rows of atoms 4k .. 4k+3 at columns 80 .. 95. -/
abbrev row2_5_0 (C7 : S4x200x128.Idx → BitVec 32) (k : Fin k0_t2_loop.trips) : Vec F S1x1x16 .i32 :=
  rowLd C7 (k0_off15 k) (k0_off15_inb k)
abbrev row2_5_1 (C7 : S4x200x128.Idx → BitVec 32) (k : Fin k0_t2_loop.trips) : Vec F S1x1x16 .i32 :=
  rowLd C7 (k0_off16 k 1#32) (k0_off16_inb k 0)
abbrev row2_5_2 (C7 : S4x200x128.Idx → BitVec 32) (k : Fin k0_t2_loop.trips) : Vec F S1x1x16 .i32 :=
  rowLd C7 (k0_off16 k 2#32) (k0_off16_inb k 1)
abbrev row2_5_3 (C7 : S4x200x128.Idx → BitVec 32) (k : Fin k0_t2_loop.trips) : Vec F S1x1x16 .i32 :=
  rowLd C7 (k0_off16 k 3#32) (k0_off16_inb k 2)

theorem row2_5_0_lane (C7 : S4x200x128.Idx → BitVec 32) (k : Fin k0_t2_loop.trips) (x : S16.Idx) :
    ((shapeCast S16 (row2_5_0 (F := F) C7 k) shapeCasts_S1x1x16_S16 : IVec S16 32) x).toNat
      = spW C7 0 (4 * k.val) (16 * 5 + (x 0).val) :=
  rowLd_lane C7 _ _ 0 (4 * k.val) (4 * k.val) (16 * 5) (Gen.k0_off15_eq k) rfl (by decide)
    (by have := trip2_lt k; omega) (by decide) x
theorem row2_5_1_lane (C7 : S4x200x128.Idx → BitVec 32) (k : Fin k0_t2_loop.trips) (x : S16.Idx) :
    ((shapeCast S16 (row2_5_1 (F := F) C7 k) shapeCasts_S1x1x16_S16 : IVec S16 32) x).toNat
      = spW C7 0 (4 * k.val + 1) (16 * 5 + (x 0).val) :=
  rowLd_lane C7 _ _ 0 (4 * k.val + 0 + 1) (4 * k.val + 1) (16 * 5) (Gen.k0_off16_eq k ⟨0, by decide⟩)
    (by omega) (by decide) (by have := trip2_lt k; omega) (by decide) x
theorem row2_5_2_lane (C7 : S4x200x128.Idx → BitVec 32) (k : Fin k0_t2_loop.trips) (x : S16.Idx) :
    ((shapeCast S16 (row2_5_2 (F := F) C7 k) shapeCasts_S1x1x16_S16 : IVec S16 32) x).toNat
      = spW C7 0 (4 * k.val + 2) (16 * 5 + (x 0).val) :=
  rowLd_lane C7 _ _ 0 (4 * k.val + 1 + 1) (4 * k.val + 2) (16 * 5) (Gen.k0_off16_eq k ⟨1, by decide⟩)
    (by omega) (by decide) (by have := trip2_lt k; omega) (by decide) x
theorem row2_5_3_lane (C7 : S4x200x128.Idx → BitVec 32) (k : Fin k0_t2_loop.trips) (x : S16.Idx) :
    ((shapeCast S16 (row2_5_3 (F := F) C7 k) shapeCasts_S1x1x16_S16 : IVec S16 32) x).toNat
      = spW C7 0 (4 * k.val + 3) (16 * 5 + (x 0).val) :=
  rowLd_lane C7 _ _ 0 (4 * k.val + 2 + 1) (4 * k.val + 3) (16 * 5) (Gen.k0_off16_eq k ⟨2, by decide⟩)
    (by omega) (by decide) (by have := trip2_lt k; omega) (by decide) x

/-- Group 6: the rows of atoms 4k .. 4k+3 at columns 96 .. 111. -/
abbrev row2_6_0 (C7 : S4x200x128.Idx → BitVec 32) (k : Fin k0_t2_loop.trips) : Vec F S1x1x16 .i32 :=
  rowLd C7 (k0_off17 k) (k0_off17_inb k)
abbrev row2_6_1 (C7 : S4x200x128.Idx → BitVec 32) (k : Fin k0_t2_loop.trips) : Vec F S1x1x16 .i32 :=
  rowLd C7 (k0_off18 k 1#32) (k0_off18_inb k 0)
abbrev row2_6_2 (C7 : S4x200x128.Idx → BitVec 32) (k : Fin k0_t2_loop.trips) : Vec F S1x1x16 .i32 :=
  rowLd C7 (k0_off18 k 2#32) (k0_off18_inb k 1)
abbrev row2_6_3 (C7 : S4x200x128.Idx → BitVec 32) (k : Fin k0_t2_loop.trips) : Vec F S1x1x16 .i32 :=
  rowLd C7 (k0_off18 k 3#32) (k0_off18_inb k 2)

theorem row2_6_0_lane (C7 : S4x200x128.Idx → BitVec 32) (k : Fin k0_t2_loop.trips) (x : S16.Idx) :
    ((shapeCast S16 (row2_6_0 (F := F) C7 k) shapeCasts_S1x1x16_S16 : IVec S16 32) x).toNat
      = spW C7 0 (4 * k.val) (16 * 6 + (x 0).val) :=
  rowLd_lane C7 _ _ 0 (4 * k.val) (4 * k.val) (16 * 6) (Gen.k0_off17_eq k) rfl (by decide)
    (by have := trip2_lt k; omega) (by decide) x
theorem row2_6_1_lane (C7 : S4x200x128.Idx → BitVec 32) (k : Fin k0_t2_loop.trips) (x : S16.Idx) :
    ((shapeCast S16 (row2_6_1 (F := F) C7 k) shapeCasts_S1x1x16_S16 : IVec S16 32) x).toNat
      = spW C7 0 (4 * k.val + 1) (16 * 6 + (x 0).val) :=
  rowLd_lane C7 _ _ 0 (4 * k.val + 0 + 1) (4 * k.val + 1) (16 * 6) (Gen.k0_off18_eq k ⟨0, by decide⟩)
    (by omega) (by decide) (by have := trip2_lt k; omega) (by decide) x
theorem row2_6_2_lane (C7 : S4x200x128.Idx → BitVec 32) (k : Fin k0_t2_loop.trips) (x : S16.Idx) :
    ((shapeCast S16 (row2_6_2 (F := F) C7 k) shapeCasts_S1x1x16_S16 : IVec S16 32) x).toNat
      = spW C7 0 (4 * k.val + 2) (16 * 6 + (x 0).val) :=
  rowLd_lane C7 _ _ 0 (4 * k.val + 1 + 1) (4 * k.val + 2) (16 * 6) (Gen.k0_off18_eq k ⟨1, by decide⟩)
    (by omega) (by decide) (by have := trip2_lt k; omega) (by decide) x
theorem row2_6_3_lane (C7 : S4x200x128.Idx → BitVec 32) (k : Fin k0_t2_loop.trips) (x : S16.Idx) :
    ((shapeCast S16 (row2_6_3 (F := F) C7 k) shapeCasts_S1x1x16_S16 : IVec S16 32) x).toNat
      = spW C7 0 (4 * k.val + 3) (16 * 6 + (x 0).val) :=
  rowLd_lane C7 _ _ 0 (4 * k.val + 2 + 1) (4 * k.val + 3) (16 * 6) (Gen.k0_off18_eq k ⟨2, by decide⟩)
    (by omega) (by decide) (by have := trip2_lt k; omega) (by decide) x

/-- Group 7: the rows of atoms 4k .. 4k+3 at columns 112 .. 127. -/
abbrev row2_7_0 (C7 : S4x200x128.Idx → BitVec 32) (k : Fin k0_t2_loop.trips) : Vec F S1x1x16 .i32 :=
  rowLd C7 (k0_off19 k) (k0_off19_inb k)
abbrev row2_7_1 (C7 : S4x200x128.Idx → BitVec 32) (k : Fin k0_t2_loop.trips) : Vec F S1x1x16 .i32 :=
  rowLd C7 (k0_off20 k 1#32) (k0_off20_inb k 0)
abbrev row2_7_2 (C7 : S4x200x128.Idx → BitVec 32) (k : Fin k0_t2_loop.trips) : Vec F S1x1x16 .i32 :=
  rowLd C7 (k0_off20 k 2#32) (k0_off20_inb k 1)
abbrev row2_7_3 (C7 : S4x200x128.Idx → BitVec 32) (k : Fin k0_t2_loop.trips) : Vec F S1x1x16 .i32 :=
  rowLd C7 (k0_off20 k 3#32) (k0_off20_inb k 2)

theorem row2_7_0_lane (C7 : S4x200x128.Idx → BitVec 32) (k : Fin k0_t2_loop.trips) (x : S16.Idx) :
    ((shapeCast S16 (row2_7_0 (F := F) C7 k) shapeCasts_S1x1x16_S16 : IVec S16 32) x).toNat
      = spW C7 0 (4 * k.val) (16 * 7 + (x 0).val) :=
  rowLd_lane C7 _ _ 0 (4 * k.val) (4 * k.val) (16 * 7) (Gen.k0_off19_eq k) rfl (by decide)
    (by have := trip2_lt k; omega) (by decide) x
theorem row2_7_1_lane (C7 : S4x200x128.Idx → BitVec 32) (k : Fin k0_t2_loop.trips) (x : S16.Idx) :
    ((shapeCast S16 (row2_7_1 (F := F) C7 k) shapeCasts_S1x1x16_S16 : IVec S16 32) x).toNat
      = spW C7 0 (4 * k.val + 1) (16 * 7 + (x 0).val) :=
  rowLd_lane C7 _ _ 0 (4 * k.val + 0 + 1) (4 * k.val + 1) (16 * 7) (Gen.k0_off20_eq k ⟨0, by decide⟩)
    (by omega) (by decide) (by have := trip2_lt k; omega) (by decide) x
theorem row2_7_2_lane (C7 : S4x200x128.Idx → BitVec 32) (k : Fin k0_t2_loop.trips) (x : S16.Idx) :
    ((shapeCast S16 (row2_7_2 (F := F) C7 k) shapeCasts_S1x1x16_S16 : IVec S16 32) x).toNat
      = spW C7 0 (4 * k.val + 2) (16 * 7 + (x 0).val) :=
  rowLd_lane C7 _ _ 0 (4 * k.val + 1 + 1) (4 * k.val + 2) (16 * 7) (Gen.k0_off20_eq k ⟨1, by decide⟩)
    (by omega) (by decide) (by have := trip2_lt k; omega) (by decide) x
theorem row2_7_3_lane (C7 : S4x200x128.Idx → BitVec 32) (k : Fin k0_t2_loop.trips) (x : S16.Idx) :
    ((shapeCast S16 (row2_7_3 (F := F) C7 k) shapeCasts_S1x1x16_S16 : IVec S16 32) x).toNat
      = spW C7 0 (4 * k.val + 3) (16 * 7 + (x 0).val) :=
  rowLd_lane C7 _ _ 0 (4 * k.val + 2 + 1) (4 * k.val + 3) (16 * 7) (Gen.k0_off20_eq k ⟨2, by decide⟩)
    (by omega) (by decide) (by have := trip2_lt k; omega) (by decide) x

/-! ## The index words -/

/-- Group 0's sixteen index words at trip k. -/
abbrev idx2_0 (C7 : S4x200x128.Idx → BitVec 32) (k : Fin k0_t2_loop.trips) : IVec S16 32 :=
  k0_pay1 (F := F) (row2_0_0 C7 k) (row2_0_1 C7 k) (row2_0_2 C7 k) (row2_0_3 C7 k)

theorem idx2_0_lane (C7 : S4x200x128.Idx → BitVec 32) (hlt : SlabLt C7 0) (k : Fin k0_t2_loop.trips) (x : S16.Idx) :
    (idx2_0 (F := F) C7 k x).toNat
        = 512 * spW C7 0 (4 * k.val) (16 * 0 + (x 0).val) + 64 * spW C7 0 (4 * k.val + 1) (16 * 0 + (x 0).val)
          + 8 * spW C7 0 (4 * k.val + 2) (16 * 0 + (x 0).val) + spW C7 0 (4 * k.val + 3) (16 * 0 + (x 0).val)
      ∧ (idx2_0 (F := F) C7 k x).toNat < 4096 := by
  have hk := trip2_lt k
  have hx : (x 0).val < 16 := (x 0).isLt
  have e0 : ((shapeCast S16 (row2_0_0 (F := F) C7 k) shapeCasts_S1x1x16_S16 : IVec S16 32) x).toNat = spW C7 0 (4 * k.val) (16 * 0 + (x 0).val) := row2_0_0_lane (F := F) C7 k x
  have e1 : ((shapeCast S16 (row2_0_1 (F := F) C7 k) shapeCasts_S1x1x16_S16 : IVec S16 32) x).toNat = spW C7 0 (4 * k.val + 1) (16 * 0 + (x 0).val) := row2_0_1_lane (F := F) C7 k x
  have e2 : ((shapeCast S16 (row2_0_2 (F := F) C7 k) shapeCasts_S1x1x16_S16 : IVec S16 32) x).toNat = spW C7 0 (4 * k.val + 2) (16 * 0 + (x 0).val) := row2_0_2_lane (F := F) C7 k x
  have e3 : ((shapeCast S16 (row2_0_3 (F := F) C7 k) shapeCasts_S1x1x16_S16 : IVec S16 32) x).toNat = spW C7 0 (4 * k.val + 3) (16 * 0 + (x 0).val) := row2_0_3_lane (F := F) C7 k x
  have b0 : spW C7 0 (4 * k.val) (16 * 0 + (x 0).val) < 8 := hlt _ _ (by omega) (by omega)
  have b1 : spW C7 0 (4 * k.val + 1) (16 * 0 + (x 0).val) < 8 := hlt _ _ (by omega) (by omega)
  have b2 : spW C7 0 (4 * k.val + 2) (16 * 0 + (x 0).val) < 8 := hlt _ _ (by omega) (by omega)
  have b3 : spW C7 0 (4 * k.val + 3) (16 * 0 + (x 0).val) < 8 := hlt _ _ (by omega) (by omega)
  obtain ⟨e, l⟩ := Cert.Proof.Words.k0_pay1_lane (F := F) (row2_0_0 C7 k) (row2_0_1 C7 k) (row2_0_2 C7 k) (row2_0_3 C7 k) x
    (e0.trans_lt b0) (e1.trans_lt b1) (e2.trans_lt b2) (e3.trans_lt b3)
  exact ⟨e.trans (by rw [e0, e1, e2, e3]), l⟩

/-- The gather's side condition holds. -/
theorem chk2_0 (C7 : S4x200x128.Idx → BitVec 32) (hlt : SlabLt C7 0) (k : Fin k0_t2_loop.trips) :
    k0_chk5 (idx2_0 (F := F) C7 k) :=
  Cert.Proof.Words.k0_chk5_of_lt _ fun x => (idx2_0_lane C7 hlt k x).2

/-- Group 1's sixteen index words at trip k. -/
abbrev idx2_1 (C7 : S4x200x128.Idx → BitVec 32) (k : Fin k0_t2_loop.trips) : IVec S16 32 :=
  k0_pay4 (F := F) (k0_pay3 (row2_1_0 C7 k)) (row2_1_1 C7 k) (row2_1_2 C7 k) (row2_1_3 C7 k)

theorem idx2_1_lane (C7 : S4x200x128.Idx → BitVec 32) (hlt : SlabLt C7 0) (k : Fin k0_t2_loop.trips) (x : S16.Idx) :
    (idx2_1 (F := F) C7 k x).toNat
        = 512 * spW C7 0 (4 * k.val) (16 * 1 + (x 0).val) + 64 * spW C7 0 (4 * k.val + 1) (16 * 1 + (x 0).val)
          + 8 * spW C7 0 (4 * k.val + 2) (16 * 1 + (x 0).val) + spW C7 0 (4 * k.val + 3) (16 * 1 + (x 0).val)
      ∧ (idx2_1 (F := F) C7 k x).toNat < 4096 := by
  have hk := trip2_lt k
  have hx : (x 0).val < 16 := (x 0).isLt
  have e0 : (k0_pay3 (row2_1_0 (F := F) C7 k) x).toNat = spW C7 0 (4 * k.val) (16 * 1 + (x 0).val) := row2_1_0_lane (F := F) C7 k x
  have e1 : ((shapeCast S16 (row2_1_1 (F := F) C7 k) shapeCasts_S1x1x16_S16 : IVec S16 32) x).toNat = spW C7 0 (4 * k.val + 1) (16 * 1 + (x 0).val) := row2_1_1_lane (F := F) C7 k x
  have e2 : ((shapeCast S16 (row2_1_2 (F := F) C7 k) shapeCasts_S1x1x16_S16 : IVec S16 32) x).toNat = spW C7 0 (4 * k.val + 2) (16 * 1 + (x 0).val) := row2_1_2_lane (F := F) C7 k x
  have e3 : ((shapeCast S16 (row2_1_3 (F := F) C7 k) shapeCasts_S1x1x16_S16 : IVec S16 32) x).toNat = spW C7 0 (4 * k.val + 3) (16 * 1 + (x 0).val) := row2_1_3_lane (F := F) C7 k x
  have b0 : spW C7 0 (4 * k.val) (16 * 1 + (x 0).val) < 8 := hlt _ _ (by omega) (by omega)
  have b1 : spW C7 0 (4 * k.val + 1) (16 * 1 + (x 0).val) < 8 := hlt _ _ (by omega) (by omega)
  have b2 : spW C7 0 (4 * k.val + 2) (16 * 1 + (x 0).val) < 8 := hlt _ _ (by omega) (by omega)
  have b3 : spW C7 0 (4 * k.val + 3) (16 * 1 + (x 0).val) < 8 := hlt _ _ (by omega) (by omega)
  obtain ⟨e, l⟩ := Cert.Proof.Words.k0_pay4_lane (F := F) (k0_pay3 (row2_1_0 C7 k)) (row2_1_1 C7 k) (row2_1_2 C7 k) (row2_1_3 C7 k) x
    (e0.trans_lt b0) (e1.trans_lt b1) (e2.trans_lt b2) (e3.trans_lt b3)
  exact ⟨e.trans (by rw [e0, e1, e2, e3]), l⟩

/-- The gather's side condition holds. -/
theorem chk2_1 (C7 : S4x200x128.Idx → BitVec 32) (hlt : SlabLt C7 0) (k : Fin k0_t2_loop.trips) :
    k0_chk6 (idx2_1 (F := F) C7 k) :=
  Cert.Proof.Words.k0_chk6_of_lt _ fun x => (idx2_1_lane C7 hlt k x).2

/-- Group 2's sixteen index words at trip k. -/
abbrev idx2_2 (C7 : S4x200x128.Idx → BitVec 32) (k : Fin k0_t2_loop.trips) : IVec S16 32 :=
  k0_pay9 (F := F) (k0_pay6 (row2_2_0 C7 k)) (k0_pay7 (row2_2_1 C7 k)) (k0_pay8 (row2_2_2 C7 k)) (row2_2_3 C7 k)

theorem idx2_2_lane (C7 : S4x200x128.Idx → BitVec 32) (hlt : SlabLt C7 0) (k : Fin k0_t2_loop.trips) (x : S16.Idx) :
    (idx2_2 (F := F) C7 k x).toNat
        = 512 * spW C7 0 (4 * k.val) (16 * 2 + (x 0).val) + 64 * spW C7 0 (4 * k.val + 1) (16 * 2 + (x 0).val)
          + 8 * spW C7 0 (4 * k.val + 2) (16 * 2 + (x 0).val) + spW C7 0 (4 * k.val + 3) (16 * 2 + (x 0).val)
      ∧ (idx2_2 (F := F) C7 k x).toNat < 4096 := by
  have hk := trip2_lt k
  have hx : (x 0).val < 16 := (x 0).isLt
  have e0 : (k0_pay6 (row2_2_0 (F := F) C7 k) x).toNat = spW C7 0 (4 * k.val) (16 * 2 + (x 0).val) := row2_2_0_lane (F := F) C7 k x
  have e1 : (k0_pay7 (row2_2_1 (F := F) C7 k) x).toNat = spW C7 0 (4 * k.val + 1) (16 * 2 + (x 0).val) := row2_2_1_lane (F := F) C7 k x
  have e2 : (k0_pay8 (row2_2_2 (F := F) C7 k) x).toNat = spW C7 0 (4 * k.val + 2) (16 * 2 + (x 0).val) := row2_2_2_lane (F := F) C7 k x
  have e3 : ((shapeCast S16 (row2_2_3 (F := F) C7 k) shapeCasts_S1x1x16_S16 : IVec S16 32) x).toNat = spW C7 0 (4 * k.val + 3) (16 * 2 + (x 0).val) := row2_2_3_lane (F := F) C7 k x
  have b0 : spW C7 0 (4 * k.val) (16 * 2 + (x 0).val) < 8 := hlt _ _ (by omega) (by omega)
  have b1 : spW C7 0 (4 * k.val + 1) (16 * 2 + (x 0).val) < 8 := hlt _ _ (by omega) (by omega)
  have b2 : spW C7 0 (4 * k.val + 2) (16 * 2 + (x 0).val) < 8 := hlt _ _ (by omega) (by omega)
  have b3 : spW C7 0 (4 * k.val + 3) (16 * 2 + (x 0).val) < 8 := hlt _ _ (by omega) (by omega)
  obtain ⟨e, l⟩ := Cert.Proof.Words.k0_pay9_lane (F := F) (k0_pay6 (row2_2_0 C7 k)) (k0_pay7 (row2_2_1 C7 k)) (k0_pay8 (row2_2_2 C7 k)) (row2_2_3 C7 k) x
    (e0.trans_lt b0) (e1.trans_lt b1) (e2.trans_lt b2) (e3.trans_lt b3)
  exact ⟨e.trans (by rw [e0, e1, e2, e3]), l⟩

/-- The gather's side condition holds. -/
theorem chk2_2 (C7 : S4x200x128.Idx → BitVec 32) (hlt : SlabLt C7 0) (k : Fin k0_t2_loop.trips) :
    k0_chk7 (idx2_2 (F := F) C7 k) :=
  Cert.Proof.Words.k0_chk7_of_lt _ fun x => (idx2_2_lane C7 hlt k x).2

/-- Group 3's sixteen index words at trip k. -/
abbrev idx2_3 (C7 : S4x200x128.Idx → BitVec 32) (k : Fin k0_t2_loop.trips) : IVec S16 32 :=
  k0_pay11 (F := F) (row2_3_0 C7 k) (row2_3_1 C7 k) (row2_3_2 C7 k) (row2_3_3 C7 k)

theorem idx2_3_lane (C7 : S4x200x128.Idx → BitVec 32) (hlt : SlabLt C7 0) (k : Fin k0_t2_loop.trips) (x : S16.Idx) :
    (idx2_3 (F := F) C7 k x).toNat
        = 512 * spW C7 0 (4 * k.val) (16 * 3 + (x 0).val) + 64 * spW C7 0 (4 * k.val + 1) (16 * 3 + (x 0).val)
          + 8 * spW C7 0 (4 * k.val + 2) (16 * 3 + (x 0).val) + spW C7 0 (4 * k.val + 3) (16 * 3 + (x 0).val)
      ∧ (idx2_3 (F := F) C7 k x).toNat < 4096 := by
  have hk := trip2_lt k
  have hx : (x 0).val < 16 := (x 0).isLt
  have e0 : ((shapeCast S16 (row2_3_0 (F := F) C7 k) shapeCasts_S1x1x16_S16 : IVec S16 32) x).toNat = spW C7 0 (4 * k.val) (16 * 3 + (x 0).val) := row2_3_0_lane (F := F) C7 k x
  have e1 : ((shapeCast S16 (row2_3_1 (F := F) C7 k) shapeCasts_S1x1x16_S16 : IVec S16 32) x).toNat = spW C7 0 (4 * k.val + 1) (16 * 3 + (x 0).val) := row2_3_1_lane (F := F) C7 k x
  have e2 : ((shapeCast S16 (row2_3_2 (F := F) C7 k) shapeCasts_S1x1x16_S16 : IVec S16 32) x).toNat = spW C7 0 (4 * k.val + 2) (16 * 3 + (x 0).val) := row2_3_2_lane (F := F) C7 k x
  have e3 : ((shapeCast S16 (row2_3_3 (F := F) C7 k) shapeCasts_S1x1x16_S16 : IVec S16 32) x).toNat = spW C7 0 (4 * k.val + 3) (16 * 3 + (x 0).val) := row2_3_3_lane (F := F) C7 k x
  have b0 : spW C7 0 (4 * k.val) (16 * 3 + (x 0).val) < 8 := hlt _ _ (by omega) (by omega)
  have b1 : spW C7 0 (4 * k.val + 1) (16 * 3 + (x 0).val) < 8 := hlt _ _ (by omega) (by omega)
  have b2 : spW C7 0 (4 * k.val + 2) (16 * 3 + (x 0).val) < 8 := hlt _ _ (by omega) (by omega)
  have b3 : spW C7 0 (4 * k.val + 3) (16 * 3 + (x 0).val) < 8 := hlt _ _ (by omega) (by omega)
  obtain ⟨e, l⟩ := Cert.Proof.Words.k0_pay11_lane (F := F) (row2_3_0 C7 k) (row2_3_1 C7 k) (row2_3_2 C7 k) (row2_3_3 C7 k) x
    (e0.trans_lt b0) (e1.trans_lt b1) (e2.trans_lt b2) (e3.trans_lt b3)
  exact ⟨e.trans (by rw [e0, e1, e2, e3]), l⟩

/-- The gather's side condition holds. -/
theorem chk2_3 (C7 : S4x200x128.Idx → BitVec 32) (hlt : SlabLt C7 0) (k : Fin k0_t2_loop.trips) :
    k0_chk8 (idx2_3 (F := F) C7 k) :=
  Cert.Proof.Words.k0_chk8_of_lt _ fun x => (idx2_3_lane C7 hlt k x).2

/-- Group 4's sixteen index words at trip k. -/
abbrev idx2_4 (C7 : S4x200x128.Idx → BitVec 32) (k : Fin k0_t2_loop.trips) : IVec S16 32 :=
  k0_pay13 (F := F) (row2_4_0 C7 k) (row2_4_1 C7 k) (row2_4_2 C7 k) (row2_4_3 C7 k)

theorem idx2_4_lane (C7 : S4x200x128.Idx → BitVec 32) (hlt : SlabLt C7 0) (k : Fin k0_t2_loop.trips) (x : S16.Idx) :
    (idx2_4 (F := F) C7 k x).toNat
        = 512 * spW C7 0 (4 * k.val) (16 * 4 + (x 0).val) + 64 * spW C7 0 (4 * k.val + 1) (16 * 4 + (x 0).val)
          + 8 * spW C7 0 (4 * k.val + 2) (16 * 4 + (x 0).val) + spW C7 0 (4 * k.val + 3) (16 * 4 + (x 0).val)
      ∧ (idx2_4 (F := F) C7 k x).toNat < 4096 := by
  have hk := trip2_lt k
  have hx : (x 0).val < 16 := (x 0).isLt
  have e0 : ((shapeCast S16 (row2_4_0 (F := F) C7 k) shapeCasts_S1x1x16_S16 : IVec S16 32) x).toNat = spW C7 0 (4 * k.val) (16 * 4 + (x 0).val) := row2_4_0_lane (F := F) C7 k x
  have e1 : ((shapeCast S16 (row2_4_1 (F := F) C7 k) shapeCasts_S1x1x16_S16 : IVec S16 32) x).toNat = spW C7 0 (4 * k.val + 1) (16 * 4 + (x 0).val) := row2_4_1_lane (F := F) C7 k x
  have e2 : ((shapeCast S16 (row2_4_2 (F := F) C7 k) shapeCasts_S1x1x16_S16 : IVec S16 32) x).toNat = spW C7 0 (4 * k.val + 2) (16 * 4 + (x 0).val) := row2_4_2_lane (F := F) C7 k x
  have e3 : ((shapeCast S16 (row2_4_3 (F := F) C7 k) shapeCasts_S1x1x16_S16 : IVec S16 32) x).toNat = spW C7 0 (4 * k.val + 3) (16 * 4 + (x 0).val) := row2_4_3_lane (F := F) C7 k x
  have b0 : spW C7 0 (4 * k.val) (16 * 4 + (x 0).val) < 8 := hlt _ _ (by omega) (by omega)
  have b1 : spW C7 0 (4 * k.val + 1) (16 * 4 + (x 0).val) < 8 := hlt _ _ (by omega) (by omega)
  have b2 : spW C7 0 (4 * k.val + 2) (16 * 4 + (x 0).val) < 8 := hlt _ _ (by omega) (by omega)
  have b3 : spW C7 0 (4 * k.val + 3) (16 * 4 + (x 0).val) < 8 := hlt _ _ (by omega) (by omega)
  obtain ⟨e, l⟩ := Cert.Proof.Words.k0_pay13_lane (F := F) (row2_4_0 C7 k) (row2_4_1 C7 k) (row2_4_2 C7 k) (row2_4_3 C7 k) x
    (e0.trans_lt b0) (e1.trans_lt b1) (e2.trans_lt b2) (e3.trans_lt b3)
  exact ⟨e.trans (by rw [e0, e1, e2, e3]), l⟩

/-- The gather's side condition holds. -/
theorem chk2_4 (C7 : S4x200x128.Idx → BitVec 32) (hlt : SlabLt C7 0) (k : Fin k0_t2_loop.trips) :
    k0_chk9 (idx2_4 (F := F) C7 k) :=
  Cert.Proof.Words.k0_chk9_of_lt _ fun x => (idx2_4_lane C7 hlt k x).2

/-- Group 5's sixteen index words at trip k. -/
abbrev idx2_5 (C7 : S4x200x128.Idx → BitVec 32) (k : Fin k0_t2_loop.trips) : IVec S16 32 :=
  k0_pay16 (F := F) (k0_pay15 (row2_5_0 C7 k)) (row2_5_1 C7 k) (row2_5_2 C7 k) (row2_5_3 C7 k)

theorem idx2_5_lane (C7 : S4x200x128.Idx → BitVec 32) (hlt : SlabLt C7 0) (k : Fin k0_t2_loop.trips) (x : S16.Idx) :
    (idx2_5 (F := F) C7 k x).toNat
        = 512 * spW C7 0 (4 * k.val) (16 * 5 + (x 0).val) + 64 * spW C7 0 (4 * k.val + 1) (16 * 5 + (x 0).val)
          + 8 * spW C7 0 (4 * k.val + 2) (16 * 5 + (x 0).val) + spW C7 0 (4 * k.val + 3) (16 * 5 + (x 0).val)
      ∧ (idx2_5 (F := F) C7 k x).toNat < 4096 := by
  have hk := trip2_lt k
  have hx : (x 0).val < 16 := (x 0).isLt
  have e0 : (k0_pay15 (row2_5_0 (F := F) C7 k) x).toNat = spW C7 0 (4 * k.val) (16 * 5 + (x 0).val) := row2_5_0_lane (F := F) C7 k x
  have e1 : ((shapeCast S16 (row2_5_1 (F := F) C7 k) shapeCasts_S1x1x16_S16 : IVec S16 32) x).toNat = spW C7 0 (4 * k.val + 1) (16 * 5 + (x 0).val) := row2_5_1_lane (F := F) C7 k x
  have e2 : ((shapeCast S16 (row2_5_2 (F := F) C7 k) shapeCasts_S1x1x16_S16 : IVec S16 32) x).toNat = spW C7 0 (4 * k.val + 2) (16 * 5 + (x 0).val) := row2_5_2_lane (F := F) C7 k x
  have e3 : ((shapeCast S16 (row2_5_3 (F := F) C7 k) shapeCasts_S1x1x16_S16 : IVec S16 32) x).toNat = spW C7 0 (4 * k.val + 3) (16 * 5 + (x 0).val) := row2_5_3_lane (F := F) C7 k x
  have b0 : spW C7 0 (4 * k.val) (16 * 5 + (x 0).val) < 8 := hlt _ _ (by omega) (by omega)
  have b1 : spW C7 0 (4 * k.val + 1) (16 * 5 + (x 0).val) < 8 := hlt _ _ (by omega) (by omega)
  have b2 : spW C7 0 (4 * k.val + 2) (16 * 5 + (x 0).val) < 8 := hlt _ _ (by omega) (by omega)
  have b3 : spW C7 0 (4 * k.val + 3) (16 * 5 + (x 0).val) < 8 := hlt _ _ (by omega) (by omega)
  obtain ⟨e, l⟩ := Cert.Proof.Words.k0_pay16_lane (F := F) (k0_pay15 (row2_5_0 C7 k)) (row2_5_1 C7 k) (row2_5_2 C7 k) (row2_5_3 C7 k) x
    (e0.trans_lt b0) (e1.trans_lt b1) (e2.trans_lt b2) (e3.trans_lt b3)
  exact ⟨e.trans (by rw [e0, e1, e2, e3]), l⟩

/-- The gather's side condition holds. -/
theorem chk2_5 (C7 : S4x200x128.Idx → BitVec 32) (hlt : SlabLt C7 0) (k : Fin k0_t2_loop.trips) :
    k0_chk10 (idx2_5 (F := F) C7 k) :=
  Cert.Proof.Words.k0_chk10_of_lt _ fun x => (idx2_5_lane C7 hlt k x).2

/-- Group 6's sixteen index words at trip k. -/
abbrev idx2_6 (C7 : S4x200x128.Idx → BitVec 32) (k : Fin k0_t2_loop.trips) : IVec S16 32 :=
  k0_pay21 (F := F) (k0_pay18 (row2_6_0 C7 k)) (k0_pay19 (row2_6_1 C7 k)) (k0_pay20 (row2_6_2 C7 k)) (row2_6_3 C7 k)

theorem idx2_6_lane (C7 : S4x200x128.Idx → BitVec 32) (hlt : SlabLt C7 0) (k : Fin k0_t2_loop.trips) (x : S16.Idx) :
    (idx2_6 (F := F) C7 k x).toNat
        = 512 * spW C7 0 (4 * k.val) (16 * 6 + (x 0).val) + 64 * spW C7 0 (4 * k.val + 1) (16 * 6 + (x 0).val)
          + 8 * spW C7 0 (4 * k.val + 2) (16 * 6 + (x 0).val) + spW C7 0 (4 * k.val + 3) (16 * 6 + (x 0).val)
      ∧ (idx2_6 (F := F) C7 k x).toNat < 4096 := by
  have hk := trip2_lt k
  have hx : (x 0).val < 16 := (x 0).isLt
  have e0 : (k0_pay18 (row2_6_0 (F := F) C7 k) x).toNat = spW C7 0 (4 * k.val) (16 * 6 + (x 0).val) := row2_6_0_lane (F := F) C7 k x
  have e1 : (k0_pay19 (row2_6_1 (F := F) C7 k) x).toNat = spW C7 0 (4 * k.val + 1) (16 * 6 + (x 0).val) := row2_6_1_lane (F := F) C7 k x
  have e2 : (k0_pay20 (row2_6_2 (F := F) C7 k) x).toNat = spW C7 0 (4 * k.val + 2) (16 * 6 + (x 0).val) := row2_6_2_lane (F := F) C7 k x
  have e3 : ((shapeCast S16 (row2_6_3 (F := F) C7 k) shapeCasts_S1x1x16_S16 : IVec S16 32) x).toNat = spW C7 0 (4 * k.val + 3) (16 * 6 + (x 0).val) := row2_6_3_lane (F := F) C7 k x
  have b0 : spW C7 0 (4 * k.val) (16 * 6 + (x 0).val) < 8 := hlt _ _ (by omega) (by omega)
  have b1 : spW C7 0 (4 * k.val + 1) (16 * 6 + (x 0).val) < 8 := hlt _ _ (by omega) (by omega)
  have b2 : spW C7 0 (4 * k.val + 2) (16 * 6 + (x 0).val) < 8 := hlt _ _ (by omega) (by omega)
  have b3 : spW C7 0 (4 * k.val + 3) (16 * 6 + (x 0).val) < 8 := hlt _ _ (by omega) (by omega)
  obtain ⟨e, l⟩ := Cert.Proof.Words.k0_pay21_lane (F := F) (k0_pay18 (row2_6_0 C7 k)) (k0_pay19 (row2_6_1 C7 k)) (k0_pay20 (row2_6_2 C7 k)) (row2_6_3 C7 k) x
    (e0.trans_lt b0) (e1.trans_lt b1) (e2.trans_lt b2) (e3.trans_lt b3)
  exact ⟨e.trans (by rw [e0, e1, e2, e3]), l⟩

/-- The gather's side condition holds. -/
theorem chk2_6 (C7 : S4x200x128.Idx → BitVec 32) (hlt : SlabLt C7 0) (k : Fin k0_t2_loop.trips) :
    k0_chk11 (idx2_6 (F := F) C7 k) :=
  Cert.Proof.Words.k0_chk11_of_lt _ fun x => (idx2_6_lane C7 hlt k x).2

/-- Group 7's sixteen index words at trip k. -/
abbrev idx2_7 (C7 : S4x200x128.Idx → BitVec 32) (k : Fin k0_t2_loop.trips) : IVec S16 32 :=
  k0_pay23 (F := F) (row2_7_0 C7 k) (row2_7_1 C7 k) (row2_7_2 C7 k) (row2_7_3 C7 k)

theorem idx2_7_lane (C7 : S4x200x128.Idx → BitVec 32) (hlt : SlabLt C7 0) (k : Fin k0_t2_loop.trips) (x : S16.Idx) :
    (idx2_7 (F := F) C7 k x).toNat
        = 512 * spW C7 0 (4 * k.val) (16 * 7 + (x 0).val) + 64 * spW C7 0 (4 * k.val + 1) (16 * 7 + (x 0).val)
          + 8 * spW C7 0 (4 * k.val + 2) (16 * 7 + (x 0).val) + spW C7 0 (4 * k.val + 3) (16 * 7 + (x 0).val)
      ∧ (idx2_7 (F := F) C7 k x).toNat < 4096 := by
  have hk := trip2_lt k
  have hx : (x 0).val < 16 := (x 0).isLt
  have e0 : ((shapeCast S16 (row2_7_0 (F := F) C7 k) shapeCasts_S1x1x16_S16 : IVec S16 32) x).toNat = spW C7 0 (4 * k.val) (16 * 7 + (x 0).val) := row2_7_0_lane (F := F) C7 k x
  have e1 : ((shapeCast S16 (row2_7_1 (F := F) C7 k) shapeCasts_S1x1x16_S16 : IVec S16 32) x).toNat = spW C7 0 (4 * k.val + 1) (16 * 7 + (x 0).val) := row2_7_1_lane (F := F) C7 k x
  have e2 : ((shapeCast S16 (row2_7_2 (F := F) C7 k) shapeCasts_S1x1x16_S16 : IVec S16 32) x).toNat = spW C7 0 (4 * k.val + 2) (16 * 7 + (x 0).val) := row2_7_2_lane (F := F) C7 k x
  have e3 : ((shapeCast S16 (row2_7_3 (F := F) C7 k) shapeCasts_S1x1x16_S16 : IVec S16 32) x).toNat = spW C7 0 (4 * k.val + 3) (16 * 7 + (x 0).val) := row2_7_3_lane (F := F) C7 k x
  have b0 : spW C7 0 (4 * k.val) (16 * 7 + (x 0).val) < 8 := hlt _ _ (by omega) (by omega)
  have b1 : spW C7 0 (4 * k.val + 1) (16 * 7 + (x 0).val) < 8 := hlt _ _ (by omega) (by omega)
  have b2 : spW C7 0 (4 * k.val + 2) (16 * 7 + (x 0).val) < 8 := hlt _ _ (by omega) (by omega)
  have b3 : spW C7 0 (4 * k.val + 3) (16 * 7 + (x 0).val) < 8 := hlt _ _ (by omega) (by omega)
  obtain ⟨e, l⟩ := Cert.Proof.Words.k0_pay23_lane (F := F) (row2_7_0 C7 k) (row2_7_1 C7 k) (row2_7_2 C7 k) (row2_7_3 C7 k) x
    (e0.trans_lt b0) (e1.trans_lt b1) (e2.trans_lt b2) (e3.trans_lt b3)
  exact ⟨e.trans (by rw [e0, e1, e2, e3]), l⟩

/-- The gather's side condition holds. -/
theorem chk2_7 (C7 : S4x200x128.Idx → BitVec 32) (hlt : SlabLt C7 0) (k : Fin k0_t2_loop.trips) :
    k0_chk12 (idx2_7 (F := F) C7 k) :=
  Cert.Proof.Words.k0_chk12_of_lt _ fun x => (idx2_7_lane C7 hlt k x).2

/-! ## A trip, and the start -/

/-- One trip takes the eight accumulators from k quads to k + 1. -/
theorem trip2 (C10 : S16.Idx → F .f32) (C11 : S4096.Idx → F .f32) (C7 : S4x200x128.Idx → BitVec 32)
    (hT : TabOK C10 256 C11) (hlt : SlabLt C7 0) (k : Fin k0_t2_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx2_0 (F := F) C7 k] : Fin 1 → IVec S16 32) a x).toNat < S4096.size a)
    (h1 : ∀ a x, ((![idx2_1 (F := F) C7 k] : Fin 1 → IVec S16 32) a x).toNat < S4096.size a)
    (h2 : ∀ a x, ((![idx2_2 (F := F) C7 k] : Fin 1 → IVec S16 32) a x).toNat < S4096.size a)
    (h3 : ∀ a x, ((![idx2_3 (F := F) C7 k] : Fin 1 → IVec S16 32) a x).toNat < S4096.size a)
    (h4 : ∀ a x, ((![idx2_4 (F := F) C7 k] : Fin 1 → IVec S16 32) a x).toNat < S4096.size a)
    (h5 : ∀ a x, ((![idx2_5 (F := F) C7 k] : Fin 1 → IVec S16 32) a x).toNat < S4096.size a)
    (h6 : ∀ a x, ((![idx2_6 (F := F) C7 k] : Fin 1 → IVec S16 32) a x).toNat < S4096.size a)
    (h7 : ∀ a x, ((![idx2_7 (F := F) C7 k] : Fin 1 → IVec S16 32) a x).toNat < S4096.size a)
    (hacc : AccOK C10 C7 0 k.val accs) :
    AccOK C10 C7 0 (k.val + 1)
      (k0_pay2 accs.1 (tabGather C11 (idx2_0 C7 k) h0),
        k0_pay5 accs.2.1 (tabGather C11 (idx2_1 C7 k) h1),
        k0_pay10 accs.2.2.1 (tabGather C11 (idx2_2 C7 k) h2),
        k0_pay12 accs.2.2.2.1 (tabGather C11 (idx2_3 C7 k) h3),
        k0_pay14 accs.2.2.2.2.1 (tabGather C11 (idx2_4 C7 k) h4),
        k0_pay17 accs.2.2.2.2.2.1 (tabGather C11 (idx2_5 C7 k) h5),
        k0_pay22 accs.2.2.2.2.2.2.1 (tabGather C11 (idx2_6 C7 k) h6),
        k0_pay104 accs.2.2.2.2.2.2.2 (tabGather C11 (idx2_7 C7 k) h7)) := by
  unfold AccOK at hacc ⊢
  obtain ⟨a0, a1, a2, a3, a4, a5, a6, a7⟩ := hacc
  exact ⟨lane_step C10 C11 C7 hT 0 0 k.val _ a0 (idx2_0 C7 k) h0 (fun x => (idx2_0_lane C7 hlt k x).1),
    lane_step C10 C11 C7 hT 0 1 k.val _ a1 (idx2_1 C7 k) h1 (fun x => (idx2_1_lane C7 hlt k x).1),
    lane_step C10 C11 C7 hT 0 2 k.val _ a2 (idx2_2 C7 k) h2 (fun x => (idx2_2_lane C7 hlt k x).1),
    lane_step C10 C11 C7 hT 0 3 k.val _ a3 (idx2_3 C7 k) h3 (fun x => (idx2_3_lane C7 hlt k x).1),
    lane_step C10 C11 C7 hT 0 4 k.val _ a4 (idx2_4 C7 k) h4 (fun x => (idx2_4_lane C7 hlt k x).1),
    lane_step C10 C11 C7 hT 0 5 k.val _ a5 (idx2_5 C7 k) h5 (fun x => (idx2_5_lane C7 hlt k x).1),
    lane_step C10 C11 C7 hT 0 6 k.val _ a6 (idx2_6 C7 k) h6 (fun x => (idx2_6_lane C7 hlt k x).1),
    lane_step C10 C11 C7 hT 0 7 k.val _ a7 (idx2_7 C7 k) h7 (fun x => (idx2_7_lane C7 hlt k x).1)⟩

/-- The loop starts with every accumulator at zero: no quad added yet. -/
theorem init2 (C10 : S16.Idx → F .f32) (C7 : S4x200x128.Idx → BitVec 32) :
    AccOK C10 C7 0 0
      (k0_pay96 (F := F), k0_pay97 (F := F), k0_pay98 (F := F), k0_pay99 (F := F), k0_pay100 (F := F), k0_pay101 (F := F), k0_pay102 (F := F), k0_pay103 (F := F)) := by
  unfold AccOK
  exact ⟨fun _ => rfl, fun _ => rfl, fun _ => rfl, fun _ => rfl, fun _ => rfl, fun _ => rfl, fun _ => rfl, fun _ => rfl⟩

end Cert.Proof.KI

end
-- ==== Proof.LoopT3.lean ====
/-
  Loop 3 of the tile's body — panel 1 of the species scratch, fifty trips — lane by lane.

  Trip k reads, for each group j < 8 of sixteen molecule columns 16 j .. 16 j + 15 of panel 1, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLane
import proofs.«206988_g4337916970008_retrytranche1_694_23_alg».proof.Proof.WordsQ

noncomputable section

namespace Cert.Proof.KI

open Cert.KernelIdeal Cert.KernelIdeal.Gen
open Idealize.ShloMosaic
open Idealize.SL.Sem

variable {F : FTy → Type} [FloatOps F]

/-- The loop has at most fifty trips. -/
theorem trip3_lt (k : Fin k0_t3_loop.trips) : k.val < 50 := Nat.lt_of_lt_of_le k.isLt k0_t3_abs.2.1

/-! ## The rows a trip loads -/

/-- Group 0: the rows of atoms 4k .. 4k+3 at columns 0 .. 15. -/
abbrev row3_0_0 (C7 : S4x200x128.Idx → BitVec 32) (k : Fin k0_t3_loop.trips) : Vec F S1x1x16 .i32 :=
  rowLd C7 (k0_off21 k) (k0_off21_inb k)
abbrev row3_0_1 (C7 : S4x200x128.Idx → BitVec 32) (k : Fin k0_t3_loop.trips) : Vec F S1x1x16 .i32 :=
  rowLd C7 (k0_off22 k 1#32) (k0_off22_inb k 0)
abbrev row3_0_2 (C7 : S4x200x128.Idx → BitVec 32) (k : Fin k0_t3_loop.trips) : Vec F S1x1x16 .i32 :=
  rowLd C7 (k0_off22 k 2#32) (k0_off22_inb k 1)
abbrev row3_0_3 (C7 : S4x200x128.Idx → BitVec 32) (k : Fin k0_t3_loop.trips) : Vec F S1x1x16 .i32 :=
  rowLd C7 (k0_off22 k 3#32) (k0_off22_inb k 2)

theorem row3_0_0_lane (C7 : S4x200x128.Idx → BitVec 32) (k : Fin k0_t3_loop.trips) (x : S16.Idx) :
    ((shapeCast S16 (row3_0_0 (F := F) C7 k) shapeCasts_S1x1x16_S16 : IVec S16 32) x).toNat
      = spW C7 1 (4 * k.val) (16 * 0 + (x 0).val) :=
  rowLd_lane C7 _ _ 1 (4 * k.val) (4 * k.val) (16 * 0) (Gen.k0_off21_eq k) rfl (by decide)
    (by have := trip3_lt k; omega) (by decide) x
theorem row3_0_1_lane (C7 : S4x200x128.Idx → BitVec 32) (k : Fin k0_t3_loop.trips) (x : S16.Idx) :
    ((shapeCast S16 (row3_0_1 (F := F) C7 k) shapeCasts_S1x1x16_S16 : IVec S16 32) x).toNat
      = spW C7 1 (4 * k.val + 1) (16 * 0 + (x 0).val) :=
  rowLd_lane C7 _ _ 1 (4 * k.val + 0 + 1) (4 * k.val + 1) (16 * 0) (Gen.k0_off22_eq k ⟨0, by decide⟩)
    (by omega) (by decide) (by have := trip3_lt k; omega) (by decide) x
theorem row3_0_2_lane (C7 : S4x200x128.Idx → BitVec 32) (k : Fin k0_t3_loop.trips) (x : S16.Idx) :
    ((shapeCast S16 (row3_0_2 (F := F) C7 k) shapeCasts_S1x1x16_S16 : IVec S16 32) x).toNat
      = spW C7 1 (4 * k.val + 2) (16 * 0 + (x 0).val) :=
  rowLd_lane C7 _ _ 1 (4 * k.val + 1 + 1) (4 * k.val + 2) (16 * 0) (Gen.k0_off22_eq k ⟨1, by decide⟩)
    (by omega) (by decide) (by have := trip3_lt k; omega) (by decide) x
theorem row3_0_3_lane (C7 : S4x200x128.Idx → BitVec 32) (k : Fin k0_t3_loop.trips) (x : S16.Idx) :
    ((shapeCast S16 (row3_0_3 (F := F) C7 k) shapeCasts_S1x1x16_S16 : IVec S16 32) x).toNat
      = spW C7 1 (4 * k.val + 3) (16 * 0 + (x 0).val) :=
  rowLd_lane C7 _ _ 1 (4 * k.val + 2 + 1) (4 * k.val + 3) (16 * 0) (Gen.k0_off22_eq k ⟨2, by decide⟩)
    (by omega) (by decide) (by have := trip3_lt k; omega) (by decide) x

/-- Group 1: the rows of atoms 4k .. 4k+3 at columns 16 .. 31. -/
abbrev row3_1_0 (C7 : S4x200x128.Idx → BitVec 32) (k : Fin k0_t3_loop.trips) : Vec F S1x1x16 .i32 :=
  rowLd C7 (k0_off23 k) (k0_off23_inb k)
abbrev row3_1_1 (C7 : S4x200x128.Idx → BitVec 32) (k : Fin k0_t3_loop.trips) : Vec F S1x1x16 .i32 :=
  rowLd C7 (k0_off24 k 1#32) (k0_off24_inb k 0)
abbrev row3_1_2 (C7 : S4x200x128.Idx → BitVec 32) (k : Fin k0_t3_loop.trips) : Vec F S1x1x16 .i32 :=
  rowLd C7 (k0_off24 k 2#32) (k0_off24_inb k 1)
abbrev row3_1_3 (C7 : S4x200x128.Idx → BitVec 32) (k : Fin k0_t3_loop.trips) : Vec F S1x1x16 .i32 :=
  rowLd C7 (k0_off24 k 3#32) (k0_off24_inb k 2)

theorem row3_1_0_lane (C7 : S4x200x128.Idx → BitVec 32) (k : Fin k0_t3_loop.trips) (x : S16.Idx) :
    ((shapeCast S16 (row3_1_0 (F := F) C7 k) shapeCasts_S1x1x16_S16 : IVec S16 32) x).toNat
      = spW C7 1 (4 * k.val) (16 * 1 + (x 0).val) :=
  rowLd_lane C7 _ _ 1 (4 * k.val) (4 * k.val) (16 * 1) (Gen.k0_off23_eq k) rfl (by decide)
    (by have := trip3_lt k; omega) (by decide) x
theorem row3_1_1_lane (C7 : S4x200x128.Idx → BitVec 32) (k : Fin k0_t3_loop.trips) (x : S16.Idx) :
    ((shapeCast S16 (row3_1_1 (F := F) C7 k) shapeCasts_S1x1x16_S16 : IVec S16 32) x).toNat
      = spW C7 1 (4 * k.val + 1) (16 * 1 + (x 0).val) :=
  rowLd_lane C7 _ _ 1 (4 * k.val + 0 + 1) (4 * k.val + 1) (16 * 1) (Gen.k0_off24_eq k ⟨0, by decide⟩)
    (by omega) (by decide) (by have := trip3_lt k; omega) (by decide) x
theorem row3_1_2_lane (C7 : S4x200x128.Idx → BitVec 32) (k : Fin k0_t3_loop.trips) (x : S16.Idx) :
    ((shapeCast S16 (row3_1_2 (F := F) C7 k) shapeCasts_S1x1x16_S16 : IVec S16 32) x).toNat
      = spW C7 1 (4 * k.val + 2) (16 * 1 + (x 0).val) :=
  rowLd_lane C7 _ _ 1 (4 * k.val + 1 + 1) (4 * k.val + 2) (16 * 1) (Gen.k0_off24_eq k ⟨1, by decide⟩)
    (by omega) (by decide) (by have := trip3_lt k; omega) (by decide) x
theorem row3_1_3_lane (C7 : S4x200x128.Idx → BitVec 32) (k : Fin k0_t3_loop.trips) (x : S16.Idx) :
    ((shapeCast S16 (row3_1_3 (F := F) C7 k) shapeCasts_S1x1x16_S16 : IVec S16 32) x).toNat
      = spW C7 1 (4 * k.val + 3) (16 * 1 + (x 0).val) :=
  rowLd_lane C7 _ _ 1 (4 * k.val + 2 + 1) (4 * k.val + 3) (16 * 1) (Gen.k0_off24_eq k ⟨2, by decide⟩)
    (by omega) (by decide) (by have := trip3_lt k; omega) (by decide) x

/-- Group 2: the rows of atoms 4k .. 4k+3 at columns 32 .. 47. -/
abbrev row3_2_0 (C7 : S4x200x128.Idx → BitVec 32) (k : Fin k0_t3_loop.trips) : Vec F S1x1x16 .i32 :=
  rowLd C7 (k0_off25 k) (k0_off25_inb k)
abbrev row3_2_1 (C7 : S4x200x128.Idx → BitVec 32) (k : Fin k0_t3_loop.trips) : Vec F S1x1x16 .i32 :=
  rowLd C7 (k0_off26 k 1#32) (k0_off26_inb k 0)
abbrev row3_2_2 (C7 : S4x200x128.Idx → BitVec 32) (k : Fin k0_t3_loop.trips) : Vec F S1x1x16 .i32 :=
  rowLd C7 (k0_off26 k 2#32) (k0_off26_inb k 1)
abbrev row3_2_3 (C7 : S4x200x128.Idx → BitVec 32) (k : Fin k0_t3_loop.trips) : Vec F S1x1x16 .i32 :=
  rowLd C7 (k0_off26 k 3#32) (k0_off26_inb k 2)

theorem row3_2_0_lane (C7 : S4x200x128.Idx → BitVec 32) (k : Fin k0_t3_loop.trips) (x : S16.Idx) :
    ((shapeCast S16 (row3_2_0 (F := F) C7 k) shapeCasts_S1x1x16_S16 : IVec S16 32) x).toNat
      = spW C7 1 (4 * k.val) (16 * 2 + (x 0).val) :=
  rowLd_lane C7 _ _ 1 (4 * k.val) (4 * k.val) (16 * 2) (Gen.k0_off25_eq k) rfl (by decide)
    (by have := trip3_lt k; omega) (by decide) x
theorem row3_2_1_lane (C7 : S4x200x128.Idx → BitVec 32) (k : Fin k0_t3_loop.trips) (x : S16.Idx) :
    ((shapeCast S16 (row3_2_1 (F := F) C7 k) shapeCasts_S1x1x16_S16 : IVec S16 32) x).toNat
      = spW C7 1 (4 * k.val + 1) (16 * 2 + (x 0).val) :=
  rowLd_lane C7 _ _ 1 (4 * k.val + 0 + 1) (4 * k.val + 1) (16 * 2) (Gen.k0_off26_eq k ⟨0, by decide⟩)
    (by omega) (by decide) (by have := trip3_lt k; omega) (by decide) x
theorem row3_2_2_lane (C7 : S4x200x128.Idx → BitVec 32) (k : Fin k0_t3_loop.trips) (x : S16.Idx) :
    ((shapeCast S16 (row3_2_2 (F := F) C7 k) shapeCasts_S1x1x16_S16 : IVec S16 32) x).toNat
      = spW C7 1 (4 * k.val + 2) (16 * 2 + (x 0).val) :=
  rowLd_lane C7 _ _ 1 (4 * k.val + 1 + 1) (4 * k.val + 2) (16 * 2) (Gen.k0_off26_eq k ⟨1, by decide⟩)
    (by omega) (by decide) (by have := trip3_lt k; omega) (by decide) x
theorem row3_2_3_lane (C7 : S4x200x128.Idx → BitVec 32) (k : Fin k0_t3_loop.trips) (x : S16.Idx) :
    ((shapeCast S16 (row3_2_3 (F := F) C7 k) shapeCasts_S1x1x16_S16 : IVec S16 32) x).toNat
      = spW C7 1 (4 * k.val + 3) (16 * 2 + (x 0).val) :=
  rowLd_lane C7 _ _ 1 (4 * k.val + 2 + 1) (4 * k.val + 3) (16 * 2) (Gen.k0_off26_eq k ⟨2, by decide⟩)
    (by omega) (by decide) (by have := trip3_lt k; omega) (by decide) x

/-- Group 3: the rows of atoms 4k .. 4k+3 at columns 48 .. 63. -/
abbrev row3_3_0 (C7 : S4x200x128.Idx → BitVec 32) (k : Fin k0_t3_loop.trips) : Vec F S1x1x16 .i32 :=
  rowLd C7 (k0_off27 k) (k0_off27_inb k)
abbrev row3_3_1 (C7 : S4x200x128.Idx → BitVec 32) (k : Fin k0_t3_loop.trips) : Vec F S1x1x16 .i32 :=
  rowLd C7 (k0_off28 k 1#32) (k0_off28_inb k 0)
abbrev row3_3_2 (C7 : S4x200x128.Idx → BitVec 32) (k : Fin k0_t3_loop.trips) : Vec F S1x1x16 .i32 :=
  rowLd C7 (k0_off28 k 2#32) (k0_off28_inb k 1)
abbrev row3_3_3 (C7 : S4x200x128.Idx → BitVec 32) (k : Fin k0_t3_loop.trips) : Vec F S1x1x16 .i32 :=
  rowLd C7 (k0_off28 k 3#32) (k0_off28_inb k 2)

theorem row3_3_0_lane (C7 : S4x200x128.Idx → BitVec 32) (k : Fin k0_t3_loop.trips) (x : S16.Idx) :
    ((shapeCast S16 (row3_3_0 (F := F) C7 k) shapeCasts_S1x1x16_S16 : IVec S16 32) x).toNat
      = spW C7 1 (4 * k.val) (16 * 3 + (x 0).val) :=
  rowLd_lane C7 _ _ 1 (4 * k.val) (4 * k.val) (16 * 3) (Gen.k0_off27_eq k) rfl (by decide)
    (by have := trip3_lt k; omega) (by decide) x
theorem row3_3_1_lane (C7 : S4x200x128.Idx → BitVec 32) (k : Fin k0_t3_loop.trips) (x : S16.Idx) :
    ((shapeCast S16 (row3_3_1 (F := F) C7 k) shapeCasts_S1x1x16_S16 : IVec S16 32) x).toNat
      = spW C7 1 (4 * k.val + 1) (16 * 3 + (x 0).val) :=
  rowLd_lane C7 _ _ 1 (4 * k.val + 0 + 1) (4 * k.val + 1) (16 * 3) (Gen.k0_off28_eq k ⟨0, by decide⟩)
    (by omega) (by decide) (by have := trip3_lt k; omega) (by decide) x
theorem row3_3_2_lane (C7 : S4x200x128.Idx → BitVec 32) (k : Fin k0_t3_loop.trips) (x : S16.Idx) :
    ((shapeCast S16 (row3_3_2 (F := F) C7 k) shapeCasts_S1x1x16_S16 : IVec S16 32) x).toNat
      = spW C7 1 (4 * k.val + 2) (16 * 3 + (x 0).val) :=
  rowLd_lane C7 _ _ 1 (4 * k.val + 1 + 1) (4 * k.val + 2) (16 * 3) (Gen.k0_off28_eq k ⟨1, by decide⟩)
    (by omega) (by decide) (by have := trip3_lt k; omega) (by decide) x
theorem row3_3_3_lane (C7 : S4x200x128.Idx → BitVec 32) (k : Fin k0_t3_loop.trips) (x : S16.Idx) :
    ((shapeCast S16 (row3_3_3 (F := F) C7 k) shapeCasts_S1x1x16_S16 : IVec S16 32) x).toNat
      = spW C7 1 (4 * k.val + 3) (16 * 3 + (x 0).val) :=
  rowLd_lane C7 _ _ 1 (4 * k.val + 2 + 1) (4 * k.val + 3) (16 * 3) (Gen.k0_off28_eq k ⟨2, by decide⟩)
    (by omega) (by decide) (by have := trip3_lt k; omega) (by decide) x

/-- Group 4: the rows of atoms 4k .. 4k+3 at columns 64 .. 79. -/
abbrev row3_4_0 (C7 : S4x200x128.Idx → BitVec 32) (k : Fin k0_t3_loop.trips) : Vec F S1x1x16 .i32 :=
  rowLd C7 (k0_off29 k) (k0_off29_inb k)
abbrev row3_4_1 (C7 : S4x200x128.Idx → BitVec 32) (k : Fin k0_t3_loop.trips) : Vec F S1x1x16 .i32 :=
  rowLd C7 (k0_off30 k 1#32) (k0_off30_inb k 0)
abbrev row3_4_2 (C7 : S4x200x128.Idx → BitVec 32) (k : Fin k0_t3_loop.trips) : Vec F S1x1x16 .i32 :=
  rowLd C7 (k0_off30 k 2#32) (k0_off30_inb k 1)
abbrev row3_4_3 (C7 : S4x200x128.Idx → BitVec 32) (k : Fin k0_t3_loop.trips) : Vec F S1x1x16 .i32 :=
  rowLd C7 (k0_off30 k 3#32) (k0_off30_inb k 2)

theorem row3_4_0_lane (C7 : S4x200x128.Idx → BitVec 32) (k : Fin k0_t3_loop.trips) (x : S16.Idx) :
    ((shapeCast S16 (row3_4_0 (F := F) C7 k) shapeCasts_S1x1x16_S16 : IVec S16 32) x).toNat
      = spW C7 1 (4 * k.val) (16 * 4 + (x 0).val) :=
  rowLd_lane C7 _ _ 1 (4 * k.val) (4 * k.val) (16 * 4) (Gen.k0_off29_eq k) rfl (by decide)
    (by have := trip3_lt k; omega) (by decide) x
theorem row3_4_1_lane (C7 : S4x200x128.Idx → BitVec 32) (k : Fin k0_t3_loop.trips) (x : S16.Idx) :
    ((shapeCast S16 (row3_4_1 (F := F) C7 k) shapeCasts_S1x1x16_S16 : IVec S16 32) x).toNat
      = spW C7 1 (4 * k.val + 1) (16 * 4 + (x 0).val) :=
  rowLd_lane C7 _ _ 1 (4 * k.val + 0 + 1) (4 * k.val + 1) (16 * 4) (Gen.k0_off30_eq k ⟨0, by decide⟩)
    (by omega) (by decide) (by have := trip3_lt k; omega) (by decide) x
theorem row3_4_2_lane (C7 : S4x200x128.Idx → BitVec 32) (k : Fin k0_t3_loop.trips) (x : S16.Idx) :
    ((shapeCast S16 (row3_4_2 (F := F) C7 k) shapeCasts_S1x1x16_S16 : IVec S16 32) x).toNat
      = spW C7 1 (4 * k.val + 2) (16 * 4 + (x 0).val) :=
  rowLd_lane C7 _ _ 1 (4 * k.val + 1 + 1) (4 * k.val + 2) (16 * 4) (Gen.k0_off30_eq k ⟨1, by decide⟩)
    (by omega) (by decide) (by have := trip3_lt k; omega) (by decide) x
theorem row3_4_3_lane (C7 : S4x200x128.Idx → BitVec 32) (k : Fin k0_t3_loop.trips) (x : S16.Idx) :
    ((shapeCast S16 (row3_4_3 (F := F) C7 k) shapeCasts_S1x1x16_S16 : IVec S16 32) x).toNat
      = spW C7 1 (4 * k.val + 3) (16 * 4 + (x 0).val) :=
  rowLd_lane C7 _ _ 1 (4 * k.val + 2 + 1) (4 * k.val + 3) (16 * 4) (Gen.k0_off30_eq k ⟨2, by decide⟩)
    (by omega) (by decide) (by have := trip3_lt k; omega) (by decide) x

/-- Group 5: the rows of atoms 4k .. 4k+3 at columns 80 .. 95. -/
abbrev row3_5_0 (C7 : S4x200x128.Idx → BitVec 32) (k : Fin k0_t3_loop.trips) : Vec F S1x1x16 .i32 :=
  rowLd C7 (k0_off31 k) (k0_off31_inb k)
abbrev row3_5_1 (C7 : S4x200x128.Idx → BitVec 32) (k : Fin k0_t3_loop.trips) : Vec F S1x1x16 .i32 :=
  rowLd C7 (k0_off32 k 1#32) (k0_off32_inb k 0)
abbrev row3_5_2 (C7 : S4x200x128.Idx → BitVec 32) (k : Fin k0_t3_loop.trips) : Vec F S1x1x16 .i32 :=
  rowLd C7 (k0_off32 k 2#32) (k0_off32_inb k 1)
abbrev row3_5_3 (C7 : S4x200x128.Idx → BitVec 32) (k : Fin k0_t3_loop.trips) : Vec F S1x1x16 .i32 :=
  rowLd C7 (k0_off32 k 3#32) (k0_off32_inb k 2)

theorem row3_5_0_lane (C7 : S4x200x128.Idx → BitVec 32) (k : Fin k0_t3_loop.trips) (x : S16.Idx) :
    ((shapeCast S16 (row3_5_0 (F := F) C7 k) shapeCasts_S1x1x16_S16 : IVec S16 32) x).toNat
      = spW C7 1 (4 * k.val) (16 * 5 + (x 0).val) :=
  rowLd_lane C7 _ _ 1 (4 * k.val) (4 * k.val) (16 * 5) (Gen.k0_off31_eq k) rfl (by decide)
    (by have := trip3_lt k; omega) (by decide) x
theorem row3_5_1_lane (C7 : S4x200x128.Idx → BitVec 32) (k : Fin k0_t3_loop.trips) (x : S16.Idx) :
    ((shapeCast S16 (row3_5_1 (F := F) C7 k) shapeCasts_S1x1x16_S16 : IVec S16 32) x).toNat
      = spW C7 1 (4 * k.val + 1) (16 * 5 + (x 0).val) :=
  rowLd_lane C7 _ _ 1 (4 * k.val + 0 + 1) (4 * k.val + 1) (16 * 5) (Gen.k0_off32_eq k ⟨0, by decide⟩)
    (by omega) (by decide) (by have := trip3_lt k; omega) (by decide) x
theorem row3_5_2_lane (C7 : S4x200x128.Idx → BitVec 32) (k : Fin k0_t3_loop.trips) (x : S16.Idx) :
    ((shapeCast S16 (row3_5_2 (F := F) C7 k) shapeCasts_S1x1x16_S16 : IVec S16 32) x).toNat
      = spW C7 1 (4 * k.val + 2) (16 * 5 + (x 0).val) :=
  rowLd_lane C7 _ _ 1 (4 * k.val + 1 + 1) (4 * k.val + 2) (16 * 5) (Gen.k0_off32_eq k ⟨1, by decide⟩)
    (by omega) (by decide) (by have := trip3_lt k; omega) (by decide) x
theorem row3_5_3_lane (C7 : S4x200x128.Idx → BitVec 32) (k : Fin k0_t3_loop.trips) (x : S16.Idx) :
    ((shapeCast S16 (row3_5_3 (F := F) C7 k) shapeCasts_S1x1x16_S16 : IVec S16 32) x).toNat
      = spW C7 1 (4 * k.val + 3) (16 * 5 + (x 0).val) :=
  rowLd_lane C7 _ _ 1 (4 * k.val + 2 + 1) (4 * k.val + 3) (16 * 5) (Gen.k0_off32_eq k ⟨2, by decide⟩)
    (by omega) (by decide) (by have := trip3_lt k; omega) (by decide) x

/-- Group 6: the rows of atoms 4k .. 4k+3 at columns 96 .. 111. -/
abbrev row3_6_0 (C7 : S4x200x128.Idx → BitVec 32) (k : Fin k0_t3_loop.trips) : Vec F S1x1x16 .i32 :=
  rowLd C7 (k0_off33 k) (k0_off33_inb k)
abbrev row3_6_1 (C7 : S4x200x128.Idx → BitVec 32) (k : Fin k0_t3_loop.trips) : Vec F S1x1x16 .i32 :=
  rowLd C7 (k0_off34 k 1#32) (k0_off34_inb k 0)
abbrev row3_6_2 (C7 : S4x200x128.Idx → BitVec 32) (k : Fin k0_t3_loop.trips) : Vec F S1x1x16 .i32 :=
  rowLd C7 (k0_off34 k 2#32) (k0_off34_inb k 1)
abbrev row3_6_3 (C7 : S4x200x128.Idx → BitVec 32) (k : Fin k0_t3_loop.trips) : Vec F S1x1x16 .i32 :=
  rowLd C7 (k0_off34 k 3#32) (k0_off34_inb k 2)

theorem row3_6_0_lane (C7 : S4x200x128.Idx → BitVec 32) (k : Fin k0_t3_loop.trips) (x : S16.Idx) :
    ((shapeCast S16 (row3_6_0 (F := F) C7 k) shapeCasts_S1x1x16_S16 : IVec S16 32) x).toNat
      = spW C7 1 (4 * k.val) (16 * 6 + (x 0).val) :=
  rowLd_lane C7 _ _ 1 (4 * k.val) (4 * k.val) (16 * 6) (Gen.k0_off33_eq k) rfl (by decide)
    (by have := trip3_lt k; omega) (by decide) x
theorem row3_6_1_lane (C7 : S4x200x128.Idx → BitVec 32) (k : Fin k0_t3_loop.trips) (x : S16.Idx) :
    ((shapeCast S16 (row3_6_1 (F := F) C7 k) shapeCasts_S1x1x16_S16 : IVec S16 32) x).toNat
      = spW C7 1 (4 * k.val + 1) (16 * 6 + (x 0).val) :=
  rowLd_lane C7 _ _ 1 (4 * k.val + 0 + 1) (4 * k.val + 1) (16 * 6) (Gen.k0_off34_eq k ⟨0, by decide⟩)
    (by omega) (by decide) (by have := trip3_lt k; omega) (by decide) x
theorem row3_6_2_lane (C7 : S4x200x128.Idx → BitVec 32) (k : Fin k0_t3_loop.trips) (x : S16.Idx) :
    ((shapeCast S16 (row3_6_2 (F := F) C7 k) shapeCasts_S1x1x16_S16 : IVec S16 32) x).toNat
      = spW C7 1 (4 * k.val + 2) (16 * 6 + (x 0).val) :=
  rowLd_lane C7 _ _ 1 (4 * k.val + 1 + 1) (4 * k.val + 2) (16 * 6) (Gen.k0_off34_eq k ⟨1, by decide⟩)
    (by omega) (by decide) (by have := trip3_lt k; omega) (by decide) x
theorem row3_6_3_lane (C7 : S4x200x128.Idx → BitVec 32) (k : Fin k0_t3_loop.trips) (x : S16.Idx) :
    ((shapeCast S16 (row3_6_3 (F := F) C7 k) shapeCasts_S1x1x16_S16 : IVec S16 32) x).toNat
      = spW C7 1 (4 * k.val + 3) (16 * 6 + (x 0).val) :=
  rowLd_lane C7 _ _ 1 (4 * k.val + 2 + 1) (4 * k.val + 3) (16 * 6) (Gen.k0_off34_eq k ⟨2, by decide⟩)
    (by omega) (by decide) (by have := trip3_lt k; omega) (by decide) x

/-- Group 7: the rows of atoms 4k .. 4k+3 at columns 112 .. 127. -/
abbrev row3_7_0 (C7 : S4x200x128.Idx → BitVec 32) (k : Fin k0_t3_loop.trips) : Vec F S1x1x16 .i32 :=
  rowLd C7 (k0_off35 k) (k0_off35_inb k)
abbrev row3_7_1 (C7 : S4x200x128.Idx → BitVec 32) (k : Fin k0_t3_loop.trips) : Vec F S1x1x16 .i32 :=
  rowLd C7 (k0_off36 k 1#32) (k0_off36_inb k 0)
abbrev row3_7_2 (C7 : S4x200x128.Idx → BitVec 32) (k : Fin k0_t3_loop.trips) : Vec F S1x1x16 .i32 :=
  rowLd C7 (k0_off36 k 2#32) (k0_off36_inb k 1)
abbrev row3_7_3 (C7 : S4x200x128.Idx → BitVec 32) (k : Fin k0_t3_loop.trips) : Vec F S1x1x16 .i32 :=
  rowLd C7 (k0_off36 k 3#32) (k0_off36_inb k 2)

theorem row3_7_0_lane (C7 : S4x200x128.Idx → BitVec 32) (k : Fin k0_t3_loop.trips) (x : S16.Idx) :
    ((shapeCast S16 (row3_7_0 (F := F) C7 k) shapeCasts_S1x1x16_S16 : IVec S16 32) x).toNat
      = spW C7 1 (4 * k.val) (16 * 7 + (x 0).val) :=
  rowLd_lane C7 _ _ 1 (4 * k.val) (4 * k.val) (16 * 7) (Gen.k0_off35_eq k) rfl (by decide)
    (by have := trip3_lt k; omega) (by decide) x
theorem row3_7_1_lane (C7 : S4x200x128.Idx → BitVec 32) (k : Fin k0_t3_loop.trips) (x : S16.Idx) :
    ((shapeCast S16 (row3_7_1 (F := F) C7 k) shapeCasts_S1x1x16_S16 : IVec S16 32) x).toNat
      = spW C7 1 (4 * k.val + 1) (16 * 7 + (x 0).val) :=
  rowLd_lane C7 _ _ 1 (4 * k.val + 0 + 1) (4 * k.val + 1) (16 * 7) (Gen.k0_off36_eq k ⟨0, by decide⟩)
    (by omega) (by decide) (by have := trip3_lt k; omega) (by decide) x
theorem row3_7_2_lane (C7 : S4x200x128.Idx → BitVec 32) (k : Fin k0_t3_loop.trips) (x : S16.Idx) :
    ((shapeCast S16 (row3_7_2 (F := F) C7 k) shapeCasts_S1x1x16_S16 : IVec S16 32) x).toNat
      = spW C7 1 (4 * k.val + 2) (16 * 7 + (x 0).val) :=
  rowLd_lane C7 _ _ 1 (4 * k.val + 1 + 1) (4 * k.val + 2) (16 * 7) (Gen.k0_off36_eq k ⟨1, by decide⟩)
    (by omega) (by decide) (by have := trip3_lt k; omega) (by decide) x
theorem row3_7_3_lane (C7 : S4x200x128.Idx → BitVec 32) (k : Fin k0_t3_loop.trips) (x : S16.Idx) :
    ((shapeCast S16 (row3_7_3 (F := F) C7 k) shapeCasts_S1x1x16_S16 : IVec S16 32) x).toNat
      = spW C7 1 (4 * k.val + 3) (16 * 7 + (x 0).val) :=
  rowLd_lane C7 _ _ 1 (4 * k.val + 2 + 1) (4 * k.val + 3) (16 * 7) (Gen.k0_off36_eq k ⟨2, by decide⟩)
    (by omega) (by decide) (by have := trip3_lt k; omega) (by decide) x

/-! ## The index words -/

/-- Group 0's sixteen index words at trip k. -/
abbrev idx3_0 (C7 : S4x200x128.Idx → BitVec 32) (k : Fin k0_t3_loop.trips) : IVec S16 32 :=
  k0_pay24 (F := F) (row3_0_0 C7 k) (row3_0_1 C7 k) (row3_0_2 C7 k) (row3_0_3 C7 k)

theorem idx3_0_lane (C7 : S4x200x128.Idx → BitVec 32) (hlt : SlabLt C7 1) (k : Fin k0_t3_loop.trips) (x : S16.Idx) :
    (idx3_0 (F := F) C7 k x).toNat
        = 512 * spW C7 1 (4 * k.val) (16 * 0 + (x 0).val) + 64 * spW C7 1 (4 * k.val + 1) (16 * 0 + (x 0).val)
          + 8 * spW C7 1 (4 * k.val + 2) (16 * 0 + (x 0).val) + spW C7 1 (4 * k.val + 3) (16 * 0 + (x 0).val)
      ∧ (idx3_0 (F := F) C7 k x).toNat < 4096 := by
  have hk := trip3_lt k
  have hx : (x 0).val < 16 := (x 0).isLt
  have e0 : ((shapeCast S16 (row3_0_0 (F := F) C7 k) shapeCasts_S1x1x16_S16 : IVec S16 32) x).toNat = spW C7 1 (4 * k.val) (16 * 0 + (x 0).val) := row3_0_0_lane (F := F) C7 k x
  have e1 : ((shapeCast S16 (row3_0_1 (F := F) C7 k) shapeCasts_S1x1x16_S16 : IVec S16 32) x).toNat = spW C7 1 (4 * k.val + 1) (16 * 0 + (x 0).val) := row3_0_1_lane (F := F) C7 k x
  have e2 : ((shapeCast S16 (row3_0_2 (F := F) C7 k) shapeCasts_S1x1x16_S16 : IVec S16 32) x).toNat = spW C7 1 (4 * k.val + 2) (16 * 0 + (x 0).val) := row3_0_2_lane (F := F) C7 k x
  have e3 : ((shapeCast S16 (row3_0_3 (F := F) C7 k) shapeCasts_S1x1x16_S16 : IVec S16 32) x).toNat = spW C7 1 (4 * k.val + 3) (16 * 0 + (x 0).val) := row3_0_3_lane (F := F) C7 k x
  have b0 : spW C7 1 (4 * k.val) (16 * 0 + (x 0).val) < 8 := hlt _ _ (by omega) (by omega)
  have b1 : spW C7 1 (4 * k.val + 1) (16 * 0 + (x 0).val) < 8 := hlt _ _ (by omega) (by omega)
  have b2 : spW C7 1 (4 * k.val + 2) (16 * 0 + (x 0).val) < 8 := hlt _ _ (by omega) (by omega)
  have b3 : spW C7 1 (4 * k.val + 3) (16 * 0 + (x 0).val) < 8 := hlt _ _ (by omega) (by omega)
  obtain ⟨e, l⟩ := Cert.Proof.Words.k0_pay24_lane (F := F) (row3_0_0 C7 k) (row3_0_1 C7 k) (row3_0_2 C7 k) (row3_0_3 C7 k) x
    (e0.trans_lt b0) (e1.trans_lt b1) (e2.trans_lt b2) (e3.trans_lt b3)
  exact ⟨e.trans (by rw [e0, e1, e2, e3]), l⟩

/-- The gather's side condition holds. -/
theorem chk3_0 (C7 : S4x200x128.Idx → BitVec 32) (hlt : SlabLt C7 1) (k : Fin k0_t3_loop.trips) :
    k0_chk13 (idx3_0 (F := F) C7 k) :=
  Cert.Proof.Words.k0_chk13_of_lt _ fun x => (idx3_0_lane C7 hlt k x).2

/-- Group 1's sixteen index words at trip k. -/
abbrev idx3_1 (C7 : S4x200x128.Idx → BitVec 32) (k : Fin k0_t3_loop.trips) : IVec S16 32 :=
  k0_pay27 (F := F) (k0_pay26 (row3_1_0 C7 k)) (row3_1_1 C7 k) (row3_1_2 C7 k) (row3_1_3 C7 k)

theorem idx3_1_lane (C7 : S4x200x128.Idx → BitVec 32) (hlt : SlabLt C7 1) (k : Fin k0_t3_loop.trips) (x : S16.Idx) :
    (idx3_1 (F := F) C7 k x).toNat
        = 512 * spW C7 1 (4 * k.val) (16 * 1 + (x 0).val) + 64 * spW C7 1 (4 * k.val + 1) (16 * 1 + (x 0).val)
          + 8 * spW C7 1 (4 * k.val + 2) (16 * 1 + (x 0).val) + spW C7 1 (4 * k.val + 3) (16 * 1 + (x 0).val)
      ∧ (idx3_1 (F := F) C7 k x).toNat < 4096 := by
  have hk := trip3_lt k
  have hx : (x 0).val < 16 := (x 0).isLt
  have e0 : (k0_pay26 (row3_1_0 (F := F) C7 k) x).toNat = spW C7 1 (4 * k.val) (16 * 1 + (x 0).val) := row3_1_0_lane (F := F) C7 k x
  have e1 : ((shapeCast S16 (row3_1_1 (F := F) C7 k) shapeCasts_S1x1x16_S16 : IVec S16 32) x).toNat = spW C7 1 (4 * k.val + 1) (16 * 1 + (x 0).val) := row3_1_1_lane (F := F) C7 k x
  have e2 : ((shapeCast S16 (row3_1_2 (F := F) C7 k) shapeCasts_S1x1x16_S16 : IVec S16 32) x).toNat = spW C7 1 (4 * k.val + 2) (16 * 1 + (x 0).val) := row3_1_2_lane (F := F) C7 k x
  have e3 : ((shapeCast S16 (row3_1_3 (F := F) C7 k) shapeCasts_S1x1x16_S16 : IVec S16 32) x).toNat = spW C7 1 (4 * k.val + 3) (16 * 1 + (x 0).val) := row3_1_3_lane (F := F) C7 k x
  have b0 : spW C7 1 (4 * k.val) (16 * 1 + (x 0).val) < 8 := hlt _ _ (by omega) (by omega)
  have b1 : spW C7 1 (4 * k.val + 1) (16 * 1 + (x 0).val) < 8 := hlt _ _ (by omega) (by omega)
  have b2 : spW C7 1 (4 * k.val + 2) (16 * 1 + (x 0).val) < 8 := hlt _ _ (by omega) (by omega)
  have b3 : spW C7 1 (4 * k.val + 3) (16 * 1 + (x 0).val) < 8 := hlt _ _ (by omega) (by omega)
  obtain ⟨e, l⟩ := Cert.Proof.Words.k0_pay27_lane (F := F) (k0_pay26 (row3_1_0 C7 k)) (row3_1_1 C7 k) (row3_1_2 C7 k) (row3_1_3 C7 k) x
    (e0.trans_lt b0) (e1.trans_lt b1) (e2.trans_lt b2) (e3.trans_lt b3)
  exact ⟨e.trans (by rw [e0, e1, e2, e3]), l⟩

/-- The gather's side condition holds. -/
theorem chk3_1 (C7 : S4x200x128.Idx → BitVec 32) (hlt : SlabLt C7 1) (k : Fin k0_t3_loop.trips) :
    k0_chk14 (idx3_1 (F := F) C7 k) :=
  Cert.Proof.Words.k0_chk14_of_lt _ fun x => (idx3_1_lane C7 hlt k x).2

/-- Group 2's sixteen index words at trip k. -/
abbrev idx3_2 (C7 : S4x200x128.Idx → BitVec 32) (k : Fin k0_t3_loop.trips) : IVec S16 32 :=
  k0_pay32 (F := F) (k0_pay29 (row3_2_0 C7 k)) (k0_pay30 (row3_2_1 C7 k)) (k0_pay31 (row3_2_2 C7 k)) (row3_2_3 C7 k)

theorem idx3_2_lane (C7 : S4x200x128.Idx → BitVec 32) (hlt : SlabLt C7 1) (k : Fin k0_t3_loop.trips) (x : S16.Idx) :
    (idx3_2 (F := F) C7 k x).toNat
        = 512 * spW C7 1 (4 * k.val) (16 * 2 + (x 0).val) + 64 * spW C7 1 (4 * k.val + 1) (16 * 2 + (x 0).val)
          + 8 * spW C7 1 (4 * k.val + 2) (16 * 2 + (x 0).val) + spW C7 1 (4 * k.val + 3) (16 * 2 + (x 0).val)
      ∧ (idx3_2 (F := F) C7 k x).toNat < 4096 := by
  have hk := trip3_lt k
  have hx : (x 0).val < 16 := (x 0).isLt
  have e0 : (k0_pay29 (row3_2_0 (F := F) C7 k) x).toNat = spW C7 1 (4 * k.val) (16 * 2 + (x 0).val) := row3_2_0_lane (F := F) C7 k x
  have e1 : (k0_pay30 (row3_2_1 (F := F) C7 k) x).toNat = spW C7 1 (4 * k.val + 1) (16 * 2 + (x 0).val) := row3_2_1_lane (F := F) C7 k x
  have e2 : (k0_pay31 (row3_2_2 (F := F) C7 k) x).toNat = spW C7 1 (4 * k.val + 2) (16 * 2 + (x 0).val) := row3_2_2_lane (F := F) C7 k x
  have e3 : ((shapeCast S16 (row3_2_3 (F := F) C7 k) shapeCasts_S1x1x16_S16 : IVec S16 32) x).toNat = spW C7 1 (4 * k.val + 3) (16 * 2 + (x 0).val) := row3_2_3_lane (F := F) C7 k x
  have b0 : spW C7 1 (4 * k.val) (16 * 2 + (x 0).val) < 8 := hlt _ _ (by omega) (by omega)
  have b1 : spW C7 1 (4 * k.val + 1) (16 * 2 + (x 0).val) < 8 := hlt _ _ (by omega) (by omega)
  have b2 : spW C7 1 (4 * k.val + 2) (16 * 2 + (x 0).val) < 8 := hlt _ _ (by omega) (by omega)
  have b3 : spW C7 1 (4 * k.val + 3) (16 * 2 + (x 0).val) < 8 := hlt _ _ (by omega) (by omega)
  obtain ⟨e, l⟩ := Cert.Proof.Words.k0_pay32_lane (F := F) (k0_pay29 (row3_2_0 C7 k)) (k0_pay30 (row3_2_1 C7 k)) (k0_pay31 (row3_2_2 C7 k)) (row3_2_3 C7 k) x
    (e0.trans_lt b0) (e1.trans_lt b1) (e2.trans_lt b2) (e3.trans_lt b3)
  exact ⟨e.trans (by rw [e0, e1, e2, e3]), l⟩

/-- The gather's side condition holds. -/
theorem chk3_2 (C7 : S4x200x128.Idx → BitVec 32) (hlt : SlabLt C7 1) (k : Fin k0_t3_loop.trips) :
    k0_chk15 (idx3_2 (F := F) C7 k) :=
  Cert.Proof.Words.k0_chk15_of_lt _ fun x => (idx3_2_lane C7 hlt k x).2

/-- Group 3's sixteen index words at trip k. -/
abbrev idx3_3 (C7 : S4x200x128.Idx → BitVec 32) (k : Fin k0_t3_loop.trips) : IVec S16 32 :=
  k0_pay34 (F := F) (row3_3_0 C7 k) (row3_3_1 C7 k) (row3_3_2 C7 k) (row3_3_3 C7 k)

theorem idx3_3_lane (C7 : S4x200x128.Idx → BitVec 32) (hlt : SlabLt C7 1) (k : Fin k0_t3_loop.trips) (x : S16.Idx) :
    (idx3_3 (F := F) C7 k x).toNat
        = 512 * spW C7 1 (4 * k.val) (16 * 3 + (x 0).val) + 64 * spW C7 1 (4 * k.val + 1) (16 * 3 + (x 0).val)
          + 8 * spW C7 1 (4 * k.val + 2) (16 * 3 + (x 0).val) + spW C7 1 (4 * k.val + 3) (16 * 3 + (x 0).val)
      ∧ (idx3_3 (F := F) C7 k x).toNat < 4096 := by
  have hk := trip3_lt k
  have hx : (x 0).val < 16 := (x 0).isLt
  have e0 : ((shapeCast S16 (row3_3_0 (F := F) C7 k) shapeCasts_S1x1x16_S16 : IVec S16 32) x).toNat = spW C7 1 (4 * k.val) (16 * 3 + (x 0).val) := row3_3_0_lane (F := F) C7 k x
  have e1 : ((shapeCast S16 (row3_3_1 (F := F) C7 k) shapeCasts_S1x1x16_S16 : IVec S16 32) x).toNat = spW C7 1 (4 * k.val + 1) (16 * 3 + (x 0).val) := row3_3_1_lane (F := F) C7 k x
  have e2 : ((shapeCast S16 (row3_3_2 (F := F) C7 k) shapeCasts_S1x1x16_S16 : IVec S16 32) x).toNat = spW C7 1 (4 * k.val + 2) (16 * 3 + (x 0).val) := row3_3_2_lane (F := F) C7 k x
  have e3 : ((shapeCast S16 (row3_3_3 (F := F) C7 k) shapeCasts_S1x1x16_S16 : IVec S16 32) x).toNat = spW C7 1 (4 * k.val + 3) (16 * 3 + (x 0).val) := row3_3_3_lane (F := F) C7 k x
  have b0 : spW C7 1 (4 * k.val) (16 * 3 + (x 0).val) < 8 := hlt _ _ (by omega) (by omega)
  have b1 : spW C7 1 (4 * k.val + 1) (16 * 3 + (x 0).val) < 8 := hlt _ _ (by omega) (by omega)
  have b2 : spW C7 1 (4 * k.val + 2) (16 * 3 + (x 0).val) < 8 := hlt _ _ (by omega) (by omega)
  have b3 : spW C7 1 (4 * k.val + 3) (16 * 3 + (x 0).val) < 8 := hlt _ _ (by omega) (by omega)
  obtain ⟨e, l⟩ := Cert.Proof.Words.k0_pay34_lane (F := F) (row3_3_0 C7 k) (row3_3_1 C7 k) (row3_3_2 C7 k) (row3_3_3 C7 k) x
    (e0.trans_lt b0) (e1.trans_lt b1) (e2.trans_lt b2) (e3.trans_lt b3)
  exact ⟨e.trans (by rw [e0, e1, e2, e3]), l⟩

/-- The gather's side condition holds. -/
theorem chk3_3 (C7 : S4x200x128.Idx → BitVec 32) (hlt : SlabLt C7 1) (k : Fin k0_t3_loop.trips) :
    k0_chk16 (idx3_3 (F := F) C7 k) :=
  Cert.Proof.Words.k0_chk16_of_lt _ fun x => (idx3_3_lane C7 hlt k x).2

/-- Group 4's sixteen index words at trip k. -/
abbrev idx3_4 (C7 : S4x200x128.Idx → BitVec 32) (k : Fin k0_t3_loop.trips) : IVec S16 32 :=
  k0_pay36 (F := F) (row3_4_0 C7 k) (row3_4_1 C7 k) (row3_4_2 C7 k) (row3_4_3 C7 k)

theorem idx3_4_lane (C7 : S4x200x128.Idx → BitVec 32) (hlt : SlabLt C7 1) (k : Fin k0_t3_loop.trips) (x : S16.Idx) :
    (idx3_4 (F := F) C7 k x).toNat
        = 512 * spW C7 1 (4 * k.val) (16 * 4 + (x 0).val) + 64 * spW C7 1 (4 * k.val + 1) (16 * 4 + (x 0).val)
          + 8 * spW C7 1 (4 * k.val + 2) (16 * 4 + (x 0).val) + spW C7 1 (4 * k.val + 3) (16 * 4 + (x 0).val)
      ∧ (idx3_4 (F := F) C7 k x).toNat < 4096 := by
  have hk := trip3_lt k
  have hx : (x 0).val < 16 := (x 0).isLt
  have e0 : ((shapeCast S16 (row3_4_0 (F := F) C7 k) shapeCasts_S1x1x16_S16 : IVec S16 32) x).toNat = spW C7 1 (4 * k.val) (16 * 4 + (x 0).val) := row3_4_0_lane (F := F) C7 k x
  have e1 : ((shapeCast S16 (row3_4_1 (F := F) C7 k) shapeCasts_S1x1x16_S16 : IVec S16 32) x).toNat = spW C7 1 (4 * k.val + 1) (16 * 4 + (x 0).val) := row3_4_1_lane (F := F) C7 k x
  have e2 : ((shapeCast S16 (row3_4_2 (F := F) C7 k) shapeCasts_S1x1x16_S16 : IVec S16 32) x).toNat = spW C7 1 (4 * k.val + 2) (16 * 4 + (x 0).val) := row3_4_2_lane (F := F) C7 k x
  have e3 : ((shapeCast S16 (row3_4_3 (F := F) C7 k) shapeCasts_S1x1x16_S16 : IVec S16 32) x).toNat = spW C7 1 (4 * k.val + 3) (16 * 4 + (x 0).val) := row3_4_3_lane (F := F) C7 k x
  have b0 : spW C7 1 (4 * k.val) (16 * 4 + (x 0).val) < 8 := hlt _ _ (by omega) (by omega)
  have b1 : spW C7 1 (4 * k.val + 1) (16 * 4 + (x 0).val) < 8 := hlt _ _ (by omega) (by omega)
  have b2 : spW C7 1 (4 * k.val + 2) (16 * 4 + (x 0).val) < 8 := hlt _ _ (by omega) (by omega)
  have b3 : spW C7 1 (4 * k.val + 3) (16 * 4 + (x 0).val) < 8 := hlt _ _ (by omega) (by omega)
  obtain ⟨e, l⟩ := Cert.Proof.Words.k0_pay36_lane (F := F) (row3_4_0 C7 k) (row3_4_1 C7 k) (row3_4_2 C7 k) (row3_4_3 C7 k) x
    (e0.trans_lt b0) (e1.trans_lt b1) (e2.trans_lt b2) (e3.trans_lt b3)
  exact ⟨e.trans (by rw [e0, e1, e2, e3]), l⟩

/-- The gather's side condition holds. -/
theorem chk3_4 (C7 : S4x200x128.Idx → BitVec 32) (hlt : SlabLt C7 1) (k : Fin k0_t3_loop.trips) :
    k0_chk17 (idx3_4 (F := F) C7 k) :=
  Cert.Proof.Words.k0_chk17_of_lt _ fun x => (idx3_4_lane C7 hlt k x).2

/-- Group 5's sixteen index words at trip k. -/
abbrev idx3_5 (C7 : S4x200x128.Idx → BitVec 32) (k : Fin k0_t3_loop.trips) : IVec S16 32 :=
  k0_pay39 (F := F) (k0_pay38 (row3_5_0 C7 k)) (row3_5_1 C7 k) (row3_5_2 C7 k) (row3_5_3 C7 k)

theorem idx3_5_lane (C7 : S4x200x128.Idx → BitVec 32) (hlt : SlabLt C7 1) (k : Fin k0_t3_loop.trips) (x : S16.Idx) :
    (idx3_5 (F := F) C7 k x).toNat
        = 512 * spW C7 1 (4 * k.val) (16 * 5 + (x 0).val) + 64 * spW C7 1 (4 * k.val + 1) (16 * 5 + (x 0).val)
          + 8 * spW C7 1 (4 * k.val + 2) (16 * 5 + (x 0).val) + spW C7 1 (4 * k.val + 3) (16 * 5 + (x 0).val)
      ∧ (idx3_5 (F := F) C7 k x).toNat < 4096 := by
  have hk := trip3_lt k
  have hx : (x 0).val < 16 := (x 0).isLt
  have e0 : (k0_pay38 (row3_5_0 (F := F) C7 k) x).toNat = spW C7 1 (4 * k.val) (16 * 5 + (x 0).val) := row3_5_0_lane (F := F) C7 k x
  have e1 : ((shapeCast S16 (row3_5_1 (F := F) C7 k) shapeCasts_S1x1x16_S16 : IVec S16 32) x).toNat = spW C7 1 (4 * k.val + 1) (16 * 5 + (x 0).val) := row3_5_1_lane (F := F) C7 k x
  have e2 : ((shapeCast S16 (row3_5_2 (F := F) C7 k) shapeCasts_S1x1x16_S16 : IVec S16 32) x).toNat = spW C7 1 (4 * k.val + 2) (16 * 5 + (x 0).val) := row3_5_2_lane (F := F) C7 k x
  have e3 : ((shapeCast S16 (row3_5_3 (F := F) C7 k) shapeCasts_S1x1x16_S16 : IVec S16 32) x).toNat = spW C7 1 (4 * k.val + 3) (16 * 5 + (x 0).val) := row3_5_3_lane (F := F) C7 k x
  have b0 : spW C7 1 (4 * k.val) (16 * 5 + (x 0).val) < 8 := hlt _ _ (by omega) (by omega)
  have b1 : spW C7 1 (4 * k.val + 1) (16 * 5 + (x 0).val) < 8 := hlt _ _ (by omega) (by omega)
  have b2 : spW C7 1 (4 * k.val + 2) (16 * 5 + (x 0).val) < 8 := hlt _ _ (by omega) (by omega)
  have b3 : spW C7 1 (4 * k.val + 3) (16 * 5 + (x 0).val) < 8 := hlt _ _ (by omega) (by omega)
  obtain ⟨e, l⟩ := Cert.Proof.Words.k0_pay39_lane (F := F) (k0_pay38 (row3_5_0 C7 k)) (row3_5_1 C7 k) (row3_5_2 C7 k) (row3_5_3 C7 k) x
    (e0.trans_lt b0) (e1.trans_lt b1) (e2.trans_lt b2) (e3.trans_lt b3)
  exact ⟨e.trans (by rw [e0, e1, e2, e3]), l⟩

/-- The gather's side condition holds. -/
theorem chk3_5 (C7 : S4x200x128.Idx → BitVec 32) (hlt : SlabLt C7 1) (k : Fin k0_t3_loop.trips) :
    k0_chk18 (idx3_5 (F := F) C7 k) :=
  Cert.Proof.Words.k0_chk18_of_lt _ fun x => (idx3_5_lane C7 hlt k x).2

/-- Group 6's sixteen index words at trip k. -/
abbrev idx3_6 (C7 : S4x200x128.Idx → BitVec 32) (k : Fin k0_t3_loop.trips) : IVec S16 32 :=
  k0_pay44 (F := F) (k0_pay41 (row3_6_0 C7 k)) (k0_pay42 (row3_6_1 C7 k)) (k0_pay43 (row3_6_2 C7 k)) (row3_6_3 C7 k)

theorem idx3_6_lane (C7 : S4x200x128.Idx → BitVec 32) (hlt : SlabLt C7 1) (k : Fin k0_t3_loop.trips) (x : S16.Idx) :
    (idx3_6 (F := F) C7 k x).toNat
        = 512 * spW C7 1 (4 * k.val) (16 * 6 + (x 0).val) + 64 * spW C7 1 (4 * k.val + 1) (16 * 6 + (x 0).val)
          + 8 * spW C7 1 (4 * k.val + 2) (16 * 6 + (x 0).val) + spW C7 1 (4 * k.val + 3) (16 * 6 + (x 0).val)
      ∧ (idx3_6 (F := F) C7 k x).toNat < 4096 := by
  have hk := trip3_lt k
  have hx : (x 0).val < 16 := (x 0).isLt
  have e0 : (k0_pay41 (row3_6_0 (F := F) C7 k) x).toNat = spW C7 1 (4 * k.val) (16 * 6 + (x 0).val) := row3_6_0_lane (F := F) C7 k x
  have e1 : (k0_pay42 (row3_6_1 (F := F) C7 k) x).toNat = spW C7 1 (4 * k.val + 1) (16 * 6 + (x 0).val) := row3_6_1_lane (F := F) C7 k x
  have e2 : (k0_pay43 (row3_6_2 (F := F) C7 k) x).toNat = spW C7 1 (4 * k.val + 2) (16 * 6 + (x 0).val) := row3_6_2_lane (F := F) C7 k x
  have e3 : ((shapeCast S16 (row3_6_3 (F := F) C7 k) shapeCasts_S1x1x16_S16 : IVec S16 32) x).toNat = spW C7 1 (4 * k.val + 3) (16 * 6 + (x 0).val) := row3_6_3_lane (F := F) C7 k x
  have b0 : spW C7 1 (4 * k.val) (16 * 6 + (x 0).val) < 8 := hlt _ _ (by omega) (by omega)
  have b1 : spW C7 1 (4 * k.val + 1) (16 * 6 + (x 0).val) < 8 := hlt _ _ (by omega) (by omega)
  have b2 : spW C7 1 (4 * k.val + 2) (16 * 6 + (x 0).val) < 8 := hlt _ _ (by omega) (by omega)
  have b3 : spW C7 1 (4 * k.val + 3) (16 * 6 + (x 0).val) < 8 := hlt _ _ (by omega) (by omega)
  obtain ⟨e, l⟩ := Cert.Proof.Words.k0_pay44_lane (F := F) (k0_pay41 (row3_6_0 C7 k)) (k0_pay42 (row3_6_1 C7 k)) (k0_pay43 (row3_6_2 C7 k)) (row3_6_3 C7 k) x
    (e0.trans_lt b0) (e1.trans_lt b1) (e2.trans_lt b2) (e3.trans_lt b3)
  exact ⟨e.trans (by rw [e0, e1, e2, e3]), l⟩

/-- The gather's side condition holds. -/
theorem chk3_6 (C7 : S4x200x128.Idx → BitVec 32) (hlt : SlabLt C7 1) (k : Fin k0_t3_loop.trips) :
    k0_chk19 (idx3_6 (F := F) C7 k) :=
  Cert.Proof.Words.k0_chk19_of_lt _ fun x => (idx3_6_lane C7 hlt k x).2

/-- Group 7's sixteen index words at trip k. -/
abbrev idx3_7 (C7 : S4x200x128.Idx → BitVec 32) (k : Fin k0_t3_loop.trips) : IVec S16 32 :=
  k0_pay46 (F := F) (row3_7_0 C7 k) (row3_7_1 C7 k) (row3_7_2 C7 k) (row3_7_3 C7 k)

theorem idx3_7_lane (C7 : S4x200x128.Idx → BitVec 32) (hlt : SlabLt C7 1) (k : Fin k0_t3_loop.trips) (x : S16.Idx) :
    (idx3_7 (F := F) C7 k x).toNat
        = 512 * spW C7 1 (4 * k.val) (16 * 7 + (x 0).val) + 64 * spW C7 1 (4 * k.val + 1) (16 * 7 + (x 0).val)
          + 8 * spW C7 1 (4 * k.val + 2) (16 * 7 + (x 0).val) + spW C7 1 (4 * k.val + 3) (16 * 7 + (x 0).val)
      ∧ (idx3_7 (F := F) C7 k x).toNat < 4096 := by
  have hk := trip3_lt k
  have hx : (x 0).val < 16 := (x 0).isLt
  have e0 : ((shapeCast S16 (row3_7_0 (F := F) C7 k) shapeCasts_S1x1x16_S16 : IVec S16 32) x).toNat = spW C7 1 (4 * k.val) (16 * 7 + (x 0).val) := row3_7_0_lane (F := F) C7 k x
  have e1 : ((shapeCast S16 (row3_7_1 (F := F) C7 k) shapeCasts_S1x1x16_S16 : IVec S16 32) x).toNat = spW C7 1 (4 * k.val + 1) (16 * 7 + (x 0).val) := row3_7_1_lane (F := F) C7 k x
  have e2 : ((shapeCast S16 (row3_7_2 (F := F) C7 k) shapeCasts_S1x1x16_S16 : IVec S16 32) x).toNat = spW C7 1 (4 * k.val + 2) (16 * 7 + (x 0).val) := row3_7_2_lane (F := F) C7 k x
  have e3 : ((shapeCast S16 (row3_7_3 (F := F) C7 k) shapeCasts_S1x1x16_S16 : IVec S16 32) x).toNat = spW C7 1 (4 * k.val + 3) (16 * 7 + (x 0).val) := row3_7_3_lane (F := F) C7 k x
  have b0 : spW C7 1 (4 * k.val) (16 * 7 + (x 0).val) < 8 := hlt _ _ (by omega) (by omega)
  have b1 : spW C7 1 (4 * k.val + 1) (16 * 7 + (x 0).val) < 8 := hlt _ _ (by omega) (by omega)
  have b2 : spW C7 1 (4 * k.val + 2) (16 * 7 + (x 0).val) < 8 := hlt _ _ (by omega) (by omega)
  have b3 : spW C7 1 (4 * k.val + 3) (16 * 7 + (x 0).val) < 8 := hlt _ _ (by omega) (by omega)
  obtain ⟨e, l⟩ := Cert.Proof.Words.k0_pay46_lane (F := F) (row3_7_0 C7 k) (row3_7_1 C7 k) (row3_7_2 C7 k) (row3_7_3 C7 k) x
    (e0.trans_lt b0) (e1.trans_lt b1) (e2.trans_lt b2) (e3.trans_lt b3)
  exact ⟨e.trans (by rw [e0, e1, e2, e3]), l⟩

/-- The gather's side condition holds. -/
theorem chk3_7 (C7 : S4x200x128.Idx → BitVec 32) (hlt : SlabLt C7 1) (k : Fin k0_t3_loop.trips) :
    k0_chk20 (idx3_7 (F := F) C7 k) :=
  Cert.Proof.Words.k0_chk20_of_lt _ fun x => (idx3_7_lane C7 hlt k x).2

/-! ## A trip, and the start -/

/-- One trip takes the eight accumulators from k quads to k + 1. -/
theorem trip3 (C10 : S16.Idx → F .f32) (C11 : S4096.Idx → F .f32) (C7 : S4x200x128.Idx → BitVec 32)
    (hT : TabOK C10 256 C11) (hlt : SlabLt C7 1) (k : Fin k0_t3_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx3_0 (F := F) C7 k] : Fin 1 → IVec S16 32) a x).toNat < S4096.size a)
    (h1 : ∀ a x, ((![idx3_1 (F := F) C7 k] : Fin 1 → IVec S16 32) a x).toNat < S4096.size a)
    (h2 : ∀ a x, ((![idx3_2 (F := F) C7 k] : Fin 1 → IVec S16 32) a x).toNat < S4096.size a)
    (h3 : ∀ a x, ((![idx3_3 (F := F) C7 k] : Fin 1 → IVec S16 32) a x).toNat < S4096.size a)
    (h4 : ∀ a x, ((![idx3_4 (F := F) C7 k] : Fin 1 → IVec S16 32) a x).toNat < S4096.size a)
    (h5 : ∀ a x, ((![idx3_5 (F := F) C7 k] : Fin 1 → IVec S16 32) a x).toNat < S4096.size a)
    (h6 : ∀ a x, ((![idx3_6 (F := F) C7 k] : Fin 1 → IVec S16 32) a x).toNat < S4096.size a)
    (h7 : ∀ a x, ((![idx3_7 (F := F) C7 k] : Fin 1 → IVec S16 32) a x).toNat < S4096.size a)
    (hacc : AccOK C10 C7 1 k.val accs) :
    AccOK C10 C7 1 (k.val + 1)
      (k0_pay25 accs.1 (tabGather C11 (idx3_0 C7 k) h0),
        k0_pay28 accs.2.1 (tabGather C11 (idx3_1 C7 k) h1),
        k0_pay33 accs.2.2.1 (tabGather C11 (idx3_2 C7 k) h2),
        k0_pay35 accs.2.2.2.1 (tabGather C11 (idx3_3 C7 k) h3),
        k0_pay37 accs.2.2.2.2.1 (tabGather C11 (idx3_4 C7 k) h4),
        k0_pay40 accs.2.2.2.2.2.1 (tabGather C11 (idx3_5 C7 k) h5),
        k0_pay45 accs.2.2.2.2.2.2.1 (tabGather C11 (idx3_6 C7 k) h6),
        k0_pay121 accs.2.2.2.2.2.2.2 (tabGather C11 (idx3_7 C7 k) h7)) := by
  unfold AccOK at hacc ⊢
  obtain ⟨a0, a1, a2, a3, a4, a5, a6, a7⟩ := hacc
  exact ⟨lane_step C10 C11 C7 hT 1 0 k.val _ a0 (idx3_0 C7 k) h0 (fun x => (idx3_0_lane C7 hlt k x).1),
    lane_step C10 C11 C7 hT 1 1 k.val _ a1 (idx3_1 C7 k) h1 (fun x => (idx3_1_lane C7 hlt k x).1),
    lane_step C10 C11 C7 hT 1 2 k.val _ a2 (idx3_2 C7 k) h2 (fun x => (idx3_2_lane C7 hlt k x).1),
    lane_step C10 C11 C7 hT 1 3 k.val _ a3 (idx3_3 C7 k) h3 (fun x => (idx3_3_lane C7 hlt k x).1),
    lane_step C10 C11 C7 hT 1 4 k.val _ a4 (idx3_4 C7 k) h4 (fun x => (idx3_4_lane C7 hlt k x).1),
    lane_step C10 C11 C7 hT 1 5 k.val _ a5 (idx3_5 C7 k) h5 (fun x => (idx3_5_lane C7 hlt k x).1),
    lane_step C10 C11 C7 hT 1 6 k.val _ a6 (idx3_6 C7 k) h6 (fun x => (idx3_6_lane C7 hlt k x).1),
    lane_step C10 C11 C7 hT 1 7 k.val _ a7 (idx3_7 C7 k) h7 (fun x => (idx3_7_lane C7 hlt k x).1)⟩

/-- The loop starts with every accumulator at zero: no quad added yet. -/
theorem init3 (C10 : S16.Idx → F .f32) (C7 : S4x200x128.Idx → BitVec 32) :
    AccOK C10 C7 1 0
      (k0_pay113 (F := F), k0_pay114 (F := F), k0_pay115 (F := F), k0_pay116 (F := F) (Scalar.ofBits .f32 0x00000000#32), k0_pay117 (F := F), k0_pay118 (F := F), k0_pay119 (F := F), k0_pay120 (F := F)) := by
  unfold AccOK
  exact ⟨fun _ => rfl, fun _ => rfl, fun _ => rfl, fun _ => rfl, fun _ => rfl, fun _ => rfl, fun _ => rfl, fun _ => rfl⟩

end Cert.Proof.KI

end
-- ==== Proof.LoopT4.lean ====
/-
  Loop 4 of the tile's body — panel 2 of the species scratch, fifty trips — lane by lane.

  Trip k reads, for each group j < 8 of sixteen molecule columns 16 j .. 16 j + 15 of panel 2, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLane
import proofs.«206988_g4337916970008_retrytranche1_694_23_alg».proof.Proof.WordsQ

noncomputable section

namespace Cert.Proof.KI

open Cert.KernelIdeal Cert.KernelIdeal.Gen
open Idealize.ShloMosaic
open Idealize.SL.Sem

variable {F : FTy → Type} [FloatOps F]

/-- The loop has at most fifty trips. -/
theorem trip4_lt (k : Fin k0_t4_loop.trips) : k.val < 50 := Nat.lt_of_lt_of_le k.isLt k0_t4_abs.2.1

/-! ## The rows a trip loads -/

/-- Group 0: the rows of atoms 4k .. 4k+3 at columns 0 .. 15. -/
abbrev row4_0_0 (C7 : S4x200x128.Idx → BitVec 32) (k : Fin k0_t4_loop.trips) : Vec F S1x1x16 .i32 :=
  rowLd C7 (k0_off37 k) (k0_off37_inb k)
abbrev row4_0_1 (C7 : S4x200x128.Idx → BitVec 32) (k : Fin k0_t4_loop.trips) : Vec F S1x1x16 .i32 :=
  rowLd C7 (k0_off38 k 1#32) (k0_off38_inb k 0)
abbrev row4_0_2 (C7 : S4x200x128.Idx → BitVec 32) (k : Fin k0_t4_loop.trips) : Vec F S1x1x16 .i32 :=
  rowLd C7 (k0_off38 k 2#32) (k0_off38_inb k 1)
abbrev row4_0_3 (C7 : S4x200x128.Idx → BitVec 32) (k : Fin k0_t4_loop.trips) : Vec F S1x1x16 .i32 :=
  rowLd C7 (k0_off38 k 3#32) (k0_off38_inb k 2)

theorem row4_0_0_lane (C7 : S4x200x128.Idx → BitVec 32) (k : Fin k0_t4_loop.trips) (x : S16.Idx) :
    ((shapeCast S16 (row4_0_0 (F := F) C7 k) shapeCasts_S1x1x16_S16 : IVec S16 32) x).toNat
      = spW C7 2 (4 * k.val) (16 * 0 + (x 0).val) :=
  rowLd_lane C7 _ _ 2 (4 * k.val) (4 * k.val) (16 * 0) (Gen.k0_off37_eq k) rfl (by decide)
    (by have := trip4_lt k; omega) (by decide) x
theorem row4_0_1_lane (C7 : S4x200x128.Idx → BitVec 32) (k : Fin k0_t4_loop.trips) (x : S16.Idx) :
    ((shapeCast S16 (row4_0_1 (F := F) C7 k) shapeCasts_S1x1x16_S16 : IVec S16 32) x).toNat
      = spW C7 2 (4 * k.val + 1) (16 * 0 + (x 0).val) :=
  rowLd_lane C7 _ _ 2 (4 * k.val + 0 + 1) (4 * k.val + 1) (16 * 0) (Gen.k0_off38_eq k ⟨0, by decide⟩)
    (by omega) (by decide) (by have := trip4_lt k; omega) (by decide) x
theorem row4_0_2_lane (C7 : S4x200x128.Idx → BitVec 32) (k : Fin k0_t4_loop.trips) (x : S16.Idx) :
    ((shapeCast S16 (row4_0_2 (F := F) C7 k) shapeCasts_S1x1x16_S16 : IVec S16 32) x).toNat
      = spW C7 2 (4 * k.val + 2) (16 * 0 + (x 0).val) :=
  rowLd_lane C7 _ _ 2 (4 * k.val + 1 + 1) (4 * k.val + 2) (16 * 0) (Gen.k0_off38_eq k ⟨1, by decide⟩)
    (by omega) (by decide) (by have := trip4_lt k; omega) (by decide) x
theorem row4_0_3_lane (C7 : S4x200x128.Idx → BitVec 32) (k : Fin k0_t4_loop.trips) (x : S16.Idx) :
    ((shapeCast S16 (row4_0_3 (F := F) C7 k) shapeCasts_S1x1x16_S16 : IVec S16 32) x).toNat
      = spW C7 2 (4 * k.val + 3) (16 * 0 + (x 0).val) :=
  rowLd_lane C7 _ _ 2 (4 * k.val + 2 + 1) (4 * k.val + 3) (16 * 0) (Gen.k0_off38_eq k ⟨2, by decide⟩)
    (by omega) (by decide) (by have := trip4_lt k; omega) (by decide) x

/-- Group 1: the rows of atoms 4k .. 4k+3 at columns 16 .. 31. -/
abbrev row4_1_0 (C7 : S4x200x128.Idx → BitVec 32) (k : Fin k0_t4_loop.trips) : Vec F S1x1x16 .i32 :=
  rowLd C7 (k0_off39 k) (k0_off39_inb k)
abbrev row4_1_1 (C7 : S4x200x128.Idx → BitVec 32) (k : Fin k0_t4_loop.trips) : Vec F S1x1x16 .i32 :=
  rowLd C7 (k0_off40 k 1#32) (k0_off40_inb k 0)
abbrev row4_1_2 (C7 : S4x200x128.Idx → BitVec 32) (k : Fin k0_t4_loop.trips) : Vec F S1x1x16 .i32 :=
  rowLd C7 (k0_off40 k 2#32) (k0_off40_inb k 1)
abbrev row4_1_3 (C7 : S4x200x128.Idx → BitVec 32) (k : Fin k0_t4_loop.trips) : Vec F S1x1x16 .i32 :=
  rowLd C7 (k0_off40 k 3#32) (k0_off40_inb k 2)

theorem row4_1_0_lane (C7 : S4x200x128.Idx → BitVec 32) (k : Fin k0_t4_loop.trips) (x : S16.Idx) :
    ((shapeCast S16 (row4_1_0 (F := F) C7 k) shapeCasts_S1x1x16_S16 : IVec S16 32) x).toNat
      = spW C7 2 (4 * k.val) (16 * 1 + (x 0).val) :=
  rowLd_lane C7 _ _ 2 (4 * k.val) (4 * k.val) (16 * 1) (Gen.k0_off39_eq k) rfl (by decide)
    (by have := trip4_lt k; omega) (by decide) x
theorem row4_1_1_lane (C7 : S4x200x128.Idx → BitVec 32) (k : Fin k0_t4_loop.trips) (x : S16.Idx) :
    ((shapeCast S16 (row4_1_1 (F := F) C7 k) shapeCasts_S1x1x16_S16 : IVec S16 32) x).toNat
      = spW C7 2 (4 * k.val + 1) (16 * 1 + (x 0).val) :=
  rowLd_lane C7 _ _ 2 (4 * k.val + 0 + 1) (4 * k.val + 1) (16 * 1) (Gen.k0_off40_eq k ⟨0, by decide⟩)
    (by omega) (by decide) (by have := trip4_lt k; omega) (by decide) x
theorem row4_1_2_lane (C7 : S4x200x128.Idx → BitVec 32) (k : Fin k0_t4_loop.trips) (x : S16.Idx) :
    ((shapeCast S16 (row4_1_2 (F := F) C7 k) shapeCasts_S1x1x16_S16 : IVec S16 32) x).toNat
      = spW C7 2 (4 * k.val + 2) (16 * 1 + (x 0).val) :=
  rowLd_lane C7 _ _ 2 (4 * k.val + 1 + 1) (4 * k.val + 2) (16 * 1) (Gen.k0_off40_eq k ⟨1, by decide⟩)
    (by omega) (by decide) (by have := trip4_lt k; omega) (by decide) x
theorem row4_1_3_lane (C7 : S4x200x128.Idx → BitVec 32) (k : Fin k0_t4_loop.trips) (x : S16.Idx) :
    ((shapeCast S16 (row4_1_3 (F := F) C7 k) shapeCasts_S1x1x16_S16 : IVec S16 32) x).toNat
      = spW C7 2 (4 * k.val + 3) (16 * 1 + (x 0).val) :=
  rowLd_lane C7 _ _ 2 (4 * k.val + 2 + 1) (4 * k.val + 3) (16 * 1) (Gen.k0_off40_eq k ⟨2, by decide⟩)
    (by omega) (by decide) (by have := trip4_lt k; omega) (by decide) x

/-- Group 2: the rows of atoms 4k .. 4k+3 at columns 32 .. 47. -/
abbrev row4_2_0 (C7 : S4x200x128.Idx → BitVec 32) (k : Fin k0_t4_loop.trips) : Vec F S1x1x16 .i32 :=
  rowLd C7 (k0_off41 k) (k0_off41_inb k)
abbrev row4_2_1 (C7 : S4x200x128.Idx → BitVec 32) (k : Fin k0_t4_loop.trips) : Vec F S1x1x16 .i32 :=
  rowLd C7 (k0_off42 k 1#32) (k0_off42_inb k 0)
abbrev row4_2_2 (C7 : S4x200x128.Idx → BitVec 32) (k : Fin k0_t4_loop.trips) : Vec F S1x1x16 .i32 :=
  rowLd C7 (k0_off42 k 2#32) (k0_off42_inb k 1)
abbrev row4_2_3 (C7 : S4x200x128.Idx → BitVec 32) (k : Fin k0_t4_loop.trips) : Vec F S1x1x16 .i32 :=
  rowLd C7 (k0_off42 k 3#32) (k0_off42_inb k 2)

theorem row4_2_0_lane (C7 : S4x200x128.Idx → BitVec 32) (k : Fin k0_t4_loop.trips) (x : S16.Idx) :
    ((shapeCast S16 (row4_2_0 (F := F) C7 k) shapeCasts_S1x1x16_S16 : IVec S16 32) x).toNat
      = spW C7 2 (4 * k.val) (16 * 2 + (x 0).val) :=
  rowLd_lane C7 _ _ 2 (4 * k.val) (4 * k.val) (16 * 2) (Gen.k0_off41_eq k) rfl (by decide)
    (by have := trip4_lt k; omega) (by decide) x
theorem row4_2_1_lane (C7 : S4x200x128.Idx → BitVec 32) (k : Fin k0_t4_loop.trips) (x : S16.Idx) :
    ((shapeCast S16 (row4_2_1 (F := F) C7 k) shapeCasts_S1x1x16_S16 : IVec S16 32) x).toNat
      = spW C7 2 (4 * k.val + 1) (16 * 2 + (x 0).val) :=
  rowLd_lane C7 _ _ 2 (4 * k.val + 0 + 1) (4 * k.val + 1) (16 * 2) (Gen.k0_off42_eq k ⟨0, by decide⟩)
    (by omega) (by decide) (by have := trip4_lt k; omega) (by decide) x
theorem row4_2_2_lane (C7 : S4x200x128.Idx → BitVec 32) (k : Fin k0_t4_loop.trips) (x : S16.Idx) :
    ((shapeCast S16 (row4_2_2 (F := F) C7 k) shapeCasts_S1x1x16_S16 : IVec S16 32) x).toNat
      = spW C7 2 (4 * k.val + 2) (16 * 2 + (x 0).val) :=
  rowLd_lane C7 _ _ 2 (4 * k.val + 1 + 1) (4 * k.val + 2) (16 * 2) (Gen.k0_off42_eq k ⟨1, by decide⟩)
    (by omega) (by decide) (by have := trip4_lt k; omega) (by decide) x
theorem row4_2_3_lane (C7 : S4x200x128.Idx → BitVec 32) (k : Fin k0_t4_loop.trips) (x : S16.Idx) :
    ((shapeCast S16 (row4_2_3 (F := F) C7 k) shapeCasts_S1x1x16_S16 : IVec S16 32) x).toNat
      = spW C7 2 (4 * k.val + 3) (16 * 2 + (x 0).val) :=
  rowLd_lane C7 _ _ 2 (4 * k.val + 2 + 1) (4 * k.val + 3) (16 * 2) (Gen.k0_off42_eq k ⟨2, by decide⟩)
    (by omega) (by decide) (by have := trip4_lt k; omega) (by decide) x

/-- Group 3: the rows of atoms 4k .. 4k+3 at columns 48 .. 63. -/
abbrev row4_3_0 (C7 : S4x200x128.Idx → BitVec 32) (k : Fin k0_t4_loop.trips) : Vec F S1x1x16 .i32 :=
  rowLd C7 (k0_off43 k) (k0_off43_inb k)
abbrev row4_3_1 (C7 : S4x200x128.Idx → BitVec 32) (k : Fin k0_t4_loop.trips) : Vec F S1x1x16 .i32 :=
  rowLd C7 (k0_off44 k 1#32) (k0_off44_inb k 0)
abbrev row4_3_2 (C7 : S4x200x128.Idx → BitVec 32) (k : Fin k0_t4_loop.trips) : Vec F S1x1x16 .i32 :=
  rowLd C7 (k0_off44 k 2#32) (k0_off44_inb k 1)
abbrev row4_3_3 (C7 : S4x200x128.Idx → BitVec 32) (k : Fin k0_t4_loop.trips) : Vec F S1x1x16 .i32 :=
  rowLd C7 (k0_off44 k 3#32) (k0_off44_inb k 2)

theorem row4_3_0_lane (C7 : S4x200x128.Idx → BitVec 32) (k : Fin k0_t4_loop.trips) (x : S16.Idx) :
    ((shapeCast S16 (row4_3_0 (F := F) C7 k) shapeCasts_S1x1x16_S16 : IVec S16 32) x).toNat
      = spW C7 2 (4 * k.val) (16 * 3 + (x 0).val) :=
  rowLd_lane C7 _ _ 2 (4 * k.val) (4 * k.val) (16 * 3) (Gen.k0_off43_eq k) rfl (by decide)
    (by have := trip4_lt k; omega) (by decide) x
theorem row4_3_1_lane (C7 : S4x200x128.Idx → BitVec 32) (k : Fin k0_t4_loop.trips) (x : S16.Idx) :
    ((shapeCast S16 (row4_3_1 (F := F) C7 k) shapeCasts_S1x1x16_S16 : IVec S16 32) x).toNat
      = spW C7 2 (4 * k.val + 1) (16 * 3 + (x 0).val) :=
  rowLd_lane C7 _ _ 2 (4 * k.val + 0 + 1) (4 * k.val + 1) (16 * 3) (Gen.k0_off44_eq k ⟨0, by decide⟩)
    (by omega) (by decide) (by have := trip4_lt k; omega) (by decide) x
theorem row4_3_2_lane (C7 : S4x200x128.Idx → BitVec 32) (k : Fin k0_t4_loop.trips) (x : S16.Idx) :
    ((shapeCast S16 (row4_3_2 (F := F) C7 k) shapeCasts_S1x1x16_S16 : IVec S16 32) x).toNat
      = spW C7 2 (4 * k.val + 2) (16 * 3 + (x 0).val) :=
  rowLd_lane C7 _ _ 2 (4 * k.val + 1 + 1) (4 * k.val + 2) (16 * 3) (Gen.k0_off44_eq k ⟨1, by decide⟩)
    (by omega) (by decide) (by have := trip4_lt k; omega) (by decide) x
theorem row4_3_3_lane (C7 : S4x200x128.Idx → BitVec 32) (k : Fin k0_t4_loop.trips) (x : S16.Idx) :
    ((shapeCast S16 (row4_3_3 (F := F) C7 k) shapeCasts_S1x1x16_S16 : IVec S16 32) x).toNat
      = spW C7 2 (4 * k.val + 3) (16 * 3 + (x 0).val) :=
  rowLd_lane C7 _ _ 2 (4 * k.val + 2 + 1) (4 * k.val + 3) (16 * 3) (Gen.k0_off44_eq k ⟨2, by decide⟩)
    (by omega) (by decide) (by have := trip4_lt k; omega) (by decide) x

/-- Group 4: the rows of atoms 4k .. 4k+3 at columns 64 .. 79. -/
abbrev row4_4_0 (C7 : S4x200x128.Idx → BitVec 32) (k : Fin k0_t4_loop.trips) : Vec F S1x1x16 .i32 :=
  rowLd C7 (k0_off45 k) (k0_off45_inb k)
abbrev row4_4_1 (C7 : S4x200x128.Idx → BitVec 32) (k : Fin k0_t4_loop.trips) : Vec F S1x1x16 .i32 :=
  rowLd C7 (k0_off46 k 1#32) (k0_off46_inb k 0)
abbrev row4_4_2 (C7 : S4x200x128.Idx → BitVec 32) (k : Fin k0_t4_loop.trips) : Vec F S1x1x16 .i32 :=
  rowLd C7 (k0_off46 k 2#32) (k0_off46_inb k 1)
abbrev row4_4_3 (C7 : S4x200x128.Idx → BitVec 32) (k : Fin k0_t4_loop.trips) : Vec F S1x1x16 .i32 :=
  rowLd C7 (k0_off46 k 3#32) (k0_off46_inb k 2)

theorem row4_4_0_lane (C7 : S4x200x128.Idx → BitVec 32) (k : Fin k0_t4_loop.trips) (x : S16.Idx) :
    ((shapeCast S16 (row4_4_0 (F := F) C7 k) shapeCasts_S1x1x16_S16 : IVec S16 32) x).toNat
      = spW C7 2 (4 * k.val) (16 * 4 + (x 0).val) :=
  rowLd_lane C7 _ _ 2 (4 * k.val) (4 * k.val) (16 * 4) (Gen.k0_off45_eq k) rfl (by decide)
    (by have := trip4_lt k; omega) (by decide) x
theorem row4_4_1_lane (C7 : S4x200x128.Idx → BitVec 32) (k : Fin k0_t4_loop.trips) (x : S16.Idx) :
    ((shapeCast S16 (row4_4_1 (F := F) C7 k) shapeCasts_S1x1x16_S16 : IVec S16 32) x).toNat
      = spW C7 2 (4 * k.val + 1) (16 * 4 + (x 0).val) :=
  rowLd_lane C7 _ _ 2 (4 * k.val + 0 + 1) (4 * k.val + 1) (16 * 4) (Gen.k0_off46_eq k ⟨0, by decide⟩)
    (by omega) (by decide) (by have := trip4_lt k; omega) (by decide) x
theorem row4_4_2_lane (C7 : S4x200x128.Idx → BitVec 32) (k : Fin k0_t4_loop.trips) (x : S16.Idx) :
    ((shapeCast S16 (row4_4_2 (F := F) C7 k) shapeCasts_S1x1x16_S16 : IVec S16 32) x).toNat
      = spW C7 2 (4 * k.val + 2) (16 * 4 + (x 0).val) :=
  rowLd_lane C7 _ _ 2 (4 * k.val + 1 + 1) (4 * k.val + 2) (16 * 4) (Gen.k0_off46_eq k ⟨1, by decide⟩)
    (by omega) (by decide) (by have := trip4_lt k; omega) (by decide) x
theorem row4_4_3_lane (C7 : S4x200x128.Idx → BitVec 32) (k : Fin k0_t4_loop.trips) (x : S16.Idx) :
    ((shapeCast S16 (row4_4_3 (F := F) C7 k) shapeCasts_S1x1x16_S16 : IVec S16 32) x).toNat
      = spW C7 2 (4 * k.val + 3) (16 * 4 + (x 0).val) :=
  rowLd_lane C7 _ _ 2 (4 * k.val + 2 + 1) (4 * k.val + 3) (16 * 4) (Gen.k0_off46_eq k ⟨2, by decide⟩)
    (by omega) (by decide) (by have := trip4_lt k; omega) (by decide) x

/-- Group 5: the rows of atoms 4k .. 4k+3 at columns 80 .. 95. -/
abbrev row4_5_0 (C7 : S4x200x128.Idx → BitVec 32) (k : Fin k0_t4_loop.trips) : Vec F S1x1x16 .i32 :=
  rowLd C7 (k0_off47 k) (k0_off47_inb k)
abbrev row4_5_1 (C7 : S4x200x128.Idx → BitVec 32) (k : Fin k0_t4_loop.trips) : Vec F S1x1x16 .i32 :=
  rowLd C7 (k0_off48 k 1#32) (k0_off48_inb k 0)
abbrev row4_5_2 (C7 : S4x200x128.Idx → BitVec 32) (k : Fin k0_t4_loop.trips) : Vec F S1x1x16 .i32 :=
  rowLd C7 (k0_off48 k 2#32) (k0_off48_inb k 1)
abbrev row4_5_3 (C7 : S4x200x128.Idx → BitVec 32) (k : Fin k0_t4_loop.trips) : Vec F S1x1x16 .i32 :=
  rowLd C7 (k0_off48 k 3#32) (k0_off48_inb k 2)

theorem row4_5_0_lane (C7 : S4x200x128.Idx → BitVec 32) (k : Fin k0_t4_loop.trips) (x : S16.Idx) :
    ((shapeCast S16 (row4_5_0 (F := F) C7 k) shapeCasts_S1x1x16_S16 : IVec S16 32) x).toNat
      = spW C7 2 (4 * k.val) (16 * 5 + (x 0).val) :=
  rowLd_lane C7 _ _ 2 (4 * k.val) (4 * k.val) (16 * 5) (Gen.k0_off47_eq k) rfl (by decide)
    (by have := trip4_lt k; omega) (by decide) x
theorem row4_5_1_lane (C7 : S4x200x128.Idx → BitVec 32) (k : Fin k0_t4_loop.trips) (x : S16.Idx) :
    ((shapeCast S16 (row4_5_1 (F := F) C7 k) shapeCasts_S1x1x16_S16 : IVec S16 32) x).toNat
      = spW C7 2 (4 * k.val + 1) (16 * 5 + (x 0).val) :=
  rowLd_lane C7 _ _ 2 (4 * k.val + 0 + 1) (4 * k.val + 1) (16 * 5) (Gen.k0_off48_eq k ⟨0, by decide⟩)
    (by omega) (by decide) (by have := trip4_lt k; omega) (by decide) x
theorem row4_5_2_lane (C7 : S4x200x128.Idx → BitVec 32) (k : Fin k0_t4_loop.trips) (x : S16.Idx) :
    ((shapeCast S16 (row4_5_2 (F := F) C7 k) shapeCasts_S1x1x16_S16 : IVec S16 32) x).toNat
      = spW C7 2 (4 * k.val + 2) (16 * 5 + (x 0).val) :=
  rowLd_lane C7 _ _ 2 (4 * k.val + 1 + 1) (4 * k.val + 2) (16 * 5) (Gen.k0_off48_eq k ⟨1, by decide⟩)
    (by omega) (by decide) (by have := trip4_lt k; omega) (by decide) x
theorem row4_5_3_lane (C7 : S4x200x128.Idx → BitVec 32) (k : Fin k0_t4_loop.trips) (x : S16.Idx) :
    ((shapeCast S16 (row4_5_3 (F := F) C7 k) shapeCasts_S1x1x16_S16 : IVec S16 32) x).toNat
      = spW C7 2 (4 * k.val + 3) (16 * 5 + (x 0).val) :=
  rowLd_lane C7 _ _ 2 (4 * k.val + 2 + 1) (4 * k.val + 3) (16 * 5) (Gen.k0_off48_eq k ⟨2, by decide⟩)
    (by omega) (by decide) (by have := trip4_lt k; omega) (by decide) x

/-- Group 6: the rows of atoms 4k .. 4k+3 at columns 96 .. 111. -/
abbrev row4_6_0 (C7 : S4x200x128.Idx → BitVec 32) (k : Fin k0_t4_loop.trips) : Vec F S1x1x16 .i32 :=
  rowLd C7 (k0_off49 k) (k0_off49_inb k)
abbrev row4_6_1 (C7 : S4x200x128.Idx → BitVec 32) (k : Fin k0_t4_loop.trips) : Vec F S1x1x16 .i32 :=
  rowLd C7 (k0_off50 k 1#32) (k0_off50_inb k 0)
abbrev row4_6_2 (C7 : S4x200x128.Idx → BitVec 32) (k : Fin k0_t4_loop.trips) : Vec F S1x1x16 .i32 :=
  rowLd C7 (k0_off50 k 2#32) (k0_off50_inb k 1)
abbrev row4_6_3 (C7 : S4x200x128.Idx → BitVec 32) (k : Fin k0_t4_loop.trips) : Vec F S1x1x16 .i32 :=
  rowLd C7 (k0_off50 k 3#32) (k0_off50_inb k 2)

theorem row4_6_0_lane (C7 : S4x200x128.Idx → BitVec 32) (k : Fin k0_t4_loop.trips) (x : S16.Idx) :
    ((shapeCast S16 (row4_6_0 (F := F) C7 k) shapeCasts_S1x1x16_S16 : IVec S16 32) x).toNat
      = spW C7 2 (4 * k.val) (16 * 6 + (x 0).val) :=
  rowLd_lane C7 _ _ 2 (4 * k.val) (4 * k.val) (16 * 6) (Gen.k0_off49_eq k) rfl (by decide)
    (by have := trip4_lt k; omega) (by decide) x
theorem row4_6_1_lane (C7 : S4x200x128.Idx → BitVec 32) (k : Fin k0_t4_loop.trips) (x : S16.Idx) :
    ((shapeCast S16 (row4_6_1 (F := F) C7 k) shapeCasts_S1x1x16_S16 : IVec S16 32) x).toNat
      = spW C7 2 (4 * k.val + 1) (16 * 6 + (x 0).val) :=
  rowLd_lane C7 _ _ 2 (4 * k.val + 0 + 1) (4 * k.val + 1) (16 * 6) (Gen.k0_off50_eq k ⟨0, by decide⟩)
    (by omega) (by decide) (by have := trip4_lt k; omega) (by decide) x
theorem row4_6_2_lane (C7 : S4x200x128.Idx → BitVec 32) (k : Fin k0_t4_loop.trips) (x : S16.Idx) :
    ((shapeCast S16 (row4_6_2 (F := F) C7 k) shapeCasts_S1x1x16_S16 : IVec S16 32) x).toNat
      = spW C7 2 (4 * k.val + 2) (16 * 6 + (x 0).val) :=
  rowLd_lane C7 _ _ 2 (4 * k.val + 1 + 1) (4 * k.val + 2) (16 * 6) (Gen.k0_off50_eq k ⟨1, by decide⟩)
    (by omega) (by decide) (by have := trip4_lt k; omega) (by decide) x
theorem row4_6_3_lane (C7 : S4x200x128.Idx → BitVec 32) (k : Fin k0_t4_loop.trips) (x : S16.Idx) :
    ((shapeCast S16 (row4_6_3 (F := F) C7 k) shapeCasts_S1x1x16_S16 : IVec S16 32) x).toNat
      = spW C7 2 (4 * k.val + 3) (16 * 6 + (x 0).val) :=
  rowLd_lane C7 _ _ 2 (4 * k.val + 2 + 1) (4 * k.val + 3) (16 * 6) (Gen.k0_off50_eq k ⟨2, by decide⟩)
    (by omega) (by decide) (by have := trip4_lt k; omega) (by decide) x

/-- Group 7: the rows of atoms 4k .. 4k+3 at columns 112 .. 127. -/
abbrev row4_7_0 (C7 : S4x200x128.Idx → BitVec 32) (k : Fin k0_t4_loop.trips) : Vec F S1x1x16 .i32 :=
  rowLd C7 (k0_off51 k) (k0_off51_inb k)
abbrev row4_7_1 (C7 : S4x200x128.Idx → BitVec 32) (k : Fin k0_t4_loop.trips) : Vec F S1x1x16 .i32 :=
  rowLd C7 (k0_off52 k 1#32) (k0_off52_inb k 0)
abbrev row4_7_2 (C7 : S4x200x128.Idx → BitVec 32) (k : Fin k0_t4_loop.trips) : Vec F S1x1x16 .i32 :=
  rowLd C7 (k0_off52 k 2#32) (k0_off52_inb k 1)
abbrev row4_7_3 (C7 : S4x200x128.Idx → BitVec 32) (k : Fin k0_t4_loop.trips) : Vec F S1x1x16 .i32 :=
  rowLd C7 (k0_off52 k 3#32) (k0_off52_inb k 2)

theorem row4_7_0_lane (C7 : S4x200x128.Idx → BitVec 32) (k : Fin k0_t4_loop.trips) (x : S16.Idx) :
    ((shapeCast S16 (row4_7_0 (F := F) C7 k) shapeCasts_S1x1x16_S16 : IVec S16 32) x).toNat
      = spW C7 2 (4 * k.val) (16 * 7 + (x 0).val) :=
  rowLd_lane C7 _ _ 2 (4 * k.val) (4 * k.val) (16 * 7) (Gen.k0_off51_eq k) rfl (by decide)
    (by have := trip4_lt k; omega) (by decide) x
theorem row4_7_1_lane (C7 : S4x200x128.Idx → BitVec 32) (k : Fin k0_t4_loop.trips) (x : S16.Idx) :
    ((shapeCast S16 (row4_7_1 (F := F) C7 k) shapeCasts_S1x1x16_S16 : IVec S16 32) x).toNat
      = spW C7 2 (4 * k.val + 1) (16 * 7 + (x 0).val) :=
  rowLd_lane C7 _ _ 2 (4 * k.val + 0 + 1) (4 * k.val + 1) (16 * 7) (Gen.k0_off52_eq k ⟨0, by decide⟩)
    (by omega) (by decide) (by have := trip4_lt k; omega) (by decide) x
theorem row4_7_2_lane (C7 : S4x200x128.Idx → BitVec 32) (k : Fin k0_t4_loop.trips) (x : S16.Idx) :
    ((shapeCast S16 (row4_7_2 (F := F) C7 k) shapeCasts_S1x1x16_S16 : IVec S16 32) x).toNat
      = spW C7 2 (4 * k.val + 2) (16 * 7 + (x 0).val) :=
  rowLd_lane C7 _ _ 2 (4 * k.val + 1 + 1) (4 * k.val + 2) (16 * 7) (Gen.k0_off52_eq k ⟨1, by decide⟩)
    (by omega) (by decide) (by have := trip4_lt k; omega) (by decide) x
theorem row4_7_3_lane (C7 : S4x200x128.Idx → BitVec 32) (k : Fin k0_t4_loop.trips) (x : S16.Idx) :
    ((shapeCast S16 (row4_7_3 (F := F) C7 k) shapeCasts_S1x1x16_S16 : IVec S16 32) x).toNat
      = spW C7 2 (4 * k.val + 3) (16 * 7 + (x 0).val) :=
  rowLd_lane C7 _ _ 2 (4 * k.val + 2 + 1) (4 * k.val + 3) (16 * 7) (Gen.k0_off52_eq k ⟨2, by decide⟩)
    (by omega) (by decide) (by have := trip4_lt k; omega) (by decide) x

/-! ## The index words -/

/-- Group 0's sixteen index words at trip k. -/
abbrev idx4_0 (C7 : S4x200x128.Idx → BitVec 32) (k : Fin k0_t4_loop.trips) : IVec S16 32 :=
  k0_pay47 (F := F) (row4_0_0 C7 k) (row4_0_1 C7 k) (row4_0_2 C7 k) (row4_0_3 C7 k)

theorem idx4_0_lane (C7 : S4x200x128.Idx → BitVec 32) (hlt : SlabLt C7 2) (k : Fin k0_t4_loop.trips) (x : S16.Idx) :
    (idx4_0 (F := F) C7 k x).toNat
        = 512 * spW C7 2 (4 * k.val) (16 * 0 + (x 0).val) + 64 * spW C7 2 (4 * k.val + 1) (16 * 0 + (x 0).val)
          + 8 * spW C7 2 (4 * k.val + 2) (16 * 0 + (x 0).val) + spW C7 2 (4 * k.val + 3) (16 * 0 + (x 0).val)
      ∧ (idx4_0 (F := F) C7 k x).toNat < 4096 := by
  have hk := trip4_lt k
  have hx : (x 0).val < 16 := (x 0).isLt
  have e0 : ((shapeCast S16 (row4_0_0 (F := F) C7 k) shapeCasts_S1x1x16_S16 : IVec S16 32) x).toNat = spW C7 2 (4 * k.val) (16 * 0 + (x 0).val) := row4_0_0_lane (F := F) C7 k x
  have e1 : ((shapeCast S16 (row4_0_1 (F := F) C7 k) shapeCasts_S1x1x16_S16 : IVec S16 32) x).toNat = spW C7 2 (4 * k.val + 1) (16 * 0 + (x 0).val) := row4_0_1_lane (F := F) C7 k x
  have e2 : ((shapeCast S16 (row4_0_2 (F := F) C7 k) shapeCasts_S1x1x16_S16 : IVec S16 32) x).toNat = spW C7 2 (4 * k.val + 2) (16 * 0 + (x 0).val) := row4_0_2_lane (F := F) C7 k x
  have e3 : ((shapeCast S16 (row4_0_3 (F := F) C7 k) shapeCasts_S1x1x16_S16 : IVec S16 32) x).toNat = spW C7 2 (4 * k.val + 3) (16 * 0 + (x 0).val) := row4_0_3_lane (F := F) C7 k x
  have b0 : spW C7 2 (4 * k.val) (16 * 0 + (x 0).val) < 8 := hlt _ _ (by omega) (by omega)
  have b1 : spW C7 2 (4 * k.val + 1) (16 * 0 + (x 0).val) < 8 := hlt _ _ (by omega) (by omega)
  have b2 : spW C7 2 (4 * k.val + 2) (16 * 0 + (x 0).val) < 8 := hlt _ _ (by omega) (by omega)
  have b3 : spW C7 2 (4 * k.val + 3) (16 * 0 + (x 0).val) < 8 := hlt _ _ (by omega) (by omega)
  obtain ⟨e, l⟩ := Cert.Proof.Words.k0_pay47_lane (F := F) (row4_0_0 C7 k) (row4_0_1 C7 k) (row4_0_2 C7 k) (row4_0_3 C7 k) x
    (e0.trans_lt b0) (e1.trans_lt b1) (e2.trans_lt b2) (e3.trans_lt b3)
  exact ⟨e.trans (by rw [e0, e1, e2, e3]), l⟩

/-- The gather's side condition holds. -/
theorem chk4_0 (C7 : S4x200x128.Idx → BitVec 32) (hlt : SlabLt C7 2) (k : Fin k0_t4_loop.trips) :
    k0_chk21 (idx4_0 (F := F) C7 k) :=
  Cert.Proof.Words.k0_chk21_of_lt _ fun x => (idx4_0_lane C7 hlt k x).2

/-- Group 1's sixteen index words at trip k. -/
abbrev idx4_1 (C7 : S4x200x128.Idx → BitVec 32) (k : Fin k0_t4_loop.trips) : IVec S16 32 :=
  k0_pay50 (F := F) (k0_pay49 (row4_1_0 C7 k)) (row4_1_1 C7 k) (row4_1_2 C7 k) (row4_1_3 C7 k)

theorem idx4_1_lane (C7 : S4x200x128.Idx → BitVec 32) (hlt : SlabLt C7 2) (k : Fin k0_t4_loop.trips) (x : S16.Idx) :
    (idx4_1 (F := F) C7 k x).toNat
        = 512 * spW C7 2 (4 * k.val) (16 * 1 + (x 0).val) + 64 * spW C7 2 (4 * k.val + 1) (16 * 1 + (x 0).val)
          + 8 * spW C7 2 (4 * k.val + 2) (16 * 1 + (x 0).val) + spW C7 2 (4 * k.val + 3) (16 * 1 + (x 0).val)
      ∧ (idx4_1 (F := F) C7 k x).toNat < 4096 := by
  have hk := trip4_lt k
  have hx : (x 0).val < 16 := (x 0).isLt
  have e0 : (k0_pay49 (row4_1_0 (F := F) C7 k) x).toNat = spW C7 2 (4 * k.val) (16 * 1 + (x 0).val) := row4_1_0_lane (F := F) C7 k x
  have e1 : ((shapeCast S16 (row4_1_1 (F := F) C7 k) shapeCasts_S1x1x16_S16 : IVec S16 32) x).toNat = spW C7 2 (4 * k.val + 1) (16 * 1 + (x 0).val) := row4_1_1_lane (F := F) C7 k x
  have e2 : ((shapeCast S16 (row4_1_2 (F := F) C7 k) shapeCasts_S1x1x16_S16 : IVec S16 32) x).toNat = spW C7 2 (4 * k.val + 2) (16 * 1 + (x 0).val) := row4_1_2_lane (F := F) C7 k x
  have e3 : ((shapeCast S16 (row4_1_3 (F := F) C7 k) shapeCasts_S1x1x16_S16 : IVec S16 32) x).toNat = spW C7 2 (4 * k.val + 3) (16 * 1 + (x 0).val) := row4_1_3_lane (F := F) C7 k x
  have b0 : spW C7 2 (4 * k.val) (16 * 1 + (x 0).val) < 8 := hlt _ _ (by omega) (by omega)
  have b1 : spW C7 2 (4 * k.val + 1) (16 * 1 + (x 0).val) < 8 := hlt _ _ (by omega) (by omega)
  have b2 : spW C7 2 (4 * k.val + 2) (16 * 1 + (x 0).val) < 8 := hlt _ _ (by omega) (by omega)
  have b3 : spW C7 2 (4 * k.val + 3) (16 * 1 + (x 0).val) < 8 := hlt _ _ (by omega) (by omega)
  obtain ⟨e, l⟩ := Cert.Proof.Words.k0_pay50_lane (F := F) (k0_pay49 (row4_1_0 C7 k)) (row4_1_1 C7 k) (row4_1_2 C7 k) (row4_1_3 C7 k) x
    (e0.trans_lt b0) (e1.trans_lt b1) (e2.trans_lt b2) (e3.trans_lt b3)
  exact ⟨e.trans (by rw [e0, e1, e2, e3]), l⟩

/-- The gather's side condition holds. -/
theorem chk4_1 (C7 : S4x200x128.Idx → BitVec 32) (hlt : SlabLt C7 2) (k : Fin k0_t4_loop.trips) :
    k0_chk22 (idx4_1 (F := F) C7 k) :=
  Cert.Proof.Words.k0_chk22_of_lt _ fun x => (idx4_1_lane C7 hlt k x).2

/-- Group 2's sixteen index words at trip k. -/
abbrev idx4_2 (C7 : S4x200x128.Idx → BitVec 32) (k : Fin k0_t4_loop.trips) : IVec S16 32 :=
  k0_pay55 (F := F) (k0_pay52 (row4_2_0 C7 k)) (k0_pay53 (row4_2_1 C7 k)) (k0_pay54 (row4_2_2 C7 k)) (row4_2_3 C7 k)

theorem idx4_2_lane (C7 : S4x200x128.Idx → BitVec 32) (hlt : SlabLt C7 2) (k : Fin k0_t4_loop.trips) (x : S16.Idx) :
    (idx4_2 (F := F) C7 k x).toNat
        = 512 * spW C7 2 (4 * k.val) (16 * 2 + (x 0).val) + 64 * spW C7 2 (4 * k.val + 1) (16 * 2 + (x 0).val)
          + 8 * spW C7 2 (4 * k.val + 2) (16 * 2 + (x 0).val) + spW C7 2 (4 * k.val + 3) (16 * 2 + (x 0).val)
      ∧ (idx4_2 (F := F) C7 k x).toNat < 4096 := by
  have hk := trip4_lt k
  have hx : (x 0).val < 16 := (x 0).isLt
  have e0 : (k0_pay52 (row4_2_0 (F := F) C7 k) x).toNat = spW C7 2 (4 * k.val) (16 * 2 + (x 0).val) := row4_2_0_lane (F := F) C7 k x
  have e1 : (k0_pay53 (row4_2_1 (F := F) C7 k) x).toNat = spW C7 2 (4 * k.val + 1) (16 * 2 + (x 0).val) := row4_2_1_lane (F := F) C7 k x
  have e2 : (k0_pay54 (row4_2_2 (F := F) C7 k) x).toNat = spW C7 2 (4 * k.val + 2) (16 * 2 + (x 0).val) := row4_2_2_lane (F := F) C7 k x
  have e3 : ((shapeCast S16 (row4_2_3 (F := F) C7 k) shapeCasts_S1x1x16_S16 : IVec S16 32) x).toNat = spW C7 2 (4 * k.val + 3) (16 * 2 + (x 0).val) := row4_2_3_lane (F := F) C7 k x
  have b0 : spW C7 2 (4 * k.val) (16 * 2 + (x 0).val) < 8 := hlt _ _ (by omega) (by omega)
  have b1 : spW C7 2 (4 * k.val + 1) (16 * 2 + (x 0).val) < 8 := hlt _ _ (by omega) (by omega)
  have b2 : spW C7 2 (4 * k.val + 2) (16 * 2 + (x 0).val) < 8 := hlt _ _ (by omega) (by omega)
  have b3 : spW C7 2 (4 * k.val + 3) (16 * 2 + (x 0).val) < 8 := hlt _ _ (by omega) (by omega)
  obtain ⟨e, l⟩ := Cert.Proof.Words.k0_pay55_lane (F := F) (k0_pay52 (row4_2_0 C7 k)) (k0_pay53 (row4_2_1 C7 k)) (k0_pay54 (row4_2_2 C7 k)) (row4_2_3 C7 k) x
    (e0.trans_lt b0) (e1.trans_lt b1) (e2.trans_lt b2) (e3.trans_lt b3)
  exact ⟨e.trans (by rw [e0, e1, e2, e3]), l⟩

/-- The gather's side condition holds. -/
theorem chk4_2 (C7 : S4x200x128.Idx → BitVec 32) (hlt : SlabLt C7 2) (k : Fin k0_t4_loop.trips) :
    k0_chk23 (idx4_2 (F := F) C7 k) :=
  Cert.Proof.Words.k0_chk23_of_lt _ fun x => (idx4_2_lane C7 hlt k x).2

/-- Group 3's sixteen index words at trip k. -/
abbrev idx4_3 (C7 : S4x200x128.Idx → BitVec 32) (k : Fin k0_t4_loop.trips) : IVec S16 32 :=
  k0_pay57 (F := F) (row4_3_0 C7 k) (row4_3_1 C7 k) (row4_3_2 C7 k) (row4_3_3 C7 k)

theorem idx4_3_lane (C7 : S4x200x128.Idx → BitVec 32) (hlt : SlabLt C7 2) (k : Fin k0_t4_loop.trips) (x : S16.Idx) :
    (idx4_3 (F := F) C7 k x).toNat
        = 512 * spW C7 2 (4 * k.val) (16 * 3 + (x 0).val) + 64 * spW C7 2 (4 * k.val + 1) (16 * 3 + (x 0).val)
          + 8 * spW C7 2 (4 * k.val + 2) (16 * 3 + (x 0).val) + spW C7 2 (4 * k.val + 3) (16 * 3 + (x 0).val)
      ∧ (idx4_3 (F := F) C7 k x).toNat < 4096 := by
  have hk := trip4_lt k
  have hx : (x 0).val < 16 := (x 0).isLt
  have e0 : ((shapeCast S16 (row4_3_0 (F := F) C7 k) shapeCasts_S1x1x16_S16 : IVec S16 32) x).toNat = spW C7 2 (4 * k.val) (16 * 3 + (x 0).val) := row4_3_0_lane (F := F) C7 k x
  have e1 : ((shapeCast S16 (row4_3_1 (F := F) C7 k) shapeCasts_S1x1x16_S16 : IVec S16 32) x).toNat = spW C7 2 (4 * k.val + 1) (16 * 3 + (x 0).val) := row4_3_1_lane (F := F) C7 k x
  have e2 : ((shapeCast S16 (row4_3_2 (F := F) C7 k) shapeCasts_S1x1x16_S16 : IVec S16 32) x).toNat = spW C7 2 (4 * k.val + 2) (16 * 3 + (x 0).val) := row4_3_2_lane (F := F) C7 k x
  have e3 : ((shapeCast S16 (row4_3_3 (F := F) C7 k) shapeCasts_S1x1x16_S16 : IVec S16 32) x).toNat = spW C7 2 (4 * k.val + 3) (16 * 3 + (x 0).val) := row4_3_3_lane (F := F) C7 k x
  have b0 : spW C7 2 (4 * k.val) (16 * 3 + (x 0).val) < 8 := hlt _ _ (by omega) (by omega)
  have b1 : spW C7 2 (4 * k.val + 1) (16 * 3 + (x 0).val) < 8 := hlt _ _ (by omega) (by omega)
  have b2 : spW C7 2 (4 * k.val + 2) (16 * 3 + (x 0).val) < 8 := hlt _ _ (by omega) (by omega)
  have b3 : spW C7 2 (4 * k.val + 3) (16 * 3 + (x 0).val) < 8 := hlt _ _ (by omega) (by omega)
  obtain ⟨e, l⟩ := Cert.Proof.Words.k0_pay57_lane (F := F) (row4_3_0 C7 k) (row4_3_1 C7 k) (row4_3_2 C7 k) (row4_3_3 C7 k) x
    (e0.trans_lt b0) (e1.trans_lt b1) (e2.trans_lt b2) (e3.trans_lt b3)
  exact ⟨e.trans (by rw [e0, e1, e2, e3]), l⟩

/-- The gather's side condition holds. -/
theorem chk4_3 (C7 : S4x200x128.Idx → BitVec 32) (hlt : SlabLt C7 2) (k : Fin k0_t4_loop.trips) :
    k0_chk24 (idx4_3 (F := F) C7 k) :=
  Cert.Proof.Words.k0_chk24_of_lt _ fun x => (idx4_3_lane C7 hlt k x).2

/-- Group 4's sixteen index words at trip k. -/
abbrev idx4_4 (C7 : S4x200x128.Idx → BitVec 32) (k : Fin k0_t4_loop.trips) : IVec S16 32 :=
  k0_pay59 (F := F) (row4_4_0 C7 k) (row4_4_1 C7 k) (row4_4_2 C7 k) (row4_4_3 C7 k)

theorem idx4_4_lane (C7 : S4x200x128.Idx → BitVec 32) (hlt : SlabLt C7 2) (k : Fin k0_t4_loop.trips) (x : S16.Idx) :
    (idx4_4 (F := F) C7 k x).toNat
        = 512 * spW C7 2 (4 * k.val) (16 * 4 + (x 0).val) + 64 * spW C7 2 (4 * k.val + 1) (16 * 4 + (x 0).val)
          + 8 * spW C7 2 (4 * k.val + 2) (16 * 4 + (x 0).val) + spW C7 2 (4 * k.val + 3) (16 * 4 + (x 0).val)
      ∧ (idx4_4 (F := F) C7 k x).toNat < 4096 := by
  have hk := trip4_lt k
  have hx : (x 0).val < 16 := (x 0).isLt
  have e0 : ((shapeCast S16 (row4_4_0 (F := F) C7 k) shapeCasts_S1x1x16_S16 : IVec S16 32) x).toNat = spW C7 2 (4 * k.val) (16 * 4 + (x 0).val) := row4_4_0_lane (F := F) C7 k x
  have e1 : ((shapeCast S16 (row4_4_1 (F := F) C7 k) shapeCasts_S1x1x16_S16 : IVec S16 32) x).toNat = spW C7 2 (4 * k.val + 1) (16 * 4 + (x 0).val) := row4_4_1_lane (F := F) C7 k x
  have e2 : ((shapeCast S16 (row4_4_2 (F := F) C7 k) shapeCasts_S1x1x16_S16 : IVec S16 32) x).toNat = spW C7 2 (4 * k.val + 2) (16 * 4 + (x 0).val) := row4_4_2_lane (F := F) C7 k x
  have e3 : ((shapeCast S16 (row4_4_3 (F := F) C7 k) shapeCasts_S1x1x16_S16 : IVec S16 32) x).toNat = spW C7 2 (4 * k.val + 3) (16 * 4 + (x 0).val) := row4_4_3_lane (F := F) C7 k x
  have b0 : spW C7 2 (4 * k.val) (16 * 4 + (x 0).val) < 8 := hlt _ _ (by omega) (by omega)
  have b1 : spW C7 2 (4 * k.val + 1) (16 * 4 + (x 0).val) < 8 := hlt _ _ (by omega) (by omega)
  have b2 : spW C7 2 (4 * k.val + 2) (16 * 4 + (x 0).val) < 8 := hlt _ _ (by omega) (by omega)
  have b3 : spW C7 2 (4 * k.val + 3) (16 * 4 + (x 0).val) < 8 := hlt _ _ (by omega) (by omega)
  obtain ⟨e, l⟩ := Cert.Proof.Words.k0_pay59_lane (F := F) (row4_4_0 C7 k) (row4_4_1 C7 k) (row4_4_2 C7 k) (row4_4_3 C7 k) x
    (e0.trans_lt b0) (e1.trans_lt b1) (e2.trans_lt b2) (e3.trans_lt b3)
  exact ⟨e.trans (by rw [e0, e1, e2, e3]), l⟩

/-- The gather's side condition holds. -/
theorem chk4_4 (C7 : S4x200x128.Idx → BitVec 32) (hlt : SlabLt C7 2) (k : Fin k0_t4_loop.trips) :
    k0_chk25 (idx4_4 (F := F) C7 k) :=
  Cert.Proof.Words.k0_chk25_of_lt _ fun x => (idx4_4_lane C7 hlt k x).2

/-- Group 5's sixteen index words at trip k. -/
abbrev idx4_5 (C7 : S4x200x128.Idx → BitVec 32) (k : Fin k0_t4_loop.trips) : IVec S16 32 :=
  k0_pay62 (F := F) (k0_pay61 (row4_5_0 C7 k)) (row4_5_1 C7 k) (row4_5_2 C7 k) (row4_5_3 C7 k)

theorem idx4_5_lane (C7 : S4x200x128.Idx → BitVec 32) (hlt : SlabLt C7 2) (k : Fin k0_t4_loop.trips) (x : S16.Idx) :
    (idx4_5 (F := F) C7 k x).toNat
        = 512 * spW C7 2 (4 * k.val) (16 * 5 + (x 0).val) + 64 * spW C7 2 (4 * k.val + 1) (16 * 5 + (x 0).val)
          + 8 * spW C7 2 (4 * k.val + 2) (16 * 5 + (x 0).val) + spW C7 2 (4 * k.val + 3) (16 * 5 + (x 0).val)
      ∧ (idx4_5 (F := F) C7 k x).toNat < 4096 := by
  have hk := trip4_lt k
  have hx : (x 0).val < 16 := (x 0).isLt
  have e0 : (k0_pay61 (row4_5_0 (F := F) C7 k) x).toNat = spW C7 2 (4 * k.val) (16 * 5 + (x 0).val) := row4_5_0_lane (F := F) C7 k x
  have e1 : ((shapeCast S16 (row4_5_1 (F := F) C7 k) shapeCasts_S1x1x16_S16 : IVec S16 32) x).toNat = spW C7 2 (4 * k.val + 1) (16 * 5 + (x 0).val) := row4_5_1_lane (F := F) C7 k x
  have e2 : ((shapeCast S16 (row4_5_2 (F := F) C7 k) shapeCasts_S1x1x16_S16 : IVec S16 32) x).toNat = spW C7 2 (4 * k.val + 2) (16 * 5 + (x 0).val) := row4_5_2_lane (F := F) C7 k x
  have e3 : ((shapeCast S16 (row4_5_3 (F := F) C7 k) shapeCasts_S1x1x16_S16 : IVec S16 32) x).toNat = spW C7 2 (4 * k.val + 3) (16 * 5 + (x 0).val) := row4_5_3_lane (F := F) C7 k x
  have b0 : spW C7 2 (4 * k.val) (16 * 5 + (x 0).val) < 8 := hlt _ _ (by omega) (by omega)
  have b1 : spW C7 2 (4 * k.val + 1) (16 * 5 + (x 0).val) < 8 := hlt _ _ (by omega) (by omega)
  have b2 : spW C7 2 (4 * k.val + 2) (16 * 5 + (x 0).val) < 8 := hlt _ _ (by omega) (by omega)
  have b3 : spW C7 2 (4 * k.val + 3) (16 * 5 + (x 0).val) < 8 := hlt _ _ (by omega) (by omega)
  obtain ⟨e, l⟩ := Cert.Proof.Words.k0_pay62_lane (F := F) (k0_pay61 (row4_5_0 C7 k)) (row4_5_1 C7 k) (row4_5_2 C7 k) (row4_5_3 C7 k) x
    (e0.trans_lt b0) (e1.trans_lt b1) (e2.trans_lt b2) (e3.trans_lt b3)
  exact ⟨e.trans (by rw [e0, e1, e2, e3]), l⟩

/-- The gather's side condition holds. -/
theorem chk4_5 (C7 : S4x200x128.Idx → BitVec 32) (hlt : SlabLt C7 2) (k : Fin k0_t4_loop.trips) :
    k0_chk26 (idx4_5 (F := F) C7 k) :=
  Cert.Proof.Words.k0_chk26_of_lt _ fun x => (idx4_5_lane C7 hlt k x).2

/-- Group 6's sixteen index words at trip k. -/
abbrev idx4_6 (C7 : S4x200x128.Idx → BitVec 32) (k : Fin k0_t4_loop.trips) : IVec S16 32 :=
  k0_pay67 (F := F) (k0_pay64 (row4_6_0 C7 k)) (k0_pay65 (row4_6_1 C7 k)) (k0_pay66 (row4_6_2 C7 k)) (row4_6_3 C7 k)

theorem idx4_6_lane (C7 : S4x200x128.Idx → BitVec 32) (hlt : SlabLt C7 2) (k : Fin k0_t4_loop.trips) (x : S16.Idx) :
    (idx4_6 (F := F) C7 k x).toNat
        = 512 * spW C7 2 (4 * k.val) (16 * 6 + (x 0).val) + 64 * spW C7 2 (4 * k.val + 1) (16 * 6 + (x 0).val)
          + 8 * spW C7 2 (4 * k.val + 2) (16 * 6 + (x 0).val) + spW C7 2 (4 * k.val + 3) (16 * 6 + (x 0).val)
      ∧ (idx4_6 (F := F) C7 k x).toNat < 4096 := by
  have hk := trip4_lt k
  have hx : (x 0).val < 16 := (x 0).isLt
  have e0 : (k0_pay64 (row4_6_0 (F := F) C7 k) x).toNat = spW C7 2 (4 * k.val) (16 * 6 + (x 0).val) := row4_6_0_lane (F := F) C7 k x
  have e1 : (k0_pay65 (row4_6_1 (F := F) C7 k) x).toNat = spW C7 2 (4 * k.val + 1) (16 * 6 + (x 0).val) := row4_6_1_lane (F := F) C7 k x
  have e2 : (k0_pay66 (row4_6_2 (F := F) C7 k) x).toNat = spW C7 2 (4 * k.val + 2) (16 * 6 + (x 0).val) := row4_6_2_lane (F := F) C7 k x
  have e3 : ((shapeCast S16 (row4_6_3 (F := F) C7 k) shapeCasts_S1x1x16_S16 : IVec S16 32) x).toNat = spW C7 2 (4 * k.val + 3) (16 * 6 + (x 0).val) := row4_6_3_lane (F := F) C7 k x
  have b0 : spW C7 2 (4 * k.val) (16 * 6 + (x 0).val) < 8 := hlt _ _ (by omega) (by omega)
  have b1 : spW C7 2 (4 * k.val + 1) (16 * 6 + (x 0).val) < 8 := hlt _ _ (by omega) (by omega)
  have b2 : spW C7 2 (4 * k.val + 2) (16 * 6 + (x 0).val) < 8 := hlt _ _ (by omega) (by omega)
  have b3 : spW C7 2 (4 * k.val + 3) (16 * 6 + (x 0).val) < 8 := hlt _ _ (by omega) (by omega)
  obtain ⟨e, l⟩ := Cert.Proof.Words.k0_pay67_lane (F := F) (k0_pay64 (row4_6_0 C7 k)) (k0_pay65 (row4_6_1 C7 k)) (k0_pay66 (row4_6_2 C7 k)) (row4_6_3 C7 k) x
    (e0.trans_lt b0) (e1.trans_lt b1) (e2.trans_lt b2) (e3.trans_lt b3)
  exact ⟨e.trans (by rw [e0, e1, e2, e3]), l⟩

/-- The gather's side condition holds. -/
theorem chk4_6 (C7 : S4x200x128.Idx → BitVec 32) (hlt : SlabLt C7 2) (k : Fin k0_t4_loop.trips) :
    k0_chk27 (idx4_6 (F := F) C7 k) :=
  Cert.Proof.Words.k0_chk27_of_lt _ fun x => (idx4_6_lane C7 hlt k x).2

/-- Group 7's sixteen index words at trip k. -/
abbrev idx4_7 (C7 : S4x200x128.Idx → BitVec 32) (k : Fin k0_t4_loop.trips) : IVec S16 32 :=
  k0_pay69 (F := F) (row4_7_0 C7 k) (row4_7_1 C7 k) (row4_7_2 C7 k) (row4_7_3 C7 k)

theorem idx4_7_lane (C7 : S4x200x128.Idx → BitVec 32) (hlt : SlabLt C7 2) (k : Fin k0_t4_loop.trips) (x : S16.Idx) :
    (idx4_7 (F := F) C7 k x).toNat
        = 512 * spW C7 2 (4 * k.val) (16 * 7 + (x 0).val) + 64 * spW C7 2 (4 * k.val + 1) (16 * 7 + (x 0).val)
          + 8 * spW C7 2 (4 * k.val + 2) (16 * 7 + (x 0).val) + spW C7 2 (4 * k.val + 3) (16 * 7 + (x 0).val)
      ∧ (idx4_7 (F := F) C7 k x).toNat < 4096 := by
  have hk := trip4_lt k
  have hx : (x 0).val < 16 := (x 0).isLt
  have e0 : ((shapeCast S16 (row4_7_0 (F := F) C7 k) shapeCasts_S1x1x16_S16 : IVec S16 32) x).toNat = spW C7 2 (4 * k.val) (16 * 7 + (x 0).val) := row4_7_0_lane (F := F) C7 k x
  have e1 : ((shapeCast S16 (row4_7_1 (F := F) C7 k) shapeCasts_S1x1x16_S16 : IVec S16 32) x).toNat = spW C7 2 (4 * k.val + 1) (16 * 7 + (x 0).val) := row4_7_1_lane (F := F) C7 k x
  have e2 : ((shapeCast S16 (row4_7_2 (F := F) C7 k) shapeCasts_S1x1x16_S16 : IVec S16 32) x).toNat = spW C7 2 (4 * k.val + 2) (16 * 7 + (x 0).val) := row4_7_2_lane (F := F) C7 k x
  have e3 : ((shapeCast S16 (row4_7_3 (F := F) C7 k) shapeCasts_S1x1x16_S16 : IVec S16 32) x).toNat = spW C7 2 (4 * k.val + 3) (16 * 7 + (x 0).val) := row4_7_3_lane (F := F) C7 k x
  have b0 : spW C7 2 (4 * k.val) (16 * 7 + (x 0).val) < 8 := hlt _ _ (by omega) (by omega)
  have b1 : spW C7 2 (4 * k.val + 1) (16 * 7 + (x 0).val) < 8 := hlt _ _ (by omega) (by omega)
  have b2 : spW C7 2 (4 * k.val + 2) (16 * 7 + (x 0).val) < 8 := hlt _ _ (by omega) (by omega)
  have b3 : spW C7 2 (4 * k.val + 3) (16 * 7 + (x 0).val) < 8 := hlt _ _ (by omega) (by omega)
  obtain ⟨e, l⟩ := Cert.Proof.Words.k0_pay69_lane (F := F) (row4_7_0 C7 k) (row4_7_1 C7 k) (row4_7_2 C7 k) (row4_7_3 C7 k) x
    (e0.trans_lt b0) (e1.trans_lt b1) (e2.trans_lt b2) (e3.trans_lt b3)
  exact ⟨e.trans (by rw [e0, e1, e2, e3]), l⟩

/-- The gather's side condition holds. -/
theorem chk4_7 (C7 : S4x200x128.Idx → BitVec 32) (hlt : SlabLt C7 2) (k : Fin k0_t4_loop.trips) :
    k0_chk28 (idx4_7 (F := F) C7 k) :=
  Cert.Proof.Words.k0_chk28_of_lt _ fun x => (idx4_7_lane C7 hlt k x).2

/-! ## A trip, and the start -/

/-- One trip takes the eight accumulators from k quads to k + 1. -/
theorem trip4 (C10 : S16.Idx → F .f32) (C11 : S4096.Idx → F .f32) (C7 : S4x200x128.Idx → BitVec 32)
    (hT : TabOK C10 256 C11) (hlt : SlabLt C7 2) (k : Fin k0_t4_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx4_0 (F := F) C7 k] : Fin 1 → IVec S16 32) a x).toNat < S4096.size a)
    (h1 : ∀ a x, ((![idx4_1 (F := F) C7 k] : Fin 1 → IVec S16 32) a x).toNat < S4096.size a)
    (h2 : ∀ a x, ((![idx4_2 (F := F) C7 k] : Fin 1 → IVec S16 32) a x).toNat < S4096.size a)
    (h3 : ∀ a x, ((![idx4_3 (F := F) C7 k] : Fin 1 → IVec S16 32) a x).toNat < S4096.size a)
    (h4 : ∀ a x, ((![idx4_4 (F := F) C7 k] : Fin 1 → IVec S16 32) a x).toNat < S4096.size a)
    (h5 : ∀ a x, ((![idx4_5 (F := F) C7 k] : Fin 1 → IVec S16 32) a x).toNat < S4096.size a)
    (h6 : ∀ a x, ((![idx4_6 (F := F) C7 k] : Fin 1 → IVec S16 32) a x).toNat < S4096.size a)
    (h7 : ∀ a x, ((![idx4_7 (F := F) C7 k] : Fin 1 → IVec S16 32) a x).toNat < S4096.size a)
    (hacc : AccOK C10 C7 2 k.val accs) :
    AccOK C10 C7 2 (k.val + 1)
      (k0_pay48 accs.1 (tabGather C11 (idx4_0 C7 k) h0),
        k0_pay51 accs.2.1 (tabGather C11 (idx4_1 C7 k) h1),
        k0_pay56 accs.2.2.1 (tabGather C11 (idx4_2 C7 k) h2),
        k0_pay58 accs.2.2.2.1 (tabGather C11 (idx4_3 C7 k) h3),
        k0_pay60 accs.2.2.2.2.1 (tabGather C11 (idx4_4 C7 k) h4),
        k0_pay63 accs.2.2.2.2.2.1 (tabGather C11 (idx4_5 C7 k) h5),
        k0_pay68 accs.2.2.2.2.2.2.1 (tabGather C11 (idx4_6 C7 k) h6),
        k0_pay138 accs.2.2.2.2.2.2.2 (tabGather C11 (idx4_7 C7 k) h7)) := by
  unfold AccOK at hacc ⊢
  obtain ⟨a0, a1, a2, a3, a4, a5, a6, a7⟩ := hacc
  exact ⟨lane_step C10 C11 C7 hT 2 0 k.val _ a0 (idx4_0 C7 k) h0 (fun x => (idx4_0_lane C7 hlt k x).1),
    lane_step C10 C11 C7 hT 2 1 k.val _ a1 (idx4_1 C7 k) h1 (fun x => (idx4_1_lane C7 hlt k x).1),
    lane_step C10 C11 C7 hT 2 2 k.val _ a2 (idx4_2 C7 k) h2 (fun x => (idx4_2_lane C7 hlt k x).1),
    lane_step C10 C11 C7 hT 2 3 k.val _ a3 (idx4_3 C7 k) h3 (fun x => (idx4_3_lane C7 hlt k x).1),
    lane_step C10 C11 C7 hT 2 4 k.val _ a4 (idx4_4 C7 k) h4 (fun x => (idx4_4_lane C7 hlt k x).1),
    lane_step C10 C11 C7 hT 2 5 k.val _ a5 (idx4_5 C7 k) h5 (fun x => (idx4_5_lane C7 hlt k x).1),
    lane_step C10 C11 C7 hT 2 6 k.val _ a6 (idx4_6 C7 k) h6 (fun x => (idx4_6_lane C7 hlt k x).1),
    lane_step C10 C11 C7 hT 2 7 k.val _ a7 (idx4_7 C7 k) h7 (fun x => (idx4_7_lane C7 hlt k x).1)⟩

/-- The loop starts with every accumulator at zero: no quad added yet. -/
theorem init4 (C10 : S16.Idx → F .f32) (C7 : S4x200x128.Idx → BitVec 32) :
    AccOK C10 C7 2 0
      (k0_pay130 (F := F), k0_pay131 (F := F), k0_pay132 (F := F), k0_pay133 (F := F), k0_pay134 (F := F), k0_pay135 (F := F), k0_pay136 (F := F), k0_pay137 (F := F)) := by
  unfold AccOK
  exact ⟨fun _ => rfl, fun _ => rfl, fun _ => rfl, fun _ => rfl, fun _ => rfl, fun _ => rfl, fun _ => rfl, fun _ => rfl⟩

end Cert.Proof.KI

end
-- ==== Proof.LoopT5.lean ====
/-
  Loop 5 of the tile's body — panel 3 of the species scratch, fifty trips — lane by lane.

  Trip k reads, for each group j < 8 of sixteen molecule columns 16 j .. 16 j + 15 of panel 3, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLane
import proofs.«206988_g4337916970008_retrytranche1_694_23_alg».proof.Proof.WordsQ

noncomputable section

namespace Cert.Proof.KI

open Cert.KernelIdeal Cert.KernelIdeal.Gen
open Idealize.ShloMosaic
open Idealize.SL.Sem

variable {F : FTy → Type} [FloatOps F]

/-- The loop has at most fifty trips. -/
theorem trip5_lt (k : Fin k0_t5_loop.trips) : k.val < 50 := Nat.lt_of_lt_of_le k.isLt k0_t5_abs.2.1

/-! ## The rows a trip loads -/

/-- Group 0: the rows of atoms 4k .. 4k+3 at columns 0 .. 15. -/
abbrev row5_0_0 (C7 : S4x200x128.Idx → BitVec 32) (k : Fin k0_t5_loop.trips) : Vec F S1x1x16 .i32 :=
  rowLd C7 (k0_off53 k) (k0_off53_inb k)
abbrev row5_0_1 (C7 : S4x200x128.Idx → BitVec 32) (k : Fin k0_t5_loop.trips) : Vec F S1x1x16 .i32 :=
  rowLd C7 (k0_off54 k 1#32) (k0_off54_inb k 0)
abbrev row5_0_2 (C7 : S4x200x128.Idx → BitVec 32) (k : Fin k0_t5_loop.trips) : Vec F S1x1x16 .i32 :=
  rowLd C7 (k0_off54 k 2#32) (k0_off54_inb k 1)
abbrev row5_0_3 (C7 : S4x200x128.Idx → BitVec 32) (k : Fin k0_t5_loop.trips) : Vec F S1x1x16 .i32 :=
  rowLd C7 (k0_off54 k 3#32) (k0_off54_inb k 2)

theorem row5_0_0_lane (C7 : S4x200x128.Idx → BitVec 32) (k : Fin k0_t5_loop.trips) (x : S16.Idx) :
    ((shapeCast S16 (row5_0_0 (F := F) C7 k) shapeCasts_S1x1x16_S16 : IVec S16 32) x).toNat
      = spW C7 3 (4 * k.val) (16 * 0 + (x 0).val) :=
  rowLd_lane C7 _ _ 3 (4 * k.val) (4 * k.val) (16 * 0) (Gen.k0_off53_eq k) rfl (by decide)
    (by have := trip5_lt k; omega) (by decide) x
theorem row5_0_1_lane (C7 : S4x200x128.Idx → BitVec 32) (k : Fin k0_t5_loop.trips) (x : S16.Idx) :
    ((shapeCast S16 (row5_0_1 (F := F) C7 k) shapeCasts_S1x1x16_S16 : IVec S16 32) x).toNat
      = spW C7 3 (4 * k.val + 1) (16 * 0 + (x 0).val) :=
  rowLd_lane C7 _ _ 3 (4 * k.val + 0 + 1) (4 * k.val + 1) (16 * 0) (Gen.k0_off54_eq k ⟨0, by decide⟩)
    (by omega) (by decide) (by have := trip5_lt k; omega) (by decide) x
theorem row5_0_2_lane (C7 : S4x200x128.Idx → BitVec 32) (k : Fin k0_t5_loop.trips) (x : S16.Idx) :
    ((shapeCast S16 (row5_0_2 (F := F) C7 k) shapeCasts_S1x1x16_S16 : IVec S16 32) x).toNat
      = spW C7 3 (4 * k.val + 2) (16 * 0 + (x 0).val) :=
  rowLd_lane C7 _ _ 3 (4 * k.val + 1 + 1) (4 * k.val + 2) (16 * 0) (Gen.k0_off54_eq k ⟨1, by decide⟩)
    (by omega) (by decide) (by have := trip5_lt k; omega) (by decide) x
theorem row5_0_3_lane (C7 : S4x200x128.Idx → BitVec 32) (k : Fin k0_t5_loop.trips) (x : S16.Idx) :
    ((shapeCast S16 (row5_0_3 (F := F) C7 k) shapeCasts_S1x1x16_S16 : IVec S16 32) x).toNat
      = spW C7 3 (4 * k.val + 3) (16 * 0 + (x 0).val) :=
  rowLd_lane C7 _ _ 3 (4 * k.val + 2 + 1) (4 * k.val + 3) (16 * 0) (Gen.k0_off54_eq k ⟨2, by decide⟩)
    (by omega) (by decide) (by have := trip5_lt k; omega) (by decide) x

/-- Group 1: the rows of atoms 4k .. 4k+3 at columns 16 .. 31. -/
abbrev row5_1_0 (C7 : S4x200x128.Idx → BitVec 32) (k : Fin k0_t5_loop.trips) : Vec F S1x1x16 .i32 :=
  rowLd C7 (k0_off55 k) (k0_off55_inb k)
abbrev row5_1_1 (C7 : S4x200x128.Idx → BitVec 32) (k : Fin k0_t5_loop.trips) : Vec F S1x1x16 .i32 :=
  rowLd C7 (k0_off56 k 1#32) (k0_off56_inb k 0)
abbrev row5_1_2 (C7 : S4x200x128.Idx → BitVec 32) (k : Fin k0_t5_loop.trips) : Vec F S1x1x16 .i32 :=
  rowLd C7 (k0_off56 k 2#32) (k0_off56_inb k 1)
abbrev row5_1_3 (C7 : S4x200x128.Idx → BitVec 32) (k : Fin k0_t5_loop.trips) : Vec F S1x1x16 .i32 :=
  rowLd C7 (k0_off56 k 3#32) (k0_off56_inb k 2)

theorem row5_1_0_lane (C7 : S4x200x128.Idx → BitVec 32) (k : Fin k0_t5_loop.trips) (x : S16.Idx) :
    ((shapeCast S16 (row5_1_0 (F := F) C7 k) shapeCasts_S1x1x16_S16 : IVec S16 32) x).toNat
      = spW C7 3 (4 * k.val) (16 * 1 + (x 0).val) :=
  rowLd_lane C7 _ _ 3 (4 * k.val) (4 * k.val) (16 * 1) (Gen.k0_off55_eq k) rfl (by decide)
    (by have := trip5_lt k; omega) (by decide) x
theorem row5_1_1_lane (C7 : S4x200x128.Idx → BitVec 32) (k : Fin k0_t5_loop.trips) (x : S16.Idx) :
    ((shapeCast S16 (row5_1_1 (F := F) C7 k) shapeCasts_S1x1x16_S16 : IVec S16 32) x).toNat
      = spW C7 3 (4 * k.val + 1) (16 * 1 + (x 0).val) :=
  rowLd_lane C7 _ _ 3 (4 * k.val + 0 + 1) (4 * k.val + 1) (16 * 1) (Gen.k0_off56_eq k ⟨0, by decide⟩)
    (by omega) (by decide) (by have := trip5_lt k; omega) (by decide) x
theorem row5_1_2_lane (C7 : S4x200x128.Idx → BitVec 32) (k : Fin k0_t5_loop.trips) (x : S16.Idx) :
    ((shapeCast S16 (row5_1_2 (F := F) C7 k) shapeCasts_S1x1x16_S16 : IVec S16 32) x).toNat
      = spW C7 3 (4 * k.val + 2) (16 * 1 + (x 0).val) :=
  rowLd_lane C7 _ _ 3 (4 * k.val + 1 + 1) (4 * k.val + 2) (16 * 1) (Gen.k0_off56_eq k ⟨1, by decide⟩)
    (by omega) (by decide) (by have := trip5_lt k; omega) (by decide) x
theorem row5_1_3_lane (C7 : S4x200x128.Idx → BitVec 32) (k : Fin k0_t5_loop.trips) (x : S16.Idx) :
    ((shapeCast S16 (row5_1_3 (F := F) C7 k) shapeCasts_S1x1x16_S16 : IVec S16 32) x).toNat
      = spW C7 3 (4 * k.val + 3) (16 * 1 + (x 0).val) :=
  rowLd_lane C7 _ _ 3 (4 * k.val + 2 + 1) (4 * k.val + 3) (16 * 1) (Gen.k0_off56_eq k ⟨2, by decide⟩)
    (by omega) (by decide) (by have := trip5_lt k; omega) (by decide) x

/-- Group 2: the rows of atoms 4k .. 4k+3 at columns 32 .. 47. -/
abbrev row5_2_0 (C7 : S4x200x128.Idx → BitVec 32) (k : Fin k0_t5_loop.trips) : Vec F S1x1x16 .i32 :=
  rowLd C7 (k0_off57 k) (k0_off57_inb k)
abbrev row5_2_1 (C7 : S4x200x128.Idx → BitVec 32) (k : Fin k0_t5_loop.trips) : Vec F S1x1x16 .i32 :=
  rowLd C7 (k0_off58 k 1#32) (k0_off58_inb k 0)
abbrev row5_2_2 (C7 : S4x200x128.Idx → BitVec 32) (k : Fin k0_t5_loop.trips) : Vec F S1x1x16 .i32 :=
  rowLd C7 (k0_off58 k 2#32) (k0_off58_inb k 1)
abbrev row5_2_3 (C7 : S4x200x128.Idx → BitVec 32) (k : Fin k0_t5_loop.trips) : Vec F S1x1x16 .i32 :=
  rowLd C7 (k0_off58 k 3#32) (k0_off58_inb k 2)

theorem row5_2_0_lane (C7 : S4x200x128.Idx → BitVec 32) (k : Fin k0_t5_loop.trips) (x : S16.Idx) :
    ((shapeCast S16 (row5_2_0 (F := F) C7 k) shapeCasts_S1x1x16_S16 : IVec S16 32) x).toNat
      = spW C7 3 (4 * k.val) (16 * 2 + (x 0).val) :=
  rowLd_lane C7 _ _ 3 (4 * k.val) (4 * k.val) (16 * 2) (Gen.k0_off57_eq k) rfl (by decide)
    (by have := trip5_lt k; omega) (by decide) x
theorem row5_2_1_lane (C7 : S4x200x128.Idx → BitVec 32) (k : Fin k0_t5_loop.trips) (x : S16.Idx) :
    ((shapeCast S16 (row5_2_1 (F := F) C7 k) shapeCasts_S1x1x16_S16 : IVec S16 32) x).toNat
      = spW C7 3 (4 * k.val + 1) (16 * 2 + (x 0).val) :=
  rowLd_lane C7 _ _ 3 (4 * k.val + 0 + 1) (4 * k.val + 1) (16 * 2) (Gen.k0_off58_eq k ⟨0, by decide⟩)
    (by omega) (by decide) (by have := trip5_lt k; omega) (by decide) x
theorem row5_2_2_lane (C7 : S4x200x128.Idx → BitVec 32) (k : Fin k0_t5_loop.trips) (x : S16.Idx) :
    ((shapeCast S16 (row5_2_2 (F := F) C7 k) shapeCasts_S1x1x16_S16 : IVec S16 32) x).toNat
      = spW C7 3 (4 * k.val + 2) (16 * 2 + (x 0).val) :=
  rowLd_lane C7 _ _ 3 (4 * k.val + 1 + 1) (4 * k.val + 2) (16 * 2) (Gen.k0_off58_eq k ⟨1, by decide⟩)
    (by omega) (by decide) (by have := trip5_lt k; omega) (by decide) x
theorem row5_2_3_lane (C7 : S4x200x128.Idx → BitVec 32) (k : Fin k0_t5_loop.trips) (x : S16.Idx) :
    ((shapeCast S16 (row5_2_3 (F := F) C7 k) shapeCasts_S1x1x16_S16 : IVec S16 32) x).toNat
      = spW C7 3 (4 * k.val + 3) (16 * 2 + (x 0).val) :=
  rowLd_lane C7 _ _ 3 (4 * k.val + 2 + 1) (4 * k.val + 3) (16 * 2) (Gen.k0_off58_eq k ⟨2, by decide⟩)
    (by omega) (by decide) (by have := trip5_lt k; omega) (by decide) x

/-- Group 3: the rows of atoms 4k .. 4k+3 at columns 48 .. 63. -/
abbrev row5_3_0 (C7 : S4x200x128.Idx → BitVec 32) (k : Fin k0_t5_loop.trips) : Vec F S1x1x16 .i32 :=
  rowLd C7 (k0_off59 k) (k0_off59_inb k)
abbrev row5_3_1 (C7 : S4x200x128.Idx → BitVec 32) (k : Fin k0_t5_loop.trips) : Vec F S1x1x16 .i32 :=
  rowLd C7 (k0_off60 k 1#32) (k0_off60_inb k 0)
abbrev row5_3_2 (C7 : S4x200x128.Idx → BitVec 32) (k : Fin k0_t5_loop.trips) : Vec F S1x1x16 .i32 :=
  rowLd C7 (k0_off60 k 2#32) (k0_off60_inb k 1)
abbrev row5_3_3 (C7 : S4x200x128.Idx → BitVec 32) (k : Fin k0_t5_loop.trips) : Vec F S1x1x16 .i32 :=
  rowLd C7 (k0_off60 k 3#32) (k0_off60_inb k 2)

theorem row5_3_0_lane (C7 : S4x200x128.Idx → BitVec 32) (k : Fin k0_t5_loop.trips) (x : S16.Idx) :
    ((shapeCast S16 (row5_3_0 (F := F) C7 k) shapeCasts_S1x1x16_S16 : IVec S16 32) x).toNat
      = spW C7 3 (4 * k.val) (16 * 3 + (x 0).val) :=
  rowLd_lane C7 _ _ 3 (4 * k.val) (4 * k.val) (16 * 3) (Gen.k0_off59_eq k) rfl (by decide)
    (by have := trip5_lt k; omega) (by decide) x
theorem row5_3_1_lane (C7 : S4x200x128.Idx → BitVec 32) (k : Fin k0_t5_loop.trips) (x : S16.Idx) :
    ((shapeCast S16 (row5_3_1 (F := F) C7 k) shapeCasts_S1x1x16_S16 : IVec S16 32) x).toNat
      = spW C7 3 (4 * k.val + 1) (16 * 3 + (x 0).val) :=
  rowLd_lane C7 _ _ 3 (4 * k.val + 0 + 1) (4 * k.val + 1) (16 * 3) (Gen.k0_off60_eq k ⟨0, by decide⟩)
    (by omega) (by decide) (by have := trip5_lt k; omega) (by decide) x
theorem row5_3_2_lane (C7 : S4x200x128.Idx → BitVec 32) (k : Fin k0_t5_loop.trips) (x : S16.Idx) :
    ((shapeCast S16 (row5_3_2 (F := F) C7 k) shapeCasts_S1x1x16_S16 : IVec S16 32) x).toNat
      = spW C7 3 (4 * k.val + 2) (16 * 3 + (x 0).val) :=
  rowLd_lane C7 _ _ 3 (4 * k.val + 1 + 1) (4 * k.val + 2) (16 * 3) (Gen.k0_off60_eq k ⟨1, by decide⟩)
    (by omega) (by decide) (by have := trip5_lt k; omega) (by decide) x
theorem row5_3_3_lane (C7 : S4x200x128.Idx → BitVec 32) (k : Fin k0_t5_loop.trips) (x : S16.Idx) :
    ((shapeCast S16 (row5_3_3 (F := F) C7 k) shapeCasts_S1x1x16_S16 : IVec S16 32) x).toNat
      = spW C7 3 (4 * k.val + 3) (16 * 3 + (x 0).val) :=
  rowLd_lane C7 _ _ 3 (4 * k.val + 2 + 1) (4 * k.val + 3) (16 * 3) (Gen.k0_off60_eq k ⟨2, by decide⟩)
    (by omega) (by decide) (by have := trip5_lt k; omega) (by decide) x

/-- Group 4: the rows of atoms 4k .. 4k+3 at columns 64 .. 79. -/
abbrev row5_4_0 (C7 : S4x200x128.Idx → BitVec 32) (k : Fin k0_t5_loop.trips) : Vec F S1x1x16 .i32 :=
  rowLd C7 (k0_off61 k) (k0_off61_inb k)
abbrev row5_4_1 (C7 : S4x200x128.Idx → BitVec 32) (k : Fin k0_t5_loop.trips) : Vec F S1x1x16 .i32 :=
  rowLd C7 (k0_off62 k 1#32) (k0_off62_inb k 0)
abbrev row5_4_2 (C7 : S4x200x128.Idx → BitVec 32) (k : Fin k0_t5_loop.trips) : Vec F S1x1x16 .i32 :=
  rowLd C7 (k0_off62 k 2#32) (k0_off62_inb k 1)
abbrev row5_4_3 (C7 : S4x200x128.Idx → BitVec 32) (k : Fin k0_t5_loop.trips) : Vec F S1x1x16 .i32 :=
  rowLd C7 (k0_off62 k 3#32) (k0_off62_inb k 2)

theorem row5_4_0_lane (C7 : S4x200x128.Idx → BitVec 32) (k : Fin k0_t5_loop.trips) (x : S16.Idx) :
    ((shapeCast S16 (row5_4_0 (F := F) C7 k) shapeCasts_S1x1x16_S16 : IVec S16 32) x).toNat
      = spW C7 3 (4 * k.val) (16 * 4 + (x 0).val) :=
  rowLd_lane C7 _ _ 3 (4 * k.val) (4 * k.val) (16 * 4) (Gen.k0_off61_eq k) rfl (by decide)
    (by have := trip5_lt k; omega) (by decide) x
theorem row5_4_1_lane (C7 : S4x200x128.Idx → BitVec 32) (k : Fin k0_t5_loop.trips) (x : S16.Idx) :
    ((shapeCast S16 (row5_4_1 (F := F) C7 k) shapeCasts_S1x1x16_S16 : IVec S16 32) x).toNat
      = spW C7 3 (4 * k.val + 1) (16 * 4 + (x 0).val) :=
  rowLd_lane C7 _ _ 3 (4 * k.val + 0 + 1) (4 * k.val + 1) (16 * 4) (Gen.k0_off62_eq k ⟨0, by decide⟩)
    (by omega) (by decide) (by have := trip5_lt k; omega) (by decide) x
theorem row5_4_2_lane (C7 : S4x200x128.Idx → BitVec 32) (k : Fin k0_t5_loop.trips) (x : S16.Idx) :
    ((shapeCast S16 (row5_4_2 (F := F) C7 k) shapeCasts_S1x1x16_S16 : IVec S16 32) x).toNat
      = spW C7 3 (4 * k.val + 2) (16 * 4 + (x 0).val) :=
  rowLd_lane C7 _ _ 3 (4 * k.val + 1 + 1) (4 * k.val + 2) (16 * 4) (Gen.k0_off62_eq k ⟨1, by decide⟩)
    (by omega) (by decide) (by have := trip5_lt k; omega) (by decide) x
theorem row5_4_3_lane (C7 : S4x200x128.Idx → BitVec 32) (k : Fin k0_t5_loop.trips) (x : S16.Idx) :
    ((shapeCast S16 (row5_4_3 (F := F) C7 k) shapeCasts_S1x1x16_S16 : IVec S16 32) x).toNat
      = spW C7 3 (4 * k.val + 3) (16 * 4 + (x 0).val) :=
  rowLd_lane C7 _ _ 3 (4 * k.val + 2 + 1) (4 * k.val + 3) (16 * 4) (Gen.k0_off62_eq k ⟨2, by decide⟩)
    (by omega) (by decide) (by have := trip5_lt k; omega) (by decide) x

/-- Group 5: the rows of atoms 4k .. 4k+3 at columns 80 .. 95. -/
abbrev row5_5_0 (C7 : S4x200x128.Idx → BitVec 32) (k : Fin k0_t5_loop.trips) : Vec F S1x1x16 .i32 :=
  rowLd C7 (k0_off63 k) (k0_off63_inb k)
abbrev row5_5_1 (C7 : S4x200x128.Idx → BitVec 32) (k : Fin k0_t5_loop.trips) : Vec F S1x1x16 .i32 :=
  rowLd C7 (k0_off64 k 1#32) (k0_off64_inb k 0)
abbrev row5_5_2 (C7 : S4x200x128.Idx → BitVec 32) (k : Fin k0_t5_loop.trips) : Vec F S1x1x16 .i32 :=
  rowLd C7 (k0_off64 k 2#32) (k0_off64_inb k 1)
abbrev row5_5_3 (C7 : S4x200x128.Idx → BitVec 32) (k : Fin k0_t5_loop.trips) : Vec F S1x1x16 .i32 :=
  rowLd C7 (k0_off64 k 3#32) (k0_off64_inb k 2)

theorem row5_5_0_lane (C7 : S4x200x128.Idx → BitVec 32) (k : Fin k0_t5_loop.trips) (x : S16.Idx) :
    ((shapeCast S16 (row5_5_0 (F := F) C7 k) shapeCasts_S1x1x16_S16 : IVec S16 32) x).toNat
      = spW C7 3 (4 * k.val) (16 * 5 + (x 0).val) :=
  rowLd_lane C7 _ _ 3 (4 * k.val) (4 * k.val) (16 * 5) (Gen.k0_off63_eq k) rfl (by decide)
    (by have := trip5_lt k; omega) (by decide) x
theorem row5_5_1_lane (C7 : S4x200x128.Idx → BitVec 32) (k : Fin k0_t5_loop.trips) (x : S16.Idx) :
    ((shapeCast S16 (row5_5_1 (F := F) C7 k) shapeCasts_S1x1x16_S16 : IVec S16 32) x).toNat
      = spW C7 3 (4 * k.val + 1) (16 * 5 + (x 0).val) :=
  rowLd_lane C7 _ _ 3 (4 * k.val + 0 + 1) (4 * k.val + 1) (16 * 5) (Gen.k0_off64_eq k ⟨0, by decide⟩)
    (by omega) (by decide) (by have := trip5_lt k; omega) (by decide) x
theorem row5_5_2_lane (C7 : S4x200x128.Idx → BitVec 32) (k : Fin k0_t5_loop.trips) (x : S16.Idx) :
    ((shapeCast S16 (row5_5_2 (F := F) C7 k) shapeCasts_S1x1x16_S16 : IVec S16 32) x).toNat
      = spW C7 3 (4 * k.val + 2) (16 * 5 + (x 0).val) :=
  rowLd_lane C7 _ _ 3 (4 * k.val + 1 + 1) (4 * k.val + 2) (16 * 5) (Gen.k0_off64_eq k ⟨1, by decide⟩)
    (by omega) (by decide) (by have := trip5_lt k; omega) (by decide) x
theorem row5_5_3_lane (C7 : S4x200x128.Idx → BitVec 32) (k : Fin k0_t5_loop.trips) (x : S16.Idx) :
    ((shapeCast S16 (row5_5_3 (F := F) C7 k) shapeCasts_S1x1x16_S16 : IVec S16 32) x).toNat
      = spW C7 3 (4 * k.val + 3) (16 * 5 + (x 0).val) :=
  rowLd_lane C7 _ _ 3 (4 * k.val + 2 + 1) (4 * k.val + 3) (16 * 5) (Gen.k0_off64_eq k ⟨2, by decide⟩)
    (by omega) (by decide) (by have := trip5_lt k; omega) (by decide) x

/-- Group 6: the rows of atoms 4k .. 4k+3 at columns 96 .. 111. -/
abbrev row5_6_0 (C7 : S4x200x128.Idx → BitVec 32) (k : Fin k0_t5_loop.trips) : Vec F S1x1x16 .i32 :=
  rowLd C7 (k0_off65 k) (k0_off65_inb k)
abbrev row5_6_1 (C7 : S4x200x128.Idx → BitVec 32) (k : Fin k0_t5_loop.trips) : Vec F S1x1x16 .i32 :=
  rowLd C7 (k0_off66 k 1#32) (k0_off66_inb k 0)
abbrev row5_6_2 (C7 : S4x200x128.Idx → BitVec 32) (k : Fin k0_t5_loop.trips) : Vec F S1x1x16 .i32 :=
  rowLd C7 (k0_off66 k 2#32) (k0_off66_inb k 1)
abbrev row5_6_3 (C7 : S4x200x128.Idx → BitVec 32) (k : Fin k0_t5_loop.trips) : Vec F S1x1x16 .i32 :=
  rowLd C7 (k0_off66 k 3#32) (k0_off66_inb k 2)

theorem row5_6_0_lane (C7 : S4x200x128.Idx → BitVec 32) (k : Fin k0_t5_loop.trips) (x : S16.Idx) :
    ((shapeCast S16 (row5_6_0 (F := F) C7 k) shapeCasts_S1x1x16_S16 : IVec S16 32) x).toNat
      = spW C7 3 (4 * k.val) (16 * 6 + (x 0).val) :=
  rowLd_lane C7 _ _ 3 (4 * k.val) (4 * k.val) (16 * 6) (Gen.k0_off65_eq k) rfl (by decide)
    (by have := trip5_lt k; omega) (by decide) x
theorem row5_6_1_lane (C7 : S4x200x128.Idx → BitVec 32) (k : Fin k0_t5_loop.trips) (x : S16.Idx) :
    ((shapeCast S16 (row5_6_1 (F := F) C7 k) shapeCasts_S1x1x16_S16 : IVec S16 32) x).toNat
      = spW C7 3 (4 * k.val + 1) (16 * 6 + (x 0).val) :=
  rowLd_lane C7 _ _ 3 (4 * k.val + 0 + 1) (4 * k.val + 1) (16 * 6) (Gen.k0_off66_eq k ⟨0, by decide⟩)
    (by omega) (by decide) (by have := trip5_lt k; omega) (by decide) x
theorem row5_6_2_lane (C7 : S4x200x128.Idx → BitVec 32) (k : Fin k0_t5_loop.trips) (x : S16.Idx) :
    ((shapeCast S16 (row5_6_2 (F := F) C7 k) shapeCasts_S1x1x16_S16 : IVec S16 32) x).toNat
      = spW C7 3 (4 * k.val + 2) (16 * 6 + (x 0).val) :=
  rowLd_lane C7 _ _ 3 (4 * k.val + 1 + 1) (4 * k.val + 2) (16 * 6) (Gen.k0_off66_eq k ⟨1, by decide⟩)
    (by omega) (by decide) (by have := trip5_lt k; omega) (by decide) x
theorem row5_6_3_lane (C7 : S4x200x128.Idx → BitVec 32) (k : Fin k0_t5_loop.trips) (x : S16.Idx) :
    ((shapeCast S16 (row5_6_3 (F := F) C7 k) shapeCasts_S1x1x16_S16 : IVec S16 32) x).toNat
      = spW C7 3 (4 * k.val + 3) (16 * 6 + (x 0).val) :=
  rowLd_lane C7 _ _ 3 (4 * k.val + 2 + 1) (4 * k.val + 3) (16 * 6) (Gen.k0_off66_eq k ⟨2, by decide⟩)
    (by omega) (by decide) (by have := trip5_lt k; omega) (by decide) x

/-- Group 7: the rows of atoms 4k .. 4k+3 at columns 112 .. 127. -/
abbrev row5_7_0 (C7 : S4x200x128.Idx → BitVec 32) (k : Fin k0_t5_loop.trips) : Vec F S1x1x16 .i32 :=
  rowLd C7 (k0_off67 k) (k0_off67_inb k)
abbrev row5_7_1 (C7 : S4x200x128.Idx → BitVec 32) (k : Fin k0_t5_loop.trips) : Vec F S1x1x16 .i32 :=
  rowLd C7 (k0_off68 k 1#32) (k0_off68_inb k 0)
abbrev row5_7_2 (C7 : S4x200x128.Idx → BitVec 32) (k : Fin k0_t5_loop.trips) : Vec F S1x1x16 .i32 :=
  rowLd C7 (k0_off68 k 2#32) (k0_off68_inb k 1)
abbrev row5_7_3 (C7 : S4x200x128.Idx → BitVec 32) (k : Fin k0_t5_loop.trips) : Vec F S1x1x16 .i32 :=
  rowLd C7 (k0_off68 k 3#32) (k0_off68_inb k 2)

theorem row5_7_0_lane (C7 : S4x200x128.Idx → BitVec 32) (k : Fin k0_t5_loop.trips) (x : S16.Idx) :
    ((shapeCast S16 (row5_7_0 (F := F) C7 k) shapeCasts_S1x1x16_S16 : IVec S16 32) x).toNat
      = spW C7 3 (4 * k.val) (16 * 7 + (x 0).val) :=
  rowLd_lane C7 _ _ 3 (4 * k.val) (4 * k.val) (16 * 7) (Gen.k0_off67_eq k) rfl (by decide)
    (by have := trip5_lt k; omega) (by decide) x
theorem row5_7_1_lane (C7 : S4x200x128.Idx → BitVec 32) (k : Fin k0_t5_loop.trips) (x : S16.Idx) :
    ((shapeCast S16 (row5_7_1 (F := F) C7 k) shapeCasts_S1x1x16_S16 : IVec S16 32) x).toNat
      = spW C7 3 (4 * k.val + 1) (16 * 7 + (x 0).val) :=
  rowLd_lane C7 _ _ 3 (4 * k.val + 0 + 1) (4 * k.val + 1) (16 * 7) (Gen.k0_off68_eq k ⟨0, by decide⟩)
    (by omega) (by decide) (by have := trip5_lt k; omega) (by decide) x
theorem row5_7_2_lane (C7 : S4x200x128.Idx → BitVec 32) (k : Fin k0_t5_loop.trips) (x : S16.Idx) :
    ((shapeCast S16 (row5_7_2 (F := F) C7 k) shapeCasts_S1x1x16_S16 : IVec S16 32) x).toNat
      = spW C7 3 (4 * k.val + 2) (16 * 7 + (x 0).val) :=
  rowLd_lane C7 _ _ 3 (4 * k.val + 1 + 1) (4 * k.val + 2) (16 * 7) (Gen.k0_off68_eq k ⟨1, by decide⟩)
    (by omega) (by decide) (by have := trip5_lt k; omega) (by decide) x
theorem row5_7_3_lane (C7 : S4x200x128.Idx → BitVec 32) (k : Fin k0_t5_loop.trips) (x : S16.Idx) :
    ((shapeCast S16 (row5_7_3 (F := F) C7 k) shapeCasts_S1x1x16_S16 : IVec S16 32) x).toNat
      = spW C7 3 (4 * k.val + 3) (16 * 7 + (x 0).val) :=
  rowLd_lane C7 _ _ 3 (4 * k.val + 2 + 1) (4 * k.val + 3) (16 * 7) (Gen.k0_off68_eq k ⟨2, by decide⟩)
    (by omega) (by decide) (by have := trip5_lt k; omega) (by decide) x

/-! ## The index words -/

/-- Group 0's sixteen index words at trip k. -/
abbrev idx5_0 (C7 : S4x200x128.Idx → BitVec 32) (k : Fin k0_t5_loop.trips) : IVec S16 32 :=
  k0_pay70 (F := F) (row5_0_0 C7 k) (row5_0_1 C7 k) (row5_0_2 C7 k) (row5_0_3 C7 k)

theorem idx5_0_lane (C7 : S4x200x128.Idx → BitVec 32) (hlt : SlabLt C7 3) (k : Fin k0_t5_loop.trips) (x : S16.Idx) :
    (idx5_0 (F := F) C7 k x).toNat
        = 512 * spW C7 3 (4 * k.val) (16 * 0 + (x 0).val) + 64 * spW C7 3 (4 * k.val + 1) (16 * 0 + (x 0).val)
          + 8 * spW C7 3 (4 * k.val + 2) (16 * 0 + (x 0).val) + spW C7 3 (4 * k.val + 3) (16 * 0 + (x 0).val)
      ∧ (idx5_0 (F := F) C7 k x).toNat < 4096 := by
  have hk := trip5_lt k
  have hx : (x 0).val < 16 := (x 0).isLt
  have e0 : ((shapeCast S16 (row5_0_0 (F := F) C7 k) shapeCasts_S1x1x16_S16 : IVec S16 32) x).toNat = spW C7 3 (4 * k.val) (16 * 0 + (x 0).val) := row5_0_0_lane (F := F) C7 k x
  have e1 : ((shapeCast S16 (row5_0_1 (F := F) C7 k) shapeCasts_S1x1x16_S16 : IVec S16 32) x).toNat = spW C7 3 (4 * k.val + 1) (16 * 0 + (x 0).val) := row5_0_1_lane (F := F) C7 k x
  have e2 : ((shapeCast S16 (row5_0_2 (F := F) C7 k) shapeCasts_S1x1x16_S16 : IVec S16 32) x).toNat = spW C7 3 (4 * k.val + 2) (16 * 0 + (x 0).val) := row5_0_2_lane (F := F) C7 k x
  have e3 : ((shapeCast S16 (row5_0_3 (F := F) C7 k) shapeCasts_S1x1x16_S16 : IVec S16 32) x).toNat = spW C7 3 (4 * k.val + 3) (16 * 0 + (x 0).val) := row5_0_3_lane (F := F) C7 k x
  have b0 : spW C7 3 (4 * k.val) (16 * 0 + (x 0).val) < 8 := hlt _ _ (by omega) (by omega)
  have b1 : spW C7 3 (4 * k.val + 1) (16 * 0 + (x 0).val) < 8 := hlt _ _ (by omega) (by omega)
  have b2 : spW C7 3 (4 * k.val + 2) (16 * 0 + (x 0).val) < 8 := hlt _ _ (by omega) (by omega)
  have b3 : spW C7 3 (4 * k.val + 3) (16 * 0 + (x 0).val) < 8 := hlt _ _ (by omega) (by omega)
  obtain ⟨e, l⟩ := Cert.Proof.Words.k0_pay70_lane (F := F) (row5_0_0 C7 k) (row5_0_1 C7 k) (row5_0_2 C7 k) (row5_0_3 C7 k) x
    (e0.trans_lt b0) (e1.trans_lt b1) (e2.trans_lt b2) (e3.trans_lt b3)
  exact ⟨e.trans (by rw [e0, e1, e2, e3]), l⟩

/-- The gather's side condition holds. -/
theorem chk5_0 (C7 : S4x200x128.Idx → BitVec 32) (hlt : SlabLt C7 3) (k : Fin k0_t5_loop.trips) :
    k0_chk29 (idx5_0 (F := F) C7 k) :=
  Cert.Proof.Words.k0_chk29_of_lt _ fun x => (idx5_0_lane C7 hlt k x).2

/-- Group 1's sixteen index words at trip k. -/
abbrev idx5_1 (C7 : S4x200x128.Idx → BitVec 32) (k : Fin k0_t5_loop.trips) : IVec S16 32 :=
  k0_pay73 (F := F) (k0_pay72 (row5_1_0 C7 k)) (row5_1_1 C7 k) (row5_1_2 C7 k) (row5_1_3 C7 k)

theorem idx5_1_lane (C7 : S4x200x128.Idx → BitVec 32) (hlt : SlabLt C7 3) (k : Fin k0_t5_loop.trips) (x : S16.Idx) :
    (idx5_1 (F := F) C7 k x).toNat
        = 512 * spW C7 3 (4 * k.val) (16 * 1 + (x 0).val) + 64 * spW C7 3 (4 * k.val + 1) (16 * 1 + (x 0).val)
          + 8 * spW C7 3 (4 * k.val + 2) (16 * 1 + (x 0).val) + spW C7 3 (4 * k.val + 3) (16 * 1 + (x 0).val)
      ∧ (idx5_1 (F := F) C7 k x).toNat < 4096 := by
  have hk := trip5_lt k
  have hx : (x 0).val < 16 := (x 0).isLt
  have e0 : (k0_pay72 (row5_1_0 (F := F) C7 k) x).toNat = spW C7 3 (4 * k.val) (16 * 1 + (x 0).val) := row5_1_0_lane (F := F) C7 k x
  have e1 : ((shapeCast S16 (row5_1_1 (F := F) C7 k) shapeCasts_S1x1x16_S16 : IVec S16 32) x).toNat = spW C7 3 (4 * k.val + 1) (16 * 1 + (x 0).val) := row5_1_1_lane (F := F) C7 k x
  have e2 : ((shapeCast S16 (row5_1_2 (F := F) C7 k) shapeCasts_S1x1x16_S16 : IVec S16 32) x).toNat = spW C7 3 (4 * k.val + 2) (16 * 1 + (x 0).val) := row5_1_2_lane (F := F) C7 k x
  have e3 : ((shapeCast S16 (row5_1_3 (F := F) C7 k) shapeCasts_S1x1x16_S16 : IVec S16 32) x).toNat = spW C7 3 (4 * k.val + 3) (16 * 1 + (x 0).val) := row5_1_3_lane (F := F) C7 k x
  have b0 : spW C7 3 (4 * k.val) (16 * 1 + (x 0).val) < 8 := hlt _ _ (by omega) (by omega)
  have b1 : spW C7 3 (4 * k.val + 1) (16 * 1 + (x 0).val) < 8 := hlt _ _ (by omega) (by omega)
  have b2 : spW C7 3 (4 * k.val + 2) (16 * 1 + (x 0).val) < 8 := hlt _ _ (by omega) (by omega)
  have b3 : spW C7 3 (4 * k.val + 3) (16 * 1 + (x 0).val) < 8 := hlt _ _ (by omega) (by omega)
  obtain ⟨e, l⟩ := Cert.Proof.Words.k0_pay73_lane (F := F) (k0_pay72 (row5_1_0 C7 k)) (row5_1_1 C7 k) (row5_1_2 C7 k) (row5_1_3 C7 k) x
    (e0.trans_lt b0) (e1.trans_lt b1) (e2.trans_lt b2) (e3.trans_lt b3)
  exact ⟨e.trans (by rw [e0, e1, e2, e3]), l⟩

/-- The gather's side condition holds. -/
theorem chk5_1 (C7 : S4x200x128.Idx → BitVec 32) (hlt : SlabLt C7 3) (k : Fin k0_t5_loop.trips) :
    k0_chk30 (idx5_1 (F := F) C7 k) :=
  Cert.Proof.Words.k0_chk30_of_lt _ fun x => (idx5_1_lane C7 hlt k x).2

/-- Group 2's sixteen index words at trip k. -/
abbrev idx5_2 (C7 : S4x200x128.Idx → BitVec 32) (k : Fin k0_t5_loop.trips) : IVec S16 32 :=
  k0_pay78 (F := F) (k0_pay75 (row5_2_0 C7 k)) (k0_pay76 (row5_2_1 C7 k)) (k0_pay77 (row5_2_2 C7 k)) (row5_2_3 C7 k)

theorem idx5_2_lane (C7 : S4x200x128.Idx → BitVec 32) (hlt : SlabLt C7 3) (k : Fin k0_t5_loop.trips) (x : S16.Idx) :
    (idx5_2 (F := F) C7 k x).toNat
        = 512 * spW C7 3 (4 * k.val) (16 * 2 + (x 0).val) + 64 * spW C7 3 (4 * k.val + 1) (16 * 2 + (x 0).val)
          + 8 * spW C7 3 (4 * k.val + 2) (16 * 2 + (x 0).val) + spW C7 3 (4 * k.val + 3) (16 * 2 + (x 0).val)
      ∧ (idx5_2 (F := F) C7 k x).toNat < 4096 := by
  have hk := trip5_lt k
  have hx : (x 0).val < 16 := (x 0).isLt
  have e0 : (k0_pay75 (row5_2_0 (F := F) C7 k) x).toNat = spW C7 3 (4 * k.val) (16 * 2 + (x 0).val) := row5_2_0_lane (F := F) C7 k x
  have e1 : (k0_pay76 (row5_2_1 (F := F) C7 k) x).toNat = spW C7 3 (4 * k.val + 1) (16 * 2 + (x 0).val) := row5_2_1_lane (F := F) C7 k x
  have e2 : (k0_pay77 (row5_2_2 (F := F) C7 k) x).toNat = spW C7 3 (4 * k.val + 2) (16 * 2 + (x 0).val) := row5_2_2_lane (F := F) C7 k x
  have e3 : ((shapeCast S16 (row5_2_3 (F := F) C7 k) shapeCasts_S1x1x16_S16 : IVec S16 32) x).toNat = spW C7 3 (4 * k.val + 3) (16 * 2 + (x 0).val) := row5_2_3_lane (F := F) C7 k x
  have b0 : spW C7 3 (4 * k.val) (16 * 2 + (x 0).val) < 8 := hlt _ _ (by omega) (by omega)
  have b1 : spW C7 3 (4 * k.val + 1) (16 * 2 + (x 0).val) < 8 := hlt _ _ (by omega) (by omega)
  have b2 : spW C7 3 (4 * k.val + 2) (16 * 2 + (x 0).val) < 8 := hlt _ _ (by omega) (by omega)
  have b3 : spW C7 3 (4 * k.val + 3) (16 * 2 + (x 0).val) < 8 := hlt _ _ (by omega) (by omega)
  obtain ⟨e, l⟩ := Cert.Proof.Words.k0_pay78_lane (F := F) (k0_pay75 (row5_2_0 C7 k)) (k0_pay76 (row5_2_1 C7 k)) (k0_pay77 (row5_2_2 C7 k)) (row5_2_3 C7 k) x
    (e0.trans_lt b0) (e1.trans_lt b1) (e2.trans_lt b2) (e3.trans_lt b3)
  exact ⟨e.trans (by rw [e0, e1, e2, e3]), l⟩

/-- The gather's side condition holds. -/
theorem chk5_2 (C7 : S4x200x128.Idx → BitVec 32) (hlt : SlabLt C7 3) (k : Fin k0_t5_loop.trips) :
    k0_chk31 (idx5_2 (F := F) C7 k) :=
  Cert.Proof.Words.k0_chk31_of_lt _ fun x => (idx5_2_lane C7 hlt k x).2

/-- Group 3's sixteen index words at trip k. -/
abbrev idx5_3 (C7 : S4x200x128.Idx → BitVec 32) (k : Fin k0_t5_loop.trips) : IVec S16 32 :=
  k0_pay80 (F := F) (row5_3_0 C7 k) (row5_3_1 C7 k) (row5_3_2 C7 k) (row5_3_3 C7 k)

theorem idx5_3_lane (C7 : S4x200x128.Idx → BitVec 32) (hlt : SlabLt C7 3) (k : Fin k0_t5_loop.trips) (x : S16.Idx) :
    (idx5_3 (F := F) C7 k x).toNat
        = 512 * spW C7 3 (4 * k.val) (16 * 3 + (x 0).val) + 64 * spW C7 3 (4 * k.val + 1) (16 * 3 + (x 0).val)
          + 8 * spW C7 3 (4 * k.val + 2) (16 * 3 + (x 0).val) + spW C7 3 (4 * k.val + 3) (16 * 3 + (x 0).val)
      ∧ (idx5_3 (F := F) C7 k x).toNat < 4096 := by
  have hk := trip5_lt k
  have hx : (x 0).val < 16 := (x 0).isLt
  have e0 : ((shapeCast S16 (row5_3_0 (F := F) C7 k) shapeCasts_S1x1x16_S16 : IVec S16 32) x).toNat = spW C7 3 (4 * k.val) (16 * 3 + (x 0).val) := row5_3_0_lane (F := F) C7 k x
  have e1 : ((shapeCast S16 (row5_3_1 (F := F) C7 k) shapeCasts_S1x1x16_S16 : IVec S16 32) x).toNat = spW C7 3 (4 * k.val + 1) (16 * 3 + (x 0).val) := row5_3_1_lane (F := F) C7 k x
  have e2 : ((shapeCast S16 (row5_3_2 (F := F) C7 k) shapeCasts_S1x1x16_S16 : IVec S16 32) x).toNat = spW C7 3 (4 * k.val + 2) (16 * 3 + (x 0).val) := row5_3_2_lane (F := F) C7 k x
  have e3 : ((shapeCast S16 (row5_3_3 (F := F) C7 k) shapeCasts_S1x1x16_S16 : IVec S16 32) x).toNat = spW C7 3 (4 * k.val + 3) (16 * 3 + (x 0).val) := row5_3_3_lane (F := F) C7 k x
  have b0 : spW C7 3 (4 * k.val) (16 * 3 + (x 0).val) < 8 := hlt _ _ (by omega) (by omega)
  have b1 : spW C7 3 (4 * k.val + 1) (16 * 3 + (x 0).val) < 8 := hlt _ _ (by omega) (by omega)
  have b2 : spW C7 3 (4 * k.val + 2) (16 * 3 + (x 0).val) < 8 := hlt _ _ (by omega) (by omega)
  have b3 : spW C7 3 (4 * k.val + 3) (16 * 3 + (x 0).val) < 8 := hlt _ _ (by omega) (by omega)
  obtain ⟨e, l⟩ := Cert.Proof.Words.k0_pay80_lane (F := F) (row5_3_0 C7 k) (row5_3_1 C7 k) (row5_3_2 C7 k) (row5_3_3 C7 k) x
    (e0.trans_lt b0) (e1.trans_lt b1) (e2.trans_lt b2) (e3.trans_lt b3)
  exact ⟨e.trans (by rw [e0, e1, e2, e3]), l⟩

/-- The gather's side condition holds. -/
theorem chk5_3 (C7 : S4x200x128.Idx → BitVec 32) (hlt : SlabLt C7 3) (k : Fin k0_t5_loop.trips) :
    k0_chk32 (idx5_3 (F := F) C7 k) :=
  Cert.Proof.Words.k0_chk32_of_lt _ fun x => (idx5_3_lane C7 hlt k x).2

/-- Group 4's sixteen index words at trip k. -/
abbrev idx5_4 (C7 : S4x200x128.Idx → BitVec 32) (k : Fin k0_t5_loop.trips) : IVec S16 32 :=
  k0_pay82 (F := F) (row5_4_0 C7 k) (row5_4_1 C7 k) (row5_4_2 C7 k) (row5_4_3 C7 k)

theorem idx5_4_lane (C7 : S4x200x128.Idx → BitVec 32) (hlt : SlabLt C7 3) (k : Fin k0_t5_loop.trips) (x : S16.Idx) :
    (idx5_4 (F := F) C7 k x).toNat
        = 512 * spW C7 3 (4 * k.val) (16 * 4 + (x 0).val) + 64 * spW C7 3 (4 * k.val + 1) (16 * 4 + (x 0).val)
          + 8 * spW C7 3 (4 * k.val + 2) (16 * 4 + (x 0).val) + spW C7 3 (4 * k.val + 3) (16 * 4 + (x 0).val)
      ∧ (idx5_4 (F := F) C7 k x).toNat < 4096 := by
  have hk := trip5_lt k
  have hx : (x 0).val < 16 := (x 0).isLt
  have e0 : ((shapeCast S16 (row5_4_0 (F := F) C7 k) shapeCasts_S1x1x16_S16 : IVec S16 32) x).toNat = spW C7 3 (4 * k.val) (16 * 4 + (x 0).val) := row5_4_0_lane (F := F) C7 k x
  have e1 : ((shapeCast S16 (row5_4_1 (F := F) C7 k) shapeCasts_S1x1x16_S16 : IVec S16 32) x).toNat = spW C7 3 (4 * k.val + 1) (16 * 4 + (x 0).val) := row5_4_1_lane (F := F) C7 k x
  have e2 : ((shapeCast S16 (row5_4_2 (F := F) C7 k) shapeCasts_S1x1x16_S16 : IVec S16 32) x).toNat = spW C7 3 (4 * k.val + 2) (16 * 4 + (x 0).val) := row5_4_2_lane (F := F) C7 k x
  have e3 : ((shapeCast S16 (row5_4_3 (F := F) C7 k) shapeCasts_S1x1x16_S16 : IVec S16 32) x).toNat = spW C7 3 (4 * k.val + 3) (16 * 4 + (x 0).val) := row5_4_3_lane (F := F) C7 k x
  have b0 : spW C7 3 (4 * k.val) (16 * 4 + (x 0).val) < 8 := hlt _ _ (by omega) (by omega)
  have b1 : spW C7 3 (4 * k.val + 1) (16 * 4 + (x 0).val) < 8 := hlt _ _ (by omega) (by omega)
  have b2 : spW C7 3 (4 * k.val + 2) (16 * 4 + (x 0).val) < 8 := hlt _ _ (by omega) (by omega)
  have b3 : spW C7 3 (4 * k.val + 3) (16 * 4 + (x 0).val) < 8 := hlt _ _ (by omega) (by omega)
  obtain ⟨e, l⟩ := Cert.Proof.Words.k0_pay82_lane (F := F) (row5_4_0 C7 k) (row5_4_1 C7 k) (row5_4_2 C7 k) (row5_4_3 C7 k) x
    (e0.trans_lt b0) (e1.trans_lt b1) (e2.trans_lt b2) (e3.trans_lt b3)
  exact ⟨e.trans (by rw [e0, e1, e2, e3]), l⟩

/-- The gather's side condition holds. -/
theorem chk5_4 (C7 : S4x200x128.Idx → BitVec 32) (hlt : SlabLt C7 3) (k : Fin k0_t5_loop.trips) :
    k0_chk33 (idx5_4 (F := F) C7 k) :=
  Cert.Proof.Words.k0_chk33_of_lt _ fun x => (idx5_4_lane C7 hlt k x).2

/-- Group 5's sixteen index words at trip k. -/
abbrev idx5_5 (C7 : S4x200x128.Idx → BitVec 32) (k : Fin k0_t5_loop.trips) : IVec S16 32 :=
  k0_pay85 (F := F) (k0_pay84 (row5_5_0 C7 k)) (row5_5_1 C7 k) (row5_5_2 C7 k) (row5_5_3 C7 k)

theorem idx5_5_lane (C7 : S4x200x128.Idx → BitVec 32) (hlt : SlabLt C7 3) (k : Fin k0_t5_loop.trips) (x : S16.Idx) :
    (idx5_5 (F := F) C7 k x).toNat
        = 512 * spW C7 3 (4 * k.val) (16 * 5 + (x 0).val) + 64 * spW C7 3 (4 * k.val + 1) (16 * 5 + (x 0).val)
          + 8 * spW C7 3 (4 * k.val + 2) (16 * 5 + (x 0).val) + spW C7 3 (4 * k.val + 3) (16 * 5 + (x 0).val)
      ∧ (idx5_5 (F := F) C7 k x).toNat < 4096 := by
  have hk := trip5_lt k
  have hx : (x 0).val < 16 := (x 0).isLt
  have e0 : (k0_pay84 (row5_5_0 (F := F) C7 k) x).toNat = spW C7 3 (4 * k.val) (16 * 5 + (x 0).val) := row5_5_0_lane (F := F) C7 k x
  have e1 : ((shapeCast S16 (row5_5_1 (F := F) C7 k) shapeCasts_S1x1x16_S16 : IVec S16 32) x).toNat = spW C7 3 (4 * k.val + 1) (16 * 5 + (x 0).val) := row5_5_1_lane (F := F) C7 k x
  have e2 : ((shapeCast S16 (row5_5_2 (F := F) C7 k) shapeCasts_S1x1x16_S16 : IVec S16 32) x).toNat = spW C7 3 (4 * k.val + 2) (16 * 5 + (x 0).val) := row5_5_2_lane (F := F) C7 k x
  have e3 : ((shapeCast S16 (row5_5_3 (F := F) C7 k) shapeCasts_S1x1x16_S16 : IVec S16 32) x).toNat = spW C7 3 (4 * k.val + 3) (16 * 5 + (x 0).val) := row5_5_3_lane (F := F) C7 k x
  have b0 : spW C7 3 (4 * k.val) (16 * 5 + (x 0).val) < 8 := hlt _ _ (by omega) (by omega)
  have b1 : spW C7 3 (4 * k.val + 1) (16 * 5 + (x 0).val) < 8 := hlt _ _ (by omega) (by omega)
  have b2 : spW C7 3 (4 * k.val + 2) (16 * 5 + (x 0).val) < 8 := hlt _ _ (by omega) (by omega)
  have b3 : spW C7 3 (4 * k.val + 3) (16 * 5 + (x 0).val) < 8 := hlt _ _ (by omega) (by omega)
  obtain ⟨e, l⟩ := Cert.Proof.Words.k0_pay85_lane (F := F) (k0_pay84 (row5_5_0 C7 k)) (row5_5_1 C7 k) (row5_5_2 C7 k) (row5_5_3 C7 k) x
    (e0.trans_lt b0) (e1.trans_lt b1) (e2.trans_lt b2) (e3.trans_lt b3)
  exact ⟨e.trans (by rw [e0, e1, e2, e3]), l⟩

/-- The gather's side condition holds. -/
theorem chk5_5 (C7 : S4x200x128.Idx → BitVec 32) (hlt : SlabLt C7 3) (k : Fin k0_t5_loop.trips) :
    k0_chk34 (idx5_5 (F := F) C7 k) :=
  Cert.Proof.Words.k0_chk34_of_lt _ fun x => (idx5_5_lane C7 hlt k x).2

/-- Group 6's sixteen index words at trip k. -/
abbrev idx5_6 (C7 : S4x200x128.Idx → BitVec 32) (k : Fin k0_t5_loop.trips) : IVec S16 32 :=
  k0_pay90 (F := F) (k0_pay87 (row5_6_0 C7 k)) (k0_pay88 (row5_6_1 C7 k)) (k0_pay89 (row5_6_2 C7 k)) (row5_6_3 C7 k)

theorem idx5_6_lane (C7 : S4x200x128.Idx → BitVec 32) (hlt : SlabLt C7 3) (k : Fin k0_t5_loop.trips) (x : S16.Idx) :
    (idx5_6 (F := F) C7 k x).toNat
        = 512 * spW C7 3 (4 * k.val) (16 * 6 + (x 0).val) + 64 * spW C7 3 (4 * k.val + 1) (16 * 6 + (x 0).val)
          + 8 * spW C7 3 (4 * k.val + 2) (16 * 6 + (x 0).val) + spW C7 3 (4 * k.val + 3) (16 * 6 + (x 0).val)
      ∧ (idx5_6 (F := F) C7 k x).toNat < 4096 := by
  have hk := trip5_lt k
  have hx : (x 0).val < 16 := (x 0).isLt
  have e0 : (k0_pay87 (row5_6_0 (F := F) C7 k) x).toNat = spW C7 3 (4 * k.val) (16 * 6 + (x 0).val) := row5_6_0_lane (F := F) C7 k x
  have e1 : (k0_pay88 (row5_6_1 (F := F) C7 k) x).toNat = spW C7 3 (4 * k.val + 1) (16 * 6 + (x 0).val) := row5_6_1_lane (F := F) C7 k x
  have e2 : (k0_pay89 (row5_6_2 (F := F) C7 k) x).toNat = spW C7 3 (4 * k.val + 2) (16 * 6 + (x 0).val) := row5_6_2_lane (F := F) C7 k x
  have e3 : ((shapeCast S16 (row5_6_3 (F := F) C7 k) shapeCasts_S1x1x16_S16 : IVec S16 32) x).toNat = spW C7 3 (4 * k.val + 3) (16 * 6 + (x 0).val) := row5_6_3_lane (F := F) C7 k x
  have b0 : spW C7 3 (4 * k.val) (16 * 6 + (x 0).val) < 8 := hlt _ _ (by omega) (by omega)
  have b1 : spW C7 3 (4 * k.val + 1) (16 * 6 + (x 0).val) < 8 := hlt _ _ (by omega) (by omega)
  have b2 : spW C7 3 (4 * k.val + 2) (16 * 6 + (x 0).val) < 8 := hlt _ _ (by omega) (by omega)
  have b3 : spW C7 3 (4 * k.val + 3) (16 * 6 + (x 0).val) < 8 := hlt _ _ (by omega) (by omega)
  obtain ⟨e, l⟩ := Cert.Proof.Words.k0_pay90_lane (F := F) (k0_pay87 (row5_6_0 C7 k)) (k0_pay88 (row5_6_1 C7 k)) (k0_pay89 (row5_6_2 C7 k)) (row5_6_3 C7 k) x
    (e0.trans_lt b0) (e1.trans_lt b1) (e2.trans_lt b2) (e3.trans_lt b3)
  exact ⟨e.trans (by rw [e0, e1, e2, e3]), l⟩

/-- The gather's side condition holds. -/
theorem chk5_6 (C7 : S4x200x128.Idx → BitVec 32) (hlt : SlabLt C7 3) (k : Fin k0_t5_loop.trips) :
    k0_chk35 (idx5_6 (F := F) C7 k) :=
  Cert.Proof.Words.k0_chk35_of_lt _ fun x => (idx5_6_lane C7 hlt k x).2

/-- Group 7's sixteen index words at trip k. -/
abbrev idx5_7 (C7 : S4x200x128.Idx → BitVec 32) (k : Fin k0_t5_loop.trips) : IVec S16 32 :=
  k0_pay92 (F := F) (row5_7_0 C7 k) (row5_7_1 C7 k) (row5_7_2 C7 k) (row5_7_3 C7 k)

theorem idx5_7_lane (C7 : S4x200x128.Idx → BitVec 32) (hlt : SlabLt C7 3) (k : Fin k0_t5_loop.trips) (x : S16.Idx) :
    (idx5_7 (F := F) C7 k x).toNat
        = 512 * spW C7 3 (4 * k.val) (16 * 7 + (x 0).val) + 64 * spW C7 3 (4 * k.val + 1) (16 * 7 + (x 0).val)
          + 8 * spW C7 3 (4 * k.val + 2) (16 * 7 + (x 0).val) + spW C7 3 (4 * k.val + 3) (16 * 7 + (x 0).val)
      ∧ (idx5_7 (F := F) C7 k x).toNat < 4096 := by
  have hk := trip5_lt k
  have hx : (x 0).val < 16 := (x 0).isLt
  have e0 : ((shapeCast S16 (row5_7_0 (F := F) C7 k) shapeCasts_S1x1x16_S16 : IVec S16 32) x).toNat = spW C7 3 (4 * k.val) (16 * 7 + (x 0).val) := row5_7_0_lane (F := F) C7 k x
  have e1 : ((shapeCast S16 (row5_7_1 (F := F) C7 k) shapeCasts_S1x1x16_S16 : IVec S16 32) x).toNat = spW C7 3 (4 * k.val + 1) (16 * 7 + (x 0).val) := row5_7_1_lane (F := F) C7 k x
  have e2 : ((shapeCast S16 (row5_7_2 (F := F) C7 k) shapeCasts_S1x1x16_S16 : IVec S16 32) x).toNat = spW C7 3 (4 * k.val + 2) (16 * 7 + (x 0).val) := row5_7_2_lane (F := F) C7 k x
  have e3 : ((shapeCast S16 (row5_7_3 (F := F) C7 k) shapeCasts_S1x1x16_S16 : IVec S16 32) x).toNat = spW C7 3 (4 * k.val + 3) (16 * 7 + (x 0).val) := row5_7_3_lane (F := F) C7 k x
  have b0 : spW C7 3 (4 * k.val) (16 * 7 + (x 0).val) < 8 := hlt _ _ (by omega) (by omega)
  have b1 : spW C7 3 (4 * k.val + 1) (16 * 7 + (x 0).val) < 8 := hlt _ _ (by omega) (by omega)
  have b2 : spW C7 3 (4 * k.val + 2) (16 * 7 + (x 0).val) < 8 := hlt _ _ (by omega) (by omega)
  have b3 : spW C7 3 (4 * k.val + 3) (16 * 7 + (x 0).val) < 8 := hlt _ _ (by omega) (by omega)
  obtain ⟨e, l⟩ := Cert.Proof.Words.k0_pay92_lane (F := F) (row5_7_0 C7 k) (row5_7_1 C7 k) (row5_7_2 C7 k) (row5_7_3 C7 k) x
    (e0.trans_lt b0) (e1.trans_lt b1) (e2.trans_lt b2) (e3.trans_lt b3)
  exact ⟨e.trans (by rw [e0, e1, e2, e3]), l⟩

/-- The gather's side condition holds. -/
theorem chk5_7 (C7 : S4x200x128.Idx → BitVec 32) (hlt : SlabLt C7 3) (k : Fin k0_t5_loop.trips) :
    k0_chk36 (idx5_7 (F := F) C7 k) :=
  Cert.Proof.Words.k0_chk36_of_lt _ fun x => (idx5_7_lane C7 hlt k x).2

/-! ## A trip, and the start -/

/-- One trip takes the eight accumulators from k quads to k + 1. -/
theorem trip5 (C10 : S16.Idx → F .f32) (C11 : S4096.Idx → F .f32) (C7 : S4x200x128.Idx → BitVec 32)
    (hT : TabOK C10 256 C11) (hlt : SlabLt C7 3) (k : Fin k0_t5_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx5_0 (F := F) C7 k] : Fin 1 → IVec S16 32) a x).toNat < S4096.size a)
    (h1 : ∀ a x, ((![idx5_1 (F := F) C7 k] : Fin 1 → IVec S16 32) a x).toNat < S4096.size a)
    (h2 : ∀ a x, ((![idx5_2 (F := F) C7 k] : Fin 1 → IVec S16 32) a x).toNat < S4096.size a)
    (h3 : ∀ a x, ((![idx5_3 (F := F) C7 k] : Fin 1 → IVec S16 32) a x).toNat < S4096.size a)
    (h4 : ∀ a x, ((![idx5_4 (F := F) C7 k] : Fin 1 → IVec S16 32) a x).toNat < S4096.size a)
    (h5 : ∀ a x, ((![idx5_5 (F := F) C7 k] : Fin 1 → IVec S16 32) a x).toNat < S4096.size a)
    (h6 : ∀ a x, ((![idx5_6 (F := F) C7 k] : Fin 1 → IVec S16 32) a x).toNat < S4096.size a)
    (h7 : ∀ a x, ((![idx5_7 (F := F) C7 k] : Fin 1 → IVec S16 32) a x).toNat < S4096.size a)
    (hacc : AccOK C10 C7 3 k.val accs) :
    AccOK C10 C7 3 (k.val + 1)
      (k0_pay71 accs.1 (tabGather C11 (idx5_0 C7 k) h0),
        k0_pay74 accs.2.1 (tabGather C11 (idx5_1 C7 k) h1),
        k0_pay79 accs.2.2.1 (tabGather C11 (idx5_2 C7 k) h2),
        k0_pay81 accs.2.2.2.1 (tabGather C11 (idx5_3 C7 k) h3),
        k0_pay83 accs.2.2.2.2.1 (tabGather C11 (idx5_4 C7 k) h4),
        k0_pay86 accs.2.2.2.2.2.1 (tabGather C11 (idx5_5 C7 k) h5),
        k0_pay91 accs.2.2.2.2.2.2.1 (tabGather C11 (idx5_6 C7 k) h6),
        k0_pay155 accs.2.2.2.2.2.2.2 (tabGather C11 (idx5_7 C7 k) h7)) := by
  unfold AccOK at hacc ⊢
  obtain ⟨a0, a1, a2, a3, a4, a5, a6, a7⟩ := hacc
  exact ⟨lane_step C10 C11 C7 hT 3 0 k.val _ a0 (idx5_0 C7 k) h0 (fun x => (idx5_0_lane C7 hlt k x).1),
    lane_step C10 C11 C7 hT 3 1 k.val _ a1 (idx5_1 C7 k) h1 (fun x => (idx5_1_lane C7 hlt k x).1),
    lane_step C10 C11 C7 hT 3 2 k.val _ a2 (idx5_2 C7 k) h2 (fun x => (idx5_2_lane C7 hlt k x).1),
    lane_step C10 C11 C7 hT 3 3 k.val _ a3 (idx5_3 C7 k) h3 (fun x => (idx5_3_lane C7 hlt k x).1),
    lane_step C10 C11 C7 hT 3 4 k.val _ a4 (idx5_4 C7 k) h4 (fun x => (idx5_4_lane C7 hlt k x).1),
    lane_step C10 C11 C7 hT 3 5 k.val _ a5 (idx5_5 C7 k) h5 (fun x => (idx5_5_lane C7 hlt k x).1),
    lane_step C10 C11 C7 hT 3 6 k.val _ a6 (idx5_6 C7 k) h6 (fun x => (idx5_6_lane C7 hlt k x).1),
    lane_step C10 C11 C7 hT 3 7 k.val _ a7 (idx5_7 C7 k) h7 (fun x => (idx5_7_lane C7 hlt k x).1)⟩

/-- The loop starts with every accumulator at zero: no quad added yet. -/
theorem init5 (C10 : S16.Idx → F .f32) (C7 : S4x200x128.Idx → BitVec 32) :
    AccOK C10 C7 3 0
      (k0_pay147 (F := F), k0_pay148 (F := F), k0_pay149 (F := F), k0_pay150 (F := F), k0_pay151 (F := F), k0_pay152 (F := F), k0_pay153 (F := F), k0_pay154 (F := F)) := by
  unfold AccOK
  exact ⟨fun _ => rfl, fun _ => rfl, fun _ => rfl, fun _ => rfl, fun _ => rfl, fun _ => rfl, fun _ => rfl, fun _ => rfl⟩

end Cert.Proof.KI

end
-- ==== Proof.AccMath.lean ====
/-
  The arithmetic of the molecule loop and of the final store, over the scratch buffers' contents.

  A lane of a row load is a species word; the gather of a quad's packed index from the built table of 4096 is that quad's
  term; adding it carries an accumulator from q quads to q + 1. With the landed panels, the table of eight and the energies,
  a quad's term is the quad of self energies of the molecule's four species words, so fifty quads and the energy give the
  result function at the molecule.
-/
import proofs.«206988_g4337916970008_retrytranche1_694_23_alg».proof.Proof.ValueSpec
import proofs.«206988_g4337916970008_retrytranche1_694_23_alg».proof.Proof.Words
import proofs.«206988_g4337916970008_retrytranche1_694_23_alg».proof.Proof.ValueRead
import proofs.«206988_g4337916970008_retrytranche1_694_23_alg».proof.Proof.Landing

noncomputable section

namespace Cert.Proof.KI

open Cert.KernelIdeal Cert.KernelIdeal.Gen
open Idealize.ShloMosaic
open Idealize.SL.Sem

variable {F : FTy → Type} [FloatOps F]

/-! ## A species word out of a row load -/

/-- Lane x of the sixteen words of row a of panel t from column c on is the species word at column c + x. -/
theorem row_lane_spW (C7 : S4x200x128.Idx → BitVec 32) (off : Fin 3 → ℕ)
    (inb : ∀ a, off a + S1x1x16.size a ≤ S4x200x128.size a) (t a c : ℕ) (hoff : off = ![t, a, c])
    (ht : t < 4) (ha : a < 200) (hc : c + 16 ≤ 128) (x : S16.Idx) :
    ((shapeCast S16 (View.readAt (Elt F) b7.view (Rect.unit (s := S4x200x128) off S1x1x16.size inb).toLoadRect C7)
        shapeCasts_S1x1x16_S16 : IVec S16 32) x).toNat
      = spW C7 t a (c + (x 0).val) := by
  have hx : (x 0).val < 16 := (x 0).isLt
  rw [b7_row_lane (F := F) C7 off inb t a c hoff ht ha hc x]
  exact (spW_of_lt C7 t ht ⟨a, ha⟩ ⟨c + (x 0).val, by omega⟩).symm

/-! ## A quad's term out of the table of 4096 -/

/-- The built table read at an index below 4096. -/
theorem tab_lookup (C10 : S16.Idx → F .f32) (C11 : S4096.Idx → F .f32) (hT : TabOK C10 256 C11) (n : ℕ) (hn : n < 4096) :
    C11 (ValueIdx.ix1 ⟨n, hn⟩) = tab4At C10 n :=
  hT ⟨n, hn⟩ (by show n < 16 * 256; omega)

/-- A gather from the built table at a quad's packed index is the quad's term. -/
theorem gather_lane_gQ (C10 : S16.Idx → F .f32) (C7 : S4x200x128.Idx → BitVec 32) (C11 : S4096.Idx → F .f32)
    (hT : TabOK C10 256 C11) (t col q : ℕ) (v : IVec S16 32)
    (h : ∀ a x, ((![v] : Fin 1 → IVec S16 32) a x).toNat < (Rect.whole S4096).shape.size a) (x : S16.Idx)
    (hv : (v x).toNat = 512 * spW C7 t (4 * q) col + 64 * spW C7 t (4 * q + 1) col + 8 * spW C7 t (4 * q + 2) col
      + spW C7 t (4 * q + 3) col) :
    loadIdx (F := F) (View.read (Elt F) (b11.access (Rect.whole S4096)) C11) ![v] h x = gQ C10 C7 t col q := by
  rw [b11_loadIdx_lane]
  have hlt : (v x).toNat < 4096 := h 0 x
  have e := tab_lookup C10 C11 hT (v x).toNat hlt
  refine e.trans ?_
  unfold gQ
  rw [hv]

/-! ## The accumulators -/

/-- The zero splat is the accumulator of no quads. -/
theorem accLane_zero (C10 : S16.Idx → F .f32) (C7 : S4x200x128.Idx → BitVec 32) (t j : ℕ) :
    AccLane C10 C7 t j 0 (broadcast S16 (Scalar.ofBits (F := F) .f32 0x00000000#32)) := by
  intro x
  rfl

/-- Adding quad q's terms carries the accumulator of q quads to that of q + 1. -/
theorem accLane_step (C10 : S16.Idx → F .f32) (C7 : S4x200x128.Idx → BitVec 32) (t j q : ℕ)
    (acc w : FVec F S16 .f32) (hacc : AccLane C10 C7 t j q acc)
    (hw : ∀ x : S16.Idx, w x = gQ C10 C7 t (16 * j + (x 0).val) q) :
    AccLane C10 C7 t j (q + 1) (addf acc w) := by
  intro x
  show FloatOps.addf (acc x) (w x) = accF (gQ C10 C7 t (16 * j + (x 0).val)) (q + 1)
  rw [hacc x, hw x]
  rfl

/-- The running sum of n terms depends on those n terms only. -/
theorem accF_congr (g g' : ℕ → F .f32) (n : ℕ) (h : ∀ k, k < n → g k = g' k) : accF g n = accF g' n := by
  induction n with
  | zero => rfl
  | succ n ih =>
    show FloatOps.addf (accF g n) (g n) = FloatOps.addf (accF g' n) (g' n)
    rw [ih (fun k hk => h k (by omega)), h n (by omega)]

/-! ## A quad's term is the quad of self energies -/

/-- An entry below eight of the table of sixteen is the self energy of that species. -/
theorem c16_eq_tabAt (fT : S8.Idx → F .f32) (C10 : S16.Idx → F .f32) (hT10 : T10OK fT C10) (a : ℕ) (ha : a < 8) :
    c16 C10 a = tabAt fT a := by
  have e := hT10 ⟨a, ha⟩
  unfold c16 tabAt
  have e1 : (ValueIdx.ix1 (⟨a % 16, Nat.mod_lt _ (by decide)⟩ : Fin 16) : S16.Idx)
      = ValueIdx.ix1 ⟨a, by omega⟩ := by
    funext d
    match d with
    | ⟨0, _⟩ => exact Fin.ext (Nat.mod_eq_of_lt (by omega))
  have e2 : (ValueIdx.ix1 (⟨a % 8, Nat.mod_lt _ (by decide)⟩ : Fin 8) : S8.Idx) = ValueIdx.ix1 ⟨a, ha⟩ := by
    funext d
    match d with
    | ⟨0, _⟩ => exact Fin.ext (Nat.mod_eq_of_lt ha)
  rw [e1, e2]
  exact e

/-- The table of 4096 at the index of four digits below eight is the quad of their self energies. -/
theorem tab4At_quad (fT : S8.Idx → F .f32) (C10 : S16.Idx → F .f32) (hT10 : T10OK fT C10) (a b c e : ℕ)
    (ha : a < 8) (hb : b < 8) (hc : c < 8) (he : e < 8) :
    tab4At C10 (512 * a + 64 * b + 8 * c + e) = quadF fT a b c e := by
  obtain ⟨d1, d2, d3, d4⟩ := Words.digits_of_quad ha hb hc he
  unfold tab4At quadF
  rw [d1, d2, d3, d4, c16_eq_tabAt fT C10 hT10 a ha, c16_eq_tabAt fT C10 hT10 b hb, c16_eq_tabAt fT C10 hT10 c hc,
    c16_eq_tabAt fT C10 hT10 e he]

/-- Quad q of column col of a landed panel is the quad of self energies of the molecule's species words 4 q .. 4 q + 3. -/
theorem gQ_eq_quadF (fT : S8.Idx → F .f32) (C10 : S16.Idx → F .f32) (hT10 : T10OK fT C10)
    (fS : S200x16384.Idx → BitVec 32) (L : grid0.Coords) (C7 : S4x200x128.Idx → BitVec 32) (t : ℕ)
    (hOK : SlabOK fS L C7 t) (hLt : SlabLt C7 t) (col : ℕ) (hcol : col < 128) (q : ℕ) (hq : q < 50) :
    gQ C10 C7 t col q
      = quadF fT (spAt fS (1024 * (L 1).val + 512 * (L 0).val + 128 * t + col) (4 * q))
          (spAt fS (1024 * (L 1).val + 512 * (L 0).val + 128 * t + col) (4 * q + 1))
          (spAt fS (1024 * (L 1).val + 512 * (L 0).val + 128 * t + col) (4 * q + 2))
          (spAt fS (1024 * (L 1).val + 512 * (L 0).val + 128 * t + col) (4 * q + 3)) := by
  have s0 : spW C7 t (4 * q) col = spAt fS (1024 * (L 1).val + 512 * (L 0).val + 128 * t + col) (4 * q) :=
    hOK ⟨4 * q, by omega⟩ ⟨col, hcol⟩
  have s1 : spW C7 t (4 * q + 1) col = spAt fS (1024 * (L 1).val + 512 * (L 0).val + 128 * t + col) (4 * q + 1) :=
    hOK ⟨4 * q + 1, by omega⟩ ⟨col, hcol⟩
  have s2 : spW C7 t (4 * q + 2) col = spAt fS (1024 * (L 1).val + 512 * (L 0).val + 128 * t + col) (4 * q + 2) :=
    hOK ⟨4 * q + 2, by omega⟩ ⟨col, hcol⟩
  have s3 : spW C7 t (4 * q + 3) col = spAt fS (1024 * (L 1).val + 512 * (L 0).val + 128 * t + col) (4 * q + 3) :=
    hOK ⟨4 * q + 3, by omega⟩ ⟨col, hcol⟩
  have l0 := hLt (4 * q) col (by omega) hcol
  have l1 := hLt (4 * q + 1) col (by omega) hcol
  have l2 := hLt (4 * q + 2) col (by omega) hcol
  have l3 := hLt (4 * q + 3) col (by omega) hcol
  unfold gQ
  rw [tab4At_quad fT C10 hT10 _ _ _ _ l0 l1 l2 l3, s0, s1, s2, s3]

/-! ## The result function at a molecule of the tile -/

/-- Fifty quads of column col of panel t added onto zero, plus the energy scratch's entry 128 t + col, is the result
    function at molecule 1024 L₁ + 512 L₀ + 128 t + col. -/
theorem out_lane_eq (fS : S200x16384.Idx → BitVec 32) (fE : S16384.Idx → F .f32) (fT : S8.Idx → F .f32)
    (L : grid0.Coords) (C7 : S4x200x128.Idx → BitVec 32) (C8 : S512.Idx → F .f32) (C10 : S16.Idx → F .f32) (t : ℕ)
    (hT10 : T10OK fT C10) (hOK : SlabOK fS L C7 t) (hLt : SlabLt C7 t) (hE : E8OK fE L C8)
    (ht : t < 4) (col : ℕ) (hcol : col < 128) (p : Fin 512) (hp : p.val = 128 * t + col)
    (M : S16384.Idx) (hM : (M 0).val = 1024 * (L 1).val + 512 * (L 0).val + 128 * t + col) :
    FloatOps.addf (accF (gQ C10 C7 t col) 50) (C8 (ValueIdx.ix1 p)) = outSpec fS fE fT M := by
  unfold outSpec
  rw [hM]
  have eE : C8 (ValueIdx.ix1 p) = fE M := by
    rw [hE p]
    congr 1
    funext d
    match d with
    | ⟨0, _⟩ => exact Fin.ext (by show 1024 * (L 1).val + 512 * (L 0).val + p.val = (M 0).val; omega)
  rw [eE]
  congr 1
  exact accF_congr _ _ 50 (fun q hq => gQ_eq_quadF fT C10 hT10 fS L C7 t hOK hLt col hcol q hq)

end Cert.Proof.KI

end
-- ==== Proof.OutValue.lean ====
/-
  The tile's 512 results.

  The output scratch ends as thirty-two sixteen-lane stores, store n at entries 16 n .. 16 n + 15, pairwise disjoint: entry
  16 n + x reads lane x of store n's payload. Store n = 8 t + j holds accumulator j of panel t after fifty quads plus the
  energies 16 n .. 16 n + 15 of the tile, which is the result function at molecules 1024 L₁ + 512 L₀ + 16 n + x. The chunk of
  the result array the scratch is copied to starts at entry 1024 L₁ + 512 L₀, so on the chunk's elements the result array is
  the result function.
-/
import proofs.«206988_g4337916970008_retrytranche1_694_23_alg».proof.Proof.AccMath
import proofs.«206988_g4337916970008_retrytranche1_694_23_alg».proof.Proof.ValueStore

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

namespace OV

theorem inb16 (k : ℕ) (hk : k < 32) : ∀ a, (![16 * k] : Fin 1 → ℕ) a + S16.size a ≤ S512.size a := by
  intro a
  match a with
  | ⟨0, _⟩ => show 16 * k + 16 ≤ 512; omega

/-- The stores k - 1, …, 0, the last first, store n at entries 16 n .. 16 n + 15 with payload P n. -/
def pcs (P : Fin 32 → S16.Idx → F .f32) : (k : ℕ) → k ≤ 32 → List (View.Piece (Elt F) S512 .f32)
  | 0, _ => []
  | k + 1, hk => (⟨Rect.unit (s := S512) ![16 * k] S16.size (inb16 k (by omega)), P ⟨k, by omega⟩⟩ : View.Piece (Elt F) S512 .f32)
      :: pcs P k (by omega)

/-- After the stores k - 1, …, 0, entry 16 n + x, n < k, is lane x of store n's payload. -/
theorem pcs_apply (f9 : S512.Idx → F .f32) (P : Fin 32 → S16.Idx → F .f32) :
    ∀ (k : ℕ) (hk : k ≤ 32) (n : ℕ) (hn : n < k) (x : S16.Idx) (h : 16 * n + (x 0).val < 512),
      (b9.view.writes (Elt F) f9 (pcs P k hk)) (ValueIdx.ix1 ⟨16 * n + (x 0).val, h⟩) = P ⟨n, by omega⟩ x
  | 0, _, n, hn, _, _ => absurd hn (Nat.not_lt_zero n)
  | k + 1, hk, n, hn, x, h => by
    have hx : (x 0).val < 16 := (x 0).isLt
    by_cases e : n = k
    · subst e
      show (b9.view.writes (Elt F) f9 ((⟨Rect.unit (s := S512) ![16 * n] S16.size (inb16 n (by omega)), P ⟨n, by omega⟩⟩ : View.Piece (Elt F) S512 .f32)
        :: pcs P n (by omega))) (ValueIdx.ix1 ⟨16 * n + (x 0).val, h⟩) = _
      rw [b9_writes_cons_inside f9 _ _ _ _ ⟨16 * n + (x 0).val, h⟩ (by show 16 * n ≤ 16 * n + (x 0).val; omega)
        (by show 16 * n + (x 0).val < 16 * n + 16; omega)]
      congr 1
      funext d
      match d with
      | ⟨0, _⟩ => exact Fin.ext (by show 16 * n + (x 0).val - 16 * n = (x 0).val; omega)
    · have ih := pcs_apply f9 P k (by omega) n (by omega) x h
      show (b9.view.writes (Elt F) f9 ((⟨Rect.unit (s := S512) ![16 * k] S16.size (inb16 k (by omega)), P ⟨k, by omega⟩⟩ : View.Piece (Elt F) S512 .f32)
        :: pcs P k (by omega))) (ValueIdx.ix1 ⟨16 * n + (x 0).val, h⟩) = _
      rw [b9_writes_cons_outside f9 _ _ _ _ ⟨16 * n + (x 0).val, h⟩ (by show 16 * n + (x 0).val < 16 * k ∨ 16 * k + 16 ≤ 16 * n + (x 0).val; omega)]
      exact ih

theorem lane_lt (n : Fin 32) (x : S16.Idx) : 16 * n.val + (x 0).val < 512 := by
  have hx : (x 0).val < 16 := (x 0).isLt
  have hn := n.isLt
  omega

theorem mol_lt (L : grid0.Coords) (n : Fin 32) (x : S16.Idx) : 1024 * (L 1).val + 512 * (L 0).val + 16 * n.val + (x 0).val < 16384 := by
  have hx : (x 0).val < 16 := (x 0).isLt
  have hn := n.isLt
  have h1 : (L 1).val < 16 := (L 1).isLt
  have h0 : (L 0).val < 2 := (L 0).isLt
  omega

end OV

/-- Thirty-two sixteen-lane stores into the output scratch, store n at entries 16 n .. 16 n + 15, the last first: entry
    16 n + x is lane x of store n's payload. -/
theorem pieces32_apply (f9 : S512.Idx → F .f32) (P : Fin 32 → (S16.Idx → F .f32)) (n : Fin 32) (x : S16.Idx) :
    (b9.view.writes (Elt F) f9
      [⟨Rect.unit (s := S512) ![496] S16.size inb_S512_S16_496, P 31⟩,
      ⟨Rect.unit (s := S512) ![480] S16.size inb_S512_S16_480, P 30⟩,
      ⟨Rect.unit (s := S512) ![464] S16.size inb_S512_S16_464, P 29⟩,
      ⟨Rect.unit (s := S512) ![448] S16.size inb_S512_S16_448, P 28⟩,
      ⟨Rect.unit (s := S512) ![432] S16.size inb_S512_S16_432, P 27⟩,
      ⟨Rect.unit (s := S512) ![416] S16.size inb_S512_S16_416, P 26⟩,
      ⟨Rect.unit (s := S512) ![400] S16.size inb_S512_S16_400, P 25⟩,
      ⟨Rect.unit (s := S512) ![384] S16.size inb_S512_S16_384, P 24⟩,
      ⟨Rect.unit (s := S512) ![368] S16.size inb_S512_S16_368, P 23⟩,
      ⟨Rect.unit (s := S512) ![352] S16.size inb_S512_S16_352, P 22⟩,
      ⟨Rect.unit (s := S512) ![336] S16.size inb_S512_S16_336, P 21⟩,
      ⟨Rect.unit (s := S512) ![320] S16.size inb_S512_S16_320, P 20⟩,
      ⟨Rect.unit (s := S512) ![304] S16.size inb_S512_S16_304, P 19⟩,
      ⟨Rect.unit (s := S512) ![288] S16.size inb_S512_S16_288, P 18⟩,
      ⟨Rect.unit (s := S512) ![272] S16.size inb_S512_S16_272, P 17⟩,
      ⟨Rect.unit (s := S512) ![256] S16.size inb_S512_S16_256, P 16⟩,
      ⟨Rect.unit (s := S512) ![240] S16.size inb_S512_S16_240, P 15⟩,
      ⟨Rect.unit (s := S512) ![224] S16.size inb_S512_S16_224, P 14⟩,
      ⟨Rect.unit (s := S512) ![208] S16.size inb_S512_S16_208, P 13⟩,
      ⟨Rect.unit (s := S512) ![192] S16.size inb_S512_S16_192, P 12⟩,
      ⟨Rect.unit (s := S512) ![176] S16.size inb_S512_S16_176, P 11⟩,
      ⟨Rect.unit (s := S512) ![160] S16.size inb_S512_S16_160, P 10⟩,
      ⟨Rect.unit (s := S512) ![144] S16.size inb_S512_S16_144, P 9⟩,
      ⟨Rect.unit (s := S512) ![128] S16.size inb_S512_S16_128, P 8⟩,
      ⟨Rect.unit (s := S512) ![112] S16.size inb_S512_S16_112, P 7⟩,
      ⟨Rect.unit (s := S512) ![96] S16.size inb_S512_S16_96, P 6⟩,
      ⟨Rect.unit (s := S512) ![80] S16.size inb_S512_S16_80, P 5⟩,
      ⟨Rect.unit (s := S512) ![64] S16.size inb_S512_S16_64, P 4⟩,
      ⟨Rect.unit (s := S512) ![48] S16.size inb_S512_S16_48, P 3⟩,
      ⟨Rect.unit (s := S512) ![32] S16.size inb_S512_S16_32, P 2⟩,
      ⟨Rect.unit (s := S512) ![16] S16.size inb_S512_S16_16, P 1⟩,
      ⟨Rect.unit (s := S512) ![0] S16.size inb_S512_S16_0, P 0⟩])
      (ValueIdx.ix1 ⟨16 * n.val + (x 0).val, OV.lane_lt n x⟩) = P n x :=
  OV.pcs_apply f9 P 32 (Nat.le_refl 32) n.val n.isLt x (OV.lane_lt n x)

variable [FloatOps F]

namespace OV

/-- Lane x of store n = 8 t + j: accumulator j of panel t after fifty quads plus the tile's energy 16 n + x is the result
    function at molecule 1024 L₁ + 512 L₀ + 16 n + x. -/
theorem lane_out (fS : S200x16384.Idx → BitVec 32) (fE : S16384.Idx → F .f32) (fT : S8.Idx → F .f32) (L : grid0.Coords)
    (C10 : S16.Idx → F .f32) (C8 : S512.Idx → F .f32) (C7 : S4x200x128.Idx → BitVec 32) (t j n : ℕ) (ht : t < 4) (hj : j < 8)
    (hn : n = 8 * t + j) (acc : FVec F S16 .f32) (b : Vec F S16 .f32)
    (hT10 : T10OK fT C10) (hE : E8OK fE L C8) (hS : SlabOK fS L C7 t) (hL : SlabLt C7 t) (hA : AccLane C10 C7 t j 50 acc)
    (x : S16.Idx)
    (hb : ∀ y : S16.Idx, b y = C8 (ValueIdx.ix1 ⟨16 * n + (y 0).val, by
      have hy : (y 0).val < 16 := (y 0).isLt
      omega⟩))
    (hM : 1024 * (L 1).val + 512 * (L 0).val + 16 * n + (x 0).val < 16384) :
    addf acc b x = outSpec fS fE fT (ValueIdx.ix1 ⟨1024 * (L 1).val + 512 * (L 0).val + 16 * n + (x 0).val, hM⟩) := by
  have hx : (x 0).val < 16 := (x 0).isLt
  show FloatOps.addf (acc x) (b x) = _
  rw [hA x, hb x]
  exact out_lane_eq fS fE fT L C7 C8 C10 t hT10 hS hL hE ht (16 * j + (x 0).val) (by omega) ⟨16 * n + (x 0).val, by omega⟩
    (by show 16 * n + (x 0).val = 128 * t + (16 * j + (x 0).val); omega) _
    (by show 1024 * (L 1).val + 512 * (L 0).val + 16 * n + (x 0).val = 1024 * (L 1).val + 512 * (L 0).val + 128 * t + (16 * j + (x 0).val); omega)

end OV

/-- The thirty-two payloads of the final stores: store n = 8 t + j adds accumulator j of panel t and the energies
    16 n .. 16 n + 15. -/
def payN (C8 : S512.Idx → F .f32) (accs0 accs1 accs2 accs3 : FVec F S16 .f32 × FVec F S16 .f32 × FVec F S16 .f32 × FVec F S16 .f32 × FVec F S16 .f32 × FVec F S16 .f32 × FVec F S16 .f32 × FVec F S16 .f32) : Fin 32 → (S16.Idx → F .f32) :=
  ![k0_pay105 accs0.1 (View.readAt (Elt F) b8.view (Rect.unit (s := S512) ![0] S16.size inb_S512_S16_0).toLoadRect C8),
    k0_pay106 accs0.2.1 (View.readAt (Elt F) b8.view (Rect.unit (s := S512) ![16] S16.size inb_S512_S16_16).toLoadRect C8),
    k0_pay107 accs0.2.2.1 (View.readAt (Elt F) b8.view (Rect.unit (s := S512) ![32] S16.size inb_S512_S16_32).toLoadRect C8),
    k0_pay108 accs0.2.2.2.1 (View.readAt (Elt F) b8.view (Rect.unit (s := S512) ![48] S16.size inb_S512_S16_48).toLoadRect C8),
    k0_pay109 accs0.2.2.2.2.1 (View.readAt (Elt F) b8.view (Rect.unit (s := S512) ![64] S16.size inb_S512_S16_64).toLoadRect C8),
    k0_pay110 accs0.2.2.2.2.2.1 (View.readAt (Elt F) b8.view (Rect.unit (s := S512) ![80] S16.size inb_S512_S16_80).toLoadRect C8),
    k0_pay111 accs0.2.2.2.2.2.2.1 (View.readAt (Elt F) b8.view (Rect.unit (s := S512) ![96] S16.size inb_S512_S16_96).toLoadRect C8),
    k0_pay112 accs0.2.2.2.2.2.2.2 (View.readAt (Elt F) b8.view (Rect.unit (s := S512) ![112] S16.size inb_S512_S16_112).toLoadRect C8),
    k0_pay122 accs1.1 (View.readAt (Elt F) b8.view (Rect.unit (s := S512) ![128] S16.size inb_S512_S16_128).toLoadRect C8),
    k0_pay123 accs1.2.1 (View.readAt (Elt F) b8.view (Rect.unit (s := S512) ![144] S16.size inb_S512_S16_144).toLoadRect C8),
    k0_pay124 accs1.2.2.1 (View.readAt (Elt F) b8.view (Rect.unit (s := S512) ![160] S16.size inb_S512_S16_160).toLoadRect C8),
    k0_pay125 accs1.2.2.2.1 (View.readAt (Elt F) b8.view (Rect.unit (s := S512) ![176] S16.size inb_S512_S16_176).toLoadRect C8),
    k0_pay126 accs1.2.2.2.2.1 (View.readAt (Elt F) b8.view (Rect.unit (s := S512) ![192] S16.size inb_S512_S16_192).toLoadRect C8),
    k0_pay127 accs1.2.2.2.2.2.1 (View.readAt (Elt F) b8.view (Rect.unit (s := S512) ![208] S16.size inb_S512_S16_208).toLoadRect C8),
    k0_pay128 accs1.2.2.2.2.2.2.1 (View.readAt (Elt F) b8.view (Rect.unit (s := S512) ![224] S16.size inb_S512_S16_224).toLoadRect C8),
    k0_pay129 accs1.2.2.2.2.2.2.2 (View.readAt (Elt F) b8.view (Rect.unit (s := S512) ![240] S16.size inb_S512_S16_240).toLoadRect C8),
    k0_pay139 accs2.1 (View.readAt (Elt F) b8.view (Rect.unit (s := S512) ![256] S16.size inb_S512_S16_256).toLoadRect C8),
    k0_pay140 accs2.2.1 (View.readAt (Elt F) b8.view (Rect.unit (s := S512) ![272] S16.size inb_S512_S16_272).toLoadRect C8),
    k0_pay141 accs2.2.2.1 (View.readAt (Elt F) b8.view (Rect.unit (s := S512) ![288] S16.size inb_S512_S16_288).toLoadRect C8),
    k0_pay142 accs2.2.2.2.1 (View.readAt (Elt F) b8.view (Rect.unit (s := S512) ![304] S16.size inb_S512_S16_304).toLoadRect C8),
    k0_pay143 accs2.2.2.2.2.1 (View.readAt (Elt F) b8.view (Rect.unit (s := S512) ![320] S16.size inb_S512_S16_320).toLoadRect C8),
    k0_pay144 accs2.2.2.2.2.2.1 (View.readAt (Elt F) b8.view (Rect.unit (s := S512) ![336] S16.size inb_S512_S16_336).toLoadRect C8),
    k0_pay145 accs2.2.2.2.2.2.2.1 (View.readAt (Elt F) b8.view (Rect.unit (s := S512) ![352] S16.size inb_S512_S16_352).toLoadRect C8),
    k0_pay146 accs2.2.2.2.2.2.2.2 (View.readAt (Elt F) b8.view (Rect.unit (s := S512) ![368] S16.size inb_S512_S16_368).toLoadRect C8),
    k0_pay156 accs3.1 (View.readAt (Elt F) b8.view (Rect.unit (s := S512) ![384] S16.size inb_S512_S16_384).toLoadRect C8),
    k0_pay157 accs3.2.1 (View.readAt (Elt F) b8.view (Rect.unit (s := S512) ![400] S16.size inb_S512_S16_400).toLoadRect C8),
    k0_pay158 accs3.2.2.1 (View.readAt (Elt F) b8.view (Rect.unit (s := S512) ![416] S16.size inb_S512_S16_416).toLoadRect C8),
    k0_pay159 accs3.2.2.2.1 (View.readAt (Elt F) b8.view (Rect.unit (s := S512) ![432] S16.size inb_S512_S16_432).toLoadRect C8),
    k0_pay160 accs3.2.2.2.2.1 (View.readAt (Elt F) b8.view (Rect.unit (s := S512) ![448] S16.size inb_S512_S16_448).toLoadRect C8),
    k0_pay161 accs3.2.2.2.2.2.1 (View.readAt (Elt F) b8.view (Rect.unit (s := S512) ![464] S16.size inb_S512_S16_464).toLoadRect C8),
    k0_pay162 accs3.2.2.2.2.2.2.1 (View.readAt (Elt F) b8.view (Rect.unit (s := S512) ![480] S16.size inb_S512_S16_480).toLoadRect C8),
    k0_pay163 accs3.2.2.2.2.2.2.2 (View.readAt (Elt F) b8.view (Rect.unit (s := S512) ![496] S16.size inb_S512_S16_496).toLoadRect C8)]

/-- Lane x of store n is the result function at molecule 1024 L₁ + 512 L₀ + 16 n + x. -/
theorem out_value (fS : S200x16384.Idx → BitVec 32) (fE : S16384.Idx → F .f32) (fT : S8.Idx → F .f32) (L : grid0.Coords)
    (C10 : S16.Idx → F .f32) (C8 : S512.Idx → F .f32)
    (C7_0 C7_1 C7_2 C7_3 : S4x200x128.Idx → BitVec 32)
    (accs0 accs1 accs2 accs3 : FVec F S16 .f32 × FVec F S16 .f32 × FVec F S16 .f32 × FVec F S16 .f32 × FVec F S16 .f32 × FVec F S16 .f32 × FVec F S16 .f32 × FVec F S16 .f32)
    (hT10 : T10OK fT C10) (hE : E8OK fE L C8)
    (hS0 : SlabOK fS L C7_0 0) (hS1 : SlabOK fS L C7_1 1) (hS2 : SlabOK fS L C7_2 2) (hS3 : SlabOK fS L C7_3 3)
    (hL0 : SlabLt C7_0 0) (hL1 : SlabLt C7_1 1) (hL2 : SlabLt C7_2 2) (hL3 : SlabLt C7_3 3)
    (hA0 : AccOK C10 C7_0 0 50 accs0) (hA1 : AccOK C10 C7_1 1 50 accs1) (hA2 : AccOK C10 C7_2 2 50 accs2) (hA3 : AccOK C10 C7_3 3 50 accs3)
    (n : Fin 32) (x : S16.Idx) :
    payN C8 accs0 accs1 accs2 accs3 n x
      = outSpec fS fE fT (ValueIdx.ix1 ⟨1024 * (L 1).val + 512 * (L 0).val + 16 * n.val + (x 0).val, OV.mol_lt L n x⟩) := by
  fin_cases n
  · exact OV.lane_out fS fE fT L C10 C8 C7_0 0 0 0 (by decide) (by decide) rfl accs0.1
      (View.readAt (Elt F) b8.view (Rect.unit (s := S512) ![0] S16.size inb_S512_S16_0).toLoadRect C8) hT10 hE hS0 hL0 hA0.1 x
      (fun y => b8_load_lane C8 _ _ 0 rfl y) _
  · exact OV.lane_out fS fE fT L C10 C8 C7_0 0 1 1 (by decide) (by decide) rfl accs0.2.1
      (View.readAt (Elt F) b8.view (Rect.unit (s := S512) ![16] S16.size inb_S512_S16_16).toLoadRect C8) hT10 hE hS0 hL0 hA0.2.1 x
      (fun y => b8_load_lane C8 _ _ 16 rfl y) _
  · exact OV.lane_out fS fE fT L C10 C8 C7_0 0 2 2 (by decide) (by decide) rfl accs0.2.2.1
      (View.readAt (Elt F) b8.view (Rect.unit (s := S512) ![32] S16.size inb_S512_S16_32).toLoadRect C8) hT10 hE hS0 hL0 hA0.2.2.1 x
      (fun y => b8_load_lane C8 _ _ 32 rfl y) _
  · exact OV.lane_out fS fE fT L C10 C8 C7_0 0 3 3 (by decide) (by decide) rfl accs0.2.2.2.1
      (View.readAt (Elt F) b8.view (Rect.unit (s := S512) ![48] S16.size inb_S512_S16_48).toLoadRect C8) hT10 hE hS0 hL0 hA0.2.2.2.1 x
      (fun y => b8_load_lane C8 _ _ 48 rfl y) _
  · exact OV.lane_out fS fE fT L C10 C8 C7_0 0 4 4 (by decide) (by decide) rfl accs0.2.2.2.2.1
      (View.readAt (Elt F) b8.view (Rect.unit (s := S512) ![64] S16.size inb_S512_S16_64).toLoadRect C8) hT10 hE hS0 hL0 hA0.2.2.2.2.1 x
      (fun y => b8_load_lane C8 _ _ 64 rfl y) _
  · exact OV.lane_out fS fE fT L C10 C8 C7_0 0 5 5 (by decide) (by decide) rfl accs0.2.2.2.2.2.1
      (View.readAt (Elt F) b8.view (Rect.unit (s := S512) ![80] S16.size inb_S512_S16_80).toLoadRect C8) hT10 hE hS0 hL0 hA0.2.2.2.2.2.1 x
      (fun y => b8_load_lane C8 _ _ 80 rfl y) _
  · exact OV.lane_out fS fE fT L C10 C8 C7_0 0 6 6 (by decide) (by decide) rfl accs0.2.2.2.2.2.2.1
      (View.readAt (Elt F) b8.view (Rect.unit (s := S512) ![96] S16.size inb_S512_S16_96).toLoadRect C8) hT10 hE hS0 hL0 hA0.2.2.2.2.2.2.1 x
      (fun y => b8_load_lane C8 _ _ 96 rfl y) _
  · exact OV.lane_out fS fE fT L C10 C8 C7_0 0 7 7 (by decide) (by decide) rfl accs0.2.2.2.2.2.2.2
      (View.readAt (Elt F) b8.view (Rect.unit (s := S512) ![112] S16.size inb_S512_S16_112).toLoadRect C8) hT10 hE hS0 hL0 hA0.2.2.2.2.2.2.2 x
      (fun y => b8_load_lane C8 _ _ 112 rfl y) _
  · exact OV.lane_out fS fE fT L C10 C8 C7_1 1 0 8 (by decide) (by decide) rfl accs1.1
      (View.readAt (Elt F) b8.view (Rect.unit (s := S512) ![128] S16.size inb_S512_S16_128).toLoadRect C8) hT10 hE hS1 hL1 hA1.1 x
      (fun y => b8_load_lane C8 _ _ 128 rfl y) _
  · exact OV.lane_out fS fE fT L C10 C8 C7_1 1 1 9 (by decide) (by decide) rfl accs1.2.1
      (View.readAt (Elt F) b8.view (Rect.unit (s := S512) ![144] S16.size inb_S512_S16_144).toLoadRect C8) hT10 hE hS1 hL1 hA1.2.1 x
      (fun y => b8_load_lane C8 _ _ 144 rfl y) _
  · exact OV.lane_out fS fE fT L C10 C8 C7_1 1 2 10 (by decide) (by decide) rfl accs1.2.2.1
      (View.readAt (Elt F) b8.view (Rect.unit (s := S512) ![160] S16.size inb_S512_S16_160).toLoadRect C8) hT10 hE hS1 hL1 hA1.2.2.1 x
      (fun y => b8_load_lane C8 _ _ 160 rfl y) _
  · exact OV.lane_out fS fE fT L C10 C8 C7_1 1 3 11 (by decide) (by decide) rfl accs1.2.2.2.1
      (View.readAt (Elt F) b8.view (Rect.unit (s := S512) ![176] S16.size inb_S512_S16_176).toLoadRect C8) hT10 hE hS1 hL1 hA1.2.2.2.1 x
      (fun y => b8_load_lane C8 _ _ 176 rfl y) _
  · exact OV.lane_out fS fE fT L C10 C8 C7_1 1 4 12 (by decide) (by decide) rfl accs1.2.2.2.2.1
      (View.readAt (Elt F) b8.view (Rect.unit (s := S512) ![192] S16.size inb_S512_S16_192).toLoadRect C8) hT10 hE hS1 hL1 hA1.2.2.2.2.1 x
      (fun y => b8_load_lane C8 _ _ 192 rfl y) _
  · exact OV.lane_out fS fE fT L C10 C8 C7_1 1 5 13 (by decide) (by decide) rfl accs1.2.2.2.2.2.1
      (View.readAt (Elt F) b8.view (Rect.unit (s := S512) ![208] S16.size inb_S512_S16_208).toLoadRect C8) hT10 hE hS1 hL1 hA1.2.2.2.2.2.1 x
      (fun y => b8_load_lane C8 _ _ 208 rfl y) _
  · exact OV.lane_out fS fE fT L C10 C8 C7_1 1 6 14 (by decide) (by decide) rfl accs1.2.2.2.2.2.2.1
      (View.readAt (Elt F) b8.view (Rect.unit (s := S512) ![224] S16.size inb_S512_S16_224).toLoadRect C8) hT10 hE hS1 hL1 hA1.2.2.2.2.2.2.1 x
      (fun y => b8_load_lane C8 _ _ 224 rfl y) _
  · exact OV.lane_out fS fE fT L C10 C8 C7_1 1 7 15 (by decide) (by decide) rfl accs1.2.2.2.2.2.2.2
      (View.readAt (Elt F) b8.view (Rect.unit (s := S512) ![240] S16.size inb_S512_S16_240).toLoadRect C8) hT10 hE hS1 hL1 hA1.2.2.2.2.2.2.2 x
      (fun y => b8_load_lane C8 _ _ 240 rfl y) _
  · exact OV.lane_out fS fE fT L C10 C8 C7_2 2 0 16 (by decide) (by decide) rfl accs2.1
      (View.readAt (Elt F) b8.view (Rect.unit (s := S512) ![256] S16.size inb_S512_S16_256).toLoadRect C8) hT10 hE hS2 hL2 hA2.1 x
      (fun y => b8_load_lane C8 _ _ 256 rfl y) _
  · exact OV.lane_out fS fE fT L C10 C8 C7_2 2 1 17 (by decide) (by decide) rfl accs2.2.1
      (View.readAt (Elt F) b8.view (Rect.unit (s := S512) ![272] S16.size inb_S512_S16_272).toLoadRect C8) hT10 hE hS2 hL2 hA2.2.1 x
      (fun y => b8_load_lane C8 _ _ 272 rfl y) _
  · exact OV.lane_out fS fE fT L C10 C8 C7_2 2 2 18 (by decide) (by decide) rfl accs2.2.2.1
      (View.readAt (Elt F) b8.view (Rect.unit (s := S512) ![288] S16.size inb_S512_S16_288).toLoadRect C8) hT10 hE hS2 hL2 hA2.2.2.1 x
      (fun y => b8_load_lane C8 _ _ 288 rfl y) _
  · exact OV.lane_out fS fE fT L C10 C8 C7_2 2 3 19 (by decide) (by decide) rfl accs2.2.2.2.1
      (View.readAt (Elt F) b8.view (Rect.unit (s := S512) ![304] S16.size inb_S512_S16_304).toLoadRect C8) hT10 hE hS2 hL2 hA2.2.2.2.1 x
      (fun y => b8_load_lane C8 _ _ 304 rfl y) _
  · exact OV.lane_out fS fE fT L C10 C8 C7_2 2 4 20 (by decide) (by decide) rfl accs2.2.2.2.2.1
      (View.readAt (Elt F) b8.view (Rect.unit (s := S512) ![320] S16.size inb_S512_S16_320).toLoadRect C8) hT10 hE hS2 hL2 hA2.2.2.2.2.1 x
      (fun y => b8_load_lane C8 _ _ 320 rfl y) _
  · exact OV.lane_out fS fE fT L C10 C8 C7_2 2 5 21 (by decide) (by decide) rfl accs2.2.2.2.2.2.1
      (View.readAt (Elt F) b8.view (Rect.unit (s := S512) ![336] S16.size inb_S512_S16_336).toLoadRect C8) hT10 hE hS2 hL2 hA2.2.2.2.2.2.1 x
      (fun y => b8_load_lane C8 _ _ 336 rfl y) _
  · exact OV.lane_out fS fE fT L C10 C8 C7_2 2 6 22 (by decide) (by decide) rfl accs2.2.2.2.2.2.2.1
      (View.readAt (Elt F) b8.view (Rect.unit (s := S512) ![352] S16.size inb_S512_S16_352).toLoadRect C8) hT10 hE hS2 hL2 hA2.2.2.2.2.2.2.1 x
      (fun y => b8_load_lane C8 _ _ 352 rfl y) _
  · exact OV.lane_out fS fE fT L C10 C8 C7_2 2 7 23 (by decide) (by decide) rfl accs2.2.2.2.2.2.2.2
      (View.readAt (Elt F) b8.view (Rect.unit (s := S512) ![368] S16.size inb_S512_S16_368).toLoadRect C8) hT10 hE hS2 hL2 hA2.2.2.2.2.2.2.2 x
      (fun y => b8_load_lane C8 _ _ 368 rfl y) _
  · exact OV.lane_out fS fE fT L C10 C8 C7_3 3 0 24 (by decide) (by decide) rfl accs3.1
      (View.readAt (Elt F) b8.view (Rect.unit (s := S512) ![384] S16.size inb_S512_S16_384).toLoadRect C8) hT10 hE hS3 hL3 hA3.1 x
      (fun y => b8_load_lane C8 _ _ 384 rfl y) _
  · exact OV.lane_out fS fE fT L C10 C8 C7_3 3 1 25 (by decide) (by decide) rfl accs3.2.1
      (View.readAt (Elt F) b8.view (Rect.unit (s := S512) ![400] S16.size inb_S512_S16_400).toLoadRect C8) hT10 hE hS3 hL3 hA3.2.1 x
      (fun y => b8_load_lane C8 _ _ 400 rfl y) _
  · exact OV.lane_out fS fE fT L C10 C8 C7_3 3 2 26 (by decide) (by decide) rfl accs3.2.2.1
      (View.readAt (Elt F) b8.view (Rect.unit (s := S512) ![416] S16.size inb_S512_S16_416).toLoadRect C8) hT10 hE hS3 hL3 hA3.2.2.1 x
      (fun y => b8_load_lane C8 _ _ 416 rfl y) _
  · exact OV.lane_out fS fE fT L C10 C8 C7_3 3 3 27 (by decide) (by decide) rfl accs3.2.2.2.1
      (View.readAt (Elt F) b8.view (Rect.unit (s := S512) ![432] S16.size inb_S512_S16_432).toLoadRect C8) hT10 hE hS3 hL3 hA3.2.2.2.1 x
      (fun y => b8_load_lane C8 _ _ 432 rfl y) _
  · exact OV.lane_out fS fE fT L C10 C8 C7_3 3 4 28 (by decide) (by decide) rfl accs3.2.2.2.2.1
      (View.readAt (Elt F) b8.view (Rect.unit (s := S512) ![448] S16.size inb_S512_S16_448).toLoadRect C8) hT10 hE hS3 hL3 hA3.2.2.2.2.1 x
      (fun y => b8_load_lane C8 _ _ 448 rfl y) _
  · exact OV.lane_out fS fE fT L C10 C8 C7_3 3 5 29 (by decide) (by decide) rfl accs3.2.2.2.2.2.1
      (View.readAt (Elt F) b8.view (Rect.unit (s := S512) ![464] S16.size inb_S512_S16_464).toLoadRect C8) hT10 hE hS3 hL3 hA3.2.2.2.2.2.1 x
      (fun y => b8_load_lane C8 _ _ 464 rfl y) _
  · exact OV.lane_out fS fE fT L C10 C8 C7_3 3 6 30 (by decide) (by decide) rfl accs3.2.2.2.2.2.2.1
      (View.readAt (Elt F) b8.view (Rect.unit (s := S512) ![480] S16.size inb_S512_S16_480).toLoadRect C8) hT10 hE hS3 hL3 hA3.2.2.2.2.2.2.1 x
      (fun y => b8_load_lane C8 _ _ 480 rfl y) _
  · exact OV.lane_out fS fE fT L C10 C8 C7_3 3 7 31 (by decide) (by decide) rfl accs3.2.2.2.2.2.2.2
      (View.readAt (Elt F) b8.view (Rect.unit (s := S512) ![496] S16.size inb_S512_S16_496).toLoadRect C8) hT10 hE hS3 hL3 hA3.2.2.2.2.2.2.2 x
      (fun y => b8_load_lane C8 _ _ 496 rfl y) _

namespace OV

/-- Entry p of the tile's chunk of the result array is the array's entry 1024 L₁ + 512 L₀ + p. -/
theorem oCh_emb (L : grid0.Coords) (p : Fin 512) :
    (oCh L).view.emb (ValueIdx.ix1 p) = ValueIdx.ix1 ⟨1024 * (L 1).val + 512 * (L 0).val + p.val, by
      have h1 : (L 1).val < 16 := (L 1).isLt
      have h0 : (L 0).val < 2 := (L 0).isLt
      omega⟩ := by
  funext d
  have ho := k0_off69_eq L
  match d with
  | ⟨0, _⟩ =>
    refine Fin.ext ?_
    show (k0_off69 L) 0 + 1 * p.val = 1024 * (L 1).val + 512 * (L 0).val + p.val
    rw [ho]; show 1024 * (L 1).val + 512 * (L 0).val + 1 * p.val = _; omega

end OV

/-- The tile's chunk of the result array, after the output scratch landed in it, is the result function on its elements. -/
theorem oCh_landed (d : Dev nD) (q : PosShare TreeShare) (g : Buf (Elt F) (oLoc d)) (f9 : S512.Idx → F .f32)
    (fS : S200x16384.Idx → BitVec 32) (fE : S16384.Idx → F .f32) (fT : S8.Idx → F .f32) (L : grid0.Coords)
    (C10 : S16.Idx → F .f32) (C8 : S512.Idx → F .f32)
    (C7_0 C7_1 C7_2 C7_3 : S4x200x128.Idx → BitVec 32)
    (accs0 accs1 accs2 accs3 : FVec F S16 .f32 × FVec F S16 .f32 × FVec F S16 .f32 × FVec F S16 .f32 × FVec F S16 .f32 × FVec F S16 .f32 × FVec F S16 .f32 × FVec F S16 .f32)
    (hT10 : T10OK fT C10) (hE : E8OK fE L C8)
    (hS0 : SlabOK fS L C7_0 0) (hS1 : SlabOK fS L C7_1 1) (hS2 : SlabOK fS L C7_2 2) (hS3 : SlabOK fS L C7_3 3)
    (hL0 : SlabLt C7_0 0) (hL1 : SlabLt C7_1 1) (hL2 : SlabLt C7_2 2) (hL3 : SlabLt C7_3 3)
    (hA0 : AccOK C10 C7_0 0 50 accs0) (hA1 : AccOK C10 C7_1 1 50 accs1) (hA2 : AccOK C10 C7_2 2 50 accs2) (hA3 : AccOK C10 C7_3 3 50 accs3) :
    ((oCh L).view.loc (thr d L) ↦[(oCh L).view.set]{q} ((oCh L).view.writes (Elt F) g [⟨Rect.whole S512, ReadAs.same.apply (View.read (Elt F) b9.view (b9.view.writes (Elt F) f9
      [⟨Rect.unit (s := S512) ![496] S16.size inb_S512_S16_496, k0_pay163 accs3.2.2.2.2.2.2.2 (View.readAt (Elt F) b8.view (Rect.unit (s := S512) ![496] S16.size inb_S512_S16_496).toLoadRect C8)⟩,
      ⟨Rect.unit (s := S512) ![480] S16.size inb_S512_S16_480, k0_pay162 accs3.2.2.2.2.2.2.1 (View.readAt (Elt F) b8.view (Rect.unit (s := S512) ![480] S16.size inb_S512_S16_480).toLoadRect C8)⟩,
      ⟨Rect.unit (s := S512) ![464] S16.size inb_S512_S16_464, k0_pay161 accs3.2.2.2.2.2.1 (View.readAt (Elt F) b8.view (Rect.unit (s := S512) ![464] S16.size inb_S512_S16_464).toLoadRect C8)⟩,
      ⟨Rect.unit (s := S512) ![448] S16.size inb_S512_S16_448, k0_pay160 accs3.2.2.2.2.1 (View.readAt (Elt F) b8.view (Rect.unit (s := S512) ![448] S16.size inb_S512_S16_448).toLoadRect C8)⟩,
      ⟨Rect.unit (s := S512) ![432] S16.size inb_S512_S16_432, k0_pay159 accs3.2.2.2.1 (View.readAt (Elt F) b8.view (Rect.unit (s := S512) ![432] S16.size inb_S512_S16_432).toLoadRect C8)⟩,
      ⟨Rect.unit (s := S512) ![416] S16.size inb_S512_S16_416, k0_pay158 accs3.2.2.1 (View.readAt (Elt F) b8.view (Rect.unit (s := S512) ![416] S16.size inb_S512_S16_416).toLoadRect C8)⟩,
      ⟨Rect.unit (s := S512) ![400] S16.size inb_S512_S16_400, k0_pay157 accs3.2.1 (View.readAt (Elt F) b8.view (Rect.unit (s := S512) ![400] S16.size inb_S512_S16_400).toLoadRect C8)⟩,
      ⟨Rect.unit (s := S512) ![384] S16.size inb_S512_S16_384, k0_pay156 accs3.1 (View.readAt (Elt F) b8.view (Rect.unit (s := S512) ![384] S16.size inb_S512_S16_384).toLoadRect C8)⟩,
      ⟨Rect.unit (s := S512) ![368] S16.size inb_S512_S16_368, k0_pay146 accs2.2.2.2.2.2.2.2 (View.readAt (Elt F) b8.view (Rect.unit (s := S512) ![368] S16.size inb_S512_S16_368).toLoadRect C8)⟩,
      ⟨Rect.unit (s := S512) ![352] S16.size inb_S512_S16_352, k0_pay145 accs2.2.2.2.2.2.2.1 (View.readAt (Elt F) b8.view (Rect.unit (s := S512) ![352] S16.size inb_S512_S16_352).toLoadRect C8)⟩,
      ⟨Rect.unit (s := S512) ![336] S16.size inb_S512_S16_336, k0_pay144 accs2.2.2.2.2.2.1 (View.readAt (Elt F) b8.view (Rect.unit (s := S512) ![336] S16.size inb_S512_S16_336).toLoadRect C8)⟩,
      ⟨Rect.unit (s := S512) ![320] S16.size inb_S512_S16_320, k0_pay143 accs2.2.2.2.2.1 (View.readAt (Elt F) b8.view (Rect.unit (s := S512) ![320] S16.size inb_S512_S16_320).toLoadRect C8)⟩,
      ⟨Rect.unit (s := S512) ![304] S16.size inb_S512_S16_304, k0_pay142 accs2.2.2.2.1 (View.readAt (Elt F) b8.view (Rect.unit (s := S512) ![304] S16.size inb_S512_S16_304).toLoadRect C8)⟩,
      ⟨Rect.unit (s := S512) ![288] S16.size inb_S512_S16_288, k0_pay141 accs2.2.2.1 (View.readAt (Elt F) b8.view (Rect.unit (s := S512) ![288] S16.size inb_S512_S16_288).toLoadRect C8)⟩,
      ⟨Rect.unit (s := S512) ![272] S16.size inb_S512_S16_272, k0_pay140 accs2.2.1 (View.readAt (Elt F) b8.view (Rect.unit (s := S512) ![272] S16.size inb_S512_S16_272).toLoadRect C8)⟩,
      ⟨Rect.unit (s := S512) ![256] S16.size inb_S512_S16_256, k0_pay139 accs2.1 (View.readAt (Elt F) b8.view (Rect.unit (s := S512) ![256] S16.size inb_S512_S16_256).toLoadRect C8)⟩,
      ⟨Rect.unit (s := S512) ![240] S16.size inb_S512_S16_240, k0_pay129 accs1.2.2.2.2.2.2.2 (View.readAt (Elt F) b8.view (Rect.unit (s := S512) ![240] S16.size inb_S512_S16_240).toLoadRect C8)⟩,
      ⟨Rect.unit (s := S512) ![224] S16.size inb_S512_S16_224, k0_pay128 accs1.2.2.2.2.2.2.1 (View.readAt (Elt F) b8.view (Rect.unit (s := S512) ![224] S16.size inb_S512_S16_224).toLoadRect C8)⟩,
      ⟨Rect.unit (s := S512) ![208] S16.size inb_S512_S16_208, k0_pay127 accs1.2.2.2.2.2.1 (View.readAt (Elt F) b8.view (Rect.unit (s := S512) ![208] S16.size inb_S512_S16_208).toLoadRect C8)⟩,
      ⟨Rect.unit (s := S512) ![192] S16.size inb_S512_S16_192, k0_pay126 accs1.2.2.2.2.1 (View.readAt (Elt F) b8.view (Rect.unit (s := S512) ![192] S16.size inb_S512_S16_192).toLoadRect C8)⟩,
      ⟨Rect.unit (s := S512) ![176] S16.size inb_S512_S16_176, k0_pay125 accs1.2.2.2.1 (View.readAt (Elt F) b8.view (Rect.unit (s := S512) ![176] S16.size inb_S512_S16_176).toLoadRect C8)⟩,
      ⟨Rect.unit (s := S512) ![160] S16.size inb_S512_S16_160, k0_pay124 accs1.2.2.1 (View.readAt (Elt F) b8.view (Rect.unit (s := S512) ![160] S16.size inb_S512_S16_160).toLoadRect C8)⟩,
      ⟨Rect.unit (s := S512) ![144] S16.size inb_S512_S16_144, k0_pay123 accs1.2.1 (View.readAt (Elt F) b8.view (Rect.unit (s := S512) ![144] S16.size inb_S512_S16_144).toLoadRect C8)⟩,
      ⟨Rect.unit (s := S512) ![128] S16.size inb_S512_S16_128, k0_pay122 accs1.1 (View.readAt (Elt F) b8.view (Rect.unit (s := S512) ![128] S16.size inb_S512_S16_128).toLoadRect C8)⟩,
      ⟨Rect.unit (s := S512) ![112] S16.size inb_S512_S16_112, k0_pay112 accs0.2.2.2.2.2.2.2 (View.readAt (Elt F) b8.view (Rect.unit (s := S512) ![112] S16.size inb_S512_S16_112).toLoadRect C8)⟩,
      ⟨Rect.unit (s := S512) ![96] S16.size inb_S512_S16_96, k0_pay111 accs0.2.2.2.2.2.2.1 (View.readAt (Elt F) b8.view (Rect.unit (s := S512) ![96] S16.size inb_S512_S16_96).toLoadRect C8)⟩,
      ⟨Rect.unit (s := S512) ![80] S16.size inb_S512_S16_80, k0_pay110 accs0.2.2.2.2.2.1 (View.readAt (Elt F) b8.view (Rect.unit (s := S512) ![80] S16.size inb_S512_S16_80).toLoadRect C8)⟩,
      ⟨Rect.unit (s := S512) ![64] S16.size inb_S512_S16_64, k0_pay109 accs0.2.2.2.2.1 (View.readAt (Elt F) b8.view (Rect.unit (s := S512) ![64] S16.size inb_S512_S16_64).toLoadRect C8)⟩,
      ⟨Rect.unit (s := S512) ![48] S16.size inb_S512_S16_48, k0_pay108 accs0.2.2.2.1 (View.readAt (Elt F) b8.view (Rect.unit (s := S512) ![48] S16.size inb_S512_S16_48).toLoadRect C8)⟩,
      ⟨Rect.unit (s := S512) ![32] S16.size inb_S512_S16_32, k0_pay107 accs0.2.2.1 (View.readAt (Elt F) b8.view (Rect.unit (s := S512) ![32] S16.size inb_S512_S16_32).toLoadRect C8)⟩,
      ⟨Rect.unit (s := S512) ![16] S16.size inb_S512_S16_16, k0_pay106 accs0.2.1 (View.readAt (Elt F) b8.view (Rect.unit (s := S512) ![16] S16.size inb_S512_S16_16).toLoadRect C8)⟩,
      ⟨Rect.unit (s := S512) ![0] S16.size inb_S512_S16_0, k0_pay105 accs0.1 (View.readAt (Elt F) b8.view (Rect.unit (s := S512) ![0] S16.size inb_S512_S16_0).toLoadRect C8)⟩]))⟩]) : sProp 𝕄)
      = (oLoc d ↦[(oCh L).view.set]{q} outSpec fS fE fT) := by
  refine pointsTo_congr (fun i hi => ?_)
  obtain ⟨j, -, rfl⟩ := Finset.mem_map.mp (show i ∈ Finset.univ.map (oCh L).view.emb from hi)
  obtain ⟨p, rfl⟩ : ∃ p, j = ValueIdx.ix1 p := ⟨j 0, ValueIdx.eq_ix1 j⟩
  have hw : ((oCh L).view.slice (Rect.whole S512)).emb (ValueIdx.ix1 p) = (oCh L).view.emb (ValueIdx.ix1 p) := by
    show (oCh L).view.emb ((Rect.whole S512).emb (ValueIdx.ix1 p)) = _
    rw [Rect.emb_whole_apply]
  rw [View.writes_singleton, ← hw, View.write_emb_of_mem _ _ (Finset.mem_univ _), hw, ReadAs.apply_same, View.read_apply]
  have key : (b9.view.writes (Elt F) f9
      [⟨Rect.unit (s := S512) ![496] S16.size inb_S512_S16_496, k0_pay163 accs3.2.2.2.2.2.2.2 (View.readAt (Elt F) b8.view (Rect.unit (s := S512) ![496] S16.size inb_S512_S16_496).toLoadRect C8)⟩,
      ⟨Rect.unit (s := S512) ![480] S16.size inb_S512_S16_480, k0_pay162 accs3.2.2.2.2.2.2.1 (View.readAt (Elt F) b8.view (Rect.unit (s := S512) ![480] S16.size inb_S512_S16_480).toLoadRect C8)⟩,
      ⟨Rect.unit (s := S512) ![464] S16.size inb_S512_S16_464, k0_pay161 accs3.2.2.2.2.2.1 (View.readAt (Elt F) b8.view (Rect.unit (s := S512) ![464] S16.size inb_S512_S16_464).toLoadRect C8)⟩,
      ⟨Rect.unit (s := S512) ![448] S16.size inb_S512_S16_448, k0_pay160 accs3.2.2.2.2.1 (View.readAt (Elt F) b8.view (Rect.unit (s := S512) ![448] S16.size inb_S512_S16_448).toLoadRect C8)⟩,
      ⟨Rect.unit (s := S512) ![432] S16.size inb_S512_S16_432, k0_pay159 accs3.2.2.2.1 (View.readAt (Elt F) b8.view (Rect.unit (s := S512) ![432] S16.size inb_S512_S16_432).toLoadRect C8)⟩,
      ⟨Rect.unit (s := S512) ![416] S16.size inb_S512_S16_416, k0_pay158 accs3.2.2.1 (View.readAt (Elt F) b8.view (Rect.unit (s := S512) ![416] S16.size inb_S512_S16_416).toLoadRect C8)⟩,
      ⟨Rect.unit (s := S512) ![400] S16.size inb_S512_S16_400, k0_pay157 accs3.2.1 (View.readAt (Elt F) b8.view (Rect.unit (s := S512) ![400] S16.size inb_S512_S16_400).toLoadRect C8)⟩,
      ⟨Rect.unit (s := S512) ![384] S16.size inb_S512_S16_384, k0_pay156 accs3.1 (View.readAt (Elt F) b8.view (Rect.unit (s := S512) ![384] S16.size inb_S512_S16_384).toLoadRect C8)⟩,
      ⟨Rect.unit (s := S512) ![368] S16.size inb_S512_S16_368, k0_pay146 accs2.2.2.2.2.2.2.2 (View.readAt (Elt F) b8.view (Rect.unit (s := S512) ![368] S16.size inb_S512_S16_368).toLoadRect C8)⟩,
      ⟨Rect.unit (s := S512) ![352] S16.size inb_S512_S16_352, k0_pay145 accs2.2.2.2.2.2.2.1 (View.readAt (Elt F) b8.view (Rect.unit (s := S512) ![352] S16.size inb_S512_S16_352).toLoadRect C8)⟩,
      ⟨Rect.unit (s := S512) ![336] S16.size inb_S512_S16_336, k0_pay144 accs2.2.2.2.2.2.1 (View.readAt (Elt F) b8.view (Rect.unit (s := S512) ![336] S16.size inb_S512_S16_336).toLoadRect C8)⟩,
      ⟨Rect.unit (s := S512) ![320] S16.size inb_S512_S16_320, k0_pay143 accs2.2.2.2.2.1 (View.readAt (Elt F) b8.view (Rect.unit (s := S512) ![320] S16.size inb_S512_S16_320).toLoadRect C8)⟩,
      ⟨Rect.unit (s := S512) ![304] S16.size inb_S512_S16_304, k0_pay142 accs2.2.2.2.1 (View.readAt (Elt F) b8.view (Rect.unit (s := S512) ![304] S16.size inb_S512_S16_304).toLoadRect C8)⟩,
      ⟨Rect.unit (s := S512) ![288] S16.size inb_S512_S16_288, k0_pay141 accs2.2.2.1 (View.readAt (Elt F) b8.view (Rect.unit (s := S512) ![288] S16.size inb_S512_S16_288).toLoadRect C8)⟩,
      ⟨Rect.unit (s := S512) ![272] S16.size inb_S512_S16_272, k0_pay140 accs2.2.1 (View.readAt (Elt F) b8.view (Rect.unit (s := S512) ![272] S16.size inb_S512_S16_272).toLoadRect C8)⟩,
      ⟨Rect.unit (s := S512) ![256] S16.size inb_S512_S16_256, k0_pay139 accs2.1 (View.readAt (Elt F) b8.view (Rect.unit (s := S512) ![256] S16.size inb_S512_S16_256).toLoadRect C8)⟩,
      ⟨Rect.unit (s := S512) ![240] S16.size inb_S512_S16_240, k0_pay129 accs1.2.2.2.2.2.2.2 (View.readAt (Elt F) b8.view (Rect.unit (s := S512) ![240] S16.size inb_S512_S16_240).toLoadRect C8)⟩,
      ⟨Rect.unit (s := S512) ![224] S16.size inb_S512_S16_224, k0_pay128 accs1.2.2.2.2.2.2.1 (View.readAt (Elt F) b8.view (Rect.unit (s := S512) ![224] S16.size inb_S512_S16_224).toLoadRect C8)⟩,
      ⟨Rect.unit (s := S512) ![208] S16.size inb_S512_S16_208, k0_pay127 accs1.2.2.2.2.2.1 (View.readAt (Elt F) b8.view (Rect.unit (s := S512) ![208] S16.size inb_S512_S16_208).toLoadRect C8)⟩,
      ⟨Rect.unit (s := S512) ![192] S16.size inb_S512_S16_192, k0_pay126 accs1.2.2.2.2.1 (View.readAt (Elt F) b8.view (Rect.unit (s := S512) ![192] S16.size inb_S512_S16_192).toLoadRect C8)⟩,
      ⟨Rect.unit (s := S512) ![176] S16.size inb_S512_S16_176, k0_pay125 accs1.2.2.2.1 (View.readAt (Elt F) b8.view (Rect.unit (s := S512) ![176] S16.size inb_S512_S16_176).toLoadRect C8)⟩,
      ⟨Rect.unit (s := S512) ![160] S16.size inb_S512_S16_160, k0_pay124 accs1.2.2.1 (View.readAt (Elt F) b8.view (Rect.unit (s := S512) ![160] S16.size inb_S512_S16_160).toLoadRect C8)⟩,
      ⟨Rect.unit (s := S512) ![144] S16.size inb_S512_S16_144, k0_pay123 accs1.2.1 (View.readAt (Elt F) b8.view (Rect.unit (s := S512) ![144] S16.size inb_S512_S16_144).toLoadRect C8)⟩,
      ⟨Rect.unit (s := S512) ![128] S16.size inb_S512_S16_128, k0_pay122 accs1.1 (View.readAt (Elt F) b8.view (Rect.unit (s := S512) ![128] S16.size inb_S512_S16_128).toLoadRect C8)⟩,
      ⟨Rect.unit (s := S512) ![112] S16.size inb_S512_S16_112, k0_pay112 accs0.2.2.2.2.2.2.2 (View.readAt (Elt F) b8.view (Rect.unit (s := S512) ![112] S16.size inb_S512_S16_112).toLoadRect C8)⟩,
      ⟨Rect.unit (s := S512) ![96] S16.size inb_S512_S16_96, k0_pay111 accs0.2.2.2.2.2.2.1 (View.readAt (Elt F) b8.view (Rect.unit (s := S512) ![96] S16.size inb_S512_S16_96).toLoadRect C8)⟩,
      ⟨Rect.unit (s := S512) ![80] S16.size inb_S512_S16_80, k0_pay110 accs0.2.2.2.2.2.1 (View.readAt (Elt F) b8.view (Rect.unit (s := S512) ![80] S16.size inb_S512_S16_80).toLoadRect C8)⟩,
      ⟨Rect.unit (s := S512) ![64] S16.size inb_S512_S16_64, k0_pay109 accs0.2.2.2.2.1 (View.readAt (Elt F) b8.view (Rect.unit (s := S512) ![64] S16.size inb_S512_S16_64).toLoadRect C8)⟩,
      ⟨Rect.unit (s := S512) ![48] S16.size inb_S512_S16_48, k0_pay108 accs0.2.2.2.1 (View.readAt (Elt F) b8.view (Rect.unit (s := S512) ![48] S16.size inb_S512_S16_48).toLoadRect C8)⟩,
      ⟨Rect.unit (s := S512) ![32] S16.size inb_S512_S16_32, k0_pay107 accs0.2.2.1 (View.readAt (Elt F) b8.view (Rect.unit (s := S512) ![32] S16.size inb_S512_S16_32).toLoadRect C8)⟩,
      ⟨Rect.unit (s := S512) ![16] S16.size inb_S512_S16_16, k0_pay106 accs0.2.1 (View.readAt (Elt F) b8.view (Rect.unit (s := S512) ![16] S16.size inb_S512_S16_16).toLoadRect C8)⟩,
      ⟨Rect.unit (s := S512) ![0] S16.size inb_S512_S16_0, k0_pay105 accs0.1 (View.readAt (Elt F) b8.view (Rect.unit (s := S512) ![0] S16.size inb_S512_S16_0).toLoadRect C8)⟩]) (ValueIdx.ix1 p)
      = outSpec fS fE fT ((oCh L).view.emb (ValueIdx.ix1 p)) := by
    have hlt := p.isLt
    obtain ⟨n, x, hp⟩ : ∃ (n : Fin 32) (x : S16.Idx), (ValueIdx.ix1 p : S512.Idx) = ValueIdx.ix1 ⟨16 * n.val + (x 0).val, OV.lane_lt n x⟩ := by
      refine ⟨⟨p.val / 16, by omega⟩, ValueIdx.ix1 ⟨p.val % 16, Nat.mod_lt _ (by decide)⟩, ?_⟩
      funext d
      match d with
      | ⟨0, _⟩ => exact Fin.ext (by show p.val = 16 * (p.val / 16) + p.val % 16; omega)
    rw [hp]
    refine (pieces32_apply f9 (payN C8 accs0 accs1 accs2 accs3) n x).trans ?_
    rw [out_value fS fE fT L C10 C8 C7_0 C7_1 C7_2 C7_3 accs0 accs1 accs2 accs3 hT10 hE hS0 hS1 hS2 hS3 hL0 hL1 hL2 hL3 hA0 hA1 hA2 hA3 n x, OV.oCh_emb]
    congr 1
    funext d
    match d with
    | ⟨0, _⟩ => exact Fin.ext (by show 1024 * (L 1).val + 512 * (L 0).val + 16 * n.val + (x 0).val = 1024 * (L 1).val + 512 * (L 0).val + (16 * n.val + (x 0).val); omega)
  exact key

end Cert.Proof.KI

end
-- ==== Proof.WriteBack.lean ====
/-
  The write-back panels of the copy hold the transposed species.

  Panel r of the tile at L travels twice: from the transposed species' columns 1024 L₁ + 512 L₀ + 128 r + [0, 128) into
  panel r of the scratch, and from there into the same columns of the copy. Entry (a, p) of what lands is the
  transposed species at row a, column 1024 L₁ + 512 L₀ + 128 r + p, which is the element of the copy it lands on:
  on the panel's elements the copy's contents are the transposed species'.
-/
import proofs.«206988_g4337916970008_retrytranche1_694_23_alg».proof.Proof.SlabCut
import proofs.«206988_g4337916970008_retrytranche1_694_23_alg».proof.Proof.ValueWrite

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

namespace WB

/-- Column panel r of the copy, of the transposed species, as the body slices them at the tile at L; panel t of the
    scratch at a printed offset. -/
abbrev wv (L : grid0.Coords) (r : Fin 4) : Memref sig .scVector .hbm S200x128 .i32 :=
  wV.slice (Rect.unit (s := S200x16384) (k0_off4 L (BitVec.ofNat 32 (128 * r.val))) S200x128.size (k0_off4_inb L r)) (fun _ => rfl)
abbrev sv (L : grid0.Coords) (r : Fin 4) : Memref sig .scVector .hbm S200x128 .i32 :=
  sV.slice (Rect.unit (s := S200x16384) (k0_off1 L (BitVec.ofNat 32 (128 * r.val))) S200x128.size (k0_off1_inb L r)) (fun _ => rfl)
abbrev sl (off : Fin 3 → ℕ) (inb : ∀ a, off a + S1x200x128.size a ≤ S4x200x128.size a) : Memref sig .scVector .vmem S200x128 .i32 :=
  (b7.slice (Rect.unit (s := S4x200x128) off S1x200x128.size inb) (fun _ => rfl)).squeeze S200x128 squeezes_S1x200x128_S200x128

theorem col_lt (L : grid0.Coords) (r : Fin 4) (p : Fin 128) : 1024 * (L 1).val + 512 * (L 0).val + 128 * r.val + p.val < 16384 := by
  have h := k0_off4_inb L r 1
  rw [k0_off4_eq L r] at h
  have h' : 1024 * (L 1).val + 512 * (L 0).val + 128 * r.val + 128 ≤ 16384 := h
  omega

/-- Entry (a, p) of panel r of the copy is the copy's element at row a, column 1024 L₁ + 512 L₀ + 128 r + p. -/
theorem wv_emb (L : grid0.Coords) (r : Fin 4) (a : Fin 200) (p : Fin 128) :
    (wv L r).view.emb (ValueIdx.ix2 a p) = ValueIdx.ix2 a ⟨1024 * (L 1).val + 512 * (L 0).val + 128 * r.val + p.val, col_lt L r p⟩ := by
  funext d
  have ho := k0_off4_eq L r
  match d with
  | ⟨0, _⟩ =>
    refine Fin.ext ?_
    show (k0_off4 L (BitVec.ofNat 32 (128 * r.val))) 0 + 1 * a.val = a.val
    rw [ho]; show 0 + 1 * a.val = a.val; omega
  | ⟨1, _⟩ =>
    refine Fin.ext ?_
    show (k0_off4 L (BitVec.ofNat 32 (128 * r.val))) 1 + 1 * p.val = 1024 * (L 1).val + 512 * (L 0).val + 128 * r.val + p.val
    rw [ho]; show 1024 * (L 1).val + 512 * (L 0).val + 128 * r.val + 1 * p.val = _; omega

/-- Entry (a, p) of panel t of the scratch is the scratch's element (t, a, p). -/
theorem sl_emb (off : Fin 3 → ℕ) (inb : ∀ a, off a + S1x200x128.size a ≤ S4x200x128.size a) (t : ℕ) (hoff : off = ![t, 0, 0]) (ht : t < 4)
    (a : Fin 200) (p : Fin 128) : (sl off inb).view.emb (ValueIdx.ix2 a p) = ValueIdx.ix3 ⟨t, ht⟩ a p := by
  subst hoff
  have hr : Shape.reshapeEquiv (s := S1x200x128) (s' := S200x128) squeezes_S1x200x128_S200x128.numel_eq (ValueIdx.ix2 a p)
      = ValueIdx.ix3 ⟨0, by decide⟩ a p :=
    Shape.reshapeEquiv_eq_of_rowMajor _ (by rw [Shape.rowMajor_val_three, Shape.rowMajor_val_two]; simp)
  show (Rect.unit (s := S4x200x128) ![t, 0, 0] S1x200x128.size inb).emb
      (Shape.reshapeEquiv (s := S1x200x128) (s' := S200x128) squeezes_S1x200x128_S200x128.numel_eq (ValueIdx.ix2 a p)) = _
  rw [hr]
  funext d
  match d with
  | ⟨0, _⟩ => exact Fin.ext (by show t + 1 * 0 = t; omega)
  | ⟨1, _⟩ => exact Fin.ext (by show 0 + 1 * a.val = a.val; omega)
  | ⟨2, _⟩ => exact Fin.ext (by show 0 + 1 * p.val = p.val; omega)

/-- On panel r's elements the copy, after the panel landed in it from the scratch where it had landed from the
    transposed species, is the transposed species. -/
theorem value (L : grid0.Coords) (r : Fin 4) (g : S200x16384.Idx → BitVec 32) (g' : S4x200x128.Idx → BitVec 32)
    (fS : S200x16384.Idx → BitVec 32) (off : Fin 3 → ℕ) (inb : ∀ a, off a + S1x200x128.size a ≤ S4x200x128.size a)
    (hoff : off = ![r.val, 0, 0]) (i : S200x16384.Idx) (hi : i ∈ (wv L r).view.set) :
    ((wv L r).view.writes (Elt F) g [⟨Rect.whole S200x128, ReadAs.same.apply (View.read (Elt F) (sl off inb).view
        ((sl off inb).view.writes (Elt F) g' [⟨Rect.whole S200x128, ReadAs.same.apply (View.read (Elt F) (sv L r).view fS)⟩]))⟩]) i
      = fS i := by
  obtain ⟨j, -, rfl⟩ := Finset.mem_map.mp (show i ∈ Finset.univ.map (wv L r).view.emb from hi)
  obtain ⟨a, p, rfl⟩ : ∃ a p, j = ValueIdx.ix2 a p := ⟨j 0, j 1, ValueIdx.eq_ix2 j⟩
  have hw : ((wv L r).view.slice (Rect.whole S200x128)).emb (ValueIdx.ix2 a p) = (wv L r).view.emb (ValueIdx.ix2 a p) := by
    show (wv L r).view.emb ((Rect.whole S200x128).emb (ValueIdx.ix2 a p)) = _
    rw [Rect.emb_whole_apply]
  rw [View.writes_singleton, ← hw, View.write_emb_of_mem _ _ (Finset.mem_univ _), hw]
  rw [ReadAs.apply_same, View.read_apply, sl_emb off inb r.val hoff r.isLt,
    slab_writes_apply (F := F) g' _ off inb r.val hoff r.isLt, sIn_read_apply, wv_emb]
  rfl

end WB

/-- Panel 0 of the copy, after the write-back, is the transposed species on its elements. -/
theorem wOut0_landed (d : Dev nD) (L : grid0.Coords) (q : PosShare TreeShare) (g : Buf (Elt F) (wLoc d))
    (g' : Buf (Elt F) ((thr d L).loc cc0_scratch0)) (fS : Buf (Elt F) (sLoc d)) :
    ((wOut0 L).view.loc (thr d L) ↦[(wOut0 L).view.set]{q} ((wOut0 L).view.writes (Elt F) g [⟨Rect.whole S200x128, ReadAs.same.apply (View.read (Elt F) slab0.view (slab0.view.writes (Elt F) g' [⟨Rect.whole S200x128, ReadAs.same.apply (View.read (Elt F) (sIn0 L).view fS)⟩]))⟩]) : sProp 𝕄)
      = (wLoc d ↦[(wOut0 L).view.set]{q} fS) :=
  pointsTo_congr (fun i hi => WB.value (F := F) L 0 g g' fS _ _ rfl i hi)

/-- Panel 1 of the copy, after the write-back, is the transposed species on its elements. -/
theorem wOut1_landed (d : Dev nD) (L : grid0.Coords) (q : PosShare TreeShare) (g : Buf (Elt F) (wLoc d))
    (g' : Buf (Elt F) ((thr d L).loc cc0_scratch0)) (fS : Buf (Elt F) (sLoc d)) :
    ((wOut1 L).view.loc (thr d L) ↦[(wOut1 L).view.set]{q} ((wOut1 L).view.writes (Elt F) g [⟨Rect.whole S200x128, ReadAs.same.apply (View.read (Elt F) slab1.view (slab1.view.writes (Elt F) g' [⟨Rect.whole S200x128, ReadAs.same.apply (View.read (Elt F) (sIn1 L).view fS)⟩]))⟩]) : sProp 𝕄)
      = (wLoc d ↦[(wOut1 L).view.set]{q} fS) :=
  pointsTo_congr (fun i hi => WB.value (F := F) L 1 g g' fS _ _ rfl i hi)

/-- Panel 2 of the copy, after the write-back, is the transposed species on its elements. -/
theorem wOut2_landed (d : Dev nD) (L : grid0.Coords) (q : PosShare TreeShare) (g : Buf (Elt F) (wLoc d))
    (g' : Buf (Elt F) ((thr d L).loc cc0_scratch0)) (fS : Buf (Elt F) (sLoc d)) :
    ((wOut2 L).view.loc (thr d L) ↦[(wOut2 L).view.set]{q} ((wOut2 L).view.writes (Elt F) g [⟨Rect.whole S200x128, ReadAs.same.apply (View.read (Elt F) slab2.view (slab2.view.writes (Elt F) g' [⟨Rect.whole S200x128, ReadAs.same.apply (View.read (Elt F) (sIn2 L).view fS)⟩]))⟩]) : sProp 𝕄)
      = (wLoc d ↦[(wOut2 L).view.set]{q} fS) :=
  pointsTo_congr (fun i hi => WB.value (F := F) L 2 g g' fS _ _ rfl i hi)

/-- Panel 3 of the copy, after the write-back, is the transposed species on its elements. -/
theorem wOut3_landed (d : Dev nD) (L : grid0.Coords) (q : PosShare TreeShare) (g : Buf (Elt F) (wLoc d))
    (g' : Buf (Elt F) ((thr d L).loc cc0_scratch0)) (fS : Buf (Elt F) (sLoc d)) :
    ((wOut3 L).view.loc (thr d L) ↦[(wOut3 L).view.set]{q} ((wOut3 L).view.writes (Elt F) g [⟨Rect.whole S200x128, ReadAs.same.apply (View.read (Elt F) slab3.view (slab3.view.writes (Elt F) g' [⟨Rect.whole S200x128, ReadAs.same.apply (View.read (Elt F) (sIn3 L).view fS)⟩]))⟩]) : sProp 𝕄)
      = (wLoc d ↦[(wOut3 L).view.set]{q} fS) :=
  pointsTo_congr (fun i hi => WB.value (F := F) L 3 g g' fS _ _ rfl i hi)

end Cert.Proof.KI

end
-- ==== Proof.TileBody.lean ====
/-
  One tile's task, at a symbolic tile: the body run once from the tile's pieces to its results.

  The four panels of species are fetched into the four panels of the species scratch, each on a semaphore of its own;
  the eight self energies and the tile's 512 energies are fetched and waited for; the table of 4096 sums of four self
  energies is built, sixteen entries a trip; then, panel by panel: the panel's fetch is waited for, its copy-out to the
  result's panel is started (the copy reads one half share of the scratch panel, the loop the other), fifty quads of
  table entries are added onto eight accumulators of sixteen molecules, and the energies are added into the output
  scratch; last the four copy-outs are waited for and the 512 results are copied out. The invariants carry the values:
  the table built up to the trip, the accumulators after k quads; the pieces come back at the result function.
-/
import proofs.«206988_g4337916970008_retrytranche1_694_23_alg».proof.Proof.TileOwn
import proofs.«206988_g4337916970008_retrytranche1_694_23_alg».proof.Proof.TilePre
import proofs.«206988_g4337916970008_retrytranche1_694_23_alg».proof.Proof.SlabJoin
import proofs.«206988_g4337916970008_retrytranche1_694_23_alg».proof.Proof.ValueSpec
import proofs.«206988_g4337916970008_retrytranche1_694_23_alg».proof.Proof.TableLoop
import proofs.«206988_g4337916970008_retrytranche1_694_23_alg».proof.Proof.WordsK
import proofs.«206988_g4337916970008_retrytranche1_694_23_alg».proof.Proof.Landing
import proofs.«206988_g4337916970008_retrytranche1_694_23_alg».proof.Proof.LoopT2
import proofs.«206988_g4337916970008_retrytranche1_694_23_alg».proof.Proof.LoopT3
import proofs.«206988_g4337916970008_retrytranche1_694_23_alg».proof.Proof.LoopT4
import proofs.«206988_g4337916970008_retrytranche1_694_23_alg».proof.Proof.LoopT5
import proofs.«206988_g4337916970008_retrytranche1_694_23_alg».proof.Proof.OutValue
import proofs.«206988_g4337916970008_retrytranche1_694_23_alg».proof.Proof.WriteBack

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

omit [FloatOps F] in
theorem pts_s (d : Dev nD) (L : grid0.Coords) (q : PosShare TreeShare) (f : Buf (Elt F) (sLoc d)) :
    ((sV).view.loc (thr d L) ↦{q} f : sProp 𝕄) = ((SparseCore.T d).loc main_v0 ↦{q} f) := by simp only [Memref.view_whole, View.set_whole]
omit [FloatOps F] in
theorem pts_e (d : Dev nD) (L : grid0.Coords) (q : PosShare TreeShare) (f : Buf (Elt F) ((SparseCore.T d).loc main_arg1)) :
    ((eV).view.loc (thr d L) ↦{q} f : sProp 𝕄) = ((SparseCore.T d).loc main_arg1 ↦{q} f) := by simp only [Memref.view_whole, View.set_whole]
omit [FloatOps F] in
theorem pts_t (d : Dev nD) (L : grid0.Coords) (q : PosShare TreeShare) (f : Buf (Elt F) ((SparseCore.T d).loc main_arg2)) :
    ((tV).view.loc (thr d L) ↦{q} f : sProp 𝕄) = ((SparseCore.T d).loc main_arg2 ↦{q} f) := by simp only [Memref.view_whole, View.set_whole]
omit [FloatOps F] in
theorem pts_o (d : Dev nD) (L : grid0.Coords) (q : PosShare TreeShare) (f : Buf (Elt F) ((SparseCore.T d).loc main_v1_0)) :
    ((oV).view.loc (thr d L) ↦{q} f : sProp 𝕄) = ((SparseCore.T d).loc main_v1_0 ↦{q} f) := by simp only [Memref.view_whole, View.set_whole]
omit [FloatOps F] in
theorem pts_w (d : Dev nD) (L : grid0.Coords) (q : PosShare TreeShare) (f : Buf (Elt F) ((SparseCore.T d).loc main_v1_1)) :
    ((wV).view.loc (thr d L) ↦{q} f : sProp 𝕄) = ((SparseCore.T d).loc main_v1_1 ↦{q} f) := by simp only [Memref.view_whole, View.set_whole]
omit [FloatOps F] in
theorem pts_b7 (d : Dev nD) (L : grid0.Coords) (q : PosShare TreeShare) (f : Buf (Elt F) ((thr d L).loc cc0_scratch0)) :
    ((b7).view.loc (thr d L) ↦{q} f : sProp 𝕄) = ((thr d L).loc cc0_scratch0 ↦{q} f) := rfl
omit [FloatOps F] in
theorem pts_b8 (d : Dev nD) (L : grid0.Coords) (q : PosShare TreeShare) (f : Buf (Elt F) ((thr d L).loc cc0_scratch1)) :
    ((b8).view.loc (thr d L) ↦{q} f : sProp 𝕄) = ((thr d L).loc cc0_scratch1 ↦{q} f) := rfl
omit [FloatOps F] in
theorem pts_b9 (d : Dev nD) (L : grid0.Coords) (q : PosShare TreeShare) (f : Buf (Elt F) ((thr d L).loc cc0_scratch2)) :
    ((b9).view.loc (thr d L) ↦{q} f : sProp 𝕄) = ((thr d L).loc cc0_scratch2 ↦{q} f) := rfl
omit [FloatOps F] in
theorem pts_b10 (d : Dev nD) (L : grid0.Coords) (q : PosShare TreeShare) (f : Buf (Elt F) ((thr d L).loc cc0_scratch3)) :
    ((b10).view.loc (thr d L) ↦{q} f : sProp 𝕄) = ((thr d L).loc cc0_scratch3 ↦{q} f) := rfl
omit [FloatOps F] in
theorem pts_b11 (d : Dev nD) (L : grid0.Coords) (q : PosShare TreeShare) (f : Buf (Elt F) ((thr d L).loc cc0_scratch4)) :
    ((b11).view.loc (thr d L) ↦{q} f : sProp 𝕄) = ((thr d L).loc cc0_scratch4 ↦{q} f) := rfl

omit [FloatOps F] in
theorem pts_b10_acc (d : Dev nD) (L : grid0.Coords) (q : PosShare TreeShare) (f : Buf (Elt F) ((thr d L).loc cc0_scratch3)) :
    (((b10).access (.whole S16)).loc (thr d L) ↦{q} f : sProp 𝕄) = ((b10).view.loc (thr d L) ↦{q} f) := rfl
omit [FloatOps F] in
theorem pts_b11_acc (d : Dev nD) (L : grid0.Coords) (q : PosShare TreeShare) (f : Buf (Elt F) ((thr d L).loc cc0_scratch4)) :
    (((b11).access (.whole S4096)).loc (thr d L) ↦{q} f : sProp 𝕄) = ((b11).view.loc (thr d L) ↦{q} f) := rfl

omit [FloatOps F] in
theorem pts_sIn0 (d : Dev nD) (L : grid0.Coords) (q : PosShare TreeShare) (f : Buf (Elt F) (sLoc d)) :
    ((sIn0 L).view.loc (thr d L) ↦[(sIn0 L).view.set]{q} f : sProp 𝕄) = (sLoc d ↦[(sIn0 L).view.set]{q} f) := rfl

omit [FloatOps F] in
theorem pts_sIn1 (d : Dev nD) (L : grid0.Coords) (q : PosShare TreeShare) (f : Buf (Elt F) (sLoc d)) :
    ((sIn1 L).view.loc (thr d L) ↦[(sIn1 L).view.set]{q} f : sProp 𝕄) = (sLoc d ↦[(sIn1 L).view.set]{q} f) := rfl

omit [FloatOps F] in
theorem pts_sIn2 (d : Dev nD) (L : grid0.Coords) (q : PosShare TreeShare) (f : Buf (Elt F) (sLoc d)) :
    ((sIn2 L).view.loc (thr d L) ↦[(sIn2 L).view.set]{q} f : sProp 𝕄) = (sLoc d ↦[(sIn2 L).view.set]{q} f) := rfl

omit [FloatOps F] in
theorem pts_sIn3 (d : Dev nD) (L : grid0.Coords) (q : PosShare TreeShare) (f : Buf (Elt F) (sLoc d)) :
    ((sIn3 L).view.loc (thr d L) ↦[(sIn3 L).view.set]{q} f : sProp 𝕄) = (sLoc d ↦[(sIn3 L).view.set]{q} f) := rfl

omit [FloatOps F] in
theorem pts_wOut0 (d : Dev nD) (L : grid0.Coords) (q : PosShare TreeShare) (f : Buf (Elt F) (wLoc d)) :
    ((wOut0 L).view.loc (thr d L) ↦[(wOut0 L).view.set]{q} f : sProp 𝕄) = (wLoc d ↦[(wOut0 L).view.set]{q} f) := rfl

omit [FloatOps F] in
theorem pts_wOut1 (d : Dev nD) (L : grid0.Coords) (q : PosShare TreeShare) (f : Buf (Elt F) (wLoc d)) :
    ((wOut1 L).view.loc (thr d L) ↦[(wOut1 L).view.set]{q} f : sProp 𝕄) = (wLoc d ↦[(wOut1 L).view.set]{q} f) := rfl

omit [FloatOps F] in
theorem pts_wOut2 (d : Dev nD) (L : grid0.Coords) (q : PosShare TreeShare) (f : Buf (Elt F) (wLoc d)) :
    ((wOut2 L).view.loc (thr d L) ↦[(wOut2 L).view.set]{q} f : sProp 𝕄) = (wLoc d ↦[(wOut2 L).view.set]{q} f) := rfl

omit [FloatOps F] in
theorem pts_wOut3 (d : Dev nD) (L : grid0.Coords) (q : PosShare TreeShare) (f : Buf (Elt F) (wLoc d)) :
    ((wOut3 L).view.loc (thr d L) ↦[(wOut3 L).view.set]{q} f : sProp 𝕄) = (wLoc d ↦[(wOut3 L).view.set]{q} f) := rfl

omit [FloatOps F] in
theorem pts_eCh (d : Dev nD) (L : grid0.Coords) (q : PosShare TreeShare) (f : Buf (Elt F) (eLoc d)) :
    ((eCh L).view.loc (thr d L) ↦[(eCh L).view.set]{q} f : sProp 𝕄) = (eLoc d ↦[(eCh L).view.set]{q} f) := rfl

omit [FloatOps F] in
theorem pts_oCh (d : Dev nD) (L : grid0.Coords) (q : PosShare TreeShare) (f : Buf (Elt F) (oLoc d)) :
    ((oCh L).view.loc (thr d L) ↦[(oCh L).view.set]{q} f : sProp 𝕄) = (oLoc d ↦[(oCh L).view.set]{q} f) := rfl

/-- Before trip k of the table loop: the table of sixteen at its contents, the table of 4096 built up to 16 k. -/
def inv1 (d : Dev nD) (L : grid0.Coords) (C10 : Buf (Elt F) ((thr d L).loc cc0_scratch3)) (k : Nat) (_ : BitVec 32) : sProp 𝕄 :=
  iprop(((b10).view.loc (thr d L) ↦{fullShare} C10) ∗ ∃ f, ((b11).view.loc (thr d L) ↦{fullShare} f) ∗ ⌜TabOK (F := F) C10 k f⌝)

/-- Before trip k of panel t's loop: the panel and the table of 4096 only read, the eight accumulators after k quads. -/
def inv2 (d : Dev nD) (L : grid0.Coords) (S7 : Finset (Idx ((b7).view.loc (thr d L)))) (q7 : PosShare TreeShare) (C7 : Buf (Elt F) ((thr d L).loc cc0_scratch0))
    (C10 : Buf (Elt F) ((thr d L).loc cc0_scratch3)) (C11 : Buf (Elt F) ((thr d L).loc cc0_scratch4)) (t : Nat) (k : Nat)
    (accs : FVec F S16 .f32 × FVec F S16 .f32 × FVec F S16 .f32 × FVec F S16 .f32 × FVec F S16 .f32 × FVec F S16 .f32 × FVec F S16 .f32 × FVec F S16 .f32) : sProp 𝕄 :=
  iprop(((b7).view.loc (thr d L) ↦[S7]{q7} C7) ∗ ((b11).view.loc (thr d L) ↦{fullShare} C11) ∗ ⌜AccOK (F := F) C10 C7 t k accs⌝)

set_option maxHeartbeats 32000000 in
set_option sl_exec.dmaWindow true in
set_option sl_exec.dmaWindowLent true in
set_option pp.deepTerms false in
set_option pp.deepTerms.threshold 5 in
set_option pp.maxSteps 6000 in
theorem tile_body (m : (ℓ : Loc nD τ sig) → Buf (Elt F) ℓ) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc0__shift_kernel L sV (Memref.isWhole_whole _) eV (Memref.isWhole_whole _) tV (Memref.isWhole_whole _) oV (Memref.isWhole_whole _) wV (Memref.isWhole_whole _)
            b7 (Memref.isWhole_whole _) b8 (Memref.isWhole_whole _) b9 (Memref.isWhole_whole _) b10 (Memref.isWhole_whole _) b11 (Memref.isWhole_whole _)
            cc0_scratch5 cc0_scratch6 cc0_scratch7 cc0_scratch8 cc0_scratch9 cc0_scratch10 cc0_scratch11 cc0_scratch12 cc0_scoped0 cc0_scoped1 cc0_scoped2)
          fun _ => iprop(tileTd m d L ∗ scopedBufs (thr d L) ∗ scopedSems0 (thr d L)
            ∗ ∃ W', ⌜∀ p ∈ W', p ∈ W ∨ p.2 = none⌝ ∗ owes (thr d L) O W') := by
  simp only [cc0__shift_kernel_eq_skeleton]; unfold cc0__shift_kernel_skel
  simp only [k0_part25_eq_skeleton]; unfold k0_part25_skel
  rw [(K (F := F)).scopedBufs_V facts d (cV L) (jV L), SparseCore.Cfg.scopedSems0_V (Val := Elt F) d (cV L) (jV L), ownSems0_V, ownBufs_V]
  unfold tileGo
  iintro ⟨#Hlv, -, ⟨Hi0, Hi1, Hi2, Hi3, HE, HT, HO', Hw0, Hw1, Hw2, Hw3⟩,
    ⟨⟨⟨%f7, H7⟩, ⟨%f8, H8⟩, ⟨%f9, H9⟩, ⟨%f10, H10⟩, ⟨%f11, H11⟩⟩, Hbufs⟩,
    ⟨⟨Hs5, Hs6, Hs7, Hs8, Hs9, Hs10, Hs11, Hs12, Hc0, Hc1, Hc2⟩, Hsems⟩, Howes⟩
  ihave Hmw := ((K (F := F)).mayWaits_none (thr := thr d L) hO) $$ Hlv
  ihave Hi0 := (Entails.of_eq (pts_sIn0 (F := F) d L _ _).symm) $$ Hi0
  ihave Hi1 := (Entails.of_eq (pts_sIn1 (F := F) d L _ _).symm) $$ Hi1
  ihave Hi2 := (Entails.of_eq (pts_sIn2 (F := F) d L _ _).symm) $$ Hi2
  ihave Hi3 := (Entails.of_eq (pts_sIn3 (F := F) d L _ _).symm) $$ Hi3
  ihave Hw0 := (Entails.of_eq (pts_wOut0 (F := F) d L _ _).symm) $$ Hw0
  ihave Hw1 := (Entails.of_eq (pts_wOut1 (F := F) d L _ _).symm) $$ Hw1
  ihave Hw2 := (Entails.of_eq (pts_wOut2 (F := F) d L _ _).symm) $$ Hw2
  ihave Hw3 := (Entails.of_eq (pts_wOut3 (F := F) d L _ _).symm) $$ Hw3
  ihave HE1 := (Entails.of_eq (pts_eCh (F := F) d L _ _).symm) $$ HE
  ihave HO1 := (Entails.of_eq (pts_oCh (F := F) d L _ _).symm) $$ HO'
  ihave HT1 := (Entails.of_eq (pts_t (F := F) d L _ _).symm) $$ HT
  ihave H7c := (Entails.of_eq (b7_cut (F := F) d L _)) $$ H7
  icases H7c with ⟨Hp0, Hp1, Hp2, Hp3⟩
  ihave H81 := (Entails.of_eq (pts_b8 (F := F) d L _ _).symm) $$ H8
  ihave H91 := (Entails.of_eq (pts_b9 (F := F) d L _ _).symm) $$ H9
  ihave H101 := (Entails.of_eq (pts_b10 (F := F) d L _ _).symm) $$ H10
  ihave H111 := (Entails.of_eq (pts_b11 (F := F) d L _ _).symm) $$ H11
  ihave HsW : iprop(semVal (dcell d L 4) 0 ∗ semVal (dcell d L 5) 0 ∗ semVal (dcell d L 6) 0 ∗ semVal (dcell d L 7) 0 ∗ emp) $$ [Hs9 Hs10 Hs11 Hs12]
  · isplitl [Hs9]; · iexact Hs9
    isplitl [Hs10]; · iexact Hs10
    isplitl [Hs11]; · iexact Hs11
    isplitl [Hs12]; · iexact Hs12
    iempintro
  sl_exec
  ihave Hg10 : iprop(∃ C : Buf (Elt F) ((thr d L).loc cc0_scratch3), ((b10).view.loc (thr d L) ↦{fullShare} C) ∗ ⌜T10OK (F := F) (m (tLoc d)) C⌝) $$ [H101]
  · iexists _; isplitl [H101]
    · iexact H101
    · ipureintro; exact t10OK_of_landed _ _
  icases Hg10 with ⟨%C10, H101, %hT10⟩
  ihave Hg8 : iprop(∃ C : Buf (Elt F) ((thr d L).loc cc0_scratch1), ((b8).view.loc (thr d L) ↦{fullShare} C) ∗ ⌜E8OK (F := F) (m (eLoc d)) L C⌝) $$ [H81]
  · iexists _; isplitl [H81]
    · iexact H81
    · ipureintro; exact e8OK_of_landed _ L _
  icases Hg8 with ⟨%C8, H81, %hE8⟩
  ihave H10a := (Entails.of_eq (pts_b10_acc (F := F) d L _ _).symm) $$ H101
  iapply (SparseCore.wp_vectorLoadIdx 𝒱₀ (thr d L) none Set.univ (base := b10) (S := Finset.univ) (q := fullShare) (Finset.subset_univ _)) $$ H10a; iintro H10a
  ihave H101 := (Entails.of_eq (pts_b10_acc (F := F) d L _ _)) $$ H10a
  sl_exec
  sl_for (inv1 d L C10) $$ [H101 H111]
  pick_goal 2
  · unfold inv1
    isplitl [H101]; · iexact H101
    iexists _; isplitl [H111]; · iexact H111
    ipureintro; exact tab_init C10 _
  case region =>
    intro k acc
    unfold inv1
    iintro ⟨H10, %f, H11, %hf⟩
    sl_exec
    rw [wp_assume_of _ _ _ _ (by exact Cert.Proof.Words.k0_chk2_holds k)]
    ihave H10a := (Entails.of_eq (pts_b10_acc (F := F) d L _ _).symm) $$ H10
    iapply (SparseCore.wp_vectorLoadIdx 𝒱₀ (thr d L) none Set.univ (base := b10) (S := Finset.univ) (q := fullShare) (Finset.subset_univ _)) $$ H10a; iintro H10a
    ihave H10 := (Entails.of_eq (pts_b10_acc (F := F) d L _ _)) $$ H10a
    sl_exec
    rw [wp_assume_of _ _ _ _ (by exact Cert.Proof.Words.k0_chk3_holds k)]
    ihave H10a := (Entails.of_eq (pts_b10_acc (F := F) d L _ _).symm) $$ H10
    iapply (SparseCore.wp_vectorLoadIdx 𝒱₀ (thr d L) none Set.univ (base := b10) (S := Finset.univ) (q := fullShare) (Finset.subset_univ _)) $$ H10a; iintro H10a
    ihave H10 := (Entails.of_eq (pts_b10_acc (F := F) d L _ _)) $$ H10a
    sl_exec
    rw [wp_assume_of _ _ _ _ (by exact Cert.Proof.Words.k0_chk4_holds k)]
    ihave H10a := (Entails.of_eq (pts_b10_acc (F := F) d L _ _).symm) $$ H10
    iapply (SparseCore.wp_vectorLoadIdx 𝒱₀ (thr d L) none Set.univ (base := b10) (S := Finset.univ) (q := fullShare) (Finset.subset_univ _)) $$ H10a; iintro H10a
    ihave H10 := (Entails.of_eq (pts_b10_acc (F := F) d L _ _)) $$ H10a
    sl_exec
    sl_step
    isplitl [H10]; · iexact H10
    iexists _; isplitl [H11]; · iexact H11
    ipureintro; exact tab_step C10 f k _ _ _ _ hf
  iintro %_ HI
  unfold inv1
  icases HI with ⟨H101, %f11', H111, %hTab⟩
  have hTab256 : TabOK (F := F) C10 256 f11' := hTab
  sl_exec
  ihave Hsp := (pointsTo_share (PosShare.mem_left_op_right fullShare)).1 $$ Hp0
  icases Hsp with ⟨H0l, H0r⟩
  icases HsW with ⟨Hs9, HsW⟩
  sl_exec
  ihave Hg : iprop(∃ C : Buf (Elt F) ((thr d L).loc cc0_scratch0), ((slab0).view.loc (thr d L) ↦[(slab0).view.set]{fullShare.right} C) ∗ ⌜SlabOK (fS m d) L C 0 ∧ SlabLt C 0⌝) $$ [H0r]
  · iexists _; isplitl [H0r]
    · iexact H0r
    · ipureintro; exact ⟨slabOK_of_landed0 _ L _, slabLt_of_landed0 _ L _ (fS8 m hpre d)⟩
  icases Hg with ⟨%C7_0, H0r, %hS0⟩
  ihave Hh := (Entails.of_eq (slab0_holes (F := F) d L _ _)) $$ H0r
  sl_for (inv2 d L _ _ C7_0 C10 f11' 0) $$ [Hh H111]
  pick_goal 2
  · unfold inv2
    isplitl [Hh]; · iexact Hh
    isplitl [H111]; · iexact H111
    ipureintro; exact init2 C10 C7_0
  case region =>
    intro k accs
    unfold inv2
    iintro ⟨H7, H11, %hacc⟩
    sl_exec
    rw [wp_assume_of _ _ _ _ (by exact chk2_0 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_1 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_2 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_3 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_4 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_5 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_6 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_7 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip2 C10 f11' C7_0 hTab256 hS0.2 k accs _ _ _ _ _ _ _ _ hacc
  iintro %accs0 HI
  unfold inv2
  icases HI with ⟨Hh, H111, %hA0⟩
  have hA0' : AccOK (F := F) C10 C7_0 0 50 accs0 := hA0
  ihave H0r := (Entails.of_eq (slab0_holes (F := F) d L _ _).symm) $$ Hh
  sl_exec
  ihave Hsp := (pointsTo_share (PosShare.mem_left_op_right fullShare)).1 $$ Hp1
  icases Hsp with ⟨H1l, H1r⟩
  icases HsW with ⟨Hs10, HsW⟩
  sl_exec
  ihave Hg : iprop(∃ C : Buf (Elt F) ((thr d L).loc cc0_scratch0), ((slab1).view.loc (thr d L) ↦[(slab1).view.set]{fullShare.right} C) ∗ ⌜SlabOK (fS m d) L C 1 ∧ SlabLt C 1⌝) $$ [H1r]
  · iexists _; isplitl [H1r]
    · iexact H1r
    · ipureintro; exact ⟨slabOK_of_landed1 _ L _, slabLt_of_landed1 _ L _ (fS8 m hpre d)⟩
  icases Hg with ⟨%C7_1, H1r, %hS1⟩
  ihave Hh := (Entails.of_eq (slab1_holes (F := F) d L _ _)) $$ H1r
  sl_for (inv2 d L _ _ C7_1 C10 f11' 1) $$ [Hh H111]
  pick_goal 2
  · unfold inv2
    isplitl [Hh]; · iexact Hh
    isplitl [H111]; · iexact H111
    ipureintro; exact init3 C10 C7_1
  case region =>
    intro k accs
    unfold inv2
    iintro ⟨H7, H11, %hacc⟩
    sl_exec
    rw [wp_assume_of _ _ _ _ (by exact chk3_0 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_1 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_2 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_3 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_4 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_5 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_6 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_7 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip3 C10 f11' C7_1 hTab256 hS1.2 k accs _ _ _ _ _ _ _ _ hacc
  iintro %accs1 HI
  unfold inv2
  icases HI with ⟨Hh, H111, %hA1⟩
  have hA1' : AccOK (F := F) C10 C7_1 1 50 accs1 := hA1
  ihave H1r := (Entails.of_eq (slab1_holes (F := F) d L _ _).symm) $$ Hh
  sl_exec
  ihave Hsp := (pointsTo_share (PosShare.mem_left_op_right fullShare)).1 $$ Hp2
  icases Hsp with ⟨H2l, H2r⟩
  icases HsW with ⟨Hs11, HsW⟩
  sl_exec
  ihave Hg : iprop(∃ C : Buf (Elt F) ((thr d L).loc cc0_scratch0), ((slab2).view.loc (thr d L) ↦[(slab2).view.set]{fullShare.right} C) ∗ ⌜SlabOK (fS m d) L C 2 ∧ SlabLt C 2⌝) $$ [H2r]
  · iexists _; isplitl [H2r]
    · iexact H2r
    · ipureintro; exact ⟨slabOK_of_landed2 _ L _, slabLt_of_landed2 _ L _ (fS8 m hpre d)⟩
  icases Hg with ⟨%C7_2, H2r, %hS2⟩
  ihave Hh := (Entails.of_eq (slab2_holes (F := F) d L _ _)) $$ H2r
  sl_for (inv2 d L _ _ C7_2 C10 f11' 2) $$ [Hh H111]
  pick_goal 2
  · unfold inv2
    isplitl [Hh]; · iexact Hh
    isplitl [H111]; · iexact H111
    ipureintro; exact init4 C10 C7_2
  case region =>
    intro k accs
    unfold inv2
    iintro ⟨H7, H11, %hacc⟩
    sl_exec
    rw [wp_assume_of _ _ _ _ (by exact chk4_0 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_1 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_2 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_3 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_4 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_5 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_6 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_7 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip4 C10 f11' C7_2 hTab256 hS2.2 k accs _ _ _ _ _ _ _ _ hacc
  iintro %accs2 HI
  unfold inv2
  icases HI with ⟨Hh, H111, %hA2⟩
  have hA2' : AccOK (F := F) C10 C7_2 2 50 accs2 := hA2
  ihave H2r := (Entails.of_eq (slab2_holes (F := F) d L _ _).symm) $$ Hh
  sl_exec
  ihave Hsp := (pointsTo_share (PosShare.mem_left_op_right fullShare)).1 $$ Hp3
  icases Hsp with ⟨H3l, H3r⟩
  icases HsW with ⟨Hs12, HsW⟩
  sl_exec
  ihave Hg : iprop(∃ C : Buf (Elt F) ((thr d L).loc cc0_scratch0), ((slab3).view.loc (thr d L) ↦[(slab3).view.set]{fullShare.right} C) ∗ ⌜SlabOK (fS m d) L C 3 ∧ SlabLt C 3⌝) $$ [H3r]
  · iexists _; isplitl [H3r]
    · iexact H3r
    · ipureintro; exact ⟨slabOK_of_landed3 _ L _, slabLt_of_landed3 _ L _ (fS8 m hpre d)⟩
  icases Hg with ⟨%C7_3, H3r, %hS3⟩
  ihave Hh := (Entails.of_eq (slab3_holes (F := F) d L _ _)) $$ H3r
  sl_for (inv2 d L _ _ C7_3 C10 f11' 3) $$ [Hh H111]
  pick_goal 2
  · unfold inv2
    isplitl [Hh]; · iexact Hh
    isplitl [H111]; · iexact H111
    ipureintro; exact init5 C10 C7_3
  case region =>
    intro k accs
    unfold inv2
    iintro ⟨H7, H11, %hacc⟩
    sl_exec
    rw [wp_assume_of _ _ _ _ (by exact chk5_0 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_1 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_2 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_3 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_4 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_5 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_6 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_7 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip5 C10 f11' C7_3 hTab256 hS3.2 k accs _ _ _ _ _ _ _ _ hacc
  iintro %accs3 HI
  unfold inv2
  icases HI with ⟨Hh, H111, %hA3⟩
  have hA3' : AccOK (F := F) C10 C7_3 3 50 accs3 := hA3
  ihave H3r := (Entails.of_eq (slab3_holes (F := F) d L _ _).symm) $$ Hh
  sl_exec
  sl_step
  unfold tileTd
  isplitl [Hi0 Hi1 Hi2 Hi3 HE1 HT1 HO1 Hw0 Hw1 Hw2 Hw3]
  · isplitl [Hi0]; · iapply (Entails.of_eq (pts_sIn0 (F := F) d L _ _)); iexact Hi0
    isplitl [Hi1]; · iapply (Entails.of_eq (pts_sIn1 (F := F) d L _ _)); iexact Hi1
    isplitl [Hi2]; · iapply (Entails.of_eq (pts_sIn2 (F := F) d L _ _)); iexact Hi2
    isplitl [Hi3]; · iapply (Entails.of_eq (pts_sIn3 (F := F) d L _ _)); iexact Hi3
    isplitl [HE1]; · iapply (Entails.of_eq (pts_eCh (F := F) d L _ _)); iexact HE1
    isplitl [HT1]; · iapply (Entails.of_eq (pts_t (F := F) d L _ _)); iexact HT1
    isplitl [HO1]; · iapply (Entails.of_eq (oCh_landed (F := F) d _ _ _ (fS m d) (m (eLoc d)) (m (tLoc d)) L C10 C8 C7_0 C7_1 C7_2 C7_3 accs0 accs1 accs2 accs3 hT10 hE8 hS0.1 hS1.1 hS2.1 hS3.1 hS0.2 hS1.2 hS2.2 hS3.2 hA0' hA1' hA2' hA3')); iexact HO1
    isplitl [Hw0]; · iapply (Entails.of_eq (wOut0_landed (F := F) d L _ _ _ (fS m d))); iexact Hw0
    isplitl [Hw1]; · iapply (Entails.of_eq (wOut1_landed (F := F) d L _ _ _ (fS m d))); iexact Hw1
    isplitl [Hw2]; · iapply (Entails.of_eq (wOut2_landed (F := F) d L _ _ _ (fS m d))); iexact Hw2
    iapply (Entails.of_eq (wOut3_landed (F := F) d L _ _ _ (fS m d))); iexact Hw3
  isplitl [H0l H0r H1l H1r H2l H2r H3l H3r H81 H91 H101 H111 Hbufs]
  · isplitr [Hbufs]
    · isplitl [H0l H0r H1l H1r H2l H2r H3l H3r]
      · ihave J0 := (join_halves (F := F) _ fullShare _ _) $$ [H0l H0r]
        · isplitl [H0l]; · iexact H0l
          iexact H0r
        ihave J1 := (join_halves (F := F) _ fullShare _ _) $$ [H1l H1r]
        · isplitl [H1l]; · iexact H1l
          iexact H1r
        ihave J2 := (join_halves (F := F) _ fullShare _ _) $$ [H2l H2r]
        · isplitl [H2l]; · iexact H2l
          iexact H2r
        ihave J3 := (join_halves (F := F) _ fullShare _ _) $$ [H3l H3r]
        · isplitl [H3l]; · iexact H3l
          iexact H3r
        iapply (b7_glue (F := F) d L _ _ _ _)
        isplitl [J0]; · iexact J0
        isplitl [J1]; · iexact J1
        isplitl [J2]; · iexact J2
        iexact J3
      isplitl [H81]; · iexists _; iapply (Entails.of_eq (pts_b8 (F := F) d L _ _)); iexact H81
      isplitl [H91]; · iexists _; iapply (Entails.of_eq (pts_b9 (F := F) d L _ _)); iexact H91
      isplitl [H101]; · iexists _; iapply (Entails.of_eq (pts_b10 (F := F) d L _ _)); iexact H101
      iexists _; iapply (Entails.of_eq (pts_b11 (F := F) d L _ _)); iexact H111
    · iexact Hbufs
  isplitl [Hs5 Hs6 Hs7 Hs8 Hs9 Hs10 Hs11 Hs12 Hc0 Hc1 Hc2 Hsems]
  · isplitr [Hsems]
    · isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hc0]; · iexact Hc0
      isplitl [Hc1]; · iexact Hc1
      iexact Hc2
    · iexact Hsems
  iexists _; isplitr
  pick_goal 2
  · iexact Howes
  · ipureintro; intro p hp
    simp only [Finset.mem_insert] at hp
    rcases hp with rfl | rfl | rfl | rfl | rfl | rfl | rfl | rfl | rfl | rfl | rfl | hp
    all_goals first | exact .inr rfl | exact .inl hp

/-! ## The launch theorem's obligation -/

theorem defs₀_vector (c : Fin τ.nSC) (s : Fin τ.nSub) :
    defs₀ (F := F) (.scVector c s) 0 ()
      = SparseCore.onTile hcore0 hsub0 (fun c s => cc0__shift_kernel (coordsV c s)
          sV (Memref.isWhole_whole _) eV (Memref.isWhole_whole _) tV (Memref.isWhole_whole _) oV (Memref.isWhole_whole _) wV (Memref.isWhole_whole _)
          b7 (Memref.isWhole_whole _) b8 (Memref.isWhole_whole _) b9 (Memref.isWhole_whole _) b10 (Memref.isWhole_whole _) b11 (Memref.isWhole_whole _)
          cc0_scratch5 cc0_scratch6 cc0_scratch7 cc0_scratch8 cc0_scratch9 cc0_scratch10 cc0_scratch11 cc0_scratch12 cc0_scoped0 cc0_scoped1 cc0_scoped2) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, as the launch theorem asks it. -/
theorem tileObl (m : (ℓ : Loc nD τ sig) → Buf (Elt F) ℓ) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hpre d (coordsV ⟨_, hc.1⟩ ⟨_, hc.2⟩) O W hO).trans (wp_mono frame _ _ fun _ => obl_post)

end Cert.Proof.KI

end
-- ==== Proof.LaunchKI.lean ====
/-
  The launch of the idealized kernel program: from "every tile's body is proved" to the run of the whole program with
  the strongest post.

  @main transposes the species [16384, 200] to [200, 16384], calls the kernel on two SparseCores of sixteen tiles, and
  transposes the kernel's copy of the transposed species back. Tile (c, s) owns columns 1024 s + 512 c + 128 r + [0, 128),
  r < 4, of the two [200, 16384] arrays and entries 1024 s + 512 c + [0, 512) of the two [16384] arrays. So a
  [200, 16384] array held whole is its 128 column panels side by side, panel 8 s + 4 c + r going to tile (c, s) as its
  r-th; a [16384] array is its 32 chunks, chunk 2 s + c going to tile (c, s); the table of eight is read by every tile
  through its own share. Each cut is an EQUATION between the whole and the parts at one contents function, so the same
  equations read right to left join the tiles' pieces after the call: every tile hands its entries of the result back
  at the one result function, and its panels of the copy at the transposed species. Transposing twice is the identity,
  so the second transpose's result is the species array itself.

  The auxiliary statements live in the namespace Launch; the post QC and the run run_main beside the interface.
-/
import proofs.«206988_g4337916970008_retrytranche1_694_23_alg».proof.Proof.TileRes
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Lib.ScSplit

variable {F : FTy → Type}
local notation "𝕄" => MT nD τ sig (HIx 1) (Elt F) ℕ UU ℕ

namespace Launch

/-! ## Transposing twice -/

/-- The transpose of the transpose of a [16384, 200] array is the array. -/
theorem transpose_twice {α : Type} (x : S16384x200.Idx → α) :
    transpose S16384x200 [1, 0] (transpose S200x16384 [1, 0] x transposes_S16384x200_S200x16384_1_0)
      transposes_S200x16384_S16384x200_1_0 = x := by
  funext j
  refine (transpose_apply _ _ _ j (ValueIdx.ix2 (j 1) (j 0)) (fun b => match b with | ⟨0, _⟩ => rfl | ⟨1, _⟩ => rfl)).trans ?_
  exact transpose_apply _ _ _ _ j (fun b => match b with | ⟨0, _⟩ => rfl | ⟨1, _⟩ => rfl)

/-! ## A sum over four, and over the tiles -/

section BigSep
universe u
variable {M : Type u} [URA M]

theorem bigSep_univ_four (Φ : Fin 4 → sProp M) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

end BigSep

/-! ## The panels and the chunks -/

theorem hdivP : 128 ∣ S200x16384.size 1 := ⟨128, rfl⟩
theorem hdivC : 32 ∣ S16384.size 0 := ⟨512, rfl⟩

/-- Column panel j of a [200, 16384] array: columns 128 j to 128 j + 127. -/
abbrev panel (j : Fin 128) : Rect S200x16384 := Rect.part (s := S200x16384) (a₀ := 1) hdivP j
/-- Chunk j of a [16384] array: entries 512 j to 512 j + 511. -/
abbrev chunk (j : Fin 32) : Rect S16384 := Rect.part (s := S16384) (a₀ := 0) hdivC j

/-- Panel r of the tile on core c, subcore s. -/
def numP (t : Fin 2 × Fin 16 × Fin 4) : Fin 128 := ⟨8 * t.2.1.val + 4 * t.1.val + t.2.2.val, by omega⟩
/-- The chunk of the tile on core c, subcore s. -/
def numC (t : Fin 2 × Fin 16) : Fin 32 := ⟨2 * t.2.val + t.1.val, by omega⟩

theorem numP_inj : Function.Injective numP := by
  rintro ⟨c, s, r⟩ ⟨c', s', r'⟩ h
  have h' : 8 * s.val + 4 * c.val + r.val = 8 * s'.val + 4 * c'.val + r'.val := congrArg Fin.val h
  have hc : c = c' := Fin.ext (by omega)
  have hs : s = s' := Fin.ext (by omega)
  have hr : r = r' := Fin.ext (by omega)
  rw [hc, hs, hr]
theorem numP_surj : Function.Surjective numP := by
  intro j
  refine ⟨(⟨j.val / 4 % 2, by omega⟩, ⟨j.val / 8, by omega⟩, ⟨j.val % 4, by omega⟩), Fin.ext ?_⟩
  show 8 * (j.val / 8) + 4 * (j.val / 4 % 2) + j.val % 4 = j.val
  omega
theorem numC_inj : Function.Injective numC := by
  rintro ⟨c, s⟩ ⟨c', s'⟩ h
  have h' : 2 * s.val + c.val = 2 * s'.val + c'.val := congrArg Fin.val h
  have hc : c = c' := Fin.ext (by omega)
  have hs : s = s' := Fin.ext (by omega)
  rw [hc, hs]
theorem numC_surj : Function.Surjective numC := by
  intro j
  refine ⟨(⟨j.val % 2, by omega⟩, ⟨j.val / 2, by omega⟩), Fin.ext ?_⟩
  show 2 * (j.val / 2) + j.val % 2 = j.val
  omega

/-- A [200, 128] window at columns 1024 s + 512 c + 128 r is panel r of tile (c, s). -/
theorem panelK_eq (c : Fin 2) (s : Fin 16) (r : Fin 4) {off : Fin S200x16384.rank → ℕ}
    (ho : off = ![0, 1024 * s.val + 512 * c.val + 128 * r.val])
    (inb : ∀ a, off a + S200x128.size a ≤ S200x16384.size a) :
    Rect.unit (s := S200x16384) off S200x128.size inb = panel (numP (c, s, r)) := by
  subst ho
  unfold panel Rect.part Rect.block
  refine unit_congr ?_ ?_
  · funext a
    match a with
    | 0 => simp [Shape.partIx, Shape.partSize]
    | 1 => simp [Shape.partIx, Shape.partSize, numP]; omega
  · funext a
    match a with
    | 0 => simp [Shape.partSize]
    | 1 => simp [Shape.partSize]

/-- A [512] window at entry 1024 s + 512 c is the chunk of tile (c, s). -/
theorem chunkK_eq (c : Fin 2) (s : Fin 16) {off : Fin S16384.rank → ℕ}
    (ho : off = ![1024 * s.val + 512 * c.val])
    (inb : ∀ a, off a + S512.size a ≤ S16384.size a) :
    Rect.unit (s := S16384) off S512.size inb = chunk (numC (c, s)) := by
  subst ho
  unfold chunk Rect.part Rect.block
  refine unit_congr ?_ ?_
  · funext a
    match a with
    | 0 => simp [Shape.partIx, Shape.partSize, numC]; omega
  · funext a
    match a with
    | 0 => simp [Shape.partSize]

theorem set_sIn0 (c : Fin 2) (s : Fin 16) : (sIn0 (coordsV c s)).view.set = (panel (numP (c, s, 0))).set :=
  (View.set_slice_whole main_v0_scv _).trans (congrArg (fun R : Rect S200x16384 => R.set) (panelK_eq c s 0 (k0_off1_eq (coordsV c s) 0) _))
theorem set_sIn1 (c : Fin 2) (s : Fin 16) : (sIn1 (coordsV c s)).view.set = (panel (numP (c, s, 1))).set :=
  (View.set_slice_whole main_v0_scv _).trans (congrArg (fun R : Rect S200x16384 => R.set) (panelK_eq c s 1 (k0_off1_eq (coordsV c s) 1) _))
theorem set_sIn2 (c : Fin 2) (s : Fin 16) : (sIn2 (coordsV c s)).view.set = (panel (numP (c, s, 2))).set :=
  (View.set_slice_whole main_v0_scv _).trans (congrArg (fun R : Rect S200x16384 => R.set) (panelK_eq c s 2 (k0_off1_eq (coordsV c s) 2) _))
theorem set_sIn3 (c : Fin 2) (s : Fin 16) : (sIn3 (coordsV c s)).view.set = (panel (numP (c, s, 3))).set :=
  (View.set_slice_whole main_v0_scv _).trans (congrArg (fun R : Rect S200x16384 => R.set) (panelK_eq c s 3 (k0_off1_eq (coordsV c s) 3) _))
theorem set_wOut0 (c : Fin 2) (s : Fin 16) : (wOut0 (coordsV c s)).view.set = (panel (numP (c, s, 0))).set :=
  (View.set_slice_whole main_v1_1_scv _).trans (congrArg (fun R : Rect S200x16384 => R.set) (panelK_eq c s 0 (k0_off4_eq (coordsV c s) 0) _))
theorem set_wOut1 (c : Fin 2) (s : Fin 16) : (wOut1 (coordsV c s)).view.set = (panel (numP (c, s, 1))).set :=
  (View.set_slice_whole main_v1_1_scv _).trans (congrArg (fun R : Rect S200x16384 => R.set) (panelK_eq c s 1 (k0_off4_eq (coordsV c s) 1) _))
theorem set_wOut2 (c : Fin 2) (s : Fin 16) : (wOut2 (coordsV c s)).view.set = (panel (numP (c, s, 2))).set :=
  (View.set_slice_whole main_v1_1_scv _).trans (congrArg (fun R : Rect S200x16384 => R.set) (panelK_eq c s 2 (k0_off4_eq (coordsV c s) 2) _))
theorem set_wOut3 (c : Fin 2) (s : Fin 16) : (wOut3 (coordsV c s)).view.set = (panel (numP (c, s, 3))).set :=
  (View.set_slice_whole main_v1_1_scv _).trans (congrArg (fun R : Rect S200x16384 => R.set) (panelK_eq c s 3 (k0_off4_eq (coordsV c s) 3) _))
theorem set_eCh (c : Fin 2) (s : Fin 16) : (eCh (coordsV c s)).view.set = (chunk (numC (c, s))).set :=
  (View.set_slice_whole main_arg1_scv _).trans (congrArg (fun R : Rect S16384 => R.set) (chunkK_eq c s (k0_off2_eq (coordsV c s)) _))
theorem set_oCh (c : Fin 2) (s : Fin 16) : (oCh (coordsV c s)).view.set = (chunk (numC (c, s))).set :=
  (View.set_slice_whole main_v1_0_scv _).trans (congrArg (fun R : Rect S16384 => R.set) (chunkK_eq c s (k0_off69_eq (coordsV c s)) _))

/-! ## The arrays cut among the tiles -/

variable [FloatOps F]

/-- Panel r of tile (c, s) of the transposed species, of the copy; the tile's chunk of the energies, of the result; its
    share of the table. -/
abbrev pS (d : Dev nD) (f : Buf (Elt F) (sLoc d)) (r : Fin 4) (c : Fin 2) (s : Fin 16) : sProp 𝕄 :=
  sLoc d ↦[(panel (numP (c, s, r))).set]{fullShare} f
abbrev pW (d : Dev nD) (f : Buf (Elt F) (wLoc d)) (r : Fin 4) (c : Fin 2) (s : Fin 16) : sProp 𝕄 :=
  wLoc d ↦[(panel (numP (c, s, r))).set]{fullShare} f
abbrev pE (d : Dev nD) (f : Buf (Elt F) (eLoc d)) (c : Fin 2) (s : Fin 16) : sProp 𝕄 :=
  eLoc d ↦[(chunk (numC (c, s))).set]{fullShare} f
abbrev pO (d : Dev nD) (f : Buf (Elt F) (oLoc d)) (c : Fin 2) (s : Fin 16) : sProp 𝕄 :=
  oLoc d ↦[(chunk (numC (c, s))).set]{fullShare} f
abbrev pT (d : Dev nD) (f : Buf (Elt F) (tLoc d)) (c : Fin 2) (s : Fin 16) : sProp 𝕄 :=
  tLoc d ↦{sh c.val s.val} f

/-- A family over the tiles, side by side. -/
abbrev BS (X : Fin 2 → Fin 16 → sProp 𝕄) : sProp 𝕄 := bigSep Finset.univ fun c : Fin 2 => bigSep Finset.univ fun s : Fin 16 => X c s

omit [FloatOps F] in
theorem sPts_tiles (d : Dev nD) (f : Buf (Elt F) (sLoc d)) :
    (sLoc d ↦{fullShare} f : sProp 𝕄) = iprop(BS (pS d f 0) ∗ BS (pS d f 1) ∗ BS (pS d f 2) ∗ BS (pS d f 3)) := by
  have h : (sLoc d ↦{fullShare} f : sProp 𝕄)
      = BS fun c s => iprop(pS d f 0 c s ∗ pS d f 1 c s ∗ pS d f 2 c s ∗ pS d f 3 c s) :=
    (pointsTo_cut (ℓ := sLoc d) (fun t => (panel (numP t)).set) (parts_disjoint hdivP numP numP_inj)
        (parts_cover hdivP numP numP_surj) fullShare f).trans <|
      (bigSep_univ_prod _).trans <| bigSep_congr fun c _ => (bigSep_univ_prod _).trans <| bigSep_congr fun s _ => bigSep_univ_four _
  rw [h]; unfold BS
  rw [bigSep2_sep, bigSep2_sep, bigSep2_sep]

omit [FloatOps F] in
theorem wPts_tiles (d : Dev nD) (f : Buf (Elt F) (wLoc d)) :
    (wLoc d ↦{fullShare} f : sProp 𝕄) = iprop(BS (pW d f 0) ∗ BS (pW d f 1) ∗ BS (pW d f 2) ∗ BS (pW d f 3)) := by
  have h : (wLoc d ↦{fullShare} f : sProp 𝕄)
      = BS fun c s => iprop(pW d f 0 c s ∗ pW d f 1 c s ∗ pW d f 2 c s ∗ pW d f 3 c s) :=
    (pointsTo_cut (ℓ := wLoc d) (fun t => (panel (numP t)).set) (parts_disjoint hdivP numP numP_inj)
        (parts_cover hdivP numP numP_surj) fullShare f).trans <|
      (bigSep_univ_prod _).trans <| bigSep_congr fun c _ => (bigSep_univ_prod _).trans <| bigSep_congr fun s _ => bigSep_univ_four _
  rw [h]; unfold BS
  rw [bigSep2_sep, bigSep2_sep, bigSep2_sep]

omit [FloatOps F] in
theorem ePts_tiles (d : Dev nD) (f : Buf (Elt F) (eLoc d)) : (eLoc d ↦{fullShare} f : sProp 𝕄) = BS (pE d f) :=
  (pointsTo_cut (ℓ := eLoc d) (fun t => (chunk (numC t)).set) (parts_disjoint hdivC numC numC_inj)
      (parts_cover hdivC numC numC_surj) fullShare f).trans (bigSep_univ_prod _)

omit [FloatOps F] in
theorem oPts_tiles (d : Dev nD) (f : Buf (Elt F) (oLoc d)) : (oLoc d ↦{fullShare} f : sProp 𝕄) = BS (pO d f) :=
  (pointsTo_cut (ℓ := oLoc d) (fun t => (chunk (numC t)).set) (parts_disjoint hdivC numC numC_inj)
      (parts_cover hdivC numC numC_surj) fullShare f).trans (bigSep_univ_prod _)

omit [FloatOps F] in
theorem tPts_tiles (d : Dev nD) (f : Buf (Elt F) (tLoc d)) : (tLoc d ↦{fullShare} f : sProp 𝕄) = BS (pT d f) :=
  pointsTo_sh (ℓ := tLoc d) Finset.univ f

variable (m : (ℓ : Loc nD τ sig) → Buf (Elt F) ℓ)

/-- What tile (c, s) is handed, over the panels and chunks. -/
theorem tileGo_eq (d : Dev nD) (c : Fin 2) (s : Fin 16) :
    tileGo m d (coordsV c s) = iprop(pS d (fS m d) 0 c s ∗ pS d (fS m d) 1 c s ∗ pS d (fS m d) 2 c s ∗ pS d (fS m d) 3 c s
      ∗ pE d (m (eLoc d)) c s ∗ pT d (m (tLoc d)) c s ∗ pO d (m (oLoc d)) c s
      ∗ pW d (m (wLoc d)) 0 c s ∗ pW d (m (wLoc d)) 1 c s ∗ pW d (m (wLoc d)) 2 c s ∗ pW d (m (wLoc d)) 3 c s) := by
  unfold tileGo
  rw [set_sIn0, set_sIn1, set_sIn2, set_sIn3, set_eCh, set_oCh, set_wOut0, set_wOut1, set_wOut2, set_wOut3]
  rfl

/-- What it hands back, over the panels and chunks. -/
theorem tileTd_eq (d : Dev nD) (c : Fin 2) (s : Fin 16) :
    tileTd m d (coordsV c s) = iprop(pS d (fS m d) 0 c s ∗ pS d (fS m d) 1 c s ∗ pS d (fS m d) 2 c s ∗ pS d (fS m d) 3 c s
      ∗ pE d (m (eLoc d)) c s ∗ pT d (m (tLoc d)) c s ∗ pO d (outF m d) c s
      ∗ pW d (fS m d) 0 c s ∗ pW d (fS m d) 1 c s ∗ pW d (fS m d) 2 c s ∗ pW d (fS m d) 3 c s) := by
  unfold tileTd
  rw [set_sIn0, set_sIn1, set_sIn2, set_sIn3, set_eCh, set_oCh, set_wOut0, set_wOut1, set_wOut2, set_wOut3]
  rfl

/-- What the call takes for the two SparseCores. -/
theorem st0_eq (d : Dev nD) :
    (bigSep Finset.univ fun c : Fin ((K (F := F)).nCore 0) => (P m).st 0 d c)
      = iprop(BS (pS d (fS m d) 0) ∗ BS (pS d (fS m d) 1) ∗ BS (pS d (fS m d) 2) ∗ BS (pS d (fS m d) 3)
        ∗ BS (pE d (m (eLoc d))) ∗ BS (pT d (m (tLoc d))) ∗ BS (pO d (m (oLoc d)))
        ∗ BS (pW d (m (wLoc d)) 0) ∗ BS (pW d (m (wLoc d)) 1) ∗ BS (pW d (m (wLoc d)) 2) ∗ BS (pW d (m (wLoc d)) 3)) := by
  show (bigSep Finset.univ fun c : Fin 2 => bigSep Finset.univ fun s : Fin 16 => tileGo m d (coordsV c s)) = _
  rw [bigSep_congr fun c _ => bigSep_congr fun s _ => tileGo_eq m d c s]
  rw [bigSep2_sep, bigSep2_sep, bigSep2_sep, bigSep2_sep, bigSep2_sep, bigSep2_sep, bigSep2_sep, bigSep2_sep, bigSep2_sep, bigSep2_sep]

/-- What it hands back. -/
theorem dn0_eq (d : Dev nD) :
    (bigSep Finset.univ fun c : Fin ((K (F := F)).nCore 0) => (P m).dn 0 d c)
      = iprop(BS (pS d (fS m d) 0) ∗ BS (pS d (fS m d) 1) ∗ BS (pS d (fS m d) 2) ∗ BS (pS d (fS m d) 3)
        ∗ BS (pE d (m (eLoc d))) ∗ BS (pT d (m (tLoc d))) ∗ BS (pO d (outF m d))
        ∗ BS (pW d (fS m d) 0) ∗ BS (pW d (fS m d) 1) ∗ BS (pW d (fS m d) 2) ∗ BS (pW d (fS m d) 3)) := by
  show (bigSep Finset.univ fun c : Fin 2 => bigSep Finset.univ fun s : Fin 16 => tileTd m d (coordsV c s)) = _
  rw [bigSep_congr fun c _ => bigSep_congr fun s _ => tileTd_eq m d c s]
  rw [bigSep2_sep, bigSep2_sep, bigSep2_sep, bigSep2_sep, bigSep2_sep, bigSep2_sep, bigSep2_sep, bigSep2_sep, bigSep2_sep, bigSep2_sep]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev xA : DevRef τ sig := Proc.devRef .tc (main_arg0 : Ref sig .tc)
abbrev xS : DevRef τ sig := Proc.devRef .tc (main_v0 : Ref sig .tc)
abbrev xE : DevRef τ sig := Proc.devRef .tc (main_arg1 : Ref sig .tc)
abbrev xT : DevRef τ sig := Proc.devRef .tc (main_arg2 : Ref sig .tc)
abbrev xO : DevRef τ sig := Proc.devRef .tc (main_v1_0 : Ref sig .tc)
abbrev xW : DevRef τ sig := Proc.devRef .tc (main_v1_1 : Ref sig .tc)
abbrev xR : DevRef τ sig := Proc.devRef .tc (main_v2 : Ref sig .tc)

/-- The two host transposes. -/
abbrev opT1 : HloOp τ sig (Elt F) := StableHlo.unary main_arg0 main_v0
  ((transpose S200x16384 [1, 0] · transposes_S16384x200_S200x16384_1_0) : (⟨S16384x200, .i32⟩ : BufTy).Contents (Elt F) → (⟨S200x16384, .i32⟩ : BufTy).Contents (Elt F))
abbrev opT2 : HloOp τ sig (Elt F) := StableHlo.unary main_v1_1 main_v2
  ((transpose S16384x200 [1, 0] · transposes_S200x16384_S16384x200_1_0) : (⟨S200x16384, .i32⟩ : BufTy).Contents (Elt F) → (⟨S16384x200, .i32⟩ : BufTy).Contents (Elt F))

/-- The TensorCore's arrays, all unscoped. -/
abbrev S7 : Finset (DevRef τ sig) := {xA, xS, xE, xT, xO, xW, xR}

omit [FloatOps F] in
theorem held_S7 (d : Dev nD) (W : Valuation τ sig (Elt F)) :
    (held (T d) S7 W : sProp 𝕄) = iprop((a0Loc d ↦{fullShare} W xA) ∗ (sLoc d ↦{fullShare} W xS) ∗ (eLoc d ↦{fullShare} W xE)
      ∗ (tLoc d ↦{fullShare} W xT) ∗ (oLoc d ↦{fullShare} W xO) ∗ (wLoc d ↦{fullShare} W xW) ∗ rLoc d ↦{fullShare} W xR) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (sLoc d ↦{fullShare} W main_v0) ∗ (eLoc d ↦{fullShare} W main_arg1)
      ∗ (tLoc d ↦{fullShare} W main_arg2) ∗ (oLoc d ↦{fullShare} W main_v1_0) ∗ (wLoc d ↦{fullShare} W main_v1_1) ∗ rLoc d ↦{fullShare} W main_v2) := by
  unfold unscopedBufs
  rw [show (Finset.univ.filter fun b : Ref sig .tc => ¬ b.isScoped) = {main_arg0, main_v0, main_arg1, main_arg2, main_v1_0, main_v1_1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)
/-- After the call: the transposed species, the result and the copy at their values. -/
def V2 (d : Dev nD) : Valuation τ sig (Elt F) :=
  Function.update (Function.update (Function.update (V0 m d) xS (fS m d)) xO (outF m d)) xW (fS m d)

theorem unscoped_held (d : Dev nD) : (unscopedBufs d (fun b => m ((SparseCore.T d).loc b)) : sProp 𝕄) = held (T d) S7 (V0 m d) := by
  rw [unscopedBufs_eq, held_S7]; rfl

/-- After the first transpose. -/
theorem held_V1 (d : Dev nD) :
    (held (T d) S7 ((opT1 (F := F)).result (V0 m d)) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} m (oLoc d))
      ∗ (wLoc d ↦{fullShare} m (wLoc d)) ∗ rLoc d ↦{fullShare} m (rLoc d)) := by
  rw [held_S7, StableHlo.unary_result]
  repeat (rw [StableHlo.unary_result_ne]; rotate_left; decide)
  rfl

theorem V2_A (d : Dev nD) : V2 m d xA = m (a0Loc d) := by
  unfold V2
  rw [Function.update_of_ne (show xA ≠ xW by decide), Function.update_of_ne (show xA ≠ xO by decide), Function.update_of_ne (show xA ≠ xS by decide)]
  rfl
theorem V2_S (d : Dev nD) : V2 m d xS = fS m d := by
  unfold V2
  rw [Function.update_of_ne (show xS ≠ xW by decide), Function.update_of_ne (show xS ≠ xO by decide), Function.update_self]
theorem V2_E (d : Dev nD) : V2 m d xE = m (eLoc d) := by
  unfold V2
  rw [Function.update_of_ne (show xE ≠ xW by decide), Function.update_of_ne (show xE ≠ xO by decide), Function.update_of_ne (show xE ≠ xS by decide)]
  rfl
theorem V2_T (d : Dev nD) : V2 m d xT = m (tLoc d) := by
  unfold V2
  rw [Function.update_of_ne (show xT ≠ xW by decide), Function.update_of_ne (show xT ≠ xO by decide), Function.update_of_ne (show xT ≠ xS by decide)]
  rfl
theorem V2_O (d : Dev nD) : V2 m d xO = outF m d := by
  unfold V2
  rw [Function.update_of_ne (show xO ≠ xW by decide), Function.update_self]
theorem V2_W (d : Dev nD) : V2 m d xW = fS m d := by
  unfold V2
  rw [Function.update_self]
theorem V2_R (d : Dev nD) : V2 m d xR = m (rLoc d) := by
  unfold V2
  rw [Function.update_of_ne (show xR ≠ xW by decide), Function.update_of_ne (show xR ≠ xO by decide), Function.update_of_ne (show xR ≠ xS by decide)]
  rfl

/-- The transposed species transposed back is the species. -/
theorem fS_back (d : Dev nD) : transpose S16384x200 [1, 0] (fS m d) transposes_S200x16384_S16384x200_1_0 = m (a0Loc d) :=
  transpose_twice _

theorem rPts_back (d : Dev nD) :
    (rLoc d ↦{fullShare} transpose S16384x200 [1, 0] (fS m d) transposes_S200x16384_S16384x200_1_0 : sProp 𝕄) = rLoc d ↦{fullShare} m (a0Loc d) := by
  rw [fS_back]

/-- After the call, before the second transpose. -/
theorem held_V2 (d : Dev nD) :
    (held (T d) S7 (V2 m d) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} outF m d)
      ∗ (wLoc d ↦{fullShare} fS m d) ∗ rLoc d ↦{fullShare} m (rLoc d)) := by
  rw [held_S7, V2_A, V2_S, V2_E, V2_T, V2_O, V2_W, V2_R]

/-- After the second transpose. -/
theorem held_V3 (d : Dev nD) :
    (held (T d) S7 ((opT2 (F := F)).result (V2 m d)) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} outF m d)
      ∗ (wLoc d ↦{fullShare} fS m d) ∗ rLoc d ↦{fullShare} m (a0Loc d)) := by
  have h : (held (T d) S7 ((opT2 (F := F)).result (V2 m d)) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} outF m d)
      ∗ (wLoc d ↦{fullShare} fS m d) ∗ rLoc d ↦{fullShare} transpose S16384x200 [1, 0] (fS m d) transposes_S200x16384_S16384x200_1_0) := by
    rw [held_S7, StableHlo.unary_result]
    repeat (rw [StableHlo.unary_result_ne]; rotate_left; decide)
    rw [V2_A, V2_S, V2_E, V2_T, V2_O, V2_W]
  rw [h, rPts_back]

theorem hT1 : (opT1 (F := F)).bufs ⊆ S7 := show ({xA, xS} : Finset (DevRef τ sig)) ⊆ S7 by decide
theorem hT2 : (opT2 (F := F)).bufs ⊆ S7 := show ({xW, xR} : Finset (DevRef τ sig)) ⊆ S7 by decide

variable (ρ : Dev nD → PrngReg)

/-- What @main leaves the claim: the second transpose's result at the species, the shifted energies at the result
    function, the three arguments at their launch contents. -/
abbrev FIN (d : Dev nD) : sProp 𝕄 :=
  iprop((rLoc d ↦{fullShare} m (a0Loc d)) ∗ (oLoc d ↦{fullShare} outF m d) ∗ (a0Loc d ↦{fullShare} m (a0Loc d))
    ∗ (eLoc d ↦{fullShare} m (eLoc d)) ∗ tLoc d ↦{fullShare} m (tLoc d))

/-- @main on device d's TensorCore: the first transpose, the arrays cut among the tiles, the call, the arrays joined,
    the second transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := opT1) (S := S7) hT1 (V := V0 m d)) $$ [Hb Hheld]
  · isplitl [Hb]; · iexact Hb
    iexact Hheld
  iintro ⟨Hb, Hheld⟩
  ihave Hh := (Entails.of_eq (held_V1 (F := F) m d)) $$ Hheld
  icases Hh with ⟨Ha, Hs, He, Ht, Ho, Hw, Hr⟩
  rw [wp_ret]; imodintro
  -- the arrays cut among the tiles
  ihave Hs' := (Entails.of_eq (sPts_tiles (F := F) d (fS m d))) $$ Hs
  icases Hs' with ⟨Hs0, Hs1, Hs2, Hs3⟩
  ihave Hw' := (Entails.of_eq (wPts_tiles (F := F) d (m (wLoc d)))) $$ Hw
  icases Hw' with ⟨Hw0, Hw1, Hw2, Hw3⟩
  ihave He' := (Entails.of_eq (ePts_tiles (F := F) d (m (eLoc d)))) $$ He
  ihave Ht' := (Entails.of_eq (tPts_tiles (F := F) d (m (tLoc d)))) $$ Ht
  ihave Ho' := (Entails.of_eq (oPts_tiles (F := F) d (m (oLoc d)))) $$ Ho
  -- the call
  iapply ((K (F := F)).wp_run (D (F := F)) 𝒱 (EH := EH) (P := P m) κ d 0) $$ [Hst Hs0 Hs1 Hs2 Hs3 He' Ht' Ho' Hw0 Hw1 Hw2 Hw3 Hb Ha Hr]
  isplitr; · iexact Hctx
  isplitl [Hst]; · iexact Hst
  isplitl [Hs0 Hs1 Hs2 Hs3 He' Ht' Ho' Hw0 Hw1 Hw2 Hw3]
  · rw [st0_eq]
    isplitl [Hs0]; · iexact Hs0
    isplitl [Hs1]; · iexact Hs1
    isplitl [Hs2]; · iexact Hs2
    isplitl [Hs3]; · iexact Hs3
    isplitl [He']; · iexact He'
    isplitl [Ht']; · iexact Ht'
    isplitl [Ho']; · iexact Ho'
    isplitl [Hw0]; · iexact Hw0
    isplitl [Hw1]; · iexact Hw1
    isplitl [Hw2]; · iexact Hw2
    iexact Hw3
  iintro ⟨Hst, Hdn⟩
  ihave Hdn' := (Entails.of_eq (dn0_eq m d)) $$ Hdn
  icases Hdn' with ⟨Hs0, Hs1, Hs2, Hs3, He', Ht', Ho', Hw0, Hw1, Hw2, Hw3⟩
  -- the arrays joined
  ihave Hs := (Entails.of_eq (sPts_tiles (F := F) d (fS m d)).symm) $$ [Hs0 Hs1 Hs2 Hs3]
  · isplitl [Hs0]; · iexact Hs0
    isplitl [Hs1]; · iexact Hs1
    isplitl [Hs2]; · iexact Hs2
    iexact Hs3
  ihave Hw := (Entails.of_eq (wPts_tiles (F := F) d (fS m d)).symm) $$ [Hw0 Hw1 Hw2 Hw3]
  · isplitl [Hw0]; · iexact Hw0
    isplitl [Hw1]; · iexact Hw1
    isplitl [Hw2]; · iexact Hw2
    iexact Hw3
  ihave He := (Entails.of_eq (ePts_tiles (F := F) d (m (eLoc d))).symm) $$ He'
  ihave Ht := (Entails.of_eq (tPts_tiles (F := F) d (m (tLoc d))).symm) $$ Ht'
  ihave Ho := (Entails.of_eq (oPts_tiles (F := F) d (outF m d)).symm) $$ Ho'
  -- the second transpose
  iapply (wp_hlo_within 𝒱 (SparseCore.T d) none Set.univ (op := opT2) (S := S7) hT2 (V := V2 m d)) $$ [Hb Ha Hs He Ht Ho Hw Hr]
  · isplitl [Hb]; · iexact Hb
    rw [held_V2]
    isplitl [Ha]; · iexact Ha
    isplitl [Hs]; · iexact Hs
    isplitl [He]; · iexact He
    isplitl [Ht]; · iexact Ht
    isplitl [Ho]; · iexact Ho
    isplitl [Hw]; · iexact Hw
    iexact Hr
  iintro ⟨Hb, Hheld⟩
  ihave Hh := (Entails.of_eq (held_V3 (F := F) m d)) $$ Hheld
  icases Hh with ⟨Ha, -, He, Ht, Ho, -, Hr⟩
  rw [wp_ret]; imodintro; imodintro
  isplitl [Hst]; · iexact Hst
  isplitl [Hr]; · iexact Hr
  isplitl [Ho]; · iexact Ho
  isplitl [Ha]; · iexact Ha
  isplitl [He]; · iexact He
  iexact Ht

def fq (d : Dev nD) (s' : Phys nD τ sig (Elt F)) : Prop :=
  s'.mem.mem (rLoc d) = m (a0Loc d) ∧ s'.mem.mem (oLoc d) = outF m d ∧ s'.mem.mem (a0Loc d) = m (a0Loc d)
    ∧ s'.mem.mem (eLoc d) = m (eLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hr, Ho, Ha, He, Ht⟩, HSI⟩
  ihave H := (persistent_entails_right (SI_pointsTo_agree (st := s') (ℓ := rLoc d) (I := Finset.univ) (q := fullShare) (f := m (a0Loc d)))) $$ [HSI Hr]
  · isplitl [HSI] <;> iassumption
  icases H with ⟨%h1, HSI, -⟩
  ihave H := (persistent_entails_right (SI_pointsTo_agree (st := s') (ℓ := oLoc d) (I := Finset.univ) (q := fullShare) (f := outF m d))) $$ [HSI Ho]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI Ha]
  · isplitl [HSI] <;> iassumption
  icases H with ⟨%h3, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h4, HSI, -⟩
  ihave H := (SI_pointsTo_agree (st := s') (ℓ := tLoc d) (I := Finset.univ) (q := fullShare) (f := m (tLoc d))) $$ [HSI Ht]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

end Launch

open Launch

variable [FloatOps F] (m : (ℓ : Loc nD τ sig) → Buf (Elt F) ℓ) (ρ : Dev nD → PrngReg)

/-! ## The program's run -/

/-- The strongest post: on every device the second transpose's result is the species, the shifted energies are the
    result function of the arguments, and the three arguments are unchanged. -/
def QC : PUnit × MemSt nD τ sig (Elt F) → Prop := fun r => ∀ c : Dev nD,
  r.2.mem (rLoc c) = m (a0Loc c) ∧ r.2.mem (oLoc c) = outF m c
    ∧ r.2.mem (a0Loc c) = m (a0Loc c) ∧ r.2.mem (eLoc c) = m (eLoc c) ∧ r.2.mem (tLoc c) = m (tLoc c)

theorem run_main [∀ e, Nonempty (Elt F e)] (hT : (K (F := F)).TileObl (D (F := F)) 𝒱 (P m) v₀ 0) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KI

end
-- ==== Proof.SetupKB.lean ====
/-
  The kernel as the SparseCore launch theorem sees it: the configuration, the body table, the variants, the
  side conditions of the handshake semaphores, and the resource algebra (the handshakes' rounds beside the local
  transfers' counters). One vector-subcore kernel on two SparseCores of sixteen tiles each: tile (c, s) is worker
  2 s + c and owns molecules 512 (2 s + c) .. 512 (2 s + c) + 511.
-/
import proofs.«206988_g4337916970008_retrytranche1_694_23_alg».proof.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«206988_g4337916970008_retrytranche1_694_23_alg».proof.Proof.Gen.Kernel
import proofs.«206988_g4337916970008_retrytranche1_694_23_alg».proof.Proof.Gen.Kernel.Skeleton

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

abbrev EH : Emb UH (MT nD τ sig (HIx 1) (Elt F) ℕ UU ℕ) := embL

/-- The grid point of tile (c, s). -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0

end Cert.Proof.KB

end
-- ==== Proof.TileResKB.lean ====
/-
  What one tile is handed and hands back, and the handshakes' payloads.

  Tile (c, s) is worker 2 s + c; it owns the molecules 512 (2 s + c) + p, p < 512, in four panels of 128.
  It is handed, of the transposed species array [200, 16384], the four column panels [200, 128] of its molecules; of the
  energies its 512 entries; a read share of the eight self energies; and, to fill, its 512 entries of the shifted
  energies and its four panels of the copy of the transposed species. It hands back the same, the shifted energies'
  entries at the result function and the copy's panels at the transposed species.

  The result function, at molecule M with species words s_0 .. s_199 and table t: the fifty quads
  (t[s_4q] + t[s_4q+1]) + (t[s_4q+2] + t[s_4q+3]) added one after the other onto zero, and then the energy of M added.
-/
import proofs.«206988_g4337916970008_retrytranche1_694_23_alg».proof.Proof.SetupKB
import proofs.«206988_g4337916970008_retrytranche1_694_23_alg».proof.Proof.LibScSplit
import Idealize.ShloMosaic.Lib.ValueIdx

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

abbrev sV : Memref sig .scVector .hbm S200x16384 .i32 := Memref.whole main_v0_scv
abbrev eV : Memref sig .scVector .hbm S16384 .f32 := Memref.whole main_arg1_scv
abbrev tV : Memref sig .scVector .hbm S8 .f32 := Memref.whole main_arg2_scv
abbrev oV : Memref sig .scVector .hbm S16384 .f32 := Memref.whole main_v1_0_scv
abbrev wV : Memref sig .scVector .hbm S200x16384 .i32 := Memref.whole main_v1_1_scv
abbrev b7 : Memref sig .scVector .vmem S4x200x128 .i32 := Memref.whole cc0_scratch0
abbrev b8 : Memref sig .scVector .vmem S512 .f32 := Memref.whole cc0_scratch1
abbrev b9 : Memref sig .scVector .vmem S512 .f32 := Memref.whole cc0_scratch2
abbrev b10 : Memref sig .scVector .vmem S16 .f32 := Memref.whole cc0_scratch3
abbrev b11 : Memref sig .scVector .vmem S4096 .f32 := Memref.whole cc0_scratch4

/-- The thread of the tile at grid point L. -/
abbrev thr (d : Dev nD) (L : grid0.Coords) : Thread nD τ := V d (cV L) (jV L)

/-! ## The arrays as the TensorCore names them -/

abbrev a0Loc (d : Dev nD) : Loc nD τ sig := (SparseCore.T d).loc main_arg0
abbrev sLoc (d : Dev nD) : Loc nD τ sig := (SparseCore.T d).loc main_v0
abbrev eLoc (d : Dev nD) : Loc nD τ sig := (SparseCore.T d).loc main_arg1
abbrev tLoc (d : Dev nD) : Loc nD τ sig := (SparseCore.T d).loc main_arg2
abbrev oLoc (d : Dev nD) : Loc nD τ sig := (SparseCore.T d).loc main_v1_0
abbrev wLoc (d : Dev nD) : Loc nD τ sig := (SparseCore.T d).loc main_v1_1
abbrev rLoc (d : Dev nD) : Loc nD τ sig := (SparseCore.T d).loc main_v2

/-! ## A tile's pieces, spelt as the body slices them -/

abbrev sIn0 (L : grid0.Coords) : Memref sig .scVector .hbm S200x128 .i32 := sV.slice (Rect.unit (s := S200x16384) (k0_off1 L 0#32) S200x128.size (k0_off1_inb L 0)) (fun _ => rfl)
abbrev sIn1 (L : grid0.Coords) : Memref sig .scVector .hbm S200x128 .i32 := sV.slice (Rect.unit (s := S200x16384) (k0_off1 L 128#32) S200x128.size (k0_off1_inb L 1)) (fun _ => rfl)
abbrev sIn2 (L : grid0.Coords) : Memref sig .scVector .hbm S200x128 .i32 := sV.slice (Rect.unit (s := S200x16384) (k0_off1 L 256#32) S200x128.size (k0_off1_inb L 2)) (fun _ => rfl)
abbrev sIn3 (L : grid0.Coords) : Memref sig .scVector .hbm S200x128 .i32 := sV.slice (Rect.unit (s := S200x16384) (k0_off1 L 384#32) S200x128.size (k0_off1_inb L 3)) (fun _ => rfl)
abbrev wOut0 (L : grid0.Coords) : Memref sig .scVector .hbm S200x128 .i32 := wV.slice (Rect.unit (s := S200x16384) (k0_off4 L 0#32) S200x128.size (k0_off4_inb L 0)) (fun _ => rfl)
abbrev wOut1 (L : grid0.Coords) : Memref sig .scVector .hbm S200x128 .i32 := wV.slice (Rect.unit (s := S200x16384) (k0_off4 L 128#32) S200x128.size (k0_off4_inb L 1)) (fun _ => rfl)
abbrev wOut2 (L : grid0.Coords) : Memref sig .scVector .hbm S200x128 .i32 := wV.slice (Rect.unit (s := S200x16384) (k0_off4 L 256#32) S200x128.size (k0_off4_inb L 2)) (fun _ => rfl)
abbrev wOut3 (L : grid0.Coords) : Memref sig .scVector .hbm S200x128 .i32 := wV.slice (Rect.unit (s := S200x16384) (k0_off4 L 384#32) S200x128.size (k0_off4_inb L 3)) (fun _ => rfl)
abbrev eCh (L : grid0.Coords) : Memref sig .scVector .hbm S512 .f32 := eV.slice (Rect.unit (s := S16384) (k0_off2 L) S512.size (k0_off2_inb L)) (fun _ => rfl)
abbrev oCh (L : grid0.Coords) : Memref sig .scVector .hbm S512 .f32 := oV.slice (Rect.unit (s := S16384) (k0_off69 L) S512.size (k0_off69_inb L)) (fun _ => rfl)

/-! ## The result function -/

section Spec
variable [FloatOps F]

/-- Entry v of the table of eight. -/
def tabAt (fT : S8.Idx → F .f32) (v : ℕ) : F .f32 := fT (ValueIdx.ix1 ⟨v % 8, Nat.mod_lt _ (by decide)⟩)
/-- One quad of table entries, grouped two and two. -/
def quadF (fT : S8.Idx → F .f32) (a b c e : ℕ) : F .f32 :=
  FloatOps.addf (FloatOps.addf (tabAt fT a) (tabAt fT b)) (FloatOps.addf (tabAt fT c) (tabAt fT e))
/-- The first n terms of g added one after the other onto zero. -/
def accF (g : ℕ → F .f32) : ℕ → F .f32
  | 0 => FloatOps.ofBits .f32 0x00000000#32
  | n + 1 => FloatOps.addf (accF g n) (g n)
/-- Species word k of molecule M in the transposed array. -/
def spAt (fS : S200x16384.Idx → BitVec 32) (M k : ℕ) : ℕ := (fS (ValueIdx.ix2 ⟨k % 200, Nat.mod_lt _ (by decide)⟩ ⟨M % 16384, Nat.mod_lt _ (by decide)⟩)).toNat
/-- The shifted energy of molecule M. -/
def outSpec (fS : S200x16384.Idx → BitVec 32) (fE : S16384.Idx → F .f32) (fT : S8.Idx → F .f32) : S16384.Idx → F .f32 := fun M =>
  FloatOps.addf (accF (fun q => quadF fT (spAt fS (M 0).val (4 * q)) (spAt fS (M 0).val (4 * q + 1)) (spAt fS (M 0).val (4 * q + 2)) (spAt fS (M 0).val (4 * q + 3))) 50) (fE M)

end Spec

/-! ## The launch memory, the handed pieces, the payloads -/

variable (m : (ℓ : Loc nD τ sig) → Buf (Elt F) ℓ)

variable [FloatOps F]

/-- The transposed species array, as the host's transpose leaves it. -/
def fS (d : Dev nD) : Buf (Elt F) (sLoc d) :=
  (transpose S200x16384 [1, 0] · transposes_S16384x200_S200x16384_1_0 : (⟨S16384x200, .i32⟩ : BufTy).Contents (Elt F) → (⟨S200x16384, .i32⟩ : BufTy).Contents (Elt F)) (m (a0Loc d))
/-- The shifted energies, whole. -/
def outF (d : Dev nD) : Buf (Elt F) (oLoc d) := outSpec (F := F) (fS m d) (m (eLoc d)) (m (tLoc d))

/-- What the tile at L is handed. -/
def tileGo (d : Dev nD) (L : grid0.Coords) : sProp 𝕄 :=
  iprop((sLoc d ↦[(sIn0 L).view.set]{fullShare} fS m d) ∗ (sLoc d ↦[(sIn1 L).view.set]{fullShare} fS m d)
    ∗ (sLoc d ↦[(sIn2 L).view.set]{fullShare} fS m d) ∗ (sLoc d ↦[(sIn3 L).view.set]{fullShare} fS m d)
    ∗ (eLoc d ↦[(eCh L).view.set]{fullShare} m (eLoc d))
    ∗ (tLoc d ↦{Cert.Lib.ScSplit.sh (L 0).val (L 1).val} m (tLoc d))
    ∗ (oLoc d ↦[(oCh L).view.set]{fullShare} m (oLoc d))
    ∗ (wLoc d ↦[(wOut0 L).view.set]{fullShare} m (wLoc d)) ∗ (wLoc d ↦[(wOut1 L).view.set]{fullShare} m (wLoc d))
    ∗ (wLoc d ↦[(wOut2 L).view.set]{fullShare} m (wLoc d)) ∗ (wLoc d ↦[(wOut3 L).view.set]{fullShare} m (wLoc d)))

/-- What it hands back: its entries of the result at the result function, its panels of the copy at the transposed species. -/
def tileTd (d : Dev nD) (L : grid0.Coords) : sProp 𝕄 :=
  iprop((sLoc d ↦[(sIn0 L).view.set]{fullShare} fS m d) ∗ (sLoc d ↦[(sIn1 L).view.set]{fullShare} fS m d)
    ∗ (sLoc d ↦[(sIn2 L).view.set]{fullShare} fS m d) ∗ (sLoc d ↦[(sIn3 L).view.set]{fullShare} fS m d)
    ∗ (eLoc d ↦[(eCh L).view.set]{fullShare} m (eLoc d))
    ∗ (tLoc d ↦{Cert.Lib.ScSplit.sh (L 0).val (L 1).val} m (tLoc d))
    ∗ (oLoc d ↦[(oCh L).view.set]{fullShare} outF m d)
    ∗ (wLoc d ↦[(wOut0 L).view.set]{fullShare} fS m d) ∗ (wLoc d ↦[(wOut1 L).view.set]{fullShare} fS m d)
    ∗ (wLoc d ↦[(wOut2 L).view.set]{fullShare} fS m d) ∗ (wLoc d ↦[(wOut3 L).view.set]{fullShare} fS m d))

omit [FloatOps F] in
theorem bound_zero : grid0.bound 0 = 2 := rfl
omit [FloatOps F] in
theorem bound_one : grid0.bound 1 = 16 := rfl

/-- The grid point of SparseCore c's tile i of the one call. -/
def Lof (c : Fin ((K (F := F)).nCore 0)) (i : Fin ((K (F := F)).nSub 0)) : grid0.Coords :=
  coordsV ⟨c.val, c.isLt⟩ ⟨i.val, i.isLt⟩

/-- The one call: a SparseCore is handed its sixteen tiles' pieces side by side and hands them back so. -/
def P : (K (F := F)).Pay (nD := nD) (Val := Elt F) (Name := ℕ) (U := UU) where
  st := fun q d c => match q with | 0 => bigSep Finset.univ fun i : Fin ((K (F := F)).nSub 0) => tileGo m d (Lof c i)
  dn := fun q d c => match q with | 0 => bigSep Finset.univ fun i : Fin ((K (F := F)).nSub 0) => tileTd m d (Lof c i)
  go := fun q d c i => match q with | 0 => tileGo m d (Lof c i)
  td := fun q d c i => match q with | 0 => tileTd m d (Lof c i)
  x := fun _ _ => iprop(emp)

instance tileGo_storable (d : Dev nD) (L : grid0.Coords) : BI.Storable (upEmb : UEmb _ 𝕄) (tileGo m d L) := by
  unfold tileGo; infer_instance
instance tileTd_storable (d : Dev nD) (L : grid0.Coords) : BI.Storable (upEmb : UEmb _ 𝕄) (tileTd m d L) := by
  unfold tileTd; infer_instance

instance P_storable : (P (F := F) m).IsStorable where
  st q d c := match q with | 0 => (inferInstance : BI.Storable (upEmb : UEmb _ 𝕄) (bigSep Finset.univ fun i : Fin ((K (F := F)).nSub 0) => tileGo m d (Lof c i)))
  dn q d c := match q with | 0 => (inferInstance : BI.Storable (upEmb : UEmb _ 𝕄) (bigSep Finset.univ fun i : Fin ((K (F := F)).nSub 0) => tileTd m d (Lof c i)))
  go q d c i := match q with | 0 => (inferInstance : BI.Storable (upEmb : UEmb _ 𝕄) (tileGo m d (Lof c i)))
  td q d c i := match q with | 0 => (inferInstance : BI.Storable (upEmb : UEmb _ 𝕄) (tileTd m d (Lof c i)))

/-- A SparseCore's operands are its tiles' pieces, and its results theirs: nothing to cut here. -/
theorem vecSplit : (K (F := F)).VecSplit' (P m) 0 := by
  intro d c
  show (bigSep Finset.univ fun i : Fin ((K (F := F)).nSub 0) => tileGo m d (Lof c i)) ⊢ |={Set.univ}=> iprop(
      (bigSep Finset.univ fun i : Fin ((K (F := F)).nSub 0) => tileGo m d (Lof c i))
      ∗ ((bigSep Finset.univ fun i : Fin ((K (F := F)).nSub 0) => tileTd m d (Lof c i))
          -∗ (bigSep Finset.univ fun i : Fin ((K (F := F)).nSub 0) => tileTd m d (Lof c i))))
  iintro H; imodintro
  isplitl [H]; · iexact H
  iintro H; iexact H

end Cert.Proof.KB

end
-- ==== Proof.TileOwnKB.lean ====
/-
  A tile's own storage, opened: its eleven DMA semaphores' counters one by one and its five scratch buffers, each
  beside the rest of what the tile owns.
-/
import proofs.«206988_g4337916970008_retrytranche1_694_23_alg».proof.Proof.TileResKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The cell of the tile's j-th DMA semaphore. -/
abbrev dcell (d : Dev nD) (L : grid0.Coords) (j : DmaSem sig) : GSem nD τ sig := (thr d L, SemLoc.dma j)

theorem dcell_mem (d : Dev nD) (L : grid0.Coords) (j : DmaSem sig) : dcell d L j ∈ ownCells (thr d L) :=
  mem_ownCells.mpr ⟨rfl, by show (SemLoc.dma j : SemLoc sig).isScoped .scVector = true; revert j; decide⟩

theorem dcell_inj (d : Dev nD) (L : grid0.Coords) : Set.InjOn (dcell d L) ((Finset.univ : Finset (DmaSem sig)) : Set _) :=
  fun _ _ _ _ e => SemLoc.dma.inj (Prod.mk.inj e).2

/-- The eleven counters, then the rest of the tile's own cells. -/
theorem ownSems0_V (d : Dev nD) (L : grid0.Coords) :
    (ownSems0 (thr d L) : sProp 𝕄)
      = iprop((semVal (dcell d L 0) 0 ∗ semVal (dcell d L 1) 0 ∗ semVal (dcell d L 2) 0 ∗ semVal (dcell d L 3) 0
          ∗ semVal (dcell d L 4) 0 ∗ semVal (dcell d L 5) 0 ∗ semVal (dcell d L 6) 0 ∗ semVal (dcell d L 7) 0
          ∗ semVal (dcell d L 8) 0 ∗ semVal (dcell d L 9) 0 ∗ semVal (dcell d L 10) 0)
          ∗ bigSep (ownCells (thr d L) \ (Finset.univ.image (dcell d L))) fun g => semVal g 0) := by
  unfold SparseCore.Cfg.ownSems0
  rw [SparseCore.bigSep_sdiff_split' (t := Finset.univ.image (dcell d L))
    (fun g hg => by obtain ⟨j, -, rfl⟩ := Finset.mem_image.mp hg; exact dcell_mem d L j),
    SparseCore.bigSep_image_of_injOn (dcell_inj d L) (fun g => (semVal g 0 : sProp 𝕄)),
    show (Finset.univ : Finset (DmaSem sig)) = {0, 1, 2, 3, 4, 5, 6, 7, 8, 9, 10} from by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- A scratch buffer of the tile as one of its own references. -/
abbrev sref (L : grid0.Coords) (b : Ref sig .scVector) : DevRef τ sig := (Proc.scVector (cV L) (jV L)).devRef b

theorem sref_mem (L : grid0.Coords) (b : Ref sig .scVector) (h : ((Proc.scVector (cV L) (jV L)).devRef b).owner = .proc (Proc.scVector (cV L) (jV L))) :
    sref L b ∈ ownRefs (τ := τ) (sig := sig) (Proc.scVector (cV L) (jV L)) :=
  SparseCore.Cfg.mem_ownRefs_of_owner h

/-- The five scratch buffers at some contents, then the rest of the tile's own buffers. -/
theorem ownBufs_V (d : Dev nD) (L : grid0.Coords) :
    (ownBufs (thr d L) : sProp 𝕄)
      = iprop(((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f))
          ∗ bigSep (ownRefs (τ := τ) (sig := sig) (Proc.scVector (cV L) (jV L)) \ {sref L cc0_scratch0, sref L cc0_scratch1, sref L cc0_scratch2, sref L cc0_scratch3, sref L cc0_scratch4})
              fun b => iprop(∃ f, ((d, b) : Loc nD τ sig) ↦{fullShare} f)) := by
  unfold SparseCore.Cfg.ownBufs
  rw [SparseCore.bigSep_sdiff_split' (t := {sref L cc0_scratch0, sref L cc0_scratch1, sref L cc0_scratch2, sref L cc0_scratch3, sref L cc0_scratch4})
    (fun b hb => by
      simp only [Finset.mem_insert, Finset.mem_singleton] at hb
      rcases hb with rfl | rfl | rfl | rfl | rfl <;> exact SparseCore.Cfg.mem_ownRefs_of_owner rfl),
    SparseCore.bigSep_insert' (by simp only [Finset.mem_insert, Finset.mem_singleton, not_or]; exact ⟨fun e => absurd (Proc.devRef_injective _ e) (show (cc0_scratch0 : Ref sig .scVector) ≠ cc0_scratch1 by decide), fun e => absurd (Proc.devRef_injective _ e) (show (cc0_scratch0 : Ref sig .scVector) ≠ cc0_scratch2 by decide), fun e => absurd (Proc.devRef_injective _ e) (show (cc0_scratch0 : Ref sig .scVector) ≠ cc0_scratch3 by decide), fun e => absurd (Proc.devRef_injective _ e) (show (cc0_scratch0 : Ref sig .scVector) ≠ cc0_scratch4 by decide)⟩),
    SparseCore.bigSep_insert' (by simp only [Finset.mem_insert, Finset.mem_singleton, not_or]; exact ⟨fun e => absurd (Proc.devRef_injective _ e) (show (cc0_scratch1 : Ref sig .scVector) ≠ cc0_scratch2 by decide), fun e => absurd (Proc.devRef_injective _ e) (show (cc0_scratch1 : Ref sig .scVector) ≠ cc0_scratch3 by decide), fun e => absurd (Proc.devRef_injective _ e) (show (cc0_scratch1 : Ref sig .scVector) ≠ cc0_scratch4 by decide)⟩),
    SparseCore.bigSep_insert' (by simp only [Finset.mem_insert, Finset.mem_singleton, not_or]; exact ⟨fun e => absurd (Proc.devRef_injective _ e) (show (cc0_scratch2 : Ref sig .scVector) ≠ cc0_scratch3 by decide), fun e => absurd (Proc.devRef_injective _ e) (show (cc0_scratch2 : Ref sig .scVector) ≠ cc0_scratch4 by decide)⟩),
    SparseCore.bigSep_insert' (by simp only [Finset.mem_singleton]; exact fun e => absurd (Proc.devRef_injective _ e) (show (cc0_scratch3 : Ref sig .scVector) ≠ cc0_scratch4 by decide)),
    bigSep_singleton]

end Cert.Proof.KB

end
-- ==== Proof.TilePreKB.lean ====
/-
  What the tile's body asks of the launch memory: every species word is below eight (the precondition's integer range),
  so every index word the body packs out of four of them names an entry of the table of 4096.
-/
import proofs.«206988_g4337916970008_retrytranche1_694_23_alg».proof.Proof.TileResKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- Every species word of the launch memory is below eight. -/
def PreOK (m : (ℓ : Loc nD τ sig) → Buf (Elt F) ℓ) : Prop :=
  ∀ (d : Dev nD) (idx : S16384x200.Idx), (m (a0Loc d) idx).toNat < 8

end Cert.Proof.KB

end
-- ==== Proof.SlabCutKB.lean ====
/-
  The species scratch [4, 200, 128] as its four panels: the whole is the four panels side by side, and a panel's
  elements are those of the whole outside the other three.
-/
import proofs.«206988_g4337916970008_retrytranche1_694_23_alg».proof.Proof.TileResKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- Panel t of the species scratch, as the body slices it. -/
abbrev slab0 : Memref sig .scVector .vmem S200x128 .i32 := (b7.slice (Rect.unit (s := S4x200x128) ![0, 0, 0] S1x200x128.size inb_S4x200x128_S1x200x128_0_0_0) (fun _ => rfl)).squeeze S200x128 squeezes_S1x200x128_S200x128
abbrev slab1 : Memref sig .scVector .vmem S200x128 .i32 := (b7.slice (Rect.unit (s := S4x200x128) ![1, 0, 0] S1x200x128.size inb_S4x200x128_S1x200x128_1_0_0) (fun _ => rfl)).squeeze S200x128 squeezes_S1x200x128_S200x128
abbrev slab2 : Memref sig .scVector .vmem S200x128 .i32 := (b7.slice (Rect.unit (s := S4x200x128) ![2, 0, 0] S1x200x128.size inb_S4x200x128_S1x200x128_2_0_0) (fun _ => rfl)).squeeze S200x128 squeezes_S1x200x128_S200x128
abbrev slab3 : Memref sig .scVector .vmem S200x128 .i32 := (b7.slice (Rect.unit (s := S4x200x128) ![3, 0, 0] S1x200x128.size inb_S4x200x128_S1x200x128_3_0_0) (fun _ => rfl)).squeeze S200x128 squeezes_S1x200x128_S200x128

namespace Slab

section BigSep
universe u
variable {M : Type u} [URA M]
theorem bigSep_univ_four (Φ : Fin 4 → sProp M) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl
end BigSep

theorem hdiv4 : 4 ∣ S4x200x128.size 0 := ⟨1, rfl⟩

/-- Panel t of a [4, 200, 128] array: the elements whose first coordinate is t. -/
abbrev slabP (t : Fin 4) : Rect S4x200x128 := Rect.part (s := S4x200x128) (a₀ := 0) hdiv4 t

/-- A [1, 200, 128] window at first coordinate t is panel t. -/
theorem slabK_eq (t : Fin 4) {off : Fin S4x200x128.rank → ℕ} (ho : off = ![t.val, 0, 0])
    (inb : ∀ a, off a + S1x200x128.size a ≤ S4x200x128.size a) :
    Rect.unit (s := S4x200x128) off S1x200x128.size inb = slabP t := by
  subst ho
  unfold slabP Rect.part Rect.block
  refine Cert.Lib.ScSplit.unit_congr ?_ ?_
  · funext a
    match a with
    | 0 => simp [Shape.partIx, Shape.partSize]
    | 1 => simp [Shape.partIx, Shape.partSize]
    | 2 => simp [Shape.partIx, Shape.partSize]
  · funext a
    match a with
    | 0 => simp [Shape.partSize]
    | 1 => simp [Shape.partSize]
    | 2 => simp [Shape.partSize]

theorem set_slab0 : (slab0).view.set = (slabP 0).set :=
  (View.set_reshape _ _).trans ((View.set_slice_whole cc0_scratch0 _).trans (congrArg (fun R : Rect S4x200x128 => R.set) (slabK_eq 0 rfl _)))
theorem set_slab1 : (slab1).view.set = (slabP 1).set :=
  (View.set_reshape _ _).trans ((View.set_slice_whole cc0_scratch0 _).trans (congrArg (fun R : Rect S4x200x128 => R.set) (slabK_eq 1 rfl _)))
theorem set_slab2 : (slab2).view.set = (slabP 2).set :=
  (View.set_reshape _ _).trans ((View.set_slice_whole cc0_scratch0 _).trans (congrArg (fun R : Rect S4x200x128 => R.set) (slabK_eq 2 rfl _)))
theorem set_slab3 : (slab3).view.set = (slabP 3).set :=
  (View.set_reshape _ _).trans ((View.set_slice_whole cc0_scratch0 _).trans (congrArg (fun R : Rect S4x200x128 => R.set) (slabK_eq 3 rfl _)))

theorem slabs_disjoint : ∀ i ∈ (Finset.univ : Finset (Fin 4)), ∀ j ∈ (Finset.univ : Finset (Fin 4)), i ≠ j → Disjoint (slabP i).set (slabP j).set :=
  fun _ _ _ _ h => Rect.part_disjoint hdiv4 h
theorem slabs_cover : (Finset.univ : Finset (Fin 4)).biUnion (fun t => (slabP t).set) = Finset.univ := Rect.biUnion_part hdiv4

/-- An element lies in panel t exactly when it lies in no other panel. -/
theorem mem_slab_iff (t : Fin 4) (i : S4x200x128.Idx) : i ∈ (slabP t).set ↔ ∀ t' : Fin 4, t' ≠ t → i ∉ (slabP t').set := by
  constructor
  · intro hi t' hne hi'
    exact Finset.disjoint_left.mp (Rect.part_disjoint hdiv4 hne) hi' hi
  · intro h
    obtain ⟨j, hj⟩ := Rect.exists_mem_part hdiv4 i
    by_cases e : j = t
    · exact e ▸ hj
    · exact absurd hj (h j e)

theorem holes0 : (slabP 0).set = ((Finset.univ \ (slabP 1).set) \ (slabP 2).set) \ (slabP 3).set := by
  ext i
  simp only [Finset.mem_sdiff, Finset.mem_univ, true_and]
  rw [mem_slab_iff]
  constructor
  · intro h; exact ⟨⟨h 1 (by decide), h 2 (by decide)⟩, h 3 (by decide)⟩
  · rintro ⟨⟨h1, h2⟩, h3⟩ t' hne
    fin_cases t'
    · exact absurd rfl hne
    · exact h1
    · exact h2
    · exact h3
theorem holes1 : (slabP 1).set = ((Finset.univ \ (slabP 0).set) \ (slabP 2).set) \ (slabP 3).set := by
  ext i
  simp only [Finset.mem_sdiff, Finset.mem_univ, true_and]
  rw [mem_slab_iff]
  constructor
  · intro h; exact ⟨⟨h 0 (by decide), h 2 (by decide)⟩, h 3 (by decide)⟩
  · rintro ⟨⟨h0, h2⟩, h3⟩ t' hne
    fin_cases t'
    · exact h0
    · exact absurd rfl hne
    · exact h2
    · exact h3
theorem holes2 : (slabP 2).set = ((Finset.univ \ (slabP 0).set) \ (slabP 1).set) \ (slabP 3).set := by
  ext i
  simp only [Finset.mem_sdiff, Finset.mem_univ, true_and]
  rw [mem_slab_iff]
  constructor
  · intro h; exact ⟨⟨h 0 (by decide), h 1 (by decide)⟩, h 3 (by decide)⟩
  · rintro ⟨⟨h0, h1⟩, h3⟩ t' hne
    fin_cases t'
    · exact h0
    · exact h1
    · exact absurd rfl hne
    · exact h3
theorem holes3 : (slabP 3).set = ((Finset.univ \ (slabP 0).set) \ (slabP 1).set) \ (slabP 2).set := by
  ext i
  simp only [Finset.mem_sdiff, Finset.mem_univ, true_and]
  rw [mem_slab_iff]
  constructor
  · intro h; exact ⟨⟨h 0 (by decide), h 1 (by decide)⟩, h 2 (by decide)⟩
  · rintro ⟨⟨h0, h1⟩, h2⟩ t' hne
    fin_cases t'
    · exact h0
    · exact h1
    · exact h2
    · exact absurd rfl hne

end Slab

open Slab

theorem b7_cut (d : Dev nD) (L : grid0.Coords) (f : Buf (Elt F) ((thr d L).loc cc0_scratch0)) :
    ((thr d L).loc cc0_scratch0 ↦{fullShare} f : sProp 𝕄)
      = iprop(((slab0).view.loc (thr d L) ↦[(slab0).view.set]{fullShare} f) ∗ ((slab1).view.loc (thr d L) ↦[(slab1).view.set]{fullShare} f)
          ∗ ((slab2).view.loc (thr d L) ↦[(slab2).view.set]{fullShare} f) ∗ ((slab3).view.loc (thr d L) ↦[(slab3).view.set]{fullShare} f)) := by
  rw [set_slab0, set_slab1, set_slab2, set_slab3]
  exact (Cert.Lib.ScSplit.pointsTo_cut (ℓ := (thr d L).loc cc0_scratch0) (fun t : Fin 4 => (slabP t).set) slabs_disjoint slabs_cover fullShare f).trans
    (bigSep_univ_four _)

theorem slab0_holes (d : Dev nD) (L : grid0.Coords) (q : PosShare TreeShare) (f : Buf (Elt F) ((thr d L).loc cc0_scratch0)) :
    ((slab0).view.loc (thr d L) ↦[(slab0).view.set]{q} f : sProp 𝕄)
      = ((b7).view.loc (thr d L) ↦[((Finset.univ \ ((b7.slice (Rect.unit (s := S4x200x128) ![1, 0, 0] S1x200x128.size inb_S4x200x128_S1x200x128_1_0_0) (fun _ => rfl)).squeeze S200x128 squeezes_S1x200x128_S200x128).view.set) \ ((b7.slice (Rect.unit (s := S4x200x128) ![2, 0, 0] S1x200x128.size inb_S4x200x128_S1x200x128_2_0_0) (fun _ => rfl)).squeeze S200x128 squeezes_S1x200x128_S200x128).view.set) \ ((b7.slice (Rect.unit (s := S4x200x128) ![3, 0, 0] S1x200x128.size inb_S4x200x128_S1x200x128_3_0_0) (fun _ => rfl)).squeeze S200x128 squeezes_S1x200x128_S200x128).view.set]{q} f) := by
  show ((slab0).view.loc (thr d L) ↦[(slab0).view.set]{q} f : sProp 𝕄)
    = ((b7).view.loc (thr d L) ↦[((Finset.univ \ (slab1).view.set) \ (slab2).view.set) \ (slab3).view.set]{q} f)
  rw [set_slab0, set_slab1, set_slab2, set_slab3, ← holes0]

theorem slab1_holes (d : Dev nD) (L : grid0.Coords) (q : PosShare TreeShare) (f : Buf (Elt F) ((thr d L).loc cc0_scratch0)) :
    ((slab1).view.loc (thr d L) ↦[(slab1).view.set]{q} f : sProp 𝕄)
      = ((b7).view.loc (thr d L) ↦[((Finset.univ \ ((b7.slice (Rect.unit (s := S4x200x128) ![0, 0, 0] S1x200x128.size inb_S4x200x128_S1x200x128_0_0_0) (fun _ => rfl)).squeeze S200x128 squeezes_S1x200x128_S200x128).view.set) \ ((b7.slice (Rect.unit (s := S4x200x128) ![2, 0, 0] S1x200x128.size inb_S4x200x128_S1x200x128_2_0_0) (fun _ => rfl)).squeeze S200x128 squeezes_S1x200x128_S200x128).view.set) \ ((b7.slice (Rect.unit (s := S4x200x128) ![3, 0, 0] S1x200x128.size inb_S4x200x128_S1x200x128_3_0_0) (fun _ => rfl)).squeeze S200x128 squeezes_S1x200x128_S200x128).view.set]{q} f) := by
  show ((slab1).view.loc (thr d L) ↦[(slab1).view.set]{q} f : sProp 𝕄)
    = ((b7).view.loc (thr d L) ↦[((Finset.univ \ (slab0).view.set) \ (slab2).view.set) \ (slab3).view.set]{q} f)
  rw [set_slab0, set_slab1, set_slab2, set_slab3, ← holes1]

theorem slab2_holes (d : Dev nD) (L : grid0.Coords) (q : PosShare TreeShare) (f : Buf (Elt F) ((thr d L).loc cc0_scratch0)) :
    ((slab2).view.loc (thr d L) ↦[(slab2).view.set]{q} f : sProp 𝕄)
      = ((b7).view.loc (thr d L) ↦[((Finset.univ \ ((b7.slice (Rect.unit (s := S4x200x128) ![0, 0, 0] S1x200x128.size inb_S4x200x128_S1x200x128_0_0_0) (fun _ => rfl)).squeeze S200x128 squeezes_S1x200x128_S200x128).view.set) \ ((b7.slice (Rect.unit (s := S4x200x128) ![1, 0, 0] S1x200x128.size inb_S4x200x128_S1x200x128_1_0_0) (fun _ => rfl)).squeeze S200x128 squeezes_S1x200x128_S200x128).view.set) \ ((b7.slice (Rect.unit (s := S4x200x128) ![3, 0, 0] S1x200x128.size inb_S4x200x128_S1x200x128_3_0_0) (fun _ => rfl)).squeeze S200x128 squeezes_S1x200x128_S200x128).view.set]{q} f) := by
  show ((slab2).view.loc (thr d L) ↦[(slab2).view.set]{q} f : sProp 𝕄)
    = ((b7).view.loc (thr d L) ↦[((Finset.univ \ (slab0).view.set) \ (slab1).view.set) \ (slab3).view.set]{q} f)
  rw [set_slab0, set_slab1, set_slab2, set_slab3, ← holes2]

theorem slab3_holes (d : Dev nD) (L : grid0.Coords) (q : PosShare TreeShare) (f : Buf (Elt F) ((thr d L).loc cc0_scratch0)) :
    ((slab3).view.loc (thr d L) ↦[(slab3).view.set]{q} f : sProp 𝕄)
      = ((b7).view.loc (thr d L) ↦[((Finset.univ \ ((b7.slice (Rect.unit (s := S4x200x128) ![0, 0, 0] S1x200x128.size inb_S4x200x128_S1x200x128_0_0_0) (fun _ => rfl)).squeeze S200x128 squeezes_S1x200x128_S200x128).view.set) \ ((b7.slice (Rect.unit (s := S4x200x128) ![1, 0, 0] S1x200x128.size inb_S4x200x128_S1x200x128_1_0_0) (fun _ => rfl)).squeeze S200x128 squeezes_S1x200x128_S200x128).view.set) \ ((b7.slice (Rect.unit (s := S4x200x128) ![2, 0, 0] S1x200x128.size inb_S4x200x128_S1x200x128_2_0_0) (fun _ => rfl)).squeeze S200x128 squeezes_S1x200x128_S200x128).view.set]{q} f) := by
  show ((slab3).view.loc (thr d L) ↦[(slab3).view.set]{q} f : sProp 𝕄)
    = ((b7).view.loc (thr d L) ↦[((Finset.univ \ (slab0).view.set) \ (slab1).view.set) \ (slab2).view.set]{q} f)
  rw [set_slab0, set_slab1, set_slab2, set_slab3, ← holes3]

end Cert.Proof.KB

end
-- ==== Proof.SlabJoinKB.lean ====
/-
  Joining pieces of an array: two halves of a share on one set of elements, and the four panels of the species scratch.

  Two points-tos on the same elements agree there, so the left half at one contents and the right half at another are
  the whole share at either; the four panels of the [4, 200, 128] scratch are pairwise disjoint and cover it, so held
  each at its own contents they are the scratch at the contents that is each panel's on that panel.
-/
import proofs.«206988_g4337916970008_retrytranche1_694_23_alg».proof.Proof.SlabCutKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

/-- The two halves of a share on one set of elements, at contents that then agree there, are the share at the second's. -/
theorem join_halves {ℓ : Loc nD τ sig} (I : Finset (Idx ℓ)) (q : PosShare TreeShare) (f g : Buf (Elt F) ℓ) :
    iprop((ℓ ↦[I]{q.left} f) ∗ ℓ ↦[I]{q.right} g) ⊢ (ℓ ↦[I]{q} g : sProp 𝕄) := by
  iintro H
  ihave H' := (persistent_entails_right (pointsTo_agree (ℓ := ℓ) (I := I) (J := I) (q₁ := q.left) (q₂ := q.right) (f := f) (g := g))) $$ H
  icases H' with ⟨%h, Hf, Hg⟩
  ihave Hf' := (Entails.of_eq (pointsTo_congr (ℓ := ℓ) (I := I) (q := q.left) (f := f) (g := g)
    (fun i hi => (h i (Finset.mem_inter.mpr ⟨hi, hi⟩)).1))) $$ Hf
  iapply (pointsTo_share (PosShare.mem_left_op_right q)).2
  isplitl [Hf']; · iexact Hf'
  iexact Hg

/-- The four panels of the species scratch, each at its own contents, are the scratch at some contents. -/
theorem b7_glue (d : Dev nD) (L : grid0.Coords) (f0 f1 f2 f3 : Buf (Elt F) ((thr d L).loc cc0_scratch0)) :
    iprop(((slab0).view.loc (thr d L) ↦[(slab0).view.set]{fullShare} f0) ∗ ((slab1).view.loc (thr d L) ↦[(slab1).view.set]{fullShare} f1)
        ∗ ((slab2).view.loc (thr d L) ↦[(slab2).view.set]{fullShare} f2) ∗ ((slab3).view.loc (thr d L) ↦[(slab3).view.set]{fullShare} f3))
      ⊢ (iprop(∃ f, (thr d L).loc cc0_scratch0 ↦{fullShare} f) : sProp 𝕄) := by
  rw [Slab.set_slab0, Slab.set_slab1, Slab.set_slab2, Slab.set_slab3]
  iintro ⟨H0, H1, H2, H3⟩
  iapply (Cert.Lib.ScSplit.pointsTo_glue (ℓ := (thr d L).loc cc0_scratch0) (fun t : Fin 4 => (Slab.slabP t).set)
    Slab.slabs_disjoint Slab.slabs_cover fullShare f0)
  rw [Slab.bigSep_univ_four]
  isplitl [H0]; · iexists f0; iexact H0
  isplitl [H1]; · iexists f1; iexact H1
  isplitl [H2]; · iexists f2; iexact H2
  iexists f3; iexact H3

end Cert.Proof.KB

end
-- ==== Proof.ValueSpecKB.lean ====
/-
  The values the tile's body carries, stated over the scratch buffers' contents.

  C10 is the table of sixteen (its first eight entries the eight self energies), C11 the table of 4096, C7 the species
  scratch [4, 200, 128] (panel, atom, molecule within the panel), C8 the tile's 512 energies. Entry i of the table of
  4096 is (c[i / 512] + c[i / 64 % 8]) + (c[i / 8 % 8] + c[i % 8]) over the table of sixteen c. The accumulator of
  molecule column col of panel t after k quads is the k terms g(q) = table4096[512 s(4q) + 64 s(4q+1) + 8 s(4q+2) + s(4q+3)]
  added one after the other onto zero, s(a) the species word at atom a.
-/
import proofs.«206988_g4337916970008_retrytranche1_694_23_alg».proof.Proof.TileResKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

section
variable [FloatOps F]

/-- Entry v of the table of sixteen. -/
def c16 (C10 : S16.Idx → F .f32) (v : ℕ) : F .f32 := C10 (ValueIdx.ix1 ⟨v % 16, Nat.mod_lt _ (by decide)⟩)
/-- Entry i of the table of 4096, as the table loop builds it. -/
def tab4At (C10 : S16.Idx → F .f32) (i : ℕ) : F .f32 :=
  FloatOps.addf (FloatOps.addf (c16 C10 (i / 512)) (c16 C10 (i / 64 % 8))) (FloatOps.addf (c16 C10 (i / 8 % 8)) (c16 C10 (i % 8)))
/-- The first 16 n entries of the table of 4096 are built. -/
def TabOK (C10 : S16.Idx → F .f32) (n : ℕ) (f : S4096.Idx → F .f32) : Prop :=
  ∀ i : Fin 4096, i.val < 16 * n → f (ValueIdx.ix1 i) = tab4At C10 i.val
/-- The table of sixteen holds the eight self energies in its first eight entries. -/
def T10OK (fT : S8.Idx → F .f32) (C10 : S16.Idx → F .f32) : Prop :=
  ∀ v : Fin 8, C10 (ValueIdx.ix1 ⟨v.val, by omega⟩) = fT (ValueIdx.ix1 v)
/-- The species word of panel t, atom a, column c of the scratch. -/
def spW (C7 : S4x200x128.Idx → BitVec 32) (t a c : ℕ) : ℕ :=
  (C7 (ValueIdx.ix3 ⟨t % 4, Nat.mod_lt _ (by decide)⟩ ⟨a % 200, Nat.mod_lt _ (by decide)⟩ ⟨c % 128, Nat.mod_lt _ (by decide)⟩)).toNat
/-- Every species word of panel t is below eight. -/
def SlabLt (C7 : S4x200x128.Idx → BitVec 32) (t : ℕ) : Prop := ∀ a c, a < 200 → c < 128 → spW C7 t a c < 8
/-- Panel t of the scratch holds the tile's columns 128 t .. 128 t + 127 of the transposed species. -/
def SlabOK (fS : S200x16384.Idx → BitVec 32) (L : grid0.Coords) (C7 : S4x200x128.Idx → BitVec 32) (t : ℕ) : Prop :=
  ∀ (a : Fin 200) (p : Fin 128), spW C7 t a.val p.val = spAt fS (1024 * (L 1).val + 512 * (L 0).val + 128 * t + p.val) a.val
/-- The energies scratch holds the tile's 512 energies. -/
def E8OK (fE : S16384.Idx → F .f32) (L : grid0.Coords) (C8 : S512.Idx → F .f32) : Prop :=
  ∀ p : Fin 512, C8 (ValueIdx.ix1 p) = fE (ValueIdx.ix1 ⟨1024 * (L 1).val + 512 * (L 0).val + p.val, by
    have h1 : (L 1).val < 16 := (L 1).isLt
    have h0 : (L 0).val < 2 := (L 0).isLt
    omega⟩)
/-- Quad q of column col of panel t. -/
def gQ (C10 : S16.Idx → F .f32) (C7 : S4x200x128.Idx → BitVec 32) (t col q : ℕ) : F .f32 :=
  tab4At C10 (512 * spW C7 t (4 * q) col + 64 * spW C7 t (4 * q + 1) col + 8 * spW C7 t (4 * q + 2) col + spW C7 t (4 * q + 3) col)
/-- One accumulator vector: lanes are the columns 16 j .. 16 j + 15 of panel t, after k quads. -/
def AccLane (C10 : S16.Idx → F .f32) (C7 : S4x200x128.Idx → BitVec 32) (t j k : ℕ) (acc : FVec F S16 .f32) : Prop :=
  ∀ x : S16.Idx, acc x = accF (gQ C10 C7 t (16 * j + (x 0).val)) k
/-- The eight accumulators of panel t after k quads. -/
def AccOK (C10 : S16.Idx → F .f32) (C7 : S4x200x128.Idx → BitVec 32) (t k : ℕ)
    (accs : FVec F S16 .f32 × FVec F S16 .f32 × FVec F S16 .f32 × FVec F S16 .f32 × FVec F S16 .f32 × FVec F S16 .f32 × FVec F S16 .f32 × FVec F S16 .f32) : Prop :=
  AccLane C10 C7 t 0 k accs.1 ∧ AccLane C10 C7 t 1 k accs.2.1 ∧ AccLane C10 C7 t 2 k accs.2.2.1 ∧ AccLane C10 C7 t 3 k accs.2.2.2.1
    ∧ AccLane C10 C7 t 4 k accs.2.2.2.2.1 ∧ AccLane C10 C7 t 5 k accs.2.2.2.2.2.1 ∧ AccLane C10 C7 t 6 k accs.2.2.2.2.2.2.1 ∧ AccLane C10 C7 t 7 k accs.2.2.2.2.2.2.2

end

end Cert.Proof.KB

end
-- ==== Proof.WordsKKB.lean ====
/-
  The words of the kernel's two index computations, over the generated payload names.

  The gather index of a quad: each lane packs four species words below 8 into 512 a + 64 b + 8 c + e.
  The table loop at trip k < 256: the scalar digits k / 32 and k / 4 mod 8, the lane digits 2 (k mod 4) + l / 8 and
  l mod 8 for lane l < 16, all below 16, so every gather from the sixteen-entry table is in range.
-/
import proofs.«206988_g4337916970008_retrytranche1_694_23_alg».proof.Proof.Gen.Kernel.Skeleton
import proofs.«206988_g4337916970008_retrytranche1_694_23_alg».proof.Proof.Words

namespace Cert.Proof.WordsKB

open Cert.Proof.Words

open Idealize.ShloMosaic
open Cert.Kernel Cert.Kernel.Gen

variable {F : FTy → Type} [FloatOps F]

/-! ## The quad's gather index, lane by lane -/

/-- The packing read at one lane, for vectors of any shape. -/
theorem toNat_pack_lane {s : Shape} (a b c e : IVec s 32) (x : s.Idx)
    (ha : (a x).toNat < 8) (hb : (b x).toNat < 8) (hc : (c x).toNat < 8) (he : (e x).toNat < 8) :
    (ori (ori (shli a (broadcast s 9#32)) (shli b (broadcast s 6#32))) (ori (shli c (broadcast s 3#32)) e) x).toNat
      = 512 * (a x).toNat + 64 * (b x).toNat + 8 * (c x).toNat + (e x).toNat :=
  toNat_pack (a x) (b x) (c x) (e x) ha hb hc he

/-- A lane of the first quad payload, from the four loaded rows read through their shape casts. -/
theorem k0_pay1_toNat (a b c e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay1 a b c e x).toNat
      = 512 * ((shapeCast S16 a shapeCasts_S1x1x16_S16 : IVec S16 32) x).toNat
        + 64 * ((shapeCast S16 b shapeCasts_S1x1x16_S16 : IVec S16 32) x).toNat
        + 8 * ((shapeCast S16 c shapeCasts_S1x1x16_S16 : IVec S16 32) x).toNat
        + ((shapeCast S16 e shapeCasts_S1x1x16_S16 : IVec S16 32) x).toNat :=
  toNat_pack _ _ _ _ ha hb hc he

/-- The same from bounds on every loaded word; the index is then below 4096. -/
theorem k0_pay1_toNat_of_forall (a b c e : Vec F S1x1x16 .i32)
    (ha : ∀ y, BitVec.toNat (a y) < 8) (hb : ∀ y, BitVec.toNat (b y) < 8)
    (hc : ∀ y, BitVec.toNat (c y) < 8) (he : ∀ y, BitVec.toNat (e y) < 8) (x : S16.Idx) :
    (k0_pay1 a b c e x).toNat
      = 512 * ((shapeCast S16 a shapeCasts_S1x1x16_S16 : IVec S16 32) x).toNat
        + 64 * ((shapeCast S16 b shapeCasts_S1x1x16_S16 : IVec S16 32) x).toNat
        + 8 * ((shapeCast S16 c shapeCasts_S1x1x16_S16 : IVec S16 32) x).toNat
        + ((shapeCast S16 e shapeCasts_S1x1x16_S16 : IVec S16 32) x).toNat
    ∧ (k0_pay1 a b c e x).toNat < 4096 := by
  have h := k0_pay1_toNat a b c e x (ha _) (hb _) (hc _) (he _)
  refine ⟨h, ?_⟩
  have h0 : ((shapeCast S16 a shapeCasts_S1x1x16_S16 : IVec S16 32) x).toNat < 8 := ha _
  have h1 : ((shapeCast S16 b shapeCasts_S1x1x16_S16 : IVec S16 32) x).toNat < 8 := hb _
  have h2 : ((shapeCast S16 c shapeCasts_S1x1x16_S16 : IVec S16 32) x).toNat < 8 := hc _
  have h3 : ((shapeCast S16 e shapeCasts_S1x1x16_S16 : IVec S16 32) x).toNat < 8 := he _
  rw [h]; omega

/-! ## The table loop's words -/

/-- The table loop has at most 256 trips. -/
theorem trip_lt (k : Fin k0_t1_loop.trips) : k.val < 256 := Nat.lt_of_lt_of_le k.isLt k0_t1_abs.2.1

/-- The induction variable at trip k is the word k. -/
theorem iv_toNat (k : Fin k0_t1_loop.trips) : (Scf.iv 0#32 1#32 k).toNat = k.val := by
  have hk := trip_lt k
  unfold Scf.iv
  rw [BitVec.zero_add, BitVec.mul_one, BitVec.toNat_ofNat]
  exact Nat.mod_eq_of_lt (by omega)

/-- A scalar logical right shift of a word by a literal amount n < 32 divides by 2 ^ n. -/
theorem scalar_shrui_toNat (x : BitVec 32) (n : ℕ) (hn : n < 32) :
    (Scalar.shrui x (BitVec.ofNat 32 n)).toNat = x.toNat / 2 ^ n := by
  have hn' : (BitVec.ofNat 32 n).toNat = n := by
    rw [BitVec.toNat_ofNat]; exact Nat.mod_eq_of_lt (by omega)
  unfold Scalar.shrui IntOp.shrui
  rw [if_pos (by rw [hn']; exact hn), BitVec.ushiftRight_eq', BitVec.toNat_ushiftRight, hn',
    Nat.shiftRight_eq_div_pow]

/-- The first digit: k shifted right by 5 is k / 32. -/
theorem shrui5_toNat (k : Fin k0_t1_loop.trips) :
    (Scalar.shrui (Scf.iv 0#32 1#32 k) 5#32).toNat = k.val / 32 := by
  have h := scalar_shrui_toNat (Scf.iv 0#32 1#32 k) 5 (by decide)
  rw [iv_toNat] at h
  exact h

/-- The second digit: k shifted right by 2 and masked by 7 is k / 4 mod 8. -/
theorem andi_shrui2_toNat (k : Fin k0_t1_loop.trips) :
    (Scalar.andi (Scalar.shrui (Scf.iv 0#32 1#32 k) 2#32) 7#32).toNat = k.val / 4 % 8 := by
  have h := scalar_shrui_toNat (Scf.iv 0#32 1#32 k) 2 (by decide)
  rw [iv_toNat] at h
  unfold Scalar.andi IntOp.andi
  rw [BitVec.toNat_and]
  have h7 : (7#32).toNat = 2 ^ 3 - 1 := rfl
  have h2 : (Scalar.shrui (Scf.iv 0#32 1#32 k) 2#32).toNat = k.val / 4 := h
  rw [h2, h7, Nat.and_two_pow_sub_one_eq_mod]

/-- Lane l of the lane sequence is the word l. -/
theorem iota_lane (l : S16.Idx) :
    (iota .scVector S16 32 [0] iota_S16_d0_w32_scVector l).toNat = (l 0).val := by
  have hl : (l 0).val < 16 := (l 0).isLt
  show (BitVec.ofNat 32 (0 * 16 + (l 0).val)).toNat = (l 0).val
  rw [BitVec.toNat_ofNat, Nat.zero_mul, Nat.zero_add]
  exact Nat.mod_eq_of_lt (by omega)

/-- The fourth digit: lane l of the lane sequence masked by 7 is l mod 8. -/
theorem k0_pay93_toNat (l : S16.Idx) : (k0_pay93 l).toNat = (l 0).val % 8 := by
  show (IntOp.andi (iota .scVector S16 32 [0] iota_S16_d0_w32_scVector l) 7#32).toNat = _
  unfold IntOp.andi
  have h7 : (7#32).toNat = 2 ^ 3 - 1 := rfl
  rw [BitVec.toNat_and, iota_lane, h7, Nat.and_two_pow_sub_one_eq_mod]

/-- The third digit: lane l of 2 (k mod 4) + (the lane sequence shifted right by 3) is 2 (k mod 4) + l / 8. -/
theorem k0_pay94_toNat (k : Fin k0_t1_loop.trips) (l : S16.Idx) :
    (k0_pay94 k l).toNat = (k.val % 4) * 2 + (l 0).val / 8 := by
  have hl : (l 0).val < 16 := (l 0).isLt
  show (IntOp.addi (Scalar.muli (Scalar.andi (Scf.iv 0#32 1#32 k) 3#32) 2#32)
      (IntOp.shrsi .vector (iota .scVector S16 32 [0] iota_S16_d0_w32_scVector l) 3#32)).toNat = _
  have hA : (Scalar.muli (Scalar.andi (Scf.iv 0#32 1#32 k) 3#32) 2#32).toNat = (k.val % 4) * 2 := by
    unfold Scalar.muli IntOp.muli Scalar.andi IntOp.andi
    have h3 : (3#32).toNat = 2 ^ 2 - 1 := rfl
    have h2 : (2#32).toNat = 2 := rfl
    rw [BitVec.toNat_mul, BitVec.toNat_and, iv_toNat, h3, Nat.and_two_pow_sub_one_eq_mod, h2]
    exact Nat.mod_eq_of_lt (by omega)
  have hB : (IntOp.shrsi .vector (iota .scVector S16 32 [0] iota_S16_d0_w32_scVector l) 3#32).toNat = (l 0).val / 8 := by
    have hm : (iota .scVector S16 32 [0] iota_S16_d0_w32_scVector l).msb = false := by
      rw [BitVec.msb_eq_false_iff_two_mul_lt, iota_lane]; omega
    unfold IntOp.shrsi
    rw [if_pos (by decide), BitVec.toNat_sshiftRight'_of_msb_false hm, iota_lane]
    show (l 0).val >>> 3 = _
    rw [Nat.shiftRight_eq_div_pow]
  unfold IntOp.addi
  rw [BitVec.toNat_add, hA, hB]
  exact Nat.mod_eq_of_lt (by omega)

/-! ## The table loop's three gathers are in range -/

theorem k0_chk2_holds (k : Fin k0_t1_loop.trips) :
    k0_chk2 (broadcast S16 (Scalar.shrui (Scf.iv 0#32 1#32 k) 5#32)) := by
  have hk := trip_lt k
  intro a x
  obtain rfl : a = 0 := Subsingleton.elim _ _
  show (Scalar.shrui (Scf.iv 0#32 1#32 k) 5#32).toNat < 16
  rw [shrui5_toNat]; omega

theorem k0_chk3_holds (k : Fin k0_t1_loop.trips) :
    k0_chk3 (broadcast S16 (Scalar.andi (Scalar.shrui (Scf.iv 0#32 1#32 k) 2#32) 7#32)) := by
  intro a x
  obtain rfl : a = 0 := Subsingleton.elim _ _
  show (Scalar.andi (Scalar.shrui (Scf.iv 0#32 1#32 k) 2#32) 7#32).toNat < 16
  rw [andi_shrui2_toNat]; omega

theorem k0_chk4_holds (k : Fin k0_t1_loop.trips) : k0_chk4 (k0_pay94 k) := by
  intro a x
  obtain rfl : a = 0 := Subsingleton.elim _ _
  have hl : (x 0).val < 16 := (x 0).isLt
  show (k0_pay94 k x).toNat < 16
  rw [k0_pay94_toNat]; omega

/-- The gather of the fourth digit, before the loop, is in range too. -/
theorem k0_chk1_holds : k0_chk1 k0_pay93 := by
  intro a x
  obtain rfl : a = 0 := Subsingleton.elim _ _
  show (k0_pay93 x).toNat < 16
  rw [k0_pay93_toNat]; omega

end Cert.Proof.WordsKB
-- ==== Proof.ValueReadKB.lean ====
/-
  Reading the tile's scratch buffers at an index: what a row load, a sixteen-lane load and an indexed load read, lane by lane.
-/
import proofs.«206988_g4337916970008_retrytranche1_694_23_alg».proof.Proof.TileResKB
import Idealize.ShloMosaic.Lib.Pipeline.Value
import Idealize.ShloMosaic.Lib.Writes

noncomputable section

namespace Cert.Proof.KB

open Cert.Kernel Cert.Kernel.Gen
open Idealize.ShloMosaic
open Idealize.SL.Sem

variable {F : FTy → Type}

/-! ## A row load from the species panels, lane by lane -/

/-- Sixteen consecutive words of row a of panel t, from column c on, read as a vector of sixteen: lane x is the word at
    column c + x. -/
theorem b7_row_lane (C : S4x200x128.Idx → BitVec 32) (off : Fin 3 → ℕ)
    (inb : ∀ a, off a + S1x1x16.size a ≤ S4x200x128.size a) (t a c : ℕ) (hoff : off = ![t, a, c])
    (ht : t < 4) (ha : a < 200) (hc : c + 16 ≤ 128) (x : S16.Idx) :
    (shapeCast S16 (View.readAt (Elt F) b7.view (Rect.unit (s := S4x200x128) off S1x1x16.size inb).toLoadRect C)
        shapeCasts_S1x1x16_S16 : IVec S16 32) x
      = C (ValueIdx.ix3 ⟨t, ht⟩ ⟨a, ha⟩ ⟨c + (x 0).val, by have hx : (x 0).val < 16 := (x 0).isLt; omega⟩) := by
  subst hoff
  have hx : (x 0).val < 16 := (x 0).isLt
  rw [shapeCast_apply _ _ x (ValueIdx.ix3 ⟨0, by decide⟩ ⟨0, by decide⟩ ⟨(x 0).val, hx⟩)
    (by rw [Shape.rowMajor_val_three, Shape.rowMajor_val_one]; simp)]
  rw [View.readAt_apply, View.read_apply]
  show C _ = C _
  congr 1
  funext d
  match d with
  | ⟨0, _⟩ => exact Fin.ext (by show t + 1 * 0 = t; omega)
  | ⟨1, _⟩ => exact Fin.ext (by show a + 1 * 0 = a; omega)
  | ⟨2, _⟩ => exact Fin.ext (by show c + 1 * (x 0).val = c + (x 0).val; omega)

/-! ## A sixteen-lane load from a flat scratch buffer -/

/-- Sixteen consecutive energies from entry o on: lane x is entry o + x. -/
theorem b8_load_lane (C : S512.Idx → F .f32) (off : Fin 1 → ℕ) (inb : ∀ a, off a + S16.size a ≤ S512.size a)
    (o : ℕ) (hoff : off = ![o]) (x : S16.Idx) :
    View.readAt (Elt F) b8.view (Rect.unit (s := S512) off S16.size inb).toLoadRect C x
      = C (ValueIdx.ix1 ⟨o + (x 0).val, by
          have hx : (x 0).val < 16 := (x 0).isLt
          have h0 : off 0 + 16 ≤ S512.size 0 := inb 0
          have h1 : off 0 = o := by rw [hoff]; rfl
          have h2 : S512.size 0 = 512 := rfl
          omega⟩) := by
  subst hoff
  rw [View.readAt_apply, View.read_apply]
  show C _ = C _
  congr 1
  funext d
  match d with
  | ⟨0, _⟩ => exact Fin.ext (by show o + 1 * (x 0).val = o + (x 0).val; omega)

/-- Sixteen consecutive entries of the output scratch from entry o on: lane x is entry o + x. -/
theorem b9_load_lane (C : S512.Idx → F .f32) (off : Fin 1 → ℕ) (inb : ∀ a, off a + S16.size a ≤ S512.size a)
    (o : ℕ) (hoff : off = ![o]) (x : S16.Idx) :
    View.readAt (Elt F) b9.view (Rect.unit (s := S512) off S16.size inb).toLoadRect C x
      = C (ValueIdx.ix1 ⟨o + (x 0).val, by
          have hx : (x 0).val < 16 := (x 0).isLt
          have h0 : off 0 + 16 ≤ S512.size 0 := inb 0
          have h1 : off 0 = o := by rw [hoff]; rfl
          have h2 : S512.size 0 = 512 := rfl
          omega⟩) := by
  subst hoff
  rw [View.readAt_apply, View.read_apply]
  show C _ = C _
  congr 1
  funext d
  match d with
  | ⟨0, _⟩ => exact Fin.ext (by show o + 1 * (x 0).val = o + (x 0).val; omega)

/-- Sixteen consecutive entries of the table of 4096 from entry o on: lane x is entry o + x. -/
theorem b11_load_lane (C : S4096.Idx → F .f32) (off : Fin 1 → ℕ) (inb : ∀ a, off a + S16.size a ≤ S4096.size a)
    (o : ℕ) (hoff : off = ![o]) (x : S16.Idx) :
    View.readAt (Elt F) b11.view (Rect.unit (s := S4096) off S16.size inb).toLoadRect C x
      = C (ValueIdx.ix1 ⟨o + (x 0).val, by
          have hx : (x 0).val < 16 := (x 0).isLt
          have h0 : off 0 + 16 ≤ S4096.size 0 := inb 0
          have h1 : off 0 = o := by rw [hoff]; rfl
          have h2 : S4096.size 0 = 4096 := rfl
          omega⟩) := by
  subst hoff
  rw [View.readAt_apply, View.read_apply]
  show C _ = C _
  congr 1
  funext d
  match d with
  | ⟨0, _⟩ => exact Fin.ext (by show o + 1 * (x 0).val = o + (x 0).val; omega)

/-- The sixteen entries of the small table from entry o on (o is 0): lane x is entry o + x. -/
theorem b10_load_lane (C : S16.Idx → F .f32) (off : Fin 1 → ℕ) (inb : ∀ a, off a + S16.size a ≤ S16.size a)
    (o : ℕ) (hoff : off = ![o]) (x : S16.Idx) :
    View.readAt (Elt F) b10.view (Rect.unit (s := S16) off S16.size inb).toLoadRect C x
      = C (ValueIdx.ix1 ⟨o + (x 0).val, by
          have hx : (x 0).val < 16 := (x 0).isLt
          have h0 : off 0 + 16 ≤ S16.size 0 := inb 0
          have h1 : off 0 = o := by rw [hoff]; rfl
          have h2 : S16.size 0 = 16 := rfl
          omega⟩) := by
  subst hoff
  rw [View.readAt_apply, View.read_apply]
  show C _ = C _
  congr 1
  funext d
  match d with
  | ⟨0, _⟩ => exact Fin.ext (by show o + 1 * (x 0).val = o + (x 0).val; omega)

/-! ## An indexed load, lane by lane -/

/-- A gather from the table of 4096: lane x reads the entry its index word names. -/
theorem b11_loadIdx_lane [FloatOps F] (C : S4096.Idx → F .f32) (v : IVec S16 32)
    (h : ∀ a x, ((![v] : Fin 1 → IVec S16 32) a x).toNat < (Rect.whole S4096).shape.size a) (x : S16.Idx) :
    loadIdx (F := F) (View.read (Elt F) (b11.access (Rect.whole S4096)) C) ![v] h x
      = C (ValueIdx.ix1 ⟨(v x).toNat, h 0 x⟩) := by
  unfold loadIdx idxAt
  rw [View.read_apply]
  show C _ = C _
  congr 1
  funext d
  match d with
  | ⟨0, _⟩ => exact Fin.ext (by show 0 + 1 * (v x).toNat = (v x).toNat; omega)

/-- A gather from the small table: lane x reads the entry its index word names. -/
theorem b10_loadIdx_lane [FloatOps F] (C : S16.Idx → F .f32) (v : IVec S16 32)
    (h : ∀ a x, ((![v] : Fin 1 → IVec S16 32) a x).toNat < (Rect.whole S16).shape.size a) (x : S16.Idx) :
    loadIdx (F := F) (View.read (Elt F) (b10.access (Rect.whole S16)) C) ![v] h x
      = C (ValueIdx.ix1 ⟨(v x).toNat, h 0 x⟩) := by
  unfold loadIdx idxAt
  rw [View.read_apply]
  show C _ = C _
  congr 1
  funext d
  match d with
  | ⟨0, _⟩ => exact Fin.ext (by show 0 + 1 * (v x).toNat = (v x).toNat; omega)

end Cert.Proof.KB

end
-- ==== Proof.ValueStoreKB.lean ====
/-
  Writing the tile's scratch buffers, read back at an index: the sixteen-lane stores into the table of 4096 and into the output scratch.
-/
import proofs.«206988_g4337916970008_retrytranche1_694_23_alg».proof.Proof.TileResKB
import Idealize.ShloMosaic.Lib.Pipeline.Value
import Idealize.ShloMosaic.Lib.Writes

noncomputable section

namespace Cert.Proof.KB

open Cert.Kernel Cert.Kernel.Gen
open Idealize.ShloMosaic
open Idealize.SL.Sem

variable {F : FTy → Type}

/-! ## Sixteen-lane stores into the table of 4096 and into the output scratch -/

/-- The table of 4096 after sixteen-lane stores: an entry under the last store reads its payload. -/
theorem b11_writes_cons_inside (g : S4096.Idx → F .f32) (off : Fin 1 → ℕ) (inb : ∀ a, off a + S16.size a ≤ S4096.size a)
    (w : S16.Idx → F .f32) (L : List (View.Piece (Elt F) S4096 .f32)) (i : Fin 4096)
    (h1 : off 0 ≤ i.val) (h2 : i.val < off 0 + 16) :
    (b11.view.writes (Elt F) g ((⟨Rect.unit (s := S4096) off S16.size inb, w⟩ : View.Piece (Elt F) S4096 .f32) :: L))
        (ValueIdx.ix1 i)
      = w (ValueIdx.ix1 ⟨i.val - off 0, by omega⟩) := by
  have he : (b11.view.slice (Rect.unit (s := S4096) off S16.size inb)).emb (ValueIdx.ix1 ⟨i.val - off 0, by omega⟩)
      = ValueIdx.ix1 i := by
    funext d
    match d with
    | ⟨0, _⟩ => exact Fin.ext (by show off 0 + 1 * (i.val - off 0) = i.val; omega)
  rw [View.writes_cons]
  conv_lhs => rw [← he]
  rw [View.write_emb_of_mem _ _ (Finset.mem_univ _)]
  rfl

/-- The table of 4096 after sixteen-lane stores: an entry outside the last store's sixteen reads what the earlier stores left. -/
theorem b11_writes_cons_outside (g : S4096.Idx → F .f32) (off : Fin 1 → ℕ) (inb : ∀ a, off a + S16.size a ≤ S4096.size a)
    (w : S16.Idx → F .f32) (L : List (View.Piece (Elt F) S4096 .f32)) (i : Fin 4096)
    (h : i.val < off 0 ∨ off 0 + 16 ≤ i.val) :
    (b11.view.writes (Elt F) g ((⟨Rect.unit (s := S4096) off S16.size inb, w⟩ : View.Piece (Elt F) S4096 .f32) :: L))
        (ValueIdx.ix1 i)
      = (b11.view.writes (Elt F) g L) (ValueIdx.ix1 i) := by
  rw [View.writes_cons, View.write_of_not_mem]
  intro hm
  obtain ⟨x, -, hx⟩ := Finset.mem_map.mp hm
  have hx0 : (x 0).val < 16 := (x 0).isLt
  have e : off 0 + 1 * (x 0).val = i.val := congrArg (fun j : S4096.Idx => (j 0).val) hx
  omega

/-- The table of 4096 after sixteen-lane stores: both cases at once. -/
theorem b11_writes_cons_apply (g : S4096.Idx → F .f32) (off : Fin 1 → ℕ) (inb : ∀ a, off a + S16.size a ≤ S4096.size a)
    (w : S16.Idx → F .f32) (L : List (View.Piece (Elt F) S4096 .f32)) (i : Fin 4096) :
    (b11.view.writes (Elt F) g ((⟨Rect.unit (s := S4096) off S16.size inb, w⟩ : View.Piece (Elt F) S4096 .f32) :: L))
        (ValueIdx.ix1 i)
      = if h : off 0 ≤ i.val ∧ i.val < off 0 + 16 then w (ValueIdx.ix1 ⟨i.val - off 0, by omega⟩)
        else (b11.view.writes (Elt F) g L) (ValueIdx.ix1 i) := by
  by_cases h : off 0 ≤ i.val ∧ i.val < off 0 + 16
  · rw [dif_pos h]; exact b11_writes_cons_inside g off inb w L i h.1 h.2
  · rw [dif_neg h]; exact b11_writes_cons_outside g off inb w L i (by omega)

/-- The table of 4096 after sixteen-lane stores: one store over contents g. -/
theorem b11_writes_single_apply (g : S4096.Idx → F .f32) (off : Fin 1 → ℕ) (inb : ∀ a, off a + S16.size a ≤ S4096.size a)
    (w : S16.Idx → F .f32) (i : Fin 4096) :
    (b11.view.writes (Elt F) g [(⟨Rect.unit (s := S4096) off S16.size inb, w⟩ : View.Piece (Elt F) S4096 .f32)])
        (ValueIdx.ix1 i)
      = if h : off 0 ≤ i.val ∧ i.val < off 0 + 16 then w (ValueIdx.ix1 ⟨i.val - off 0, by omega⟩)
        else g (ValueIdx.ix1 i) :=
  b11_writes_cons_apply g off inb w [] i

/-- The output scratch after sixteen-lane stores: an entry under the last store reads its payload. -/
theorem b9_writes_cons_inside (g : S512.Idx → F .f32) (off : Fin 1 → ℕ) (inb : ∀ a, off a + S16.size a ≤ S512.size a)
    (w : S16.Idx → F .f32) (L : List (View.Piece (Elt F) S512 .f32)) (i : Fin 512)
    (h1 : off 0 ≤ i.val) (h2 : i.val < off 0 + 16) :
    (b9.view.writes (Elt F) g ((⟨Rect.unit (s := S512) off S16.size inb, w⟩ : View.Piece (Elt F) S512 .f32) :: L))
        (ValueIdx.ix1 i)
      = w (ValueIdx.ix1 ⟨i.val - off 0, by omega⟩) := by
  have he : (b9.view.slice (Rect.unit (s := S512) off S16.size inb)).emb (ValueIdx.ix1 ⟨i.val - off 0, by omega⟩)
      = ValueIdx.ix1 i := by
    funext d
    match d with
    | ⟨0, _⟩ => exact Fin.ext (by show off 0 + 1 * (i.val - off 0) = i.val; omega)
  rw [View.writes_cons]
  conv_lhs => rw [← he]
  rw [View.write_emb_of_mem _ _ (Finset.mem_univ _)]
  rfl

/-- The output scratch after sixteen-lane stores: an entry outside the last store's sixteen reads what the earlier stores left. -/
theorem b9_writes_cons_outside (g : S512.Idx → F .f32) (off : Fin 1 → ℕ) (inb : ∀ a, off a + S16.size a ≤ S512.size a)
    (w : S16.Idx → F .f32) (L : List (View.Piece (Elt F) S512 .f32)) (i : Fin 512)
    (h : i.val < off 0 ∨ off 0 + 16 ≤ i.val) :
    (b9.view.writes (Elt F) g ((⟨Rect.unit (s := S512) off S16.size inb, w⟩ : View.Piece (Elt F) S512 .f32) :: L))
        (ValueIdx.ix1 i)
      = (b9.view.writes (Elt F) g L) (ValueIdx.ix1 i) := by
  rw [View.writes_cons, View.write_of_not_mem]
  intro hm
  obtain ⟨x, -, hx⟩ := Finset.mem_map.mp hm
  have hx0 : (x 0).val < 16 := (x 0).isLt
  have e : off 0 + 1 * (x 0).val = i.val := congrArg (fun j : S512.Idx => (j 0).val) hx
  omega

/-- The output scratch after sixteen-lane stores: both cases at once. -/
theorem b9_writes_cons_apply (g : S512.Idx → F .f32) (off : Fin 1 → ℕ) (inb : ∀ a, off a + S16.size a ≤ S512.size a)
    (w : S16.Idx → F .f32) (L : List (View.Piece (Elt F) S512 .f32)) (i : Fin 512) :
    (b9.view.writes (Elt F) g ((⟨Rect.unit (s := S512) off S16.size inb, w⟩ : View.Piece (Elt F) S512 .f32) :: L))
        (ValueIdx.ix1 i)
      = if h : off 0 ≤ i.val ∧ i.val < off 0 + 16 then w (ValueIdx.ix1 ⟨i.val - off 0, by omega⟩)
        else (b9.view.writes (Elt F) g L) (ValueIdx.ix1 i) := by
  by_cases h : off 0 ≤ i.val ∧ i.val < off 0 + 16
  · rw [dif_pos h]; exact b9_writes_cons_inside g off inb w L i h.1 h.2
  · rw [dif_neg h]; exact b9_writes_cons_outside g off inb w L i (by omega)

/-- The output scratch after sixteen-lane stores: one store over contents g. -/
theorem b9_writes_single_apply (g : S512.Idx → F .f32) (off : Fin 1 → ℕ) (inb : ∀ a, off a + S16.size a ≤ S512.size a)
    (w : S16.Idx → F .f32) (i : Fin 512) :
    (b9.view.writes (Elt F) g [(⟨Rect.unit (s := S512) off S16.size inb, w⟩ : View.Piece (Elt F) S512 .f32)])
        (ValueIdx.ix1 i)
      = if h : off 0 ≤ i.val ∧ i.val < off 0 + 16 then w (ValueIdx.ix1 ⟨i.val - off 0, by omega⟩)
        else g (ValueIdx.ix1 i) :=
  b9_writes_cons_apply g off inb w [] i

/-- A lane index below sixteen is determined by its value. -/
theorem ix1_lane_eq (n : ℕ) (hn : n < 16) (l : Fin 16) (e : n = l.val) :
    (ValueIdx.ix1 (⟨n, hn⟩ : Fin 16) : S16.Idx) = ValueIdx.ix1 l := by
  funext d
  match d with
  | ⟨0, _⟩ => exact Fin.ext e

/-- Of eight stores at base + 16 j, the entries of store 0. -/
theorem b9_writes_eight_at0 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 0 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w0 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_outside g off3 inb3 w3 _ i (by omega)]
  rw [b9_writes_cons_outside g off2 inb2 w2 _ i (by omega)]
  rw [b9_writes_cons_outside g off1 inb1 w1 _ i (by omega)]
  rw [b9_writes_cons_inside g off0 inb0 w0 _ i (by omega) (by omega)]
  rw [ix1_lane_eq (i.val - off0 0) (by omega) l (by omega)]

/-- Of eight stores at base + 16 j, the entries of store 1. -/
theorem b9_writes_eight_at1 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 1 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w1 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_outside g off3 inb3 w3 _ i (by omega)]
  rw [b9_writes_cons_outside g off2 inb2 w2 _ i (by omega)]
  rw [b9_writes_cons_inside g off1 inb1 w1 _ i (by omega) (by omega)]
  rw [ix1_lane_eq (i.val - off1 0) (by omega) l (by omega)]

/-- Of eight stores at base + 16 j, the entries of store 2. -/
theorem b9_writes_eight_at2 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 2 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w2 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_outside g off3 inb3 w3 _ i (by omega)]
  rw [b9_writes_cons_inside g off2 inb2 w2 _ i (by omega) (by omega)]
  rw [ix1_lane_eq (i.val - off2 0) (by omega) l (by omega)]

/-- Of eight stores at base + 16 j, the entries of store 3. -/
theorem b9_writes_eight_at3 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 3 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w3 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_outside g off4 inb4 w4 _ i (by omega)]
  rw [b9_writes_cons_inside g off3 inb3 w3 _ i (by omega) (by omega)]
  rw [ix1_lane_eq (i.val - off3 0) (by omega) l (by omega)]

/-- Of eight stores at base + 16 j, the entries of store 4. -/
theorem b9_writes_eight_at4 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 4 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w4 (ValueIdx.ix1 l) := by
  have hl : l.val < 16 := l.isLt
  rw [b9_writes_cons_outside g off7 inb7 w7 _ i (by omega)]
  rw [b9_writes_cons_outside g off6 inb6 w6 _ i (by omega)]
  rw [b9_writes_cons_outside g off5 inb5 w5 _ i (by omega)]
  rw [b9_writes_cons_inside g off4 inb4 w4 _ i (by omega) (by omega)]
  rw [ix1_lane_eq (i.val - off4 0) (by omega) l (by omega)]

/-- Of eight stores at base + 16 j, the entries of store 5. -/
theorem b9_writes_eight_at5 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 5 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w5 (ValueIdx.ix1 l) := by
  have hl : l.val < 16 := l.isLt
  rw [b9_writes_cons_outside g off7 inb7 w7 _ i (by omega)]
  rw [b9_writes_cons_outside g off6 inb6 w6 _ i (by omega)]
  rw [b9_writes_cons_inside g off5 inb5 w5 _ i (by omega) (by omega)]
  rw [ix1_lane_eq (i.val - off5 0) (by omega) l (by omega)]

/-- Of eight stores at base + 16 j, the entries of store 6. -/
theorem b9_writes_eight_at6 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 6 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w6 (ValueIdx.ix1 l) := by
  have hl : l.val < 16 := l.isLt
  rw [b9_writes_cons_outside g off7 inb7 w7 _ i (by omega)]
  rw [b9_writes_cons_inside g off6 inb6 w6 _ i (by omega) (by omega)]
  rw [ix1_lane_eq (i.val - off6 0) (by omega) l (by omega)]

/-- Of eight stores at base + 16 j, the entries of store 7. -/
theorem b9_writes_eight_at7 (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (l : Fin 16) (i : Fin 512) (hi : i.val = base + 16 * 7 + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = w7 (ValueIdx.ix1 l) := by
  have hl : l.val < 16 := l.isLt
  rw [b9_writes_cons_inside g off7 inb7 w7 _ i (by omega) (by omega)]
  rw [ix1_lane_eq (i.val - off7 0) (by omega) l (by omega)]

/-- Eight sixteen-lane stores at offsets base + 16 j (j < 8), the last store first in the list, over earlier stores L:
    entry base + 16 j + l is lane l of store j's payload. -/
theorem b9_writes_eight (g : S512.Idx → F .f32) (base : ℕ)
    (off0 off1 off2 off3 off4 off5 off6 off7 : Fin 1 → ℕ)
    (inb0 : ∀ a, off0 a + S16.size a ≤ S512.size a)
    (inb1 : ∀ a, off1 a + S16.size a ≤ S512.size a)
    (inb2 : ∀ a, off2 a + S16.size a ≤ S512.size a)
    (inb3 : ∀ a, off3 a + S16.size a ≤ S512.size a)
    (inb4 : ∀ a, off4 a + S16.size a ≤ S512.size a)
    (inb5 : ∀ a, off5 a + S16.size a ≤ S512.size a)
    (inb6 : ∀ a, off6 a + S16.size a ≤ S512.size a)
    (inb7 : ∀ a, off7 a + S16.size a ≤ S512.size a)
    (w0 w1 w2 w3 w4 w5 w6 w7 : S16.Idx → F .f32) (L : List (View.Piece (Elt F) S512 .f32))
    (h0 : off0 0 = base + 16 * 0)
    (h1 : off1 0 = base + 16 * 1)
    (h2 : off2 0 = base + 16 * 2)
    (h3 : off3 0 = base + 16 * 3)
    (h4 : off4 0 = base + 16 * 4)
    (h5 : off5 0 = base + 16 * 5)
    (h6 : off6 0 = base + 16 * 6)
    (h7 : off7 0 = base + 16 * 7)
    (j : Fin 8) (l : Fin 16) (i : Fin 512) (hi : i.val = base + 16 * j.val + l.val) :
    (b9.view.writes (Elt F) g
        ((⟨Rect.unit (s := S512) off7 S16.size inb7, w7⟩ : View.Piece (Elt F) S512 .f32)
        :: (⟨Rect.unit (s := S512) off6 S16.size inb6, w6⟩ : View.Piece (Elt F) S512 .f32)
        :: (⟨Rect.unit (s := S512) off5 S16.size inb5, w5⟩ : View.Piece (Elt F) S512 .f32)
        :: (⟨Rect.unit (s := S512) off4 S16.size inb4, w4⟩ : View.Piece (Elt F) S512 .f32)
        :: (⟨Rect.unit (s := S512) off3 S16.size inb3, w3⟩ : View.Piece (Elt F) S512 .f32)
        :: (⟨Rect.unit (s := S512) off2 S16.size inb2, w2⟩ : View.Piece (Elt F) S512 .f32)
        :: (⟨Rect.unit (s := S512) off1 S16.size inb1, w1⟩ : View.Piece (Elt F) S512 .f32)
        :: (⟨Rect.unit (s := S512) off0 S16.size inb0, w0⟩ : View.Piece (Elt F) S512 .f32)
        :: L))
        (ValueIdx.ix1 i)
      = (![w0, w1, w2, w3, w4, w5, w6, w7] : Fin 8 → S16.Idx → F .f32) j (ValueIdx.ix1 l) := by
  obtain ⟨j, hj⟩ := j
  interval_cases j
  · exact b9_writes_eight_at0 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at1 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at2 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at3 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at4 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at5 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at6 g base off0 off1 off2 off3 off4 off5 off6 off7 inb0 inb1 inb2 inb3 inb4 inb5 inb6 inb7 w0 w1 w2 w3 w4 w5 w6 w7 L h0 h1 h2 h3 h4 h5 h6 h7 l i hi
  · exact b9_writes_eight_at7 g base off0 off1 off2 off3 off4 off5 off6 off7 inb0 inb1 inb2 inb3 inb4 inb5 inb6 inb7 w0 w1 w2 w3 w4 w5 w6 w7 L h0 h1 h2 h3 h4 h5 h6 h7 l i hi

end Cert.Proof.KB

end
-- ==== Proof.TableLoopKB.lean ====
/-
  The table loop, as a statement about the table of 4096's contents.

  Trip k stores the sixteen entries 16 k .. 16 k + 15: lane l gets (c[k / 32] + c[k / 4 mod 8]) + (c[2 (k mod 4) + l / 8] + c[l mod 8])
  over the table of sixteen c, which is entry 16 k + l of the table as its digits say. So after trip k the first
  16 (k + 1) entries are built when the first 16 k were.
-/
import proofs.«206988_g4337916970008_retrytranche1_694_23_alg».proof.Proof.ValueSpecKB
import proofs.«206988_g4337916970008_retrytranche1_694_23_alg».proof.Proof.WordsKKB
import proofs.«206988_g4337916970008_retrytranche1_694_23_alg».proof.Proof.ValueReadKB
import proofs.«206988_g4337916970008_retrytranche1_694_23_alg».proof.Proof.ValueStoreKB

noncomputable section

namespace Cert.Proof.KB

open Cert.Kernel Cert.Kernel.Gen
open Idealize.ShloMosaic
open Idealize.SL.Sem

variable {F : FTy → Type} [FloatOps F]

/-- An entry of the table of sixteen named by a number below sixteen. -/
theorem c16_of_lt (C10 : S16.Idx → F .f32) (n : ℕ) (hn : n < 16) (v : ℕ) (e : n = v) :
    C10 (ValueIdx.ix1 ⟨n, hn⟩) = c16 C10 v := by
  subst e
  unfold c16
  congr 1
  funext d
  match d with
  | ⟨0, _⟩ => exact Fin.ext (Nat.mod_eq_of_lt hn).symm

/-- Before the first trip nothing is asked of the table. -/
theorem tab_init (C10 : S16.Idx → F .f32) (f : S4096.Idx → F .f32) : TabOK C10 0 f := by
  intro i hi
  omega

/-- Lane l of trip k's payload is entry 16 k + l of the table of 4096. -/
theorem tab_payload_lane (C10 : S16.Idx → F .f32) (k : Fin k0_t1_loop.trips)
    (h34 : ∀ a x, ((![k0_pay93] : Fin 1 → IVec S16 32) a x).toNat < (Rect.whole S16).shape.size a)
    (h257 : ∀ a x, ((![broadcast S16 (Scalar.shrui (Scf.iv 0#32 1#32 k) 5#32)] : Fin 1 → IVec S16 32) a x).toNat
      < (Rect.whole S16).shape.size a)
    (h259 : ∀ a x, ((![broadcast S16 (Scalar.andi (Scalar.shrui (Scf.iv 0#32 1#32 k) 2#32) 7#32)] : Fin 1 → IVec S16 32) a x).toNat
      < (Rect.whole S16).shape.size a)
    (h262 : ∀ a x, ((![k0_pay94 k] : Fin 1 → IVec S16 32) a x).toNat < (Rect.whole S16).shape.size a)
    (x : S16.Idx) :
    k0_pay95 (loadIdx (F := F) (View.read (Elt F) (b10.access (Rect.whole S16)) C10) ![k0_pay93] h34)
        (loadIdx (F := F) (View.read (Elt F) (b10.access (Rect.whole S16)) C10)
          ![broadcast S16 (Scalar.shrui (Scf.iv 0#32 1#32 k) 5#32)] h257)
        (loadIdx (F := F) (View.read (Elt F) (b10.access (Rect.whole S16)) C10)
          ![broadcast S16 (Scalar.andi (Scalar.shrui (Scf.iv 0#32 1#32 k) 2#32) 7#32)] h259)
        (loadIdx (F := F) (View.read (Elt F) (b10.access (Rect.whole S16)) C10) ![k0_pay94 k] h262) x
      = tab4At C10 (16 * k.val + (x 0).val) := by
  have hk := WordsKB.trip_lt k
  have hx : (x 0).val < 16 := (x 0).isLt
  obtain ⟨d1, d2, d3, d4⟩ := Words.digits_of_row hk hx
  dsimp only [k0_pay95, addf]
  rw [b10_loadIdx_lane, b10_loadIdx_lane, b10_loadIdx_lane, b10_loadIdx_lane]
  unfold tab4At
  refine congrArg₂ FloatOps.addf (congrArg₂ FloatOps.addf ?_ ?_) (congrArg₂ FloatOps.addf ?_ ?_)
  · exact c16_of_lt C10 _ _ _ (by
      show (Scalar.shrui (Scf.iv 0#32 1#32 k) 5#32).toNat = _
      rw [WordsKB.shrui5_toNat, d1])
  · exact c16_of_lt C10 _ _ _ (by
      show (Scalar.andi (Scalar.shrui (Scf.iv 0#32 1#32 k) 2#32) 7#32).toNat = _
      rw [WordsKB.andi_shrui2_toNat, d2])
  · exact c16_of_lt C10 _ _ _ (by rw [WordsKB.k0_pay94_toNat, d3])
  · exact c16_of_lt C10 _ _ _ (by rw [WordsKB.k0_pay93_toNat, d4])

/-- A trip of the table loop: the first 16 (k + 1) entries are built once the first 16 k were. -/
theorem tab_step (C10 : S16.Idx → F .f32) (f : S4096.Idx → F .f32) (k : Fin k0_t1_loop.trips)
    (h34 : ∀ a x, ((![k0_pay93] : Fin 1 → IVec S16 32) a x).toNat < (Rect.whole S16).shape.size a)
    (h257 : ∀ a x, ((![broadcast S16 (Scalar.shrui (Scf.iv 0#32 1#32 k) 5#32)] : Fin 1 → IVec S16 32) a x).toNat
      < (Rect.whole S16).shape.size a)
    (h259 : ∀ a x, ((![broadcast S16 (Scalar.andi (Scalar.shrui (Scf.iv 0#32 1#32 k) 2#32) 7#32)] : Fin 1 → IVec S16 32) a x).toNat
      < (Rect.whole S16).shape.size a)
    (h262 : ∀ a x, ((![k0_pay94 k] : Fin 1 → IVec S16 32) a x).toNat < (Rect.whole S16).shape.size a)
    (hf : TabOK C10 k.val f) :
    TabOK C10 (k.val + 1) (b11.view.writes (Elt F) f
      [(⟨Rect.unit (s := S4096) (k0_off3 k) S16.size (k0_off3_inb k),
        k0_pay95 (loadIdx (F := F) (View.read (Elt F) (b10.access (Rect.whole S16)) C10) ![k0_pay93] h34)
          (loadIdx (F := F) (View.read (Elt F) (b10.access (Rect.whole S16)) C10)
            ![broadcast S16 (Scalar.shrui (Scf.iv 0#32 1#32 k) 5#32)] h257)
          (loadIdx (F := F) (View.read (Elt F) (b10.access (Rect.whole S16)) C10)
            ![broadcast S16 (Scalar.andi (Scalar.shrui (Scf.iv 0#32 1#32 k) 2#32) 7#32)] h259)
          (loadIdx (F := F) (View.read (Elt F) (b10.access (Rect.whole S16)) C10) ![k0_pay94 k] h262)⟩
        : View.Piece (Elt F) S4096 .f32)]) := by
  intro i hi
  have ho : (k0_off3 k) 0 = 16 * k.val := by rw [k0_off3_eq k]; rfl
  by_cases hlt : i.val < 16 * k.val
  · rw [b11_writes_cons_outside f (k0_off3 k) (k0_off3_inb k) _ [] i (by omega)]
    exact hf i hlt
  · rw [b11_writes_cons_inside f (k0_off3 k) (k0_off3_inb k) _ [] i (by omega) (by omega)]
    rw [tab_payload_lane C10 k h34 h257 h259 h262]
    congr 1
    show 16 * k.val + (i.val - (k0_off3 k) 0) = i.val
    omega

end Cert.Proof.KB

end
-- ==== Proof.ValueWriteKB.lean ====
/-
  Writing the tile's scratch buffers, read back at an index: a landed species panel, the table of eight, the energies,
  and the sixteen-lane stores into the table of 4096 and the output scratch.
-/
import proofs.«206988_g4337916970008_retrytranche1_694_23_alg».proof.Proof.TileResKB
import Idealize.ShloMosaic.Lib.Pipeline.Value
import Idealize.ShloMosaic.Lib.Writes

noncomputable section

namespace Cert.Proof.KB

open Cert.Kernel Cert.Kernel.Gen
open Idealize.ShloMosaic
open Idealize.SL.Sem

variable {F : FTy → Type}

/-! ## A landed species panel -/

/-- Panel t of the species scratch after a whole [200, 128] block w landed in it: entry (t, a, p) is w (a, p). -/
theorem slab_writes_apply (g : S4x200x128.Idx → BitVec 32) (w : S200x128.Idx → BitVec 32) (off : Fin 3 → ℕ)
    (inb : ∀ a, off a + S1x200x128.size a ≤ S4x200x128.size a) (t : ℕ) (hoff : off = ![t, 0, 0]) (ht : t < 4)
    (a : Fin 200) (p : Fin 128) :
    (((b7.slice (Rect.unit (s := S4x200x128) off S1x200x128.size inb) (fun _ => rfl)).squeeze S200x128
          squeezes_S1x200x128_S200x128).view.writes (Elt F) g [⟨Rect.whole S200x128, w⟩]) (ValueIdx.ix3 ⟨t, ht⟩ a p)
      = w (ValueIdx.ix2 a p) := by
  subst hoff
  have hr : Shape.reshapeEquiv (s := S1x200x128) (s' := S200x128) squeezes_S1x200x128_S200x128.numel_eq (ValueIdx.ix2 a p)
      = ValueIdx.ix3 ⟨0, by decide⟩ a p :=
    Shape.reshapeEquiv_eq_of_rowMajor _ (by rw [Shape.rowMajor_val_three, Shape.rowMajor_val_two]; simp)
  have he : ((((b7.slice (Rect.unit (s := S4x200x128) ![t, 0, 0] S1x200x128.size inb) (fun _ => rfl)).squeeze S200x128
          squeezes_S1x200x128_S200x128).view).slice (Rect.whole S200x128)).emb (ValueIdx.ix2 a p)
        = ValueIdx.ix3 ⟨t, ht⟩ a p := by
    show (Rect.unit (s := S4x200x128) ![t, 0, 0] S1x200x128.size inb).emb
        (Shape.reshapeEquiv (s := S1x200x128) (s' := S200x128) squeezes_S1x200x128_S200x128.numel_eq
          ((Rect.whole S200x128).emb (ValueIdx.ix2 a p))) = _
    rw [Rect.emb_whole_apply, hr]
    funext d
    match d with
    | ⟨0, _⟩ => exact Fin.ext (by show t + 1 * 0 = t; omega)
    | ⟨1, _⟩ => exact Fin.ext (by show 0 + 1 * a.val = a.val; omega)
    | ⟨2, _⟩ => exact Fin.ext (by show 0 + 1 * p.val = p.val; omega)
  rw [View.writes_singleton, ← he, View.write_emb_of_mem _ _ (Finset.mem_univ _)]
  rfl

/-- The block a panel transfer carries: entry (a, p) of column panel r of the tile at L is the transposed species array at
    row a, column 1024 L₁ + 512 L₀ + 128 r + p. -/
theorem sIn_read_apply (fS : S200x16384.Idx → BitVec 32) (L : grid0.Coords) (r : Fin 4) (a : Fin 200) (p : Fin 128) :
    (ReadAs.same.apply (View.read (Elt F)
        (sV.slice (Rect.unit (s := S200x16384) (k0_off1 L (BitVec.ofNat 32 (128 * r.val))) S200x128.size (k0_off1_inb L r))
          (fun _ => rfl)).view fS)) (ValueIdx.ix2 a p)
      = fS (ValueIdx.ix2 a ⟨1024 * (L 1).val + 512 * (L 0).val + 128 * r.val + p.val, by
          have h := k0_off1_inb L r 1
          rw [k0_off1_eq L r] at h
          have h' : 1024 * (L 1).val + 512 * (L 0).val + 128 * r.val + 128 ≤ 16384 := h
          omega⟩) := by
  rw [ReadAs.apply_same, View.read_apply]
  show fS _ = fS _
  congr 1
  funext d
  have ho := k0_off1_eq L r
  match d with
  | ⟨0, _⟩ =>
    refine Fin.ext ?_
    show (k0_off1 L (BitVec.ofNat 32 (128 * r.val))) 0 + 1 * a.val = a.val
    rw [ho]; show 0 + 1 * a.val = a.val; omega
  | ⟨1, _⟩ =>
    refine Fin.ext ?_
    show (k0_off1 L (BitVec.ofNat 32 (128 * r.val))) 1 + 1 * p.val = 1024 * (L 1).val + 512 * (L 0).val + 128 * r.val + p.val
    rw [ho]; show 1024 * (L 1).val + 512 * (L 0).val + 128 * r.val + 1 * p.val = _; omega

theorem sIn0_read_apply (fS : S200x16384.Idx → BitVec 32) (L : grid0.Coords) (a : Fin 200) (p : Fin 128) :
    (ReadAs.same.apply (View.read (Elt F) (sIn0 L).view fS)) (ValueIdx.ix2 a p)
      = fS (ValueIdx.ix2 a ⟨1024 * (L 1).val + 512 * (L 0).val + 128 * 0 + p.val, by
          have h := k0_off1_inb L 0 1
          rw [k0_off1_eq L 0] at h
          have h' : 1024 * (L 1).val + 512 * (L 0).val + 128 * 0 + 128 ≤ 16384 := h
          omega⟩) := sIn_read_apply fS L 0 a p
theorem sIn1_read_apply (fS : S200x16384.Idx → BitVec 32) (L : grid0.Coords) (a : Fin 200) (p : Fin 128) :
    (ReadAs.same.apply (View.read (Elt F) (sIn1 L).view fS)) (ValueIdx.ix2 a p)
      = fS (ValueIdx.ix2 a ⟨1024 * (L 1).val + 512 * (L 0).val + 128 * 1 + p.val, by
          have h := k0_off1_inb L 1 1
          rw [k0_off1_eq L 1] at h
          have h' : 1024 * (L 1).val + 512 * (L 0).val + 128 * 1 + 128 ≤ 16384 := h
          omega⟩) := sIn_read_apply fS L 1 a p
theorem sIn2_read_apply (fS : S200x16384.Idx → BitVec 32) (L : grid0.Coords) (a : Fin 200) (p : Fin 128) :
    (ReadAs.same.apply (View.read (Elt F) (sIn2 L).view fS)) (ValueIdx.ix2 a p)
      = fS (ValueIdx.ix2 a ⟨1024 * (L 1).val + 512 * (L 0).val + 128 * 2 + p.val, by
          have h := k0_off1_inb L 2 1
          rw [k0_off1_eq L 2] at h
          have h' : 1024 * (L 1).val + 512 * (L 0).val + 128 * 2 + 128 ≤ 16384 := h
          omega⟩) := sIn_read_apply fS L 2 a p
theorem sIn3_read_apply (fS : S200x16384.Idx → BitVec 32) (L : grid0.Coords) (a : Fin 200) (p : Fin 128) :
    (ReadAs.same.apply (View.read (Elt F) (sIn3 L).view fS)) (ValueIdx.ix2 a p)
      = fS (ValueIdx.ix2 a ⟨1024 * (L 1).val + 512 * (L 0).val + 128 * 3 + p.val, by
          have h := k0_off1_inb L 3 1
          rw [k0_off1_eq L 3] at h
          have h' : 1024 * (L 1).val + 512 * (L 0).val + 128 * 3 + 128 ≤ 16384 := h
          omega⟩) := sIn_read_apply fS L 3 a p

/-! ## The table of eight -/

/-- The small table after the eight self energies landed in its first eight entries: entry v < 8 is table entry v. -/
theorem tab8_writes_apply (g : S16.Idx → F .f32) (fT : S8.Idx → F .f32) (off : Fin 1 → ℕ)
    (inb : ∀ a, off a + S8.size a ≤ S16.size a) (hoff : off = ![0]) (v : Fin 8) :
    (b10.view.writes (Elt F) g
        [⟨Rect.unit (s := S16) off S8.size inb, ReadAs.same.apply (View.read (Elt F) tV.view fT)⟩])
        (ValueIdx.ix1 ⟨v.val, by have := v.isLt; omega⟩)
      = fT (ValueIdx.ix1 v) := by
  subst hoff
  have he : (b10.view.slice (Rect.unit (s := S16) ![0] S8.size inb)).emb (ValueIdx.ix1 v)
      = ValueIdx.ix1 ⟨v.val, by have := v.isLt; omega⟩ := by
    funext d
    match d with
    | ⟨0, _⟩ => exact Fin.ext (by show 0 + 1 * v.val = v.val; omega)
  rw [View.writes_singleton, ← he, View.write_emb_of_mem _ _ (Finset.mem_univ _)]
  rfl

/-! ## The energies -/

/-- The energy scratch after the tile's 512 energies landed: entry p is energy 1024 L₁ + 512 L₀ + p. -/
theorem en_write_apply (g : S512.Idx → F .f32) (fE : S16384.Idx → F .f32) (L : grid0.Coords) (p : Fin 512) :
    (View.write (Elt F) b8.view g (ReadAs.same.apply (View.read (Elt F) (eCh L).view fE)) Finset.univ) (ValueIdx.ix1 p)
      = fE (ValueIdx.ix1 ⟨1024 * (L 1).val + 512 * (L 0).val + p.val, by
          have h := k0_off2_inb L 0
          rw [k0_off2_eq L] at h
          have h' : 1024 * (L 1).val + 512 * (L 0).val + 512 ≤ 16384 := h
          omega⟩) := by
  have he : b8.view.emb (ValueIdx.ix1 p) = ValueIdx.ix1 p := rfl
  rw [← he, View.write_emb_of_mem _ _ (Finset.mem_univ _)]
  rw [ReadAs.apply_same, View.read_apply]
  show fE _ = fE _
  congr 1
  funext d
  have ho := k0_off2_eq L
  match d with
  | ⟨0, _⟩ =>
    refine Fin.ext ?_
    show (k0_off2 L) 0 + 1 * p.val = 1024 * (L 1).val + 512 * (L 0).val + p.val
    rw [ho]; show 1024 * (L 1).val + 512 * (L 0).val + 1 * p.val = _; omega

end Cert.Proof.KB

end
-- ==== Proof.LandingKB.lean ====
/-
  The landing facts: what the scratch buffers hold once the tile's transfers have landed, in the vocabulary of the
  body's value statements. A landed panel holds the tile's columns of the transposed species, whose words are below
  eight when the species are; the small table holds the eight self energies; the energy scratch the tile's energies.
-/
import proofs.«206988_g4337916970008_retrytranche1_694_23_alg».proof.Proof.ValueSpecKB
import proofs.«206988_g4337916970008_retrytranche1_694_23_alg».proof.Proof.ValueWriteKB
import proofs.«206988_g4337916970008_retrytranche1_694_23_alg».proof.Proof.TilePreKB

noncomputable section

namespace Cert.Proof.KB

open Cert.Kernel Cert.Kernel.Gen
open Idealize.ShloMosaic
open Idealize.SL.Sem

variable {F : FTy → Type} [FloatOps F]

/-! ## A landed species panel -/

/-- The species word of panel t, atom a, column p of the scratch, for coordinates in range. -/
theorem spW_of_lt (C7 : S4x200x128.Idx → BitVec 32) (t : ℕ) (ht : t < 4) (a : Fin 200) (p : Fin 128) :
    spW C7 t a.val p.val = (C7 (ValueIdx.ix3 ⟨t, ht⟩ a p)).toNat := by
  unfold spW
  congr 2
  funext d
  match d with
  | ⟨0, _⟩ => exact Fin.ext (Nat.mod_eq_of_lt ht)
  | ⟨1, _⟩ => exact Fin.ext (Nat.mod_eq_of_lt a.isLt)
  | ⟨2, _⟩ => exact Fin.ext (Nat.mod_eq_of_lt p.isLt)

/-- Species word k of molecule M of the transposed array, for coordinates in range. -/
theorem spAt_of_lt (fS : S200x16384.Idx → BitVec 32) (M : ℕ) (hM : M < 16384) (a : Fin 200) :
    spAt fS M a.val = (fS (ValueIdx.ix2 a ⟨M, hM⟩)).toNat := by
  unfold spAt
  congr 2
  funext d
  match d with
  | ⟨0, _⟩ => exact Fin.ext (Nat.mod_eq_of_lt a.isLt)
  | ⟨1, _⟩ => exact Fin.ext (Nat.mod_eq_of_lt hM)

/-- Panel r of the scratch, after column panel r of the tile's species landed in it, holds those columns. -/
theorem slabOK_of_landed_gen (fS : S200x16384.Idx → BitVec 32) (L : grid0.Coords) (g : S4x200x128.Idx → BitVec 32)
    (off : Fin 3 → ℕ) (inb : ∀ a, off a + S1x200x128.size a ≤ S4x200x128.size a) (r : Fin 4)
    (hoff : off = ![r.val, 0, 0]) :
    SlabOK fS L
      (((b7.slice (Rect.unit (s := S4x200x128) off S1x200x128.size inb) (fun _ => rfl)).squeeze S200x128
          squeezes_S1x200x128_S200x128).view.writes (Elt F) g
        [⟨Rect.whole S200x128, ReadAs.same.apply (View.read (Elt F)
          (sV.slice (Rect.unit (s := S200x16384) (k0_off1 L (BitVec.ofNat 32 (128 * r.val))) S200x128.size (k0_off1_inb L r))
            (fun _ => rfl)).view fS)⟩])
      r.val := by
  intro a p
  have hb : 1024 * (L 1).val + 512 * (L 0).val + 128 * r.val + p.val < 16384 := by
    have h := k0_off1_inb L r 1
    rw [k0_off1_eq L r] at h
    have h' : 1024 * (L 1).val + 512 * (L 0).val + 128 * r.val + 128 ≤ 16384 := h
    have := p.isLt
    omega
  rw [spW_of_lt _ r.val r.isLt a p, spAt_of_lt fS _ hb a,
    slab_writes_apply (F := F) g _ off inb r.val hoff r.isLt a p, sIn_read_apply (F := F) fS L r a p]

/-- Panel 0. -/
theorem slabOK_of_landed0 (fS : S200x16384.Idx → BitVec 32) (L : grid0.Coords) (g : S4x200x128.Idx → BitVec 32) :
    SlabOK fS L
      (((b7.slice (Rect.unit (s := S4x200x128) ![0, 0, 0] S1x200x128.size inb_S4x200x128_S1x200x128_0_0_0) (fun _ => rfl)).squeeze S200x128
          squeezes_S1x200x128_S200x128).view.writes (Elt F) g
        [⟨Rect.whole S200x128, ReadAs.same.apply (View.read (Elt F) (sIn0 L).view fS)⟩])
      0 :=
  slabOK_of_landed_gen fS L g _ _ 0 rfl

/-- Panel 1. -/
theorem slabOK_of_landed1 (fS : S200x16384.Idx → BitVec 32) (L : grid0.Coords) (g : S4x200x128.Idx → BitVec 32) :
    SlabOK fS L
      (((b7.slice (Rect.unit (s := S4x200x128) ![1, 0, 0] S1x200x128.size inb_S4x200x128_S1x200x128_1_0_0) (fun _ => rfl)).squeeze S200x128
          squeezes_S1x200x128_S200x128).view.writes (Elt F) g
        [⟨Rect.whole S200x128, ReadAs.same.apply (View.read (Elt F) (sIn1 L).view fS)⟩])
      1 :=
  slabOK_of_landed_gen fS L g _ _ 1 rfl

/-- Panel 2. -/
theorem slabOK_of_landed2 (fS : S200x16384.Idx → BitVec 32) (L : grid0.Coords) (g : S4x200x128.Idx → BitVec 32) :
    SlabOK fS L
      (((b7.slice (Rect.unit (s := S4x200x128) ![2, 0, 0] S1x200x128.size inb_S4x200x128_S1x200x128_2_0_0) (fun _ => rfl)).squeeze S200x128
          squeezes_S1x200x128_S200x128).view.writes (Elt F) g
        [⟨Rect.whole S200x128, ReadAs.same.apply (View.read (Elt F) (sIn2 L).view fS)⟩])
      2 :=
  slabOK_of_landed_gen fS L g _ _ 2 rfl

/-- Panel 3. -/
theorem slabOK_of_landed3 (fS : S200x16384.Idx → BitVec 32) (L : grid0.Coords) (g : S4x200x128.Idx → BitVec 32) :
    SlabOK fS L
      (((b7.slice (Rect.unit (s := S4x200x128) ![3, 0, 0] S1x200x128.size inb_S4x200x128_S1x200x128_3_0_0) (fun _ => rfl)).squeeze S200x128
          squeezes_S1x200x128_S200x128).view.writes (Elt F) g
        [⟨Rect.whole S200x128, ReadAs.same.apply (View.read (Elt F) (sIn3 L).view fS)⟩])
      3 :=
  slabOK_of_landed_gen fS L g _ _ 3 rfl

/-- A panel that holds columns of the transposed species has words below eight when the species are. -/
theorem slabLt_of_slabOK (fS : S200x16384.Idx → BitVec 32) (L : grid0.Coords) (C7 : S4x200x128.Idx → BitVec 32) (t : ℕ)
    (hS8 : ∀ idx, (fS idx).toNat < 8) (hOK : SlabOK fS L C7 t) : SlabLt C7 t := by
  intro a c ha hc
  have h := hOK ⟨a, ha⟩ ⟨c, hc⟩
  have h' : spW C7 t a c = spAt fS (1024 * (L 1).val + 512 * (L 0).val + 128 * t + c) a := h
  rw [h']
  exact hS8 _

/-- Panel 0's words are below eight. -/
theorem slabLt_of_landed0 (fS : S200x16384.Idx → BitVec 32) (L : grid0.Coords) (g : S4x200x128.Idx → BitVec 32)
    (hS8 : ∀ idx, (fS idx).toNat < 8) :
    SlabLt
      (((b7.slice (Rect.unit (s := S4x200x128) ![0, 0, 0] S1x200x128.size inb_S4x200x128_S1x200x128_0_0_0) (fun _ => rfl)).squeeze S200x128
          squeezes_S1x200x128_S200x128).view.writes (Elt F) g
        [⟨Rect.whole S200x128, ReadAs.same.apply (View.read (Elt F) (sIn0 L).view fS)⟩])
      0 :=
  slabLt_of_slabOK fS L _ 0 hS8 (slabOK_of_landed0 fS L g)

/-- Panel 1's words are below eight. -/
theorem slabLt_of_landed1 (fS : S200x16384.Idx → BitVec 32) (L : grid0.Coords) (g : S4x200x128.Idx → BitVec 32)
    (hS8 : ∀ idx, (fS idx).toNat < 8) :
    SlabLt
      (((b7.slice (Rect.unit (s := S4x200x128) ![1, 0, 0] S1x200x128.size inb_S4x200x128_S1x200x128_1_0_0) (fun _ => rfl)).squeeze S200x128
          squeezes_S1x200x128_S200x128).view.writes (Elt F) g
        [⟨Rect.whole S200x128, ReadAs.same.apply (View.read (Elt F) (sIn1 L).view fS)⟩])
      1 :=
  slabLt_of_slabOK fS L _ 1 hS8 (slabOK_of_landed1 fS L g)

/-- Panel 2's words are below eight. -/
theorem slabLt_of_landed2 (fS : S200x16384.Idx → BitVec 32) (L : grid0.Coords) (g : S4x200x128.Idx → BitVec 32)
    (hS8 : ∀ idx, (fS idx).toNat < 8) :
    SlabLt
      (((b7.slice (Rect.unit (s := S4x200x128) ![2, 0, 0] S1x200x128.size inb_S4x200x128_S1x200x128_2_0_0) (fun _ => rfl)).squeeze S200x128
          squeezes_S1x200x128_S200x128).view.writes (Elt F) g
        [⟨Rect.whole S200x128, ReadAs.same.apply (View.read (Elt F) (sIn2 L).view fS)⟩])
      2 :=
  slabLt_of_slabOK fS L _ 2 hS8 (slabOK_of_landed2 fS L g)

/-- Panel 3's words are below eight. -/
theorem slabLt_of_landed3 (fS : S200x16384.Idx → BitVec 32) (L : grid0.Coords) (g : S4x200x128.Idx → BitVec 32)
    (hS8 : ∀ idx, (fS idx).toNat < 8) :
    SlabLt
      (((b7.slice (Rect.unit (s := S4x200x128) ![3, 0, 0] S1x200x128.size inb_S4x200x128_S1x200x128_3_0_0) (fun _ => rfl)).squeeze S200x128
          squeezes_S1x200x128_S200x128).view.writes (Elt F) g
        [⟨Rect.whole S200x128, ReadAs.same.apply (View.read (Elt F) (sIn3 L).view fS)⟩])
      3 :=
  slabLt_of_slabOK fS L _ 3 hS8 (slabOK_of_landed3 fS L g)

/-! ## The table of eight and the energies -/

/-- The small table, after the eight self energies landed, holds them in its first eight entries. -/
theorem t10OK_of_landed (fT : S8.Idx → F .f32) (g : S16.Idx → F .f32) :
    T10OK fT (b10.view.writes (Elt F) g
      [⟨Rect.unit (s := S16) ![0] S8.size inb_S16_S8_0, ReadAs.same.apply (View.read (Elt F) tV.view fT)⟩]) := by
  intro v
  exact tab8_writes_apply g fT ![0] inb_S16_S8_0 rfl v

/-- The energy scratch, after the tile's energies landed, holds them. -/
theorem e8OK_of_landed (fE : S16384.Idx → F .f32) (L : grid0.Coords) (g : S512.Idx → F .f32) :
    E8OK fE L (View.write (Elt F) b8.view g (ReadAs.same.apply (View.read (Elt F) (eCh L).view fE)) Finset.univ) := by
  intro p
  exact en_write_apply g fE L p

/-! ## The launch memory -/

/-- The transposed species words are below eight when the species words are. -/
theorem fS8 (m : (ℓ : Loc nD τ sig) → Buf (Elt F) ℓ) (hm : PreOK m) (d : Dev nD) (idx : S200x16384.Idx) :
    BitVec.toNat (fS m d idx) < 8 :=
  hm d _

end Cert.Proof.KB

end
-- ==== Proof.LoopLaneKB.lean ====
/-
  One lane of one accumulator through one trip of a molecule loop.

  A trip reads, for each of its eight groups of sixteen molecule columns, the four rows of species words of
  atoms 4k .. 4k+3 at those columns; packs the four words of a lane, each below eight, into the index
  512 s0 + 64 s1 + 8 s2 + s3 below 4096; gathers the table of 4096 at it; and adds the entry to the lane's
  accumulator. With the table built, the entry is quad k of the lane's column, so an accumulator that held
  the first k quads added one after the other onto zero holds the first k + 1.
-/
import proofs.«206988_g4337916970008_retrytranche1_694_23_alg».proof.Proof.ValueSpecKB
import proofs.«206988_g4337916970008_retrytranche1_694_23_alg».proof.Proof.ValueReadKB

noncomputable section

namespace Cert.Proof.KB

open Cert.Kernel Cert.Kernel.Gen
open Idealize.ShloMosaic
open Idealize.SL.Sem

variable {F : FTy → Type}

/-- Sixteen consecutive species words of one atom's row of the scratch, as the body loads them. -/
abbrev rowLd (C7 : S4x200x128.Idx → BitVec 32) (off : Fin 3 → ℕ)
    (inb : ∀ a, off a + S1x1x16.size a ≤ S4x200x128.size a) : Vec F S1x1x16 .i32 :=
  View.readAt (Elt F) b7.view (Rect.unit (s := S4x200x128) off S1x1x16.size inb).toLoadRect C7

/-- The gather from the table of 4096 at sixteen index words. -/
abbrev tabGather [FloatOps F] (C11 : S4096.Idx → F .f32) (idx : IVec S16 32)
    (h : ∀ a x, ((![idx] : Fin 1 → IVec S16 32) a x).toNat < S4096.size a) : Vec F S16 .f32 :=
  loadIdx (F := F) (View.read (Elt F) (b11.access (Rect.whole S4096)) C11) ![idx] h

/-- Lane x of the row of atom a of panel t from column c on is the species word at column c + x. -/
theorem rowLd_lane (C7 : S4x200x128.Idx → BitVec 32) (off : Fin 3 → ℕ)
    (inb : ∀ a, off a + S1x1x16.size a ≤ S4x200x128.size a) (t a' a c : ℕ) (hoff : off = ![t, a', c]) (hae : a' = a)
    (ht : t < 4) (ha : a < 200) (hc : c + 16 ≤ 128) (x : S16.Idx) :
    ((shapeCast S16 (rowLd (F := F) C7 off inb) shapeCasts_S1x1x16_S16 : IVec S16 32) x).toNat
      = spW C7 t a (c + (x 0).val) := by
  subst hae
  have hx : (x 0).val < 16 := (x 0).isLt
  rw [b7_row_lane (F := F) C7 off inb t a' c hoff ht ha hc x]
  unfold spW
  refine congrArg (fun i => (C7 i).toNat) (funext fun d => ?_)
  match d with
  | ⟨0, _⟩ => exact Fin.ext (Nat.mod_eq_of_lt ht).symm
  | ⟨1, _⟩ => exact Fin.ext (Nat.mod_eq_of_lt ha).symm
  | ⟨2, _⟩ => exact Fin.ext (Nat.mod_eq_of_lt (show c + (x 0).val < 128 by omega)).symm

variable [FloatOps F]

/-- One lane's accumulator after one more trip: the gathered entry is the next quad. -/
theorem lane_step (C10 : S16.Idx → F .f32) (C11 : S4096.Idx → F .f32) (C7 : S4x200x128.Idx → BitVec 32)
    (hT : TabOK C10 256 C11) (t j k : ℕ) (acc : FVec F S16 .f32) (hacc : AccLane C10 C7 t j k acc)
    (idx : IVec S16 32) (h : ∀ a x, ((![idx] : Fin 1 → IVec S16 32) a x).toNat < S4096.size a)
    (hidx : ∀ x : S16.Idx, (idx x).toNat
      = 512 * spW C7 t (4 * k) (16 * j + (x 0).val) + 64 * spW C7 t (4 * k + 1) (16 * j + (x 0).val)
        + 8 * spW C7 t (4 * k + 2) (16 * j + (x 0).val) + spW C7 t (4 * k + 3) (16 * j + (x 0).val)) :
    AccLane C10 C7 t j (k + 1) (addf acc (tabGather C11 idx h)) := by
  intro x
  have hlt : (idx x).toNat < 4096 := h 0 x
  have e1 : tabGather C11 idx h x = C11 (ValueIdx.ix1 ⟨(idx x).toNat, hlt⟩) := b11_loadIdx_lane C11 idx h x
  have e2 : C11 (ValueIdx.ix1 ⟨(idx x).toNat, hlt⟩) = tab4At C10 (idx x).toNat :=
    hT ⟨(idx x).toNat, hlt⟩ (by show (idx x).toNat < 16 * 256; omega)
  show FloatOps.addf (acc x) (tabGather C11 idx h x)
    = FloatOps.addf (accF (gQ C10 C7 t (16 * j + (x 0).val)) k) (gQ C10 C7 t (16 * j + (x 0).val) k)
  rw [hacc x, e1, e2, hidx x]
  rfl

end Cert.Proof.KB

end
-- ==== Proof.WordsQKB.lean ====
/-
  The gather index of every quad of the molecule loop, lane by lane.

  Each of the loop's index payloads packs four rows of species words, read at a lane, as 512 a + 64 b + 8 c + e when the
  four words are below 8 (the packing of Words.lean); the index is then below 4096. A row enters a payload either as
  loaded (and is read through its shape cast) or already cast; the statement reads it the way the payload does.
-/
import proofs.«206988_g4337916970008_retrytranche1_694_23_alg».proof.Proof.Gen.Kernel.Skeleton
import proofs.«206988_g4337916970008_retrytranche1_694_23_alg».proof.Proof.Words

namespace Cert.Proof.WordsKB

open Cert.Proof.Words

open Idealize.ShloMosaic
open Cert.Kernel Cert.Kernel.Gen

variable {F : FTy → Type} [FloatOps F]

theorem k0_pay1_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay1 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay1 a b c e x).toNat < 4096 := by
  have h : (k0_pay1 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay4_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay4 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay4 a b c e x).toNat < 4096 := by
  have h : (k0_pay4 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay9_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay9 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay9 a b c e x).toNat < 4096 := by
  have h : (k0_pay9 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay11_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay11 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay11 a b c e x).toNat < 4096 := by
  have h : (k0_pay11 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay13_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay13 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay13 a b c e x).toNat < 4096 := by
  have h : (k0_pay13 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay16_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay16 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay16 a b c e x).toNat < 4096 := by
  have h : (k0_pay16 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay21_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay21 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay21 a b c e x).toNat < 4096 := by
  have h : (k0_pay21 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay23_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay23 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay23 a b c e x).toNat < 4096 := by
  have h : (k0_pay23 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay24_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay24 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay24 a b c e x).toNat < 4096 := by
  have h : (k0_pay24 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay27_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay27 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay27 a b c e x).toNat < 4096 := by
  have h : (k0_pay27 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay32_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay32 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay32 a b c e x).toNat < 4096 := by
  have h : (k0_pay32 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay34_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay34 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay34 a b c e x).toNat < 4096 := by
  have h : (k0_pay34 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay36_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay36 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay36 a b c e x).toNat < 4096 := by
  have h : (k0_pay36 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay39_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay39 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay39 a b c e x).toNat < 4096 := by
  have h : (k0_pay39 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay44_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay44 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay44 a b c e x).toNat < 4096 := by
  have h : (k0_pay44 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay46_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay46 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay46 a b c e x).toNat < 4096 := by
  have h : (k0_pay46 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay47_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay47 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay47 a b c e x).toNat < 4096 := by
  have h : (k0_pay47 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay50_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay50 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay50 a b c e x).toNat < 4096 := by
  have h : (k0_pay50 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay55_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay55 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay55 a b c e x).toNat < 4096 := by
  have h : (k0_pay55 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay57_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay57 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay57 a b c e x).toNat < 4096 := by
  have h : (k0_pay57 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay59_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay59 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay59 a b c e x).toNat < 4096 := by
  have h : (k0_pay59 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay62_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay62 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay62 a b c e x).toNat < 4096 := by
  have h : (k0_pay62 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay67_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay67 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay67 a b c e x).toNat < 4096 := by
  have h : (k0_pay67 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay69_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay69 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay69 a b c e x).toNat < 4096 := by
  have h : (k0_pay69 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay70_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay70 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay70 a b c e x).toNat < 4096 := by
  have h : (k0_pay70 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay73_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay73 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay73 a b c e x).toNat < 4096 := by
  have h : (k0_pay73 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay78_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay78 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay78 a b c e x).toNat < 4096 := by
  have h : (k0_pay78 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay80_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay80 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay80 a b c e x).toNat < 4096 := by
  have h : (k0_pay80 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay82_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay82 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay82 a b c e x).toNat < 4096 := by
  have h : (k0_pay82 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay85_lane (a : Vec F S16 .i32) (b : Vec F S1x1x16 .i32) (c : Vec F S1x1x16 .i32) (e : Vec F S1x1x16 .i32) (x : S16.Idx)
    (ha : ((a : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay85 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay85 a b c e x).toNat < 4096 := by
  have h : (k0_pay85 a b c e x).toNat
        = 512 * ((a : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

theorem k0_pay90_lane (a : Vec F S16 .i32) (b : Vec F S16 .i32) (c : Vec F S16 .i32) (e : Vec F S1x1x16 .i32) (x : S16.Idx)
    (ha : ((a : IVec S16 32) x).toNat < 8)
    (hb : ((b : IVec S16 32) x).toNat < 8)
    (hc : ((c : IVec S16 32) x).toNat < 8)
    (he : ((shapeCast S16 e shapeCasts_S1x1x16_S16 : IVec S16 32) x).toNat < 8) :
    (k0_pay90 a b c e x).toNat
        = 512 * ((a : IVec S16 32) x).toNat + 64 * ((b : IVec S16 32) x).toNat
          + 8 * ((c : IVec S16 32) x).toNat + ((shapeCast S16 e shapeCasts_S1x1x16_S16 : IVec S16 32) x).toNat
      ∧ (k0_pay90 a b c e x).toNat < 4096 := by
  have h : (k0_pay90 a b c e x).toNat
        = 512 * ((a : IVec S16 32) x).toNat + 64 * ((b : IVec S16 32) x).toNat
          + 8 * ((c : IVec S16 32) x).toNat + ((shapeCast S16 e shapeCasts_S1x1x16_S16 : IVec S16 32) x).toNat :=
    toNat_pack _ _ _ _ ha hb hc he
  exact ⟨h, by rw [h]; omega⟩

theorem k0_pay92_lane (a : Vec F S1x1x16 .i32) (b : Vec F S1x1x16 .i32) (c : Vec F S1x1x16 .i32) (e : Vec F S1x1x16 .i32) (x : S16.Idx)
    (ha : ((shapeCast S16 a shapeCasts_S1x1x16_S16 : IVec S16 32) x).toNat < 8)
    (hb : ((shapeCast S16 b shapeCasts_S1x1x16_S16 : IVec S16 32) x).toNat < 8)
    (hc : ((shapeCast S16 c shapeCasts_S1x1x16_S16 : IVec S16 32) x).toNat < 8)
    (he : ((shapeCast S16 e shapeCasts_S1x1x16_S16 : IVec S16 32) x).toNat < 8) :
    (k0_pay92 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat
      ∧ (k0_pay92 a b c e x).toNat < 4096 := by
  have h : (k0_pay92 a b c e x).toNat
        = 512 * ((shapeCast S16 a shapeCasts_S1x1x16_S16 : IVec S16 32) x).toNat + 64 * ((shapeCast S16 b shapeCasts_S1x1x16_S16 : IVec S16 32) x).toNat
          + 8 * ((shapeCast S16 c shapeCasts_S1x1x16_S16 : IVec S16 32) x).toNat + ((shapeCast S16 e shapeCasts_S1x1x16_S16 : IVec S16 32) x).toNat :=
    toNat_pack _ _ _ _ ha hb hc he
  exact ⟨h, by rw [h]; omega⟩

/-! ## The quads' gathers are in range

Each of the molecule loop's thirty-two gathers from the table of 4096 asks that every lane of its index be below 4096. -/

theorem k0_chk5_of_lt (v : IVec S16 32) (h : ∀ x, (v x).toNat < 4096) : k0_chk5 v := by
  intro a x
  obtain rfl : a = 0 := Subsingleton.elim _ _
  exact h x

theorem k0_chk6_of_lt (v : IVec S16 32) (h : ∀ x, (v x).toNat < 4096) : k0_chk6 v := by
  intro a x
  obtain rfl : a = 0 := Subsingleton.elim _ _
  exact h x

theorem k0_chk7_of_lt (v : IVec S16 32) (h : ∀ x, (v x).toNat < 4096) : k0_chk7 v := by
  intro a x
  obtain rfl : a = 0 := Subsingleton.elim _ _
  exact h x

theorem k0_chk8_of_lt (v : IVec S16 32) (h : ∀ x, (v x).toNat < 4096) : k0_chk8 v := by
  intro a x
  obtain rfl : a = 0 := Subsingleton.elim _ _
  exact h x

theorem k0_chk9_of_lt (v : IVec S16 32) (h : ∀ x, (v x).toNat < 4096) : k0_chk9 v := by
  intro a x
  obtain rfl : a = 0 := Subsingleton.elim _ _
  exact h x

theorem k0_chk10_of_lt (v : IVec S16 32) (h : ∀ x, (v x).toNat < 4096) : k0_chk10 v := by
  intro a x
  obtain rfl : a = 0 := Subsingleton.elim _ _
  exact h x

theorem k0_chk11_of_lt (v : IVec S16 32) (h : ∀ x, (v x).toNat < 4096) : k0_chk11 v := by
  intro a x
  obtain rfl : a = 0 := Subsingleton.elim _ _
  exact h x

theorem k0_chk12_of_lt (v : IVec S16 32) (h : ∀ x, (v x).toNat < 4096) : k0_chk12 v := by
  intro a x
  obtain rfl : a = 0 := Subsingleton.elim _ _
  exact h x

theorem k0_chk13_of_lt (v : IVec S16 32) (h : ∀ x, (v x).toNat < 4096) : k0_chk13 v := by
  intro a x
  obtain rfl : a = 0 := Subsingleton.elim _ _
  exact h x

theorem k0_chk14_of_lt (v : IVec S16 32) (h : ∀ x, (v x).toNat < 4096) : k0_chk14 v := by
  intro a x
  obtain rfl : a = 0 := Subsingleton.elim _ _
  exact h x

theorem k0_chk15_of_lt (v : IVec S16 32) (h : ∀ x, (v x).toNat < 4096) : k0_chk15 v := by
  intro a x
  obtain rfl : a = 0 := Subsingleton.elim _ _
  exact h x

theorem k0_chk16_of_lt (v : IVec S16 32) (h : ∀ x, (v x).toNat < 4096) : k0_chk16 v := by
  intro a x
  obtain rfl : a = 0 := Subsingleton.elim _ _
  exact h x

theorem k0_chk17_of_lt (v : IVec S16 32) (h : ∀ x, (v x).toNat < 4096) : k0_chk17 v := by
  intro a x
  obtain rfl : a = 0 := Subsingleton.elim _ _
  exact h x

theorem k0_chk18_of_lt (v : IVec S16 32) (h : ∀ x, (v x).toNat < 4096) : k0_chk18 v := by
  intro a x
  obtain rfl : a = 0 := Subsingleton.elim _ _
  exact h x

theorem k0_chk19_of_lt (v : IVec S16 32) (h : ∀ x, (v x).toNat < 4096) : k0_chk19 v := by
  intro a x
  obtain rfl : a = 0 := Subsingleton.elim _ _
  exact h x

theorem k0_chk20_of_lt (v : IVec S16 32) (h : ∀ x, (v x).toNat < 4096) : k0_chk20 v := by
  intro a x
  obtain rfl : a = 0 := Subsingleton.elim _ _
  exact h x

theorem k0_chk21_of_lt (v : IVec S16 32) (h : ∀ x, (v x).toNat < 4096) : k0_chk21 v := by
  intro a x
  obtain rfl : a = 0 := Subsingleton.elim _ _
  exact h x

theorem k0_chk22_of_lt (v : IVec S16 32) (h : ∀ x, (v x).toNat < 4096) : k0_chk22 v := by
  intro a x
  obtain rfl : a = 0 := Subsingleton.elim _ _
  exact h x

theorem k0_chk23_of_lt (v : IVec S16 32) (h : ∀ x, (v x).toNat < 4096) : k0_chk23 v := by
  intro a x
  obtain rfl : a = 0 := Subsingleton.elim _ _
  exact h x

theorem k0_chk24_of_lt (v : IVec S16 32) (h : ∀ x, (v x).toNat < 4096) : k0_chk24 v := by
  intro a x
  obtain rfl : a = 0 := Subsingleton.elim _ _
  exact h x

theorem k0_chk25_of_lt (v : IVec S16 32) (h : ∀ x, (v x).toNat < 4096) : k0_chk25 v := by
  intro a x
  obtain rfl : a = 0 := Subsingleton.elim _ _
  exact h x

theorem k0_chk26_of_lt (v : IVec S16 32) (h : ∀ x, (v x).toNat < 4096) : k0_chk26 v := by
  intro a x
  obtain rfl : a = 0 := Subsingleton.elim _ _
  exact h x

theorem k0_chk27_of_lt (v : IVec S16 32) (h : ∀ x, (v x).toNat < 4096) : k0_chk27 v := by
  intro a x
  obtain rfl : a = 0 := Subsingleton.elim _ _
  exact h x

theorem k0_chk28_of_lt (v : IVec S16 32) (h : ∀ x, (v x).toNat < 4096) : k0_chk28 v := by
  intro a x
  obtain rfl : a = 0 := Subsingleton.elim _ _
  exact h x

theorem k0_chk29_of_lt (v : IVec S16 32) (h : ∀ x, (v x).toNat < 4096) : k0_chk29 v := by
  intro a x
  obtain rfl : a = 0 := Subsingleton.elim _ _
  exact h x

theorem k0_chk30_of_lt (v : IVec S16 32) (h : ∀ x, (v x).toNat < 4096) : k0_chk30 v := by
  intro a x
  obtain rfl : a = 0 := Subsingleton.elim _ _
  exact h x

theorem k0_chk31_of_lt (v : IVec S16 32) (h : ∀ x, (v x).toNat < 4096) : k0_chk31 v := by
  intro a x
  obtain rfl : a = 0 := Subsingleton.elim _ _
  exact h x

theorem k0_chk32_of_lt (v : IVec S16 32) (h : ∀ x, (v x).toNat < 4096) : k0_chk32 v := by
  intro a x
  obtain rfl : a = 0 := Subsingleton.elim _ _
  exact h x

theorem k0_chk33_of_lt (v : IVec S16 32) (h : ∀ x, (v x).toNat < 4096) : k0_chk33 v := by
  intro a x
  obtain rfl : a = 0 := Subsingleton.elim _ _
  exact h x

theorem k0_chk34_of_lt (v : IVec S16 32) (h : ∀ x, (v x).toNat < 4096) : k0_chk34 v := by
  intro a x
  obtain rfl : a = 0 := Subsingleton.elim _ _
  exact h x

theorem k0_chk35_of_lt (v : IVec S16 32) (h : ∀ x, (v x).toNat < 4096) : k0_chk35 v := by
  intro a x
  obtain rfl : a = 0 := Subsingleton.elim _ _
  exact h x

theorem k0_chk36_of_lt (v : IVec S16 32) (h : ∀ x, (v x).toNat < 4096) : k0_chk36 v := by
  intro a x
  obtain rfl : a = 0 := Subsingleton.elim _ _
  exact h x

end Cert.Proof.WordsKB
-- ==== Proof.LoopT2KB.lean ====
/-
  Loop 2 of the tile's body — panel 0 of the species scratch, fifty trips — lane by lane.

  Trip k reads, for each group j < 8 of sixteen molecule columns 16 j .. 16 j + 15 of panel 0, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLaneKB
import proofs.«206988_g4337916970008_retrytranche1_694_23_alg».proof.Proof.WordsQKB

noncomputable section

namespace Cert.Proof.KB

open Cert.Kernel Cert.Kernel.Gen
open Idealize.ShloMosaic
open Idealize.SL.Sem

variable {F : FTy → Type} [FloatOps F]

/-- The loop has at most fifty trips. -/
theorem trip2_lt (k : Fin k0_t2_loop.trips) : k.val < 50 := Nat.lt_of_lt_of_le k.isLt k0_t2_abs.2.1

/-! ## The rows a trip loads -/

/-- Group 0: the rows of atoms 4k .. 4k+3 at columns 0 .. 15. -/
abbrev row2_0_0 (C7 : S4x200x128.Idx → BitVec 32) (k : Fin k0_t2_loop.trips) : Vec F S1x1x16 .i32 :=
  rowLd C7 (k0_off5 k) (k0_off5_inb k)
abbrev row2_0_1 (C7 : S4x200x128.Idx → BitVec 32) (k : Fin k0_t2_loop.trips) : Vec F S1x1x16 .i32 :=
  rowLd C7 (k0_off6 k 1#32) (k0_off6_inb k 0)
abbrev row2_0_2 (C7 : S4x200x128.Idx → BitVec 32) (k : Fin k0_t2_loop.trips) : Vec F S1x1x16 .i32 :=
  rowLd C7 (k0_off6 k 2#32) (k0_off6_inb k 1)
abbrev row2_0_3 (C7 : S4x200x128.Idx → BitVec 32) (k : Fin k0_t2_loop.trips) : Vec F S1x1x16 .i32 :=
  rowLd C7 (k0_off6 k 3#32) (k0_off6_inb k 2)

theorem row2_0_0_lane (C7 : S4x200x128.Idx → BitVec 32) (k : Fin k0_t2_loop.trips) (x : S16.Idx) :
    ((shapeCast S16 (row2_0_0 (F := F) C7 k) shapeCasts_S1x1x16_S16 : IVec S16 32) x).toNat
      = spW C7 0 (4 * k.val) (16 * 0 + (x 0).val) :=
  rowLd_lane C7 _ _ 0 (4 * k.val) (4 * k.val) (16 * 0) (Gen.k0_off5_eq k) rfl (by decide)
    (by have := trip2_lt k; omega) (by decide) x
theorem row2_0_1_lane (C7 : S4x200x128.Idx → BitVec 32) (k : Fin k0_t2_loop.trips) (x : S16.Idx) :
    ((shapeCast S16 (row2_0_1 (F := F) C7 k) shapeCasts_S1x1x16_S16 : IVec S16 32) x).toNat
      = spW C7 0 (4 * k.val + 1) (16 * 0 + (x 0).val) :=
  rowLd_lane C7 _ _ 0 (4 * k.val + 0 + 1) (4 * k.val + 1) (16 * 0) (Gen.k0_off6_eq k ⟨0, by decide⟩)
    (by omega) (by decide) (by have := trip2_lt k; omega) (by decide) x
theorem row2_0_2_lane (C7 : S4x200x128.Idx → BitVec 32) (k : Fin k0_t2_loop.trips) (x : S16.Idx) :
    ((shapeCast S16 (row2_0_2 (F := F) C7 k) shapeCasts_S1x1x16_S16 : IVec S16 32) x).toNat
      = spW C7 0 (4 * k.val + 2) (16 * 0 + (x 0).val) :=
  rowLd_lane C7 _ _ 0 (4 * k.val + 1 + 1) (4 * k.val + 2) (16 * 0) (Gen.k0_off6_eq k ⟨1, by decide⟩)
    (by omega) (by decide) (by have := trip2_lt k; omega) (by decide) x
theorem row2_0_3_lane (C7 : S4x200x128.Idx → BitVec 32) (k : Fin k0_t2_loop.trips) (x : S16.Idx) :
    ((shapeCast S16 (row2_0_3 (F := F) C7 k) shapeCasts_S1x1x16_S16 : IVec S16 32) x).toNat
      = spW C7 0 (4 * k.val + 3) (16 * 0 + (x 0).val) :=
  rowLd_lane C7 _ _ 0 (4 * k.val + 2 + 1) (4 * k.val + 3) (16 * 0) (Gen.k0_off6_eq k ⟨2, by decide⟩)
    (by omega) (by decide) (by have := trip2_lt k; omega) (by decide) x

/-- Group 1: the rows of atoms 4k .. 4k+3 at columns 16 .. 31. -/
abbrev row2_1_0 (C7 : S4x200x128.Idx → BitVec 32) (k : Fin k0_t2_loop.trips) : Vec F S1x1x16 .i32 :=
  rowLd C7 (k0_off7 k) (k0_off7_inb k)
abbrev row2_1_1 (C7 : S4x200x128.Idx → BitVec 32) (k : Fin k0_t2_loop.trips) : Vec F S1x1x16 .i32 :=
  rowLd C7 (k0_off8 k 1#32) (k0_off8_inb k 0)
abbrev row2_1_2 (C7 : S4x200x128.Idx → BitVec 32) (k : Fin k0_t2_loop.trips) : Vec F S1x1x16 .i32 :=
  rowLd C7 (k0_off8 k 2#32) (k0_off8_inb k 1)
abbrev row2_1_3 (C7 : S4x200x128.Idx → BitVec 32) (k : Fin k0_t2_loop.trips) : Vec F S1x1x16 .i32 :=
  rowLd C7 (k0_off8 k 3#32) (k0_off8_inb k 2)

theorem row2_1_0_lane (C7 : S4x200x128.Idx → BitVec 32) (k : Fin k0_t2_loop.trips) (x : S16.Idx) :
    ((shapeCast S16 (row2_1_0 (F := F) C7 k) shapeCasts_S1x1x16_S16 : IVec S16 32) x).toNat
      = spW C7 0 (4 * k.val) (16 * 1 + (x 0).val) :=
  rowLd_lane C7 _ _ 0 (4 * k.val) (4 * k.val) (16 * 1) (Gen.k0_off7_eq k) rfl (by decide)
    (by have := trip2_lt k; omega) (by decide) x
theorem row2_1_1_lane (C7 : S4x200x128.Idx → BitVec 32) (k : Fin k0_t2_loop.trips) (x : S16.Idx) :
    ((shapeCast S16 (row2_1_1 (F := F) C7 k) shapeCasts_S1x1x16_S16 : IVec S16 32) x).toNat
      = spW C7 0 (4 * k.val + 1) (16 * 1 + (x 0).val) :=
  rowLd_lane C7 _ _ 0 (4 * k.val + 0 + 1) (4 * k.val + 1) (16 * 1) (Gen.k0_off8_eq k ⟨0, by decide⟩)
    (by omega) (by decide) (by have := trip2_lt k; omega) (by decide) x
theorem row2_1_2_lane (C7 : S4x200x128.Idx → BitVec 32) (k : Fin k0_t2_loop.trips) (x : S16.Idx) :
    ((shapeCast S16 (row2_1_2 (F := F) C7 k) shapeCasts_S1x1x16_S16 : IVec S16 32) x).toNat
      = spW C7 0 (4 * k.val + 2) (16 * 1 + (x 0).val) :=
  rowLd_lane C7 _ _ 0 (4 * k.val + 1 + 1) (4 * k.val + 2) (16 * 1) (Gen.k0_off8_eq k ⟨1, by decide⟩)
    (by omega) (by decide) (by have := trip2_lt k; omega) (by decide) x
theorem row2_1_3_lane (C7 : S4x200x128.Idx → BitVec 32) (k : Fin k0_t2_loop.trips) (x : S16.Idx) :
    ((shapeCast S16 (row2_1_3 (F := F) C7 k) shapeCasts_S1x1x16_S16 : IVec S16 32) x).toNat
      = spW C7 0 (4 * k.val + 3) (16 * 1 + (x 0).val) :=
  rowLd_lane C7 _ _ 0 (4 * k.val + 2 + 1) (4 * k.val + 3) (16 * 1) (Gen.k0_off8_eq k ⟨2, by decide⟩)
    (by omega) (by decide) (by have := trip2_lt k; omega) (by decide) x

/-- Group 2: the rows of atoms 4k .. 4k+3 at columns 32 .. 47. -/
abbrev row2_2_0 (C7 : S4x200x128.Idx → BitVec 32) (k : Fin k0_t2_loop.trips) : Vec F S1x1x16 .i32 :=
  rowLd C7 (k0_off9 k) (k0_off9_inb k)
abbrev row2_2_1 (C7 : S4x200x128.Idx → BitVec 32) (k : Fin k0_t2_loop.trips) : Vec F S1x1x16 .i32 :=
  rowLd C7 (k0_off10 k 1#32) (k0_off10_inb k 0)
abbrev row2_2_2 (C7 : S4x200x128.Idx → BitVec 32) (k : Fin k0_t2_loop.trips) : Vec F S1x1x16 .i32 :=
  rowLd C7 (k0_off10 k 2#32) (k0_off10_inb k 1)
abbrev row2_2_3 (C7 : S4x200x128.Idx → BitVec 32) (k : Fin k0_t2_loop.trips) : Vec F S1x1x16 .i32 :=
  rowLd C7 (k0_off10 k 3#32) (k0_off10_inb k 2)

theorem row2_2_0_lane (C7 : S4x200x128.Idx → BitVec 32) (k : Fin k0_t2_loop.trips) (x : S16.Idx) :
    ((shapeCast S16 (row2_2_0 (F := F) C7 k) shapeCasts_S1x1x16_S16 : IVec S16 32) x).toNat
      = spW C7 0 (4 * k.val) (16 * 2 + (x 0).val) :=
  rowLd_lane C7 _ _ 0 (4 * k.val) (4 * k.val) (16 * 2) (Gen.k0_off9_eq k) rfl (by decide)
    (by have := trip2_lt k; omega) (by decide) x
theorem row2_2_1_lane (C7 : S4x200x128.Idx → BitVec 32) (k : Fin k0_t2_loop.trips) (x : S16.Idx) :
    ((shapeCast S16 (row2_2_1 (F := F) C7 k) shapeCasts_S1x1x16_S16 : IVec S16 32) x).toNat
      = spW C7 0 (4 * k.val + 1) (16 * 2 + (x 0).val) :=
  rowLd_lane C7 _ _ 0 (4 * k.val + 0 + 1) (4 * k.val + 1) (16 * 2) (Gen.k0_off10_eq k ⟨0, by decide⟩)
    (by omega) (by decide) (by have := trip2_lt k; omega) (by decide) x
theorem row2_2_2_lane (C7 : S4x200x128.Idx → BitVec 32) (k : Fin k0_t2_loop.trips) (x : S16.Idx) :
    ((shapeCast S16 (row2_2_2 (F := F) C7 k) shapeCasts_S1x1x16_S16 : IVec S16 32) x).toNat
      = spW C7 0 (4 * k.val + 2) (16 * 2 + (x 0).val) :=
  rowLd_lane C7 _ _ 0 (4 * k.val + 1 + 1) (4 * k.val + 2) (16 * 2) (Gen.k0_off10_eq k ⟨1, by decide⟩)
    (by omega) (by decide) (by have := trip2_lt k; omega) (by decide) x
theorem row2_2_3_lane (C7 : S4x200x128.Idx → BitVec 32) (k : Fin k0_t2_loop.trips) (x : S16.Idx) :
    ((shapeCast S16 (row2_2_3 (F := F) C7 k) shapeCasts_S1x1x16_S16 : IVec S16 32) x).toNat
      = spW C7 0 (4 * k.val + 3) (16 * 2 + (x 0).val) :=
  rowLd_lane C7 _ _ 0 (4 * k.val + 2 + 1) (4 * k.val + 3) (16 * 2) (Gen.k0_off10_eq k ⟨2, by decide⟩)
    (by omega) (by decide) (by have := trip2_lt k; omega) (by decide) x

/-- Group 3: the rows of atoms 4k .. 4k+3 at columns 48 .. 63. -/
abbrev row2_3_0 (C7 : S4x200x128.Idx → BitVec 32) (k : Fin k0_t2_loop.trips) : Vec F S1x1x16 .i32 :=
  rowLd C7 (k0_off11 k) (k0_off11_inb k)
abbrev row2_3_1 (C7 : S4x200x128.Idx → BitVec 32) (k : Fin k0_t2_loop.trips) : Vec F S1x1x16 .i32 :=
  rowLd C7 (k0_off12 k 1#32) (k0_off12_inb k 0)
abbrev row2_3_2 (C7 : S4x200x128.Idx → BitVec 32) (k : Fin k0_t2_loop.trips) : Vec F S1x1x16 .i32 :=
  rowLd C7 (k0_off12 k 2#32) (k0_off12_inb k 1)
abbrev row2_3_3 (C7 : S4x200x128.Idx → BitVec 32) (k : Fin k0_t2_loop.trips) : Vec F S1x1x16 .i32 :=
  rowLd C7 (k0_off12 k 3#32) (k0_off12_inb k 2)

theorem row2_3_0_lane (C7 : S4x200x128.Idx → BitVec 32) (k : Fin k0_t2_loop.trips) (x : S16.Idx) :
    ((shapeCast S16 (row2_3_0 (F := F) C7 k) shapeCasts_S1x1x16_S16 : IVec S16 32) x).toNat
      = spW C7 0 (4 * k.val) (16 * 3 + (x 0).val) :=
  rowLd_lane C7 _ _ 0 (4 * k.val) (4 * k.val) (16 * 3) (Gen.k0_off11_eq k) rfl (by decide)
    (by have := trip2_lt k; omega) (by decide) x
theorem row2_3_1_lane (C7 : S4x200x128.Idx → BitVec 32) (k : Fin k0_t2_loop.trips) (x : S16.Idx) :
    ((shapeCast S16 (row2_3_1 (F := F) C7 k) shapeCasts_S1x1x16_S16 : IVec S16 32) x).toNat
      = spW C7 0 (4 * k.val + 1) (16 * 3 + (x 0).val) :=
  rowLd_lane C7 _ _ 0 (4 * k.val + 0 + 1) (4 * k.val + 1) (16 * 3) (Gen.k0_off12_eq k ⟨0, by decide⟩)
    (by omega) (by decide) (by have := trip2_lt k; omega) (by decide) x
theorem row2_3_2_lane (C7 : S4x200x128.Idx → BitVec 32) (k : Fin k0_t2_loop.trips) (x : S16.Idx) :
    ((shapeCast S16 (row2_3_2 (F := F) C7 k) shapeCasts_S1x1x16_S16 : IVec S16 32) x).toNat
      = spW C7 0 (4 * k.val + 2) (16 * 3 + (x 0).val) :=
  rowLd_lane C7 _ _ 0 (4 * k.val + 1 + 1) (4 * k.val + 2) (16 * 3) (Gen.k0_off12_eq k ⟨1, by decide⟩)
    (by omega) (by decide) (by have := trip2_lt k; omega) (by decide) x
theorem row2_3_3_lane (C7 : S4x200x128.Idx → BitVec 32) (k : Fin k0_t2_loop.trips) (x : S16.Idx) :
    ((shapeCast S16 (row2_3_3 (F := F) C7 k) shapeCasts_S1x1x16_S16 : IVec S16 32) x).toNat
      = spW C7 0 (4 * k.val + 3) (16 * 3 + (x 0).val) :=
  rowLd_lane C7 _ _ 0 (4 * k.val + 2 + 1) (4 * k.val + 3) (16 * 3) (Gen.k0_off12_eq k ⟨2, by decide⟩)
    (by omega) (by decide) (by have := trip2_lt k; omega) (by decide) x

/-- Group 4: the rows of atoms 4k .. 4k+3 at columns 64 .. 79. -/
abbrev row2_4_0 (C7 : S4x200x128.Idx → BitVec 32) (k : Fin k0_t2_loop.trips) : Vec F S1x1x16 .i32 :=
  rowLd C7 (k0_off13 k) (k0_off13_inb k)
abbrev row2_4_1 (C7 : S4x200x128.Idx → BitVec 32) (k : Fin k0_t2_loop.trips) : Vec F S1x1x16 .i32 :=
  rowLd C7 (k0_off14 k 1#32) (k0_off14_inb k 0)
abbrev row2_4_2 (C7 : S4x200x128.Idx → BitVec 32) (k : Fin k0_t2_loop.trips) : Vec F S1x1x16 .i32 :=
  rowLd C7 (k0_off14 k 2#32) (k0_off14_inb k 1)
abbrev row2_4_3 (C7 : S4x200x128.Idx → BitVec 32) (k : Fin k0_t2_loop.trips) : Vec F S1x1x16 .i32 :=
  rowLd C7 (k0_off14 k 3#32) (k0_off14_inb k 2)

theorem row2_4_0_lane (C7 : S4x200x128.Idx → BitVec 32) (k : Fin k0_t2_loop.trips) (x : S16.Idx) :
    ((shapeCast S16 (row2_4_0 (F := F) C7 k) shapeCasts_S1x1x16_S16 : IVec S16 32) x).toNat
      = spW C7 0 (4 * k.val) (16 * 4 + (x 0).val) :=
  rowLd_lane C7 _ _ 0 (4 * k.val) (4 * k.val) (16 * 4) (Gen.k0_off13_eq k) rfl (by decide)
    (by have := trip2_lt k; omega) (by decide) x
theorem row2_4_1_lane (C7 : S4x200x128.Idx → BitVec 32) (k : Fin k0_t2_loop.trips) (x : S16.Idx) :
    ((shapeCast S16 (row2_4_1 (F := F) C7 k) shapeCasts_S1x1x16_S16 : IVec S16 32) x).toNat
      = spW C7 0 (4 * k.val + 1) (16 * 4 + (x 0).val) :=
  rowLd_lane C7 _ _ 0 (4 * k.val + 0 + 1) (4 * k.val + 1) (16 * 4) (Gen.k0_off14_eq k ⟨0, by decide⟩)
    (by omega) (by decide) (by have := trip2_lt k; omega) (by decide) x
theorem row2_4_2_lane (C7 : S4x200x128.Idx → BitVec 32) (k : Fin k0_t2_loop.trips) (x : S16.Idx) :
    ((shapeCast S16 (row2_4_2 (F := F) C7 k) shapeCasts_S1x1x16_S16 : IVec S16 32) x).toNat
      = spW C7 0 (4 * k.val + 2) (16 * 4 + (x 0).val) :=
  rowLd_lane C7 _ _ 0 (4 * k.val + 1 + 1) (4 * k.val + 2) (16 * 4) (Gen.k0_off14_eq k ⟨1, by decide⟩)
    (by omega) (by decide) (by have := trip2_lt k; omega) (by decide) x
theorem row2_4_3_lane (C7 : S4x200x128.Idx → BitVec 32) (k : Fin k0_t2_loop.trips) (x : S16.Idx) :
    ((shapeCast S16 (row2_4_3 (F := F) C7 k) shapeCasts_S1x1x16_S16 : IVec S16 32) x).toNat
      = spW C7 0 (4 * k.val + 3) (16 * 4 + (x 0).val) :=
  rowLd_lane C7 _ _ 0 (4 * k.val + 2 + 1) (4 * k.val + 3) (16 * 4) (Gen.k0_off14_eq k ⟨2, by decide⟩)
    (by omega) (by decide) (by have := trip2_lt k; omega) (by decide) x

/-- Group 5: the rows of atoms 4k .. 4k+3 at columns 80 .. 95. -/
abbrev row2_5_0 (C7 : S4x200x128.Idx → BitVec 32) (k : Fin k0_t2_loop.trips) : Vec F S1x1x16 .i32 :=
  rowLd C7 (k0_off15 k) (k0_off15_inb k)
abbrev row2_5_1 (C7 : S4x200x128.Idx → BitVec 32) (k : Fin k0_t2_loop.trips) : Vec F S1x1x16 .i32 :=
  rowLd C7 (k0_off16 k 1#32) (k0_off16_inb k 0)
abbrev row2_5_2 (C7 : S4x200x128.Idx → BitVec 32) (k : Fin k0_t2_loop.trips) : Vec F S1x1x16 .i32 :=
  rowLd C7 (k0_off16 k 2#32) (k0_off16_inb k 1)
abbrev row2_5_3 (C7 : S4x200x128.Idx → BitVec 32) (k : Fin k0_t2_loop.trips) : Vec F S1x1x16 .i32 :=
  rowLd C7 (k0_off16 k 3#32) (k0_off16_inb k 2)

theorem row2_5_0_lane (C7 : S4x200x128.Idx → BitVec 32) (k : Fin k0_t2_loop.trips) (x : S16.Idx) :
    ((shapeCast S16 (row2_5_0 (F := F) C7 k) shapeCasts_S1x1x16_S16 : IVec S16 32) x).toNat
      = spW C7 0 (4 * k.val) (16 * 5 + (x 0).val) :=
  rowLd_lane C7 _ _ 0 (4 * k.val) (4 * k.val) (16 * 5) (Gen.k0_off15_eq k) rfl (by decide)
    (by have := trip2_lt k; omega) (by decide) x
theorem row2_5_1_lane (C7 : S4x200x128.Idx → BitVec 32) (k : Fin k0_t2_loop.trips) (x : S16.Idx) :
    ((shapeCast S16 (row2_5_1 (F := F) C7 k) shapeCasts_S1x1x16_S16 : IVec S16 32) x).toNat
      = spW C7 0 (4 * k.val + 1) (16 * 5 + (x 0).val) :=
  rowLd_lane C7 _ _ 0 (4 * k.val + 0 + 1) (4 * k.val + 1) (16 * 5) (Gen.k0_off16_eq k ⟨0, by decide⟩)
    (by omega) (by decide) (by have := trip2_lt k; omega) (by decide) x
theorem row2_5_2_lane (C7 : S4x200x128.Idx → BitVec 32) (k : Fin k0_t2_loop.trips) (x : S16.Idx) :
    ((shapeCast S16 (row2_5_2 (F := F) C7 k) shapeCasts_S1x1x16_S16 : IVec S16 32) x).toNat
      = spW C7 0 (4 * k.val + 2) (16 * 5 + (x 0).val) :=
  rowLd_lane C7 _ _ 0 (4 * k.val + 1 + 1) (4 * k.val + 2) (16 * 5) (Gen.k0_off16_eq k ⟨1, by decide⟩)
    (by omega) (by decide) (by have := trip2_lt k; omega) (by decide) x
theorem row2_5_3_lane (C7 : S4x200x128.Idx → BitVec 32) (k : Fin k0_t2_loop.trips) (x : S16.Idx) :
    ((shapeCast S16 (row2_5_3 (F := F) C7 k) shapeCasts_S1x1x16_S16 : IVec S16 32) x).toNat
      = spW C7 0 (4 * k.val + 3) (16 * 5 + (x 0).val) :=
  rowLd_lane C7 _ _ 0 (4 * k.val + 2 + 1) (4 * k.val + 3) (16 * 5) (Gen.k0_off16_eq k ⟨2, by decide⟩)
    (by omega) (by decide) (by have := trip2_lt k; omega) (by decide) x

/-- Group 6: the rows of atoms 4k .. 4k+3 at columns 96 .. 111. -/
abbrev row2_6_0 (C7 : S4x200x128.Idx → BitVec 32) (k : Fin k0_t2_loop.trips) : Vec F S1x1x16 .i32 :=
  rowLd C7 (k0_off17 k) (k0_off17_inb k)
abbrev row2_6_1 (C7 : S4x200x128.Idx → BitVec 32) (k : Fin k0_t2_loop.trips) : Vec F S1x1x16 .i32 :=
  rowLd C7 (k0_off18 k 1#32) (k0_off18_inb k 0)
abbrev row2_6_2 (C7 : S4x200x128.Idx → BitVec 32) (k : Fin k0_t2_loop.trips) : Vec F S1x1x16 .i32 :=
  rowLd C7 (k0_off18 k 2#32) (k0_off18_inb k 1)
abbrev row2_6_3 (C7 : S4x200x128.Idx → BitVec 32) (k : Fin k0_t2_loop.trips) : Vec F S1x1x16 .i32 :=
  rowLd C7 (k0_off18 k 3#32) (k0_off18_inb k 2)

theorem row2_6_0_lane (C7 : S4x200x128.Idx → BitVec 32) (k : Fin k0_t2_loop.trips) (x : S16.Idx) :
    ((shapeCast S16 (row2_6_0 (F := F) C7 k) shapeCasts_S1x1x16_S16 : IVec S16 32) x).toNat
      = spW C7 0 (4 * k.val) (16 * 6 + (x 0).val) :=
  rowLd_lane C7 _ _ 0 (4 * k.val) (4 * k.val) (16 * 6) (Gen.k0_off17_eq k) rfl (by decide)
    (by have := trip2_lt k; omega) (by decide) x
theorem row2_6_1_lane (C7 : S4x200x128.Idx → BitVec 32) (k : Fin k0_t2_loop.trips) (x : S16.Idx) :
    ((shapeCast S16 (row2_6_1 (F := F) C7 k) shapeCasts_S1x1x16_S16 : IVec S16 32) x).toNat
      = spW C7 0 (4 * k.val + 1) (16 * 6 + (x 0).val) :=
  rowLd_lane C7 _ _ 0 (4 * k.val + 0 + 1) (4 * k.val + 1) (16 * 6) (Gen.k0_off18_eq k ⟨0, by decide⟩)
    (by omega) (by decide) (by have := trip2_lt k; omega) (by decide) x
theorem row2_6_2_lane (C7 : S4x200x128.Idx → BitVec 32) (k : Fin k0_t2_loop.trips) (x : S16.Idx) :
    ((shapeCast S16 (row2_6_2 (F := F) C7 k) shapeCasts_S1x1x16_S16 : IVec S16 32) x).toNat
      = spW C7 0 (4 * k.val + 2) (16 * 6 + (x 0).val) :=
  rowLd_lane C7 _ _ 0 (4 * k.val + 1 + 1) (4 * k.val + 2) (16 * 6) (Gen.k0_off18_eq k ⟨1, by decide⟩)
    (by omega) (by decide) (by have := trip2_lt k; omega) (by decide) x
theorem row2_6_3_lane (C7 : S4x200x128.Idx → BitVec 32) (k : Fin k0_t2_loop.trips) (x : S16.Idx) :
    ((shapeCast S16 (row2_6_3 (F := F) C7 k) shapeCasts_S1x1x16_S16 : IVec S16 32) x).toNat
      = spW C7 0 (4 * k.val + 3) (16 * 6 + (x 0).val) :=
  rowLd_lane C7 _ _ 0 (4 * k.val + 2 + 1) (4 * k.val + 3) (16 * 6) (Gen.k0_off18_eq k ⟨2, by decide⟩)
    (by omega) (by decide) (by have := trip2_lt k; omega) (by decide) x

/-- Group 7: the rows of atoms 4k .. 4k+3 at columns 112 .. 127. -/
abbrev row2_7_0 (C7 : S4x200x128.Idx → BitVec 32) (k : Fin k0_t2_loop.trips) : Vec F S1x1x16 .i32 :=
  rowLd C7 (k0_off19 k) (k0_off19_inb k)
abbrev row2_7_1 (C7 : S4x200x128.Idx → BitVec 32) (k : Fin k0_t2_loop.trips) : Vec F S1x1x16 .i32 :=
  rowLd C7 (k0_off20 k 1#32) (k0_off20_inb k 0)
abbrev row2_7_2 (C7 : S4x200x128.Idx → BitVec 32) (k : Fin k0_t2_loop.trips) : Vec F S1x1x16 .i32 :=
  rowLd C7 (k0_off20 k 2#32) (k0_off20_inb k 1)
abbrev row2_7_3 (C7 : S4x200x128.Idx → BitVec 32) (k : Fin k0_t2_loop.trips) : Vec F S1x1x16 .i32 :=
  rowLd C7 (k0_off20 k 3#32) (k0_off20_inb k 2)

theorem row2_7_0_lane (C7 : S4x200x128.Idx → BitVec 32) (k : Fin k0_t2_loop.trips) (x : S16.Idx) :
    ((shapeCast S16 (row2_7_0 (F := F) C7 k) shapeCasts_S1x1x16_S16 : IVec S16 32) x).toNat
      = spW C7 0 (4 * k.val) (16 * 7 + (x 0).val) :=
  rowLd_lane C7 _ _ 0 (4 * k.val) (4 * k.val) (16 * 7) (Gen.k0_off19_eq k) rfl (by decide)
    (by have := trip2_lt k; omega) (by decide) x
theorem row2_7_1_lane (C7 : S4x200x128.Idx → BitVec 32) (k : Fin k0_t2_loop.trips) (x : S16.Idx) :
    ((shapeCast S16 (row2_7_1 (F := F) C7 k) shapeCasts_S1x1x16_S16 : IVec S16 32) x).toNat
      = spW C7 0 (4 * k.val + 1) (16 * 7 + (x 0).val) :=
  rowLd_lane C7 _ _ 0 (4 * k.val + 0 + 1) (4 * k.val + 1) (16 * 7) (Gen.k0_off20_eq k ⟨0, by decide⟩)
    (by omega) (by decide) (by have := trip2_lt k; omega) (by decide) x
theorem row2_7_2_lane (C7 : S4x200x128.Idx → BitVec 32) (k : Fin k0_t2_loop.trips) (x : S16.Idx) :
    ((shapeCast S16 (row2_7_2 (F := F) C7 k) shapeCasts_S1x1x16_S16 : IVec S16 32) x).toNat
      = spW C7 0 (4 * k.val + 2) (16 * 7 + (x 0).val) :=
  rowLd_lane C7 _ _ 0 (4 * k.val + 1 + 1) (4 * k.val + 2) (16 * 7) (Gen.k0_off20_eq k ⟨1, by decide⟩)
    (by omega) (by decide) (by have := trip2_lt k; omega) (by decide) x
theorem row2_7_3_lane (C7 : S4x200x128.Idx → BitVec 32) (k : Fin k0_t2_loop.trips) (x : S16.Idx) :
    ((shapeCast S16 (row2_7_3 (F := F) C7 k) shapeCasts_S1x1x16_S16 : IVec S16 32) x).toNat
      = spW C7 0 (4 * k.val + 3) (16 * 7 + (x 0).val) :=
  rowLd_lane C7 _ _ 0 (4 * k.val + 2 + 1) (4 * k.val + 3) (16 * 7) (Gen.k0_off20_eq k ⟨2, by decide⟩)
    (by omega) (by decide) (by have := trip2_lt k; omega) (by decide) x

/-! ## The index words -/

/-- Group 0's sixteen index words at trip k. -/
abbrev idx2_0 (C7 : S4x200x128.Idx → BitVec 32) (k : Fin k0_t2_loop.trips) : IVec S16 32 :=
  k0_pay1 (F := F) (row2_0_0 C7 k) (row2_0_1 C7 k) (row2_0_2 C7 k) (row2_0_3 C7 k)

theorem idx2_0_lane (C7 : S4x200x128.Idx → BitVec 32) (hlt : SlabLt C7 0) (k : Fin k0_t2_loop.trips) (x : S16.Idx) :
    (idx2_0 (F := F) C7 k x).toNat
        = 512 * spW C7 0 (4 * k.val) (16 * 0 + (x 0).val) + 64 * spW C7 0 (4 * k.val + 1) (16 * 0 + (x 0).val)
          + 8 * spW C7 0 (4 * k.val + 2) (16 * 0 + (x 0).val) + spW C7 0 (4 * k.val + 3) (16 * 0 + (x 0).val)
      ∧ (idx2_0 (F := F) C7 k x).toNat < 4096 := by
  have hk := trip2_lt k
  have hx : (x 0).val < 16 := (x 0).isLt
  have e0 : ((shapeCast S16 (row2_0_0 (F := F) C7 k) shapeCasts_S1x1x16_S16 : IVec S16 32) x).toNat = spW C7 0 (4 * k.val) (16 * 0 + (x 0).val) := row2_0_0_lane (F := F) C7 k x
  have e1 : ((shapeCast S16 (row2_0_1 (F := F) C7 k) shapeCasts_S1x1x16_S16 : IVec S16 32) x).toNat = spW C7 0 (4 * k.val + 1) (16 * 0 + (x 0).val) := row2_0_1_lane (F := F) C7 k x
  have e2 : ((shapeCast S16 (row2_0_2 (F := F) C7 k) shapeCasts_S1x1x16_S16 : IVec S16 32) x).toNat = spW C7 0 (4 * k.val + 2) (16 * 0 + (x 0).val) := row2_0_2_lane (F := F) C7 k x
  have e3 : ((shapeCast S16 (row2_0_3 (F := F) C7 k) shapeCasts_S1x1x16_S16 : IVec S16 32) x).toNat = spW C7 0 (4 * k.val + 3) (16 * 0 + (x 0).val) := row2_0_3_lane (F := F) C7 k x
  have b0 : spW C7 0 (4 * k.val) (16 * 0 + (x 0).val) < 8 := hlt _ _ (by omega) (by omega)
  have b1 : spW C7 0 (4 * k.val + 1) (16 * 0 + (x 0).val) < 8 := hlt _ _ (by omega) (by omega)
  have b2 : spW C7 0 (4 * k.val + 2) (16 * 0 + (x 0).val) < 8 := hlt _ _ (by omega) (by omega)
  have b3 : spW C7 0 (4 * k.val + 3) (16 * 0 + (x 0).val) < 8 := hlt _ _ (by omega) (by omega)
  obtain ⟨e, l⟩ := Cert.Proof.WordsKB.k0_pay1_lane (F := F) (row2_0_0 C7 k) (row2_0_1 C7 k) (row2_0_2 C7 k) (row2_0_3 C7 k) x
    (e0.trans_lt b0) (e1.trans_lt b1) (e2.trans_lt b2) (e3.trans_lt b3)
  exact ⟨e.trans (by rw [e0, e1, e2, e3]), l⟩

/-- The gather's side condition holds. -/
theorem chk2_0 (C7 : S4x200x128.Idx → BitVec 32) (hlt : SlabLt C7 0) (k : Fin k0_t2_loop.trips) :
    k0_chk5 (idx2_0 (F := F) C7 k) :=
  Cert.Proof.WordsKB.k0_chk5_of_lt _ fun x => (idx2_0_lane C7 hlt k x).2

/-- Group 1's sixteen index words at trip k. -/
abbrev idx2_1 (C7 : S4x200x128.Idx → BitVec 32) (k : Fin k0_t2_loop.trips) : IVec S16 32 :=
  k0_pay4 (F := F) (k0_pay3 (row2_1_0 C7 k)) (row2_1_1 C7 k) (row2_1_2 C7 k) (row2_1_3 C7 k)

theorem idx2_1_lane (C7 : S4x200x128.Idx → BitVec 32) (hlt : SlabLt C7 0) (k : Fin k0_t2_loop.trips) (x : S16.Idx) :
    (idx2_1 (F := F) C7 k x).toNat
        = 512 * spW C7 0 (4 * k.val) (16 * 1 + (x 0).val) + 64 * spW C7 0 (4 * k.val + 1) (16 * 1 + (x 0).val)
          + 8 * spW C7 0 (4 * k.val + 2) (16 * 1 + (x 0).val) + spW C7 0 (4 * k.val + 3) (16 * 1 + (x 0).val)
      ∧ (idx2_1 (F := F) C7 k x).toNat < 4096 := by
  have hk := trip2_lt k
  have hx : (x 0).val < 16 := (x 0).isLt
  have e0 : (k0_pay3 (row2_1_0 (F := F) C7 k) x).toNat = spW C7 0 (4 * k.val) (16 * 1 + (x 0).val) := row2_1_0_lane (F := F) C7 k x
  have e1 : ((shapeCast S16 (row2_1_1 (F := F) C7 k) shapeCasts_S1x1x16_S16 : IVec S16 32) x).toNat = spW C7 0 (4 * k.val + 1) (16 * 1 + (x 0).val) := row2_1_1_lane (F := F) C7 k x
  have e2 : ((shapeCast S16 (row2_1_2 (F := F) C7 k) shapeCasts_S1x1x16_S16 : IVec S16 32) x).toNat = spW C7 0 (4 * k.val + 2) (16 * 1 + (x 0).val) := row2_1_2_lane (F := F) C7 k x
  have e3 : ((shapeCast S16 (row2_1_3 (F := F) C7 k) shapeCasts_S1x1x16_S16 : IVec S16 32) x).toNat = spW C7 0 (4 * k.val + 3) (16 * 1 + (x 0).val) := row2_1_3_lane (F := F) C7 k x
  have b0 : spW C7 0 (4 * k.val) (16 * 1 + (x 0).val) < 8 := hlt _ _ (by omega) (by omega)
  have b1 : spW C7 0 (4 * k.val + 1) (16 * 1 + (x 0).val) < 8 := hlt _ _ (by omega) (by omega)
  have b2 : spW C7 0 (4 * k.val + 2) (16 * 1 + (x 0).val) < 8 := hlt _ _ (by omega) (by omega)
  have b3 : spW C7 0 (4 * k.val + 3) (16 * 1 + (x 0).val) < 8 := hlt _ _ (by omega) (by omega)
  obtain ⟨e, l⟩ := Cert.Proof.WordsKB.k0_pay4_lane (F := F) (k0_pay3 (row2_1_0 C7 k)) (row2_1_1 C7 k) (row2_1_2 C7 k) (row2_1_3 C7 k) x
    (e0.trans_lt b0) (e1.trans_lt b1) (e2.trans_lt b2) (e3.trans_lt b3)
  exact ⟨e.trans (by rw [e0, e1, e2, e3]), l⟩

/-- The gather's side condition holds. -/
theorem chk2_1 (C7 : S4x200x128.Idx → BitVec 32) (hlt : SlabLt C7 0) (k : Fin k0_t2_loop.trips) :
    k0_chk6 (idx2_1 (F := F) C7 k) :=
  Cert.Proof.WordsKB.k0_chk6_of_lt _ fun x => (idx2_1_lane C7 hlt k x).2

/-- Group 2's sixteen index words at trip k. -/
abbrev idx2_2 (C7 : S4x200x128.Idx → BitVec 32) (k : Fin k0_t2_loop.trips) : IVec S16 32 :=
  k0_pay9 (F := F) (k0_pay6 (row2_2_0 C7 k)) (k0_pay7 (row2_2_1 C7 k)) (k0_pay8 (row2_2_2 C7 k)) (row2_2_3 C7 k)

theorem idx2_2_lane (C7 : S4x200x128.Idx → BitVec 32) (hlt : SlabLt C7 0) (k : Fin k0_t2_loop.trips) (x : S16.Idx) :
    (idx2_2 (F := F) C7 k x).toNat
        = 512 * spW C7 0 (4 * k.val) (16 * 2 + (x 0).val) + 64 * spW C7 0 (4 * k.val + 1) (16 * 2 + (x 0).val)
          + 8 * spW C7 0 (4 * k.val + 2) (16 * 2 + (x 0).val) + spW C7 0 (4 * k.val + 3) (16 * 2 + (x 0).val)
      ∧ (idx2_2 (F := F) C7 k x).toNat < 4096 := by
  have hk := trip2_lt k
  have hx : (x 0).val < 16 := (x 0).isLt
  have e0 : (k0_pay6 (row2_2_0 (F := F) C7 k) x).toNat = spW C7 0 (4 * k.val) (16 * 2 + (x 0).val) := row2_2_0_lane (F := F) C7 k x
  have e1 : (k0_pay7 (row2_2_1 (F := F) C7 k) x).toNat = spW C7 0 (4 * k.val + 1) (16 * 2 + (x 0).val) := row2_2_1_lane (F := F) C7 k x
  have e2 : (k0_pay8 (row2_2_2 (F := F) C7 k) x).toNat = spW C7 0 (4 * k.val + 2) (16 * 2 + (x 0).val) := row2_2_2_lane (F := F) C7 k x
  have e3 : ((shapeCast S16 (row2_2_3 (F := F) C7 k) shapeCasts_S1x1x16_S16 : IVec S16 32) x).toNat = spW C7 0 (4 * k.val + 3) (16 * 2 + (x 0).val) := row2_2_3_lane (F := F) C7 k x
  have b0 : spW C7 0 (4 * k.val) (16 * 2 + (x 0).val) < 8 := hlt _ _ (by omega) (by omega)
  have b1 : spW C7 0 (4 * k.val + 1) (16 * 2 + (x 0).val) < 8 := hlt _ _ (by omega) (by omega)
  have b2 : spW C7 0 (4 * k.val + 2) (16 * 2 + (x 0).val) < 8 := hlt _ _ (by omega) (by omega)
  have b3 : spW C7 0 (4 * k.val + 3) (16 * 2 + (x 0).val) < 8 := hlt _ _ (by omega) (by omega)
  obtain ⟨e, l⟩ := Cert.Proof.WordsKB.k0_pay9_lane (F := F) (k0_pay6 (row2_2_0 C7 k)) (k0_pay7 (row2_2_1 C7 k)) (k0_pay8 (row2_2_2 C7 k)) (row2_2_3 C7 k) x
    (e0.trans_lt b0) (e1.trans_lt b1) (e2.trans_lt b2) (e3.trans_lt b3)
  exact ⟨e.trans (by rw [e0, e1, e2, e3]), l⟩

/-- The gather's side condition holds. -/
theorem chk2_2 (C7 : S4x200x128.Idx → BitVec 32) (hlt : SlabLt C7 0) (k : Fin k0_t2_loop.trips) :
    k0_chk7 (idx2_2 (F := F) C7 k) :=
  Cert.Proof.WordsKB.k0_chk7_of_lt _ fun x => (idx2_2_lane C7 hlt k x).2

/-- Group 3's sixteen index words at trip k. -/
abbrev idx2_3 (C7 : S4x200x128.Idx → BitVec 32) (k : Fin k0_t2_loop.trips) : IVec S16 32 :=
  k0_pay11 (F := F) (row2_3_0 C7 k) (row2_3_1 C7 k) (row2_3_2 C7 k) (row2_3_3 C7 k)

theorem idx2_3_lane (C7 : S4x200x128.Idx → BitVec 32) (hlt : SlabLt C7 0) (k : Fin k0_t2_loop.trips) (x : S16.Idx) :
    (idx2_3 (F := F) C7 k x).toNat
        = 512 * spW C7 0 (4 * k.val) (16 * 3 + (x 0).val) + 64 * spW C7 0 (4 * k.val + 1) (16 * 3 + (x 0).val)
          + 8 * spW C7 0 (4 * k.val + 2) (16 * 3 + (x 0).val) + spW C7 0 (4 * k.val + 3) (16 * 3 + (x 0).val)
      ∧ (idx2_3 (F := F) C7 k x).toNat < 4096 := by
  have hk := trip2_lt k
  have hx : (x 0).val < 16 := (x 0).isLt
  have e0 : ((shapeCast S16 (row2_3_0 (F := F) C7 k) shapeCasts_S1x1x16_S16 : IVec S16 32) x).toNat = spW C7 0 (4 * k.val) (16 * 3 + (x 0).val) := row2_3_0_lane (F := F) C7 k x
  have e1 : ((shapeCast S16 (row2_3_1 (F := F) C7 k) shapeCasts_S1x1x16_S16 : IVec S16 32) x).toNat = spW C7 0 (4 * k.val + 1) (16 * 3 + (x 0).val) := row2_3_1_lane (F := F) C7 k x
  have e2 : ((shapeCast S16 (row2_3_2 (F := F) C7 k) shapeCasts_S1x1x16_S16 : IVec S16 32) x).toNat = spW C7 0 (4 * k.val + 2) (16 * 3 + (x 0).val) := row2_3_2_lane (F := F) C7 k x
  have e3 : ((shapeCast S16 (row2_3_3 (F := F) C7 k) shapeCasts_S1x1x16_S16 : IVec S16 32) x).toNat = spW C7 0 (4 * k.val + 3) (16 * 3 + (x 0).val) := row2_3_3_lane (F := F) C7 k x
  have b0 : spW C7 0 (4 * k.val) (16 * 3 + (x 0).val) < 8 := hlt _ _ (by omega) (by omega)
  have b1 : spW C7 0 (4 * k.val + 1) (16 * 3 + (x 0).val) < 8 := hlt _ _ (by omega) (by omega)
  have b2 : spW C7 0 (4 * k.val + 2) (16 * 3 + (x 0).val) < 8 := hlt _ _ (by omega) (by omega)
  have b3 : spW C7 0 (4 * k.val + 3) (16 * 3 + (x 0).val) < 8 := hlt _ _ (by omega) (by omega)
  obtain ⟨e, l⟩ := Cert.Proof.WordsKB.k0_pay11_lane (F := F) (row2_3_0 C7 k) (row2_3_1 C7 k) (row2_3_2 C7 k) (row2_3_3 C7 k) x
    (e0.trans_lt b0) (e1.trans_lt b1) (e2.trans_lt b2) (e3.trans_lt b3)
  exact ⟨e.trans (by rw [e0, e1, e2, e3]), l⟩

/-- The gather's side condition holds. -/
theorem chk2_3 (C7 : S4x200x128.Idx → BitVec 32) (hlt : SlabLt C7 0) (k : Fin k0_t2_loop.trips) :
    k0_chk8 (idx2_3 (F := F) C7 k) :=
  Cert.Proof.WordsKB.k0_chk8_of_lt _ fun x => (idx2_3_lane C7 hlt k x).2

/-- Group 4's sixteen index words at trip k. -/
abbrev idx2_4 (C7 : S4x200x128.Idx → BitVec 32) (k : Fin k0_t2_loop.trips) : IVec S16 32 :=
  k0_pay13 (F := F) (row2_4_0 C7 k) (row2_4_1 C7 k) (row2_4_2 C7 k) (row2_4_3 C7 k)

theorem idx2_4_lane (C7 : S4x200x128.Idx → BitVec 32) (hlt : SlabLt C7 0) (k : Fin k0_t2_loop.trips) (x : S16.Idx) :
    (idx2_4 (F := F) C7 k x).toNat
        = 512 * spW C7 0 (4 * k.val) (16 * 4 + (x 0).val) + 64 * spW C7 0 (4 * k.val + 1) (16 * 4 + (x 0).val)
          + 8 * spW C7 0 (4 * k.val + 2) (16 * 4 + (x 0).val) + spW C7 0 (4 * k.val + 3) (16 * 4 + (x 0).val)
      ∧ (idx2_4 (F := F) C7 k x).toNat < 4096 := by
  have hk := trip2_lt k
  have hx : (x 0).val < 16 := (x 0).isLt
  have e0 : ((shapeCast S16 (row2_4_0 (F := F) C7 k) shapeCasts_S1x1x16_S16 : IVec S16 32) x).toNat = spW C7 0 (4 * k.val) (16 * 4 + (x 0).val) := row2_4_0_lane (F := F) C7 k x
  have e1 : ((shapeCast S16 (row2_4_1 (F := F) C7 k) shapeCasts_S1x1x16_S16 : IVec S16 32) x).toNat = spW C7 0 (4 * k.val + 1) (16 * 4 + (x 0).val) := row2_4_1_lane (F := F) C7 k x
  have e2 : ((shapeCast S16 (row2_4_2 (F := F) C7 k) shapeCasts_S1x1x16_S16 : IVec S16 32) x).toNat = spW C7 0 (4 * k.val + 2) (16 * 4 + (x 0).val) := row2_4_2_lane (F := F) C7 k x
  have e3 : ((shapeCast S16 (row2_4_3 (F := F) C7 k) shapeCasts_S1x1x16_S16 : IVec S16 32) x).toNat = spW C7 0 (4 * k.val + 3) (16 * 4 + (x 0).val) := row2_4_3_lane (F := F) C7 k x
  have b0 : spW C7 0 (4 * k.val) (16 * 4 + (x 0).val) < 8 := hlt _ _ (by omega) (by omega)
  have b1 : spW C7 0 (4 * k.val + 1) (16 * 4 + (x 0).val) < 8 := hlt _ _ (by omega) (by omega)
  have b2 : spW C7 0 (4 * k.val + 2) (16 * 4 + (x 0).val) < 8 := hlt _ _ (by omega) (by omega)
  have b3 : spW C7 0 (4 * k.val + 3) (16 * 4 + (x 0).val) < 8 := hlt _ _ (by omega) (by omega)
  obtain ⟨e, l⟩ := Cert.Proof.WordsKB.k0_pay13_lane (F := F) (row2_4_0 C7 k) (row2_4_1 C7 k) (row2_4_2 C7 k) (row2_4_3 C7 k) x
    (e0.trans_lt b0) (e1.trans_lt b1) (e2.trans_lt b2) (e3.trans_lt b3)
  exact ⟨e.trans (by rw [e0, e1, e2, e3]), l⟩

/-- The gather's side condition holds. -/
theorem chk2_4 (C7 : S4x200x128.Idx → BitVec 32) (hlt : SlabLt C7 0) (k : Fin k0_t2_loop.trips) :
    k0_chk9 (idx2_4 (F := F) C7 k) :=
  Cert.Proof.WordsKB.k0_chk9_of_lt _ fun x => (idx2_4_lane C7 hlt k x).2

/-- Group 5's sixteen index words at trip k. -/
abbrev idx2_5 (C7 : S4x200x128.Idx → BitVec 32) (k : Fin k0_t2_loop.trips) : IVec S16 32 :=
  k0_pay16 (F := F) (k0_pay15 (row2_5_0 C7 k)) (row2_5_1 C7 k) (row2_5_2 C7 k) (row2_5_3 C7 k)

theorem idx2_5_lane (C7 : S4x200x128.Idx → BitVec 32) (hlt : SlabLt C7 0) (k : Fin k0_t2_loop.trips) (x : S16.Idx) :
    (idx2_5 (F := F) C7 k x).toNat
        = 512 * spW C7 0 (4 * k.val) (16 * 5 + (x 0).val) + 64 * spW C7 0 (4 * k.val + 1) (16 * 5 + (x 0).val)
          + 8 * spW C7 0 (4 * k.val + 2) (16 * 5 + (x 0).val) + spW C7 0 (4 * k.val + 3) (16 * 5 + (x 0).val)
      ∧ (idx2_5 (F := F) C7 k x).toNat < 4096 := by
  have hk := trip2_lt k
  have hx : (x 0).val < 16 := (x 0).isLt
  have e0 : (k0_pay15 (row2_5_0 (F := F) C7 k) x).toNat = spW C7 0 (4 * k.val) (16 * 5 + (x 0).val) := row2_5_0_lane (F := F) C7 k x
  have e1 : ((shapeCast S16 (row2_5_1 (F := F) C7 k) shapeCasts_S1x1x16_S16 : IVec S16 32) x).toNat = spW C7 0 (4 * k.val + 1) (16 * 5 + (x 0).val) := row2_5_1_lane (F := F) C7 k x
  have e2 : ((shapeCast S16 (row2_5_2 (F := F) C7 k) shapeCasts_S1x1x16_S16 : IVec S16 32) x).toNat = spW C7 0 (4 * k.val + 2) (16 * 5 + (x 0).val) := row2_5_2_lane (F := F) C7 k x
  have e3 : ((shapeCast S16 (row2_5_3 (F := F) C7 k) shapeCasts_S1x1x16_S16 : IVec S16 32) x).toNat = spW C7 0 (4 * k.val + 3) (16 * 5 + (x 0).val) := row2_5_3_lane (F := F) C7 k x
  have b0 : spW C7 0 (4 * k.val) (16 * 5 + (x 0).val) < 8 := hlt _ _ (by omega) (by omega)
  have b1 : spW C7 0 (4 * k.val + 1) (16 * 5 + (x 0).val) < 8 := hlt _ _ (by omega) (by omega)
  have b2 : spW C7 0 (4 * k.val + 2) (16 * 5 + (x 0).val) < 8 := hlt _ _ (by omega) (by omega)
  have b3 : spW C7 0 (4 * k.val + 3) (16 * 5 + (x 0).val) < 8 := hlt _ _ (by omega) (by omega)
  obtain ⟨e, l⟩ := Cert.Proof.WordsKB.k0_pay16_lane (F := F) (k0_pay15 (row2_5_0 C7 k)) (row2_5_1 C7 k) (row2_5_2 C7 k) (row2_5_3 C7 k) x
    (e0.trans_lt b0) (e1.trans_lt b1) (e2.trans_lt b2) (e3.trans_lt b3)
  exact ⟨e.trans (by rw [e0, e1, e2, e3]), l⟩

/-- The gather's side condition holds. -/
theorem chk2_5 (C7 : S4x200x128.Idx → BitVec 32) (hlt : SlabLt C7 0) (k : Fin k0_t2_loop.trips) :
    k0_chk10 (idx2_5 (F := F) C7 k) :=
  Cert.Proof.WordsKB.k0_chk10_of_lt _ fun x => (idx2_5_lane C7 hlt k x).2

/-- Group 6's sixteen index words at trip k. -/
abbrev idx2_6 (C7 : S4x200x128.Idx → BitVec 32) (k : Fin k0_t2_loop.trips) : IVec S16 32 :=
  k0_pay21 (F := F) (k0_pay18 (row2_6_0 C7 k)) (k0_pay19 (row2_6_1 C7 k)) (k0_pay20 (row2_6_2 C7 k)) (row2_6_3 C7 k)

theorem idx2_6_lane (C7 : S4x200x128.Idx → BitVec 32) (hlt : SlabLt C7 0) (k : Fin k0_t2_loop.trips) (x : S16.Idx) :
    (idx2_6 (F := F) C7 k x).toNat
        = 512 * spW C7 0 (4 * k.val) (16 * 6 + (x 0).val) + 64 * spW C7 0 (4 * k.val + 1) (16 * 6 + (x 0).val)
          + 8 * spW C7 0 (4 * k.val + 2) (16 * 6 + (x 0).val) + spW C7 0 (4 * k.val + 3) (16 * 6 + (x 0).val)
      ∧ (idx2_6 (F := F) C7 k x).toNat < 4096 := by
  have hk := trip2_lt k
  have hx : (x 0).val < 16 := (x 0).isLt
  have e0 : (k0_pay18 (row2_6_0 (F := F) C7 k) x).toNat = spW C7 0 (4 * k.val) (16 * 6 + (x 0).val) := row2_6_0_lane (F := F) C7 k x
  have e1 : (k0_pay19 (row2_6_1 (F := F) C7 k) x).toNat = spW C7 0 (4 * k.val + 1) (16 * 6 + (x 0).val) := row2_6_1_lane (F := F) C7 k x
  have e2 : (k0_pay20 (row2_6_2 (F := F) C7 k) x).toNat = spW C7 0 (4 * k.val + 2) (16 * 6 + (x 0).val) := row2_6_2_lane (F := F) C7 k x
  have e3 : ((shapeCast S16 (row2_6_3 (F := F) C7 k) shapeCasts_S1x1x16_S16 : IVec S16 32) x).toNat = spW C7 0 (4 * k.val + 3) (16 * 6 + (x 0).val) := row2_6_3_lane (F := F) C7 k x
  have b0 : spW C7 0 (4 * k.val) (16 * 6 + (x 0).val) < 8 := hlt _ _ (by omega) (by omega)
  have b1 : spW C7 0 (4 * k.val + 1) (16 * 6 + (x 0).val) < 8 := hlt _ _ (by omega) (by omega)
  have b2 : spW C7 0 (4 * k.val + 2) (16 * 6 + (x 0).val) < 8 := hlt _ _ (by omega) (by omega)
  have b3 : spW C7 0 (4 * k.val + 3) (16 * 6 + (x 0).val) < 8 := hlt _ _ (by omega) (by omega)
  obtain ⟨e, l⟩ := Cert.Proof.WordsKB.k0_pay21_lane (F := F) (k0_pay18 (row2_6_0 C7 k)) (k0_pay19 (row2_6_1 C7 k)) (k0_pay20 (row2_6_2 C7 k)) (row2_6_3 C7 k) x
    (e0.trans_lt b0) (e1.trans_lt b1) (e2.trans_lt b2) (e3.trans_lt b3)
  exact ⟨e.trans (by rw [e0, e1, e2, e3]), l⟩

/-- The gather's side condition holds. -/
theorem chk2_6 (C7 : S4x200x128.Idx → BitVec 32) (hlt : SlabLt C7 0) (k : Fin k0_t2_loop.trips) :
    k0_chk11 (idx2_6 (F := F) C7 k) :=
  Cert.Proof.WordsKB.k0_chk11_of_lt _ fun x => (idx2_6_lane C7 hlt k x).2

/-- Group 7's sixteen index words at trip k. -/
abbrev idx2_7 (C7 : S4x200x128.Idx → BitVec 32) (k : Fin k0_t2_loop.trips) : IVec S16 32 :=
  k0_pay23 (F := F) (row2_7_0 C7 k) (row2_7_1 C7 k) (row2_7_2 C7 k) (row2_7_3 C7 k)

theorem idx2_7_lane (C7 : S4x200x128.Idx → BitVec 32) (hlt : SlabLt C7 0) (k : Fin k0_t2_loop.trips) (x : S16.Idx) :
    (idx2_7 (F := F) C7 k x).toNat
        = 512 * spW C7 0 (4 * k.val) (16 * 7 + (x 0).val) + 64 * spW C7 0 (4 * k.val + 1) (16 * 7 + (x 0).val)
          + 8 * spW C7 0 (4 * k.val + 2) (16 * 7 + (x 0).val) + spW C7 0 (4 * k.val + 3) (16 * 7 + (x 0).val)
      ∧ (idx2_7 (F := F) C7 k x).toNat < 4096 := by
  have hk := trip2_lt k
  have hx : (x 0).val < 16 := (x 0).isLt
  have e0 : ((shapeCast S16 (row2_7_0 (F := F) C7 k) shapeCasts_S1x1x16_S16 : IVec S16 32) x).toNat = spW C7 0 (4 * k.val) (16 * 7 + (x 0).val) := row2_7_0_lane (F := F) C7 k x
  have e1 : ((shapeCast S16 (row2_7_1 (F := F) C7 k) shapeCasts_S1x1x16_S16 : IVec S16 32) x).toNat = spW C7 0 (4 * k.val + 1) (16 * 7 + (x 0).val) := row2_7_1_lane (F := F) C7 k x
  have e2 : ((shapeCast S16 (row2_7_2 (F := F) C7 k) shapeCasts_S1x1x16_S16 : IVec S16 32) x).toNat = spW C7 0 (4 * k.val + 2) (16 * 7 + (x 0).val) := row2_7_2_lane (F := F) C7 k x
  have e3 : ((shapeCast S16 (row2_7_3 (F := F) C7 k) shapeCasts_S1x1x16_S16 : IVec S16 32) x).toNat = spW C7 0 (4 * k.val + 3) (16 * 7 + (x 0).val) := row2_7_3_lane (F := F) C7 k x
  have b0 : spW C7 0 (4 * k.val) (16 * 7 + (x 0).val) < 8 := hlt _ _ (by omega) (by omega)
  have b1 : spW C7 0 (4 * k.val + 1) (16 * 7 + (x 0).val) < 8 := hlt _ _ (by omega) (by omega)
  have b2 : spW C7 0 (4 * k.val + 2) (16 * 7 + (x 0).val) < 8 := hlt _ _ (by omega) (by omega)
  have b3 : spW C7 0 (4 * k.val + 3) (16 * 7 + (x 0).val) < 8 := hlt _ _ (by omega) (by omega)
  obtain ⟨e, l⟩ := Cert.Proof.WordsKB.k0_pay23_lane (F := F) (row2_7_0 C7 k) (row2_7_1 C7 k) (row2_7_2 C7 k) (row2_7_3 C7 k) x
    (e0.trans_lt b0) (e1.trans_lt b1) (e2.trans_lt b2) (e3.trans_lt b3)
  exact ⟨e.trans (by rw [e0, e1, e2, e3]), l⟩

/-- The gather's side condition holds. -/
theorem chk2_7 (C7 : S4x200x128.Idx → BitVec 32) (hlt : SlabLt C7 0) (k : Fin k0_t2_loop.trips) :
    k0_chk12 (idx2_7 (F := F) C7 k) :=
  Cert.Proof.WordsKB.k0_chk12_of_lt _ fun x => (idx2_7_lane C7 hlt k x).2

/-! ## A trip, and the start -/

/-- One trip takes the eight accumulators from k quads to k + 1. -/
theorem trip2 (C10 : S16.Idx → F .f32) (C11 : S4096.Idx → F .f32) (C7 : S4x200x128.Idx → BitVec 32)
    (hT : TabOK C10 256 C11) (hlt : SlabLt C7 0) (k : Fin k0_t2_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx2_0 (F := F) C7 k] : Fin 1 → IVec S16 32) a x).toNat < S4096.size a)
    (h1 : ∀ a x, ((![idx2_1 (F := F) C7 k] : Fin 1 → IVec S16 32) a x).toNat < S4096.size a)
    (h2 : ∀ a x, ((![idx2_2 (F := F) C7 k] : Fin 1 → IVec S16 32) a x).toNat < S4096.size a)
    (h3 : ∀ a x, ((![idx2_3 (F := F) C7 k] : Fin 1 → IVec S16 32) a x).toNat < S4096.size a)
    (h4 : ∀ a x, ((![idx2_4 (F := F) C7 k] : Fin 1 → IVec S16 32) a x).toNat < S4096.size a)
    (h5 : ∀ a x, ((![idx2_5 (F := F) C7 k] : Fin 1 → IVec S16 32) a x).toNat < S4096.size a)
    (h6 : ∀ a x, ((![idx2_6 (F := F) C7 k] : Fin 1 → IVec S16 32) a x).toNat < S4096.size a)
    (h7 : ∀ a x, ((![idx2_7 (F := F) C7 k] : Fin 1 → IVec S16 32) a x).toNat < S4096.size a)
    (hacc : AccOK C10 C7 0 k.val accs) :
    AccOK C10 C7 0 (k.val + 1)
      (k0_pay2 accs.1 (tabGather C11 (idx2_0 C7 k) h0),
        k0_pay5 accs.2.1 (tabGather C11 (idx2_1 C7 k) h1),
        k0_pay10 accs.2.2.1 (tabGather C11 (idx2_2 C7 k) h2),
        k0_pay12 accs.2.2.2.1 (tabGather C11 (idx2_3 C7 k) h3),
        k0_pay14 accs.2.2.2.2.1 (tabGather C11 (idx2_4 C7 k) h4),
        k0_pay17 accs.2.2.2.2.2.1 (tabGather C11 (idx2_5 C7 k) h5),
        k0_pay22 accs.2.2.2.2.2.2.1 (tabGather C11 (idx2_6 C7 k) h6),
        k0_pay104 accs.2.2.2.2.2.2.2 (tabGather C11 (idx2_7 C7 k) h7)) := by
  unfold AccOK at hacc ⊢
  obtain ⟨a0, a1, a2, a3, a4, a5, a6, a7⟩ := hacc
  exact ⟨lane_step C10 C11 C7 hT 0 0 k.val _ a0 (idx2_0 C7 k) h0 (fun x => (idx2_0_lane C7 hlt k x).1),
    lane_step C10 C11 C7 hT 0 1 k.val _ a1 (idx2_1 C7 k) h1 (fun x => (idx2_1_lane C7 hlt k x).1),
    lane_step C10 C11 C7 hT 0 2 k.val _ a2 (idx2_2 C7 k) h2 (fun x => (idx2_2_lane C7 hlt k x).1),
    lane_step C10 C11 C7 hT 0 3 k.val _ a3 (idx2_3 C7 k) h3 (fun x => (idx2_3_lane C7 hlt k x).1),
    lane_step C10 C11 C7 hT 0 4 k.val _ a4 (idx2_4 C7 k) h4 (fun x => (idx2_4_lane C7 hlt k x).1),
    lane_step C10 C11 C7 hT 0 5 k.val _ a5 (idx2_5 C7 k) h5 (fun x => (idx2_5_lane C7 hlt k x).1),
    lane_step C10 C11 C7 hT 0 6 k.val _ a6 (idx2_6 C7 k) h6 (fun x => (idx2_6_lane C7 hlt k x).1),
    lane_step C10 C11 C7 hT 0 7 k.val _ a7 (idx2_7 C7 k) h7 (fun x => (idx2_7_lane C7 hlt k x).1)⟩

/-- The loop starts with every accumulator at zero: no quad added yet. -/
theorem init2 (C10 : S16.Idx → F .f32) (C7 : S4x200x128.Idx → BitVec 32) :
    AccOK C10 C7 0 0
      (k0_pay96 (F := F), k0_pay97 (F := F), k0_pay98 (F := F), k0_pay99 (F := F), k0_pay100 (F := F), k0_pay101 (F := F), k0_pay102 (F := F), k0_pay103 (F := F)) := by
  unfold AccOK
  exact ⟨fun _ => rfl, fun _ => rfl, fun _ => rfl, fun _ => rfl, fun _ => rfl, fun _ => rfl, fun _ => rfl, fun _ => rfl⟩

end Cert.Proof.KB

end
-- ==== Proof.LoopT3KB.lean ====
/-
  Loop 3 of the tile's body — panel 1 of the species scratch, fifty trips — lane by lane.

  Trip k reads, for each group j < 8 of sixteen molecule columns 16 j .. 16 j + 15 of panel 1, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLaneKB
import proofs.«206988_g4337916970008_retrytranche1_694_23_alg».proof.Proof.WordsQKB

noncomputable section

namespace Cert.Proof.KB

open Cert.Kernel Cert.Kernel.Gen
open Idealize.ShloMosaic
open Idealize.SL.Sem

variable {F : FTy → Type} [FloatOps F]

/-- The loop has at most fifty trips. -/
theorem trip3_lt (k : Fin k0_t3_loop.trips) : k.val < 50 := Nat.lt_of_lt_of_le k.isLt k0_t3_abs.2.1

/-! ## The rows a trip loads -/

/-- Group 0: the rows of atoms 4k .. 4k+3 at columns 0 .. 15. -/
abbrev row3_0_0 (C7 : S4x200x128.Idx → BitVec 32) (k : Fin k0_t3_loop.trips) : Vec F S1x1x16 .i32 :=
  rowLd C7 (k0_off21 k) (k0_off21_inb k)
abbrev row3_0_1 (C7 : S4x200x128.Idx → BitVec 32) (k : Fin k0_t3_loop.trips) : Vec F S1x1x16 .i32 :=
  rowLd C7 (k0_off22 k 1#32) (k0_off22_inb k 0)
abbrev row3_0_2 (C7 : S4x200x128.Idx → BitVec 32) (k : Fin k0_t3_loop.trips) : Vec F S1x1x16 .i32 :=
  rowLd C7 (k0_off22 k 2#32) (k0_off22_inb k 1)
abbrev row3_0_3 (C7 : S4x200x128.Idx → BitVec 32) (k : Fin k0_t3_loop.trips) : Vec F S1x1x16 .i32 :=
  rowLd C7 (k0_off22 k 3#32) (k0_off22_inb k 2)

theorem row3_0_0_lane (C7 : S4x200x128.Idx → BitVec 32) (k : Fin k0_t3_loop.trips) (x : S16.Idx) :
    ((shapeCast S16 (row3_0_0 (F := F) C7 k) shapeCasts_S1x1x16_S16 : IVec S16 32) x).toNat
      = spW C7 1 (4 * k.val) (16 * 0 + (x 0).val) :=
  rowLd_lane C7 _ _ 1 (4 * k.val) (4 * k.val) (16 * 0) (Gen.k0_off21_eq k) rfl (by decide)
    (by have := trip3_lt k; omega) (by decide) x
theorem row3_0_1_lane (C7 : S4x200x128.Idx → BitVec 32) (k : Fin k0_t3_loop.trips) (x : S16.Idx) :
    ((shapeCast S16 (row3_0_1 (F := F) C7 k) shapeCasts_S1x1x16_S16 : IVec S16 32) x).toNat
      = spW C7 1 (4 * k.val + 1) (16 * 0 + (x 0).val) :=
  rowLd_lane C7 _ _ 1 (4 * k.val + 0 + 1) (4 * k.val + 1) (16 * 0) (Gen.k0_off22_eq k ⟨0, by decide⟩)
    (by omega) (by decide) (by have := trip3_lt k; omega) (by decide) x
theorem row3_0_2_lane (C7 : S4x200x128.Idx → BitVec 32) (k : Fin k0_t3_loop.trips) (x : S16.Idx) :
    ((shapeCast S16 (row3_0_2 (F := F) C7 k) shapeCasts_S1x1x16_S16 : IVec S16 32) x).toNat
      = spW C7 1 (4 * k.val + 2) (16 * 0 + (x 0).val) :=
  rowLd_lane C7 _ _ 1 (4 * k.val + 1 + 1) (4 * k.val + 2) (16 * 0) (Gen.k0_off22_eq k ⟨1, by decide⟩)
    (by omega) (by decide) (by have := trip3_lt k; omega) (by decide) x
theorem row3_0_3_lane (C7 : S4x200x128.Idx → BitVec 32) (k : Fin k0_t3_loop.trips) (x : S16.Idx) :
    ((shapeCast S16 (row3_0_3 (F := F) C7 k) shapeCasts_S1x1x16_S16 : IVec S16 32) x).toNat
      = spW C7 1 (4 * k.val + 3) (16 * 0 + (x 0).val) :=
  rowLd_lane C7 _ _ 1 (4 * k.val + 2 + 1) (4 * k.val + 3) (16 * 0) (Gen.k0_off22_eq k ⟨2, by decide⟩)
    (by omega) (by decide) (by have := trip3_lt k; omega) (by decide) x

/-- Group 1: the rows of atoms 4k .. 4k+3 at columns 16 .. 31. -/
abbrev row3_1_0 (C7 : S4x200x128.Idx → BitVec 32) (k : Fin k0_t3_loop.trips) : Vec F S1x1x16 .i32 :=
  rowLd C7 (k0_off23 k) (k0_off23_inb k)
abbrev row3_1_1 (C7 : S4x200x128.Idx → BitVec 32) (k : Fin k0_t3_loop.trips) : Vec F S1x1x16 .i32 :=
  rowLd C7 (k0_off24 k 1#32) (k0_off24_inb k 0)
abbrev row3_1_2 (C7 : S4x200x128.Idx → BitVec 32) (k : Fin k0_t3_loop.trips) : Vec F S1x1x16 .i32 :=
  rowLd C7 (k0_off24 k 2#32) (k0_off24_inb k 1)
abbrev row3_1_3 (C7 : S4x200x128.Idx → BitVec 32) (k : Fin k0_t3_loop.trips) : Vec F S1x1x16 .i32 :=
  rowLd C7 (k0_off24 k 3#32) (k0_off24_inb k 2)

theorem row3_1_0_lane (C7 : S4x200x128.Idx → BitVec 32) (k : Fin k0_t3_loop.trips) (x : S16.Idx) :
    ((shapeCast S16 (row3_1_0 (F := F) C7 k) shapeCasts_S1x1x16_S16 : IVec S16 32) x).toNat
      = spW C7 1 (4 * k.val) (16 * 1 + (x 0).val) :=
  rowLd_lane C7 _ _ 1 (4 * k.val) (4 * k.val) (16 * 1) (Gen.k0_off23_eq k) rfl (by decide)
    (by have := trip3_lt k; omega) (by decide) x
theorem row3_1_1_lane (C7 : S4x200x128.Idx → BitVec 32) (k : Fin k0_t3_loop.trips) (x : S16.Idx) :
    ((shapeCast S16 (row3_1_1 (F := F) C7 k) shapeCasts_S1x1x16_S16 : IVec S16 32) x).toNat
      = spW C7 1 (4 * k.val + 1) (16 * 1 + (x 0).val) :=
  rowLd_lane C7 _ _ 1 (4 * k.val + 0 + 1) (4 * k.val + 1) (16 * 1) (Gen.k0_off24_eq k ⟨0, by decide⟩)
    (by omega) (by decide) (by have := trip3_lt k; omega) (by decide) x
theorem row3_1_2_lane (C7 : S4x200x128.Idx → BitVec 32) (k : Fin k0_t3_loop.trips) (x : S16.Idx) :
    ((shapeCast S16 (row3_1_2 (F := F) C7 k) shapeCasts_S1x1x16_S16 : IVec S16 32) x).toNat
      = spW C7 1 (4 * k.val + 2) (16 * 1 + (x 0).val) :=
  rowLd_lane C7 _ _ 1 (4 * k.val + 1 + 1) (4 * k.val + 2) (16 * 1) (Gen.k0_off24_eq k ⟨1, by decide⟩)
    (by omega) (by decide) (by have := trip3_lt k; omega) (by decide) x
theorem row3_1_3_lane (C7 : S4x200x128.Idx → BitVec 32) (k : Fin k0_t3_loop.trips) (x : S16.Idx) :
    ((shapeCast S16 (row3_1_3 (F := F) C7 k) shapeCasts_S1x1x16_S16 : IVec S16 32) x).toNat
      = spW C7 1 (4 * k.val + 3) (16 * 1 + (x 0).val) :=
  rowLd_lane C7 _ _ 1 (4 * k.val + 2 + 1) (4 * k.val + 3) (16 * 1) (Gen.k0_off24_eq k ⟨2, by decide⟩)
    (by omega) (by decide) (by have := trip3_lt k; omega) (by decide) x

/-- Group 2: the rows of atoms 4k .. 4k+3 at columns 32 .. 47. -/
abbrev row3_2_0 (C7 : S4x200x128.Idx → BitVec 32) (k : Fin k0_t3_loop.trips) : Vec F S1x1x16 .i32 :=
  rowLd C7 (k0_off25 k) (k0_off25_inb k)
abbrev row3_2_1 (C7 : S4x200x128.Idx → BitVec 32) (k : Fin k0_t3_loop.trips) : Vec F S1x1x16 .i32 :=
  rowLd C7 (k0_off26 k 1#32) (k0_off26_inb k 0)
abbrev row3_2_2 (C7 : S4x200x128.Idx → BitVec 32) (k : Fin k0_t3_loop.trips) : Vec F S1x1x16 .i32 :=
  rowLd C7 (k0_off26 k 2#32) (k0_off26_inb k 1)
abbrev row3_2_3 (C7 : S4x200x128.Idx → BitVec 32) (k : Fin k0_t3_loop.trips) : Vec F S1x1x16 .i32 :=
  rowLd C7 (k0_off26 k 3#32) (k0_off26_inb k 2)

theorem row3_2_0_lane (C7 : S4x200x128.Idx → BitVec 32) (k : Fin k0_t3_loop.trips) (x : S16.Idx) :
    ((shapeCast S16 (row3_2_0 (F := F) C7 k) shapeCasts_S1x1x16_S16 : IVec S16 32) x).toNat
      = spW C7 1 (4 * k.val) (16 * 2 + (x 0).val) :=
  rowLd_lane C7 _ _ 1 (4 * k.val) (4 * k.val) (16 * 2) (Gen.k0_off25_eq k) rfl (by decide)
    (by have := trip3_lt k; omega) (by decide) x
theorem row3_2_1_lane (C7 : S4x200x128.Idx → BitVec 32) (k : Fin k0_t3_loop.trips) (x : S16.Idx) :
    ((shapeCast S16 (row3_2_1 (F := F) C7 k) shapeCasts_S1x1x16_S16 : IVec S16 32) x).toNat
      = spW C7 1 (4 * k.val + 1) (16 * 2 + (x 0).val) :=
  rowLd_lane C7 _ _ 1 (4 * k.val + 0 + 1) (4 * k.val + 1) (16 * 2) (Gen.k0_off26_eq k ⟨0, by decide⟩)
    (by omega) (by decide) (by have := trip3_lt k; omega) (by decide) x
theorem row3_2_2_lane (C7 : S4x200x128.Idx → BitVec 32) (k : Fin k0_t3_loop.trips) (x : S16.Idx) :
    ((shapeCast S16 (row3_2_2 (F := F) C7 k) shapeCasts_S1x1x16_S16 : IVec S16 32) x).toNat
      = spW C7 1 (4 * k.val + 2) (16 * 2 + (x 0).val) :=
  rowLd_lane C7 _ _ 1 (4 * k.val + 1 + 1) (4 * k.val + 2) (16 * 2) (Gen.k0_off26_eq k ⟨1, by decide⟩)
    (by omega) (by decide) (by have := trip3_lt k; omega) (by decide) x
theorem row3_2_3_lane (C7 : S4x200x128.Idx → BitVec 32) (k : Fin k0_t3_loop.trips) (x : S16.Idx) :
    ((shapeCast S16 (row3_2_3 (F := F) C7 k) shapeCasts_S1x1x16_S16 : IVec S16 32) x).toNat
      = spW C7 1 (4 * k.val + 3) (16 * 2 + (x 0).val) :=
  rowLd_lane C7 _ _ 1 (4 * k.val + 2 + 1) (4 * k.val + 3) (16 * 2) (Gen.k0_off26_eq k ⟨2, by decide⟩)
    (by omega) (by decide) (by have := trip3_lt k; omega) (by decide) x

/-- Group 3: the rows of atoms 4k .. 4k+3 at columns 48 .. 63. -/
abbrev row3_3_0 (C7 : S4x200x128.Idx → BitVec 32) (k : Fin k0_t3_loop.trips) : Vec F S1x1x16 .i32 :=
  rowLd C7 (k0_off27 k) (k0_off27_inb k)
abbrev row3_3_1 (C7 : S4x200x128.Idx → BitVec 32) (k : Fin k0_t3_loop.trips) : Vec F S1x1x16 .i32 :=
  rowLd C7 (k0_off28 k 1#32) (k0_off28_inb k 0)
abbrev row3_3_2 (C7 : S4x200x128.Idx → BitVec 32) (k : Fin k0_t3_loop.trips) : Vec F S1x1x16 .i32 :=
  rowLd C7 (k0_off28 k 2#32) (k0_off28_inb k 1)
abbrev row3_3_3 (C7 : S4x200x128.Idx → BitVec 32) (k : Fin k0_t3_loop.trips) : Vec F S1x1x16 .i32 :=
  rowLd C7 (k0_off28 k 3#32) (k0_off28_inb k 2)

theorem row3_3_0_lane (C7 : S4x200x128.Idx → BitVec 32) (k : Fin k0_t3_loop.trips) (x : S16.Idx) :
    ((shapeCast S16 (row3_3_0 (F := F) C7 k) shapeCasts_S1x1x16_S16 : IVec S16 32) x).toNat
      = spW C7 1 (4 * k.val) (16 * 3 + (x 0).val) :=
  rowLd_lane C7 _ _ 1 (4 * k.val) (4 * k.val) (16 * 3) (Gen.k0_off27_eq k) rfl (by decide)
    (by have := trip3_lt k; omega) (by decide) x
theorem row3_3_1_lane (C7 : S4x200x128.Idx → BitVec 32) (k : Fin k0_t3_loop.trips) (x : S16.Idx) :
    ((shapeCast S16 (row3_3_1 (F := F) C7 k) shapeCasts_S1x1x16_S16 : IVec S16 32) x).toNat
      = spW C7 1 (4 * k.val + 1) (16 * 3 + (x 0).val) :=
  rowLd_lane C7 _ _ 1 (4 * k.val + 0 + 1) (4 * k.val + 1) (16 * 3) (Gen.k0_off28_eq k ⟨0, by decide⟩)
    (by omega) (by decide) (by have := trip3_lt k; omega) (by decide) x
theorem row3_3_2_lane (C7 : S4x200x128.Idx → BitVec 32) (k : Fin k0_t3_loop.trips) (x : S16.Idx) :
    ((shapeCast S16 (row3_3_2 (F := F) C7 k) shapeCasts_S1x1x16_S16 : IVec S16 32) x).toNat
      = spW C7 1 (4 * k.val + 2) (16 * 3 + (x 0).val) :=
  rowLd_lane C7 _ _ 1 (4 * k.val + 1 + 1) (4 * k.val + 2) (16 * 3) (Gen.k0_off28_eq k ⟨1, by decide⟩)
    (by omega) (by decide) (by have := trip3_lt k; omega) (by decide) x
theorem row3_3_3_lane (C7 : S4x200x128.Idx → BitVec 32) (k : Fin k0_t3_loop.trips) (x : S16.Idx) :
    ((shapeCast S16 (row3_3_3 (F := F) C7 k) shapeCasts_S1x1x16_S16 : IVec S16 32) x).toNat
      = spW C7 1 (4 * k.val + 3) (16 * 3 + (x 0).val) :=
  rowLd_lane C7 _ _ 1 (4 * k.val + 2 + 1) (4 * k.val + 3) (16 * 3) (Gen.k0_off28_eq k ⟨2, by decide⟩)
    (by omega) (by decide) (by have := trip3_lt k; omega) (by decide) x

/-- Group 4: the rows of atoms 4k .. 4k+3 at columns 64 .. 79. -/
abbrev row3_4_0 (C7 : S4x200x128.Idx → BitVec 32) (k : Fin k0_t3_loop.trips) : Vec F S1x1x16 .i32 :=
  rowLd C7 (k0_off29 k) (k0_off29_inb k)
abbrev row3_4_1 (C7 : S4x200x128.Idx → BitVec 32) (k : Fin k0_t3_loop.trips) : Vec F S1x1x16 .i32 :=
  rowLd C7 (k0_off30 k 1#32) (k0_off30_inb k 0)
abbrev row3_4_2 (C7 : S4x200x128.Idx → BitVec 32) (k : Fin k0_t3_loop.trips) : Vec F S1x1x16 .i32 :=
  rowLd C7 (k0_off30 k 2#32) (k0_off30_inb k 1)
abbrev row3_4_3 (C7 : S4x200x128.Idx → BitVec 32) (k : Fin k0_t3_loop.trips) : Vec F S1x1x16 .i32 :=
  rowLd C7 (k0_off30 k 3#32) (k0_off30_inb k 2)

theorem row3_4_0_lane (C7 : S4x200x128.Idx → BitVec 32) (k : Fin k0_t3_loop.trips) (x : S16.Idx) :
    ((shapeCast S16 (row3_4_0 (F := F) C7 k) shapeCasts_S1x1x16_S16 : IVec S16 32) x).toNat
      = spW C7 1 (4 * k.val) (16 * 4 + (x 0).val) :=
  rowLd_lane C7 _ _ 1 (4 * k.val) (4 * k.val) (16 * 4) (Gen.k0_off29_eq k) rfl (by decide)
    (by have := trip3_lt k; omega) (by decide) x
theorem row3_4_1_lane (C7 : S4x200x128.Idx → BitVec 32) (k : Fin k0_t3_loop.trips) (x : S16.Idx) :
    ((shapeCast S16 (row3_4_1 (F := F) C7 k) shapeCasts_S1x1x16_S16 : IVec S16 32) x).toNat
      = spW C7 1 (4 * k.val + 1) (16 * 4 + (x 0).val) :=
  rowLd_lane C7 _ _ 1 (4 * k.val + 0 + 1) (4 * k.val + 1) (16 * 4) (Gen.k0_off30_eq k ⟨0, by decide⟩)
    (by omega) (by decide) (by have := trip3_lt k; omega) (by decide) x
theorem row3_4_2_lane (C7 : S4x200x128.Idx → BitVec 32) (k : Fin k0_t3_loop.trips) (x : S16.Idx) :
    ((shapeCast S16 (row3_4_2 (F := F) C7 k) shapeCasts_S1x1x16_S16 : IVec S16 32) x).toNat
      = spW C7 1 (4 * k.val + 2) (16 * 4 + (x 0).val) :=
  rowLd_lane C7 _ _ 1 (4 * k.val + 1 + 1) (4 * k.val + 2) (16 * 4) (Gen.k0_off30_eq k ⟨1, by decide⟩)
    (by omega) (by decide) (by have := trip3_lt k; omega) (by decide) x
theorem row3_4_3_lane (C7 : S4x200x128.Idx → BitVec 32) (k : Fin k0_t3_loop.trips) (x : S16.Idx) :
    ((shapeCast S16 (row3_4_3 (F := F) C7 k) shapeCasts_S1x1x16_S16 : IVec S16 32) x).toNat
      = spW C7 1 (4 * k.val + 3) (16 * 4 + (x 0).val) :=
  rowLd_lane C7 _ _ 1 (4 * k.val + 2 + 1) (4 * k.val + 3) (16 * 4) (Gen.k0_off30_eq k ⟨2, by decide⟩)
    (by omega) (by decide) (by have := trip3_lt k; omega) (by decide) x

/-- Group 5: the rows of atoms 4k .. 4k+3 at columns 80 .. 95. -/
abbrev row3_5_0 (C7 : S4x200x128.Idx → BitVec 32) (k : Fin k0_t3_loop.trips) : Vec F S1x1x16 .i32 :=
  rowLd C7 (k0_off31 k) (k0_off31_inb k)
abbrev row3_5_1 (C7 : S4x200x128.Idx → BitVec 32) (k : Fin k0_t3_loop.trips) : Vec F S1x1x16 .i32 :=
  rowLd C7 (k0_off32 k 1#32) (k0_off32_inb k 0)
abbrev row3_5_2 (C7 : S4x200x128.Idx → BitVec 32) (k : Fin k0_t3_loop.trips) : Vec F S1x1x16 .i32 :=
  rowLd C7 (k0_off32 k 2#32) (k0_off32_inb k 1)
abbrev row3_5_3 (C7 : S4x200x128.Idx → BitVec 32) (k : Fin k0_t3_loop.trips) : Vec F S1x1x16 .i32 :=
  rowLd C7 (k0_off32 k 3#32) (k0_off32_inb k 2)

theorem row3_5_0_lane (C7 : S4x200x128.Idx → BitVec 32) (k : Fin k0_t3_loop.trips) (x : S16.Idx) :
    ((shapeCast S16 (row3_5_0 (F := F) C7 k) shapeCasts_S1x1x16_S16 : IVec S16 32) x).toNat
      = spW C7 1 (4 * k.val) (16 * 5 + (x 0).val) :=
  rowLd_lane C7 _ _ 1 (4 * k.val) (4 * k.val) (16 * 5) (Gen.k0_off31_eq k) rfl (by decide)
    (by have := trip3_lt k; omega) (by decide) x
theorem row3_5_1_lane (C7 : S4x200x128.Idx → BitVec 32) (k : Fin k0_t3_loop.trips) (x : S16.Idx) :
    ((shapeCast S16 (row3_5_1 (F := F) C7 k) shapeCasts_S1x1x16_S16 : IVec S16 32) x).toNat
      = spW C7 1 (4 * k.val + 1) (16 * 5 + (x 0).val) :=
  rowLd_lane C7 _ _ 1 (4 * k.val + 0 + 1) (4 * k.val + 1) (16 * 5) (Gen.k0_off32_eq k ⟨0, by decide⟩)
    (by omega) (by decide) (by have := trip3_lt k; omega) (by decide) x
theorem row3_5_2_lane (C7 : S4x200x128.Idx → BitVec 32) (k : Fin k0_t3_loop.trips) (x : S16.Idx) :
    ((shapeCast S16 (row3_5_2 (F := F) C7 k) shapeCasts_S1x1x16_S16 : IVec S16 32) x).toNat
      = spW C7 1 (4 * k.val + 2) (16 * 5 + (x 0).val) :=
  rowLd_lane C7 _ _ 1 (4 * k.val + 1 + 1) (4 * k.val + 2) (16 * 5) (Gen.k0_off32_eq k ⟨1, by decide⟩)
    (by omega) (by decide) (by have := trip3_lt k; omega) (by decide) x
theorem row3_5_3_lane (C7 : S4x200x128.Idx → BitVec 32) (k : Fin k0_t3_loop.trips) (x : S16.Idx) :
    ((shapeCast S16 (row3_5_3 (F := F) C7 k) shapeCasts_S1x1x16_S16 : IVec S16 32) x).toNat
      = spW C7 1 (4 * k.val + 3) (16 * 5 + (x 0).val) :=
  rowLd_lane C7 _ _ 1 (4 * k.val + 2 + 1) (4 * k.val + 3) (16 * 5) (Gen.k0_off32_eq k ⟨2, by decide⟩)
    (by omega) (by decide) (by have := trip3_lt k; omega) (by decide) x

/-- Group 6: the rows of atoms 4k .. 4k+3 at columns 96 .. 111. -/
abbrev row3_6_0 (C7 : S4x200x128.Idx → BitVec 32) (k : Fin k0_t3_loop.trips) : Vec F S1x1x16 .i32 :=
  rowLd C7 (k0_off33 k) (k0_off33_inb k)
abbrev row3_6_1 (C7 : S4x200x128.Idx → BitVec 32) (k : Fin k0_t3_loop.trips) : Vec F S1x1x16 .i32 :=
  rowLd C7 (k0_off34 k 1#32) (k0_off34_inb k 0)
abbrev row3_6_2 (C7 : S4x200x128.Idx → BitVec 32) (k : Fin k0_t3_loop.trips) : Vec F S1x1x16 .i32 :=
  rowLd C7 (k0_off34 k 2#32) (k0_off34_inb k 1)
abbrev row3_6_3 (C7 : S4x200x128.Idx → BitVec 32) (k : Fin k0_t3_loop.trips) : Vec F S1x1x16 .i32 :=
  rowLd C7 (k0_off34 k 3#32) (k0_off34_inb k 2)

theorem row3_6_0_lane (C7 : S4x200x128.Idx → BitVec 32) (k : Fin k0_t3_loop.trips) (x : S16.Idx) :
    ((shapeCast S16 (row3_6_0 (F := F) C7 k) shapeCasts_S1x1x16_S16 : IVec S16 32) x).toNat
      = spW C7 1 (4 * k.val) (16 * 6 + (x 0).val) :=
  rowLd_lane C7 _ _ 1 (4 * k.val) (4 * k.val) (16 * 6) (Gen.k0_off33_eq k) rfl (by decide)
    (by have := trip3_lt k; omega) (by decide) x
theorem row3_6_1_lane (C7 : S4x200x128.Idx → BitVec 32) (k : Fin k0_t3_loop.trips) (x : S16.Idx) :
    ((shapeCast S16 (row3_6_1 (F := F) C7 k) shapeCasts_S1x1x16_S16 : IVec S16 32) x).toNat
      = spW C7 1 (4 * k.val + 1) (16 * 6 + (x 0).val) :=
  rowLd_lane C7 _ _ 1 (4 * k.val + 0 + 1) (4 * k.val + 1) (16 * 6) (Gen.k0_off34_eq k ⟨0, by decide⟩)
    (by omega) (by decide) (by have := trip3_lt k; omega) (by decide) x
theorem row3_6_2_lane (C7 : S4x200x128.Idx → BitVec 32) (k : Fin k0_t3_loop.trips) (x : S16.Idx) :
    ((shapeCast S16 (row3_6_2 (F := F) C7 k) shapeCasts_S1x1x16_S16 : IVec S16 32) x).toNat
      = spW C7 1 (4 * k.val + 2) (16 * 6 + (x 0).val) :=
  rowLd_lane C7 _ _ 1 (4 * k.val + 1 + 1) (4 * k.val + 2) (16 * 6) (Gen.k0_off34_eq k ⟨1, by decide⟩)
    (by omega) (by decide) (by have := trip3_lt k; omega) (by decide) x
theorem row3_6_3_lane (C7 : S4x200x128.Idx → BitVec 32) (k : Fin k0_t3_loop.trips) (x : S16.Idx) :
    ((shapeCast S16 (row3_6_3 (F := F) C7 k) shapeCasts_S1x1x16_S16 : IVec S16 32) x).toNat
      = spW C7 1 (4 * k.val + 3) (16 * 6 + (x 0).val) :=
  rowLd_lane C7 _ _ 1 (4 * k.val + 2 + 1) (4 * k.val + 3) (16 * 6) (Gen.k0_off34_eq k ⟨2, by decide⟩)
    (by omega) (by decide) (by have := trip3_lt k; omega) (by decide) x

/-- Group 7: the rows of atoms 4k .. 4k+3 at columns 112 .. 127. -/
abbrev row3_7_0 (C7 : S4x200x128.Idx → BitVec 32) (k : Fin k0_t3_loop.trips) : Vec F S1x1x16 .i32 :=
  rowLd C7 (k0_off35 k) (k0_off35_inb k)
abbrev row3_7_1 (C7 : S4x200x128.Idx → BitVec 32) (k : Fin k0_t3_loop.trips) : Vec F S1x1x16 .i32 :=
  rowLd C7 (k0_off36 k 1#32) (k0_off36_inb k 0)
abbrev row3_7_2 (C7 : S4x200x128.Idx → BitVec 32) (k : Fin k0_t3_loop.trips) : Vec F S1x1x16 .i32 :=
  rowLd C7 (k0_off36 k 2#32) (k0_off36_inb k 1)
abbrev row3_7_3 (C7 : S4x200x128.Idx → BitVec 32) (k : Fin k0_t3_loop.trips) : Vec F S1x1x16 .i32 :=
  rowLd C7 (k0_off36 k 3#32) (k0_off36_inb k 2)

theorem row3_7_0_lane (C7 : S4x200x128.Idx → BitVec 32) (k : Fin k0_t3_loop.trips) (x : S16.Idx) :
    ((shapeCast S16 (row3_7_0 (F := F) C7 k) shapeCasts_S1x1x16_S16 : IVec S16 32) x).toNat
      = spW C7 1 (4 * k.val) (16 * 7 + (x 0).val) :=
  rowLd_lane C7 _ _ 1 (4 * k.val) (4 * k.val) (16 * 7) (Gen.k0_off35_eq k) rfl (by decide)
    (by have := trip3_lt k; omega) (by decide) x
theorem row3_7_1_lane (C7 : S4x200x128.Idx → BitVec 32) (k : Fin k0_t3_loop.trips) (x : S16.Idx) :
    ((shapeCast S16 (row3_7_1 (F := F) C7 k) shapeCasts_S1x1x16_S16 : IVec S16 32) x).toNat
      = spW C7 1 (4 * k.val + 1) (16 * 7 + (x 0).val) :=
  rowLd_lane C7 _ _ 1 (4 * k.val + 0 + 1) (4 * k.val + 1) (16 * 7) (Gen.k0_off36_eq k ⟨0, by decide⟩)
    (by omega) (by decide) (by have := trip3_lt k; omega) (by decide) x
theorem row3_7_2_lane (C7 : S4x200x128.Idx → BitVec 32) (k : Fin k0_t3_loop.trips) (x : S16.Idx) :
    ((shapeCast S16 (row3_7_2 (F := F) C7 k) shapeCasts_S1x1x16_S16 : IVec S16 32) x).toNat
      = spW C7 1 (4 * k.val + 2) (16 * 7 + (x 0).val) :=
  rowLd_lane C7 _ _ 1 (4 * k.val + 1 + 1) (4 * k.val + 2) (16 * 7) (Gen.k0_off36_eq k ⟨1, by decide⟩)
    (by omega) (by decide) (by have := trip3_lt k; omega) (by decide) x
theorem row3_7_3_lane (C7 : S4x200x128.Idx → BitVec 32) (k : Fin k0_t3_loop.trips) (x : S16.Idx) :
    ((shapeCast S16 (row3_7_3 (F := F) C7 k) shapeCasts_S1x1x16_S16 : IVec S16 32) x).toNat
      = spW C7 1 (4 * k.val + 3) (16 * 7 + (x 0).val) :=
  rowLd_lane C7 _ _ 1 (4 * k.val + 2 + 1) (4 * k.val + 3) (16 * 7) (Gen.k0_off36_eq k ⟨2, by decide⟩)
    (by omega) (by decide) (by have := trip3_lt k; omega) (by decide) x

/-! ## The index words -/

/-- Group 0's sixteen index words at trip k. -/
abbrev idx3_0 (C7 : S4x200x128.Idx → BitVec 32) (k : Fin k0_t3_loop.trips) : IVec S16 32 :=
  k0_pay24 (F := F) (row3_0_0 C7 k) (row3_0_1 C7 k) (row3_0_2 C7 k) (row3_0_3 C7 k)

theorem idx3_0_lane (C7 : S4x200x128.Idx → BitVec 32) (hlt : SlabLt C7 1) (k : Fin k0_t3_loop.trips) (x : S16.Idx) :
    (idx3_0 (F := F) C7 k x).toNat
        = 512 * spW C7 1 (4 * k.val) (16 * 0 + (x 0).val) + 64 * spW C7 1 (4 * k.val + 1) (16 * 0 + (x 0).val)
          + 8 * spW C7 1 (4 * k.val + 2) (16 * 0 + (x 0).val) + spW C7 1 (4 * k.val + 3) (16 * 0 + (x 0).val)
      ∧ (idx3_0 (F := F) C7 k x).toNat < 4096 := by
  have hk := trip3_lt k
  have hx : (x 0).val < 16 := (x 0).isLt
  have e0 : ((shapeCast S16 (row3_0_0 (F := F) C7 k) shapeCasts_S1x1x16_S16 : IVec S16 32) x).toNat = spW C7 1 (4 * k.val) (16 * 0 + (x 0).val) := row3_0_0_lane (F := F) C7 k x
  have e1 : ((shapeCast S16 (row3_0_1 (F := F) C7 k) shapeCasts_S1x1x16_S16 : IVec S16 32) x).toNat = spW C7 1 (4 * k.val + 1) (16 * 0 + (x 0).val) := row3_0_1_lane (F := F) C7 k x
  have e2 : ((shapeCast S16 (row3_0_2 (F := F) C7 k) shapeCasts_S1x1x16_S16 : IVec S16 32) x).toNat = spW C7 1 (4 * k.val + 2) (16 * 0 + (x 0).val) := row3_0_2_lane (F := F) C7 k x
  have e3 : ((shapeCast S16 (row3_0_3 (F := F) C7 k) shapeCasts_S1x1x16_S16 : IVec S16 32) x).toNat = spW C7 1 (4 * k.val + 3) (16 * 0 + (x 0).val) := row3_0_3_lane (F := F) C7 k x
  have b0 : spW C7 1 (4 * k.val) (16 * 0 + (x 0).val) < 8 := hlt _ _ (by omega) (by omega)
  have b1 : spW C7 1 (4 * k.val + 1) (16 * 0 + (x 0).val) < 8 := hlt _ _ (by omega) (by omega)
  have b2 : spW C7 1 (4 * k.val + 2) (16 * 0 + (x 0).val) < 8 := hlt _ _ (by omega) (by omega)
  have b3 : spW C7 1 (4 * k.val + 3) (16 * 0 + (x 0).val) < 8 := hlt _ _ (by omega) (by omega)
  obtain ⟨e, l⟩ := Cert.Proof.WordsKB.k0_pay24_lane (F := F) (row3_0_0 C7 k) (row3_0_1 C7 k) (row3_0_2 C7 k) (row3_0_3 C7 k) x
    (e0.trans_lt b0) (e1.trans_lt b1) (e2.trans_lt b2) (e3.trans_lt b3)
  exact ⟨e.trans (by rw [e0, e1, e2, e3]), l⟩

/-- The gather's side condition holds. -/
theorem chk3_0 (C7 : S4x200x128.Idx → BitVec 32) (hlt : SlabLt C7 1) (k : Fin k0_t3_loop.trips) :
    k0_chk13 (idx3_0 (F := F) C7 k) :=
  Cert.Proof.WordsKB.k0_chk13_of_lt _ fun x => (idx3_0_lane C7 hlt k x).2

/-- Group 1's sixteen index words at trip k. -/
abbrev idx3_1 (C7 : S4x200x128.Idx → BitVec 32) (k : Fin k0_t3_loop.trips) : IVec S16 32 :=
  k0_pay27 (F := F) (k0_pay26 (row3_1_0 C7 k)) (row3_1_1 C7 k) (row3_1_2 C7 k) (row3_1_3 C7 k)

theorem idx3_1_lane (C7 : S4x200x128.Idx → BitVec 32) (hlt : SlabLt C7 1) (k : Fin k0_t3_loop.trips) (x : S16.Idx) :
    (idx3_1 (F := F) C7 k x).toNat
        = 512 * spW C7 1 (4 * k.val) (16 * 1 + (x 0).val) + 64 * spW C7 1 (4 * k.val + 1) (16 * 1 + (x 0).val)
          + 8 * spW C7 1 (4 * k.val + 2) (16 * 1 + (x 0).val) + spW C7 1 (4 * k.val + 3) (16 * 1 + (x 0).val)
      ∧ (idx3_1 (F := F) C7 k x).toNat < 4096 := by
  have hk := trip3_lt k
  have hx : (x 0).val < 16 := (x 0).isLt
  have e0 : (k0_pay26 (row3_1_0 (F := F) C7 k) x).toNat = spW C7 1 (4 * k.val) (16 * 1 + (x 0).val) := row3_1_0_lane (F := F) C7 k x
  have e1 : ((shapeCast S16 (row3_1_1 (F := F) C7 k) shapeCasts_S1x1x16_S16 : IVec S16 32) x).toNat = spW C7 1 (4 * k.val + 1) (16 * 1 + (x 0).val) := row3_1_1_lane (F := F) C7 k x
  have e2 : ((shapeCast S16 (row3_1_2 (F := F) C7 k) shapeCasts_S1x1x16_S16 : IVec S16 32) x).toNat = spW C7 1 (4 * k.val + 2) (16 * 1 + (x 0).val) := row3_1_2_lane (F := F) C7 k x
  have e3 : ((shapeCast S16 (row3_1_3 (F := F) C7 k) shapeCasts_S1x1x16_S16 : IVec S16 32) x).toNat = spW C7 1 (4 * k.val + 3) (16 * 1 + (x 0).val) := row3_1_3_lane (F := F) C7 k x
  have b0 : spW C7 1 (4 * k.val) (16 * 1 + (x 0).val) < 8 := hlt _ _ (by omega) (by omega)
  have b1 : spW C7 1 (4 * k.val + 1) (16 * 1 + (x 0).val) < 8 := hlt _ _ (by omega) (by omega)
  have b2 : spW C7 1 (4 * k.val + 2) (16 * 1 + (x 0).val) < 8 := hlt _ _ (by omega) (by omega)
  have b3 : spW C7 1 (4 * k.val + 3) (16 * 1 + (x 0).val) < 8 := hlt _ _ (by omega) (by omega)
  obtain ⟨e, l⟩ := Cert.Proof.WordsKB.k0_pay27_lane (F := F) (k0_pay26 (row3_1_0 C7 k)) (row3_1_1 C7 k) (row3_1_2 C7 k) (row3_1_3 C7 k) x
    (e0.trans_lt b0) (e1.trans_lt b1) (e2.trans_lt b2) (e3.trans_lt b3)
  exact ⟨e.trans (by rw [e0, e1, e2, e3]), l⟩

/-- The gather's side condition holds. -/
theorem chk3_1 (C7 : S4x200x128.Idx → BitVec 32) (hlt : SlabLt C7 1) (k : Fin k0_t3_loop.trips) :
    k0_chk14 (idx3_1 (F := F) C7 k) :=
  Cert.Proof.WordsKB.k0_chk14_of_lt _ fun x => (idx3_1_lane C7 hlt k x).2

/-- Group 2's sixteen index words at trip k. -/
abbrev idx3_2 (C7 : S4x200x128.Idx → BitVec 32) (k : Fin k0_t3_loop.trips) : IVec S16 32 :=
  k0_pay32 (F := F) (k0_pay29 (row3_2_0 C7 k)) (k0_pay30 (row3_2_1 C7 k)) (k0_pay31 (row3_2_2 C7 k)) (row3_2_3 C7 k)

theorem idx3_2_lane (C7 : S4x200x128.Idx → BitVec 32) (hlt : SlabLt C7 1) (k : Fin k0_t3_loop.trips) (x : S16.Idx) :
    (idx3_2 (F := F) C7 k x).toNat
        = 512 * spW C7 1 (4 * k.val) (16 * 2 + (x 0).val) + 64 * spW C7 1 (4 * k.val + 1) (16 * 2 + (x 0).val)
          + 8 * spW C7 1 (4 * k.val + 2) (16 * 2 + (x 0).val) + spW C7 1 (4 * k.val + 3) (16 * 2 + (x 0).val)
      ∧ (idx3_2 (F := F) C7 k x).toNat < 4096 := by
  have hk := trip3_lt k
  have hx : (x 0).val < 16 := (x 0).isLt
  have e0 : (k0_pay29 (row3_2_0 (F := F) C7 k) x).toNat = spW C7 1 (4 * k.val) (16 * 2 + (x 0).val) := row3_2_0_lane (F := F) C7 k x
  have e1 : (k0_pay30 (row3_2_1 (F := F) C7 k) x).toNat = spW C7 1 (4 * k.val + 1) (16 * 2 + (x 0).val) := row3_2_1_lane (F := F) C7 k x
  have e2 : (k0_pay31 (row3_2_2 (F := F) C7 k) x).toNat = spW C7 1 (4 * k.val + 2) (16 * 2 + (x 0).val) := row3_2_2_lane (F := F) C7 k x
  have e3 : ((shapeCast S16 (row3_2_3 (F := F) C7 k) shapeCasts_S1x1x16_S16 : IVec S16 32) x).toNat = spW C7 1 (4 * k.val + 3) (16 * 2 + (x 0).val) := row3_2_3_lane (F := F) C7 k x
  have b0 : spW C7 1 (4 * k.val) (16 * 2 + (x 0).val) < 8 := hlt _ _ (by omega) (by omega)
  have b1 : spW C7 1 (4 * k.val + 1) (16 * 2 + (x 0).val) < 8 := hlt _ _ (by omega) (by omega)
  have b2 : spW C7 1 (4 * k.val + 2) (16 * 2 + (x 0).val) < 8 := hlt _ _ (by omega) (by omega)
  have b3 : spW C7 1 (4 * k.val + 3) (16 * 2 + (x 0).val) < 8 := hlt _ _ (by omega) (by omega)
  obtain ⟨e, l⟩ := Cert.Proof.WordsKB.k0_pay32_lane (F := F) (k0_pay29 (row3_2_0 C7 k)) (k0_pay30 (row3_2_1 C7 k)) (k0_pay31 (row3_2_2 C7 k)) (row3_2_3 C7 k) x
    (e0.trans_lt b0) (e1.trans_lt b1) (e2.trans_lt b2) (e3.trans_lt b3)
  exact ⟨e.trans (by rw [e0, e1, e2, e3]), l⟩

/-- The gather's side condition holds. -/
theorem chk3_2 (C7 : S4x200x128.Idx → BitVec 32) (hlt : SlabLt C7 1) (k : Fin k0_t3_loop.trips) :
    k0_chk15 (idx3_2 (F := F) C7 k) :=
  Cert.Proof.WordsKB.k0_chk15_of_lt _ fun x => (idx3_2_lane C7 hlt k x).2

/-- Group 3's sixteen index words at trip k. -/
abbrev idx3_3 (C7 : S4x200x128.Idx → BitVec 32) (k : Fin k0_t3_loop.trips) : IVec S16 32 :=
  k0_pay34 (F := F) (row3_3_0 C7 k) (row3_3_1 C7 k) (row3_3_2 C7 k) (row3_3_3 C7 k)

theorem idx3_3_lane (C7 : S4x200x128.Idx → BitVec 32) (hlt : SlabLt C7 1) (k : Fin k0_t3_loop.trips) (x : S16.Idx) :
    (idx3_3 (F := F) C7 k x).toNat
        = 512 * spW C7 1 (4 * k.val) (16 * 3 + (x 0).val) + 64 * spW C7 1 (4 * k.val + 1) (16 * 3 + (x 0).val)
          + 8 * spW C7 1 (4 * k.val + 2) (16 * 3 + (x 0).val) + spW C7 1 (4 * k.val + 3) (16 * 3 + (x 0).val)
      ∧ (idx3_3 (F := F) C7 k x).toNat < 4096 := by
  have hk := trip3_lt k
  have hx : (x 0).val < 16 := (x 0).isLt
  have e0 : ((shapeCast S16 (row3_3_0 (F := F) C7 k) shapeCasts_S1x1x16_S16 : IVec S16 32) x).toNat = spW C7 1 (4 * k.val) (16 * 3 + (x 0).val) := row3_3_0_lane (F := F) C7 k x
  have e1 : ((shapeCast S16 (row3_3_1 (F := F) C7 k) shapeCasts_S1x1x16_S16 : IVec S16 32) x).toNat = spW C7 1 (4 * k.val + 1) (16 * 3 + (x 0).val) := row3_3_1_lane (F := F) C7 k x
  have e2 : ((shapeCast S16 (row3_3_2 (F := F) C7 k) shapeCasts_S1x1x16_S16 : IVec S16 32) x).toNat = spW C7 1 (4 * k.val + 2) (16 * 3 + (x 0).val) := row3_3_2_lane (F := F) C7 k x
  have e3 : ((shapeCast S16 (row3_3_3 (F := F) C7 k) shapeCasts_S1x1x16_S16 : IVec S16 32) x).toNat = spW C7 1 (4 * k.val + 3) (16 * 3 + (x 0).val) := row3_3_3_lane (F := F) C7 k x
  have b0 : spW C7 1 (4 * k.val) (16 * 3 + (x 0).val) < 8 := hlt _ _ (by omega) (by omega)
  have b1 : spW C7 1 (4 * k.val + 1) (16 * 3 + (x 0).val) < 8 := hlt _ _ (by omega) (by omega)
  have b2 : spW C7 1 (4 * k.val + 2) (16 * 3 + (x 0).val) < 8 := hlt _ _ (by omega) (by omega)
  have b3 : spW C7 1 (4 * k.val + 3) (16 * 3 + (x 0).val) < 8 := hlt _ _ (by omega) (by omega)
  obtain ⟨e, l⟩ := Cert.Proof.WordsKB.k0_pay34_lane (F := F) (row3_3_0 C7 k) (row3_3_1 C7 k) (row3_3_2 C7 k) (row3_3_3 C7 k) x
    (e0.trans_lt b0) (e1.trans_lt b1) (e2.trans_lt b2) (e3.trans_lt b3)
  exact ⟨e.trans (by rw [e0, e1, e2, e3]), l⟩

/-- The gather's side condition holds. -/
theorem chk3_3 (C7 : S4x200x128.Idx → BitVec 32) (hlt : SlabLt C7 1) (k : Fin k0_t3_loop.trips) :
    k0_chk16 (idx3_3 (F := F) C7 k) :=
  Cert.Proof.WordsKB.k0_chk16_of_lt _ fun x => (idx3_3_lane C7 hlt k x).2

/-- Group 4's sixteen index words at trip k. -/
abbrev idx3_4 (C7 : S4x200x128.Idx → BitVec 32) (k : Fin k0_t3_loop.trips) : IVec S16 32 :=
  k0_pay36 (F := F) (row3_4_0 C7 k) (row3_4_1 C7 k) (row3_4_2 C7 k) (row3_4_3 C7 k)

theorem idx3_4_lane (C7 : S4x200x128.Idx → BitVec 32) (hlt : SlabLt C7 1) (k : Fin k0_t3_loop.trips) (x : S16.Idx) :
    (idx3_4 (F := F) C7 k x).toNat
        = 512 * spW C7 1 (4 * k.val) (16 * 4 + (x 0).val) + 64 * spW C7 1 (4 * k.val + 1) (16 * 4 + (x 0).val)
          + 8 * spW C7 1 (4 * k.val + 2) (16 * 4 + (x 0).val) + spW C7 1 (4 * k.val + 3) (16 * 4 + (x 0).val)
      ∧ (idx3_4 (F := F) C7 k x).toNat < 4096 := by
  have hk := trip3_lt k
  have hx : (x 0).val < 16 := (x 0).isLt
  have e0 : ((shapeCast S16 (row3_4_0 (F := F) C7 k) shapeCasts_S1x1x16_S16 : IVec S16 32) x).toNat = spW C7 1 (4 * k.val) (16 * 4 + (x 0).val) := row3_4_0_lane (F := F) C7 k x
  have e1 : ((shapeCast S16 (row3_4_1 (F := F) C7 k) shapeCasts_S1x1x16_S16 : IVec S16 32) x).toNat = spW C7 1 (4 * k.val + 1) (16 * 4 + (x 0).val) := row3_4_1_lane (F := F) C7 k x
  have e2 : ((shapeCast S16 (row3_4_2 (F := F) C7 k) shapeCasts_S1x1x16_S16 : IVec S16 32) x).toNat = spW C7 1 (4 * k.val + 2) (16 * 4 + (x 0).val) := row3_4_2_lane (F := F) C7 k x
  have e3 : ((shapeCast S16 (row3_4_3 (F := F) C7 k) shapeCasts_S1x1x16_S16 : IVec S16 32) x).toNat = spW C7 1 (4 * k.val + 3) (16 * 4 + (x 0).val) := row3_4_3_lane (F := F) C7 k x
  have b0 : spW C7 1 (4 * k.val) (16 * 4 + (x 0).val) < 8 := hlt _ _ (by omega) (by omega)
  have b1 : spW C7 1 (4 * k.val + 1) (16 * 4 + (x 0).val) < 8 := hlt _ _ (by omega) (by omega)
  have b2 : spW C7 1 (4 * k.val + 2) (16 * 4 + (x 0).val) < 8 := hlt _ _ (by omega) (by omega)
  have b3 : spW C7 1 (4 * k.val + 3) (16 * 4 + (x 0).val) < 8 := hlt _ _ (by omega) (by omega)
  obtain ⟨e, l⟩ := Cert.Proof.WordsKB.k0_pay36_lane (F := F) (row3_4_0 C7 k) (row3_4_1 C7 k) (row3_4_2 C7 k) (row3_4_3 C7 k) x
    (e0.trans_lt b0) (e1.trans_lt b1) (e2.trans_lt b2) (e3.trans_lt b3)
  exact ⟨e.trans (by rw [e0, e1, e2, e3]), l⟩

/-- The gather's side condition holds. -/
theorem chk3_4 (C7 : S4x200x128.Idx → BitVec 32) (hlt : SlabLt C7 1) (k : Fin k0_t3_loop.trips) :
    k0_chk17 (idx3_4 (F := F) C7 k) :=
  Cert.Proof.WordsKB.k0_chk17_of_lt _ fun x => (idx3_4_lane C7 hlt k x).2

/-- Group 5's sixteen index words at trip k. -/
abbrev idx3_5 (C7 : S4x200x128.Idx → BitVec 32) (k : Fin k0_t3_loop.trips) : IVec S16 32 :=
  k0_pay39 (F := F) (k0_pay38 (row3_5_0 C7 k)) (row3_5_1 C7 k) (row3_5_2 C7 k) (row3_5_3 C7 k)

theorem idx3_5_lane (C7 : S4x200x128.Idx → BitVec 32) (hlt : SlabLt C7 1) (k : Fin k0_t3_loop.trips) (x : S16.Idx) :
    (idx3_5 (F := F) C7 k x).toNat
        = 512 * spW C7 1 (4 * k.val) (16 * 5 + (x 0).val) + 64 * spW C7 1 (4 * k.val + 1) (16 * 5 + (x 0).val)
          + 8 * spW C7 1 (4 * k.val + 2) (16 * 5 + (x 0).val) + spW C7 1 (4 * k.val + 3) (16 * 5 + (x 0).val)
      ∧ (idx3_5 (F := F) C7 k x).toNat < 4096 := by
  have hk := trip3_lt k
  have hx : (x 0).val < 16 := (x 0).isLt
  have e0 : (k0_pay38 (row3_5_0 (F := F) C7 k) x).toNat = spW C7 1 (4 * k.val) (16 * 5 + (x 0).val) := row3_5_0_lane (F := F) C7 k x
  have e1 : ((shapeCast S16 (row3_5_1 (F := F) C7 k) shapeCasts_S1x1x16_S16 : IVec S16 32) x).toNat = spW C7 1 (4 * k.val + 1) (16 * 5 + (x 0).val) := row3_5_1_lane (F := F) C7 k x
  have e2 : ((shapeCast S16 (row3_5_2 (F := F) C7 k) shapeCasts_S1x1x16_S16 : IVec S16 32) x).toNat = spW C7 1 (4 * k.val + 2) (16 * 5 + (x 0).val) := row3_5_2_lane (F := F) C7 k x
  have e3 : ((shapeCast S16 (row3_5_3 (F := F) C7 k) shapeCasts_S1x1x16_S16 : IVec S16 32) x).toNat = spW C7 1 (4 * k.val + 3) (16 * 5 + (x 0).val) := row3_5_3_lane (F := F) C7 k x
  have b0 : spW C7 1 (4 * k.val) (16 * 5 + (x 0).val) < 8 := hlt _ _ (by omega) (by omega)
  have b1 : spW C7 1 (4 * k.val + 1) (16 * 5 + (x 0).val) < 8 := hlt _ _ (by omega) (by omega)
  have b2 : spW C7 1 (4 * k.val + 2) (16 * 5 + (x 0).val) < 8 := hlt _ _ (by omega) (by omega)
  have b3 : spW C7 1 (4 * k.val + 3) (16 * 5 + (x 0).val) < 8 := hlt _ _ (by omega) (by omega)
  obtain ⟨e, l⟩ := Cert.Proof.WordsKB.k0_pay39_lane (F := F) (k0_pay38 (row3_5_0 C7 k)) (row3_5_1 C7 k) (row3_5_2 C7 k) (row3_5_3 C7 k) x
    (e0.trans_lt b0) (e1.trans_lt b1) (e2.trans_lt b2) (e3.trans_lt b3)
  exact ⟨e.trans (by rw [e0, e1, e2, e3]), l⟩

/-- The gather's side condition holds. -/
theorem chk3_5 (C7 : S4x200x128.Idx → BitVec 32) (hlt : SlabLt C7 1) (k : Fin k0_t3_loop.trips) :
    k0_chk18 (idx3_5 (F := F) C7 k) :=
  Cert.Proof.WordsKB.k0_chk18_of_lt _ fun x => (idx3_5_lane C7 hlt k x).2

/-- Group 6's sixteen index words at trip k. -/
abbrev idx3_6 (C7 : S4x200x128.Idx → BitVec 32) (k : Fin k0_t3_loop.trips) : IVec S16 32 :=
  k0_pay44 (F := F) (k0_pay41 (row3_6_0 C7 k)) (k0_pay42 (row3_6_1 C7 k)) (k0_pay43 (row3_6_2 C7 k)) (row3_6_3 C7 k)

theorem idx3_6_lane (C7 : S4x200x128.Idx → BitVec 32) (hlt : SlabLt C7 1) (k : Fin k0_t3_loop.trips) (x : S16.Idx) :
    (idx3_6 (F := F) C7 k x).toNat
        = 512 * spW C7 1 (4 * k.val) (16 * 6 + (x 0).val) + 64 * spW C7 1 (4 * k.val + 1) (16 * 6 + (x 0).val)
          + 8 * spW C7 1 (4 * k.val + 2) (16 * 6 + (x 0).val) + spW C7 1 (4 * k.val + 3) (16 * 6 + (x 0).val)
      ∧ (idx3_6 (F := F) C7 k x).toNat < 4096 := by
  have hk := trip3_lt k
  have hx : (x 0).val < 16 := (x 0).isLt
  have e0 : (k0_pay41 (row3_6_0 (F := F) C7 k) x).toNat = spW C7 1 (4 * k.val) (16 * 6 + (x 0).val) := row3_6_0_lane (F := F) C7 k x
  have e1 : (k0_pay42 (row3_6_1 (F := F) C7 k) x).toNat = spW C7 1 (4 * k.val + 1) (16 * 6 + (x 0).val) := row3_6_1_lane (F := F) C7 k x
  have e2 : (k0_pay43 (row3_6_2 (F := F) C7 k) x).toNat = spW C7 1 (4 * k.val + 2) (16 * 6 + (x 0).val) := row3_6_2_lane (F := F) C7 k x
  have e3 : ((shapeCast S16 (row3_6_3 (F := F) C7 k) shapeCasts_S1x1x16_S16 : IVec S16 32) x).toNat = spW C7 1 (4 * k.val + 3) (16 * 6 + (x 0).val) := row3_6_3_lane (F := F) C7 k x
  have b0 : spW C7 1 (4 * k.val) (16 * 6 + (x 0).val) < 8 := hlt _ _ (by omega) (by omega)
  have b1 : spW C7 1 (4 * k.val + 1) (16 * 6 + (x 0).val) < 8 := hlt _ _ (by omega) (by omega)
  have b2 : spW C7 1 (4 * k.val + 2) (16 * 6 + (x 0).val) < 8 := hlt _ _ (by omega) (by omega)
  have b3 : spW C7 1 (4 * k.val + 3) (16 * 6 + (x 0).val) < 8 := hlt _ _ (by omega) (by omega)
  obtain ⟨e, l⟩ := Cert.Proof.WordsKB.k0_pay44_lane (F := F) (k0_pay41 (row3_6_0 C7 k)) (k0_pay42 (row3_6_1 C7 k)) (k0_pay43 (row3_6_2 C7 k)) (row3_6_3 C7 k) x
    (e0.trans_lt b0) (e1.trans_lt b1) (e2.trans_lt b2) (e3.trans_lt b3)
  exact ⟨e.trans (by rw [e0, e1, e2, e3]), l⟩

/-- The gather's side condition holds. -/
theorem chk3_6 (C7 : S4x200x128.Idx → BitVec 32) (hlt : SlabLt C7 1) (k : Fin k0_t3_loop.trips) :
    k0_chk19 (idx3_6 (F := F) C7 k) :=
  Cert.Proof.WordsKB.k0_chk19_of_lt _ fun x => (idx3_6_lane C7 hlt k x).2

/-- Group 7's sixteen index words at trip k. -/
abbrev idx3_7 (C7 : S4x200x128.Idx → BitVec 32) (k : Fin k0_t3_loop.trips) : IVec S16 32 :=
  k0_pay46 (F := F) (row3_7_0 C7 k) (row3_7_1 C7 k) (row3_7_2 C7 k) (row3_7_3 C7 k)

theorem idx3_7_lane (C7 : S4x200x128.Idx → BitVec 32) (hlt : SlabLt C7 1) (k : Fin k0_t3_loop.trips) (x : S16.Idx) :
    (idx3_7 (F := F) C7 k x).toNat
        = 512 * spW C7 1 (4 * k.val) (16 * 7 + (x 0).val) + 64 * spW C7 1 (4 * k.val + 1) (16 * 7 + (x 0).val)
          + 8 * spW C7 1 (4 * k.val + 2) (16 * 7 + (x 0).val) + spW C7 1 (4 * k.val + 3) (16 * 7 + (x 0).val)
      ∧ (idx3_7 (F := F) C7 k x).toNat < 4096 := by
  have hk := trip3_lt k
  have hx : (x 0).val < 16 := (x 0).isLt
  have e0 : ((shapeCast S16 (row3_7_0 (F := F) C7 k) shapeCasts_S1x1x16_S16 : IVec S16 32) x).toNat = spW C7 1 (4 * k.val) (16 * 7 + (x 0).val) := row3_7_0_lane (F := F) C7 k x
  have e1 : ((shapeCast S16 (row3_7_1 (F := F) C7 k) shapeCasts_S1x1x16_S16 : IVec S16 32) x).toNat = spW C7 1 (4 * k.val + 1) (16 * 7 + (x 0).val) := row3_7_1_lane (F := F) C7 k x
  have e2 : ((shapeCast S16 (row3_7_2 (F := F) C7 k) shapeCasts_S1x1x16_S16 : IVec S16 32) x).toNat = spW C7 1 (4 * k.val + 2) (16 * 7 + (x 0).val) := row3_7_2_lane (F := F) C7 k x
  have e3 : ((shapeCast S16 (row3_7_3 (F := F) C7 k) shapeCasts_S1x1x16_S16 : IVec S16 32) x).toNat = spW C7 1 (4 * k.val + 3) (16 * 7 + (x 0).val) := row3_7_3_lane (F := F) C7 k x
  have b0 : spW C7 1 (4 * k.val) (16 * 7 + (x 0).val) < 8 := hlt _ _ (by omega) (by omega)
  have b1 : spW C7 1 (4 * k.val + 1) (16 * 7 + (x 0).val) < 8 := hlt _ _ (by omega) (by omega)
  have b2 : spW C7 1 (4 * k.val + 2) (16 * 7 + (x 0).val) < 8 := hlt _ _ (by omega) (by omega)
  have b3 : spW C7 1 (4 * k.val + 3) (16 * 7 + (x 0).val) < 8 := hlt _ _ (by omega) (by omega)
  obtain ⟨e, l⟩ := Cert.Proof.WordsKB.k0_pay46_lane (F := F) (row3_7_0 C7 k) (row3_7_1 C7 k) (row3_7_2 C7 k) (row3_7_3 C7 k) x
    (e0.trans_lt b0) (e1.trans_lt b1) (e2.trans_lt b2) (e3.trans_lt b3)
  exact ⟨e.trans (by rw [e0, e1, e2, e3]), l⟩

/-- The gather's side condition holds. -/
theorem chk3_7 (C7 : S4x200x128.Idx → BitVec 32) (hlt : SlabLt C7 1) (k : Fin k0_t3_loop.trips) :
    k0_chk20 (idx3_7 (F := F) C7 k) :=
  Cert.Proof.WordsKB.k0_chk20_of_lt _ fun x => (idx3_7_lane C7 hlt k x).2

/-! ## A trip, and the start -/

/-- One trip takes the eight accumulators from k quads to k + 1. -/
theorem trip3 (C10 : S16.Idx → F .f32) (C11 : S4096.Idx → F .f32) (C7 : S4x200x128.Idx → BitVec 32)
    (hT : TabOK C10 256 C11) (hlt : SlabLt C7 1) (k : Fin k0_t3_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx3_0 (F := F) C7 k] : Fin 1 → IVec S16 32) a x).toNat < S4096.size a)
    (h1 : ∀ a x, ((![idx3_1 (F := F) C7 k] : Fin 1 → IVec S16 32) a x).toNat < S4096.size a)
    (h2 : ∀ a x, ((![idx3_2 (F := F) C7 k] : Fin 1 → IVec S16 32) a x).toNat < S4096.size a)
    (h3 : ∀ a x, ((![idx3_3 (F := F) C7 k] : Fin 1 → IVec S16 32) a x).toNat < S4096.size a)
    (h4 : ∀ a x, ((![idx3_4 (F := F) C7 k] : Fin 1 → IVec S16 32) a x).toNat < S4096.size a)
    (h5 : ∀ a x, ((![idx3_5 (F := F) C7 k] : Fin 1 → IVec S16 32) a x).toNat < S4096.size a)
    (h6 : ∀ a x, ((![idx3_6 (F := F) C7 k] : Fin 1 → IVec S16 32) a x).toNat < S4096.size a)
    (h7 : ∀ a x, ((![idx3_7 (F := F) C7 k] : Fin 1 → IVec S16 32) a x).toNat < S4096.size a)
    (hacc : AccOK C10 C7 1 k.val accs) :
    AccOK C10 C7 1 (k.val + 1)
      (k0_pay25 accs.1 (tabGather C11 (idx3_0 C7 k) h0),
        k0_pay28 accs.2.1 (tabGather C11 (idx3_1 C7 k) h1),
        k0_pay33 accs.2.2.1 (tabGather C11 (idx3_2 C7 k) h2),
        k0_pay35 accs.2.2.2.1 (tabGather C11 (idx3_3 C7 k) h3),
        k0_pay37 accs.2.2.2.2.1 (tabGather C11 (idx3_4 C7 k) h4),
        k0_pay40 accs.2.2.2.2.2.1 (tabGather C11 (idx3_5 C7 k) h5),
        k0_pay45 accs.2.2.2.2.2.2.1 (tabGather C11 (idx3_6 C7 k) h6),
        k0_pay121 accs.2.2.2.2.2.2.2 (tabGather C11 (idx3_7 C7 k) h7)) := by
  unfold AccOK at hacc ⊢
  obtain ⟨a0, a1, a2, a3, a4, a5, a6, a7⟩ := hacc
  exact ⟨lane_step C10 C11 C7 hT 1 0 k.val _ a0 (idx3_0 C7 k) h0 (fun x => (idx3_0_lane C7 hlt k x).1),
    lane_step C10 C11 C7 hT 1 1 k.val _ a1 (idx3_1 C7 k) h1 (fun x => (idx3_1_lane C7 hlt k x).1),
    lane_step C10 C11 C7 hT 1 2 k.val _ a2 (idx3_2 C7 k) h2 (fun x => (idx3_2_lane C7 hlt k x).1),
    lane_step C10 C11 C7 hT 1 3 k.val _ a3 (idx3_3 C7 k) h3 (fun x => (idx3_3_lane C7 hlt k x).1),
    lane_step C10 C11 C7 hT 1 4 k.val _ a4 (idx3_4 C7 k) h4 (fun x => (idx3_4_lane C7 hlt k x).1),
    lane_step C10 C11 C7 hT 1 5 k.val _ a5 (idx3_5 C7 k) h5 (fun x => (idx3_5_lane C7 hlt k x).1),
    lane_step C10 C11 C7 hT 1 6 k.val _ a6 (idx3_6 C7 k) h6 (fun x => (idx3_6_lane C7 hlt k x).1),
    lane_step C10 C11 C7 hT 1 7 k.val _ a7 (idx3_7 C7 k) h7 (fun x => (idx3_7_lane C7 hlt k x).1)⟩

/-- The loop starts with every accumulator at zero: no quad added yet. -/
theorem init3 (C10 : S16.Idx → F .f32) (C7 : S4x200x128.Idx → BitVec 32) :
    AccOK C10 C7 1 0
      (k0_pay113 (F := F), k0_pay114 (F := F), k0_pay115 (F := F), k0_pay116 (F := F) (Scalar.ofBits .f32 0x00000000#32), k0_pay117 (F := F), k0_pay118 (F := F), k0_pay119 (F := F), k0_pay120 (F := F)) := by
  unfold AccOK
  exact ⟨fun _ => rfl, fun _ => rfl, fun _ => rfl, fun _ => rfl, fun _ => rfl, fun _ => rfl, fun _ => rfl, fun _ => rfl⟩

end Cert.Proof.KB

end
-- ==== Proof.LoopT4KB.lean ====
/-
  Loop 4 of the tile's body — panel 2 of the species scratch, fifty trips — lane by lane.

  Trip k reads, for each group j < 8 of sixteen molecule columns 16 j .. 16 j + 15 of panel 2, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLaneKB
import proofs.«206988_g4337916970008_retrytranche1_694_23_alg».proof.Proof.WordsQKB

noncomputable section

namespace Cert.Proof.KB

open Cert.Kernel Cert.Kernel.Gen
open Idealize.ShloMosaic
open Idealize.SL.Sem

variable {F : FTy → Type} [FloatOps F]

/-- The loop has at most fifty trips. -/
theorem trip4_lt (k : Fin k0_t4_loop.trips) : k.val < 50 := Nat.lt_of_lt_of_le k.isLt k0_t4_abs.2.1

/-! ## The rows a trip loads -/

/-- Group 0: the rows of atoms 4k .. 4k+3 at columns 0 .. 15. -/
abbrev row4_0_0 (C7 : S4x200x128.Idx → BitVec 32) (k : Fin k0_t4_loop.trips) : Vec F S1x1x16 .i32 :=
  rowLd C7 (k0_off37 k) (k0_off37_inb k)
abbrev row4_0_1 (C7 : S4x200x128.Idx → BitVec 32) (k : Fin k0_t4_loop.trips) : Vec F S1x1x16 .i32 :=
  rowLd C7 (k0_off38 k 1#32) (k0_off38_inb k 0)
abbrev row4_0_2 (C7 : S4x200x128.Idx → BitVec 32) (k : Fin k0_t4_loop.trips) : Vec F S1x1x16 .i32 :=
  rowLd C7 (k0_off38 k 2#32) (k0_off38_inb k 1)
abbrev row4_0_3 (C7 : S4x200x128.Idx → BitVec 32) (k : Fin k0_t4_loop.trips) : Vec F S1x1x16 .i32 :=
  rowLd C7 (k0_off38 k 3#32) (k0_off38_inb k 2)

theorem row4_0_0_lane (C7 : S4x200x128.Idx → BitVec 32) (k : Fin k0_t4_loop.trips) (x : S16.Idx) :
    ((shapeCast S16 (row4_0_0 (F := F) C7 k) shapeCasts_S1x1x16_S16 : IVec S16 32) x).toNat
      = spW C7 2 (4 * k.val) (16 * 0 + (x 0).val) :=
  rowLd_lane C7 _ _ 2 (4 * k.val) (4 * k.val) (16 * 0) (Gen.k0_off37_eq k) rfl (by decide)
    (by have := trip4_lt k; omega) (by decide) x
theorem row4_0_1_lane (C7 : S4x200x128.Idx → BitVec 32) (k : Fin k0_t4_loop.trips) (x : S16.Idx) :
    ((shapeCast S16 (row4_0_1 (F := F) C7 k) shapeCasts_S1x1x16_S16 : IVec S16 32) x).toNat
      = spW C7 2 (4 * k.val + 1) (16 * 0 + (x 0).val) :=
  rowLd_lane C7 _ _ 2 (4 * k.val + 0 + 1) (4 * k.val + 1) (16 * 0) (Gen.k0_off38_eq k ⟨0, by decide⟩)
    (by omega) (by decide) (by have := trip4_lt k; omega) (by decide) x
theorem row4_0_2_lane (C7 : S4x200x128.Idx → BitVec 32) (k : Fin k0_t4_loop.trips) (x : S16.Idx) :
    ((shapeCast S16 (row4_0_2 (F := F) C7 k) shapeCasts_S1x1x16_S16 : IVec S16 32) x).toNat
      = spW C7 2 (4 * k.val + 2) (16 * 0 + (x 0).val) :=
  rowLd_lane C7 _ _ 2 (4 * k.val + 1 + 1) (4 * k.val + 2) (16 * 0) (Gen.k0_off38_eq k ⟨1, by decide⟩)
    (by omega) (by decide) (by have := trip4_lt k; omega) (by decide) x
theorem row4_0_3_lane (C7 : S4x200x128.Idx → BitVec 32) (k : Fin k0_t4_loop.trips) (x : S16.Idx) :
    ((shapeCast S16 (row4_0_3 (F := F) C7 k) shapeCasts_S1x1x16_S16 : IVec S16 32) x).toNat
      = spW C7 2 (4 * k.val + 3) (16 * 0 + (x 0).val) :=
  rowLd_lane C7 _ _ 2 (4 * k.val + 2 + 1) (4 * k.val + 3) (16 * 0) (Gen.k0_off38_eq k ⟨2, by decide⟩)
    (by omega) (by decide) (by have := trip4_lt k; omega) (by decide) x

/-- Group 1: the rows of atoms 4k .. 4k+3 at columns 16 .. 31. -/
abbrev row4_1_0 (C7 : S4x200x128.Idx → BitVec 32) (k : Fin k0_t4_loop.trips) : Vec F S1x1x16 .i32 :=
  rowLd C7 (k0_off39 k) (k0_off39_inb k)
abbrev row4_1_1 (C7 : S4x200x128.Idx → BitVec 32) (k : Fin k0_t4_loop.trips) : Vec F S1x1x16 .i32 :=
  rowLd C7 (k0_off40 k 1#32) (k0_off40_inb k 0)
abbrev row4_1_2 (C7 : S4x200x128.Idx → BitVec 32) (k : Fin k0_t4_loop.trips) : Vec F S1x1x16 .i32 :=
  rowLd C7 (k0_off40 k 2#32) (k0_off40_inb k 1)
abbrev row4_1_3 (C7 : S4x200x128.Idx → BitVec 32) (k : Fin k0_t4_loop.trips) : Vec F S1x1x16 .i32 :=
  rowLd C7 (k0_off40 k 3#32) (k0_off40_inb k 2)

theorem row4_1_0_lane (C7 : S4x200x128.Idx → BitVec 32) (k : Fin k0_t4_loop.trips) (x : S16.Idx) :
    ((shapeCast S16 (row4_1_0 (F := F) C7 k) shapeCasts_S1x1x16_S16 : IVec S16 32) x).toNat
      = spW C7 2 (4 * k.val) (16 * 1 + (x 0).val) :=
  rowLd_lane C7 _ _ 2 (4 * k.val) (4 * k.val) (16 * 1) (Gen.k0_off39_eq k) rfl (by decide)
    (by have := trip4_lt k; omega) (by decide) x
theorem row4_1_1_lane (C7 : S4x200x128.Idx → BitVec 32) (k : Fin k0_t4_loop.trips) (x : S16.Idx) :
    ((shapeCast S16 (row4_1_1 (F := F) C7 k) shapeCasts_S1x1x16_S16 : IVec S16 32) x).toNat
      = spW C7 2 (4 * k.val + 1) (16 * 1 + (x 0).val) :=
  rowLd_lane C7 _ _ 2 (4 * k.val + 0 + 1) (4 * k.val + 1) (16 * 1) (Gen.k0_off40_eq k ⟨0, by decide⟩)
    (by omega) (by decide) (by have := trip4_lt k; omega) (by decide) x
theorem row4_1_2_lane (C7 : S4x200x128.Idx → BitVec 32) (k : Fin k0_t4_loop.trips) (x : S16.Idx) :
    ((shapeCast S16 (row4_1_2 (F := F) C7 k) shapeCasts_S1x1x16_S16 : IVec S16 32) x).toNat
      = spW C7 2 (4 * k.val + 2) (16 * 1 + (x 0).val) :=
  rowLd_lane C7 _ _ 2 (4 * k.val + 1 + 1) (4 * k.val + 2) (16 * 1) (Gen.k0_off40_eq k ⟨1, by decide⟩)
    (by omega) (by decide) (by have := trip4_lt k; omega) (by decide) x
theorem row4_1_3_lane (C7 : S4x200x128.Idx → BitVec 32) (k : Fin k0_t4_loop.trips) (x : S16.Idx) :
    ((shapeCast S16 (row4_1_3 (F := F) C7 k) shapeCasts_S1x1x16_S16 : IVec S16 32) x).toNat
      = spW C7 2 (4 * k.val + 3) (16 * 1 + (x 0).val) :=
  rowLd_lane C7 _ _ 2 (4 * k.val + 2 + 1) (4 * k.val + 3) (16 * 1) (Gen.k0_off40_eq k ⟨2, by decide⟩)
    (by omega) (by decide) (by have := trip4_lt k; omega) (by decide) x

/-- Group 2: the rows of atoms 4k .. 4k+3 at columns 32 .. 47. -/
abbrev row4_2_0 (C7 : S4x200x128.Idx → BitVec 32) (k : Fin k0_t4_loop.trips) : Vec F S1x1x16 .i32 :=
  rowLd C7 (k0_off41 k) (k0_off41_inb k)
abbrev row4_2_1 (C7 : S4x200x128.Idx → BitVec 32) (k : Fin k0_t4_loop.trips) : Vec F S1x1x16 .i32 :=
  rowLd C7 (k0_off42 k 1#32) (k0_off42_inb k 0)
abbrev row4_2_2 (C7 : S4x200x128.Idx → BitVec 32) (k : Fin k0_t4_loop.trips) : Vec F S1x1x16 .i32 :=
  rowLd C7 (k0_off42 k 2#32) (k0_off42_inb k 1)
abbrev row4_2_3 (C7 : S4x200x128.Idx → BitVec 32) (k : Fin k0_t4_loop.trips) : Vec F S1x1x16 .i32 :=
  rowLd C7 (k0_off42 k 3#32) (k0_off42_inb k 2)

theorem row4_2_0_lane (C7 : S4x200x128.Idx → BitVec 32) (k : Fin k0_t4_loop.trips) (x : S16.Idx) :
    ((shapeCast S16 (row4_2_0 (F := F) C7 k) shapeCasts_S1x1x16_S16 : IVec S16 32) x).toNat
      = spW C7 2 (4 * k.val) (16 * 2 + (x 0).val) :=
  rowLd_lane C7 _ _ 2 (4 * k.val) (4 * k.val) (16 * 2) (Gen.k0_off41_eq k) rfl (by decide)
    (by have := trip4_lt k; omega) (by decide) x
theorem row4_2_1_lane (C7 : S4x200x128.Idx → BitVec 32) (k : Fin k0_t4_loop.trips) (x : S16.Idx) :
    ((shapeCast S16 (row4_2_1 (F := F) C7 k) shapeCasts_S1x1x16_S16 : IVec S16 32) x).toNat
      = spW C7 2 (4 * k.val + 1) (16 * 2 + (x 0).val) :=
  rowLd_lane C7 _ _ 2 (4 * k.val + 0 + 1) (4 * k.val + 1) (16 * 2) (Gen.k0_off42_eq k ⟨0, by decide⟩)
    (by omega) (by decide) (by have := trip4_lt k; omega) (by decide) x
theorem row4_2_2_lane (C7 : S4x200x128.Idx → BitVec 32) (k : Fin k0_t4_loop.trips) (x : S16.Idx) :
    ((shapeCast S16 (row4_2_2 (F := F) C7 k) shapeCasts_S1x1x16_S16 : IVec S16 32) x).toNat
      = spW C7 2 (4 * k.val + 2) (16 * 2 + (x 0).val) :=
  rowLd_lane C7 _ _ 2 (4 * k.val + 1 + 1) (4 * k.val + 2) (16 * 2) (Gen.k0_off42_eq k ⟨1, by decide⟩)
    (by omega) (by decide) (by have := trip4_lt k; omega) (by decide) x
theorem row4_2_3_lane (C7 : S4x200x128.Idx → BitVec 32) (k : Fin k0_t4_loop.trips) (x : S16.Idx) :
    ((shapeCast S16 (row4_2_3 (F := F) C7 k) shapeCasts_S1x1x16_S16 : IVec S16 32) x).toNat
      = spW C7 2 (4 * k.val + 3) (16 * 2 + (x 0).val) :=
  rowLd_lane C7 _ _ 2 (4 * k.val + 2 + 1) (4 * k.val + 3) (16 * 2) (Gen.k0_off42_eq k ⟨2, by decide⟩)
    (by omega) (by decide) (by have := trip4_lt k; omega) (by decide) x

/-- Group 3: the rows of atoms 4k .. 4k+3 at columns 48 .. 63. -/
abbrev row4_3_0 (C7 : S4x200x128.Idx → BitVec 32) (k : Fin k0_t4_loop.trips) : Vec F S1x1x16 .i32 :=
  rowLd C7 (k0_off43 k) (k0_off43_inb k)
abbrev row4_3_1 (C7 : S4x200x128.Idx → BitVec 32) (k : Fin k0_t4_loop.trips) : Vec F S1x1x16 .i32 :=
  rowLd C7 (k0_off44 k 1#32) (k0_off44_inb k 0)
abbrev row4_3_2 (C7 : S4x200x128.Idx → BitVec 32) (k : Fin k0_t4_loop.trips) : Vec F S1x1x16 .i32 :=
  rowLd C7 (k0_off44 k 2#32) (k0_off44_inb k 1)
abbrev row4_3_3 (C7 : S4x200x128.Idx → BitVec 32) (k : Fin k0_t4_loop.trips) : Vec F S1x1x16 .i32 :=
  rowLd C7 (k0_off44 k 3#32) (k0_off44_inb k 2)

theorem row4_3_0_lane (C7 : S4x200x128.Idx → BitVec 32) (k : Fin k0_t4_loop.trips) (x : S16.Idx) :
    ((shapeCast S16 (row4_3_0 (F := F) C7 k) shapeCasts_S1x1x16_S16 : IVec S16 32) x).toNat
      = spW C7 2 (4 * k.val) (16 * 3 + (x 0).val) :=
  rowLd_lane C7 _ _ 2 (4 * k.val) (4 * k.val) (16 * 3) (Gen.k0_off43_eq k) rfl (by decide)
    (by have := trip4_lt k; omega) (by decide) x
theorem row4_3_1_lane (C7 : S4x200x128.Idx → BitVec 32) (k : Fin k0_t4_loop.trips) (x : S16.Idx) :
    ((shapeCast S16 (row4_3_1 (F := F) C7 k) shapeCasts_S1x1x16_S16 : IVec S16 32) x).toNat
      = spW C7 2 (4 * k.val + 1) (16 * 3 + (x 0).val) :=
  rowLd_lane C7 _ _ 2 (4 * k.val + 0 + 1) (4 * k.val + 1) (16 * 3) (Gen.k0_off44_eq k ⟨0, by decide⟩)
    (by omega) (by decide) (by have := trip4_lt k; omega) (by decide) x
theorem row4_3_2_lane (C7 : S4x200x128.Idx → BitVec 32) (k : Fin k0_t4_loop.trips) (x : S16.Idx) :
    ((shapeCast S16 (row4_3_2 (F := F) C7 k) shapeCasts_S1x1x16_S16 : IVec S16 32) x).toNat
      = spW C7 2 (4 * k.val + 2) (16 * 3 + (x 0).val) :=
  rowLd_lane C7 _ _ 2 (4 * k.val + 1 + 1) (4 * k.val + 2) (16 * 3) (Gen.k0_off44_eq k ⟨1, by decide⟩)
    (by omega) (by decide) (by have := trip4_lt k; omega) (by decide) x
theorem row4_3_3_lane (C7 : S4x200x128.Idx → BitVec 32) (k : Fin k0_t4_loop.trips) (x : S16.Idx) :
    ((shapeCast S16 (row4_3_3 (F := F) C7 k) shapeCasts_S1x1x16_S16 : IVec S16 32) x).toNat
      = spW C7 2 (4 * k.val + 3) (16 * 3 + (x 0).val) :=
  rowLd_lane C7 _ _ 2 (4 * k.val + 2 + 1) (4 * k.val + 3) (16 * 3) (Gen.k0_off44_eq k ⟨2, by decide⟩)
    (by omega) (by decide) (by have := trip4_lt k; omega) (by decide) x

/-- Group 4: the rows of atoms 4k .. 4k+3 at columns 64 .. 79. -/
abbrev row4_4_0 (C7 : S4x200x128.Idx → BitVec 32) (k : Fin k0_t4_loop.trips) : Vec F S1x1x16 .i32 :=
  rowLd C7 (k0_off45 k) (k0_off45_inb k)
abbrev row4_4_1 (C7 : S4x200x128.Idx → BitVec 32) (k : Fin k0_t4_loop.trips) : Vec F S1x1x16 .i32 :=
  rowLd C7 (k0_off46 k 1#32) (k0_off46_inb k 0)
abbrev row4_4_2 (C7 : S4x200x128.Idx → BitVec 32) (k : Fin k0_t4_loop.trips) : Vec F S1x1x16 .i32 :=
  rowLd C7 (k0_off46 k 2#32) (k0_off46_inb k 1)
abbrev row4_4_3 (C7 : S4x200x128.Idx → BitVec 32) (k : Fin k0_t4_loop.trips) : Vec F S1x1x16 .i32 :=
  rowLd C7 (k0_off46 k 3#32) (k0_off46_inb k 2)

theorem row4_4_0_lane (C7 : S4x200x128.Idx → BitVec 32) (k : Fin k0_t4_loop.trips) (x : S16.Idx) :
    ((shapeCast S16 (row4_4_0 (F := F) C7 k) shapeCasts_S1x1x16_S16 : IVec S16 32) x).toNat
      = spW C7 2 (4 * k.val) (16 * 4 + (x 0).val) :=
  rowLd_lane C7 _ _ 2 (4 * k.val) (4 * k.val) (16 * 4) (Gen.k0_off45_eq k) rfl (by decide)
    (by have := trip4_lt k; omega) (by decide) x
theorem row4_4_1_lane (C7 : S4x200x128.Idx → BitVec 32) (k : Fin k0_t4_loop.trips) (x : S16.Idx) :
    ((shapeCast S16 (row4_4_1 (F := F) C7 k) shapeCasts_S1x1x16_S16 : IVec S16 32) x).toNat
      = spW C7 2 (4 * k.val + 1) (16 * 4 + (x 0).val) :=
  rowLd_lane C7 _ _ 2 (4 * k.val + 0 + 1) (4 * k.val + 1) (16 * 4) (Gen.k0_off46_eq k ⟨0, by decide⟩)
    (by omega) (by decide) (by have := trip4_lt k; omega) (by decide) x
theorem row4_4_2_lane (C7 : S4x200x128.Idx → BitVec 32) (k : Fin k0_t4_loop.trips) (x : S16.Idx) :
    ((shapeCast S16 (row4_4_2 (F := F) C7 k) shapeCasts_S1x1x16_S16 : IVec S16 32) x).toNat
      = spW C7 2 (4 * k.val + 2) (16 * 4 + (x 0).val) :=
  rowLd_lane C7 _ _ 2 (4 * k.val + 1 + 1) (4 * k.val + 2) (16 * 4) (Gen.k0_off46_eq k ⟨1, by decide⟩)
    (by omega) (by decide) (by have := trip4_lt k; omega) (by decide) x
theorem row4_4_3_lane (C7 : S4x200x128.Idx → BitVec 32) (k : Fin k0_t4_loop.trips) (x : S16.Idx) :
    ((shapeCast S16 (row4_4_3 (F := F) C7 k) shapeCasts_S1x1x16_S16 : IVec S16 32) x).toNat
      = spW C7 2 (4 * k.val + 3) (16 * 4 + (x 0).val) :=
  rowLd_lane C7 _ _ 2 (4 * k.val + 2 + 1) (4 * k.val + 3) (16 * 4) (Gen.k0_off46_eq k ⟨2, by decide⟩)
    (by omega) (by decide) (by have := trip4_lt k; omega) (by decide) x

/-- Group 5: the rows of atoms 4k .. 4k+3 at columns 80 .. 95. -/
abbrev row4_5_0 (C7 : S4x200x128.Idx → BitVec 32) (k : Fin k0_t4_loop.trips) : Vec F S1x1x16 .i32 :=
  rowLd C7 (k0_off47 k) (k0_off47_inb k)
abbrev row4_5_1 (C7 : S4x200x128.Idx → BitVec 32) (k : Fin k0_t4_loop.trips) : Vec F S1x1x16 .i32 :=
  rowLd C7 (k0_off48 k 1#32) (k0_off48_inb k 0)
abbrev row4_5_2 (C7 : S4x200x128.Idx → BitVec 32) (k : Fin k0_t4_loop.trips) : Vec F S1x1x16 .i32 :=
  rowLd C7 (k0_off48 k 2#32) (k0_off48_inb k 1)
abbrev row4_5_3 (C7 : S4x200x128.Idx → BitVec 32) (k : Fin k0_t4_loop.trips) : Vec F S1x1x16 .i32 :=
  rowLd C7 (k0_off48 k 3#32) (k0_off48_inb k 2)

theorem row4_5_0_lane (C7 : S4x200x128.Idx → BitVec 32) (k : Fin k0_t4_loop.trips) (x : S16.Idx) :
    ((shapeCast S16 (row4_5_0 (F := F) C7 k) shapeCasts_S1x1x16_S16 : IVec S16 32) x).toNat
      = spW C7 2 (4 * k.val) (16 * 5 + (x 0).val) :=
  rowLd_lane C7 _ _ 2 (4 * k.val) (4 * k.val) (16 * 5) (Gen.k0_off47_eq k) rfl (by decide)
    (by have := trip4_lt k; omega) (by decide) x
theorem row4_5_1_lane (C7 : S4x200x128.Idx → BitVec 32) (k : Fin k0_t4_loop.trips) (x : S16.Idx) :
    ((shapeCast S16 (row4_5_1 (F := F) C7 k) shapeCasts_S1x1x16_S16 : IVec S16 32) x).toNat
      = spW C7 2 (4 * k.val + 1) (16 * 5 + (x 0).val) :=
  rowLd_lane C7 _ _ 2 (4 * k.val + 0 + 1) (4 * k.val + 1) (16 * 5) (Gen.k0_off48_eq k ⟨0, by decide⟩)
    (by omega) (by decide) (by have := trip4_lt k; omega) (by decide) x
theorem row4_5_2_lane (C7 : S4x200x128.Idx → BitVec 32) (k : Fin k0_t4_loop.trips) (x : S16.Idx) :
    ((shapeCast S16 (row4_5_2 (F := F) C7 k) shapeCasts_S1x1x16_S16 : IVec S16 32) x).toNat
      = spW C7 2 (4 * k.val + 2) (16 * 5 + (x 0).val) :=
  rowLd_lane C7 _ _ 2 (4 * k.val + 1 + 1) (4 * k.val + 2) (16 * 5) (Gen.k0_off48_eq k ⟨1, by decide⟩)
    (by omega) (by decide) (by have := trip4_lt k; omega) (by decide) x
theorem row4_5_3_lane (C7 : S4x200x128.Idx → BitVec 32) (k : Fin k0_t4_loop.trips) (x : S16.Idx) :
    ((shapeCast S16 (row4_5_3 (F := F) C7 k) shapeCasts_S1x1x16_S16 : IVec S16 32) x).toNat
      = spW C7 2 (4 * k.val + 3) (16 * 5 + (x 0).val) :=
  rowLd_lane C7 _ _ 2 (4 * k.val + 2 + 1) (4 * k.val + 3) (16 * 5) (Gen.k0_off48_eq k ⟨2, by decide⟩)
    (by omega) (by decide) (by have := trip4_lt k; omega) (by decide) x

/-- Group 6: the rows of atoms 4k .. 4k+3 at columns 96 .. 111. -/
abbrev row4_6_0 (C7 : S4x200x128.Idx → BitVec 32) (k : Fin k0_t4_loop.trips) : Vec F S1x1x16 .i32 :=
  rowLd C7 (k0_off49 k) (k0_off49_inb k)
abbrev row4_6_1 (C7 : S4x200x128.Idx → BitVec 32) (k : Fin k0_t4_loop.trips) : Vec F S1x1x16 .i32 :=
  rowLd C7 (k0_off50 k 1#32) (k0_off50_inb k 0)
abbrev row4_6_2 (C7 : S4x200x128.Idx → BitVec 32) (k : Fin k0_t4_loop.trips) : Vec F S1x1x16 .i32 :=
  rowLd C7 (k0_off50 k 2#32) (k0_off50_inb k 1)
abbrev row4_6_3 (C7 : S4x200x128.Idx → BitVec 32) (k : Fin k0_t4_loop.trips) : Vec F S1x1x16 .i32 :=
  rowLd C7 (k0_off50 k 3#32) (k0_off50_inb k 2)

theorem row4_6_0_lane (C7 : S4x200x128.Idx → BitVec 32) (k : Fin k0_t4_loop.trips) (x : S16.Idx) :
    ((shapeCast S16 (row4_6_0 (F := F) C7 k) shapeCasts_S1x1x16_S16 : IVec S16 32) x).toNat
      = spW C7 2 (4 * k.val) (16 * 6 + (x 0).val) :=
  rowLd_lane C7 _ _ 2 (4 * k.val) (4 * k.val) (16 * 6) (Gen.k0_off49_eq k) rfl (by decide)
    (by have := trip4_lt k; omega) (by decide) x
theorem row4_6_1_lane (C7 : S4x200x128.Idx → BitVec 32) (k : Fin k0_t4_loop.trips) (x : S16.Idx) :
    ((shapeCast S16 (row4_6_1 (F := F) C7 k) shapeCasts_S1x1x16_S16 : IVec S16 32) x).toNat
      = spW C7 2 (4 * k.val + 1) (16 * 6 + (x 0).val) :=
  rowLd_lane C7 _ _ 2 (4 * k.val + 0 + 1) (4 * k.val + 1) (16 * 6) (Gen.k0_off50_eq k ⟨0, by decide⟩)
    (by omega) (by decide) (by have := trip4_lt k; omega) (by decide) x
theorem row4_6_2_lane (C7 : S4x200x128.Idx → BitVec 32) (k : Fin k0_t4_loop.trips) (x : S16.Idx) :
    ((shapeCast S16 (row4_6_2 (F := F) C7 k) shapeCasts_S1x1x16_S16 : IVec S16 32) x).toNat
      = spW C7 2 (4 * k.val + 2) (16 * 6 + (x 0).val) :=
  rowLd_lane C7 _ _ 2 (4 * k.val + 1 + 1) (4 * k.val + 2) (16 * 6) (Gen.k0_off50_eq k ⟨1, by decide⟩)
    (by omega) (by decide) (by have := trip4_lt k; omega) (by decide) x
theorem row4_6_3_lane (C7 : S4x200x128.Idx → BitVec 32) (k : Fin k0_t4_loop.trips) (x : S16.Idx) :
    ((shapeCast S16 (row4_6_3 (F := F) C7 k) shapeCasts_S1x1x16_S16 : IVec S16 32) x).toNat
      = spW C7 2 (4 * k.val + 3) (16 * 6 + (x 0).val) :=
  rowLd_lane C7 _ _ 2 (4 * k.val + 2 + 1) (4 * k.val + 3) (16 * 6) (Gen.k0_off50_eq k ⟨2, by decide⟩)
    (by omega) (by decide) (by have := trip4_lt k; omega) (by decide) x

/-- Group 7: the rows of atoms 4k .. 4k+3 at columns 112 .. 127. -/
abbrev row4_7_0 (C7 : S4x200x128.Idx → BitVec 32) (k : Fin k0_t4_loop.trips) : Vec F S1x1x16 .i32 :=
  rowLd C7 (k0_off51 k) (k0_off51_inb k)
abbrev row4_7_1 (C7 : S4x200x128.Idx → BitVec 32) (k : Fin k0_t4_loop.trips) : Vec F S1x1x16 .i32 :=
  rowLd C7 (k0_off52 k 1#32) (k0_off52_inb k 0)
abbrev row4_7_2 (C7 : S4x200x128.Idx → BitVec 32) (k : Fin k0_t4_loop.trips) : Vec F S1x1x16 .i32 :=
  rowLd C7 (k0_off52 k 2#32) (k0_off52_inb k 1)
abbrev row4_7_3 (C7 : S4x200x128.Idx → BitVec 32) (k : Fin k0_t4_loop.trips) : Vec F S1x1x16 .i32 :=
  rowLd C7 (k0_off52 k 3#32) (k0_off52_inb k 2)

theorem row4_7_0_lane (C7 : S4x200x128.Idx → BitVec 32) (k : Fin k0_t4_loop.trips) (x : S16.Idx) :
    ((shapeCast S16 (row4_7_0 (F := F) C7 k) shapeCasts_S1x1x16_S16 : IVec S16 32) x).toNat
      = spW C7 2 (4 * k.val) (16 * 7 + (x 0).val) :=
  rowLd_lane C7 _ _ 2 (4 * k.val) (4 * k.val) (16 * 7) (Gen.k0_off51_eq k) rfl (by decide)
    (by have := trip4_lt k; omega) (by decide) x
theorem row4_7_1_lane (C7 : S4x200x128.Idx → BitVec 32) (k : Fin k0_t4_loop.trips) (x : S16.Idx) :
    ((shapeCast S16 (row4_7_1 (F := F) C7 k) shapeCasts_S1x1x16_S16 : IVec S16 32) x).toNat
      = spW C7 2 (4 * k.val + 1) (16 * 7 + (x 0).val) :=
  rowLd_lane C7 _ _ 2 (4 * k.val + 0 + 1) (4 * k.val + 1) (16 * 7) (Gen.k0_off52_eq k ⟨0, by decide⟩)
    (by omega) (by decide) (by have := trip4_lt k; omega) (by decide) x
theorem row4_7_2_lane (C7 : S4x200x128.Idx → BitVec 32) (k : Fin k0_t4_loop.trips) (x : S16.Idx) :
    ((shapeCast S16 (row4_7_2 (F := F) C7 k) shapeCasts_S1x1x16_S16 : IVec S16 32) x).toNat
      = spW C7 2 (4 * k.val + 2) (16 * 7 + (x 0).val) :=
  rowLd_lane C7 _ _ 2 (4 * k.val + 1 + 1) (4 * k.val + 2) (16 * 7) (Gen.k0_off52_eq k ⟨1, by decide⟩)
    (by omega) (by decide) (by have := trip4_lt k; omega) (by decide) x
theorem row4_7_3_lane (C7 : S4x200x128.Idx → BitVec 32) (k : Fin k0_t4_loop.trips) (x : S16.Idx) :
    ((shapeCast S16 (row4_7_3 (F := F) C7 k) shapeCasts_S1x1x16_S16 : IVec S16 32) x).toNat
      = spW C7 2 (4 * k.val + 3) (16 * 7 + (x 0).val) :=
  rowLd_lane C7 _ _ 2 (4 * k.val + 2 + 1) (4 * k.val + 3) (16 * 7) (Gen.k0_off52_eq k ⟨2, by decide⟩)
    (by omega) (by decide) (by have := trip4_lt k; omega) (by decide) x

/-! ## The index words -/

/-- Group 0's sixteen index words at trip k. -/
abbrev idx4_0 (C7 : S4x200x128.Idx → BitVec 32) (k : Fin k0_t4_loop.trips) : IVec S16 32 :=
  k0_pay47 (F := F) (row4_0_0 C7 k) (row4_0_1 C7 k) (row4_0_2 C7 k) (row4_0_3 C7 k)

theorem idx4_0_lane (C7 : S4x200x128.Idx → BitVec 32) (hlt : SlabLt C7 2) (k : Fin k0_t4_loop.trips) (x : S16.Idx) :
    (idx4_0 (F := F) C7 k x).toNat
        = 512 * spW C7 2 (4 * k.val) (16 * 0 + (x 0).val) + 64 * spW C7 2 (4 * k.val + 1) (16 * 0 + (x 0).val)
          + 8 * spW C7 2 (4 * k.val + 2) (16 * 0 + (x 0).val) + spW C7 2 (4 * k.val + 3) (16 * 0 + (x 0).val)
      ∧ (idx4_0 (F := F) C7 k x).toNat < 4096 := by
  have hk := trip4_lt k
  have hx : (x 0).val < 16 := (x 0).isLt
  have e0 : ((shapeCast S16 (row4_0_0 (F := F) C7 k) shapeCasts_S1x1x16_S16 : IVec S16 32) x).toNat = spW C7 2 (4 * k.val) (16 * 0 + (x 0).val) := row4_0_0_lane (F := F) C7 k x
  have e1 : ((shapeCast S16 (row4_0_1 (F := F) C7 k) shapeCasts_S1x1x16_S16 : IVec S16 32) x).toNat = spW C7 2 (4 * k.val + 1) (16 * 0 + (x 0).val) := row4_0_1_lane (F := F) C7 k x
  have e2 : ((shapeCast S16 (row4_0_2 (F := F) C7 k) shapeCasts_S1x1x16_S16 : IVec S16 32) x).toNat = spW C7 2 (4 * k.val + 2) (16 * 0 + (x 0).val) := row4_0_2_lane (F := F) C7 k x
  have e3 : ((shapeCast S16 (row4_0_3 (F := F) C7 k) shapeCasts_S1x1x16_S16 : IVec S16 32) x).toNat = spW C7 2 (4 * k.val + 3) (16 * 0 + (x 0).val) := row4_0_3_lane (F := F) C7 k x
  have b0 : spW C7 2 (4 * k.val) (16 * 0 + (x 0).val) < 8 := hlt _ _ (by omega) (by omega)
  have b1 : spW C7 2 (4 * k.val + 1) (16 * 0 + (x 0).val) < 8 := hlt _ _ (by omega) (by omega)
  have b2 : spW C7 2 (4 * k.val + 2) (16 * 0 + (x 0).val) < 8 := hlt _ _ (by omega) (by omega)
  have b3 : spW C7 2 (4 * k.val + 3) (16 * 0 + (x 0).val) < 8 := hlt _ _ (by omega) (by omega)
  obtain ⟨e, l⟩ := Cert.Proof.WordsKB.k0_pay47_lane (F := F) (row4_0_0 C7 k) (row4_0_1 C7 k) (row4_0_2 C7 k) (row4_0_3 C7 k) x
    (e0.trans_lt b0) (e1.trans_lt b1) (e2.trans_lt b2) (e3.trans_lt b3)
  exact ⟨e.trans (by rw [e0, e1, e2, e3]), l⟩

/-- The gather's side condition holds. -/
theorem chk4_0 (C7 : S4x200x128.Idx → BitVec 32) (hlt : SlabLt C7 2) (k : Fin k0_t4_loop.trips) :
    k0_chk21 (idx4_0 (F := F) C7 k) :=
  Cert.Proof.WordsKB.k0_chk21_of_lt _ fun x => (idx4_0_lane C7 hlt k x).2

/-- Group 1's sixteen index words at trip k. -/
abbrev idx4_1 (C7 : S4x200x128.Idx → BitVec 32) (k : Fin k0_t4_loop.trips) : IVec S16 32 :=
  k0_pay50 (F := F) (k0_pay49 (row4_1_0 C7 k)) (row4_1_1 C7 k) (row4_1_2 C7 k) (row4_1_3 C7 k)

theorem idx4_1_lane (C7 : S4x200x128.Idx → BitVec 32) (hlt : SlabLt C7 2) (k : Fin k0_t4_loop.trips) (x : S16.Idx) :
    (idx4_1 (F := F) C7 k x).toNat
        = 512 * spW C7 2 (4 * k.val) (16 * 1 + (x 0).val) + 64 * spW C7 2 (4 * k.val + 1) (16 * 1 + (x 0).val)
          + 8 * spW C7 2 (4 * k.val + 2) (16 * 1 + (x 0).val) + spW C7 2 (4 * k.val + 3) (16 * 1 + (x 0).val)
      ∧ (idx4_1 (F := F) C7 k x).toNat < 4096 := by
  have hk := trip4_lt k
  have hx : (x 0).val < 16 := (x 0).isLt
  have e0 : (k0_pay49 (row4_1_0 (F := F) C7 k) x).toNat = spW C7 2 (4 * k.val) (16 * 1 + (x 0).val) := row4_1_0_lane (F := F) C7 k x
  have e1 : ((shapeCast S16 (row4_1_1 (F := F) C7 k) shapeCasts_S1x1x16_S16 : IVec S16 32) x).toNat = spW C7 2 (4 * k.val + 1) (16 * 1 + (x 0).val) := row4_1_1_lane (F := F) C7 k x
  have e2 : ((shapeCast S16 (row4_1_2 (F := F) C7 k) shapeCasts_S1x1x16_S16 : IVec S16 32) x).toNat = spW C7 2 (4 * k.val + 2) (16 * 1 + (x 0).val) := row4_1_2_lane (F := F) C7 k x
  have e3 : ((shapeCast S16 (row4_1_3 (F := F) C7 k) shapeCasts_S1x1x16_S16 : IVec S16 32) x).toNat = spW C7 2 (4 * k.val + 3) (16 * 1 + (x 0).val) := row4_1_3_lane (F := F) C7 k x
  have b0 : spW C7 2 (4 * k.val) (16 * 1 + (x 0).val) < 8 := hlt _ _ (by omega) (by omega)
  have b1 : spW C7 2 (4 * k.val + 1) (16 * 1 + (x 0).val) < 8 := hlt _ _ (by omega) (by omega)
  have b2 : spW C7 2 (4 * k.val + 2) (16 * 1 + (x 0).val) < 8 := hlt _ _ (by omega) (by omega)
  have b3 : spW C7 2 (4 * k.val + 3) (16 * 1 + (x 0).val) < 8 := hlt _ _ (by omega) (by omega)
  obtain ⟨e, l⟩ := Cert.Proof.WordsKB.k0_pay50_lane (F := F) (k0_pay49 (row4_1_0 C7 k)) (row4_1_1 C7 k) (row4_1_2 C7 k) (row4_1_3 C7 k) x
    (e0.trans_lt b0) (e1.trans_lt b1) (e2.trans_lt b2) (e3.trans_lt b3)
  exact ⟨e.trans (by rw [e0, e1, e2, e3]), l⟩

/-- The gather's side condition holds. -/
theorem chk4_1 (C7 : S4x200x128.Idx → BitVec 32) (hlt : SlabLt C7 2) (k : Fin k0_t4_loop.trips) :
    k0_chk22 (idx4_1 (F := F) C7 k) :=
  Cert.Proof.WordsKB.k0_chk22_of_lt _ fun x => (idx4_1_lane C7 hlt k x).2

/-- Group 2's sixteen index words at trip k. -/
abbrev idx4_2 (C7 : S4x200x128.Idx → BitVec 32) (k : Fin k0_t4_loop.trips) : IVec S16 32 :=
  k0_pay55 (F := F) (k0_pay52 (row4_2_0 C7 k)) (k0_pay53 (row4_2_1 C7 k)) (k0_pay54 (row4_2_2 C7 k)) (row4_2_3 C7 k)

theorem idx4_2_lane (C7 : S4x200x128.Idx → BitVec 32) (hlt : SlabLt C7 2) (k : Fin k0_t4_loop.trips) (x : S16.Idx) :
    (idx4_2 (F := F) C7 k x).toNat
        = 512 * spW C7 2 (4 * k.val) (16 * 2 + (x 0).val) + 64 * spW C7 2 (4 * k.val + 1) (16 * 2 + (x 0).val)
          + 8 * spW C7 2 (4 * k.val + 2) (16 * 2 + (x 0).val) + spW C7 2 (4 * k.val + 3) (16 * 2 + (x 0).val)
      ∧ (idx4_2 (F := F) C7 k x).toNat < 4096 := by
  have hk := trip4_lt k
  have hx : (x 0).val < 16 := (x 0).isLt
  have e0 : (k0_pay52 (row4_2_0 (F := F) C7 k) x).toNat = spW C7 2 (4 * k.val) (16 * 2 + (x 0).val) := row4_2_0_lane (F := F) C7 k x
  have e1 : (k0_pay53 (row4_2_1 (F := F) C7 k) x).toNat = spW C7 2 (4 * k.val + 1) (16 * 2 + (x 0).val) := row4_2_1_lane (F := F) C7 k x
  have e2 : (k0_pay54 (row4_2_2 (F := F) C7 k) x).toNat = spW C7 2 (4 * k.val + 2) (16 * 2 + (x 0).val) := row4_2_2_lane (F := F) C7 k x
  have e3 : ((shapeCast S16 (row4_2_3 (F := F) C7 k) shapeCasts_S1x1x16_S16 : IVec S16 32) x).toNat = spW C7 2 (4 * k.val + 3) (16 * 2 + (x 0).val) := row4_2_3_lane (F := F) C7 k x
  have b0 : spW C7 2 (4 * k.val) (16 * 2 + (x 0).val) < 8 := hlt _ _ (by omega) (by omega)
  have b1 : spW C7 2 (4 * k.val + 1) (16 * 2 + (x 0).val) < 8 := hlt _ _ (by omega) (by omega)
  have b2 : spW C7 2 (4 * k.val + 2) (16 * 2 + (x 0).val) < 8 := hlt _ _ (by omega) (by omega)
  have b3 : spW C7 2 (4 * k.val + 3) (16 * 2 + (x 0).val) < 8 := hlt _ _ (by omega) (by omega)
  obtain ⟨e, l⟩ := Cert.Proof.WordsKB.k0_pay55_lane (F := F) (k0_pay52 (row4_2_0 C7 k)) (k0_pay53 (row4_2_1 C7 k)) (k0_pay54 (row4_2_2 C7 k)) (row4_2_3 C7 k) x
    (e0.trans_lt b0) (e1.trans_lt b1) (e2.trans_lt b2) (e3.trans_lt b3)
  exact ⟨e.trans (by rw [e0, e1, e2, e3]), l⟩

/-- The gather's side condition holds. -/
theorem chk4_2 (C7 : S4x200x128.Idx → BitVec 32) (hlt : SlabLt C7 2) (k : Fin k0_t4_loop.trips) :
    k0_chk23 (idx4_2 (F := F) C7 k) :=
  Cert.Proof.WordsKB.k0_chk23_of_lt _ fun x => (idx4_2_lane C7 hlt k x).2

/-- Group 3's sixteen index words at trip k. -/
abbrev idx4_3 (C7 : S4x200x128.Idx → BitVec 32) (k : Fin k0_t4_loop.trips) : IVec S16 32 :=
  k0_pay57 (F := F) (row4_3_0 C7 k) (row4_3_1 C7 k) (row4_3_2 C7 k) (row4_3_3 C7 k)

theorem idx4_3_lane (C7 : S4x200x128.Idx → BitVec 32) (hlt : SlabLt C7 2) (k : Fin k0_t4_loop.trips) (x : S16.Idx) :
    (idx4_3 (F := F) C7 k x).toNat
        = 512 * spW C7 2 (4 * k.val) (16 * 3 + (x 0).val) + 64 * spW C7 2 (4 * k.val + 1) (16 * 3 + (x 0).val)
          + 8 * spW C7 2 (4 * k.val + 2) (16 * 3 + (x 0).val) + spW C7 2 (4 * k.val + 3) (16 * 3 + (x 0).val)
      ∧ (idx4_3 (F := F) C7 k x).toNat < 4096 := by
  have hk := trip4_lt k
  have hx : (x 0).val < 16 := (x 0).isLt
  have e0 : ((shapeCast S16 (row4_3_0 (F := F) C7 k) shapeCasts_S1x1x16_S16 : IVec S16 32) x).toNat = spW C7 2 (4 * k.val) (16 * 3 + (x 0).val) := row4_3_0_lane (F := F) C7 k x
  have e1 : ((shapeCast S16 (row4_3_1 (F := F) C7 k) shapeCasts_S1x1x16_S16 : IVec S16 32) x).toNat = spW C7 2 (4 * k.val + 1) (16 * 3 + (x 0).val) := row4_3_1_lane (F := F) C7 k x
  have e2 : ((shapeCast S16 (row4_3_2 (F := F) C7 k) shapeCasts_S1x1x16_S16 : IVec S16 32) x).toNat = spW C7 2 (4 * k.val + 2) (16 * 3 + (x 0).val) := row4_3_2_lane (F := F) C7 k x
  have e3 : ((shapeCast S16 (row4_3_3 (F := F) C7 k) shapeCasts_S1x1x16_S16 : IVec S16 32) x).toNat = spW C7 2 (4 * k.val + 3) (16 * 3 + (x 0).val) := row4_3_3_lane (F := F) C7 k x
  have b0 : spW C7 2 (4 * k.val) (16 * 3 + (x 0).val) < 8 := hlt _ _ (by omega) (by omega)
  have b1 : spW C7 2 (4 * k.val + 1) (16 * 3 + (x 0).val) < 8 := hlt _ _ (by omega) (by omega)
  have b2 : spW C7 2 (4 * k.val + 2) (16 * 3 + (x 0).val) < 8 := hlt _ _ (by omega) (by omega)
  have b3 : spW C7 2 (4 * k.val + 3) (16 * 3 + (x 0).val) < 8 := hlt _ _ (by omega) (by omega)
  obtain ⟨e, l⟩ := Cert.Proof.WordsKB.k0_pay57_lane (F := F) (row4_3_0 C7 k) (row4_3_1 C7 k) (row4_3_2 C7 k) (row4_3_3 C7 k) x
    (e0.trans_lt b0) (e1.trans_lt b1) (e2.trans_lt b2) (e3.trans_lt b3)
  exact ⟨e.trans (by rw [e0, e1, e2, e3]), l⟩

/-- The gather's side condition holds. -/
theorem chk4_3 (C7 : S4x200x128.Idx → BitVec 32) (hlt : SlabLt C7 2) (k : Fin k0_t4_loop.trips) :
    k0_chk24 (idx4_3 (F := F) C7 k) :=
  Cert.Proof.WordsKB.k0_chk24_of_lt _ fun x => (idx4_3_lane C7 hlt k x).2

/-- Group 4's sixteen index words at trip k. -/
abbrev idx4_4 (C7 : S4x200x128.Idx → BitVec 32) (k : Fin k0_t4_loop.trips) : IVec S16 32 :=
  k0_pay59 (F := F) (row4_4_0 C7 k) (row4_4_1 C7 k) (row4_4_2 C7 k) (row4_4_3 C7 k)

theorem idx4_4_lane (C7 : S4x200x128.Idx → BitVec 32) (hlt : SlabLt C7 2) (k : Fin k0_t4_loop.trips) (x : S16.Idx) :
    (idx4_4 (F := F) C7 k x).toNat
        = 512 * spW C7 2 (4 * k.val) (16 * 4 + (x 0).val) + 64 * spW C7 2 (4 * k.val + 1) (16 * 4 + (x 0).val)
          + 8 * spW C7 2 (4 * k.val + 2) (16 * 4 + (x 0).val) + spW C7 2 (4 * k.val + 3) (16 * 4 + (x 0).val)
      ∧ (idx4_4 (F := F) C7 k x).toNat < 4096 := by
  have hk := trip4_lt k
  have hx : (x 0).val < 16 := (x 0).isLt
  have e0 : ((shapeCast S16 (row4_4_0 (F := F) C7 k) shapeCasts_S1x1x16_S16 : IVec S16 32) x).toNat = spW C7 2 (4 * k.val) (16 * 4 + (x 0).val) := row4_4_0_lane (F := F) C7 k x
  have e1 : ((shapeCast S16 (row4_4_1 (F := F) C7 k) shapeCasts_S1x1x16_S16 : IVec S16 32) x).toNat = spW C7 2 (4 * k.val + 1) (16 * 4 + (x 0).val) := row4_4_1_lane (F := F) C7 k x
  have e2 : ((shapeCast S16 (row4_4_2 (F := F) C7 k) shapeCasts_S1x1x16_S16 : IVec S16 32) x).toNat = spW C7 2 (4 * k.val + 2) (16 * 4 + (x 0).val) := row4_4_2_lane (F := F) C7 k x
  have e3 : ((shapeCast S16 (row4_4_3 (F := F) C7 k) shapeCasts_S1x1x16_S16 : IVec S16 32) x).toNat = spW C7 2 (4 * k.val + 3) (16 * 4 + (x 0).val) := row4_4_3_lane (F := F) C7 k x
  have b0 : spW C7 2 (4 * k.val) (16 * 4 + (x 0).val) < 8 := hlt _ _ (by omega) (by omega)
  have b1 : spW C7 2 (4 * k.val + 1) (16 * 4 + (x 0).val) < 8 := hlt _ _ (by omega) (by omega)
  have b2 : spW C7 2 (4 * k.val + 2) (16 * 4 + (x 0).val) < 8 := hlt _ _ (by omega) (by omega)
  have b3 : spW C7 2 (4 * k.val + 3) (16 * 4 + (x 0).val) < 8 := hlt _ _ (by omega) (by omega)
  obtain ⟨e, l⟩ := Cert.Proof.WordsKB.k0_pay59_lane (F := F) (row4_4_0 C7 k) (row4_4_1 C7 k) (row4_4_2 C7 k) (row4_4_3 C7 k) x
    (e0.trans_lt b0) (e1.trans_lt b1) (e2.trans_lt b2) (e3.trans_lt b3)
  exact ⟨e.trans (by rw [e0, e1, e2, e3]), l⟩

/-- The gather's side condition holds. -/
theorem chk4_4 (C7 : S4x200x128.Idx → BitVec 32) (hlt : SlabLt C7 2) (k : Fin k0_t4_loop.trips) :
    k0_chk25 (idx4_4 (F := F) C7 k) :=
  Cert.Proof.WordsKB.k0_chk25_of_lt _ fun x => (idx4_4_lane C7 hlt k x).2

/-- Group 5's sixteen index words at trip k. -/
abbrev idx4_5 (C7 : S4x200x128.Idx → BitVec 32) (k : Fin k0_t4_loop.trips) : IVec S16 32 :=
  k0_pay62 (F := F) (k0_pay61 (row4_5_0 C7 k)) (row4_5_1 C7 k) (row4_5_2 C7 k) (row4_5_3 C7 k)

theorem idx4_5_lane (C7 : S4x200x128.Idx → BitVec 32) (hlt : SlabLt C7 2) (k : Fin k0_t4_loop.trips) (x : S16.Idx) :
    (idx4_5 (F := F) C7 k x).toNat
        = 512 * spW C7 2 (4 * k.val) (16 * 5 + (x 0).val) + 64 * spW C7 2 (4 * k.val + 1) (16 * 5 + (x 0).val)
          + 8 * spW C7 2 (4 * k.val + 2) (16 * 5 + (x 0).val) + spW C7 2 (4 * k.val + 3) (16 * 5 + (x 0).val)
      ∧ (idx4_5 (F := F) C7 k x).toNat < 4096 := by
  have hk := trip4_lt k
  have hx : (x 0).val < 16 := (x 0).isLt
  have e0 : (k0_pay61 (row4_5_0 (F := F) C7 k) x).toNat = spW C7 2 (4 * k.val) (16 * 5 + (x 0).val) := row4_5_0_lane (F := F) C7 k x
  have e1 : ((shapeCast S16 (row4_5_1 (F := F) C7 k) shapeCasts_S1x1x16_S16 : IVec S16 32) x).toNat = spW C7 2 (4 * k.val + 1) (16 * 5 + (x 0).val) := row4_5_1_lane (F := F) C7 k x
  have e2 : ((shapeCast S16 (row4_5_2 (F := F) C7 k) shapeCasts_S1x1x16_S16 : IVec S16 32) x).toNat = spW C7 2 (4 * k.val + 2) (16 * 5 + (x 0).val) := row4_5_2_lane (F := F) C7 k x
  have e3 : ((shapeCast S16 (row4_5_3 (F := F) C7 k) shapeCasts_S1x1x16_S16 : IVec S16 32) x).toNat = spW C7 2 (4 * k.val + 3) (16 * 5 + (x 0).val) := row4_5_3_lane (F := F) C7 k x
  have b0 : spW C7 2 (4 * k.val) (16 * 5 + (x 0).val) < 8 := hlt _ _ (by omega) (by omega)
  have b1 : spW C7 2 (4 * k.val + 1) (16 * 5 + (x 0).val) < 8 := hlt _ _ (by omega) (by omega)
  have b2 : spW C7 2 (4 * k.val + 2) (16 * 5 + (x 0).val) < 8 := hlt _ _ (by omega) (by omega)
  have b3 : spW C7 2 (4 * k.val + 3) (16 * 5 + (x 0).val) < 8 := hlt _ _ (by omega) (by omega)
  obtain ⟨e, l⟩ := Cert.Proof.WordsKB.k0_pay62_lane (F := F) (k0_pay61 (row4_5_0 C7 k)) (row4_5_1 C7 k) (row4_5_2 C7 k) (row4_5_3 C7 k) x
    (e0.trans_lt b0) (e1.trans_lt b1) (e2.trans_lt b2) (e3.trans_lt b3)
  exact ⟨e.trans (by rw [e0, e1, e2, e3]), l⟩

/-- The gather's side condition holds. -/
theorem chk4_5 (C7 : S4x200x128.Idx → BitVec 32) (hlt : SlabLt C7 2) (k : Fin k0_t4_loop.trips) :
    k0_chk26 (idx4_5 (F := F) C7 k) :=
  Cert.Proof.WordsKB.k0_chk26_of_lt _ fun x => (idx4_5_lane C7 hlt k x).2

/-- Group 6's sixteen index words at trip k. -/
abbrev idx4_6 (C7 : S4x200x128.Idx → BitVec 32) (k : Fin k0_t4_loop.trips) : IVec S16 32 :=
  k0_pay67 (F := F) (k0_pay64 (row4_6_0 C7 k)) (k0_pay65 (row4_6_1 C7 k)) (k0_pay66 (row4_6_2 C7 k)) (row4_6_3 C7 k)

theorem idx4_6_lane (C7 : S4x200x128.Idx → BitVec 32) (hlt : SlabLt C7 2) (k : Fin k0_t4_loop.trips) (x : S16.Idx) :
    (idx4_6 (F := F) C7 k x).toNat
        = 512 * spW C7 2 (4 * k.val) (16 * 6 + (x 0).val) + 64 * spW C7 2 (4 * k.val + 1) (16 * 6 + (x 0).val)
          + 8 * spW C7 2 (4 * k.val + 2) (16 * 6 + (x 0).val) + spW C7 2 (4 * k.val + 3) (16 * 6 + (x 0).val)
      ∧ (idx4_6 (F := F) C7 k x).toNat < 4096 := by
  have hk := trip4_lt k
  have hx : (x 0).val < 16 := (x 0).isLt
  have e0 : (k0_pay64 (row4_6_0 (F := F) C7 k) x).toNat = spW C7 2 (4 * k.val) (16 * 6 + (x 0).val) := row4_6_0_lane (F := F) C7 k x
  have e1 : (k0_pay65 (row4_6_1 (F := F) C7 k) x).toNat = spW C7 2 (4 * k.val + 1) (16 * 6 + (x 0).val) := row4_6_1_lane (F := F) C7 k x
  have e2 : (k0_pay66 (row4_6_2 (F := F) C7 k) x).toNat = spW C7 2 (4 * k.val + 2) (16 * 6 + (x 0).val) := row4_6_2_lane (F := F) C7 k x
  have e3 : ((shapeCast S16 (row4_6_3 (F := F) C7 k) shapeCasts_S1x1x16_S16 : IVec S16 32) x).toNat = spW C7 2 (4 * k.val + 3) (16 * 6 + (x 0).val) := row4_6_3_lane (F := F) C7 k x
  have b0 : spW C7 2 (4 * k.val) (16 * 6 + (x 0).val) < 8 := hlt _ _ (by omega) (by omega)
  have b1 : spW C7 2 (4 * k.val + 1) (16 * 6 + (x 0).val) < 8 := hlt _ _ (by omega) (by omega)
  have b2 : spW C7 2 (4 * k.val + 2) (16 * 6 + (x 0).val) < 8 := hlt _ _ (by omega) (by omega)
  have b3 : spW C7 2 (4 * k.val + 3) (16 * 6 + (x 0).val) < 8 := hlt _ _ (by omega) (by omega)
  obtain ⟨e, l⟩ := Cert.Proof.WordsKB.k0_pay67_lane (F := F) (k0_pay64 (row4_6_0 C7 k)) (k0_pay65 (row4_6_1 C7 k)) (k0_pay66 (row4_6_2 C7 k)) (row4_6_3 C7 k) x
    (e0.trans_lt b0) (e1.trans_lt b1) (e2.trans_lt b2) (e3.trans_lt b3)
  exact ⟨e.trans (by rw [e0, e1, e2, e3]), l⟩

/-- The gather's side condition holds. -/
theorem chk4_6 (C7 : S4x200x128.Idx → BitVec 32) (hlt : SlabLt C7 2) (k : Fin k0_t4_loop.trips) :
    k0_chk27 (idx4_6 (F := F) C7 k) :=
  Cert.Proof.WordsKB.k0_chk27_of_lt _ fun x => (idx4_6_lane C7 hlt k x).2

/-- Group 7's sixteen index words at trip k. -/
abbrev idx4_7 (C7 : S4x200x128.Idx → BitVec 32) (k : Fin k0_t4_loop.trips) : IVec S16 32 :=
  k0_pay69 (F := F) (row4_7_0 C7 k) (row4_7_1 C7 k) (row4_7_2 C7 k) (row4_7_3 C7 k)

theorem idx4_7_lane (C7 : S4x200x128.Idx → BitVec 32) (hlt : SlabLt C7 2) (k : Fin k0_t4_loop.trips) (x : S16.Idx) :
    (idx4_7 (F := F) C7 k x).toNat
        = 512 * spW C7 2 (4 * k.val) (16 * 7 + (x 0).val) + 64 * spW C7 2 (4 * k.val + 1) (16 * 7 + (x 0).val)
          + 8 * spW C7 2 (4 * k.val + 2) (16 * 7 + (x 0).val) + spW C7 2 (4 * k.val + 3) (16 * 7 + (x 0).val)
      ∧ (idx4_7 (F := F) C7 k x).toNat < 4096 := by
  have hk := trip4_lt k
  have hx : (x 0).val < 16 := (x 0).isLt
  have e0 : ((shapeCast S16 (row4_7_0 (F := F) C7 k) shapeCasts_S1x1x16_S16 : IVec S16 32) x).toNat = spW C7 2 (4 * k.val) (16 * 7 + (x 0).val) := row4_7_0_lane (F := F) C7 k x
  have e1 : ((shapeCast S16 (row4_7_1 (F := F) C7 k) shapeCasts_S1x1x16_S16 : IVec S16 32) x).toNat = spW C7 2 (4 * k.val + 1) (16 * 7 + (x 0).val) := row4_7_1_lane (F := F) C7 k x
  have e2 : ((shapeCast S16 (row4_7_2 (F := F) C7 k) shapeCasts_S1x1x16_S16 : IVec S16 32) x).toNat = spW C7 2 (4 * k.val + 2) (16 * 7 + (x 0).val) := row4_7_2_lane (F := F) C7 k x
  have e3 : ((shapeCast S16 (row4_7_3 (F := F) C7 k) shapeCasts_S1x1x16_S16 : IVec S16 32) x).toNat = spW C7 2 (4 * k.val + 3) (16 * 7 + (x 0).val) := row4_7_3_lane (F := F) C7 k x
  have b0 : spW C7 2 (4 * k.val) (16 * 7 + (x 0).val) < 8 := hlt _ _ (by omega) (by omega)
  have b1 : spW C7 2 (4 * k.val + 1) (16 * 7 + (x 0).val) < 8 := hlt _ _ (by omega) (by omega)
  have b2 : spW C7 2 (4 * k.val + 2) (16 * 7 + (x 0).val) < 8 := hlt _ _ (by omega) (by omega)
  have b3 : spW C7 2 (4 * k.val + 3) (16 * 7 + (x 0).val) < 8 := hlt _ _ (by omega) (by omega)
  obtain ⟨e, l⟩ := Cert.Proof.WordsKB.k0_pay69_lane (F := F) (row4_7_0 C7 k) (row4_7_1 C7 k) (row4_7_2 C7 k) (row4_7_3 C7 k) x
    (e0.trans_lt b0) (e1.trans_lt b1) (e2.trans_lt b2) (e3.trans_lt b3)
  exact ⟨e.trans (by rw [e0, e1, e2, e3]), l⟩

/-- The gather's side condition holds. -/
theorem chk4_7 (C7 : S4x200x128.Idx → BitVec 32) (hlt : SlabLt C7 2) (k : Fin k0_t4_loop.trips) :
    k0_chk28 (idx4_7 (F := F) C7 k) :=
  Cert.Proof.WordsKB.k0_chk28_of_lt _ fun x => (idx4_7_lane C7 hlt k x).2

/-! ## A trip, and the start -/

/-- One trip takes the eight accumulators from k quads to k + 1. -/
theorem trip4 (C10 : S16.Idx → F .f32) (C11 : S4096.Idx → F .f32) (C7 : S4x200x128.Idx → BitVec 32)
    (hT : TabOK C10 256 C11) (hlt : SlabLt C7 2) (k : Fin k0_t4_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx4_0 (F := F) C7 k] : Fin 1 → IVec S16 32) a x).toNat < S4096.size a)
    (h1 : ∀ a x, ((![idx4_1 (F := F) C7 k] : Fin 1 → IVec S16 32) a x).toNat < S4096.size a)
    (h2 : ∀ a x, ((![idx4_2 (F := F) C7 k] : Fin 1 → IVec S16 32) a x).toNat < S4096.size a)
    (h3 : ∀ a x, ((![idx4_3 (F := F) C7 k] : Fin 1 → IVec S16 32) a x).toNat < S4096.size a)
    (h4 : ∀ a x, ((![idx4_4 (F := F) C7 k] : Fin 1 → IVec S16 32) a x).toNat < S4096.size a)
    (h5 : ∀ a x, ((![idx4_5 (F := F) C7 k] : Fin 1 → IVec S16 32) a x).toNat < S4096.size a)
    (h6 : ∀ a x, ((![idx4_6 (F := F) C7 k] : Fin 1 → IVec S16 32) a x).toNat < S4096.size a)
    (h7 : ∀ a x, ((![idx4_7 (F := F) C7 k] : Fin 1 → IVec S16 32) a x).toNat < S4096.size a)
    (hacc : AccOK C10 C7 2 k.val accs) :
    AccOK C10 C7 2 (k.val + 1)
      (k0_pay48 accs.1 (tabGather C11 (idx4_0 C7 k) h0),
        k0_pay51 accs.2.1 (tabGather C11 (idx4_1 C7 k) h1),
        k0_pay56 accs.2.2.1 (tabGather C11 (idx4_2 C7 k) h2),
        k0_pay58 accs.2.2.2.1 (tabGather C11 (idx4_3 C7 k) h3),
        k0_pay60 accs.2.2.2.2.1 (tabGather C11 (idx4_4 C7 k) h4),
        k0_pay63 accs.2.2.2.2.2.1 (tabGather C11 (idx4_5 C7 k) h5),
        k0_pay68 accs.2.2.2.2.2.2.1 (tabGather C11 (idx4_6 C7 k) h6),
        k0_pay138 accs.2.2.2.2.2.2.2 (tabGather C11 (idx4_7 C7 k) h7)) := by
  unfold AccOK at hacc ⊢
  obtain ⟨a0, a1, a2, a3, a4, a5, a6, a7⟩ := hacc
  exact ⟨lane_step C10 C11 C7 hT 2 0 k.val _ a0 (idx4_0 C7 k) h0 (fun x => (idx4_0_lane C7 hlt k x).1),
    lane_step C10 C11 C7 hT 2 1 k.val _ a1 (idx4_1 C7 k) h1 (fun x => (idx4_1_lane C7 hlt k x).1),
    lane_step C10 C11 C7 hT 2 2 k.val _ a2 (idx4_2 C7 k) h2 (fun x => (idx4_2_lane C7 hlt k x).1),
    lane_step C10 C11 C7 hT 2 3 k.val _ a3 (idx4_3 C7 k) h3 (fun x => (idx4_3_lane C7 hlt k x).1),
    lane_step C10 C11 C7 hT 2 4 k.val _ a4 (idx4_4 C7 k) h4 (fun x => (idx4_4_lane C7 hlt k x).1),
    lane_step C10 C11 C7 hT 2 5 k.val _ a5 (idx4_5 C7 k) h5 (fun x => (idx4_5_lane C7 hlt k x).1),
    lane_step C10 C11 C7 hT 2 6 k.val _ a6 (idx4_6 C7 k) h6 (fun x => (idx4_6_lane C7 hlt k x).1),
    lane_step C10 C11 C7 hT 2 7 k.val _ a7 (idx4_7 C7 k) h7 (fun x => (idx4_7_lane C7 hlt k x).1)⟩

/-- The loop starts with every accumulator at zero: no quad added yet. -/
theorem init4 (C10 : S16.Idx → F .f32) (C7 : S4x200x128.Idx → BitVec 32) :
    AccOK C10 C7 2 0
      (k0_pay130 (F := F), k0_pay131 (F := F), k0_pay132 (F := F), k0_pay133 (F := F), k0_pay134 (F := F), k0_pay135 (F := F), k0_pay136 (F := F), k0_pay137 (F := F)) := by
  unfold AccOK
  exact ⟨fun _ => rfl, fun _ => rfl, fun _ => rfl, fun _ => rfl, fun _ => rfl, fun _ => rfl, fun _ => rfl, fun _ => rfl⟩

end Cert.Proof.KB

end
-- ==== Proof.LoopT5KB.lean ====
/-
  Loop 5 of the tile's body — panel 3 of the species scratch, fifty trips — lane by lane.

  Trip k reads, for each group j < 8 of sixteen molecule columns 16 j .. 16 j + 15 of panel 3, the rows of atoms
  4k, 4k+1, 4k+2, 4k+3 at those columns; the group's index word at lane x is
  512 s(4k) + 64 s(4k+1) + 8 s(4k+2) + s(4k+3), s(a) the species word of atom a at column 16 j + x, below 4096
  because every word is below eight; the trip adds the table of 4096's entry at that index, which is quad k of
  the column, to the group's accumulator. So accumulators holding the first k quads hold the first k + 1 after
  the trip, and the loop starts from zero.
-/
import proofs.«206988_g4337916970008_retrytranche1_694_23_alg».proof.Proof.LoopLaneKB
import proofs.«206988_g4337916970008_retrytranche1_694_23_alg».proof.Proof.WordsQKB

noncomputable section

namespace Cert.Proof.KB

open Cert.Kernel Cert.Kernel.Gen
open Idealize.ShloMosaic
open Idealize.SL.Sem

variable {F : FTy → Type} [FloatOps F]

/-- The loop has at most fifty trips. -/
theorem trip5_lt (k : Fin k0_t5_loop.trips) : k.val < 50 := Nat.lt_of_lt_of_le k.isLt k0_t5_abs.2.1

/-! ## The rows a trip loads -/

/-- Group 0: the rows of atoms 4k .. 4k+3 at columns 0 .. 15. -/
abbrev row5_0_0 (C7 : S4x200x128.Idx → BitVec 32) (k : Fin k0_t5_loop.trips) : Vec F S1x1x16 .i32 :=
  rowLd C7 (k0_off53 k) (k0_off53_inb k)
abbrev row5_0_1 (C7 : S4x200x128.Idx → BitVec 32) (k : Fin k0_t5_loop.trips) : Vec F S1x1x16 .i32 :=
  rowLd C7 (k0_off54 k 1#32) (k0_off54_inb k 0)
abbrev row5_0_2 (C7 : S4x200x128.Idx → BitVec 32) (k : Fin k0_t5_loop.trips) : Vec F S1x1x16 .i32 :=
  rowLd C7 (k0_off54 k 2#32) (k0_off54_inb k 1)
abbrev row5_0_3 (C7 : S4x200x128.Idx → BitVec 32) (k : Fin k0_t5_loop.trips) : Vec F S1x1x16 .i32 :=
  rowLd C7 (k0_off54 k 3#32) (k0_off54_inb k 2)

theorem row5_0_0_lane (C7 : S4x200x128.Idx → BitVec 32) (k : Fin k0_t5_loop.trips) (x : S16.Idx) :
    ((shapeCast S16 (row5_0_0 (F := F) C7 k) shapeCasts_S1x1x16_S16 : IVec S16 32) x).toNat
      = spW C7 3 (4 * k.val) (16 * 0 + (x 0).val) :=
  rowLd_lane C7 _ _ 3 (4 * k.val) (4 * k.val) (16 * 0) (Gen.k0_off53_eq k) rfl (by decide)
    (by have := trip5_lt k; omega) (by decide) x
theorem row5_0_1_lane (C7 : S4x200x128.Idx → BitVec 32) (k : Fin k0_t5_loop.trips) (x : S16.Idx) :
    ((shapeCast S16 (row5_0_1 (F := F) C7 k) shapeCasts_S1x1x16_S16 : IVec S16 32) x).toNat
      = spW C7 3 (4 * k.val + 1) (16 * 0 + (x 0).val) :=
  rowLd_lane C7 _ _ 3 (4 * k.val + 0 + 1) (4 * k.val + 1) (16 * 0) (Gen.k0_off54_eq k ⟨0, by decide⟩)
    (by omega) (by decide) (by have := trip5_lt k; omega) (by decide) x
theorem row5_0_2_lane (C7 : S4x200x128.Idx → BitVec 32) (k : Fin k0_t5_loop.trips) (x : S16.Idx) :
    ((shapeCast S16 (row5_0_2 (F := F) C7 k) shapeCasts_S1x1x16_S16 : IVec S16 32) x).toNat
      = spW C7 3 (4 * k.val + 2) (16 * 0 + (x 0).val) :=
  rowLd_lane C7 _ _ 3 (4 * k.val + 1 + 1) (4 * k.val + 2) (16 * 0) (Gen.k0_off54_eq k ⟨1, by decide⟩)
    (by omega) (by decide) (by have := trip5_lt k; omega) (by decide) x
theorem row5_0_3_lane (C7 : S4x200x128.Idx → BitVec 32) (k : Fin k0_t5_loop.trips) (x : S16.Idx) :
    ((shapeCast S16 (row5_0_3 (F := F) C7 k) shapeCasts_S1x1x16_S16 : IVec S16 32) x).toNat
      = spW C7 3 (4 * k.val + 3) (16 * 0 + (x 0).val) :=
  rowLd_lane C7 _ _ 3 (4 * k.val + 2 + 1) (4 * k.val + 3) (16 * 0) (Gen.k0_off54_eq k ⟨2, by decide⟩)
    (by omega) (by decide) (by have := trip5_lt k; omega) (by decide) x

/-- Group 1: the rows of atoms 4k .. 4k+3 at columns 16 .. 31. -/
abbrev row5_1_0 (C7 : S4x200x128.Idx → BitVec 32) (k : Fin k0_t5_loop.trips) : Vec F S1x1x16 .i32 :=
  rowLd C7 (k0_off55 k) (k0_off55_inb k)
abbrev row5_1_1 (C7 : S4x200x128.Idx → BitVec 32) (k : Fin k0_t5_loop.trips) : Vec F S1x1x16 .i32 :=
  rowLd C7 (k0_off56 k 1#32) (k0_off56_inb k 0)
abbrev row5_1_2 (C7 : S4x200x128.Idx → BitVec 32) (k : Fin k0_t5_loop.trips) : Vec F S1x1x16 .i32 :=
  rowLd C7 (k0_off56 k 2#32) (k0_off56_inb k 1)
abbrev row5_1_3 (C7 : S4x200x128.Idx → BitVec 32) (k : Fin k0_t5_loop.trips) : Vec F S1x1x16 .i32 :=
  rowLd C7 (k0_off56 k 3#32) (k0_off56_inb k 2)

theorem row5_1_0_lane (C7 : S4x200x128.Idx → BitVec 32) (k : Fin k0_t5_loop.trips) (x : S16.Idx) :
    ((shapeCast S16 (row5_1_0 (F := F) C7 k) shapeCasts_S1x1x16_S16 : IVec S16 32) x).toNat
      = spW C7 3 (4 * k.val) (16 * 1 + (x 0).val) :=
  rowLd_lane C7 _ _ 3 (4 * k.val) (4 * k.val) (16 * 1) (Gen.k0_off55_eq k) rfl (by decide)
    (by have := trip5_lt k; omega) (by decide) x
theorem row5_1_1_lane (C7 : S4x200x128.Idx → BitVec 32) (k : Fin k0_t5_loop.trips) (x : S16.Idx) :
    ((shapeCast S16 (row5_1_1 (F := F) C7 k) shapeCasts_S1x1x16_S16 : IVec S16 32) x).toNat
      = spW C7 3 (4 * k.val + 1) (16 * 1 + (x 0).val) :=
  rowLd_lane C7 _ _ 3 (4 * k.val + 0 + 1) (4 * k.val + 1) (16 * 1) (Gen.k0_off56_eq k ⟨0, by decide⟩)
    (by omega) (by decide) (by have := trip5_lt k; omega) (by decide) x
theorem row5_1_2_lane (C7 : S4x200x128.Idx → BitVec 32) (k : Fin k0_t5_loop.trips) (x : S16.Idx) :
    ((shapeCast S16 (row5_1_2 (F := F) C7 k) shapeCasts_S1x1x16_S16 : IVec S16 32) x).toNat
      = spW C7 3 (4 * k.val + 2) (16 * 1 + (x 0).val) :=
  rowLd_lane C7 _ _ 3 (4 * k.val + 1 + 1) (4 * k.val + 2) (16 * 1) (Gen.k0_off56_eq k ⟨1, by decide⟩)
    (by omega) (by decide) (by have := trip5_lt k; omega) (by decide) x
theorem row5_1_3_lane (C7 : S4x200x128.Idx → BitVec 32) (k : Fin k0_t5_loop.trips) (x : S16.Idx) :
    ((shapeCast S16 (row5_1_3 (F := F) C7 k) shapeCasts_S1x1x16_S16 : IVec S16 32) x).toNat
      = spW C7 3 (4 * k.val + 3) (16 * 1 + (x 0).val) :=
  rowLd_lane C7 _ _ 3 (4 * k.val + 2 + 1) (4 * k.val + 3) (16 * 1) (Gen.k0_off56_eq k ⟨2, by decide⟩)
    (by omega) (by decide) (by have := trip5_lt k; omega) (by decide) x

/-- Group 2: the rows of atoms 4k .. 4k+3 at columns 32 .. 47. -/
abbrev row5_2_0 (C7 : S4x200x128.Idx → BitVec 32) (k : Fin k0_t5_loop.trips) : Vec F S1x1x16 .i32 :=
  rowLd C7 (k0_off57 k) (k0_off57_inb k)
abbrev row5_2_1 (C7 : S4x200x128.Idx → BitVec 32) (k : Fin k0_t5_loop.trips) : Vec F S1x1x16 .i32 :=
  rowLd C7 (k0_off58 k 1#32) (k0_off58_inb k 0)
abbrev row5_2_2 (C7 : S4x200x128.Idx → BitVec 32) (k : Fin k0_t5_loop.trips) : Vec F S1x1x16 .i32 :=
  rowLd C7 (k0_off58 k 2#32) (k0_off58_inb k 1)
abbrev row5_2_3 (C7 : S4x200x128.Idx → BitVec 32) (k : Fin k0_t5_loop.trips) : Vec F S1x1x16 .i32 :=
  rowLd C7 (k0_off58 k 3#32) (k0_off58_inb k 2)

theorem row5_2_0_lane (C7 : S4x200x128.Idx → BitVec 32) (k : Fin k0_t5_loop.trips) (x : S16.Idx) :
    ((shapeCast S16 (row5_2_0 (F := F) C7 k) shapeCasts_S1x1x16_S16 : IVec S16 32) x).toNat
      = spW C7 3 (4 * k.val) (16 * 2 + (x 0).val) :=
  rowLd_lane C7 _ _ 3 (4 * k.val) (4 * k.val) (16 * 2) (Gen.k0_off57_eq k) rfl (by decide)
    (by have := trip5_lt k; omega) (by decide) x
theorem row5_2_1_lane (C7 : S4x200x128.Idx → BitVec 32) (k : Fin k0_t5_loop.trips) (x : S16.Idx) :
    ((shapeCast S16 (row5_2_1 (F := F) C7 k) shapeCasts_S1x1x16_S16 : IVec S16 32) x).toNat
      = spW C7 3 (4 * k.val + 1) (16 * 2 + (x 0).val) :=
  rowLd_lane C7 _ _ 3 (4 * k.val + 0 + 1) (4 * k.val + 1) (16 * 2) (Gen.k0_off58_eq k ⟨0, by decide⟩)
    (by omega) (by decide) (by have := trip5_lt k; omega) (by decide) x
theorem row5_2_2_lane (C7 : S4x200x128.Idx → BitVec 32) (k : Fin k0_t5_loop.trips) (x : S16.Idx) :
    ((shapeCast S16 (row5_2_2 (F := F) C7 k) shapeCasts_S1x1x16_S16 : IVec S16 32) x).toNat
      = spW C7 3 (4 * k.val + 2) (16 * 2 + (x 0).val) :=
  rowLd_lane C7 _ _ 3 (4 * k.val + 1 + 1) (4 * k.val + 2) (16 * 2) (Gen.k0_off58_eq k ⟨1, by decide⟩)
    (by omega) (by decide) (by have := trip5_lt k; omega) (by decide) x
theorem row5_2_3_lane (C7 : S4x200x128.Idx → BitVec 32) (k : Fin k0_t5_loop.trips) (x : S16.Idx) :
    ((shapeCast S16 (row5_2_3 (F := F) C7 k) shapeCasts_S1x1x16_S16 : IVec S16 32) x).toNat
      = spW C7 3 (4 * k.val + 3) (16 * 2 + (x 0).val) :=
  rowLd_lane C7 _ _ 3 (4 * k.val + 2 + 1) (4 * k.val + 3) (16 * 2) (Gen.k0_off58_eq k ⟨2, by decide⟩)
    (by omega) (by decide) (by have := trip5_lt k; omega) (by decide) x

/-- Group 3: the rows of atoms 4k .. 4k+3 at columns 48 .. 63. -/
abbrev row5_3_0 (C7 : S4x200x128.Idx → BitVec 32) (k : Fin k0_t5_loop.trips) : Vec F S1x1x16 .i32 :=
  rowLd C7 (k0_off59 k) (k0_off59_inb k)
abbrev row5_3_1 (C7 : S4x200x128.Idx → BitVec 32) (k : Fin k0_t5_loop.trips) : Vec F S1x1x16 .i32 :=
  rowLd C7 (k0_off60 k 1#32) (k0_off60_inb k 0)
abbrev row5_3_2 (C7 : S4x200x128.Idx → BitVec 32) (k : Fin k0_t5_loop.trips) : Vec F S1x1x16 .i32 :=
  rowLd C7 (k0_off60 k 2#32) (k0_off60_inb k 1)
abbrev row5_3_3 (C7 : S4x200x128.Idx → BitVec 32) (k : Fin k0_t5_loop.trips) : Vec F S1x1x16 .i32 :=
  rowLd C7 (k0_off60 k 3#32) (k0_off60_inb k 2)

theorem row5_3_0_lane (C7 : S4x200x128.Idx → BitVec 32) (k : Fin k0_t5_loop.trips) (x : S16.Idx) :
    ((shapeCast S16 (row5_3_0 (F := F) C7 k) shapeCasts_S1x1x16_S16 : IVec S16 32) x).toNat
      = spW C7 3 (4 * k.val) (16 * 3 + (x 0).val) :=
  rowLd_lane C7 _ _ 3 (4 * k.val) (4 * k.val) (16 * 3) (Gen.k0_off59_eq k) rfl (by decide)
    (by have := trip5_lt k; omega) (by decide) x
theorem row5_3_1_lane (C7 : S4x200x128.Idx → BitVec 32) (k : Fin k0_t5_loop.trips) (x : S16.Idx) :
    ((shapeCast S16 (row5_3_1 (F := F) C7 k) shapeCasts_S1x1x16_S16 : IVec S16 32) x).toNat
      = spW C7 3 (4 * k.val + 1) (16 * 3 + (x 0).val) :=
  rowLd_lane C7 _ _ 3 (4 * k.val + 0 + 1) (4 * k.val + 1) (16 * 3) (Gen.k0_off60_eq k ⟨0, by decide⟩)
    (by omega) (by decide) (by have := trip5_lt k; omega) (by decide) x
theorem row5_3_2_lane (C7 : S4x200x128.Idx → BitVec 32) (k : Fin k0_t5_loop.trips) (x : S16.Idx) :
    ((shapeCast S16 (row5_3_2 (F := F) C7 k) shapeCasts_S1x1x16_S16 : IVec S16 32) x).toNat
      = spW C7 3 (4 * k.val + 2) (16 * 3 + (x 0).val) :=
  rowLd_lane C7 _ _ 3 (4 * k.val + 1 + 1) (4 * k.val + 2) (16 * 3) (Gen.k0_off60_eq k ⟨1, by decide⟩)
    (by omega) (by decide) (by have := trip5_lt k; omega) (by decide) x
theorem row5_3_3_lane (C7 : S4x200x128.Idx → BitVec 32) (k : Fin k0_t5_loop.trips) (x : S16.Idx) :
    ((shapeCast S16 (row5_3_3 (F := F) C7 k) shapeCasts_S1x1x16_S16 : IVec S16 32) x).toNat
      = spW C7 3 (4 * k.val + 3) (16 * 3 + (x 0).val) :=
  rowLd_lane C7 _ _ 3 (4 * k.val + 2 + 1) (4 * k.val + 3) (16 * 3) (Gen.k0_off60_eq k ⟨2, by decide⟩)
    (by omega) (by decide) (by have := trip5_lt k; omega) (by decide) x

/-- Group 4: the rows of atoms 4k .. 4k+3 at columns 64 .. 79. -/
abbrev row5_4_0 (C7 : S4x200x128.Idx → BitVec 32) (k : Fin k0_t5_loop.trips) : Vec F S1x1x16 .i32 :=
  rowLd C7 (k0_off61 k) (k0_off61_inb k)
abbrev row5_4_1 (C7 : S4x200x128.Idx → BitVec 32) (k : Fin k0_t5_loop.trips) : Vec F S1x1x16 .i32 :=
  rowLd C7 (k0_off62 k 1#32) (k0_off62_inb k 0)
abbrev row5_4_2 (C7 : S4x200x128.Idx → BitVec 32) (k : Fin k0_t5_loop.trips) : Vec F S1x1x16 .i32 :=
  rowLd C7 (k0_off62 k 2#32) (k0_off62_inb k 1)
abbrev row5_4_3 (C7 : S4x200x128.Idx → BitVec 32) (k : Fin k0_t5_loop.trips) : Vec F S1x1x16 .i32 :=
  rowLd C7 (k0_off62 k 3#32) (k0_off62_inb k 2)

theorem row5_4_0_lane (C7 : S4x200x128.Idx → BitVec 32) (k : Fin k0_t5_loop.trips) (x : S16.Idx) :
    ((shapeCast S16 (row5_4_0 (F := F) C7 k) shapeCasts_S1x1x16_S16 : IVec S16 32) x).toNat
      = spW C7 3 (4 * k.val) (16 * 4 + (x 0).val) :=
  rowLd_lane C7 _ _ 3 (4 * k.val) (4 * k.val) (16 * 4) (Gen.k0_off61_eq k) rfl (by decide)
    (by have := trip5_lt k; omega) (by decide) x
theorem row5_4_1_lane (C7 : S4x200x128.Idx → BitVec 32) (k : Fin k0_t5_loop.trips) (x : S16.Idx) :
    ((shapeCast S16 (row5_4_1 (F := F) C7 k) shapeCasts_S1x1x16_S16 : IVec S16 32) x).toNat
      = spW C7 3 (4 * k.val + 1) (16 * 4 + (x 0).val) :=
  rowLd_lane C7 _ _ 3 (4 * k.val + 0 + 1) (4 * k.val + 1) (16 * 4) (Gen.k0_off62_eq k ⟨0, by decide⟩)
    (by omega) (by decide) (by have := trip5_lt k; omega) (by decide) x
theorem row5_4_2_lane (C7 : S4x200x128.Idx → BitVec 32) (k : Fin k0_t5_loop.trips) (x : S16.Idx) :
    ((shapeCast S16 (row5_4_2 (F := F) C7 k) shapeCasts_S1x1x16_S16 : IVec S16 32) x).toNat
      = spW C7 3 (4 * k.val + 2) (16 * 4 + (x 0).val) :=
  rowLd_lane C7 _ _ 3 (4 * k.val + 1 + 1) (4 * k.val + 2) (16 * 4) (Gen.k0_off62_eq k ⟨1, by decide⟩)
    (by omega) (by decide) (by have := trip5_lt k; omega) (by decide) x
theorem row5_4_3_lane (C7 : S4x200x128.Idx → BitVec 32) (k : Fin k0_t5_loop.trips) (x : S16.Idx) :
    ((shapeCast S16 (row5_4_3 (F := F) C7 k) shapeCasts_S1x1x16_S16 : IVec S16 32) x).toNat
      = spW C7 3 (4 * k.val + 3) (16 * 4 + (x 0).val) :=
  rowLd_lane C7 _ _ 3 (4 * k.val + 2 + 1) (4 * k.val + 3) (16 * 4) (Gen.k0_off62_eq k ⟨2, by decide⟩)
    (by omega) (by decide) (by have := trip5_lt k; omega) (by decide) x

/-- Group 5: the rows of atoms 4k .. 4k+3 at columns 80 .. 95. -/
abbrev row5_5_0 (C7 : S4x200x128.Idx → BitVec 32) (k : Fin k0_t5_loop.trips) : Vec F S1x1x16 .i32 :=
  rowLd C7 (k0_off63 k) (k0_off63_inb k)
abbrev row5_5_1 (C7 : S4x200x128.Idx → BitVec 32) (k : Fin k0_t5_loop.trips) : Vec F S1x1x16 .i32 :=
  rowLd C7 (k0_off64 k 1#32) (k0_off64_inb k 0)
abbrev row5_5_2 (C7 : S4x200x128.Idx → BitVec 32) (k : Fin k0_t5_loop.trips) : Vec F S1x1x16 .i32 :=
  rowLd C7 (k0_off64 k 2#32) (k0_off64_inb k 1)
abbrev row5_5_3 (C7 : S4x200x128.Idx → BitVec 32) (k : Fin k0_t5_loop.trips) : Vec F S1x1x16 .i32 :=
  rowLd C7 (k0_off64 k 3#32) (k0_off64_inb k 2)

theorem row5_5_0_lane (C7 : S4x200x128.Idx → BitVec 32) (k : Fin k0_t5_loop.trips) (x : S16.Idx) :
    ((shapeCast S16 (row5_5_0 (F := F) C7 k) shapeCasts_S1x1x16_S16 : IVec S16 32) x).toNat
      = spW C7 3 (4 * k.val) (16 * 5 + (x 0).val) :=
  rowLd_lane C7 _ _ 3 (4 * k.val) (4 * k.val) (16 * 5) (Gen.k0_off63_eq k) rfl (by decide)
    (by have := trip5_lt k; omega) (by decide) x
theorem row5_5_1_lane (C7 : S4x200x128.Idx → BitVec 32) (k : Fin k0_t5_loop.trips) (x : S16.Idx) :
    ((shapeCast S16 (row5_5_1 (F := F) C7 k) shapeCasts_S1x1x16_S16 : IVec S16 32) x).toNat
      = spW C7 3 (4 * k.val + 1) (16 * 5 + (x 0).val) :=
  rowLd_lane C7 _ _ 3 (4 * k.val + 0 + 1) (4 * k.val + 1) (16 * 5) (Gen.k0_off64_eq k ⟨0, by decide⟩)
    (by omega) (by decide) (by have := trip5_lt k; omega) (by decide) x
theorem row5_5_2_lane (C7 : S4x200x128.Idx → BitVec 32) (k : Fin k0_t5_loop.trips) (x : S16.Idx) :
    ((shapeCast S16 (row5_5_2 (F := F) C7 k) shapeCasts_S1x1x16_S16 : IVec S16 32) x).toNat
      = spW C7 3 (4 * k.val + 2) (16 * 5 + (x 0).val) :=
  rowLd_lane C7 _ _ 3 (4 * k.val + 1 + 1) (4 * k.val + 2) (16 * 5) (Gen.k0_off64_eq k ⟨1, by decide⟩)
    (by omega) (by decide) (by have := trip5_lt k; omega) (by decide) x
theorem row5_5_3_lane (C7 : S4x200x128.Idx → BitVec 32) (k : Fin k0_t5_loop.trips) (x : S16.Idx) :
    ((shapeCast S16 (row5_5_3 (F := F) C7 k) shapeCasts_S1x1x16_S16 : IVec S16 32) x).toNat
      = spW C7 3 (4 * k.val + 3) (16 * 5 + (x 0).val) :=
  rowLd_lane C7 _ _ 3 (4 * k.val + 2 + 1) (4 * k.val + 3) (16 * 5) (Gen.k0_off64_eq k ⟨2, by decide⟩)
    (by omega) (by decide) (by have := trip5_lt k; omega) (by decide) x

/-- Group 6: the rows of atoms 4k .. 4k+3 at columns 96 .. 111. -/
abbrev row5_6_0 (C7 : S4x200x128.Idx → BitVec 32) (k : Fin k0_t5_loop.trips) : Vec F S1x1x16 .i32 :=
  rowLd C7 (k0_off65 k) (k0_off65_inb k)
abbrev row5_6_1 (C7 : S4x200x128.Idx → BitVec 32) (k : Fin k0_t5_loop.trips) : Vec F S1x1x16 .i32 :=
  rowLd C7 (k0_off66 k 1#32) (k0_off66_inb k 0)
abbrev row5_6_2 (C7 : S4x200x128.Idx → BitVec 32) (k : Fin k0_t5_loop.trips) : Vec F S1x1x16 .i32 :=
  rowLd C7 (k0_off66 k 2#32) (k0_off66_inb k 1)
abbrev row5_6_3 (C7 : S4x200x128.Idx → BitVec 32) (k : Fin k0_t5_loop.trips) : Vec F S1x1x16 .i32 :=
  rowLd C7 (k0_off66 k 3#32) (k0_off66_inb k 2)

theorem row5_6_0_lane (C7 : S4x200x128.Idx → BitVec 32) (k : Fin k0_t5_loop.trips) (x : S16.Idx) :
    ((shapeCast S16 (row5_6_0 (F := F) C7 k) shapeCasts_S1x1x16_S16 : IVec S16 32) x).toNat
      = spW C7 3 (4 * k.val) (16 * 6 + (x 0).val) :=
  rowLd_lane C7 _ _ 3 (4 * k.val) (4 * k.val) (16 * 6) (Gen.k0_off65_eq k) rfl (by decide)
    (by have := trip5_lt k; omega) (by decide) x
theorem row5_6_1_lane (C7 : S4x200x128.Idx → BitVec 32) (k : Fin k0_t5_loop.trips) (x : S16.Idx) :
    ((shapeCast S16 (row5_6_1 (F := F) C7 k) shapeCasts_S1x1x16_S16 : IVec S16 32) x).toNat
      = spW C7 3 (4 * k.val + 1) (16 * 6 + (x 0).val) :=
  rowLd_lane C7 _ _ 3 (4 * k.val + 0 + 1) (4 * k.val + 1) (16 * 6) (Gen.k0_off66_eq k ⟨0, by decide⟩)
    (by omega) (by decide) (by have := trip5_lt k; omega) (by decide) x
theorem row5_6_2_lane (C7 : S4x200x128.Idx → BitVec 32) (k : Fin k0_t5_loop.trips) (x : S16.Idx) :
    ((shapeCast S16 (row5_6_2 (F := F) C7 k) shapeCasts_S1x1x16_S16 : IVec S16 32) x).toNat
      = spW C7 3 (4 * k.val + 2) (16 * 6 + (x 0).val) :=
  rowLd_lane C7 _ _ 3 (4 * k.val + 1 + 1) (4 * k.val + 2) (16 * 6) (Gen.k0_off66_eq k ⟨1, by decide⟩)
    (by omega) (by decide) (by have := trip5_lt k; omega) (by decide) x
theorem row5_6_3_lane (C7 : S4x200x128.Idx → BitVec 32) (k : Fin k0_t5_loop.trips) (x : S16.Idx) :
    ((shapeCast S16 (row5_6_3 (F := F) C7 k) shapeCasts_S1x1x16_S16 : IVec S16 32) x).toNat
      = spW C7 3 (4 * k.val + 3) (16 * 6 + (x 0).val) :=
  rowLd_lane C7 _ _ 3 (4 * k.val + 2 + 1) (4 * k.val + 3) (16 * 6) (Gen.k0_off66_eq k ⟨2, by decide⟩)
    (by omega) (by decide) (by have := trip5_lt k; omega) (by decide) x

/-- Group 7: the rows of atoms 4k .. 4k+3 at columns 112 .. 127. -/
abbrev row5_7_0 (C7 : S4x200x128.Idx → BitVec 32) (k : Fin k0_t5_loop.trips) : Vec F S1x1x16 .i32 :=
  rowLd C7 (k0_off67 k) (k0_off67_inb k)
abbrev row5_7_1 (C7 : S4x200x128.Idx → BitVec 32) (k : Fin k0_t5_loop.trips) : Vec F S1x1x16 .i32 :=
  rowLd C7 (k0_off68 k 1#32) (k0_off68_inb k 0)
abbrev row5_7_2 (C7 : S4x200x128.Idx → BitVec 32) (k : Fin k0_t5_loop.trips) : Vec F S1x1x16 .i32 :=
  rowLd C7 (k0_off68 k 2#32) (k0_off68_inb k 1)
abbrev row5_7_3 (C7 : S4x200x128.Idx → BitVec 32) (k : Fin k0_t5_loop.trips) : Vec F S1x1x16 .i32 :=
  rowLd C7 (k0_off68 k 3#32) (k0_off68_inb k 2)

theorem row5_7_0_lane (C7 : S4x200x128.Idx → BitVec 32) (k : Fin k0_t5_loop.trips) (x : S16.Idx) :
    ((shapeCast S16 (row5_7_0 (F := F) C7 k) shapeCasts_S1x1x16_S16 : IVec S16 32) x).toNat
      = spW C7 3 (4 * k.val) (16 * 7 + (x 0).val) :=
  rowLd_lane C7 _ _ 3 (4 * k.val) (4 * k.val) (16 * 7) (Gen.k0_off67_eq k) rfl (by decide)
    (by have := trip5_lt k; omega) (by decide) x
theorem row5_7_1_lane (C7 : S4x200x128.Idx → BitVec 32) (k : Fin k0_t5_loop.trips) (x : S16.Idx) :
    ((shapeCast S16 (row5_7_1 (F := F) C7 k) shapeCasts_S1x1x16_S16 : IVec S16 32) x).toNat
      = spW C7 3 (4 * k.val + 1) (16 * 7 + (x 0).val) :=
  rowLd_lane C7 _ _ 3 (4 * k.val + 0 + 1) (4 * k.val + 1) (16 * 7) (Gen.k0_off68_eq k ⟨0, by decide⟩)
    (by omega) (by decide) (by have := trip5_lt k; omega) (by decide) x
theorem row5_7_2_lane (C7 : S4x200x128.Idx → BitVec 32) (k : Fin k0_t5_loop.trips) (x : S16.Idx) :
    ((shapeCast S16 (row5_7_2 (F := F) C7 k) shapeCasts_S1x1x16_S16 : IVec S16 32) x).toNat
      = spW C7 3 (4 * k.val + 2) (16 * 7 + (x 0).val) :=
  rowLd_lane C7 _ _ 3 (4 * k.val + 1 + 1) (4 * k.val + 2) (16 * 7) (Gen.k0_off68_eq k ⟨1, by decide⟩)
    (by omega) (by decide) (by have := trip5_lt k; omega) (by decide) x
theorem row5_7_3_lane (C7 : S4x200x128.Idx → BitVec 32) (k : Fin k0_t5_loop.trips) (x : S16.Idx) :
    ((shapeCast S16 (row5_7_3 (F := F) C7 k) shapeCasts_S1x1x16_S16 : IVec S16 32) x).toNat
      = spW C7 3 (4 * k.val + 3) (16 * 7 + (x 0).val) :=
  rowLd_lane C7 _ _ 3 (4 * k.val + 2 + 1) (4 * k.val + 3) (16 * 7) (Gen.k0_off68_eq k ⟨2, by decide⟩)
    (by omega) (by decide) (by have := trip5_lt k; omega) (by decide) x

/-! ## The index words -/

/-- Group 0's sixteen index words at trip k. -/
abbrev idx5_0 (C7 : S4x200x128.Idx → BitVec 32) (k : Fin k0_t5_loop.trips) : IVec S16 32 :=
  k0_pay70 (F := F) (row5_0_0 C7 k) (row5_0_1 C7 k) (row5_0_2 C7 k) (row5_0_3 C7 k)

theorem idx5_0_lane (C7 : S4x200x128.Idx → BitVec 32) (hlt : SlabLt C7 3) (k : Fin k0_t5_loop.trips) (x : S16.Idx) :
    (idx5_0 (F := F) C7 k x).toNat
        = 512 * spW C7 3 (4 * k.val) (16 * 0 + (x 0).val) + 64 * spW C7 3 (4 * k.val + 1) (16 * 0 + (x 0).val)
          + 8 * spW C7 3 (4 * k.val + 2) (16 * 0 + (x 0).val) + spW C7 3 (4 * k.val + 3) (16 * 0 + (x 0).val)
      ∧ (idx5_0 (F := F) C7 k x).toNat < 4096 := by
  have hk := trip5_lt k
  have hx : (x 0).val < 16 := (x 0).isLt
  have e0 : ((shapeCast S16 (row5_0_0 (F := F) C7 k) shapeCasts_S1x1x16_S16 : IVec S16 32) x).toNat = spW C7 3 (4 * k.val) (16 * 0 + (x 0).val) := row5_0_0_lane (F := F) C7 k x
  have e1 : ((shapeCast S16 (row5_0_1 (F := F) C7 k) shapeCasts_S1x1x16_S16 : IVec S16 32) x).toNat = spW C7 3 (4 * k.val + 1) (16 * 0 + (x 0).val) := row5_0_1_lane (F := F) C7 k x
  have e2 : ((shapeCast S16 (row5_0_2 (F := F) C7 k) shapeCasts_S1x1x16_S16 : IVec S16 32) x).toNat = spW C7 3 (4 * k.val + 2) (16 * 0 + (x 0).val) := row5_0_2_lane (F := F) C7 k x
  have e3 : ((shapeCast S16 (row5_0_3 (F := F) C7 k) shapeCasts_S1x1x16_S16 : IVec S16 32) x).toNat = spW C7 3 (4 * k.val + 3) (16 * 0 + (x 0).val) := row5_0_3_lane (F := F) C7 k x
  have b0 : spW C7 3 (4 * k.val) (16 * 0 + (x 0).val) < 8 := hlt _ _ (by omega) (by omega)
  have b1 : spW C7 3 (4 * k.val + 1) (16 * 0 + (x 0).val) < 8 := hlt _ _ (by omega) (by omega)
  have b2 : spW C7 3 (4 * k.val + 2) (16 * 0 + (x 0).val) < 8 := hlt _ _ (by omega) (by omega)
  have b3 : spW C7 3 (4 * k.val + 3) (16 * 0 + (x 0).val) < 8 := hlt _ _ (by omega) (by omega)
  obtain ⟨e, l⟩ := Cert.Proof.WordsKB.k0_pay70_lane (F := F) (row5_0_0 C7 k) (row5_0_1 C7 k) (row5_0_2 C7 k) (row5_0_3 C7 k) x
    (e0.trans_lt b0) (e1.trans_lt b1) (e2.trans_lt b2) (e3.trans_lt b3)
  exact ⟨e.trans (by rw [e0, e1, e2, e3]), l⟩

/-- The gather's side condition holds. -/
theorem chk5_0 (C7 : S4x200x128.Idx → BitVec 32) (hlt : SlabLt C7 3) (k : Fin k0_t5_loop.trips) :
    k0_chk29 (idx5_0 (F := F) C7 k) :=
  Cert.Proof.WordsKB.k0_chk29_of_lt _ fun x => (idx5_0_lane C7 hlt k x).2

/-- Group 1's sixteen index words at trip k. -/
abbrev idx5_1 (C7 : S4x200x128.Idx → BitVec 32) (k : Fin k0_t5_loop.trips) : IVec S16 32 :=
  k0_pay73 (F := F) (k0_pay72 (row5_1_0 C7 k)) (row5_1_1 C7 k) (row5_1_2 C7 k) (row5_1_3 C7 k)

theorem idx5_1_lane (C7 : S4x200x128.Idx → BitVec 32) (hlt : SlabLt C7 3) (k : Fin k0_t5_loop.trips) (x : S16.Idx) :
    (idx5_1 (F := F) C7 k x).toNat
        = 512 * spW C7 3 (4 * k.val) (16 * 1 + (x 0).val) + 64 * spW C7 3 (4 * k.val + 1) (16 * 1 + (x 0).val)
          + 8 * spW C7 3 (4 * k.val + 2) (16 * 1 + (x 0).val) + spW C7 3 (4 * k.val + 3) (16 * 1 + (x 0).val)
      ∧ (idx5_1 (F := F) C7 k x).toNat < 4096 := by
  have hk := trip5_lt k
  have hx : (x 0).val < 16 := (x 0).isLt
  have e0 : (k0_pay72 (row5_1_0 (F := F) C7 k) x).toNat = spW C7 3 (4 * k.val) (16 * 1 + (x 0).val) := row5_1_0_lane (F := F) C7 k x
  have e1 : ((shapeCast S16 (row5_1_1 (F := F) C7 k) shapeCasts_S1x1x16_S16 : IVec S16 32) x).toNat = spW C7 3 (4 * k.val + 1) (16 * 1 + (x 0).val) := row5_1_1_lane (F := F) C7 k x
  have e2 : ((shapeCast S16 (row5_1_2 (F := F) C7 k) shapeCasts_S1x1x16_S16 : IVec S16 32) x).toNat = spW C7 3 (4 * k.val + 2) (16 * 1 + (x 0).val) := row5_1_2_lane (F := F) C7 k x
  have e3 : ((shapeCast S16 (row5_1_3 (F := F) C7 k) shapeCasts_S1x1x16_S16 : IVec S16 32) x).toNat = spW C7 3 (4 * k.val + 3) (16 * 1 + (x 0).val) := row5_1_3_lane (F := F) C7 k x
  have b0 : spW C7 3 (4 * k.val) (16 * 1 + (x 0).val) < 8 := hlt _ _ (by omega) (by omega)
  have b1 : spW C7 3 (4 * k.val + 1) (16 * 1 + (x 0).val) < 8 := hlt _ _ (by omega) (by omega)
  have b2 : spW C7 3 (4 * k.val + 2) (16 * 1 + (x 0).val) < 8 := hlt _ _ (by omega) (by omega)
  have b3 : spW C7 3 (4 * k.val + 3) (16 * 1 + (x 0).val) < 8 := hlt _ _ (by omega) (by omega)
  obtain ⟨e, l⟩ := Cert.Proof.WordsKB.k0_pay73_lane (F := F) (k0_pay72 (row5_1_0 C7 k)) (row5_1_1 C7 k) (row5_1_2 C7 k) (row5_1_3 C7 k) x
    (e0.trans_lt b0) (e1.trans_lt b1) (e2.trans_lt b2) (e3.trans_lt b3)
  exact ⟨e.trans (by rw [e0, e1, e2, e3]), l⟩

/-- The gather's side condition holds. -/
theorem chk5_1 (C7 : S4x200x128.Idx → BitVec 32) (hlt : SlabLt C7 3) (k : Fin k0_t5_loop.trips) :
    k0_chk30 (idx5_1 (F := F) C7 k) :=
  Cert.Proof.WordsKB.k0_chk30_of_lt _ fun x => (idx5_1_lane C7 hlt k x).2

/-- Group 2's sixteen index words at trip k. -/
abbrev idx5_2 (C7 : S4x200x128.Idx → BitVec 32) (k : Fin k0_t5_loop.trips) : IVec S16 32 :=
  k0_pay78 (F := F) (k0_pay75 (row5_2_0 C7 k)) (k0_pay76 (row5_2_1 C7 k)) (k0_pay77 (row5_2_2 C7 k)) (row5_2_3 C7 k)

theorem idx5_2_lane (C7 : S4x200x128.Idx → BitVec 32) (hlt : SlabLt C7 3) (k : Fin k0_t5_loop.trips) (x : S16.Idx) :
    (idx5_2 (F := F) C7 k x).toNat
        = 512 * spW C7 3 (4 * k.val) (16 * 2 + (x 0).val) + 64 * spW C7 3 (4 * k.val + 1) (16 * 2 + (x 0).val)
          + 8 * spW C7 3 (4 * k.val + 2) (16 * 2 + (x 0).val) + spW C7 3 (4 * k.val + 3) (16 * 2 + (x 0).val)
      ∧ (idx5_2 (F := F) C7 k x).toNat < 4096 := by
  have hk := trip5_lt k
  have hx : (x 0).val < 16 := (x 0).isLt
  have e0 : (k0_pay75 (row5_2_0 (F := F) C7 k) x).toNat = spW C7 3 (4 * k.val) (16 * 2 + (x 0).val) := row5_2_0_lane (F := F) C7 k x
  have e1 : (k0_pay76 (row5_2_1 (F := F) C7 k) x).toNat = spW C7 3 (4 * k.val + 1) (16 * 2 + (x 0).val) := row5_2_1_lane (F := F) C7 k x
  have e2 : (k0_pay77 (row5_2_2 (F := F) C7 k) x).toNat = spW C7 3 (4 * k.val + 2) (16 * 2 + (x 0).val) := row5_2_2_lane (F := F) C7 k x
  have e3 : ((shapeCast S16 (row5_2_3 (F := F) C7 k) shapeCasts_S1x1x16_S16 : IVec S16 32) x).toNat = spW C7 3 (4 * k.val + 3) (16 * 2 + (x 0).val) := row5_2_3_lane (F := F) C7 k x
  have b0 : spW C7 3 (4 * k.val) (16 * 2 + (x 0).val) < 8 := hlt _ _ (by omega) (by omega)
  have b1 : spW C7 3 (4 * k.val + 1) (16 * 2 + (x 0).val) < 8 := hlt _ _ (by omega) (by omega)
  have b2 : spW C7 3 (4 * k.val + 2) (16 * 2 + (x 0).val) < 8 := hlt _ _ (by omega) (by omega)
  have b3 : spW C7 3 (4 * k.val + 3) (16 * 2 + (x 0).val) < 8 := hlt _ _ (by omega) (by omega)
  obtain ⟨e, l⟩ := Cert.Proof.WordsKB.k0_pay78_lane (F := F) (k0_pay75 (row5_2_0 C7 k)) (k0_pay76 (row5_2_1 C7 k)) (k0_pay77 (row5_2_2 C7 k)) (row5_2_3 C7 k) x
    (e0.trans_lt b0) (e1.trans_lt b1) (e2.trans_lt b2) (e3.trans_lt b3)
  exact ⟨e.trans (by rw [e0, e1, e2, e3]), l⟩

/-- The gather's side condition holds. -/
theorem chk5_2 (C7 : S4x200x128.Idx → BitVec 32) (hlt : SlabLt C7 3) (k : Fin k0_t5_loop.trips) :
    k0_chk31 (idx5_2 (F := F) C7 k) :=
  Cert.Proof.WordsKB.k0_chk31_of_lt _ fun x => (idx5_2_lane C7 hlt k x).2

/-- Group 3's sixteen index words at trip k. -/
abbrev idx5_3 (C7 : S4x200x128.Idx → BitVec 32) (k : Fin k0_t5_loop.trips) : IVec S16 32 :=
  k0_pay80 (F := F) (row5_3_0 C7 k) (row5_3_1 C7 k) (row5_3_2 C7 k) (row5_3_3 C7 k)

theorem idx5_3_lane (C7 : S4x200x128.Idx → BitVec 32) (hlt : SlabLt C7 3) (k : Fin k0_t5_loop.trips) (x : S16.Idx) :
    (idx5_3 (F := F) C7 k x).toNat
        = 512 * spW C7 3 (4 * k.val) (16 * 3 + (x 0).val) + 64 * spW C7 3 (4 * k.val + 1) (16 * 3 + (x 0).val)
          + 8 * spW C7 3 (4 * k.val + 2) (16 * 3 + (x 0).val) + spW C7 3 (4 * k.val + 3) (16 * 3 + (x 0).val)
      ∧ (idx5_3 (F := F) C7 k x).toNat < 4096 := by
  have hk := trip5_lt k
  have hx : (x 0).val < 16 := (x 0).isLt
  have e0 : ((shapeCast S16 (row5_3_0 (F := F) C7 k) shapeCasts_S1x1x16_S16 : IVec S16 32) x).toNat = spW C7 3 (4 * k.val) (16 * 3 + (x 0).val) := row5_3_0_lane (F := F) C7 k x
  have e1 : ((shapeCast S16 (row5_3_1 (F := F) C7 k) shapeCasts_S1x1x16_S16 : IVec S16 32) x).toNat = spW C7 3 (4 * k.val + 1) (16 * 3 + (x 0).val) := row5_3_1_lane (F := F) C7 k x
  have e2 : ((shapeCast S16 (row5_3_2 (F := F) C7 k) shapeCasts_S1x1x16_S16 : IVec S16 32) x).toNat = spW C7 3 (4 * k.val + 2) (16 * 3 + (x 0).val) := row5_3_2_lane (F := F) C7 k x
  have e3 : ((shapeCast S16 (row5_3_3 (F := F) C7 k) shapeCasts_S1x1x16_S16 : IVec S16 32) x).toNat = spW C7 3 (4 * k.val + 3) (16 * 3 + (x 0).val) := row5_3_3_lane (F := F) C7 k x
  have b0 : spW C7 3 (4 * k.val) (16 * 3 + (x 0).val) < 8 := hlt _ _ (by omega) (by omega)
  have b1 : spW C7 3 (4 * k.val + 1) (16 * 3 + (x 0).val) < 8 := hlt _ _ (by omega) (by omega)
  have b2 : spW C7 3 (4 * k.val + 2) (16 * 3 + (x 0).val) < 8 := hlt _ _ (by omega) (by omega)
  have b3 : spW C7 3 (4 * k.val + 3) (16 * 3 + (x 0).val) < 8 := hlt _ _ (by omega) (by omega)
  obtain ⟨e, l⟩ := Cert.Proof.WordsKB.k0_pay80_lane (F := F) (row5_3_0 C7 k) (row5_3_1 C7 k) (row5_3_2 C7 k) (row5_3_3 C7 k) x
    (e0.trans_lt b0) (e1.trans_lt b1) (e2.trans_lt b2) (e3.trans_lt b3)
  exact ⟨e.trans (by rw [e0, e1, e2, e3]), l⟩

/-- The gather's side condition holds. -/
theorem chk5_3 (C7 : S4x200x128.Idx → BitVec 32) (hlt : SlabLt C7 3) (k : Fin k0_t5_loop.trips) :
    k0_chk32 (idx5_3 (F := F) C7 k) :=
  Cert.Proof.WordsKB.k0_chk32_of_lt _ fun x => (idx5_3_lane C7 hlt k x).2

/-- Group 4's sixteen index words at trip k. -/
abbrev idx5_4 (C7 : S4x200x128.Idx → BitVec 32) (k : Fin k0_t5_loop.trips) : IVec S16 32 :=
  k0_pay82 (F := F) (row5_4_0 C7 k) (row5_4_1 C7 k) (row5_4_2 C7 k) (row5_4_3 C7 k)

theorem idx5_4_lane (C7 : S4x200x128.Idx → BitVec 32) (hlt : SlabLt C7 3) (k : Fin k0_t5_loop.trips) (x : S16.Idx) :
    (idx5_4 (F := F) C7 k x).toNat
        = 512 * spW C7 3 (4 * k.val) (16 * 4 + (x 0).val) + 64 * spW C7 3 (4 * k.val + 1) (16 * 4 + (x 0).val)
          + 8 * spW C7 3 (4 * k.val + 2) (16 * 4 + (x 0).val) + spW C7 3 (4 * k.val + 3) (16 * 4 + (x 0).val)
      ∧ (idx5_4 (F := F) C7 k x).toNat < 4096 := by
  have hk := trip5_lt k
  have hx : (x 0).val < 16 := (x 0).isLt
  have e0 : ((shapeCast S16 (row5_4_0 (F := F) C7 k) shapeCasts_S1x1x16_S16 : IVec S16 32) x).toNat = spW C7 3 (4 * k.val) (16 * 4 + (x 0).val) := row5_4_0_lane (F := F) C7 k x
  have e1 : ((shapeCast S16 (row5_4_1 (F := F) C7 k) shapeCasts_S1x1x16_S16 : IVec S16 32) x).toNat = spW C7 3 (4 * k.val + 1) (16 * 4 + (x 0).val) := row5_4_1_lane (F := F) C7 k x
  have e2 : ((shapeCast S16 (row5_4_2 (F := F) C7 k) shapeCasts_S1x1x16_S16 : IVec S16 32) x).toNat = spW C7 3 (4 * k.val + 2) (16 * 4 + (x 0).val) := row5_4_2_lane (F := F) C7 k x
  have e3 : ((shapeCast S16 (row5_4_3 (F := F) C7 k) shapeCasts_S1x1x16_S16 : IVec S16 32) x).toNat = spW C7 3 (4 * k.val + 3) (16 * 4 + (x 0).val) := row5_4_3_lane (F := F) C7 k x
  have b0 : spW C7 3 (4 * k.val) (16 * 4 + (x 0).val) < 8 := hlt _ _ (by omega) (by omega)
  have b1 : spW C7 3 (4 * k.val + 1) (16 * 4 + (x 0).val) < 8 := hlt _ _ (by omega) (by omega)
  have b2 : spW C7 3 (4 * k.val + 2) (16 * 4 + (x 0).val) < 8 := hlt _ _ (by omega) (by omega)
  have b3 : spW C7 3 (4 * k.val + 3) (16 * 4 + (x 0).val) < 8 := hlt _ _ (by omega) (by omega)
  obtain ⟨e, l⟩ := Cert.Proof.WordsKB.k0_pay82_lane (F := F) (row5_4_0 C7 k) (row5_4_1 C7 k) (row5_4_2 C7 k) (row5_4_3 C7 k) x
    (e0.trans_lt b0) (e1.trans_lt b1) (e2.trans_lt b2) (e3.trans_lt b3)
  exact ⟨e.trans (by rw [e0, e1, e2, e3]), l⟩

/-- The gather's side condition holds. -/
theorem chk5_4 (C7 : S4x200x128.Idx → BitVec 32) (hlt : SlabLt C7 3) (k : Fin k0_t5_loop.trips) :
    k0_chk33 (idx5_4 (F := F) C7 k) :=
  Cert.Proof.WordsKB.k0_chk33_of_lt _ fun x => (idx5_4_lane C7 hlt k x).2

/-- Group 5's sixteen index words at trip k. -/
abbrev idx5_5 (C7 : S4x200x128.Idx → BitVec 32) (k : Fin k0_t5_loop.trips) : IVec S16 32 :=
  k0_pay85 (F := F) (k0_pay84 (row5_5_0 C7 k)) (row5_5_1 C7 k) (row5_5_2 C7 k) (row5_5_3 C7 k)

theorem idx5_5_lane (C7 : S4x200x128.Idx → BitVec 32) (hlt : SlabLt C7 3) (k : Fin k0_t5_loop.trips) (x : S16.Idx) :
    (idx5_5 (F := F) C7 k x).toNat
        = 512 * spW C7 3 (4 * k.val) (16 * 5 + (x 0).val) + 64 * spW C7 3 (4 * k.val + 1) (16 * 5 + (x 0).val)
          + 8 * spW C7 3 (4 * k.val + 2) (16 * 5 + (x 0).val) + spW C7 3 (4 * k.val + 3) (16 * 5 + (x 0).val)
      ∧ (idx5_5 (F := F) C7 k x).toNat < 4096 := by
  have hk := trip5_lt k
  have hx : (x 0).val < 16 := (x 0).isLt
  have e0 : (k0_pay84 (row5_5_0 (F := F) C7 k) x).toNat = spW C7 3 (4 * k.val) (16 * 5 + (x 0).val) := row5_5_0_lane (F := F) C7 k x
  have e1 : ((shapeCast S16 (row5_5_1 (F := F) C7 k) shapeCasts_S1x1x16_S16 : IVec S16 32) x).toNat = spW C7 3 (4 * k.val + 1) (16 * 5 + (x 0).val) := row5_5_1_lane (F := F) C7 k x
  have e2 : ((shapeCast S16 (row5_5_2 (F := F) C7 k) shapeCasts_S1x1x16_S16 : IVec S16 32) x).toNat = spW C7 3 (4 * k.val + 2) (16 * 5 + (x 0).val) := row5_5_2_lane (F := F) C7 k x
  have e3 : ((shapeCast S16 (row5_5_3 (F := F) C7 k) shapeCasts_S1x1x16_S16 : IVec S16 32) x).toNat = spW C7 3 (4 * k.val + 3) (16 * 5 + (x 0).val) := row5_5_3_lane (F := F) C7 k x
  have b0 : spW C7 3 (4 * k.val) (16 * 5 + (x 0).val) < 8 := hlt _ _ (by omega) (by omega)
  have b1 : spW C7 3 (4 * k.val + 1) (16 * 5 + (x 0).val) < 8 := hlt _ _ (by omega) (by omega)
  have b2 : spW C7 3 (4 * k.val + 2) (16 * 5 + (x 0).val) < 8 := hlt _ _ (by omega) (by omega)
  have b3 : spW C7 3 (4 * k.val + 3) (16 * 5 + (x 0).val) < 8 := hlt _ _ (by omega) (by omega)
  obtain ⟨e, l⟩ := Cert.Proof.WordsKB.k0_pay85_lane (F := F) (k0_pay84 (row5_5_0 C7 k)) (row5_5_1 C7 k) (row5_5_2 C7 k) (row5_5_3 C7 k) x
    (e0.trans_lt b0) (e1.trans_lt b1) (e2.trans_lt b2) (e3.trans_lt b3)
  exact ⟨e.trans (by rw [e0, e1, e2, e3]), l⟩

/-- The gather's side condition holds. -/
theorem chk5_5 (C7 : S4x200x128.Idx → BitVec 32) (hlt : SlabLt C7 3) (k : Fin k0_t5_loop.trips) :
    k0_chk34 (idx5_5 (F := F) C7 k) :=
  Cert.Proof.WordsKB.k0_chk34_of_lt _ fun x => (idx5_5_lane C7 hlt k x).2

/-- Group 6's sixteen index words at trip k. -/
abbrev idx5_6 (C7 : S4x200x128.Idx → BitVec 32) (k : Fin k0_t5_loop.trips) : IVec S16 32 :=
  k0_pay90 (F := F) (k0_pay87 (row5_6_0 C7 k)) (k0_pay88 (row5_6_1 C7 k)) (k0_pay89 (row5_6_2 C7 k)) (row5_6_3 C7 k)

theorem idx5_6_lane (C7 : S4x200x128.Idx → BitVec 32) (hlt : SlabLt C7 3) (k : Fin k0_t5_loop.trips) (x : S16.Idx) :
    (idx5_6 (F := F) C7 k x).toNat
        = 512 * spW C7 3 (4 * k.val) (16 * 6 + (x 0).val) + 64 * spW C7 3 (4 * k.val + 1) (16 * 6 + (x 0).val)
          + 8 * spW C7 3 (4 * k.val + 2) (16 * 6 + (x 0).val) + spW C7 3 (4 * k.val + 3) (16 * 6 + (x 0).val)
      ∧ (idx5_6 (F := F) C7 k x).toNat < 4096 := by
  have hk := trip5_lt k
  have hx : (x 0).val < 16 := (x 0).isLt
  have e0 : (k0_pay87 (row5_6_0 (F := F) C7 k) x).toNat = spW C7 3 (4 * k.val) (16 * 6 + (x 0).val) := row5_6_0_lane (F := F) C7 k x
  have e1 : (k0_pay88 (row5_6_1 (F := F) C7 k) x).toNat = spW C7 3 (4 * k.val + 1) (16 * 6 + (x 0).val) := row5_6_1_lane (F := F) C7 k x
  have e2 : (k0_pay89 (row5_6_2 (F := F) C7 k) x).toNat = spW C7 3 (4 * k.val + 2) (16 * 6 + (x 0).val) := row5_6_2_lane (F := F) C7 k x
  have e3 : ((shapeCast S16 (row5_6_3 (F := F) C7 k) shapeCasts_S1x1x16_S16 : IVec S16 32) x).toNat = spW C7 3 (4 * k.val + 3) (16 * 6 + (x 0).val) := row5_6_3_lane (F := F) C7 k x
  have b0 : spW C7 3 (4 * k.val) (16 * 6 + (x 0).val) < 8 := hlt _ _ (by omega) (by omega)
  have b1 : spW C7 3 (4 * k.val + 1) (16 * 6 + (x 0).val) < 8 := hlt _ _ (by omega) (by omega)
  have b2 : spW C7 3 (4 * k.val + 2) (16 * 6 + (x 0).val) < 8 := hlt _ _ (by omega) (by omega)
  have b3 : spW C7 3 (4 * k.val + 3) (16 * 6 + (x 0).val) < 8 := hlt _ _ (by omega) (by omega)
  obtain ⟨e, l⟩ := Cert.Proof.WordsKB.k0_pay90_lane (F := F) (k0_pay87 (row5_6_0 C7 k)) (k0_pay88 (row5_6_1 C7 k)) (k0_pay89 (row5_6_2 C7 k)) (row5_6_3 C7 k) x
    (e0.trans_lt b0) (e1.trans_lt b1) (e2.trans_lt b2) (e3.trans_lt b3)
  exact ⟨e.trans (by rw [e0, e1, e2, e3]), l⟩

/-- The gather's side condition holds. -/
theorem chk5_6 (C7 : S4x200x128.Idx → BitVec 32) (hlt : SlabLt C7 3) (k : Fin k0_t5_loop.trips) :
    k0_chk35 (idx5_6 (F := F) C7 k) :=
  Cert.Proof.WordsKB.k0_chk35_of_lt _ fun x => (idx5_6_lane C7 hlt k x).2

/-- Group 7's sixteen index words at trip k. -/
abbrev idx5_7 (C7 : S4x200x128.Idx → BitVec 32) (k : Fin k0_t5_loop.trips) : IVec S16 32 :=
  k0_pay92 (F := F) (row5_7_0 C7 k) (row5_7_1 C7 k) (row5_7_2 C7 k) (row5_7_3 C7 k)

theorem idx5_7_lane (C7 : S4x200x128.Idx → BitVec 32) (hlt : SlabLt C7 3) (k : Fin k0_t5_loop.trips) (x : S16.Idx) :
    (idx5_7 (F := F) C7 k x).toNat
        = 512 * spW C7 3 (4 * k.val) (16 * 7 + (x 0).val) + 64 * spW C7 3 (4 * k.val + 1) (16 * 7 + (x 0).val)
          + 8 * spW C7 3 (4 * k.val + 2) (16 * 7 + (x 0).val) + spW C7 3 (4 * k.val + 3) (16 * 7 + (x 0).val)
      ∧ (idx5_7 (F := F) C7 k x).toNat < 4096 := by
  have hk := trip5_lt k
  have hx : (x 0).val < 16 := (x 0).isLt
  have e0 : ((shapeCast S16 (row5_7_0 (F := F) C7 k) shapeCasts_S1x1x16_S16 : IVec S16 32) x).toNat = spW C7 3 (4 * k.val) (16 * 7 + (x 0).val) := row5_7_0_lane (F := F) C7 k x
  have e1 : ((shapeCast S16 (row5_7_1 (F := F) C7 k) shapeCasts_S1x1x16_S16 : IVec S16 32) x).toNat = spW C7 3 (4 * k.val + 1) (16 * 7 + (x 0).val) := row5_7_1_lane (F := F) C7 k x
  have e2 : ((shapeCast S16 (row5_7_2 (F := F) C7 k) shapeCasts_S1x1x16_S16 : IVec S16 32) x).toNat = spW C7 3 (4 * k.val + 2) (16 * 7 + (x 0).val) := row5_7_2_lane (F := F) C7 k x
  have e3 : ((shapeCast S16 (row5_7_3 (F := F) C7 k) shapeCasts_S1x1x16_S16 : IVec S16 32) x).toNat = spW C7 3 (4 * k.val + 3) (16 * 7 + (x 0).val) := row5_7_3_lane (F := F) C7 k x
  have b0 : spW C7 3 (4 * k.val) (16 * 7 + (x 0).val) < 8 := hlt _ _ (by omega) (by omega)
  have b1 : spW C7 3 (4 * k.val + 1) (16 * 7 + (x 0).val) < 8 := hlt _ _ (by omega) (by omega)
  have b2 : spW C7 3 (4 * k.val + 2) (16 * 7 + (x 0).val) < 8 := hlt _ _ (by omega) (by omega)
  have b3 : spW C7 3 (4 * k.val + 3) (16 * 7 + (x 0).val) < 8 := hlt _ _ (by omega) (by omega)
  obtain ⟨e, l⟩ := Cert.Proof.WordsKB.k0_pay92_lane (F := F) (row5_7_0 C7 k) (row5_7_1 C7 k) (row5_7_2 C7 k) (row5_7_3 C7 k) x
    (e0.trans_lt b0) (e1.trans_lt b1) (e2.trans_lt b2) (e3.trans_lt b3)
  exact ⟨e.trans (by rw [e0, e1, e2, e3]), l⟩

/-- The gather's side condition holds. -/
theorem chk5_7 (C7 : S4x200x128.Idx → BitVec 32) (hlt : SlabLt C7 3) (k : Fin k0_t5_loop.trips) :
    k0_chk36 (idx5_7 (F := F) C7 k) :=
  Cert.Proof.WordsKB.k0_chk36_of_lt _ fun x => (idx5_7_lane C7 hlt k x).2

/-! ## A trip, and the start -/

/-- One trip takes the eight accumulators from k quads to k + 1. -/
theorem trip5 (C10 : S16.Idx → F .f32) (C11 : S4096.Idx → F .f32) (C7 : S4x200x128.Idx → BitVec 32)
    (hT : TabOK C10 256 C11) (hlt : SlabLt C7 3) (k : Fin k0_t5_loop.trips)
    (accs : FVec F S16 .f32 × FVec F S16 .f32 × FVec F S16 .f32 × FVec F S16 .f32 × FVec F S16 .f32 × FVec F S16 .f32 × FVec F S16 .f32 × FVec F S16 .f32)
    (h0 : ∀ a x, ((![idx5_0 (F := F) C7 k] : Fin 1 → IVec S16 32) a x).toNat < S4096.size a)
    (h1 : ∀ a x, ((![idx5_1 (F := F) C7 k] : Fin 1 → IVec S16 32) a x).toNat < S4096.size a)
    (h2 : ∀ a x, ((![idx5_2 (F := F) C7 k] : Fin 1 → IVec S16 32) a x).toNat < S4096.size a)
    (h3 : ∀ a x, ((![idx5_3 (F := F) C7 k] : Fin 1 → IVec S16 32) a x).toNat < S4096.size a)
    (h4 : ∀ a x, ((![idx5_4 (F := F) C7 k] : Fin 1 → IVec S16 32) a x).toNat < S4096.size a)
    (h5 : ∀ a x, ((![idx5_5 (F := F) C7 k] : Fin 1 → IVec S16 32) a x).toNat < S4096.size a)
    (h6 : ∀ a x, ((![idx5_6 (F := F) C7 k] : Fin 1 → IVec S16 32) a x).toNat < S4096.size a)
    (h7 : ∀ a x, ((![idx5_7 (F := F) C7 k] : Fin 1 → IVec S16 32) a x).toNat < S4096.size a)
    (hacc : AccOK C10 C7 3 k.val accs) :
    AccOK C10 C7 3 (k.val + 1)
      (k0_pay71 accs.1 (tabGather C11 (idx5_0 C7 k) h0),
        k0_pay74 accs.2.1 (tabGather C11 (idx5_1 C7 k) h1),
        k0_pay79 accs.2.2.1 (tabGather C11 (idx5_2 C7 k) h2),
        k0_pay81 accs.2.2.2.1 (tabGather C11 (idx5_3 C7 k) h3),
        k0_pay83 accs.2.2.2.2.1 (tabGather C11 (idx5_4 C7 k) h4),
        k0_pay86 accs.2.2.2.2.2.1 (tabGather C11 (idx5_5 C7 k) h5),
        k0_pay91 accs.2.2.2.2.2.2.1 (tabGather C11 (idx5_6 C7 k) h6),
        k0_pay155 accs.2.2.2.2.2.2.2 (tabGather C11 (idx5_7 C7 k) h7)) := by
  unfold AccOK at hacc ⊢
  obtain ⟨a0, a1, a2, a3, a4, a5, a6, a7⟩ := hacc
  exact ⟨lane_step C10 C11 C7 hT 3 0 k.val _ a0 (idx5_0 C7 k) h0 (fun x => (idx5_0_lane C7 hlt k x).1),
    lane_step C10 C11 C7 hT 3 1 k.val _ a1 (idx5_1 C7 k) h1 (fun x => (idx5_1_lane C7 hlt k x).1),
    lane_step C10 C11 C7 hT 3 2 k.val _ a2 (idx5_2 C7 k) h2 (fun x => (idx5_2_lane C7 hlt k x).1),
    lane_step C10 C11 C7 hT 3 3 k.val _ a3 (idx5_3 C7 k) h3 (fun x => (idx5_3_lane C7 hlt k x).1),
    lane_step C10 C11 C7 hT 3 4 k.val _ a4 (idx5_4 C7 k) h4 (fun x => (idx5_4_lane C7 hlt k x).1),
    lane_step C10 C11 C7 hT 3 5 k.val _ a5 (idx5_5 C7 k) h5 (fun x => (idx5_5_lane C7 hlt k x).1),
    lane_step C10 C11 C7 hT 3 6 k.val _ a6 (idx5_6 C7 k) h6 (fun x => (idx5_6_lane C7 hlt k x).1),
    lane_step C10 C11 C7 hT 3 7 k.val _ a7 (idx5_7 C7 k) h7 (fun x => (idx5_7_lane C7 hlt k x).1)⟩

/-- The loop starts with every accumulator at zero: no quad added yet. -/
theorem init5 (C10 : S16.Idx → F .f32) (C7 : S4x200x128.Idx → BitVec 32) :
    AccOK C10 C7 3 0
      (k0_pay147 (F := F), k0_pay148 (F := F), k0_pay149 (F := F), k0_pay150 (F := F), k0_pay151 (F := F), k0_pay152 (F := F), k0_pay153 (F := F), k0_pay154 (F := F)) := by
  unfold AccOK
  exact ⟨fun _ => rfl, fun _ => rfl, fun _ => rfl, fun _ => rfl, fun _ => rfl, fun _ => rfl, fun _ => rfl, fun _ => rfl⟩

end Cert.Proof.KB

end
-- ==== Proof.AccMathKB.lean ====
/-
  The arithmetic of the molecule loop and of the final store, over the scratch buffers' contents.

  A lane of a row load is a species word; the gather of a quad's packed index from the built table of 4096 is that quad's
  term; adding it carries an accumulator from q quads to q + 1. With the landed panels, the table of eight and the energies,
  a quad's term is the quad of self energies of the molecule's four species words, so fifty quads and the energy give the
  result function at the molecule.
-/
import proofs.«206988_g4337916970008_retrytranche1_694_23_alg».proof.Proof.ValueSpecKB
import proofs.«206988_g4337916970008_retrytranche1_694_23_alg».proof.Proof.Words
import proofs.«206988_g4337916970008_retrytranche1_694_23_alg».proof.Proof.ValueReadKB
import proofs.«206988_g4337916970008_retrytranche1_694_23_alg».proof.Proof.LandingKB

noncomputable section

namespace Cert.Proof.KB

open Cert.Kernel Cert.Kernel.Gen
open Idealize.ShloMosaic
open Idealize.SL.Sem

variable {F : FTy → Type} [FloatOps F]

/-! ## A species word out of a row load -/

/-- Lane x of the sixteen words of row a of panel t from column c on is the species word at column c + x. -/
theorem row_lane_spW (C7 : S4x200x128.Idx → BitVec 32) (off : Fin 3 → ℕ)
    (inb : ∀ a, off a + S1x1x16.size a ≤ S4x200x128.size a) (t a c : ℕ) (hoff : off = ![t, a, c])
    (ht : t < 4) (ha : a < 200) (hc : c + 16 ≤ 128) (x : S16.Idx) :
    ((shapeCast S16 (View.readAt (Elt F) b7.view (Rect.unit (s := S4x200x128) off S1x1x16.size inb).toLoadRect C7)
        shapeCasts_S1x1x16_S16 : IVec S16 32) x).toNat
      = spW C7 t a (c + (x 0).val) := by
  have hx : (x 0).val < 16 := (x 0).isLt
  rw [b7_row_lane (F := F) C7 off inb t a c hoff ht ha hc x]
  exact (spW_of_lt C7 t ht ⟨a, ha⟩ ⟨c + (x 0).val, by omega⟩).symm

/-! ## A quad's term out of the table of 4096 -/

/-- The built table read at an index below 4096. -/
theorem tab_lookup (C10 : S16.Idx → F .f32) (C11 : S4096.Idx → F .f32) (hT : TabOK C10 256 C11) (n : ℕ) (hn : n < 4096) :
    C11 (ValueIdx.ix1 ⟨n, hn⟩) = tab4At C10 n :=
  hT ⟨n, hn⟩ (by show n < 16 * 256; omega)

/-- A gather from the built table at a quad's packed index is the quad's term. -/
theorem gather_lane_gQ (C10 : S16.Idx → F .f32) (C7 : S4x200x128.Idx → BitVec 32) (C11 : S4096.Idx → F .f32)
    (hT : TabOK C10 256 C11) (t col q : ℕ) (v : IVec S16 32)
    (h : ∀ a x, ((![v] : Fin 1 → IVec S16 32) a x).toNat < (Rect.whole S4096).shape.size a) (x : S16.Idx)
    (hv : (v x).toNat = 512 * spW C7 t (4 * q) col + 64 * spW C7 t (4 * q + 1) col + 8 * spW C7 t (4 * q + 2) col
      + spW C7 t (4 * q + 3) col) :
    loadIdx (F := F) (View.read (Elt F) (b11.access (Rect.whole S4096)) C11) ![v] h x = gQ C10 C7 t col q := by
  rw [b11_loadIdx_lane]
  have hlt : (v x).toNat < 4096 := h 0 x
  have e := tab_lookup C10 C11 hT (v x).toNat hlt
  refine e.trans ?_
  unfold gQ
  rw [hv]

/-! ## The accumulators -/

/-- The zero splat is the accumulator of no quads. -/
theorem accLane_zero (C10 : S16.Idx → F .f32) (C7 : S4x200x128.Idx → BitVec 32) (t j : ℕ) :
    AccLane C10 C7 t j 0 (broadcast S16 (Scalar.ofBits (F := F) .f32 0x00000000#32)) := by
  intro x
  rfl

/-- Adding quad q's terms carries the accumulator of q quads to that of q + 1. -/
theorem accLane_step (C10 : S16.Idx → F .f32) (C7 : S4x200x128.Idx → BitVec 32) (t j q : ℕ)
    (acc w : FVec F S16 .f32) (hacc : AccLane C10 C7 t j q acc)
    (hw : ∀ x : S16.Idx, w x = gQ C10 C7 t (16 * j + (x 0).val) q) :
    AccLane C10 C7 t j (q + 1) (addf acc w) := by
  intro x
  show FloatOps.addf (acc x) (w x) = accF (gQ C10 C7 t (16 * j + (x 0).val)) (q + 1)
  rw [hacc x, hw x]
  rfl

/-- The running sum of n terms depends on those n terms only. -/
theorem accF_congr (g g' : ℕ → F .f32) (n : ℕ) (h : ∀ k, k < n → g k = g' k) : accF g n = accF g' n := by
  induction n with
  | zero => rfl
  | succ n ih =>
    show FloatOps.addf (accF g n) (g n) = FloatOps.addf (accF g' n) (g' n)
    rw [ih (fun k hk => h k (by omega)), h n (by omega)]

/-! ## A quad's term is the quad of self energies -/

/-- An entry below eight of the table of sixteen is the self energy of that species. -/
theorem c16_eq_tabAt (fT : S8.Idx → F .f32) (C10 : S16.Idx → F .f32) (hT10 : T10OK fT C10) (a : ℕ) (ha : a < 8) :
    c16 C10 a = tabAt fT a := by
  have e := hT10 ⟨a, ha⟩
  unfold c16 tabAt
  have e1 : (ValueIdx.ix1 (⟨a % 16, Nat.mod_lt _ (by decide)⟩ : Fin 16) : S16.Idx)
      = ValueIdx.ix1 ⟨a, by omega⟩ := by
    funext d
    match d with
    | ⟨0, _⟩ => exact Fin.ext (Nat.mod_eq_of_lt (by omega))
  have e2 : (ValueIdx.ix1 (⟨a % 8, Nat.mod_lt _ (by decide)⟩ : Fin 8) : S8.Idx) = ValueIdx.ix1 ⟨a, ha⟩ := by
    funext d
    match d with
    | ⟨0, _⟩ => exact Fin.ext (Nat.mod_eq_of_lt ha)
  rw [e1, e2]
  exact e

/-- The table of 4096 at the index of four digits below eight is the quad of their self energies. -/
theorem tab4At_quad (fT : S8.Idx → F .f32) (C10 : S16.Idx → F .f32) (hT10 : T10OK fT C10) (a b c e : ℕ)
    (ha : a < 8) (hb : b < 8) (hc : c < 8) (he : e < 8) :
    tab4At C10 (512 * a + 64 * b + 8 * c + e) = quadF fT a b c e := by
  obtain ⟨d1, d2, d3, d4⟩ := Words.digits_of_quad ha hb hc he
  unfold tab4At quadF
  rw [d1, d2, d3, d4, c16_eq_tabAt fT C10 hT10 a ha, c16_eq_tabAt fT C10 hT10 b hb, c16_eq_tabAt fT C10 hT10 c hc,
    c16_eq_tabAt fT C10 hT10 e he]

/-- Quad q of column col of a landed panel is the quad of self energies of the molecule's species words 4 q .. 4 q + 3. -/
theorem gQ_eq_quadF (fT : S8.Idx → F .f32) (C10 : S16.Idx → F .f32) (hT10 : T10OK fT C10)
    (fS : S200x16384.Idx → BitVec 32) (L : grid0.Coords) (C7 : S4x200x128.Idx → BitVec 32) (t : ℕ)
    (hOK : SlabOK fS L C7 t) (hLt : SlabLt C7 t) (col : ℕ) (hcol : col < 128) (q : ℕ) (hq : q < 50) :
    gQ C10 C7 t col q
      = quadF fT (spAt fS (1024 * (L 1).val + 512 * (L 0).val + 128 * t + col) (4 * q))
          (spAt fS (1024 * (L 1).val + 512 * (L 0).val + 128 * t + col) (4 * q + 1))
          (spAt fS (1024 * (L 1).val + 512 * (L 0).val + 128 * t + col) (4 * q + 2))
          (spAt fS (1024 * (L 1).val + 512 * (L 0).val + 128 * t + col) (4 * q + 3)) := by
  have s0 : spW C7 t (4 * q) col = spAt fS (1024 * (L 1).val + 512 * (L 0).val + 128 * t + col) (4 * q) :=
    hOK ⟨4 * q, by omega⟩ ⟨col, hcol⟩
  have s1 : spW C7 t (4 * q + 1) col = spAt fS (1024 * (L 1).val + 512 * (L 0).val + 128 * t + col) (4 * q + 1) :=
    hOK ⟨4 * q + 1, by omega⟩ ⟨col, hcol⟩
  have s2 : spW C7 t (4 * q + 2) col = spAt fS (1024 * (L 1).val + 512 * (L 0).val + 128 * t + col) (4 * q + 2) :=
    hOK ⟨4 * q + 2, by omega⟩ ⟨col, hcol⟩
  have s3 : spW C7 t (4 * q + 3) col = spAt fS (1024 * (L 1).val + 512 * (L 0).val + 128 * t + col) (4 * q + 3) :=
    hOK ⟨4 * q + 3, by omega⟩ ⟨col, hcol⟩
  have l0 := hLt (4 * q) col (by omega) hcol
  have l1 := hLt (4 * q + 1) col (by omega) hcol
  have l2 := hLt (4 * q + 2) col (by omega) hcol
  have l3 := hLt (4 * q + 3) col (by omega) hcol
  unfold gQ
  rw [tab4At_quad fT C10 hT10 _ _ _ _ l0 l1 l2 l3, s0, s1, s2, s3]

/-! ## The result function at a molecule of the tile -/

/-- Fifty quads of column col of panel t added onto zero, plus the energy scratch's entry 128 t + col, is the result
    function at molecule 1024 L₁ + 512 L₀ + 128 t + col. -/
theorem out_lane_eq (fS : S200x16384.Idx → BitVec 32) (fE : S16384.Idx → F .f32) (fT : S8.Idx → F .f32)
    (L : grid0.Coords) (C7 : S4x200x128.Idx → BitVec 32) (C8 : S512.Idx → F .f32) (C10 : S16.Idx → F .f32) (t : ℕ)
    (hT10 : T10OK fT C10) (hOK : SlabOK fS L C7 t) (hLt : SlabLt C7 t) (hE : E8OK fE L C8)
    (ht : t < 4) (col : ℕ) (hcol : col < 128) (p : Fin 512) (hp : p.val = 128 * t + col)
    (M : S16384.Idx) (hM : (M 0).val = 1024 * (L 1).val + 512 * (L 0).val + 128 * t + col) :
    FloatOps.addf (accF (gQ C10 C7 t col) 50) (C8 (ValueIdx.ix1 p)) = outSpec fS fE fT M := by
  unfold outSpec
  rw [hM]
  have eE : C8 (ValueIdx.ix1 p) = fE M := by
    rw [hE p]
    congr 1
    funext d
    match d with
    | ⟨0, _⟩ => exact Fin.ext (by show 1024 * (L 1).val + 512 * (L 0).val + p.val = (M 0).val; omega)
  rw [eE]
  congr 1
  exact accF_congr _ _ 50 (fun q hq => gQ_eq_quadF fT C10 hT10 fS L C7 t hOK hLt col hcol q hq)

end Cert.Proof.KB

end
-- ==== Proof.OutValueKB.lean ====
/-
  The tile's 512 results.

  The output scratch ends as thirty-two sixteen-lane stores, store n at entries 16 n .. 16 n + 15, pairwise disjoint: entry
  16 n + x reads lane x of store n's payload. Store n = 8 t + j holds accumulator j of panel t after fifty quads plus the
  energies 16 n .. 16 n + 15 of the tile, which is the result function at molecules 1024 L₁ + 512 L₀ + 16 n + x. The chunk of
  the result array the scratch is copied to starts at entry 1024 L₁ + 512 L₀, so on the chunk's elements the result array is
  the result function.
-/
import proofs.«206988_g4337916970008_retrytranche1_694_23_alg».proof.Proof.AccMathKB
import proofs.«206988_g4337916970008_retrytranche1_694_23_alg».proof.Proof.ValueStoreKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

namespace OV

theorem inb16 (k : ℕ) (hk : k < 32) : ∀ a, (![16 * k] : Fin 1 → ℕ) a + S16.size a ≤ S512.size a := by
  intro a
  match a with
  | ⟨0, _⟩ => show 16 * k + 16 ≤ 512; omega

/-- The stores k - 1, …, 0, the last first, store n at entries 16 n .. 16 n + 15 with payload P n. -/
def pcs (P : Fin 32 → S16.Idx → F .f32) : (k : ℕ) → k ≤ 32 → List (View.Piece (Elt F) S512 .f32)
  | 0, _ => []
  | k + 1, hk => (⟨Rect.unit (s := S512) ![16 * k] S16.size (inb16 k (by omega)), P ⟨k, by omega⟩⟩ : View.Piece (Elt F) S512 .f32)
      :: pcs P k (by omega)

/-- After the stores k - 1, …, 0, entry 16 n + x, n < k, is lane x of store n's payload. -/
theorem pcs_apply (f9 : S512.Idx → F .f32) (P : Fin 32 → S16.Idx → F .f32) :
    ∀ (k : ℕ) (hk : k ≤ 32) (n : ℕ) (hn : n < k) (x : S16.Idx) (h : 16 * n + (x 0).val < 512),
      (b9.view.writes (Elt F) f9 (pcs P k hk)) (ValueIdx.ix1 ⟨16 * n + (x 0).val, h⟩) = P ⟨n, by omega⟩ x
  | 0, _, n, hn, _, _ => absurd hn (Nat.not_lt_zero n)
  | k + 1, hk, n, hn, x, h => by
    have hx : (x 0).val < 16 := (x 0).isLt
    by_cases e : n = k
    · subst e
      show (b9.view.writes (Elt F) f9 ((⟨Rect.unit (s := S512) ![16 * n] S16.size (inb16 n (by omega)), P ⟨n, by omega⟩⟩ : View.Piece (Elt F) S512 .f32)
        :: pcs P n (by omega))) (ValueIdx.ix1 ⟨16 * n + (x 0).val, h⟩) = _
      rw [b9_writes_cons_inside f9 _ _ _ _ ⟨16 * n + (x 0).val, h⟩ (by show 16 * n ≤ 16 * n + (x 0).val; omega)
        (by show 16 * n + (x 0).val < 16 * n + 16; omega)]
      congr 1
      funext d
      match d with
      | ⟨0, _⟩ => exact Fin.ext (by show 16 * n + (x 0).val - 16 * n = (x 0).val; omega)
    · have ih := pcs_apply f9 P k (by omega) n (by omega) x h
      show (b9.view.writes (Elt F) f9 ((⟨Rect.unit (s := S512) ![16 * k] S16.size (inb16 k (by omega)), P ⟨k, by omega⟩⟩ : View.Piece (Elt F) S512 .f32)
        :: pcs P k (by omega))) (ValueIdx.ix1 ⟨16 * n + (x 0).val, h⟩) = _
      rw [b9_writes_cons_outside f9 _ _ _ _ ⟨16 * n + (x 0).val, h⟩ (by show 16 * n + (x 0).val < 16 * k ∨ 16 * k + 16 ≤ 16 * n + (x 0).val; omega)]
      exact ih

theorem lane_lt (n : Fin 32) (x : S16.Idx) : 16 * n.val + (x 0).val < 512 := by
  have hx : (x 0).val < 16 := (x 0).isLt
  have hn := n.isLt
  omega

theorem mol_lt (L : grid0.Coords) (n : Fin 32) (x : S16.Idx) : 1024 * (L 1).val + 512 * (L 0).val + 16 * n.val + (x 0).val < 16384 := by
  have hx : (x 0).val < 16 := (x 0).isLt
  have hn := n.isLt
  have h1 : (L 1).val < 16 := (L 1).isLt
  have h0 : (L 0).val < 2 := (L 0).isLt
  omega

end OV

/-- Thirty-two sixteen-lane stores into the output scratch, store n at entries 16 n .. 16 n + 15, the last first: entry
    16 n + x is lane x of store n's payload. -/
theorem pieces32_apply (f9 : S512.Idx → F .f32) (P : Fin 32 → (S16.Idx → F .f32)) (n : Fin 32) (x : S16.Idx) :
    (b9.view.writes (Elt F) f9
      [⟨Rect.unit (s := S512) ![496] S16.size inb_S512_S16_496, P 31⟩,
      ⟨Rect.unit (s := S512) ![480] S16.size inb_S512_S16_480, P 30⟩,
      ⟨Rect.unit (s := S512) ![464] S16.size inb_S512_S16_464, P 29⟩,
      ⟨Rect.unit (s := S512) ![448] S16.size inb_S512_S16_448, P 28⟩,
      ⟨Rect.unit (s := S512) ![432] S16.size inb_S512_S16_432, P 27⟩,
      ⟨Rect.unit (s := S512) ![416] S16.size inb_S512_S16_416, P 26⟩,
      ⟨Rect.unit (s := S512) ![400] S16.size inb_S512_S16_400, P 25⟩,
      ⟨Rect.unit (s := S512) ![384] S16.size inb_S512_S16_384, P 24⟩,
      ⟨Rect.unit (s := S512) ![368] S16.size inb_S512_S16_368, P 23⟩,
      ⟨Rect.unit (s := S512) ![352] S16.size inb_S512_S16_352, P 22⟩,
      ⟨Rect.unit (s := S512) ![336] S16.size inb_S512_S16_336, P 21⟩,
      ⟨Rect.unit (s := S512) ![320] S16.size inb_S512_S16_320, P 20⟩,
      ⟨Rect.unit (s := S512) ![304] S16.size inb_S512_S16_304, P 19⟩,
      ⟨Rect.unit (s := S512) ![288] S16.size inb_S512_S16_288, P 18⟩,
      ⟨Rect.unit (s := S512) ![272] S16.size inb_S512_S16_272, P 17⟩,
      ⟨Rect.unit (s := S512) ![256] S16.size inb_S512_S16_256, P 16⟩,
      ⟨Rect.unit (s := S512) ![240] S16.size inb_S512_S16_240, P 15⟩,
      ⟨Rect.unit (s := S512) ![224] S16.size inb_S512_S16_224, P 14⟩,
      ⟨Rect.unit (s := S512) ![208] S16.size inb_S512_S16_208, P 13⟩,
      ⟨Rect.unit (s := S512) ![192] S16.size inb_S512_S16_192, P 12⟩,
      ⟨Rect.unit (s := S512) ![176] S16.size inb_S512_S16_176, P 11⟩,
      ⟨Rect.unit (s := S512) ![160] S16.size inb_S512_S16_160, P 10⟩,
      ⟨Rect.unit (s := S512) ![144] S16.size inb_S512_S16_144, P 9⟩,
      ⟨Rect.unit (s := S512) ![128] S16.size inb_S512_S16_128, P 8⟩,
      ⟨Rect.unit (s := S512) ![112] S16.size inb_S512_S16_112, P 7⟩,
      ⟨Rect.unit (s := S512) ![96] S16.size inb_S512_S16_96, P 6⟩,
      ⟨Rect.unit (s := S512) ![80] S16.size inb_S512_S16_80, P 5⟩,
      ⟨Rect.unit (s := S512) ![64] S16.size inb_S512_S16_64, P 4⟩,
      ⟨Rect.unit (s := S512) ![48] S16.size inb_S512_S16_48, P 3⟩,
      ⟨Rect.unit (s := S512) ![32] S16.size inb_S512_S16_32, P 2⟩,
      ⟨Rect.unit (s := S512) ![16] S16.size inb_S512_S16_16, P 1⟩,
      ⟨Rect.unit (s := S512) ![0] S16.size inb_S512_S16_0, P 0⟩])
      (ValueIdx.ix1 ⟨16 * n.val + (x 0).val, OV.lane_lt n x⟩) = P n x :=
  OV.pcs_apply f9 P 32 (Nat.le_refl 32) n.val n.isLt x (OV.lane_lt n x)

variable [FloatOps F]

namespace OV

/-- Lane x of store n = 8 t + j: accumulator j of panel t after fifty quads plus the tile's energy 16 n + x is the result
    function at molecule 1024 L₁ + 512 L₀ + 16 n + x. -/
theorem lane_out (fS : S200x16384.Idx → BitVec 32) (fE : S16384.Idx → F .f32) (fT : S8.Idx → F .f32) (L : grid0.Coords)
    (C10 : S16.Idx → F .f32) (C8 : S512.Idx → F .f32) (C7 : S4x200x128.Idx → BitVec 32) (t j n : ℕ) (ht : t < 4) (hj : j < 8)
    (hn : n = 8 * t + j) (acc : FVec F S16 .f32) (b : Vec F S16 .f32)
    (hT10 : T10OK fT C10) (hE : E8OK fE L C8) (hS : SlabOK fS L C7 t) (hL : SlabLt C7 t) (hA : AccLane C10 C7 t j 50 acc)
    (x : S16.Idx)
    (hb : ∀ y : S16.Idx, b y = C8 (ValueIdx.ix1 ⟨16 * n + (y 0).val, by
      have hy : (y 0).val < 16 := (y 0).isLt
      omega⟩))
    (hM : 1024 * (L 1).val + 512 * (L 0).val + 16 * n + (x 0).val < 16384) :
    addf acc b x = outSpec fS fE fT (ValueIdx.ix1 ⟨1024 * (L 1).val + 512 * (L 0).val + 16 * n + (x 0).val, hM⟩) := by
  have hx : (x 0).val < 16 := (x 0).isLt
  show FloatOps.addf (acc x) (b x) = _
  rw [hA x, hb x]
  exact out_lane_eq fS fE fT L C7 C8 C10 t hT10 hS hL hE ht (16 * j + (x 0).val) (by omega) ⟨16 * n + (x 0).val, by omega⟩
    (by show 16 * n + (x 0).val = 128 * t + (16 * j + (x 0).val); omega) _
    (by show 1024 * (L 1).val + 512 * (L 0).val + 16 * n + (x 0).val = 1024 * (L 1).val + 512 * (L 0).val + 128 * t + (16 * j + (x 0).val); omega)

end OV

/-- The thirty-two payloads of the final stores: store n = 8 t + j adds accumulator j of panel t and the energies
    16 n .. 16 n + 15. -/
def payN (C8 : S512.Idx → F .f32) (accs0 accs1 accs2 accs3 : FVec F S16 .f32 × FVec F S16 .f32 × FVec F S16 .f32 × FVec F S16 .f32 × FVec F S16 .f32 × FVec F S16 .f32 × FVec F S16 .f32 × FVec F S16 .f32) : Fin 32 → (S16.Idx → F .f32) :=
  ![k0_pay105 accs0.1 (View.readAt (Elt F) b8.view (Rect.unit (s := S512) ![0] S16.size inb_S512_S16_0).toLoadRect C8),
    k0_pay106 accs0.2.1 (View.readAt (Elt F) b8.view (Rect.unit (s := S512) ![16] S16.size inb_S512_S16_16).toLoadRect C8),
    k0_pay107 accs0.2.2.1 (View.readAt (Elt F) b8.view (Rect.unit (s := S512) ![32] S16.size inb_S512_S16_32).toLoadRect C8),
    k0_pay108 accs0.2.2.2.1 (View.readAt (Elt F) b8.view (Rect.unit (s := S512) ![48] S16.size inb_S512_S16_48).toLoadRect C8),
    k0_pay109 accs0.2.2.2.2.1 (View.readAt (Elt F) b8.view (Rect.unit (s := S512) ![64] S16.size inb_S512_S16_64).toLoadRect C8),
    k0_pay110 accs0.2.2.2.2.2.1 (View.readAt (Elt F) b8.view (Rect.unit (s := S512) ![80] S16.size inb_S512_S16_80).toLoadRect C8),
    k0_pay111 accs0.2.2.2.2.2.2.1 (View.readAt (Elt F) b8.view (Rect.unit (s := S512) ![96] S16.size inb_S512_S16_96).toLoadRect C8),
    k0_pay112 accs0.2.2.2.2.2.2.2 (View.readAt (Elt F) b8.view (Rect.unit (s := S512) ![112] S16.size inb_S512_S16_112).toLoadRect C8),
    k0_pay122 accs1.1 (View.readAt (Elt F) b8.view (Rect.unit (s := S512) ![128] S16.size inb_S512_S16_128).toLoadRect C8),
    k0_pay123 accs1.2.1 (View.readAt (Elt F) b8.view (Rect.unit (s := S512) ![144] S16.size inb_S512_S16_144).toLoadRect C8),
    k0_pay124 accs1.2.2.1 (View.readAt (Elt F) b8.view (Rect.unit (s := S512) ![160] S16.size inb_S512_S16_160).toLoadRect C8),
    k0_pay125 accs1.2.2.2.1 (View.readAt (Elt F) b8.view (Rect.unit (s := S512) ![176] S16.size inb_S512_S16_176).toLoadRect C8),
    k0_pay126 accs1.2.2.2.2.1 (View.readAt (Elt F) b8.view (Rect.unit (s := S512) ![192] S16.size inb_S512_S16_192).toLoadRect C8),
    k0_pay127 accs1.2.2.2.2.2.1 (View.readAt (Elt F) b8.view (Rect.unit (s := S512) ![208] S16.size inb_S512_S16_208).toLoadRect C8),
    k0_pay128 accs1.2.2.2.2.2.2.1 (View.readAt (Elt F) b8.view (Rect.unit (s := S512) ![224] S16.size inb_S512_S16_224).toLoadRect C8),
    k0_pay129 accs1.2.2.2.2.2.2.2 (View.readAt (Elt F) b8.view (Rect.unit (s := S512) ![240] S16.size inb_S512_S16_240).toLoadRect C8),
    k0_pay139 accs2.1 (View.readAt (Elt F) b8.view (Rect.unit (s := S512) ![256] S16.size inb_S512_S16_256).toLoadRect C8),
    k0_pay140 accs2.2.1 (View.readAt (Elt F) b8.view (Rect.unit (s := S512) ![272] S16.size inb_S512_S16_272).toLoadRect C8),
    k0_pay141 accs2.2.2.1 (View.readAt (Elt F) b8.view (Rect.unit (s := S512) ![288] S16.size inb_S512_S16_288).toLoadRect C8),
    k0_pay142 accs2.2.2.2.1 (View.readAt (Elt F) b8.view (Rect.unit (s := S512) ![304] S16.size inb_S512_S16_304).toLoadRect C8),
    k0_pay143 accs2.2.2.2.2.1 (View.readAt (Elt F) b8.view (Rect.unit (s := S512) ![320] S16.size inb_S512_S16_320).toLoadRect C8),
    k0_pay144 accs2.2.2.2.2.2.1 (View.readAt (Elt F) b8.view (Rect.unit (s := S512) ![336] S16.size inb_S512_S16_336).toLoadRect C8),
    k0_pay145 accs2.2.2.2.2.2.2.1 (View.readAt (Elt F) b8.view (Rect.unit (s := S512) ![352] S16.size inb_S512_S16_352).toLoadRect C8),
    k0_pay146 accs2.2.2.2.2.2.2.2 (View.readAt (Elt F) b8.view (Rect.unit (s := S512) ![368] S16.size inb_S512_S16_368).toLoadRect C8),
    k0_pay156 accs3.1 (View.readAt (Elt F) b8.view (Rect.unit (s := S512) ![384] S16.size inb_S512_S16_384).toLoadRect C8),
    k0_pay157 accs3.2.1 (View.readAt (Elt F) b8.view (Rect.unit (s := S512) ![400] S16.size inb_S512_S16_400).toLoadRect C8),
    k0_pay158 accs3.2.2.1 (View.readAt (Elt F) b8.view (Rect.unit (s := S512) ![416] S16.size inb_S512_S16_416).toLoadRect C8),
    k0_pay159 accs3.2.2.2.1 (View.readAt (Elt F) b8.view (Rect.unit (s := S512) ![432] S16.size inb_S512_S16_432).toLoadRect C8),
    k0_pay160 accs3.2.2.2.2.1 (View.readAt (Elt F) b8.view (Rect.unit (s := S512) ![448] S16.size inb_S512_S16_448).toLoadRect C8),
    k0_pay161 accs3.2.2.2.2.2.1 (View.readAt (Elt F) b8.view (Rect.unit (s := S512) ![464] S16.size inb_S512_S16_464).toLoadRect C8),
    k0_pay162 accs3.2.2.2.2.2.2.1 (View.readAt (Elt F) b8.view (Rect.unit (s := S512) ![480] S16.size inb_S512_S16_480).toLoadRect C8),
    k0_pay163 accs3.2.2.2.2.2.2.2 (View.readAt (Elt F) b8.view (Rect.unit (s := S512) ![496] S16.size inb_S512_S16_496).toLoadRect C8)]

/-- Lane x of store n is the result function at molecule 1024 L₁ + 512 L₀ + 16 n + x. -/
theorem out_value (fS : S200x16384.Idx → BitVec 32) (fE : S16384.Idx → F .f32) (fT : S8.Idx → F .f32) (L : grid0.Coords)
    (C10 : S16.Idx → F .f32) (C8 : S512.Idx → F .f32)
    (C7_0 C7_1 C7_2 C7_3 : S4x200x128.Idx → BitVec 32)
    (accs0 accs1 accs2 accs3 : FVec F S16 .f32 × FVec F S16 .f32 × FVec F S16 .f32 × FVec F S16 .f32 × FVec F S16 .f32 × FVec F S16 .f32 × FVec F S16 .f32 × FVec F S16 .f32)
    (hT10 : T10OK fT C10) (hE : E8OK fE L C8)
    (hS0 : SlabOK fS L C7_0 0) (hS1 : SlabOK fS L C7_1 1) (hS2 : SlabOK fS L C7_2 2) (hS3 : SlabOK fS L C7_3 3)
    (hL0 : SlabLt C7_0 0) (hL1 : SlabLt C7_1 1) (hL2 : SlabLt C7_2 2) (hL3 : SlabLt C7_3 3)
    (hA0 : AccOK C10 C7_0 0 50 accs0) (hA1 : AccOK C10 C7_1 1 50 accs1) (hA2 : AccOK C10 C7_2 2 50 accs2) (hA3 : AccOK C10 C7_3 3 50 accs3)
    (n : Fin 32) (x : S16.Idx) :
    payN C8 accs0 accs1 accs2 accs3 n x
      = outSpec fS fE fT (ValueIdx.ix1 ⟨1024 * (L 1).val + 512 * (L 0).val + 16 * n.val + (x 0).val, OV.mol_lt L n x⟩) := by
  fin_cases n
  · exact OV.lane_out fS fE fT L C10 C8 C7_0 0 0 0 (by decide) (by decide) rfl accs0.1
      (View.readAt (Elt F) b8.view (Rect.unit (s := S512) ![0] S16.size inb_S512_S16_0).toLoadRect C8) hT10 hE hS0 hL0 hA0.1 x
      (fun y => b8_load_lane C8 _ _ 0 rfl y) _
  · exact OV.lane_out fS fE fT L C10 C8 C7_0 0 1 1 (by decide) (by decide) rfl accs0.2.1
      (View.readAt (Elt F) b8.view (Rect.unit (s := S512) ![16] S16.size inb_S512_S16_16).toLoadRect C8) hT10 hE hS0 hL0 hA0.2.1 x
      (fun y => b8_load_lane C8 _ _ 16 rfl y) _
  · exact OV.lane_out fS fE fT L C10 C8 C7_0 0 2 2 (by decide) (by decide) rfl accs0.2.2.1
      (View.readAt (Elt F) b8.view (Rect.unit (s := S512) ![32] S16.size inb_S512_S16_32).toLoadRect C8) hT10 hE hS0 hL0 hA0.2.2.1 x
      (fun y => b8_load_lane C8 _ _ 32 rfl y) _
  · exact OV.lane_out fS fE fT L C10 C8 C7_0 0 3 3 (by decide) (by decide) rfl accs0.2.2.2.1
      (View.readAt (Elt F) b8.view (Rect.unit (s := S512) ![48] S16.size inb_S512_S16_48).toLoadRect C8) hT10 hE hS0 hL0 hA0.2.2.2.1 x
      (fun y => b8_load_lane C8 _ _ 48 rfl y) _
  · exact OV.lane_out fS fE fT L C10 C8 C7_0 0 4 4 (by decide) (by decide) rfl accs0.2.2.2.2.1
      (View.readAt (Elt F) b8.view (Rect.unit (s := S512) ![64] S16.size inb_S512_S16_64).toLoadRect C8) hT10 hE hS0 hL0 hA0.2.2.2.2.1 x
      (fun y => b8_load_lane C8 _ _ 64 rfl y) _
  · exact OV.lane_out fS fE fT L C10 C8 C7_0 0 5 5 (by decide) (by decide) rfl accs0.2.2.2.2.2.1
      (View.readAt (Elt F) b8.view (Rect.unit (s := S512) ![80] S16.size inb_S512_S16_80).toLoadRect C8) hT10 hE hS0 hL0 hA0.2.2.2.2.2.1 x
      (fun y => b8_load_lane C8 _ _ 80 rfl y) _
  · exact OV.lane_out fS fE fT L C10 C8 C7_0 0 6 6 (by decide) (by decide) rfl accs0.2.2.2.2.2.2.1
      (View.readAt (Elt F) b8.view (Rect.unit (s := S512) ![96] S16.size inb_S512_S16_96).toLoadRect C8) hT10 hE hS0 hL0 hA0.2.2.2.2.2.2.1 x
      (fun y => b8_load_lane C8 _ _ 96 rfl y) _
  · exact OV.lane_out fS fE fT L C10 C8 C7_0 0 7 7 (by decide) (by decide) rfl accs0.2.2.2.2.2.2.2
      (View.readAt (Elt F) b8.view (Rect.unit (s := S512) ![112] S16.size inb_S512_S16_112).toLoadRect C8) hT10 hE hS0 hL0 hA0.2.2.2.2.2.2.2 x
      (fun y => b8_load_lane C8 _ _ 112 rfl y) _
  · exact OV.lane_out fS fE fT L C10 C8 C7_1 1 0 8 (by decide) (by decide) rfl accs1.1
      (View.readAt (Elt F) b8.view (Rect.unit (s := S512) ![128] S16.size inb_S512_S16_128).toLoadRect C8) hT10 hE hS1 hL1 hA1.1 x
      (fun y => b8_load_lane C8 _ _ 128 rfl y) _
  · exact OV.lane_out fS fE fT L C10 C8 C7_1 1 1 9 (by decide) (by decide) rfl accs1.2.1
      (View.readAt (Elt F) b8.view (Rect.unit (s := S512) ![144] S16.size inb_S512_S16_144).toLoadRect C8) hT10 hE hS1 hL1 hA1.2.1 x
      (fun y => b8_load_lane C8 _ _ 144 rfl y) _
  · exact OV.lane_out fS fE fT L C10 C8 C7_1 1 2 10 (by decide) (by decide) rfl accs1.2.2.1
      (View.readAt (Elt F) b8.view (Rect.unit (s := S512) ![160] S16.size inb_S512_S16_160).toLoadRect C8) hT10 hE hS1 hL1 hA1.2.2.1 x
      (fun y => b8_load_lane C8 _ _ 160 rfl y) _
  · exact OV.lane_out fS fE fT L C10 C8 C7_1 1 3 11 (by decide) (by decide) rfl accs1.2.2.2.1
      (View.readAt (Elt F) b8.view (Rect.unit (s := S512) ![176] S16.size inb_S512_S16_176).toLoadRect C8) hT10 hE hS1 hL1 hA1.2.2.2.1 x
      (fun y => b8_load_lane C8 _ _ 176 rfl y) _
  · exact OV.lane_out fS fE fT L C10 C8 C7_1 1 4 12 (by decide) (by decide) rfl accs1.2.2.2.2.1
      (View.readAt (Elt F) b8.view (Rect.unit (s := S512) ![192] S16.size inb_S512_S16_192).toLoadRect C8) hT10 hE hS1 hL1 hA1.2.2.2.2.1 x
      (fun y => b8_load_lane C8 _ _ 192 rfl y) _
  · exact OV.lane_out fS fE fT L C10 C8 C7_1 1 5 13 (by decide) (by decide) rfl accs1.2.2.2.2.2.1
      (View.readAt (Elt F) b8.view (Rect.unit (s := S512) ![208] S16.size inb_S512_S16_208).toLoadRect C8) hT10 hE hS1 hL1 hA1.2.2.2.2.2.1 x
      (fun y => b8_load_lane C8 _ _ 208 rfl y) _
  · exact OV.lane_out fS fE fT L C10 C8 C7_1 1 6 14 (by decide) (by decide) rfl accs1.2.2.2.2.2.2.1
      (View.readAt (Elt F) b8.view (Rect.unit (s := S512) ![224] S16.size inb_S512_S16_224).toLoadRect C8) hT10 hE hS1 hL1 hA1.2.2.2.2.2.2.1 x
      (fun y => b8_load_lane C8 _ _ 224 rfl y) _
  · exact OV.lane_out fS fE fT L C10 C8 C7_1 1 7 15 (by decide) (by decide) rfl accs1.2.2.2.2.2.2.2
      (View.readAt (Elt F) b8.view (Rect.unit (s := S512) ![240] S16.size inb_S512_S16_240).toLoadRect C8) hT10 hE hS1 hL1 hA1.2.2.2.2.2.2.2 x
      (fun y => b8_load_lane C8 _ _ 240 rfl y) _
  · exact OV.lane_out fS fE fT L C10 C8 C7_2 2 0 16 (by decide) (by decide) rfl accs2.1
      (View.readAt (Elt F) b8.view (Rect.unit (s := S512) ![256] S16.size inb_S512_S16_256).toLoadRect C8) hT10 hE hS2 hL2 hA2.1 x
      (fun y => b8_load_lane C8 _ _ 256 rfl y) _
  · exact OV.lane_out fS fE fT L C10 C8 C7_2 2 1 17 (by decide) (by decide) rfl accs2.2.1
      (View.readAt (Elt F) b8.view (Rect.unit (s := S512) ![272] S16.size inb_S512_S16_272).toLoadRect C8) hT10 hE hS2 hL2 hA2.2.1 x
      (fun y => b8_load_lane C8 _ _ 272 rfl y) _
  · exact OV.lane_out fS fE fT L C10 C8 C7_2 2 2 18 (by decide) (by decide) rfl accs2.2.2.1
      (View.readAt (Elt F) b8.view (Rect.unit (s := S512) ![288] S16.size inb_S512_S16_288).toLoadRect C8) hT10 hE hS2 hL2 hA2.2.2.1 x
      (fun y => b8_load_lane C8 _ _ 288 rfl y) _
  · exact OV.lane_out fS fE fT L C10 C8 C7_2 2 3 19 (by decide) (by decide) rfl accs2.2.2.2.1
      (View.readAt (Elt F) b8.view (Rect.unit (s := S512) ![304] S16.size inb_S512_S16_304).toLoadRect C8) hT10 hE hS2 hL2 hA2.2.2.2.1 x
      (fun y => b8_load_lane C8 _ _ 304 rfl y) _
  · exact OV.lane_out fS fE fT L C10 C8 C7_2 2 4 20 (by decide) (by decide) rfl accs2.2.2.2.2.1
      (View.readAt (Elt F) b8.view (Rect.unit (s := S512) ![320] S16.size inb_S512_S16_320).toLoadRect C8) hT10 hE hS2 hL2 hA2.2.2.2.2.1 x
      (fun y => b8_load_lane C8 _ _ 320 rfl y) _
  · exact OV.lane_out fS fE fT L C10 C8 C7_2 2 5 21 (by decide) (by decide) rfl accs2.2.2.2.2.2.1
      (View.readAt (Elt F) b8.view (Rect.unit (s := S512) ![336] S16.size inb_S512_S16_336).toLoadRect C8) hT10 hE hS2 hL2 hA2.2.2.2.2.2.1 x
      (fun y => b8_load_lane C8 _ _ 336 rfl y) _
  · exact OV.lane_out fS fE fT L C10 C8 C7_2 2 6 22 (by decide) (by decide) rfl accs2.2.2.2.2.2.2.1
      (View.readAt (Elt F) b8.view (Rect.unit (s := S512) ![352] S16.size inb_S512_S16_352).toLoadRect C8) hT10 hE hS2 hL2 hA2.2.2.2.2.2.2.1 x
      (fun y => b8_load_lane C8 _ _ 352 rfl y) _
  · exact OV.lane_out fS fE fT L C10 C8 C7_2 2 7 23 (by decide) (by decide) rfl accs2.2.2.2.2.2.2.2
      (View.readAt (Elt F) b8.view (Rect.unit (s := S512) ![368] S16.size inb_S512_S16_368).toLoadRect C8) hT10 hE hS2 hL2 hA2.2.2.2.2.2.2.2 x
      (fun y => b8_load_lane C8 _ _ 368 rfl y) _
  · exact OV.lane_out fS fE fT L C10 C8 C7_3 3 0 24 (by decide) (by decide) rfl accs3.1
      (View.readAt (Elt F) b8.view (Rect.unit (s := S512) ![384] S16.size inb_S512_S16_384).toLoadRect C8) hT10 hE hS3 hL3 hA3.1 x
      (fun y => b8_load_lane C8 _ _ 384 rfl y) _
  · exact OV.lane_out fS fE fT L C10 C8 C7_3 3 1 25 (by decide) (by decide) rfl accs3.2.1
      (View.readAt (Elt F) b8.view (Rect.unit (s := S512) ![400] S16.size inb_S512_S16_400).toLoadRect C8) hT10 hE hS3 hL3 hA3.2.1 x
      (fun y => b8_load_lane C8 _ _ 400 rfl y) _
  · exact OV.lane_out fS fE fT L C10 C8 C7_3 3 2 26 (by decide) (by decide) rfl accs3.2.2.1
      (View.readAt (Elt F) b8.view (Rect.unit (s := S512) ![416] S16.size inb_S512_S16_416).toLoadRect C8) hT10 hE hS3 hL3 hA3.2.2.1 x
      (fun y => b8_load_lane C8 _ _ 416 rfl y) _
  · exact OV.lane_out fS fE fT L C10 C8 C7_3 3 3 27 (by decide) (by decide) rfl accs3.2.2.2.1
      (View.readAt (Elt F) b8.view (Rect.unit (s := S512) ![432] S16.size inb_S512_S16_432).toLoadRect C8) hT10 hE hS3 hL3 hA3.2.2.2.1 x
      (fun y => b8_load_lane C8 _ _ 432 rfl y) _
  · exact OV.lane_out fS fE fT L C10 C8 C7_3 3 4 28 (by decide) (by decide) rfl accs3.2.2.2.2.1
      (View.readAt (Elt F) b8.view (Rect.unit (s := S512) ![448] S16.size inb_S512_S16_448).toLoadRect C8) hT10 hE hS3 hL3 hA3.2.2.2.2.1 x
      (fun y => b8_load_lane C8 _ _ 448 rfl y) _
  · exact OV.lane_out fS fE fT L C10 C8 C7_3 3 5 29 (by decide) (by decide) rfl accs3.2.2.2.2.2.1
      (View.readAt (Elt F) b8.view (Rect.unit (s := S512) ![464] S16.size inb_S512_S16_464).toLoadRect C8) hT10 hE hS3 hL3 hA3.2.2.2.2.2.1 x
      (fun y => b8_load_lane C8 _ _ 464 rfl y) _
  · exact OV.lane_out fS fE fT L C10 C8 C7_3 3 6 30 (by decide) (by decide) rfl accs3.2.2.2.2.2.2.1
      (View.readAt (Elt F) b8.view (Rect.unit (s := S512) ![480] S16.size inb_S512_S16_480).toLoadRect C8) hT10 hE hS3 hL3 hA3.2.2.2.2.2.2.1 x
      (fun y => b8_load_lane C8 _ _ 480 rfl y) _
  · exact OV.lane_out fS fE fT L C10 C8 C7_3 3 7 31 (by decide) (by decide) rfl accs3.2.2.2.2.2.2.2
      (View.readAt (Elt F) b8.view (Rect.unit (s := S512) ![496] S16.size inb_S512_S16_496).toLoadRect C8) hT10 hE hS3 hL3 hA3.2.2.2.2.2.2.2 x
      (fun y => b8_load_lane C8 _ _ 496 rfl y) _

namespace OV

/-- Entry p of the tile's chunk of the result array is the array's entry 1024 L₁ + 512 L₀ + p. -/
theorem oCh_emb (L : grid0.Coords) (p : Fin 512) :
    (oCh L).view.emb (ValueIdx.ix1 p) = ValueIdx.ix1 ⟨1024 * (L 1).val + 512 * (L 0).val + p.val, by
      have h1 : (L 1).val < 16 := (L 1).isLt
      have h0 : (L 0).val < 2 := (L 0).isLt
      omega⟩ := by
  funext d
  have ho := k0_off69_eq L
  match d with
  | ⟨0, _⟩ =>
    refine Fin.ext ?_
    show (k0_off69 L) 0 + 1 * p.val = 1024 * (L 1).val + 512 * (L 0).val + p.val
    rw [ho]; show 1024 * (L 1).val + 512 * (L 0).val + 1 * p.val = _; omega

end OV

/-- The tile's chunk of the result array, after the output scratch landed in it, is the result function on its elements. -/
theorem oCh_landed (d : Dev nD) (q : PosShare TreeShare) (g : Buf (Elt F) (oLoc d)) (f9 : S512.Idx → F .f32)
    (fS : S200x16384.Idx → BitVec 32) (fE : S16384.Idx → F .f32) (fT : S8.Idx → F .f32) (L : grid0.Coords)
    (C10 : S16.Idx → F .f32) (C8 : S512.Idx → F .f32)
    (C7_0 C7_1 C7_2 C7_3 : S4x200x128.Idx → BitVec 32)
    (accs0 accs1 accs2 accs3 : FVec F S16 .f32 × FVec F S16 .f32 × FVec F S16 .f32 × FVec F S16 .f32 × FVec F S16 .f32 × FVec F S16 .f32 × FVec F S16 .f32 × FVec F S16 .f32)
    (hT10 : T10OK fT C10) (hE : E8OK fE L C8)
    (hS0 : SlabOK fS L C7_0 0) (hS1 : SlabOK fS L C7_1 1) (hS2 : SlabOK fS L C7_2 2) (hS3 : SlabOK fS L C7_3 3)
    (hL0 : SlabLt C7_0 0) (hL1 : SlabLt C7_1 1) (hL2 : SlabLt C7_2 2) (hL3 : SlabLt C7_3 3)
    (hA0 : AccOK C10 C7_0 0 50 accs0) (hA1 : AccOK C10 C7_1 1 50 accs1) (hA2 : AccOK C10 C7_2 2 50 accs2) (hA3 : AccOK C10 C7_3 3 50 accs3) :
    ((oCh L).view.loc (thr d L) ↦[(oCh L).view.set]{q} ((oCh L).view.writes (Elt F) g [⟨Rect.whole S512, ReadAs.same.apply (View.read (Elt F) b9.view (b9.view.writes (Elt F) f9
      [⟨Rect.unit (s := S512) ![496] S16.size inb_S512_S16_496, k0_pay163 accs3.2.2.2.2.2.2.2 (View.readAt (Elt F) b8.view (Rect.unit (s := S512) ![496] S16.size inb_S512_S16_496).toLoadRect C8)⟩,
      ⟨Rect.unit (s := S512) ![480] S16.size inb_S512_S16_480, k0_pay162 accs3.2.2.2.2.2.2.1 (View.readAt (Elt F) b8.view (Rect.unit (s := S512) ![480] S16.size inb_S512_S16_480).toLoadRect C8)⟩,
      ⟨Rect.unit (s := S512) ![464] S16.size inb_S512_S16_464, k0_pay161 accs3.2.2.2.2.2.1 (View.readAt (Elt F) b8.view (Rect.unit (s := S512) ![464] S16.size inb_S512_S16_464).toLoadRect C8)⟩,
      ⟨Rect.unit (s := S512) ![448] S16.size inb_S512_S16_448, k0_pay160 accs3.2.2.2.2.1 (View.readAt (Elt F) b8.view (Rect.unit (s := S512) ![448] S16.size inb_S512_S16_448).toLoadRect C8)⟩,
      ⟨Rect.unit (s := S512) ![432] S16.size inb_S512_S16_432, k0_pay159 accs3.2.2.2.1 (View.readAt (Elt F) b8.view (Rect.unit (s := S512) ![432] S16.size inb_S512_S16_432).toLoadRect C8)⟩,
      ⟨Rect.unit (s := S512) ![416] S16.size inb_S512_S16_416, k0_pay158 accs3.2.2.1 (View.readAt (Elt F) b8.view (Rect.unit (s := S512) ![416] S16.size inb_S512_S16_416).toLoadRect C8)⟩,
      ⟨Rect.unit (s := S512) ![400] S16.size inb_S512_S16_400, k0_pay157 accs3.2.1 (View.readAt (Elt F) b8.view (Rect.unit (s := S512) ![400] S16.size inb_S512_S16_400).toLoadRect C8)⟩,
      ⟨Rect.unit (s := S512) ![384] S16.size inb_S512_S16_384, k0_pay156 accs3.1 (View.readAt (Elt F) b8.view (Rect.unit (s := S512) ![384] S16.size inb_S512_S16_384).toLoadRect C8)⟩,
      ⟨Rect.unit (s := S512) ![368] S16.size inb_S512_S16_368, k0_pay146 accs2.2.2.2.2.2.2.2 (View.readAt (Elt F) b8.view (Rect.unit (s := S512) ![368] S16.size inb_S512_S16_368).toLoadRect C8)⟩,
      ⟨Rect.unit (s := S512) ![352] S16.size inb_S512_S16_352, k0_pay145 accs2.2.2.2.2.2.2.1 (View.readAt (Elt F) b8.view (Rect.unit (s := S512) ![352] S16.size inb_S512_S16_352).toLoadRect C8)⟩,
      ⟨Rect.unit (s := S512) ![336] S16.size inb_S512_S16_336, k0_pay144 accs2.2.2.2.2.2.1 (View.readAt (Elt F) b8.view (Rect.unit (s := S512) ![336] S16.size inb_S512_S16_336).toLoadRect C8)⟩,
      ⟨Rect.unit (s := S512) ![320] S16.size inb_S512_S16_320, k0_pay143 accs2.2.2.2.2.1 (View.readAt (Elt F) b8.view (Rect.unit (s := S512) ![320] S16.size inb_S512_S16_320).toLoadRect C8)⟩,
      ⟨Rect.unit (s := S512) ![304] S16.size inb_S512_S16_304, k0_pay142 accs2.2.2.2.1 (View.readAt (Elt F) b8.view (Rect.unit (s := S512) ![304] S16.size inb_S512_S16_304).toLoadRect C8)⟩,
      ⟨Rect.unit (s := S512) ![288] S16.size inb_S512_S16_288, k0_pay141 accs2.2.2.1 (View.readAt (Elt F) b8.view (Rect.unit (s := S512) ![288] S16.size inb_S512_S16_288).toLoadRect C8)⟩,
      ⟨Rect.unit (s := S512) ![272] S16.size inb_S512_S16_272, k0_pay140 accs2.2.1 (View.readAt (Elt F) b8.view (Rect.unit (s := S512) ![272] S16.size inb_S512_S16_272).toLoadRect C8)⟩,
      ⟨Rect.unit (s := S512) ![256] S16.size inb_S512_S16_256, k0_pay139 accs2.1 (View.readAt (Elt F) b8.view (Rect.unit (s := S512) ![256] S16.size inb_S512_S16_256).toLoadRect C8)⟩,
      ⟨Rect.unit (s := S512) ![240] S16.size inb_S512_S16_240, k0_pay129 accs1.2.2.2.2.2.2.2 (View.readAt (Elt F) b8.view (Rect.unit (s := S512) ![240] S16.size inb_S512_S16_240).toLoadRect C8)⟩,
      ⟨Rect.unit (s := S512) ![224] S16.size inb_S512_S16_224, k0_pay128 accs1.2.2.2.2.2.2.1 (View.readAt (Elt F) b8.view (Rect.unit (s := S512) ![224] S16.size inb_S512_S16_224).toLoadRect C8)⟩,
      ⟨Rect.unit (s := S512) ![208] S16.size inb_S512_S16_208, k0_pay127 accs1.2.2.2.2.2.1 (View.readAt (Elt F) b8.view (Rect.unit (s := S512) ![208] S16.size inb_S512_S16_208).toLoadRect C8)⟩,
      ⟨Rect.unit (s := S512) ![192] S16.size inb_S512_S16_192, k0_pay126 accs1.2.2.2.2.1 (View.readAt (Elt F) b8.view (Rect.unit (s := S512) ![192] S16.size inb_S512_S16_192).toLoadRect C8)⟩,
      ⟨Rect.unit (s := S512) ![176] S16.size inb_S512_S16_176, k0_pay125 accs1.2.2.2.1 (View.readAt (Elt F) b8.view (Rect.unit (s := S512) ![176] S16.size inb_S512_S16_176).toLoadRect C8)⟩,
      ⟨Rect.unit (s := S512) ![160] S16.size inb_S512_S16_160, k0_pay124 accs1.2.2.1 (View.readAt (Elt F) b8.view (Rect.unit (s := S512) ![160] S16.size inb_S512_S16_160).toLoadRect C8)⟩,
      ⟨Rect.unit (s := S512) ![144] S16.size inb_S512_S16_144, k0_pay123 accs1.2.1 (View.readAt (Elt F) b8.view (Rect.unit (s := S512) ![144] S16.size inb_S512_S16_144).toLoadRect C8)⟩,
      ⟨Rect.unit (s := S512) ![128] S16.size inb_S512_S16_128, k0_pay122 accs1.1 (View.readAt (Elt F) b8.view (Rect.unit (s := S512) ![128] S16.size inb_S512_S16_128).toLoadRect C8)⟩,
      ⟨Rect.unit (s := S512) ![112] S16.size inb_S512_S16_112, k0_pay112 accs0.2.2.2.2.2.2.2 (View.readAt (Elt F) b8.view (Rect.unit (s := S512) ![112] S16.size inb_S512_S16_112).toLoadRect C8)⟩,
      ⟨Rect.unit (s := S512) ![96] S16.size inb_S512_S16_96, k0_pay111 accs0.2.2.2.2.2.2.1 (View.readAt (Elt F) b8.view (Rect.unit (s := S512) ![96] S16.size inb_S512_S16_96).toLoadRect C8)⟩,
      ⟨Rect.unit (s := S512) ![80] S16.size inb_S512_S16_80, k0_pay110 accs0.2.2.2.2.2.1 (View.readAt (Elt F) b8.view (Rect.unit (s := S512) ![80] S16.size inb_S512_S16_80).toLoadRect C8)⟩,
      ⟨Rect.unit (s := S512) ![64] S16.size inb_S512_S16_64, k0_pay109 accs0.2.2.2.2.1 (View.readAt (Elt F) b8.view (Rect.unit (s := S512) ![64] S16.size inb_S512_S16_64).toLoadRect C8)⟩,
      ⟨Rect.unit (s := S512) ![48] S16.size inb_S512_S16_48, k0_pay108 accs0.2.2.2.1 (View.readAt (Elt F) b8.view (Rect.unit (s := S512) ![48] S16.size inb_S512_S16_48).toLoadRect C8)⟩,
      ⟨Rect.unit (s := S512) ![32] S16.size inb_S512_S16_32, k0_pay107 accs0.2.2.1 (View.readAt (Elt F) b8.view (Rect.unit (s := S512) ![32] S16.size inb_S512_S16_32).toLoadRect C8)⟩,
      ⟨Rect.unit (s := S512) ![16] S16.size inb_S512_S16_16, k0_pay106 accs0.2.1 (View.readAt (Elt F) b8.view (Rect.unit (s := S512) ![16] S16.size inb_S512_S16_16).toLoadRect C8)⟩,
      ⟨Rect.unit (s := S512) ![0] S16.size inb_S512_S16_0, k0_pay105 accs0.1 (View.readAt (Elt F) b8.view (Rect.unit (s := S512) ![0] S16.size inb_S512_S16_0).toLoadRect C8)⟩]))⟩]) : sProp 𝕄)
      = (oLoc d ↦[(oCh L).view.set]{q} outSpec fS fE fT) := by
  refine pointsTo_congr (fun i hi => ?_)
  obtain ⟨j, -, rfl⟩ := Finset.mem_map.mp (show i ∈ Finset.univ.map (oCh L).view.emb from hi)
  obtain ⟨p, rfl⟩ : ∃ p, j = ValueIdx.ix1 p := ⟨j 0, ValueIdx.eq_ix1 j⟩
  have hw : ((oCh L).view.slice (Rect.whole S512)).emb (ValueIdx.ix1 p) = (oCh L).view.emb (ValueIdx.ix1 p) := by
    show (oCh L).view.emb ((Rect.whole S512).emb (ValueIdx.ix1 p)) = _
    rw [Rect.emb_whole_apply]
  rw [View.writes_singleton, ← hw, View.write_emb_of_mem _ _ (Finset.mem_univ _), hw, ReadAs.apply_same, View.read_apply]
  have key : (b9.view.writes (Elt F) f9
      [⟨Rect.unit (s := S512) ![496] S16.size inb_S512_S16_496, k0_pay163 accs3.2.2.2.2.2.2.2 (View.readAt (Elt F) b8.view (Rect.unit (s := S512) ![496] S16.size inb_S512_S16_496).toLoadRect C8)⟩,
      ⟨Rect.unit (s := S512) ![480] S16.size inb_S512_S16_480, k0_pay162 accs3.2.2.2.2.2.2.1 (View.readAt (Elt F) b8.view (Rect.unit (s := S512) ![480] S16.size inb_S512_S16_480).toLoadRect C8)⟩,
      ⟨Rect.unit (s := S512) ![464] S16.size inb_S512_S16_464, k0_pay161 accs3.2.2.2.2.2.1 (View.readAt (Elt F) b8.view (Rect.unit (s := S512) ![464] S16.size inb_S512_S16_464).toLoadRect C8)⟩,
      ⟨Rect.unit (s := S512) ![448] S16.size inb_S512_S16_448, k0_pay160 accs3.2.2.2.2.1 (View.readAt (Elt F) b8.view (Rect.unit (s := S512) ![448] S16.size inb_S512_S16_448).toLoadRect C8)⟩,
      ⟨Rect.unit (s := S512) ![432] S16.size inb_S512_S16_432, k0_pay159 accs3.2.2.2.1 (View.readAt (Elt F) b8.view (Rect.unit (s := S512) ![432] S16.size inb_S512_S16_432).toLoadRect C8)⟩,
      ⟨Rect.unit (s := S512) ![416] S16.size inb_S512_S16_416, k0_pay158 accs3.2.2.1 (View.readAt (Elt F) b8.view (Rect.unit (s := S512) ![416] S16.size inb_S512_S16_416).toLoadRect C8)⟩,
      ⟨Rect.unit (s := S512) ![400] S16.size inb_S512_S16_400, k0_pay157 accs3.2.1 (View.readAt (Elt F) b8.view (Rect.unit (s := S512) ![400] S16.size inb_S512_S16_400).toLoadRect C8)⟩,
      ⟨Rect.unit (s := S512) ![384] S16.size inb_S512_S16_384, k0_pay156 accs3.1 (View.readAt (Elt F) b8.view (Rect.unit (s := S512) ![384] S16.size inb_S512_S16_384).toLoadRect C8)⟩,
      ⟨Rect.unit (s := S512) ![368] S16.size inb_S512_S16_368, k0_pay146 accs2.2.2.2.2.2.2.2 (View.readAt (Elt F) b8.view (Rect.unit (s := S512) ![368] S16.size inb_S512_S16_368).toLoadRect C8)⟩,
      ⟨Rect.unit (s := S512) ![352] S16.size inb_S512_S16_352, k0_pay145 accs2.2.2.2.2.2.2.1 (View.readAt (Elt F) b8.view (Rect.unit (s := S512) ![352] S16.size inb_S512_S16_352).toLoadRect C8)⟩,
      ⟨Rect.unit (s := S512) ![336] S16.size inb_S512_S16_336, k0_pay144 accs2.2.2.2.2.2.1 (View.readAt (Elt F) b8.view (Rect.unit (s := S512) ![336] S16.size inb_S512_S16_336).toLoadRect C8)⟩,
      ⟨Rect.unit (s := S512) ![320] S16.size inb_S512_S16_320, k0_pay143 accs2.2.2.2.2.1 (View.readAt (Elt F) b8.view (Rect.unit (s := S512) ![320] S16.size inb_S512_S16_320).toLoadRect C8)⟩,
      ⟨Rect.unit (s := S512) ![304] S16.size inb_S512_S16_304, k0_pay142 accs2.2.2.2.1 (View.readAt (Elt F) b8.view (Rect.unit (s := S512) ![304] S16.size inb_S512_S16_304).toLoadRect C8)⟩,
      ⟨Rect.unit (s := S512) ![288] S16.size inb_S512_S16_288, k0_pay141 accs2.2.2.1 (View.readAt (Elt F) b8.view (Rect.unit (s := S512) ![288] S16.size inb_S512_S16_288).toLoadRect C8)⟩,
      ⟨Rect.unit (s := S512) ![272] S16.size inb_S512_S16_272, k0_pay140 accs2.2.1 (View.readAt (Elt F) b8.view (Rect.unit (s := S512) ![272] S16.size inb_S512_S16_272).toLoadRect C8)⟩,
      ⟨Rect.unit (s := S512) ![256] S16.size inb_S512_S16_256, k0_pay139 accs2.1 (View.readAt (Elt F) b8.view (Rect.unit (s := S512) ![256] S16.size inb_S512_S16_256).toLoadRect C8)⟩,
      ⟨Rect.unit (s := S512) ![240] S16.size inb_S512_S16_240, k0_pay129 accs1.2.2.2.2.2.2.2 (View.readAt (Elt F) b8.view (Rect.unit (s := S512) ![240] S16.size inb_S512_S16_240).toLoadRect C8)⟩,
      ⟨Rect.unit (s := S512) ![224] S16.size inb_S512_S16_224, k0_pay128 accs1.2.2.2.2.2.2.1 (View.readAt (Elt F) b8.view (Rect.unit (s := S512) ![224] S16.size inb_S512_S16_224).toLoadRect C8)⟩,
      ⟨Rect.unit (s := S512) ![208] S16.size inb_S512_S16_208, k0_pay127 accs1.2.2.2.2.2.1 (View.readAt (Elt F) b8.view (Rect.unit (s := S512) ![208] S16.size inb_S512_S16_208).toLoadRect C8)⟩,
      ⟨Rect.unit (s := S512) ![192] S16.size inb_S512_S16_192, k0_pay126 accs1.2.2.2.2.1 (View.readAt (Elt F) b8.view (Rect.unit (s := S512) ![192] S16.size inb_S512_S16_192).toLoadRect C8)⟩,
      ⟨Rect.unit (s := S512) ![176] S16.size inb_S512_S16_176, k0_pay125 accs1.2.2.2.1 (View.readAt (Elt F) b8.view (Rect.unit (s := S512) ![176] S16.size inb_S512_S16_176).toLoadRect C8)⟩,
      ⟨Rect.unit (s := S512) ![160] S16.size inb_S512_S16_160, k0_pay124 accs1.2.2.1 (View.readAt (Elt F) b8.view (Rect.unit (s := S512) ![160] S16.size inb_S512_S16_160).toLoadRect C8)⟩,
      ⟨Rect.unit (s := S512) ![144] S16.size inb_S512_S16_144, k0_pay123 accs1.2.1 (View.readAt (Elt F) b8.view (Rect.unit (s := S512) ![144] S16.size inb_S512_S16_144).toLoadRect C8)⟩,
      ⟨Rect.unit (s := S512) ![128] S16.size inb_S512_S16_128, k0_pay122 accs1.1 (View.readAt (Elt F) b8.view (Rect.unit (s := S512) ![128] S16.size inb_S512_S16_128).toLoadRect C8)⟩,
      ⟨Rect.unit (s := S512) ![112] S16.size inb_S512_S16_112, k0_pay112 accs0.2.2.2.2.2.2.2 (View.readAt (Elt F) b8.view (Rect.unit (s := S512) ![112] S16.size inb_S512_S16_112).toLoadRect C8)⟩,
      ⟨Rect.unit (s := S512) ![96] S16.size inb_S512_S16_96, k0_pay111 accs0.2.2.2.2.2.2.1 (View.readAt (Elt F) b8.view (Rect.unit (s := S512) ![96] S16.size inb_S512_S16_96).toLoadRect C8)⟩,
      ⟨Rect.unit (s := S512) ![80] S16.size inb_S512_S16_80, k0_pay110 accs0.2.2.2.2.2.1 (View.readAt (Elt F) b8.view (Rect.unit (s := S512) ![80] S16.size inb_S512_S16_80).toLoadRect C8)⟩,
      ⟨Rect.unit (s := S512) ![64] S16.size inb_S512_S16_64, k0_pay109 accs0.2.2.2.2.1 (View.readAt (Elt F) b8.view (Rect.unit (s := S512) ![64] S16.size inb_S512_S16_64).toLoadRect C8)⟩,
      ⟨Rect.unit (s := S512) ![48] S16.size inb_S512_S16_48, k0_pay108 accs0.2.2.2.1 (View.readAt (Elt F) b8.view (Rect.unit (s := S512) ![48] S16.size inb_S512_S16_48).toLoadRect C8)⟩,
      ⟨Rect.unit (s := S512) ![32] S16.size inb_S512_S16_32, k0_pay107 accs0.2.2.1 (View.readAt (Elt F) b8.view (Rect.unit (s := S512) ![32] S16.size inb_S512_S16_32).toLoadRect C8)⟩,
      ⟨Rect.unit (s := S512) ![16] S16.size inb_S512_S16_16, k0_pay106 accs0.2.1 (View.readAt (Elt F) b8.view (Rect.unit (s := S512) ![16] S16.size inb_S512_S16_16).toLoadRect C8)⟩,
      ⟨Rect.unit (s := S512) ![0] S16.size inb_S512_S16_0, k0_pay105 accs0.1 (View.readAt (Elt F) b8.view (Rect.unit (s := S512) ![0] S16.size inb_S512_S16_0).toLoadRect C8)⟩]) (ValueIdx.ix1 p)
      = outSpec fS fE fT ((oCh L).view.emb (ValueIdx.ix1 p)) := by
    have hlt := p.isLt
    obtain ⟨n, x, hp⟩ : ∃ (n : Fin 32) (x : S16.Idx), (ValueIdx.ix1 p : S512.Idx) = ValueIdx.ix1 ⟨16 * n.val + (x 0).val, OV.lane_lt n x⟩ := by
      refine ⟨⟨p.val / 16, by omega⟩, ValueIdx.ix1 ⟨p.val % 16, Nat.mod_lt _ (by decide)⟩, ?_⟩
      funext d
      match d with
      | ⟨0, _⟩ => exact Fin.ext (by show p.val = 16 * (p.val / 16) + p.val % 16; omega)
    rw [hp]
    refine (pieces32_apply f9 (payN C8 accs0 accs1 accs2 accs3) n x).trans ?_
    rw [out_value fS fE fT L C10 C8 C7_0 C7_1 C7_2 C7_3 accs0 accs1 accs2 accs3 hT10 hE hS0 hS1 hS2 hS3 hL0 hL1 hL2 hL3 hA0 hA1 hA2 hA3 n x, OV.oCh_emb]
    congr 1
    funext d
    match d with
    | ⟨0, _⟩ => exact Fin.ext (by show 1024 * (L 1).val + 512 * (L 0).val + 16 * n.val + (x 0).val = 1024 * (L 1).val + 512 * (L 0).val + (16 * n.val + (x 0).val); omega)
  exact key

end Cert.Proof.KB

end
-- ==== Proof.WriteBackKB.lean ====
/-
  The write-back panels of the copy hold the transposed species.

  Panel r of the tile at L travels twice: from the transposed species' columns 1024 L₁ + 512 L₀ + 128 r + [0, 128) into
  panel r of the scratch, and from there into the same columns of the copy. Entry (a, p) of what lands is the
  transposed species at row a, column 1024 L₁ + 512 L₀ + 128 r + p, which is the element of the copy it lands on:
  on the panel's elements the copy's contents are the transposed species'.
-/
import proofs.«206988_g4337916970008_retrytranche1_694_23_alg».proof.Proof.SlabCutKB
import proofs.«206988_g4337916970008_retrytranche1_694_23_alg».proof.Proof.ValueWriteKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

namespace WB

/-- Column panel r of the copy, of the transposed species, as the body slices them at the tile at L; panel t of the
    scratch at a printed offset. -/
abbrev wv (L : grid0.Coords) (r : Fin 4) : Memref sig .scVector .hbm S200x128 .i32 :=
  wV.slice (Rect.unit (s := S200x16384) (k0_off4 L (BitVec.ofNat 32 (128 * r.val))) S200x128.size (k0_off4_inb L r)) (fun _ => rfl)
abbrev sv (L : grid0.Coords) (r : Fin 4) : Memref sig .scVector .hbm S200x128 .i32 :=
  sV.slice (Rect.unit (s := S200x16384) (k0_off1 L (BitVec.ofNat 32 (128 * r.val))) S200x128.size (k0_off1_inb L r)) (fun _ => rfl)
abbrev sl (off : Fin 3 → ℕ) (inb : ∀ a, off a + S1x200x128.size a ≤ S4x200x128.size a) : Memref sig .scVector .vmem S200x128 .i32 :=
  (b7.slice (Rect.unit (s := S4x200x128) off S1x200x128.size inb) (fun _ => rfl)).squeeze S200x128 squeezes_S1x200x128_S200x128

theorem col_lt (L : grid0.Coords) (r : Fin 4) (p : Fin 128) : 1024 * (L 1).val + 512 * (L 0).val + 128 * r.val + p.val < 16384 := by
  have h := k0_off4_inb L r 1
  rw [k0_off4_eq L r] at h
  have h' : 1024 * (L 1).val + 512 * (L 0).val + 128 * r.val + 128 ≤ 16384 := h
  omega

/-- Entry (a, p) of panel r of the copy is the copy's element at row a, column 1024 L₁ + 512 L₀ + 128 r + p. -/
theorem wv_emb (L : grid0.Coords) (r : Fin 4) (a : Fin 200) (p : Fin 128) :
    (wv L r).view.emb (ValueIdx.ix2 a p) = ValueIdx.ix2 a ⟨1024 * (L 1).val + 512 * (L 0).val + 128 * r.val + p.val, col_lt L r p⟩ := by
  funext d
  have ho := k0_off4_eq L r
  match d with
  | ⟨0, _⟩ =>
    refine Fin.ext ?_
    show (k0_off4 L (BitVec.ofNat 32 (128 * r.val))) 0 + 1 * a.val = a.val
    rw [ho]; show 0 + 1 * a.val = a.val; omega
  | ⟨1, _⟩ =>
    refine Fin.ext ?_
    show (k0_off4 L (BitVec.ofNat 32 (128 * r.val))) 1 + 1 * p.val = 1024 * (L 1).val + 512 * (L 0).val + 128 * r.val + p.val
    rw [ho]; show 1024 * (L 1).val + 512 * (L 0).val + 128 * r.val + 1 * p.val = _; omega

/-- Entry (a, p) of panel t of the scratch is the scratch's element (t, a, p). -/
theorem sl_emb (off : Fin 3 → ℕ) (inb : ∀ a, off a + S1x200x128.size a ≤ S4x200x128.size a) (t : ℕ) (hoff : off = ![t, 0, 0]) (ht : t < 4)
    (a : Fin 200) (p : Fin 128) : (sl off inb).view.emb (ValueIdx.ix2 a p) = ValueIdx.ix3 ⟨t, ht⟩ a p := by
  subst hoff
  have hr : Shape.reshapeEquiv (s := S1x200x128) (s' := S200x128) squeezes_S1x200x128_S200x128.numel_eq (ValueIdx.ix2 a p)
      = ValueIdx.ix3 ⟨0, by decide⟩ a p :=
    Shape.reshapeEquiv_eq_of_rowMajor _ (by rw [Shape.rowMajor_val_three, Shape.rowMajor_val_two]; simp)
  show (Rect.unit (s := S4x200x128) ![t, 0, 0] S1x200x128.size inb).emb
      (Shape.reshapeEquiv (s := S1x200x128) (s' := S200x128) squeezes_S1x200x128_S200x128.numel_eq (ValueIdx.ix2 a p)) = _
  rw [hr]
  funext d
  match d with
  | ⟨0, _⟩ => exact Fin.ext (by show t + 1 * 0 = t; omega)
  | ⟨1, _⟩ => exact Fin.ext (by show 0 + 1 * a.val = a.val; omega)
  | ⟨2, _⟩ => exact Fin.ext (by show 0 + 1 * p.val = p.val; omega)

/-- On panel r's elements the copy, after the panel landed in it from the scratch where it had landed from the
    transposed species, is the transposed species. -/
theorem value (L : grid0.Coords) (r : Fin 4) (g : S200x16384.Idx → BitVec 32) (g' : S4x200x128.Idx → BitVec 32)
    (fS : S200x16384.Idx → BitVec 32) (off : Fin 3 → ℕ) (inb : ∀ a, off a + S1x200x128.size a ≤ S4x200x128.size a)
    (hoff : off = ![r.val, 0, 0]) (i : S200x16384.Idx) (hi : i ∈ (wv L r).view.set) :
    ((wv L r).view.writes (Elt F) g [⟨Rect.whole S200x128, ReadAs.same.apply (View.read (Elt F) (sl off inb).view
        ((sl off inb).view.writes (Elt F) g' [⟨Rect.whole S200x128, ReadAs.same.apply (View.read (Elt F) (sv L r).view fS)⟩]))⟩]) i
      = fS i := by
  obtain ⟨j, -, rfl⟩ := Finset.mem_map.mp (show i ∈ Finset.univ.map (wv L r).view.emb from hi)
  obtain ⟨a, p, rfl⟩ : ∃ a p, j = ValueIdx.ix2 a p := ⟨j 0, j 1, ValueIdx.eq_ix2 j⟩
  have hw : ((wv L r).view.slice (Rect.whole S200x128)).emb (ValueIdx.ix2 a p) = (wv L r).view.emb (ValueIdx.ix2 a p) := by
    show (wv L r).view.emb ((Rect.whole S200x128).emb (ValueIdx.ix2 a p)) = _
    rw [Rect.emb_whole_apply]
  rw [View.writes_singleton, ← hw, View.write_emb_of_mem _ _ (Finset.mem_univ _), hw]
  rw [ReadAs.apply_same, View.read_apply, sl_emb off inb r.val hoff r.isLt,
    slab_writes_apply (F := F) g' _ off inb r.val hoff r.isLt, sIn_read_apply, wv_emb]
  rfl

end WB

/-- Panel 0 of the copy, after the write-back, is the transposed species on its elements. -/
theorem wOut0_landed (d : Dev nD) (L : grid0.Coords) (q : PosShare TreeShare) (g : Buf (Elt F) (wLoc d))
    (g' : Buf (Elt F) ((thr d L).loc cc0_scratch0)) (fS : Buf (Elt F) (sLoc d)) :
    ((wOut0 L).view.loc (thr d L) ↦[(wOut0 L).view.set]{q} ((wOut0 L).view.writes (Elt F) g [⟨Rect.whole S200x128, ReadAs.same.apply (View.read (Elt F) slab0.view (slab0.view.writes (Elt F) g' [⟨Rect.whole S200x128, ReadAs.same.apply (View.read (Elt F) (sIn0 L).view fS)⟩]))⟩]) : sProp 𝕄)
      = (wLoc d ↦[(wOut0 L).view.set]{q} fS) :=
  pointsTo_congr (fun i hi => WB.value (F := F) L 0 g g' fS _ _ rfl i hi)

/-- Panel 1 of the copy, after the write-back, is the transposed species on its elements. -/
theorem wOut1_landed (d : Dev nD) (L : grid0.Coords) (q : PosShare TreeShare) (g : Buf (Elt F) (wLoc d))
    (g' : Buf (Elt F) ((thr d L).loc cc0_scratch0)) (fS : Buf (Elt F) (sLoc d)) :
    ((wOut1 L).view.loc (thr d L) ↦[(wOut1 L).view.set]{q} ((wOut1 L).view.writes (Elt F) g [⟨Rect.whole S200x128, ReadAs.same.apply (View.read (Elt F) slab1.view (slab1.view.writes (Elt F) g' [⟨Rect.whole S200x128, ReadAs.same.apply (View.read (Elt F) (sIn1 L).view fS)⟩]))⟩]) : sProp 𝕄)
      = (wLoc d ↦[(wOut1 L).view.set]{q} fS) :=
  pointsTo_congr (fun i hi => WB.value (F := F) L 1 g g' fS _ _ rfl i hi)

/-- Panel 2 of the copy, after the write-back, is the transposed species on its elements. -/
theorem wOut2_landed (d : Dev nD) (L : grid0.Coords) (q : PosShare TreeShare) (g : Buf (Elt F) (wLoc d))
    (g' : Buf (Elt F) ((thr d L).loc cc0_scratch0)) (fS : Buf (Elt F) (sLoc d)) :
    ((wOut2 L).view.loc (thr d L) ↦[(wOut2 L).view.set]{q} ((wOut2 L).view.writes (Elt F) g [⟨Rect.whole S200x128, ReadAs.same.apply (View.read (Elt F) slab2.view (slab2.view.writes (Elt F) g' [⟨Rect.whole S200x128, ReadAs.same.apply (View.read (Elt F) (sIn2 L).view fS)⟩]))⟩]) : sProp 𝕄)
      = (wLoc d ↦[(wOut2 L).view.set]{q} fS) :=
  pointsTo_congr (fun i hi => WB.value (F := F) L 2 g g' fS _ _ rfl i hi)

/-- Panel 3 of the copy, after the write-back, is the transposed species on its elements. -/
theorem wOut3_landed (d : Dev nD) (L : grid0.Coords) (q : PosShare TreeShare) (g : Buf (Elt F) (wLoc d))
    (g' : Buf (Elt F) ((thr d L).loc cc0_scratch0)) (fS : Buf (Elt F) (sLoc d)) :
    ((wOut3 L).view.loc (thr d L) ↦[(wOut3 L).view.set]{q} ((wOut3 L).view.writes (Elt F) g [⟨Rect.whole S200x128, ReadAs.same.apply (View.read (Elt F) slab3.view (slab3.view.writes (Elt F) g' [⟨Rect.whole S200x128, ReadAs.same.apply (View.read (Elt F) (sIn3 L).view fS)⟩]))⟩]) : sProp 𝕄)
      = (wLoc d ↦[(wOut3 L).view.set]{q} fS) :=
  pointsTo_congr (fun i hi => WB.value (F := F) L 3 g g' fS _ _ rfl i hi)

end Cert.Proof.KB

end
-- ==== Proof.TileBodyKB.lean ====
/-
  One tile's task, at a symbolic tile: the body run once from the tile's pieces to its results.

  The four panels of species are fetched into the four panels of the species scratch, each on a semaphore of its own;
  the eight self energies and the tile's 512 energies are fetched and waited for; the table of 4096 sums of four self
  energies is built, sixteen entries a trip; then, panel by panel: the panel's fetch is waited for, its copy-out to the
  result's panel is started (the copy reads one half share of the scratch panel, the loop the other), fifty quads of
  table entries are added onto eight accumulators of sixteen molecules, and the energies are added into the output
  scratch; last the four copy-outs are waited for and the 512 results are copied out. The invariants carry the values:
  the table built up to the trip, the accumulators after k quads; the pieces come back at the result function.
-/
import proofs.«206988_g4337916970008_retrytranche1_694_23_alg».proof.Proof.TileOwnKB
import proofs.«206988_g4337916970008_retrytranche1_694_23_alg».proof.Proof.TilePreKB
import proofs.«206988_g4337916970008_retrytranche1_694_23_alg».proof.Proof.SlabJoinKB
import proofs.«206988_g4337916970008_retrytranche1_694_23_alg».proof.Proof.ValueSpecKB
import proofs.«206988_g4337916970008_retrytranche1_694_23_alg».proof.Proof.TableLoopKB
import proofs.«206988_g4337916970008_retrytranche1_694_23_alg».proof.Proof.WordsKKB
import proofs.«206988_g4337916970008_retrytranche1_694_23_alg».proof.Proof.LandingKB
import proofs.«206988_g4337916970008_retrytranche1_694_23_alg».proof.Proof.LoopT2KB
import proofs.«206988_g4337916970008_retrytranche1_694_23_alg».proof.Proof.LoopT3KB
import proofs.«206988_g4337916970008_retrytranche1_694_23_alg».proof.Proof.LoopT4KB
import proofs.«206988_g4337916970008_retrytranche1_694_23_alg».proof.Proof.LoopT5KB
import proofs.«206988_g4337916970008_retrytranche1_694_23_alg».proof.Proof.OutValueKB
import proofs.«206988_g4337916970008_retrytranche1_694_23_alg».proof.Proof.WriteBackKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
local notation "𝕄" => MT nD τ sig (HIx 1) (Elt F) ℕ UU ℕ

variable [FloatOps F]

omit [FloatOps F] in
theorem pts_s (d : Dev nD) (L : grid0.Coords) (q : PosShare TreeShare) (f : Buf (Elt F) (sLoc d)) :
    ((sV).view.loc (thr d L) ↦{q} f : sProp 𝕄) = ((SparseCore.T d).loc main_v0 ↦{q} f) := by simp only [Memref.view_whole, View.set_whole]
omit [FloatOps F] in
theorem pts_e (d : Dev nD) (L : grid0.Coords) (q : PosShare TreeShare) (f : Buf (Elt F) ((SparseCore.T d).loc main_arg1)) :
    ((eV).view.loc (thr d L) ↦{q} f : sProp 𝕄) = ((SparseCore.T d).loc main_arg1 ↦{q} f) := by simp only [Memref.view_whole, View.set_whole]
omit [FloatOps F] in
theorem pts_t (d : Dev nD) (L : grid0.Coords) (q : PosShare TreeShare) (f : Buf (Elt F) ((SparseCore.T d).loc main_arg2)) :
    ((tV).view.loc (thr d L) ↦{q} f : sProp 𝕄) = ((SparseCore.T d).loc main_arg2 ↦{q} f) := by simp only [Memref.view_whole, View.set_whole]
omit [FloatOps F] in
theorem pts_o (d : Dev nD) (L : grid0.Coords) (q : PosShare TreeShare) (f : Buf (Elt F) ((SparseCore.T d).loc main_v1_0)) :
    ((oV).view.loc (thr d L) ↦{q} f : sProp 𝕄) = ((SparseCore.T d).loc main_v1_0 ↦{q} f) := by simp only [Memref.view_whole, View.set_whole]
omit [FloatOps F] in
theorem pts_w (d : Dev nD) (L : grid0.Coords) (q : PosShare TreeShare) (f : Buf (Elt F) ((SparseCore.T d).loc main_v1_1)) :
    ((wV).view.loc (thr d L) ↦{q} f : sProp 𝕄) = ((SparseCore.T d).loc main_v1_1 ↦{q} f) := by simp only [Memref.view_whole, View.set_whole]
omit [FloatOps F] in
theorem pts_b7 (d : Dev nD) (L : grid0.Coords) (q : PosShare TreeShare) (f : Buf (Elt F) ((thr d L).loc cc0_scratch0)) :
    ((b7).view.loc (thr d L) ↦{q} f : sProp 𝕄) = ((thr d L).loc cc0_scratch0 ↦{q} f) := rfl
omit [FloatOps F] in
theorem pts_b8 (d : Dev nD) (L : grid0.Coords) (q : PosShare TreeShare) (f : Buf (Elt F) ((thr d L).loc cc0_scratch1)) :
    ((b8).view.loc (thr d L) ↦{q} f : sProp 𝕄) = ((thr d L).loc cc0_scratch1 ↦{q} f) := rfl
omit [FloatOps F] in
theorem pts_b9 (d : Dev nD) (L : grid0.Coords) (q : PosShare TreeShare) (f : Buf (Elt F) ((thr d L).loc cc0_scratch2)) :
    ((b9).view.loc (thr d L) ↦{q} f : sProp 𝕄) = ((thr d L).loc cc0_scratch2 ↦{q} f) := rfl
omit [FloatOps F] in
theorem pts_b10 (d : Dev nD) (L : grid0.Coords) (q : PosShare TreeShare) (f : Buf (Elt F) ((thr d L).loc cc0_scratch3)) :
    ((b10).view.loc (thr d L) ↦{q} f : sProp 𝕄) = ((thr d L).loc cc0_scratch3 ↦{q} f) := rfl
omit [FloatOps F] in
theorem pts_b11 (d : Dev nD) (L : grid0.Coords) (q : PosShare TreeShare) (f : Buf (Elt F) ((thr d L).loc cc0_scratch4)) :
    ((b11).view.loc (thr d L) ↦{q} f : sProp 𝕄) = ((thr d L).loc cc0_scratch4 ↦{q} f) := rfl

omit [FloatOps F] in
theorem pts_b10_acc (d : Dev nD) (L : grid0.Coords) (q : PosShare TreeShare) (f : Buf (Elt F) ((thr d L).loc cc0_scratch3)) :
    (((b10).access (.whole S16)).loc (thr d L) ↦{q} f : sProp 𝕄) = ((b10).view.loc (thr d L) ↦{q} f) := rfl
omit [FloatOps F] in
theorem pts_b11_acc (d : Dev nD) (L : grid0.Coords) (q : PosShare TreeShare) (f : Buf (Elt F) ((thr d L).loc cc0_scratch4)) :
    (((b11).access (.whole S4096)).loc (thr d L) ↦{q} f : sProp 𝕄) = ((b11).view.loc (thr d L) ↦{q} f) := rfl

omit [FloatOps F] in
theorem pts_sIn0 (d : Dev nD) (L : grid0.Coords) (q : PosShare TreeShare) (f : Buf (Elt F) (sLoc d)) :
    ((sIn0 L).view.loc (thr d L) ↦[(sIn0 L).view.set]{q} f : sProp 𝕄) = (sLoc d ↦[(sIn0 L).view.set]{q} f) := rfl

omit [FloatOps F] in
theorem pts_sIn1 (d : Dev nD) (L : grid0.Coords) (q : PosShare TreeShare) (f : Buf (Elt F) (sLoc d)) :
    ((sIn1 L).view.loc (thr d L) ↦[(sIn1 L).view.set]{q} f : sProp 𝕄) = (sLoc d ↦[(sIn1 L).view.set]{q} f) := rfl

omit [FloatOps F] in
theorem pts_sIn2 (d : Dev nD) (L : grid0.Coords) (q : PosShare TreeShare) (f : Buf (Elt F) (sLoc d)) :
    ((sIn2 L).view.loc (thr d L) ↦[(sIn2 L).view.set]{q} f : sProp 𝕄) = (sLoc d ↦[(sIn2 L).view.set]{q} f) := rfl

omit [FloatOps F] in
theorem pts_sIn3 (d : Dev nD) (L : grid0.Coords) (q : PosShare TreeShare) (f : Buf (Elt F) (sLoc d)) :
    ((sIn3 L).view.loc (thr d L) ↦[(sIn3 L).view.set]{q} f : sProp 𝕄) = (sLoc d ↦[(sIn3 L).view.set]{q} f) := rfl

omit [FloatOps F] in
theorem pts_wOut0 (d : Dev nD) (L : grid0.Coords) (q : PosShare TreeShare) (f : Buf (Elt F) (wLoc d)) :
    ((wOut0 L).view.loc (thr d L) ↦[(wOut0 L).view.set]{q} f : sProp 𝕄) = (wLoc d ↦[(wOut0 L).view.set]{q} f) := rfl

omit [FloatOps F] in
theorem pts_wOut1 (d : Dev nD) (L : grid0.Coords) (q : PosShare TreeShare) (f : Buf (Elt F) (wLoc d)) :
    ((wOut1 L).view.loc (thr d L) ↦[(wOut1 L).view.set]{q} f : sProp 𝕄) = (wLoc d ↦[(wOut1 L).view.set]{q} f) := rfl

omit [FloatOps F] in
theorem pts_wOut2 (d : Dev nD) (L : grid0.Coords) (q : PosShare TreeShare) (f : Buf (Elt F) (wLoc d)) :
    ((wOut2 L).view.loc (thr d L) ↦[(wOut2 L).view.set]{q} f : sProp 𝕄) = (wLoc d ↦[(wOut2 L).view.set]{q} f) := rfl

omit [FloatOps F] in
theorem pts_wOut3 (d : Dev nD) (L : grid0.Coords) (q : PosShare TreeShare) (f : Buf (Elt F) (wLoc d)) :
    ((wOut3 L).view.loc (thr d L) ↦[(wOut3 L).view.set]{q} f : sProp 𝕄) = (wLoc d ↦[(wOut3 L).view.set]{q} f) := rfl

omit [FloatOps F] in
theorem pts_eCh (d : Dev nD) (L : grid0.Coords) (q : PosShare TreeShare) (f : Buf (Elt F) (eLoc d)) :
    ((eCh L).view.loc (thr d L) ↦[(eCh L).view.set]{q} f : sProp 𝕄) = (eLoc d ↦[(eCh L).view.set]{q} f) := rfl

omit [FloatOps F] in
theorem pts_oCh (d : Dev nD) (L : grid0.Coords) (q : PosShare TreeShare) (f : Buf (Elt F) (oLoc d)) :
    ((oCh L).view.loc (thr d L) ↦[(oCh L).view.set]{q} f : sProp 𝕄) = (oLoc d ↦[(oCh L).view.set]{q} f) := rfl

/-- Before trip k of the table loop: the table of sixteen at its contents, the table of 4096 built up to 16 k. -/
def inv1 (d : Dev nD) (L : grid0.Coords) (C10 : Buf (Elt F) ((thr d L).loc cc0_scratch3)) (k : Nat) (_ : BitVec 32) : sProp 𝕄 :=
  iprop(((b10).view.loc (thr d L) ↦{fullShare} C10) ∗ ∃ f, ((b11).view.loc (thr d L) ↦{fullShare} f) ∗ ⌜TabOK (F := F) C10 k f⌝)

/-- Before trip k of panel t's loop: the panel and the table of 4096 only read, the eight accumulators after k quads. -/
def inv2 (d : Dev nD) (L : grid0.Coords) (S7 : Finset (Idx ((b7).view.loc (thr d L)))) (q7 : PosShare TreeShare) (C7 : Buf (Elt F) ((thr d L).loc cc0_scratch0))
    (C10 : Buf (Elt F) ((thr d L).loc cc0_scratch3)) (C11 : Buf (Elt F) ((thr d L).loc cc0_scratch4)) (t : Nat) (k : Nat)
    (accs : FVec F S16 .f32 × FVec F S16 .f32 × FVec F S16 .f32 × FVec F S16 .f32 × FVec F S16 .f32 × FVec F S16 .f32 × FVec F S16 .f32 × FVec F S16 .f32) : sProp 𝕄 :=
  iprop(((b7).view.loc (thr d L) ↦[S7]{q7} C7) ∗ ((b11).view.loc (thr d L) ↦{fullShare} C11) ∗ ⌜AccOK (F := F) C10 C7 t k accs⌝)

set_option maxHeartbeats 32000000 in
set_option sl_exec.dmaWindow true in
set_option sl_exec.dmaWindowLent true in
set_option pp.deepTerms false in
set_option pp.deepTerms.threshold 5 in
set_option pp.maxSteps 6000 in
theorem tile_body (m : (ℓ : Loc nD τ sig) → Buf (Elt F) ℓ) (hpre : PreOK m) (d : Dev nD) (L : grid0.Coords)
    (O : CellTallies nD τ sig (HIx 1)) (W : Waits sig (HIx 1)) (hO : ∀ g, O g none = 0) :
    iprop(levAts (K (F := F)).L (K (F := F)).lev ∗ emp ∗ tileGo m d L
        ∗ scopedBufs (thr d L) ∗ scopedSems0 (thr d L) ∗ owes (thr d L) O W)
      ⊢ wp frame (wpE (defs₀ (F := F)) 𝒱₀ (thr d L) none) Set.univ
          (cc0__shift_kernel L sV (Memref.isWhole_whole _) eV (Memref.isWhole_whole _) tV (Memref.isWhole_whole _) oV (Memref.isWhole_whole _) wV (Memref.isWhole_whole _)
            b7 (Memref.isWhole_whole _) b8 (Memref.isWhole_whole _) b9 (Memref.isWhole_whole _) b10 (Memref.isWhole_whole _) b11 (Memref.isWhole_whole _)
            cc0_scratch5 cc0_scratch6 cc0_scratch7 cc0_scratch8 cc0_scratch9 cc0_scratch10 cc0_scratch11 cc0_scratch12 cc0_scoped0 cc0_scoped1 cc0_scoped2)
          fun _ => iprop(tileTd m d L ∗ scopedBufs (thr d L) ∗ scopedSems0 (thr d L)
            ∗ ∃ W', ⌜∀ p ∈ W', p ∈ W ∨ p.2 = none⌝ ∗ owes (thr d L) O W') := by
  simp only [cc0__shift_kernel_eq_skeleton]; unfold cc0__shift_kernel_skel
  simp only [k0_part25_eq_skeleton]; unfold k0_part25_skel
  rw [(K (F := F)).scopedBufs_V facts d (cV L) (jV L), SparseCore.Cfg.scopedSems0_V (Val := Elt F) d (cV L) (jV L), ownSems0_V, ownBufs_V]
  unfold tileGo
  iintro ⟨#Hlv, -, ⟨Hi0, Hi1, Hi2, Hi3, HE, HT, HO', Hw0, Hw1, Hw2, Hw3⟩,
    ⟨⟨⟨%f7, H7⟩, ⟨%f8, H8⟩, ⟨%f9, H9⟩, ⟨%f10, H10⟩, ⟨%f11, H11⟩⟩, Hbufs⟩,
    ⟨⟨Hs5, Hs6, Hs7, Hs8, Hs9, Hs10, Hs11, Hs12, Hc0, Hc1, Hc2⟩, Hsems⟩, Howes⟩
  ihave Hmw := ((K (F := F)).mayWaits_none (thr := thr d L) hO) $$ Hlv
  ihave Hi0 := (Entails.of_eq (pts_sIn0 (F := F) d L _ _).symm) $$ Hi0
  ihave Hi1 := (Entails.of_eq (pts_sIn1 (F := F) d L _ _).symm) $$ Hi1
  ihave Hi2 := (Entails.of_eq (pts_sIn2 (F := F) d L _ _).symm) $$ Hi2
  ihave Hi3 := (Entails.of_eq (pts_sIn3 (F := F) d L _ _).symm) $$ Hi3
  ihave Hw0 := (Entails.of_eq (pts_wOut0 (F := F) d L _ _).symm) $$ Hw0
  ihave Hw1 := (Entails.of_eq (pts_wOut1 (F := F) d L _ _).symm) $$ Hw1
  ihave Hw2 := (Entails.of_eq (pts_wOut2 (F := F) d L _ _).symm) $$ Hw2
  ihave Hw3 := (Entails.of_eq (pts_wOut3 (F := F) d L _ _).symm) $$ Hw3
  ihave HE1 := (Entails.of_eq (pts_eCh (F := F) d L _ _).symm) $$ HE
  ihave HO1 := (Entails.of_eq (pts_oCh (F := F) d L _ _).symm) $$ HO'
  ihave HT1 := (Entails.of_eq (pts_t (F := F) d L _ _).symm) $$ HT
  ihave H7c := (Entails.of_eq (b7_cut (F := F) d L _)) $$ H7
  icases H7c with ⟨Hp0, Hp1, Hp2, Hp3⟩
  ihave H81 := (Entails.of_eq (pts_b8 (F := F) d L _ _).symm) $$ H8
  ihave H91 := (Entails.of_eq (pts_b9 (F := F) d L _ _).symm) $$ H9
  ihave H101 := (Entails.of_eq (pts_b10 (F := F) d L _ _).symm) $$ H10
  ihave H111 := (Entails.of_eq (pts_b11 (F := F) d L _ _).symm) $$ H11
  ihave HsW : iprop(semVal (dcell d L 4) 0 ∗ semVal (dcell d L 5) 0 ∗ semVal (dcell d L 6) 0 ∗ semVal (dcell d L 7) 0 ∗ emp) $$ [Hs9 Hs10 Hs11 Hs12]
  · isplitl [Hs9]; · iexact Hs9
    isplitl [Hs10]; · iexact Hs10
    isplitl [Hs11]; · iexact Hs11
    isplitl [Hs12]; · iexact Hs12
    iempintro
  sl_exec
  ihave Hg10 : iprop(∃ C : Buf (Elt F) ((thr d L).loc cc0_scratch3), ((b10).view.loc (thr d L) ↦{fullShare} C) ∗ ⌜T10OK (F := F) (m (tLoc d)) C⌝) $$ [H101]
  · iexists _; isplitl [H101]
    · iexact H101
    · ipureintro; exact t10OK_of_landed _ _
  icases Hg10 with ⟨%C10, H101, %hT10⟩
  ihave Hg8 : iprop(∃ C : Buf (Elt F) ((thr d L).loc cc0_scratch1), ((b8).view.loc (thr d L) ↦{fullShare} C) ∗ ⌜E8OK (F := F) (m (eLoc d)) L C⌝) $$ [H81]
  · iexists _; isplitl [H81]
    · iexact H81
    · ipureintro; exact e8OK_of_landed _ L _
  icases Hg8 with ⟨%C8, H81, %hE8⟩
  ihave H10a := (Entails.of_eq (pts_b10_acc (F := F) d L _ _).symm) $$ H101
  iapply (SparseCore.wp_vectorLoadIdx 𝒱₀ (thr d L) none Set.univ (base := b10) (S := Finset.univ) (q := fullShare) (Finset.subset_univ _)) $$ H10a; iintro H10a
  ihave H101 := (Entails.of_eq (pts_b10_acc (F := F) d L _ _)) $$ H10a
  sl_exec
  sl_for (inv1 d L C10) $$ [H101 H111]
  pick_goal 2
  · unfold inv1
    isplitl [H101]; · iexact H101
    iexists _; isplitl [H111]; · iexact H111
    ipureintro; exact tab_init C10 _
  case region =>
    intro k acc
    unfold inv1
    iintro ⟨H10, %f, H11, %hf⟩
    sl_exec
    rw [wp_assume_of _ _ _ _ (by exact Cert.Proof.WordsKB.k0_chk2_holds k)]
    ihave H10a := (Entails.of_eq (pts_b10_acc (F := F) d L _ _).symm) $$ H10
    iapply (SparseCore.wp_vectorLoadIdx 𝒱₀ (thr d L) none Set.univ (base := b10) (S := Finset.univ) (q := fullShare) (Finset.subset_univ _)) $$ H10a; iintro H10a
    ihave H10 := (Entails.of_eq (pts_b10_acc (F := F) d L _ _)) $$ H10a
    sl_exec
    rw [wp_assume_of _ _ _ _ (by exact Cert.Proof.WordsKB.k0_chk3_holds k)]
    ihave H10a := (Entails.of_eq (pts_b10_acc (F := F) d L _ _).symm) $$ H10
    iapply (SparseCore.wp_vectorLoadIdx 𝒱₀ (thr d L) none Set.univ (base := b10) (S := Finset.univ) (q := fullShare) (Finset.subset_univ _)) $$ H10a; iintro H10a
    ihave H10 := (Entails.of_eq (pts_b10_acc (F := F) d L _ _)) $$ H10a
    sl_exec
    rw [wp_assume_of _ _ _ _ (by exact Cert.Proof.WordsKB.k0_chk4_holds k)]
    ihave H10a := (Entails.of_eq (pts_b10_acc (F := F) d L _ _).symm) $$ H10
    iapply (SparseCore.wp_vectorLoadIdx 𝒱₀ (thr d L) none Set.univ (base := b10) (S := Finset.univ) (q := fullShare) (Finset.subset_univ _)) $$ H10a; iintro H10a
    ihave H10 := (Entails.of_eq (pts_b10_acc (F := F) d L _ _)) $$ H10a
    sl_exec
    sl_step
    isplitl [H10]; · iexact H10
    iexists _; isplitl [H11]; · iexact H11
    ipureintro; exact tab_step C10 f k _ _ _ _ hf
  iintro %_ HI
  unfold inv1
  icases HI with ⟨H101, %f11', H111, %hTab⟩
  have hTab256 : TabOK (F := F) C10 256 f11' := hTab
  sl_exec
  ihave Hsp := (pointsTo_share (PosShare.mem_left_op_right fullShare)).1 $$ Hp0
  icases Hsp with ⟨H0l, H0r⟩
  icases HsW with ⟨Hs9, HsW⟩
  sl_exec
  ihave Hg : iprop(∃ C : Buf (Elt F) ((thr d L).loc cc0_scratch0), ((slab0).view.loc (thr d L) ↦[(slab0).view.set]{fullShare.right} C) ∗ ⌜SlabOK (fS m d) L C 0 ∧ SlabLt C 0⌝) $$ [H0r]
  · iexists _; isplitl [H0r]
    · iexact H0r
    · ipureintro; exact ⟨slabOK_of_landed0 _ L _, slabLt_of_landed0 _ L _ (fS8 m hpre d)⟩
  icases Hg with ⟨%C7_0, H0r, %hS0⟩
  ihave Hh := (Entails.of_eq (slab0_holes (F := F) d L _ _)) $$ H0r
  sl_for (inv2 d L _ _ C7_0 C10 f11' 0) $$ [Hh H111]
  pick_goal 2
  · unfold inv2
    isplitl [Hh]; · iexact Hh
    isplitl [H111]; · iexact H111
    ipureintro; exact init2 C10 C7_0
  case region =>
    intro k accs
    unfold inv2
    iintro ⟨H7, H11, %hacc⟩
    sl_exec
    rw [wp_assume_of _ _ _ _ (by exact chk2_0 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_1 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_2 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_3 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_4 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_5 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_6 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk2_7 C7_0 hS0.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip2 C10 f11' C7_0 hTab256 hS0.2 k accs _ _ _ _ _ _ _ _ hacc
  iintro %accs0 HI
  unfold inv2
  icases HI with ⟨Hh, H111, %hA0⟩
  have hA0' : AccOK (F := F) C10 C7_0 0 50 accs0 := hA0
  ihave H0r := (Entails.of_eq (slab0_holes (F := F) d L _ _).symm) $$ Hh
  sl_exec
  ihave Hsp := (pointsTo_share (PosShare.mem_left_op_right fullShare)).1 $$ Hp1
  icases Hsp with ⟨H1l, H1r⟩
  icases HsW with ⟨Hs10, HsW⟩
  sl_exec
  ihave Hg : iprop(∃ C : Buf (Elt F) ((thr d L).loc cc0_scratch0), ((slab1).view.loc (thr d L) ↦[(slab1).view.set]{fullShare.right} C) ∗ ⌜SlabOK (fS m d) L C 1 ∧ SlabLt C 1⌝) $$ [H1r]
  · iexists _; isplitl [H1r]
    · iexact H1r
    · ipureintro; exact ⟨slabOK_of_landed1 _ L _, slabLt_of_landed1 _ L _ (fS8 m hpre d)⟩
  icases Hg with ⟨%C7_1, H1r, %hS1⟩
  ihave Hh := (Entails.of_eq (slab1_holes (F := F) d L _ _)) $$ H1r
  sl_for (inv2 d L _ _ C7_1 C10 f11' 1) $$ [Hh H111]
  pick_goal 2
  · unfold inv2
    isplitl [Hh]; · iexact Hh
    isplitl [H111]; · iexact H111
    ipureintro; exact init3 C10 C7_1
  case region =>
    intro k accs
    unfold inv2
    iintro ⟨H7, H11, %hacc⟩
    sl_exec
    rw [wp_assume_of _ _ _ _ (by exact chk3_0 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_1 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_2 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_3 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_4 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_5 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_6 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk3_7 C7_1 hS1.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip3 C10 f11' C7_1 hTab256 hS1.2 k accs _ _ _ _ _ _ _ _ hacc
  iintro %accs1 HI
  unfold inv2
  icases HI with ⟨Hh, H111, %hA1⟩
  have hA1' : AccOK (F := F) C10 C7_1 1 50 accs1 := hA1
  ihave H1r := (Entails.of_eq (slab1_holes (F := F) d L _ _).symm) $$ Hh
  sl_exec
  ihave Hsp := (pointsTo_share (PosShare.mem_left_op_right fullShare)).1 $$ Hp2
  icases Hsp with ⟨H2l, H2r⟩
  icases HsW with ⟨Hs11, HsW⟩
  sl_exec
  ihave Hg : iprop(∃ C : Buf (Elt F) ((thr d L).loc cc0_scratch0), ((slab2).view.loc (thr d L) ↦[(slab2).view.set]{fullShare.right} C) ∗ ⌜SlabOK (fS m d) L C 2 ∧ SlabLt C 2⌝) $$ [H2r]
  · iexists _; isplitl [H2r]
    · iexact H2r
    · ipureintro; exact ⟨slabOK_of_landed2 _ L _, slabLt_of_landed2 _ L _ (fS8 m hpre d)⟩
  icases Hg with ⟨%C7_2, H2r, %hS2⟩
  ihave Hh := (Entails.of_eq (slab2_holes (F := F) d L _ _)) $$ H2r
  sl_for (inv2 d L _ _ C7_2 C10 f11' 2) $$ [Hh H111]
  pick_goal 2
  · unfold inv2
    isplitl [Hh]; · iexact Hh
    isplitl [H111]; · iexact H111
    ipureintro; exact init4 C10 C7_2
  case region =>
    intro k accs
    unfold inv2
    iintro ⟨H7, H11, %hacc⟩
    sl_exec
    rw [wp_assume_of _ _ _ _ (by exact chk4_0 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_1 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_2 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_3 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_4 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_5 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_6 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk4_7 C7_2 hS2.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip4 C10 f11' C7_2 hTab256 hS2.2 k accs _ _ _ _ _ _ _ _ hacc
  iintro %accs2 HI
  unfold inv2
  icases HI with ⟨Hh, H111, %hA2⟩
  have hA2' : AccOK (F := F) C10 C7_2 2 50 accs2 := hA2
  ihave H2r := (Entails.of_eq (slab2_holes (F := F) d L _ _).symm) $$ Hh
  sl_exec
  ihave Hsp := (pointsTo_share (PosShare.mem_left_op_right fullShare)).1 $$ Hp3
  icases Hsp with ⟨H3l, H3r⟩
  icases HsW with ⟨Hs12, HsW⟩
  sl_exec
  ihave Hg : iprop(∃ C : Buf (Elt F) ((thr d L).loc cc0_scratch0), ((slab3).view.loc (thr d L) ↦[(slab3).view.set]{fullShare.right} C) ∗ ⌜SlabOK (fS m d) L C 3 ∧ SlabLt C 3⌝) $$ [H3r]
  · iexists _; isplitl [H3r]
    · iexact H3r
    · ipureintro; exact ⟨slabOK_of_landed3 _ L _, slabLt_of_landed3 _ L _ (fS8 m hpre d)⟩
  icases Hg with ⟨%C7_3, H3r, %hS3⟩
  ihave Hh := (Entails.of_eq (slab3_holes (F := F) d L _ _)) $$ H3r
  sl_for (inv2 d L _ _ C7_3 C10 f11' 3) $$ [Hh H111]
  pick_goal 2
  · unfold inv2
    isplitl [Hh]; · iexact Hh
    isplitl [H111]; · iexact H111
    ipureintro; exact init5 C10 C7_3
  case region =>
    intro k accs
    unfold inv2
    iintro ⟨H7, H11, %hacc⟩
    sl_exec
    rw [wp_assume_of _ _ _ _ (by exact chk5_0 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_1 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_2 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_3 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_4 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_5 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_6 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    rw [wp_assume_of _ _ _ _ (by exact chk5_7 C7_3 hS3.2 k)]
    ihave H11a := (Entails.of_eq (pts_b11_acc (F := F) d L _ _).symm) $$ H11
    iapply (SparseCore.wp_vectorLoadIdx 𝒱₀ (thr d L) none Set.univ (base := b11) (S := Finset.univ) (q := fullShare) (Finset.subset_univ _)) $$ H11a; iintro H11a
    ihave H11 := (Entails.of_eq (pts_b11_acc (F := F) d L _ _)) $$ H11a
    sl_exec
    sl_step
    isplitl [H7]; · iexact H7
    isplitl [H11]; · iexact H11
    ipureintro
    exact trip5 C10 f11' C7_3 hTab256 hS3.2 k accs _ _ _ _ _ _ _ _ hacc
  iintro %accs3 HI
  unfold inv2
  icases HI with ⟨Hh, H111, %hA3⟩
  have hA3' : AccOK (F := F) C10 C7_3 3 50 accs3 := hA3
  ihave H3r := (Entails.of_eq (slab3_holes (F := F) d L _ _).symm) $$ Hh
  sl_exec
  sl_step
  unfold tileTd
  isplitl [Hi0 Hi1 Hi2 Hi3 HE1 HT1 HO1 Hw0 Hw1 Hw2 Hw3]
  · isplitl [Hi0]; · iapply (Entails.of_eq (pts_sIn0 (F := F) d L _ _)); iexact Hi0
    isplitl [Hi1]; · iapply (Entails.of_eq (pts_sIn1 (F := F) d L _ _)); iexact Hi1
    isplitl [Hi2]; · iapply (Entails.of_eq (pts_sIn2 (F := F) d L _ _)); iexact Hi2
    isplitl [Hi3]; · iapply (Entails.of_eq (pts_sIn3 (F := F) d L _ _)); iexact Hi3
    isplitl [HE1]; · iapply (Entails.of_eq (pts_eCh (F := F) d L _ _)); iexact HE1
    isplitl [HT1]; · iapply (Entails.of_eq (pts_t (F := F) d L _ _)); iexact HT1
    isplitl [HO1]; · iapply (Entails.of_eq (oCh_landed (F := F) d _ _ _ (fS m d) (m (eLoc d)) (m (tLoc d)) L C10 C8 C7_0 C7_1 C7_2 C7_3 accs0 accs1 accs2 accs3 hT10 hE8 hS0.1 hS1.1 hS2.1 hS3.1 hS0.2 hS1.2 hS2.2 hS3.2 hA0' hA1' hA2' hA3')); iexact HO1
    isplitl [Hw0]; · iapply (Entails.of_eq (wOut0_landed (F := F) d L _ _ _ (fS m d))); iexact Hw0
    isplitl [Hw1]; · iapply (Entails.of_eq (wOut1_landed (F := F) d L _ _ _ (fS m d))); iexact Hw1
    isplitl [Hw2]; · iapply (Entails.of_eq (wOut2_landed (F := F) d L _ _ _ (fS m d))); iexact Hw2
    iapply (Entails.of_eq (wOut3_landed (F := F) d L _ _ _ (fS m d))); iexact Hw3
  isplitl [H0l H0r H1l H1r H2l H2r H3l H3r H81 H91 H101 H111 Hbufs]
  · isplitr [Hbufs]
    · isplitl [H0l H0r H1l H1r H2l H2r H3l H3r]
      · ihave J0 := (join_halves (F := F) _ fullShare _ _) $$ [H0l H0r]
        · isplitl [H0l]; · iexact H0l
          iexact H0r
        ihave J1 := (join_halves (F := F) _ fullShare _ _) $$ [H1l H1r]
        · isplitl [H1l]; · iexact H1l
          iexact H1r
        ihave J2 := (join_halves (F := F) _ fullShare _ _) $$ [H2l H2r]
        · isplitl [H2l]; · iexact H2l
          iexact H2r
        ihave J3 := (join_halves (F := F) _ fullShare _ _) $$ [H3l H3r]
        · isplitl [H3l]; · iexact H3l
          iexact H3r
        iapply (b7_glue (F := F) d L _ _ _ _)
        isplitl [J0]; · iexact J0
        isplitl [J1]; · iexact J1
        isplitl [J2]; · iexact J2
        iexact J3
      isplitl [H81]; · iexists _; iapply (Entails.of_eq (pts_b8 (F := F) d L _ _)); iexact H81
      isplitl [H91]; · iexists _; iapply (Entails.of_eq (pts_b9 (F := F) d L _ _)); iexact H91
      isplitl [H101]; · iexists _; iapply (Entails.of_eq (pts_b10 (F := F) d L _ _)); iexact H101
      iexists _; iapply (Entails.of_eq (pts_b11 (F := F) d L _ _)); iexact H111
    · iexact Hbufs
  isplitl [Hs5 Hs6 Hs7 Hs8 Hs9 Hs10 Hs11 Hs12 Hc0 Hc1 Hc2 Hsems]
  · isplitr [Hsems]
    · isplitl [Hs5]; · iexact Hs5
      isplitl [Hs6]; · iexact Hs6
      isplitl [Hs7]; · iexact Hs7
      isplitl [Hs8]; · iexact Hs8
      isplitl [Hs9]; · iexact Hs9
      isplitl [Hs10]; · iexact Hs10
      isplitl [Hs11]; · iexact Hs11
      isplitl [Hs12]; · iexact Hs12
      isplitl [Hc0]; · iexact Hc0
      isplitl [Hc1]; · iexact Hc1
      iexact Hc2
    · iexact Hsems
  iexists _; isplitr
  pick_goal 2
  · iexact Howes
  · ipureintro; intro p hp
    simp only [Finset.mem_insert] at hp
    rcases hp with rfl | rfl | rfl | rfl | rfl | rfl | rfl | rfl | rfl | rfl | rfl | hp
    all_goals first | exact .inr rfl | exact .inl hp

/-! ## The launch theorem's obligation -/

theorem defs₀_vector (c : Fin τ.nSC) (s : Fin τ.nSub) :
    defs₀ (F := F) (.scVector c s) 0 ()
      = SparseCore.onTile hcore0 hsub0 (fun c s => cc0__shift_kernel (coordsV c s)
          sV (Memref.isWhole_whole _) eV (Memref.isWhole_whole _) tV (Memref.isWhole_whole _) oV (Memref.isWhole_whole _) wV (Memref.isWhole_whole _)
          b7 (Memref.isWhole_whole _) b8 (Memref.isWhole_whole _) b9 (Memref.isWhole_whole _) b10 (Memref.isWhole_whole _) b11 (Memref.isWhole_whole _)
          cc0_scratch5 cc0_scratch6 cc0_scratch7 cc0_scratch8 cc0_scratch9 cc0_scratch10 cc0_scratch11 cc0_scratch12 cc0_scoped0 cc0_scoped1 cc0_scoped2) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, as the launch theorem asks it. -/
theorem tileObl (m : (ℓ : Loc nD τ sig) → Buf (Elt F) ℓ) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m hpre d (coordsV ⟨_, hc.1⟩ ⟨_, hc.2⟩) O W hO).trans (wp_mono frame _ _ fun _ => obl_post)

end Cert.Proof.KB

end
-- ==== Proof.LaunchKB.lean ====
/-
  The launch of the kernel program: from "every tile's body is proved" to the run of the whole program with
  the strongest post.

  @main transposes the species [16384, 200] to [200, 16384], calls the kernel on two SparseCores of sixteen tiles, and
  transposes the kernel's copy of the transposed species back. Tile (c, s) owns columns 1024 s + 512 c + 128 r + [0, 128),
  r < 4, of the two [200, 16384] arrays and entries 1024 s + 512 c + [0, 512) of the two [16384] arrays. So a
  [200, 16384] array held whole is its 128 column panels side by side, panel 8 s + 4 c + r going to tile (c, s) as its
  r-th; a [16384] array is its 32 chunks, chunk 2 s + c going to tile (c, s); the table of eight is read by every tile
  through its own share. Each cut is an EQUATION between the whole and the parts at one contents function, so the same
  equations read right to left join the tiles' pieces after the call: every tile hands its entries of the result back
  at the one result function, and its panels of the copy at the transposed species. Transposing twice is the identity,
  so the second transpose's result is the species array itself.

  The auxiliary statements live in the namespace Launch; the post QC and the run run_main beside the interface.
-/
import proofs.«206988_g4337916970008_retrytranche1_694_23_alg».proof.Proof.TileResKB
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Cert.Lib.ScSplit

variable {F : FTy → Type}
local notation "𝕄" => MT nD τ sig (HIx 1) (Elt F) ℕ UU ℕ

namespace Launch

/-! ## Transposing twice -/

/-- The transpose of the transpose of a [16384, 200] array is the array. -/
theorem transpose_twice {α : Type} (x : S16384x200.Idx → α) :
    transpose S16384x200 [1, 0] (transpose S200x16384 [1, 0] x transposes_S16384x200_S200x16384_1_0)
      transposes_S200x16384_S16384x200_1_0 = x := by
  funext j
  refine (transpose_apply _ _ _ j (ValueIdx.ix2 (j 1) (j 0)) (fun b => match b with | ⟨0, _⟩ => rfl | ⟨1, _⟩ => rfl)).trans ?_
  exact transpose_apply _ _ _ _ j (fun b => match b with | ⟨0, _⟩ => rfl | ⟨1, _⟩ => rfl)

/-! ## A sum over four, and over the tiles -/

section BigSep
universe u
variable {M : Type u} [URA M]

theorem bigSep_univ_four (Φ : Fin 4 → sProp M) : bigSep Finset.univ Φ = iprop(Φ 0 ∗ Φ 1 ∗ Φ 2 ∗ Φ 3) := by
  rw [show (Finset.univ : Finset (Fin 4)) = {0, 1, 2, 3} from by decide,
    bigSep_insert (by decide), bigSep_insert (by decide), bigSep_insert (by decide), bigSep_singleton]
  rfl

end BigSep

/-! ## The panels and the chunks -/

theorem hdivP : 128 ∣ S200x16384.size 1 := ⟨128, rfl⟩
theorem hdivC : 32 ∣ S16384.size 0 := ⟨512, rfl⟩

/-- Column panel j of a [200, 16384] array: columns 128 j to 128 j + 127. -/
abbrev panel (j : Fin 128) : Rect S200x16384 := Rect.part (s := S200x16384) (a₀ := 1) hdivP j
/-- Chunk j of a [16384] array: entries 512 j to 512 j + 511. -/
abbrev chunk (j : Fin 32) : Rect S16384 := Rect.part (s := S16384) (a₀ := 0) hdivC j

/-- Panel r of the tile on core c, subcore s. -/
def numP (t : Fin 2 × Fin 16 × Fin 4) : Fin 128 := ⟨8 * t.2.1.val + 4 * t.1.val + t.2.2.val, by omega⟩
/-- The chunk of the tile on core c, subcore s. -/
def numC (t : Fin 2 × Fin 16) : Fin 32 := ⟨2 * t.2.val + t.1.val, by omega⟩

theorem numP_inj : Function.Injective numP := by
  rintro ⟨c, s, r⟩ ⟨c', s', r'⟩ h
  have h' : 8 * s.val + 4 * c.val + r.val = 8 * s'.val + 4 * c'.val + r'.val := congrArg Fin.val h
  have hc : c = c' := Fin.ext (by omega)
  have hs : s = s' := Fin.ext (by omega)
  have hr : r = r' := Fin.ext (by omega)
  rw [hc, hs, hr]
theorem numP_surj : Function.Surjective numP := by
  intro j
  refine ⟨(⟨j.val / 4 % 2, by omega⟩, ⟨j.val / 8, by omega⟩, ⟨j.val % 4, by omega⟩), Fin.ext ?_⟩
  show 8 * (j.val / 8) + 4 * (j.val / 4 % 2) + j.val % 4 = j.val
  omega
theorem numC_inj : Function.Injective numC := by
  rintro ⟨c, s⟩ ⟨c', s'⟩ h
  have h' : 2 * s.val + c.val = 2 * s'.val + c'.val := congrArg Fin.val h
  have hc : c = c' := Fin.ext (by omega)
  have hs : s = s' := Fin.ext (by omega)
  rw [hc, hs]
theorem numC_surj : Function.Surjective numC := by
  intro j
  refine ⟨(⟨j.val % 2, by omega⟩, ⟨j.val / 2, by omega⟩), Fin.ext ?_⟩
  show 2 * (j.val / 2) + j.val % 2 = j.val
  omega

/-- A [200, 128] window at columns 1024 s + 512 c + 128 r is panel r of tile (c, s). -/
theorem panelK_eq (c : Fin 2) (s : Fin 16) (r : Fin 4) {off : Fin S200x16384.rank → ℕ}
    (ho : off = ![0, 1024 * s.val + 512 * c.val + 128 * r.val])
    (inb : ∀ a, off a + S200x128.size a ≤ S200x16384.size a) :
    Rect.unit (s := S200x16384) off S200x128.size inb = panel (numP (c, s, r)) := by
  subst ho
  unfold panel Rect.part Rect.block
  refine unit_congr ?_ ?_
  · funext a
    match a with
    | 0 => simp [Shape.partIx, Shape.partSize]
    | 1 => simp [Shape.partIx, Shape.partSize, numP]; omega
  · funext a
    match a with
    | 0 => simp [Shape.partSize]
    | 1 => simp [Shape.partSize]

/-- A [512] window at entry 1024 s + 512 c is the chunk of tile (c, s). -/
theorem chunkK_eq (c : Fin 2) (s : Fin 16) {off : Fin S16384.rank → ℕ}
    (ho : off = ![1024 * s.val + 512 * c.val])
    (inb : ∀ a, off a + S512.size a ≤ S16384.size a) :
    Rect.unit (s := S16384) off S512.size inb = chunk (numC (c, s)) := by
  subst ho
  unfold chunk Rect.part Rect.block
  refine unit_congr ?_ ?_
  · funext a
    match a with
    | 0 => simp [Shape.partIx, Shape.partSize, numC]; omega
  · funext a
    match a with
    | 0 => simp [Shape.partSize]

theorem set_sIn0 (c : Fin 2) (s : Fin 16) : (sIn0 (coordsV c s)).view.set = (panel (numP (c, s, 0))).set :=
  (View.set_slice_whole main_v0_scv _).trans (congrArg (fun R : Rect S200x16384 => R.set) (panelK_eq c s 0 (k0_off1_eq (coordsV c s) 0) _))
theorem set_sIn1 (c : Fin 2) (s : Fin 16) : (sIn1 (coordsV c s)).view.set = (panel (numP (c, s, 1))).set :=
  (View.set_slice_whole main_v0_scv _).trans (congrArg (fun R : Rect S200x16384 => R.set) (panelK_eq c s 1 (k0_off1_eq (coordsV c s) 1) _))
theorem set_sIn2 (c : Fin 2) (s : Fin 16) : (sIn2 (coordsV c s)).view.set = (panel (numP (c, s, 2))).set :=
  (View.set_slice_whole main_v0_scv _).trans (congrArg (fun R : Rect S200x16384 => R.set) (panelK_eq c s 2 (k0_off1_eq (coordsV c s) 2) _))
theorem set_sIn3 (c : Fin 2) (s : Fin 16) : (sIn3 (coordsV c s)).view.set = (panel (numP (c, s, 3))).set :=
  (View.set_slice_whole main_v0_scv _).trans (congrArg (fun R : Rect S200x16384 => R.set) (panelK_eq c s 3 (k0_off1_eq (coordsV c s) 3) _))
theorem set_wOut0 (c : Fin 2) (s : Fin 16) : (wOut0 (coordsV c s)).view.set = (panel (numP (c, s, 0))).set :=
  (View.set_slice_whole main_v1_1_scv _).trans (congrArg (fun R : Rect S200x16384 => R.set) (panelK_eq c s 0 (k0_off4_eq (coordsV c s) 0) _))
theorem set_wOut1 (c : Fin 2) (s : Fin 16) : (wOut1 (coordsV c s)).view.set = (panel (numP (c, s, 1))).set :=
  (View.set_slice_whole main_v1_1_scv _).trans (congrArg (fun R : Rect S200x16384 => R.set) (panelK_eq c s 1 (k0_off4_eq (coordsV c s) 1) _))
theorem set_wOut2 (c : Fin 2) (s : Fin 16) : (wOut2 (coordsV c s)).view.set = (panel (numP (c, s, 2))).set :=
  (View.set_slice_whole main_v1_1_scv _).trans (congrArg (fun R : Rect S200x16384 => R.set) (panelK_eq c s 2 (k0_off4_eq (coordsV c s) 2) _))
theorem set_wOut3 (c : Fin 2) (s : Fin 16) : (wOut3 (coordsV c s)).view.set = (panel (numP (c, s, 3))).set :=
  (View.set_slice_whole main_v1_1_scv _).trans (congrArg (fun R : Rect S200x16384 => R.set) (panelK_eq c s 3 (k0_off4_eq (coordsV c s) 3) _))
theorem set_eCh (c : Fin 2) (s : Fin 16) : (eCh (coordsV c s)).view.set = (chunk (numC (c, s))).set :=
  (View.set_slice_whole main_arg1_scv _).trans (congrArg (fun R : Rect S16384 => R.set) (chunkK_eq c s (k0_off2_eq (coordsV c s)) _))
theorem set_oCh (c : Fin 2) (s : Fin 16) : (oCh (coordsV c s)).view.set = (chunk (numC (c, s))).set :=
  (View.set_slice_whole main_v1_0_scv _).trans (congrArg (fun R : Rect S16384 => R.set) (chunkK_eq c s (k0_off69_eq (coordsV c s)) _))

/-! ## The arrays cut among the tiles -/

variable [FloatOps F]

/-- Panel r of tile (c, s) of the transposed species, of the copy; the tile's chunk of the energies, of the result; its
    share of the table. -/
abbrev pS (d : Dev nD) (f : Buf (Elt F) (sLoc d)) (r : Fin 4) (c : Fin 2) (s : Fin 16) : sProp 𝕄 :=
  sLoc d ↦[(panel (numP (c, s, r))).set]{fullShare} f
abbrev pW (d : Dev nD) (f : Buf (Elt F) (wLoc d)) (r : Fin 4) (c : Fin 2) (s : Fin 16) : sProp 𝕄 :=
  wLoc d ↦[(panel (numP (c, s, r))).set]{fullShare} f
abbrev pE (d : Dev nD) (f : Buf (Elt F) (eLoc d)) (c : Fin 2) (s : Fin 16) : sProp 𝕄 :=
  eLoc d ↦[(chunk (numC (c, s))).set]{fullShare} f
abbrev pO (d : Dev nD) (f : Buf (Elt F) (oLoc d)) (c : Fin 2) (s : Fin 16) : sProp 𝕄 :=
  oLoc d ↦[(chunk (numC (c, s))).set]{fullShare} f
abbrev pT (d : Dev nD) (f : Buf (Elt F) (tLoc d)) (c : Fin 2) (s : Fin 16) : sProp 𝕄 :=
  tLoc d ↦{sh c.val s.val} f

/-- A family over the tiles, side by side. -/
abbrev BS (X : Fin 2 → Fin 16 → sProp 𝕄) : sProp 𝕄 := bigSep Finset.univ fun c : Fin 2 => bigSep Finset.univ fun s : Fin 16 => X c s

omit [FloatOps F] in
theorem sPts_tiles (d : Dev nD) (f : Buf (Elt F) (sLoc d)) :
    (sLoc d ↦{fullShare} f : sProp 𝕄) = iprop(BS (pS d f 0) ∗ BS (pS d f 1) ∗ BS (pS d f 2) ∗ BS (pS d f 3)) := by
  have h : (sLoc d ↦{fullShare} f : sProp 𝕄)
      = BS fun c s => iprop(pS d f 0 c s ∗ pS d f 1 c s ∗ pS d f 2 c s ∗ pS d f 3 c s) :=
    (pointsTo_cut (ℓ := sLoc d) (fun t => (panel (numP t)).set) (parts_disjoint hdivP numP numP_inj)
        (parts_cover hdivP numP numP_surj) fullShare f).trans <|
      (bigSep_univ_prod _).trans <| bigSep_congr fun c _ => (bigSep_univ_prod _).trans <| bigSep_congr fun s _ => bigSep_univ_four _
  rw [h]; unfold BS
  rw [bigSep2_sep, bigSep2_sep, bigSep2_sep]

omit [FloatOps F] in
theorem wPts_tiles (d : Dev nD) (f : Buf (Elt F) (wLoc d)) :
    (wLoc d ↦{fullShare} f : sProp 𝕄) = iprop(BS (pW d f 0) ∗ BS (pW d f 1) ∗ BS (pW d f 2) ∗ BS (pW d f 3)) := by
  have h : (wLoc d ↦{fullShare} f : sProp 𝕄)
      = BS fun c s => iprop(pW d f 0 c s ∗ pW d f 1 c s ∗ pW d f 2 c s ∗ pW d f 3 c s) :=
    (pointsTo_cut (ℓ := wLoc d) (fun t => (panel (numP t)).set) (parts_disjoint hdivP numP numP_inj)
        (parts_cover hdivP numP numP_surj) fullShare f).trans <|
      (bigSep_univ_prod _).trans <| bigSep_congr fun c _ => (bigSep_univ_prod _).trans <| bigSep_congr fun s _ => bigSep_univ_four _
  rw [h]; unfold BS
  rw [bigSep2_sep, bigSep2_sep, bigSep2_sep]

omit [FloatOps F] in
theorem ePts_tiles (d : Dev nD) (f : Buf (Elt F) (eLoc d)) : (eLoc d ↦{fullShare} f : sProp 𝕄) = BS (pE d f) :=
  (pointsTo_cut (ℓ := eLoc d) (fun t => (chunk (numC t)).set) (parts_disjoint hdivC numC numC_inj)
      (parts_cover hdivC numC numC_surj) fullShare f).trans (bigSep_univ_prod _)

omit [FloatOps F] in
theorem oPts_tiles (d : Dev nD) (f : Buf (Elt F) (oLoc d)) : (oLoc d ↦{fullShare} f : sProp 𝕄) = BS (pO d f) :=
  (pointsTo_cut (ℓ := oLoc d) (fun t => (chunk (numC t)).set) (parts_disjoint hdivC numC numC_inj)
      (parts_cover hdivC numC numC_surj) fullShare f).trans (bigSep_univ_prod _)

omit [FloatOps F] in
theorem tPts_tiles (d : Dev nD) (f : Buf (Elt F) (tLoc d)) : (tLoc d ↦{fullShare} f : sProp 𝕄) = BS (pT d f) :=
  pointsTo_sh (ℓ := tLoc d) Finset.univ f

variable (m : (ℓ : Loc nD τ sig) → Buf (Elt F) ℓ)

/-- What tile (c, s) is handed, over the panels and chunks. -/
theorem tileGo_eq (d : Dev nD) (c : Fin 2) (s : Fin 16) :
    tileGo m d (coordsV c s) = iprop(pS d (fS m d) 0 c s ∗ pS d (fS m d) 1 c s ∗ pS d (fS m d) 2 c s ∗ pS d (fS m d) 3 c s
      ∗ pE d (m (eLoc d)) c s ∗ pT d (m (tLoc d)) c s ∗ pO d (m (oLoc d)) c s
      ∗ pW d (m (wLoc d)) 0 c s ∗ pW d (m (wLoc d)) 1 c s ∗ pW d (m (wLoc d)) 2 c s ∗ pW d (m (wLoc d)) 3 c s) := by
  unfold tileGo
  rw [set_sIn0, set_sIn1, set_sIn2, set_sIn3, set_eCh, set_oCh, set_wOut0, set_wOut1, set_wOut2, set_wOut3]
  rfl

/-- What it hands back, over the panels and chunks. -/
theorem tileTd_eq (d : Dev nD) (c : Fin 2) (s : Fin 16) :
    tileTd m d (coordsV c s) = iprop(pS d (fS m d) 0 c s ∗ pS d (fS m d) 1 c s ∗ pS d (fS m d) 2 c s ∗ pS d (fS m d) 3 c s
      ∗ pE d (m (eLoc d)) c s ∗ pT d (m (tLoc d)) c s ∗ pO d (outF m d) c s
      ∗ pW d (fS m d) 0 c s ∗ pW d (fS m d) 1 c s ∗ pW d (fS m d) 2 c s ∗ pW d (fS m d) 3 c s) := by
  unfold tileTd
  rw [set_sIn0, set_sIn1, set_sIn2, set_sIn3, set_eCh, set_oCh, set_wOut0, set_wOut1, set_wOut2, set_wOut3]
  rfl

/-- What the call takes for the two SparseCores. -/
theorem st0_eq (d : Dev nD) :
    (bigSep Finset.univ fun c : Fin ((K (F := F)).nCore 0) => (P m).st 0 d c)
      = iprop(BS (pS d (fS m d) 0) ∗ BS (pS d (fS m d) 1) ∗ BS (pS d (fS m d) 2) ∗ BS (pS d (fS m d) 3)
        ∗ BS (pE d (m (eLoc d))) ∗ BS (pT d (m (tLoc d))) ∗ BS (pO d (m (oLoc d)))
        ∗ BS (pW d (m (wLoc d)) 0) ∗ BS (pW d (m (wLoc d)) 1) ∗ BS (pW d (m (wLoc d)) 2) ∗ BS (pW d (m (wLoc d)) 3)) := by
  show (bigSep Finset.univ fun c : Fin 2 => bigSep Finset.univ fun s : Fin 16 => tileGo m d (coordsV c s)) = _
  rw [bigSep_congr fun c _ => bigSep_congr fun s _ => tileGo_eq m d c s]
  rw [bigSep2_sep, bigSep2_sep, bigSep2_sep, bigSep2_sep, bigSep2_sep, bigSep2_sep, bigSep2_sep, bigSep2_sep, bigSep2_sep, bigSep2_sep]

/-- What it hands back. -/
theorem dn0_eq (d : Dev nD) :
    (bigSep Finset.univ fun c : Fin ((K (F := F)).nCore 0) => (P m).dn 0 d c)
      = iprop(BS (pS d (fS m d) 0) ∗ BS (pS d (fS m d) 1) ∗ BS (pS d (fS m d) 2) ∗ BS (pS d (fS m d) 3)
        ∗ BS (pE d (m (eLoc d))) ∗ BS (pT d (m (tLoc d))) ∗ BS (pO d (outF m d))
        ∗ BS (pW d (fS m d) 0) ∗ BS (pW d (fS m d) 1) ∗ BS (pW d (fS m d) 2) ∗ BS (pW d (fS m d) 3)) := by
  show (bigSep Finset.univ fun c : Fin 2 => bigSep Finset.univ fun s : Fin 16 => tileTd m d (coordsV c s)) = _
  rw [bigSep_congr fun c _ => bigSep_congr fun s _ => tileTd_eq m d c s]
  rw [bigSep2_sep, bigSep2_sep, bigSep2_sep, bigSep2_sep, bigSep2_sep, bigSep2_sep, bigSep2_sep, bigSep2_sep, bigSep2_sep, bigSep2_sep]

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

abbrev xA : DevRef τ sig := Proc.devRef .tc (main_arg0 : Ref sig .tc)
abbrev xS : DevRef τ sig := Proc.devRef .tc (main_v0 : Ref sig .tc)
abbrev xE : DevRef τ sig := Proc.devRef .tc (main_arg1 : Ref sig .tc)
abbrev xT : DevRef τ sig := Proc.devRef .tc (main_arg2 : Ref sig .tc)
abbrev xO : DevRef τ sig := Proc.devRef .tc (main_v1_0 : Ref sig .tc)
abbrev xW : DevRef τ sig := Proc.devRef .tc (main_v1_1 : Ref sig .tc)
abbrev xR : DevRef τ sig := Proc.devRef .tc (main_v2 : Ref sig .tc)

/-- The two host transposes. -/
abbrev opT1 : HloOp τ sig (Elt F) := StableHlo.unary main_arg0 main_v0
  ((transpose S200x16384 [1, 0] · transposes_S16384x200_S200x16384_1_0) : (⟨S16384x200, .i32⟩ : BufTy).Contents (Elt F) → (⟨S200x16384, .i32⟩ : BufTy).Contents (Elt F))
abbrev opT2 : HloOp τ sig (Elt F) := StableHlo.unary main_v1_1 main_v2
  ((transpose S16384x200 [1, 0] · transposes_S200x16384_S16384x200_1_0) : (⟨S200x16384, .i32⟩ : BufTy).Contents (Elt F) → (⟨S16384x200, .i32⟩ : BufTy).Contents (Elt F))

/-- The TensorCore's arrays, all unscoped. -/
abbrev S7 : Finset (DevRef τ sig) := {xA, xS, xE, xT, xO, xW, xR}

omit [FloatOps F] in
theorem held_S7 (d : Dev nD) (W : Valuation τ sig (Elt F)) :
    (held (T d) S7 W : sProp 𝕄) = iprop((a0Loc d ↦{fullShare} W xA) ∗ (sLoc d ↦{fullShare} W xS) ∗ (eLoc d ↦{fullShare} W xE)
      ∗ (tLoc d ↦{fullShare} W xT) ∗ (oLoc d ↦{fullShare} W xO) ∗ (wLoc d ↦{fullShare} W xW) ∗ rLoc d ↦{fullShare} W xR) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((a0Loc d ↦{fullShare} W main_arg0) ∗ (sLoc d ↦{fullShare} W main_v0) ∗ (eLoc d ↦{fullShare} W main_arg1)
      ∗ (tLoc d ↦{fullShare} W main_arg2) ∗ (oLoc d ↦{fullShare} W main_v1_0) ∗ (wLoc d ↦{fullShare} W main_v1_1) ∗ rLoc d ↦{fullShare} W main_v2) := by
  unfold unscopedBufs
  rw [show (Finset.univ.filter fun b : Ref sig .tc => ¬ b.isScoped) = {main_arg0, main_v0, main_arg1, main_arg2, main_v1_0, main_v1_1, main_v2} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The launch valuation. -/
def V0 (d : Dev nD) : Valuation τ sig (Elt F) := fun b => m (d, b)
/-- After the call: the transposed species, the result and the copy at their values. -/
def V2 (d : Dev nD) : Valuation τ sig (Elt F) :=
  Function.update (Function.update (Function.update (V0 m d) xS (fS m d)) xO (outF m d)) xW (fS m d)

theorem unscoped_held (d : Dev nD) : (unscopedBufs d (fun b => m ((SparseCore.T d).loc b)) : sProp 𝕄) = held (T d) S7 (V0 m d) := by
  rw [unscopedBufs_eq, held_S7]; rfl

/-- After the first transpose. -/
theorem held_V1 (d : Dev nD) :
    (held (T d) S7 ((opT1 (F := F)).result (V0 m d)) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} m (oLoc d))
      ∗ (wLoc d ↦{fullShare} m (wLoc d)) ∗ rLoc d ↦{fullShare} m (rLoc d)) := by
  rw [held_S7, StableHlo.unary_result]
  repeat (rw [StableHlo.unary_result_ne]; rotate_left; decide)
  rfl

theorem V2_A (d : Dev nD) : V2 m d xA = m (a0Loc d) := by
  unfold V2
  rw [Function.update_of_ne (show xA ≠ xW by decide), Function.update_of_ne (show xA ≠ xO by decide), Function.update_of_ne (show xA ≠ xS by decide)]
  rfl
theorem V2_S (d : Dev nD) : V2 m d xS = fS m d := by
  unfold V2
  rw [Function.update_of_ne (show xS ≠ xW by decide), Function.update_of_ne (show xS ≠ xO by decide), Function.update_self]
theorem V2_E (d : Dev nD) : V2 m d xE = m (eLoc d) := by
  unfold V2
  rw [Function.update_of_ne (show xE ≠ xW by decide), Function.update_of_ne (show xE ≠ xO by decide), Function.update_of_ne (show xE ≠ xS by decide)]
  rfl
theorem V2_T (d : Dev nD) : V2 m d xT = m (tLoc d) := by
  unfold V2
  rw [Function.update_of_ne (show xT ≠ xW by decide), Function.update_of_ne (show xT ≠ xO by decide), Function.update_of_ne (show xT ≠ xS by decide)]
  rfl
theorem V2_O (d : Dev nD) : V2 m d xO = outF m d := by
  unfold V2
  rw [Function.update_of_ne (show xO ≠ xW by decide), Function.update_self]
theorem V2_W (d : Dev nD) : V2 m d xW = fS m d := by
  unfold V2
  rw [Function.update_self]
theorem V2_R (d : Dev nD) : V2 m d xR = m (rLoc d) := by
  unfold V2
  rw [Function.update_of_ne (show xR ≠ xW by decide), Function.update_of_ne (show xR ≠ xO by decide), Function.update_of_ne (show xR ≠ xS by decide)]
  rfl

/-- The transposed species transposed back is the species. -/
theorem fS_back (d : Dev nD) : transpose S16384x200 [1, 0] (fS m d) transposes_S200x16384_S16384x200_1_0 = m (a0Loc d) :=
  transpose_twice _

theorem rPts_back (d : Dev nD) :
    (rLoc d ↦{fullShare} transpose S16384x200 [1, 0] (fS m d) transposes_S200x16384_S16384x200_1_0 : sProp 𝕄) = rLoc d ↦{fullShare} m (a0Loc d) := by
  rw [fS_back]

/-- After the call, before the second transpose. -/
theorem held_V2 (d : Dev nD) :
    (held (T d) S7 (V2 m d) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} outF m d)
      ∗ (wLoc d ↦{fullShare} fS m d) ∗ rLoc d ↦{fullShare} m (rLoc d)) := by
  rw [held_S7, V2_A, V2_S, V2_E, V2_T, V2_O, V2_W, V2_R]

/-- After the second transpose. -/
theorem held_V3 (d : Dev nD) :
    (held (T d) S7 ((opT2 (F := F)).result (V2 m d)) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} outF m d)
      ∗ (wLoc d ↦{fullShare} fS m d) ∗ rLoc d ↦{fullShare} m (a0Loc d)) := by
  have h : (held (T d) S7 ((opT2 (F := F)).result (V2 m d)) : sProp 𝕄) = iprop((a0Loc d ↦{fullShare} m (a0Loc d)) ∗ (sLoc d ↦{fullShare} fS m d)
      ∗ (eLoc d ↦{fullShare} m (eLoc d)) ∗ (tLoc d ↦{fullShare} m (tLoc d)) ∗ (oLoc d ↦{fullShare} outF m d)
      ∗ (wLoc d ↦{fullShare} fS m d) ∗ rLoc d ↦{fullShare} transpose S16384x200 [1, 0] (fS m d) transposes_S200x16384_S16384x200_1_0) := by
    rw [held_S7, StableHlo.unary_result]
    repeat (rw [StableHlo.unary_result_ne]; rotate_left; decide)
    rw [V2_A, V2_S, V2_E, V2_T, V2_O, V2_W]
  rw [h, rPts_back]

theorem hT1 : (opT1 (F := F)).bufs ⊆ S7 := show ({xA, xS} : Finset (DevRef τ sig)) ⊆ S7 by decide
theorem hT2 : (opT2 (F := F)).bufs ⊆ S7 := show ({xW, xR} : Finset (DevRef τ sig)) ⊆ S7 by decide

variable (ρ : Dev nD → PrngReg)

/-- What @main leaves the claim: the second transpose's result at the species, the shifted energies at the result
    function, the three arguments at their launch contents. -/
abbrev FIN (d : Dev nD) : sProp 𝕄 :=
  iprop((rLoc d ↦{fullShare} m (a0Loc d)) ∗ (oLoc d ↦{fullShare} outF m d) ∗ (a0Loc d ↦{fullShare} m (a0Loc d))
    ∗ (eLoc d ↦{fullShare} m (eLoc d)) ∗ tLoc d ↦{fullShare} m (tLoc d))

/-- @main on device d's TensorCore: the first transpose, the arrays cut among the tiles, the call, the arrays joined,
    the second transpose. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  -- the first transpose
  iapply (wp_hlo_within 𝒱 (SparseCore.T d) none Set.univ (op := opT1) (S := S7) hT1 (V := V0 m d)) $$ [Hb Hheld]
  · isplitl [Hb]; · iexact Hb
    iexact Hheld
  iintro ⟨Hb, Hheld⟩
  ihave Hh := (Entails.of_eq (held_V1 (F := F) m d)) $$ Hheld
  icases Hh with ⟨Ha, Hs, He, Ht, Ho, Hw, Hr⟩
  rw [wp_ret]; imodintro
  -- the arrays cut among the tiles
  ihave Hs' := (Entails.of_eq (sPts_tiles (F := F) d (fS m d))) $$ Hs
  icases Hs' with ⟨Hs0, Hs1, Hs2, Hs3⟩
  ihave Hw' := (Entails.of_eq (wPts_tiles (F := F) d (m (wLoc d)))) $$ Hw
  icases Hw' with ⟨Hw0, Hw1, Hw2, Hw3⟩
  ihave He' := (Entails.of_eq (ePts_tiles (F := F) d (m (eLoc d)))) $$ He
  ihave Ht' := (Entails.of_eq (tPts_tiles (F := F) d (m (tLoc d)))) $$ Ht
  ihave Ho' := (Entails.of_eq (oPts_tiles (F := F) d (m (oLoc d)))) $$ Ho
  -- the call
  iapply ((K (F := F)).wp_run (D (F := F)) 𝒱 (EH := EH) (P := P m) κ d 0) $$ [Hst Hs0 Hs1 Hs2 Hs3 He' Ht' Ho' Hw0 Hw1 Hw2 Hw3 Hb Ha Hr]
  isplitr; · iexact Hctx
  isplitl [Hst]; · iexact Hst
  isplitl [Hs0 Hs1 Hs2 Hs3 He' Ht' Ho' Hw0 Hw1 Hw2 Hw3]
  · rw [st0_eq]
    isplitl [Hs0]; · iexact Hs0
    isplitl [Hs1]; · iexact Hs1
    isplitl [Hs2]; · iexact Hs2
    isplitl [Hs3]; · iexact Hs3
    isplitl [He']; · iexact He'
    isplitl [Ht']; · iexact Ht'
    isplitl [Ho']; · iexact Ho'
    isplitl [Hw0]; · iexact Hw0
    isplitl [Hw1]; · iexact Hw1
    isplitl [Hw2]; · iexact Hw2
    iexact Hw3
  iintro ⟨Hst, Hdn⟩
  ihave Hdn' := (Entails.of_eq (dn0_eq m d)) $$ Hdn
  icases Hdn' with ⟨Hs0, Hs1, Hs2, Hs3, He', Ht', Ho', Hw0, Hw1, Hw2, Hw3⟩
  -- the arrays joined
  ihave Hs := (Entails.of_eq (sPts_tiles (F := F) d (fS m d)).symm) $$ [Hs0 Hs1 Hs2 Hs3]
  · isplitl [Hs0]; · iexact Hs0
    isplitl [Hs1]; · iexact Hs1
    isplitl [Hs2]; · iexact Hs2
    iexact Hs3
  ihave Hw := (Entails.of_eq (wPts_tiles (F := F) d (fS m d)).symm) $$ [Hw0 Hw1 Hw2 Hw3]
  · isplitl [Hw0]; · iexact Hw0
    isplitl [Hw1]; · iexact Hw1
    isplitl [Hw2]; · iexact Hw2
    iexact Hw3
  ihave He := (Entails.of_eq (ePts_tiles (F := F) d (m (eLoc d))).symm) $$ He'
  ihave Ht := (Entails.of_eq (tPts_tiles (F := F) d (m (tLoc d))).symm) $$ Ht'
  ihave Ho := (Entails.of_eq (oPts_tiles (F := F) d (outF m d)).symm) $$ Ho'
  -- the second transpose
  iapply (wp_hlo_within 𝒱 (SparseCore.T d) none Set.univ (op := opT2) (S := S7) hT2 (V := V2 m d)) $$ [Hb Ha Hs He Ht Ho Hw Hr]
  · isplitl [Hb]; · iexact Hb
    rw [held_V2]
    isplitl [Ha]; · iexact Ha
    isplitl [Hs]; · iexact Hs
    isplitl [He]; · iexact He
    isplitl [Ht]; · iexact Ht
    isplitl [Ho]; · iexact Ho
    isplitl [Hw]; · iexact Hw
    iexact Hr
  iintro ⟨Hb, Hheld⟩
  ihave Hh := (Entails.of_eq (held_V3 (F := F) m d)) $$ Hheld
  icases Hh with ⟨Ha, -, He, Ht, Ho, -, Hr⟩
  rw [wp_ret]; imodintro; imodintro
  isplitl [Hst]; · iexact Hst
  isplitl [Hr]; · iexact Hr
  isplitl [Ho]; · iexact Ho
  isplitl [Ha]; · iexact Ha
  isplitl [He]; · iexact He
  iexact Ht

def fq (d : Dev nD) (s' : Phys nD τ sig (Elt F)) : Prop :=
  s'.mem.mem (rLoc d) = m (a0Loc d) ∧ s'.mem.mem (oLoc d) = outF m d ∧ s'.mem.mem (a0Loc d) = m (a0Loc d)
    ∧ s'.mem.mem (eLoc d) = m (eLoc d) ∧ s'.mem.mem (tLoc d) = m (tLoc d)

theorem hfin (d : Dev nD) (s' : Phys nD τ sig (Elt F)) : iprop(FIN m d ∗ SI s') ⊢ (⌜fq m d s'⌝ : sProp 𝕄) := by
  iintro ⟨⟨Hr, Ho, Ha, He, Ht⟩, HSI⟩
  ihave H := (persistent_entails_right (SI_pointsTo_agree (st := s') (ℓ := rLoc d) (I := Finset.univ) (q := fullShare) (f := m (a0Loc d)))) $$ [HSI Hr]
  · isplitl [HSI] <;> iassumption
  icases H with ⟨%h1, HSI, -⟩
  ihave H := (persistent_entails_right (SI_pointsTo_agree (st := s') (ℓ := oLoc d) (I := Finset.univ) (q := fullShare) (f := outF m d))) $$ [HSI Ho]
  · isplitl [HSI] <;> iassumption
  icases H with ⟨%h2, HSI, -⟩
  ihave H := (persistent_entails_right (SI_pointsTo_agree (st := s') (ℓ := a0Loc d) (I := Finset.univ) (q := fullShare) (f := m (a0Loc d)))) $$ [HSI Ha]
  · isplitl [HSI] <;> iassumption
  icases H with ⟨%h3, HSI, -⟩
  ihave H := (persistent_entails_right (SI_pointsTo_agree (st := s') (ℓ := eLoc d) (I := Finset.univ) (q := fullShare) (f := m (eLoc d)))) $$ [HSI He]
  · isplitl [HSI] <;> iassumption
  icases H with ⟨%h4, HSI, -⟩
  ihave H := (SI_pointsTo_agree (st := s') (ℓ := tLoc d) (I := Finset.univ) (q := fullShare) (f := m (tLoc d))) $$ [HSI Ht]
  · isplitl [HSI] <;> iassumption
  icases H with %h5
  ipureintro
  exact ⟨funext fun i => h1 i (Finset.mem_univ i), funext fun i => h2 i (Finset.mem_univ i), funext fun i => h3 i (Finset.mem_univ i),
    funext fun i => h4 i (Finset.mem_univ i), funext fun i => h5 i (Finset.mem_univ i)⟩

end Launch

open Launch

variable [FloatOps F] (m : (ℓ : Loc nD τ sig) → Buf (Elt F) ℓ) (ρ : Dev nD → PrngReg)

/-! ## The program's run -/

/-- The strongest post: on every device the second transpose's result is the species, the shifted energies are the
    result function of the arguments, and the three arguments are unchanged. -/
def QC : PUnit × MemSt nD τ sig (Elt F) → Prop := fun r => ∀ c : Dev nD,
  r.2.mem (rLoc c) = m (a0Loc c) ∧ r.2.mem (oLoc c) = outF m c
    ∧ r.2.mem (a0Loc c) = m (a0Loc c) ∧ r.2.mem (eLoc c) = m (eLoc c) ∧ r.2.mem (tLoc c) = m (tLoc c)

theorem run_main [∀ e, Nonempty (Elt F e)] (hT : (K (F := F)).TileObl (D (F := F)) 𝒱 (P m) v₀ 0) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h => h)

end Cert.Proof.KB

end
-- ==== Proof.PreRange.lean ====
/-
  What the precondition says of the species indices.

  The precondition is one bit: the conjunction of "every energy is finite", "every table entry is finite"
  and "every species index i satisfies 0 <= i and i <= 7" (signed comparisons on 32-bit words), each an
  all-reduction by `and`. When the bit is 1 every conjunct is 1, and an all-reduction that is 1 had a 1 at
  every element; so each species word, read as a signed integer, lies in [0, 7], and therefore as an unsigned
  number it is below 8 and equals its signed value.
-/
import proofs.«206988_g4337916970008_retrytranche1_694_23_alg».proof.Pre_input_domain
import proofs.«206988_g4337916970008_retrytranche1_694_23_alg».proof.Proof.Gen.Pre_input_domain
import Idealize.ShloMosaic.Lib.ReduceAll
import Idealize.ShloMosaic.Lib.ValueIdx

namespace Cert.Proof.PreRange

open Idealize.ShloMosaic Cert.Pre_input_domain Cert.Pre_input_domain.Gen

/-- The rank-zero shape has one index. -/
instance subsingleton_scalar_idx : Subsingleton S_.Idx := ⟨fun _ _ => funext fun d => d.elim0⟩

/-- A 32-bit word passing both signed tests `0 <= v` and `v <= 7` has its signed value in [0, 7]. -/
theorem word_signed_range (v : BitVec 32)
    (e : IntOp.andi (IntOp.cmpi .sge v 0#32) (IntOp.cmpi .sle v 7#32) = 1#1) :
    0 ≤ v.toInt ∧ v.toInt ≤ 7 := by
  obtain ⟨h0, h7⟩ := IntOp.andi_eq_one.1 e
  rw [IntOp.cmpi_sge] at h0
  rw [IntOp.cmpi_sle] at h7
  have z : (0#32 : BitVec 32).toInt = 0 := by decide
  have s : (7#32 : BitVec 32).toInt = 7 := by decide
  rw [z] at h0
  rw [s] at h7
  exact ⟨h0, h7⟩

/-- A word whose signed value is in [0, 7] is, unsigned, below 8, and its signed and unsigned values agree. -/
theorem word_unsigned_of_signed (v : BitVec 32) (h : 0 ≤ v.toInt ∧ v.toInt ≤ 7) :
    v.toNat < 8 ∧ v.toInt.toNat = v.toNat := by
  have hc := BitVec.toInt_eq_toNat_cond v
  have hlt : v.toNat < 2 ^ 32 := v.isLt
  obtain ⟨h0, h7⟩ := h
  split_ifs at hc with hlt2
  · constructor <;> omega
  · exfalso; omega

variable {F : FTy → Type} [FloatOps F]

/-- Under the precondition every species word, read signed, lies in [0, 7]. -/
theorem species_signed_range (spec : IVec S16384x200 32) (en : FVec F S16384 .f32) (tab : FVec F S8 .f32)
    (h : Cert.Pre_input_domain.fn (F := F) spec en tab = (fun _ => 1#1)) (idx : S16384x200.Idx) :
    0 ≤ (spec idx).toInt ∧ (spec idx).toInt ≤ 7 := by
  have e := congrFun h ValueIdx.ix0
  dsimp only [Cert.Pre_input_domain.fn] at e
  obtain ⟨_, e14⟩ := IntOp.andi_eq_one.1 e
  have e13 := Host.reduce_andi_all _ _ _ _ _ e14 idx
  exact word_signed_range (spec idx) e13

/-- Under the precondition every species word is, as an unsigned number, below 8. -/
theorem species_lt (spec : IVec S16384x200 32) (en : FVec F S16384 .f32) (tab : FVec F S8 .f32)
    (h : Cert.Pre_input_domain.fn (F := F) spec en tab = (fun _ => 1#1)) (idx : S16384x200.Idx) :
    (spec idx).toNat < 8 :=
  (word_unsigned_of_signed _ (species_signed_range spec en tab h idx)).1

/-- Under the precondition a species word's signed value, as a natural number, is its unsigned value. -/
theorem species_toInt_toNat (spec : IVec S16384x200 32) (en : FVec F S16384 .f32) (tab : FVec F S8 .f32)
    (h : Cert.Pre_input_domain.fn (F := F) spec en tab = (fun _ => 1#1)) (idx : S16384x200.Idx) :
    (spec idx).toInt.toNat = (spec idx).toNat :=
  (word_unsigned_of_signed _ (species_signed_range spec en tab h idx)).2

end Cert.Proof.PreRange
-- ==== Proof.PreKB.lean ====
/-
  The precondition at the kernel program's argument arrays: on every device it is one bit computed from the
  three arrays, and when the bit is 1 every species word is below eight — which is what the tiles' bodies ask
  of the launch memory.
-/
import proofs.«206988_g4337916970008_retrytranche1_694_23_alg».proof.Proof.TilePreKB
import proofs.«206988_g4337916970008_retrytranche1_694_23_alg».proof.Proof.PreRange

noncomputable section

namespace Cert.Proof.KB

open Cert.Kernel Cert.Kernel.Gen
open Idealize.ShloMosaic Idealize.SL.Sem

variable {F : FTy → Type} [FloatOps F]

/-- If the precondition's bit is 1 at every device's argument arrays, every species word is below eight. -/
theorem preOK_of_pre (m : (ℓ : Loc nD τ sig) → Buf (Elt F) ℓ)
    (h : ∀ c : Dev nD,
      (Cert.Pre_input_domain.fn (F := F) (m ((c.tc : Thread nD τ).loc main_arg0))
        (m ((c.tc : Thread nD τ).loc main_arg1)) (m ((c.tc : Thread nD τ).loc main_arg2))) = (fun _ => 1#1)) :
    PreOK m :=
  fun d idx => Cert.Proof.PreRange.species_lt _ _ _ (h d) idx

end Cert.Proof.KB

end
-- ==== Proof.SumLaw.lean ====
/-
  A pure summation law, independent of the programs.

  A running sum that consumes four consecutive terms per step, grouped as
  (g(4q) + g(4q+1)) + (g(4q+2) + g(4q+3)), equals the plain sum of the first 4n terms:
  in a commutative additive monoid the grouping and the order do not matter.
-/
import Mathlib.Algebra.BigOperators.Fin
import Mathlib.Tactic.Abel
import Mathlib.Tactic.Ring

namespace Cert.Proof.SumLaw

open Finset

/-- Folding `n` steps, each adding the four terms `g (4q) .. g (4q+3)` (paired two by two), gives
    the sum of `g` over `range (4n)`. -/
theorem foldl_quad {M : Type*} [AddCommMonoid M] (g : ℕ → M) (n : ℕ) :
    (List.range n).foldl
        (fun acc q => acc + ((g (4*q) + g (4*q+1)) + (g (4*q+2) + g (4*q+3)))) 0
      = ∑ k ∈ Finset.range (4*n), g k := by
  induction n with
  | zero => simp
  | succ n ih =>
    rw [List.range_succ, List.foldl_append, List.foldl_cons, List.foldl_nil, ih]
    have h4 : 4 * (n + 1) = (((4 * n + 1) + 1) + 1) + 1 := by ring
    rw [h4, Finset.sum_range_succ, Finset.sum_range_succ, Finset.sum_range_succ,
      Finset.sum_range_succ]
    have e1 : 4 * n + 1 + 1 = 4 * n + 2 := by ring
    have e2 : 4 * n + 1 + 1 + 1 = 4 * n + 3 := by ring
    rw [e2, e1]
    abel

/-- The case of 50 steps: the fold is the sum of the 200 terms `g 0 .. g 199`, indexed by `Fin 200`. -/
theorem foldl_quad_fin200 {M : Type*} [AddCommMonoid M] (g : ℕ → M) :
    (List.range 50).foldl
        (fun acc q => acc + ((g (4*q) + g (4*q+1)) + (g (4*q+2) + g (4*q+3)))) 0
      = ∑ k : Fin 200, g k.val := by
  rw [foldl_quad g 50, Fin.sum_univ_eq_sum_range]

end Cert.Proof.SumLaw
-- ==== Proof.SpecIdeal.lean ====
/-
  The result function at the extended reals.

  There the sum of floats is the sum of extended reals, which is associative and commutative, and the zero word is 0:
  the fifty quads added one after the other onto zero are the plain sum of the 200 table entries the molecule's
  species select. And the transposed species array read at (k, M) is the species array read at (M, k).
-/
import proofs.«206988_g4337916970008_retrytranche1_694_23_alg».proof.Proof.TileRes
import proofs.«206988_g4337916970008_retrytranche1_694_23_alg».proof.Proof.SumLaw
import Idealize.ShloMosaic.PureOps.Ideal.Laws

noncomputable section

namespace Cert.Proof.KI

open Cert.KernelIdeal Cert.KernelIdeal.Gen
open Idealize.ShloMosaic

/-- At the extended reals, adding the first n terms one after the other onto the zero word is a left fold of + from 0. -/
theorem accF_ideal (g : ℕ → Idealize.ShloMosaic.Ideal .f32) (n : ℕ) :
    accF (F := Idealize.ShloMosaic.Ideal) g n = (List.range n).foldl (fun acc q => acc + g q) 0 := by
  induction n with
  | zero =>
    show FloatOps.ofBits (F := Idealize.ShloMosaic.Ideal) .f32 0x00000000#32 = 0
    exact Idealize.ShloMosaic.Ideal.ofBits_zero_f32
  | succ n ih =>
    rw [List.range_succ, List.foldl_append, List.foldl_cons, List.foldl_nil, ← ih]
    rfl

/-- At the extended reals a quad is the sum of its four table entries, grouped two and two. -/
theorem quadF_ideal (fT : S8.Idx → Idealize.ShloMosaic.Ideal .f32) (a b c e : ℕ) :
    quadF (F := Idealize.ShloMosaic.Ideal) fT a b c e = (tabAt fT a + tabAt fT b) + (tabAt fT c + tabAt fT e) := rfl

/-- The fifty quads of molecule M, added one after the other onto zero, are the sum of the 200 table entries its
    species words select. -/
theorem accF_quads_ideal (fS : S200x16384.Idx → BitVec 32) (fT : S8.Idx → Idealize.ShloMosaic.Ideal .f32) (M : ℕ) :
    accF (F := Idealize.ShloMosaic.Ideal)
        (fun q => quadF fT (spAt fS M (4 * q)) (spAt fS M (4 * q + 1)) (spAt fS M (4 * q + 2)) (spAt fS M (4 * q + 3))) 50
      = ∑ k : Fin 200, tabAt fT (spAt fS M k.val) := by
  rw [accF_ideal]
  exact Cert.Proof.SumLaw.foldl_quad_fin200 (fun k => tabAt fT (spAt fS M k))

/-- The shifted energy of molecule M at the extended reals: its energy plus the sum of its 200 table entries. -/
theorem outSpec_ideal (fS : S200x16384.Idx → BitVec 32) (fE : S16384.Idx → Idealize.ShloMosaic.Ideal .f32)
    (fT : S8.Idx → Idealize.ShloMosaic.Ideal .f32) (M : S16384.Idx) :
    outSpec (F := Idealize.ShloMosaic.Ideal) fS fE fT M
      = fE M + (0 + ∑ k : Fin 200, tabAt fT (spAt fS (M 0).val k.val)) := by
  show accF (F := Idealize.ShloMosaic.Ideal)
        (fun q => quadF fT (spAt fS (M 0).val (4 * q)) (spAt fS (M 0).val (4 * q + 1)) (spAt fS (M 0).val (4 * q + 2))
          (spAt fS (M 0).val (4 * q + 3))) 50 + fE M = _
  rw [accF_quads_ideal, zero_add, add_comm]

/-- The same without the leading zero. -/
theorem outSpec_ideal' (fS : S200x16384.Idx → BitVec 32) (fE : S16384.Idx → Idealize.ShloMosaic.Ideal .f32)
    (fT : S8.Idx → Idealize.ShloMosaic.Ideal .f32) (M : S16384.Idx) :
    outSpec (F := Idealize.ShloMosaic.Ideal) fS fE fT M
      = fE M + ∑ k : Fin 200, tabAt fT (spAt fS (M 0).val k.val) := by
  rw [outSpec_ideal, zero_add]

/-- The transposed array's source index: entry (k, M) of the transpose reads entry (M, k). -/
theorem transposes_src_ix2 (h : S16384x200.Transposes [1, 0] S200x16384) (a : Fin 200) (b : Fin 16384) :
    h.src (ValueIdx.ix2 a b) = ValueIdx.ix2 b a := by
  funext d
  match d with
  | ⟨0, _⟩ => rfl
  | ⟨1, _⟩ => rfl

/-- Species word k of molecule M read in the transposed array is the species array's entry (M, k). -/
theorem spAt_transpose (spec : S16384x200.Idx → BitVec 32) (h : S16384x200.Transposes [1, 0] S200x16384) (M k : ℕ) :
    spAt (transpose S200x16384 [1, 0] spec h) M k
      = (spec (ValueIdx.ix2 ⟨M % 16384, Nat.mod_lt _ (by decide)⟩ ⟨k % 200, Nat.mod_lt _ (by decide)⟩)).toNat := by
  unfold spAt transpose
  rw [transposes_src_ix2]

end Cert.Proof.KI

end
-- ==== Proof.PreKI.lean ====
/-
  The precondition at the kernel program's argument arrays: on every device it is one bit computed from the
  three arrays, and when the bit is 1 every species word is below eight — which is what the tiles' bodies ask
  of the launch memory.
-/
import proofs.«206988_g4337916970008_retrytranche1_694_23_alg».proof.Proof.TilePre
import proofs.«206988_g4337916970008_retrytranche1_694_23_alg».proof.Proof.PreRange

noncomputable section

namespace Cert.Proof.KI

open Cert.KernelIdeal Cert.KernelIdeal.Gen
open Idealize.ShloMosaic Idealize.SL.Sem

variable {F : FTy → Type} [FloatOps F]

/-- If the precondition's bit is 1 at every device's argument arrays, every species word is below eight. -/
theorem preOK_of_pre (m : (ℓ : Loc nD τ sig) → Buf (Elt F) ℓ)
    (h : ∀ c : Dev nD,
      (Cert.Pre_input_domain.fn (F := F) (m ((c.tc : Thread nD τ).loc main_arg0))
        (m ((c.tc : Thread nD τ).loc main_arg1)) (m ((c.tc : Thread nD τ).loc main_arg2))) = (fun _ => 1#1)) :
    PreOK m :=
  fun d idx => Cert.Proof.PreRange.species_lt _ _ _ (h d) idx

end Cert.Proof.KI

end
-- ==== Proof.RefSpec.lean ====
/-
  The reference's second result as one pure term of the three argument arrays, built stage by stage as the
  source builds it:

    mask     = species >= 0
    safe     = where(mask, species, 0)
    taken    = take(self_energies, safe)      -- negative indices wrapped by 8, the gather guarded by an
                                              -- in-range test whose failure selects a fill constant
    perAtom  = where(mask, taken, 0)
    result   = energies + sum over the atom axis of perAtom

  Each stage is first stated over the arrays it reads (`…Of`), then composed.
-/
import proofs.«206988_g4337916970008_retrytranche1_694_23_alg».proof.Proof.Gen.ReferenceIdeal

noncomputable section

namespace Cert.Proof.Ref

open Cert.ReferenceIdeal Cert.ReferenceIdeal.Gen Idealize.ShloMosaic

variable {F : FTy → Type} [FloatOps F]

/-! ## The stages, as pure terms -/

/-- The integer scalar `b` at every atom. -/
def splat2 (b : BitVec 32) : IVec S16384x200 32 :=
  broadcastInDim S16384x200 ![] bcast_S_S16384x200 (constantI S_ 32 b)

/-- `species >= 0`, signed. -/
def mask (spec : IVec S16384x200 32) : IVec S16384x200 1 :=
  cmpi .sge spec (splat2 0#32)

/-- `where(mask, species, 0)`. -/
def safe (spec : IVec S16384x200 32) : IVec S16384x200 32 :=
  select (mask spec) spec (splat2 0#32)

/-- The index `take` gathers at: a negative index has the table's length 8 added. -/
def wrapped (s : IVec S16384x200 32) : IVec S16384x200 32 :=
  select (cmpi .slt s (splat2 0#32)) (addi s (splat2 8#32)) s

/-- The wrapped index with a trailing unit axis, the form the gather takes its start indices in. -/
def startIdx (s : IVec S16384x200 32) : IVec S16384x200x1 32 :=
  broadcastInDim S16384x200x1 ![0, 1] bcast_S16384x200_S16384x200x1_0_1 (wrapped s)

/-- `take`'s in-range test of an array of start indices: `0 <= index <= 7` (the upper bound is length −
    slice size), reduced over the trailing unit axis. -/
def inRangeOf (st : IVec S16384x200x1 32) : IVec S16384x200 1 :=
  Host.reduce IntOp.andi
    (andi
      (cmpi .sge st
        (broadcastInDim S16384x200x1 ![] bcast_S_S16384x200x1 (constantI S_ 32 0#32)))
      (cmpi .sle st
        (broadcastInDim S16384x200x1 ![0, 1, 2] bcast_S1x1x1_S16384x200x1_0_1_2
          (broadcastInDim S1x1x1 ![2] bcast_S1_S1x1x1_2 (constantI S1 32 7#32)))))
    (constantI S_ 1 1#1) reducesTo_S16384x200x1_S16384x200_d2 h_S_

/-- The gather at the start indices where the test passed, the fill constant elsewhere. -/
def takenOf (tab : FVec F S8 .f32) (ok : IVec S16384x200 1) (st : IVec S16384x200x1 32) : FVec F S16384x200 .f32 :=
  select ok
    (Host.gather gather_S8_S16384x200x1_S16384x200_n_0_n_n_0_2_1 tab st)
    (broadcastInDim S16384x200 ![] bcast_S_S16384x200 (constant S_ .f32 0x7FC00000#32))

/-- `where(m, t, 0)`. -/
def perAtomOf (m : IVec S16384x200 1) (t : FVec F S16384x200 .f32) : FVec F S16384x200 .f32 :=
  select m t (broadcastInDim S16384x200 ![] bcast_S_S16384x200 (constant S_ .f32 0x00000000#32))

/-- The energies plus the sum of `per` over the atom axis. -/
def shift (en : FVec F S16384 .f32) (per : FVec F S16384x200 .f32) : FVec F S16384 .f32 :=
  addf en (Host.reduceAdd per (constant S_ .f32 0x00000000#32) reducesTo_S16384x200_S16384_d1 h_S_)

/-! ## Composed -/

/-- `take`'s in-range test at the index array `s`. -/
def inRange (s : IVec S16384x200 32) : IVec S16384x200 1 := inRangeOf (startIdx s)

/-- `take(table, s)`. -/
def taken (tab : FVec F S8 .f32) (s : IVec S16384x200 32) : FVec F S16384x200 .f32 :=
  takenOf tab (inRange s) (startIdx s)

/-- `where(mask, take(table, safe), 0)`: each atom's self energy. -/
def perAtom (spec : IVec S16384x200 32) (tab : FVec F S8 .f32) : FVec F S16384x200 .f32 :=
  perAtomOf (mask spec) (taken tab (safe spec))

/-- The reference's second result: the energies shifted by each molecule's summed self energies. -/
def refG (spec : IVec S16384x200 32) (en : FVec F S16384 .f32) (tab : FVec F S8 .f32) : FVec F S16384 .f32 :=
  shift en (perAtom spec tab)

end Cert.Proof.Ref

end
-- ==== Proof.RefValue.lean ====
/-
  The reference's second result read at a molecule, when every species index is in range.

  With 0 <= species < 8 at every atom: the mask `species >= 0` is true everywhere, so the first `where`
  returns the species unchanged; `take` adds nothing to an index that is not negative, its in-range test
  `0 <= index <= 7` passes everywhere, and its gather, which reads the table at the index clamped into
  [0, 7], reads it at the index itself; the second `where` keeps that entry. The float sum over the atom
  axis is, over the extended reals, the initial value plus the sum of the 200 entries. Hence at molecule i

      result i = energies i + (0 + sum over k < 200 of table[species[i, k]]).
-/
import proofs.«206988_g4337916970008_retrytranche1_694_23_alg».proof.Proof.RefSpec
import Idealize.ShloMosaic.Lib.ValueIdx
import Idealize.ShloMosaic.Lib.ReduceAll
import Idealize.ShloMosaic.PureOps.Ideal.Laws

noncomputable section

namespace Cert.Proof.Ref

open Cert.ReferenceIdeal Cert.ReferenceIdeal.Gen Idealize.ShloMosaic Idealize.ShloMosaic.ValueIdx

/-! ## Words below 8 under the signed comparisons -/

/-- A 32-bit word below 8 is its own signed value. -/
theorem toInt_of_lt8 (v : BitVec 32) (h : v.toNat < 8) : v.toInt = (v.toNat : Int) := by
  have hc := BitVec.toInt_eq_toNat_cond v
  split_ifs at hc with h2
  · exact hc
  · exfalso; omega

theorem sge_zero_of_lt8 (v : BitVec 32) (h : v.toNat < 8) : IntOp.cmpi .sge v 0#32 = 1#1 := by
  rw [IntOp.cmpi_sge, toInt_of_lt8 v h, show (0#32 : BitVec 32).toInt = 0 from by decide]
  omega

theorem sle_seven_of_lt8 (v : BitVec 32) (h : v.toNat < 8) : IntOp.cmpi .sle v 7#32 = 1#1 := by
  rw [IntOp.cmpi_sle, toInt_of_lt8 v h, show (7#32 : BitVec 32).toInt = 7 from by decide]
  omega

theorem slt_zero_of_lt8 (v : BitVec 32) (h : v.toNat < 8) : IntOp.cmpi .slt v 0#32 = 0#1 := by
  refine eq_zero_of_ne_one fun e => ?_
  rw [IntOp.cmpi_slt, toInt_of_lt8 v h, show (0#32 : BitVec 32).toInt = 0 from by decide] at e
  omega

/-- A left fold by `and` from 1 over words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..), show IntOp.andi (1#1 : BitVec 1) 1#1 = 1#1 from by decide]
    exact ih fun n hn => hf n (List.mem_cons_of_mem _ hn)

/-! ## The integer stages -/

section Stages

variable {F : FTy → Type} [FloatOps F]
variable {spec : IVec S16384x200 32} (h : ∀ idx : S16384x200.Idx, (spec idx).toNat < 8)
include h

/-- The mask is true at every atom. -/
theorem mask_apply (idx : S16384x200.Idx) : mask spec idx = 1#1 :=
  sge_zero_of_lt8 (spec idx) (h idx)

/-- The first `where` returns the species unchanged. -/
theorem safe_eq : safe spec = spec := by
  funext idx
  show Scalar.select (mask spec idx) (spec idx) _ = spec idx
  rw [mask_apply h idx, select_one]

/-- No index is negative, so none is wrapped. -/
theorem wrapped_eq : wrapped spec = spec := by
  funext idx
  show Scalar.select (IntOp.cmpi .slt (spec idx) 0#32) _ (spec idx) = spec idx
  rw [slt_zero_of_lt8 _ (h idx), select_zero]

/-- Every start index is a species word, hence below 8. -/
theorem startIdx_lt (j : S16384x200x1.Idx) : (startIdx spec j).toNat < 8 := by
  unfold startIdx
  rw [wrapped_eq h]
  exact h _

/-- The start index of atom (i, k) is its species word. -/
theorem startIdx_take (i : Fin 16384) (k : Fin 200) : startIdx spec (takeIdx (ix2 i k)) = spec (ix2 i k) := by
  unfold startIdx
  rw [wrapped_eq h]
  show spec _ = spec _
  refine congrArg spec (funext fun a => ?_)
  match a with
  | ⟨0, _⟩ => rfl
  | ⟨1, _⟩ => rfl

/-- `take`'s in-range test passes at every atom. -/
theorem inRange_apply (idx : S16384x200.Idx) : inRange spec idx = 1#1 := by
  unfold inRange inRangeOf
  rw [Host.reduce_eq_foldl]
  refine foldl_andi_ones _ _ fun j _ => ?_
  show IntOp.andi (IntOp.cmpi .sge (startIdx spec j) 0#32) (IntOp.cmpi .sle (startIdx spec j) 7#32) = 1#1
  rw [sge_zero_of_lt8 _ (startIdx_lt h j), sle_seven_of_lt8 _ (startIdx_lt h j)]
  decide

/-- `take` at atom (i, k) is the table at that atom's species. -/
theorem taken_apply (tab : FVec F S8 .f32) (i : Fin 16384) (k : Fin 200) :
    taken tab spec (ix2 i k) = tab (ix1 ⟨(spec (ix2 i k)).toNat, h (ix2 i k)⟩) := by
  unfold taken takenOf
  rw [select_apply, inRange_apply h, select_one]
  refine (gather_take_apply (N := 8) (R := 16384) (C := 200) (by decide)
    gather_S8_S16384x200x1_S16384x200_n_0_n_n_0_2_1_wf tab (startIdx spec) (ix2 i k)).trans ?_
  refine congrArg tab (congrArg ix1 (Fin.ext ?_))
  show min (startIdx spec (takeIdx (ix2 i k))).toInt.toNat (8 - 1) = (spec (ix2 i k)).toNat
  rw [startIdx_take h i k, toInt_of_lt8 _ (h (ix2 i k)), Int.toNat_natCast]
  have := h (ix2 i k)
  omega

/-- Each atom's self energy is the table at its species. -/
theorem perAtom_apply (tab : FVec F S8 .f32) (i : Fin 16384) (k : Fin 200) :
    perAtom spec tab (ix2 i k) = tab (ix1 ⟨(spec (ix2 i k)).toNat, h (ix2 i k)⟩) := by
  unfold perAtom perAtomOf
  rw [select_apply, mask_apply h, select_one, safe_eq h, taken_apply h]

end Stages

/-! ## The result at a molecule, over the extended reals -/

/-- The atom (i, k) as the index the sum over the atom axis inserts `k` into. -/
theorem lift_eq (hred : S16384x200.Reduces [1] S16384) (i : Fin 16384) (k : Fin 200) :
    hred.lift (ix1 i) k = ix2 i k := by
  funext a
  match a with
  | ⟨0, _⟩ => exact Fin.ext rfl
  | ⟨1, _⟩ => exact Fin.ext rfl

/-- With every species index below 8, the reference's second result at molecule `i` is that molecule's energy
    plus (zero plus) the sum over its 200 atoms of the table entry at the atom's species. -/
theorem refG_apply (spec : IVec S16384x200 32) (en : FVec Ideal S16384 .f32) (tab : FVec Ideal S8 .f32)
    (h : ∀ idx : S16384x200.Idx, (spec idx).toNat < 8) (i : Fin 16384) :
    refG spec en tab (ix1 i)
      = en (ix1 i) + (0 + ∑ k : Fin 200, tab (ix1 ⟨(spec (ix2 i k)).toNat, h (ix2 i k)⟩)) := by
  have hred : S16384x200.Reduces [1] S16384 := by decide
  show en (ix1 i) + Ideal.hostReduceAdd reducesTo_S16384x200_S16384_d1 (perAtom spec tab)
      (Ideal.ofBits .f32 0x00000000#32) (ix1 i) = _
  rw [Ideal.hostReduceAdd_single reducesTo_S16384x200_S16384_d1 hred, Ideal.ofBits_zero_f32]
  show en (ix1 i) + (0 + ∑ k : Fin 200, perAtom spec tab (hred.lift (ix1 i) k)) = _
  refine congrArg (fun z => en (ix1 i) + (0 + z)) (Finset.sum_congr rfl fun k _ => ?_)
  rw [lift_eq hred i k, perAtom_apply h]

end Cert.Proof.Ref

end
-- ==== Proof.BridgeIdeal.lean ====
/-
  The two sides meet, over the extended reals.

  The kernel's result function at molecule M is the energy of M plus (zero plus) the sum, over k < 200, of the
  table entry selected by species word k of M read in the transposed array — which is the species array's
  entry (M, k); the reference's result at M, when every species word is below eight, is the energy of M plus
  (zero plus) the sum of the table entries at the species words of M. A word below eight is its own residue
  modulo eight, so the two are the same sum, term by term.
-/
import proofs.«206988_g4337916970008_retrytranche1_694_23_alg».proof.Proof.SpecIdeal
import proofs.«206988_g4337916970008_retrytranche1_694_23_alg».proof.Proof.PreKI
import proofs.«206988_g4337916970008_retrytranche1_694_23_alg».proof.Proof.RefValue

noncomputable section

namespace Cert.Proof.KI

open Cert.KernelIdeal Cert.KernelIdeal.Gen
open Idealize.ShloMosaic Idealize.ShloMosaic.ValueIdx Idealize.SL.Sem

/-- The table entry the kernel's result function selects for species word k of molecule i is the entry at
    that word itself, when the word is below eight. -/
theorem tabAt_spAt (spec : S16384x200.Idx → BitVec 32) (tab : S8.Idx → Idealize.ShloMosaic.Ideal .f32)
    (h : ∀ idx : S16384x200.Idx, (spec idx).toNat < 8) (i : Fin 16384) (k : Fin 200) :
    tabAt tab (spAt (transpose S200x16384 [1, 0] spec transposes_S16384x200_S200x16384_1_0) i.val k.val)
      = tab (ix1 ⟨(spec (ix2 i k)).toNat, h (ix2 i k)⟩) := by
  rw [spAt_transpose]
  have ei : (⟨i.val % 16384, Nat.mod_lt _ (by decide)⟩ : Fin 16384) = i := Fin.ext (Nat.mod_eq_of_lt i.isLt)
  have ek : (⟨k.val % 200, Nat.mod_lt _ (by decide)⟩ : Fin 200) = k := Fin.ext (Nat.mod_eq_of_lt k.isLt)
  rw [ei, ek]
  unfold tabAt
  exact congrArg tab (congrArg ix1 (Fin.ext (Nat.mod_eq_of_lt (h (ix2 i k)))))

/-- With every species word below eight, the kernel's result function of the transposed species, the energies
    and the table is the reference's result of the species, the energies and the table. -/
theorem outSpec_eq_refG (spec : IVec S16384x200 32) (en : FVec Idealize.ShloMosaic.Ideal S16384 .f32)
    (tab : FVec Idealize.ShloMosaic.Ideal S8 .f32) (h : ∀ idx : S16384x200.Idx, (spec idx).toNat < 8) :
    outSpec (F := Idealize.ShloMosaic.Ideal)
        (transpose S200x16384 [1, 0] spec transposes_S16384x200_S200x16384_1_0) en tab
      = Cert.Proof.Ref.refG (F := Idealize.ShloMosaic.Ideal) spec en tab := by
  funext M
  obtain ⟨i, rfl⟩ : ∃ i : Fin 16384, M = ix1 i := ⟨M 0, eq_ix1 M⟩
  rw [Cert.Proof.Ref.refG_apply spec en tab h i, outSpec_ideal]
  exact congrArg (fun z : EReal => en (ix1 i) + (0 + z))
    (Finset.sum_congr rfl fun k _ => tabAt_spAt spec tab h i k)

/-- Under the precondition the kernel's result function is the reference's result, on every device. -/
theorem outF_eq_refG (m : (ℓ : Loc nD τ sig) → Buf (Elt Idealize.ShloMosaic.Ideal) ℓ)
    (h : ∀ c : Dev nD,
      (Cert.Pre_input_domain.fn (F := Idealize.ShloMosaic.Ideal) (m ((c.tc : Thread nD τ).loc main_arg0))
        (m ((c.tc : Thread nD τ).loc main_arg1)) (m ((c.tc : Thread nD τ).loc main_arg2))) = (fun _ => 1#1))
    (c : Dev nD) :
    outF (F := Idealize.ShloMosaic.Ideal) m c
      = Cert.Proof.Ref.refG (F := Idealize.ShloMosaic.Ideal) (m ((c.tc : Thread nD τ).loc main_arg0))
          (m ((c.tc : Thread nD τ).loc main_arg1)) (m ((c.tc : Thread nD τ).loc main_arg2)) :=
  outSpec_eq_refG (m (a0Loc c)) (m (eLoc c)) (m (tLoc c)) (preOK_of_pre m h c)

end Cert.Proof.KI

end
-- ==== Proof.RefRun.lean ====
/-
  The reference's run.

  The reference is a straight line of host operations: its @main and the three helper functions it calls
  (the two `where`s and the `take`, the latter calling a third `where`), each call standing for the callee's
  operations over that call's own buffers. Listed in order they are thirty-six operations, and the program
  is their sequence. The list is read in five consecutive stretches — the mask and the first `where`; `take`'s
  index arithmetic; its in-range test; its gather and guard; the last `where` with the sum and the shift —
  each stretch's result a stage of `refG` over the buffers the stretch reads, every other buffer kept. What
  the last buffer holds after all of them is `refG` of the three argument arrays, and the arguments' buffers
  are written by no operation.
-/
import proofs.«206988_g4337916970008_retrytranche1_694_23_alg».proof.Proof.RefSpec
import Idealize.ShloMosaic.Lib.StableHlo.Run

noncomputable section

namespace Cert.Proof.Ref

open Cert.ReferenceIdeal Cert.ReferenceIdeal.Gen Idealize.ShloMosaic Idealize.ShloMosaic.TcCoe Idealize.SL.Sem
  Idealize.ShloMosaic.StableHlo

variable {F : FTy → Type} [FloatOps F]

/-! ## The program as a list of operations, in five stretches -/

/-- The mask and the first `where` (mask, species, 0): seven operations. -/
abbrev opsA : List (HloOp τ sig (Elt F)) :=
  [ nullary main_c (constantI S_ 32 0#32),
    unary main_c main_v0 (broadcastInDim S16384x200 ![] bcast_S_S16384x200 : (⟨S_, .i32⟩ : BufTy).Contents (Elt F) → (⟨S16384x200, .i32⟩ : BufTy).Contents (Elt F)),
    binary main_arg0 main_v0 main_v1 (cmpi .sge : (⟨S16384x200, .i32⟩ : BufTy).Contents (Elt F) → (⟨S16384x200, .i32⟩ : BufTy).Contents (Elt F) → (⟨S16384x200, .i1⟩ : BufTy).Contents (Elt F)),
    nullary main_c_0 (constantI S_ 32 0#32),
    TRef.unary (.of main_c_0) main_call0.v0 id,
    TRef.unary main_call0.v0 main_call0.v1 (broadcastInDim S16384x200 ![] bcast_S_S16384x200),
    TRef.ternary (.of main_v1) (.of main_arg0) main_call0.v1 main_call0.v2 select ]

/-- `take`'s index arithmetic: the negative test, the wrap by 8, the inner `where`, the trailing unit axis:
    eight operations. -/
abbrev opsB : List (HloOp τ sig (Elt F)) :=
  [ TRef.nullary main_call1.c (constantI S_ 32 0#32),
    TRef.unary main_call1.c main_call1.v0 (broadcastInDim S16384x200 ![] bcast_S_S16384x200),
    TRef.binary (.of main_v2) main_call1.v0 main_call1.v1 (cmpi .slt),
    TRef.nullary main_call1.c_0 (constantI S_ 32 8#32),
    TRef.unary main_call1.c_0 main_call1.v2 (broadcastInDim S16384x200 ![] bcast_S_S16384x200),
    TRef.binary (.of main_v2) main_call1.v2 main_call1.v3 addi,
    TRef.ternary main_call1.v1 main_call1.v3 (.of main_v2) main_call1.call0.v0 select,
    TRef.unary main_call1.call0.v0 main_call1.v5 (broadcastInDim S16384x200x1 ![0, 1] bcast_S16384x200_S16384x200x1_0_1) ]

/-- `take`'s in-range test: ten operations. -/
abbrev opsC : List (HloOp τ sig (Elt F)) :=
  [ TRef.nullary main_call1.c_1 (constantI S1 32 7#32),
    TRef.nullary main_call1.c_2 (constantI S_ 32 0#32),
    TRef.unary main_call1.c_2 main_call1.v6 (broadcastInDim S16384x200x1 ![] bcast_S_S16384x200x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S16384x200x1 ![0, 1, 2] bcast_S1x1x1_S16384x200x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S16384x200x1_S16384x200_d2 h_S_) ]

/-- `take`'s gather and its guard: four operations. -/
abbrev opsD : List (HloOp τ sig (Elt F)) :=
  [ TRef.binary (.of main_arg2) main_call1.v5 main_call1.v13 (fun x i => Host.gather gather_S8_S16384x200x1_S16384x200_n_0_n_n_0_2_1 x i),
    TRef.nullary main_call1.cst (constant S_ .f32 0x7FC00000#32),
    TRef.unary main_call1.cst main_call1.v14 (broadcastInDim S16384x200 ![] bcast_S_S16384x200),
    TRef.ternary main_call1.v12 main_call1.v13 main_call1.v14 main_call1.v15 select ]

/-- The last `where` (mask, taken, 0.0), the sum over the atom axis and the shift: seven operations. -/
abbrev opsE : List (HloOp τ sig (Elt F)) :=
  [ nullary main_cst (constant S_ .f32 0x00000000#32),
    TRef.unary (.of main_cst) main_call2.v0 id,
    TRef.unary main_call2.v0 main_call2.v1 (broadcastInDim S16384x200 ![] bcast_S_S16384x200),
    TRef.ternary (.of main_v1) (.of main_v3) main_call2.v1 main_call2.v2 select,
    nullary main_cst_1 (constant S_ .f32 0x00000000#32),
    binary main_v4 main_cst_1 main_v5 ((fun x v => Host.reduceAdd x v reducesTo_S16384x200_S16384_d1 h_S_) : (⟨S16384x200, .f32⟩ : BufTy).Contents (Elt F) → (⟨S_, .f32⟩ : BufTy).Contents (Elt F) → (⟨S16384, .f32⟩ : BufTy).Contents (Elt F)),
    binary main_arg1 main_v5 main_v6 (addf : (⟨S16384, .f32⟩ : BufTy).Contents (Elt F) → (⟨S16384, .f32⟩ : BufTy).Contents (Elt F) → (⟨S16384, .f32⟩ : BufTy).Contents (Elt F)) ]

/-- @main's thirty-six operations in order, each call replaced by its callee's operations over that call's
    buffers. -/
abbrev ops : List (HloOp τ sig (Elt F)) := opsA ++ (opsB ++ (opsC ++ (opsD ++ opsE)))

set_option maxRecDepth 1024 in
/-- @main is that straight line: the helper functions unfolded at their calls, the sequencing reassociated. -/
theorem main_eq (c : Dev nD) : main (F := F) c = seq ops := by
  simp only [main, fn_where.body, fn_take.body, fn_where_0.body, fn_where_1.body, seq, bind_assoc, pure_bind,
    List.cons_append, List.nil_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub ..,
    unary_bufs_sub .., unary_bufs_sub .., ternary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    nullary_bufs_sub .., unary_bufs_sub .., ternary_bufs_sub ..,
    nullary_bufs_sub ..,
    unary_bufs_sub .., unary_bufs_sub .., ternary_bufs_sub ..,
    nullary_bufs_sub .., binary_bufs_sub .., binary_bufs_sub ..⟩

/-- Every buffer of every device ends at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## What each stretch leaves

Each operation's result read at its own buffer is its function's value and at any other buffer what was there;
the typed references' transports are the identity at these literal references. -/

/-- Two stretches run one after the other are their concatenation run as one. -/
theorem after_append' : ∀ (l₁ l₂ : List (HloOp τ sig (Elt F))) (W : Valuation τ sig (Elt F)),
    after (l₁ ++ l₂) W = after l₂ (after l₁ W)
  | [], _, _ => rfl
  | op :: l₁, l₂, W => by rw [List.cons_append, after_cons, after_cons, after_append' l₁ l₂]

theorem opsA_v1 (W : Valuation τ sig (Elt F)) :
    after opsA W (main_v1 : DevRef τ sig) = mask (W (main_arg0 : DevRef τ sig)) := by
  after_results_simp
  simp only [TRef.toBuf, TRef.ofBuf, cast_eq, id_eq, mask, splat2]

theorem opsA_v2 (W : Valuation τ sig (Elt F)) :
    after opsA W (main_v2 : DevRef τ sig) = safe (W (main_arg0 : DevRef τ sig)) := by
  after_results_simp
  simp only [TRef.toBuf, TRef.ofBuf, cast_eq, id_eq, safe, mask, splat2]

theorem opsA_arg0 (W : Valuation τ sig (Elt F)) :
    after opsA W (main_arg0 : DevRef τ sig) = W (main_arg0 : DevRef τ sig) := by
  after_results_simp

theorem opsA_arg1 (W : Valuation τ sig (Elt F)) :
    after opsA W (main_arg1 : DevRef τ sig) = W (main_arg1 : DevRef τ sig) := by
  after_results_simp

theorem opsA_arg2 (W : Valuation τ sig (Elt F)) :
    after opsA W (main_arg2 : DevRef τ sig) = W (main_arg2 : DevRef τ sig) := by
  after_results_simp

theorem opsB_v5 (W : Valuation τ sig (Elt F)) :
    after opsB W (main_call1_v5 : DevRef τ sig) = startIdx (W (main_v2 : DevRef τ sig)) := by
  after_results_simp
  simp only [TRef.toBuf, TRef.ofBuf, cast_eq, id_eq, startIdx, wrapped, splat2]

theorem opsB_v1 (W : Valuation τ sig (Elt F)) :
    after opsB W (main_v1 : DevRef τ sig) = W (main_v1 : DevRef τ sig) := by
  after_results_simp

theorem opsB_arg0 (W : Valuation τ sig (Elt F)) :
    after opsB W (main_arg0 : DevRef τ sig) = W (main_arg0 : DevRef τ sig) := by
  after_results_simp

theorem opsB_arg1 (W : Valuation τ sig (Elt F)) :
    after opsB W (main_arg1 : DevRef τ sig) = W (main_arg1 : DevRef τ sig) := by
  after_results_simp

theorem opsB_arg2 (W : Valuation τ sig (Elt F)) :
    after opsB W (main_arg2 : DevRef τ sig) = W (main_arg2 : DevRef τ sig) := by
  after_results_simp

theorem opsC_v12 (W : Valuation τ sig (Elt F)) :
    after opsC W (main_call1_v12 : DevRef τ sig) = inRangeOf (W (main_call1_v5 : DevRef τ sig)) := by
  after_results_simp
  simp only [TRef.toBuf, TRef.ofBuf, cast_eq, id_eq, inRangeOf]

theorem opsC_v5 (W : Valuation τ sig (Elt F)) :
    after opsC W (main_call1_v5 : DevRef τ sig) = W (main_call1_v5 : DevRef τ sig) := by
  after_results_simp

theorem opsC_v1 (W : Valuation τ sig (Elt F)) :
    after opsC W (main_v1 : DevRef τ sig) = W (main_v1 : DevRef τ sig) := by
  after_results_simp

theorem opsC_arg0 (W : Valuation τ sig (Elt F)) :
    after opsC W (main_arg0 : DevRef τ sig) = W (main_arg0 : DevRef τ sig) := by
  after_results_simp

theorem opsC_arg1 (W : Valuation τ sig (Elt F)) :
    after opsC W (main_arg1 : DevRef τ sig) = W (main_arg1 : DevRef τ sig) := by
  after_results_simp

theorem opsC_arg2 (W : Valuation τ sig (Elt F)) :
    after opsC W (main_arg2 : DevRef τ sig) = W (main_arg2 : DevRef τ sig) := by
  after_results_simp

theorem opsD_v3 (W : Valuation τ sig (Elt F)) :
    after opsD W (main_v3 : DevRef τ sig)
      = takenOf (W (main_arg2 : DevRef τ sig)) (W (main_call1_v12 : DevRef τ sig)) (W (main_call1_v5 : DevRef τ sig)) := by
  after_results_simp
  simp only [TRef.toBuf, TRef.ofBuf, cast_eq, id_eq, takenOf]

theorem opsD_v1 (W : Valuation τ sig (Elt F)) :
    after opsD W (main_v1 : DevRef τ sig) = W (main_v1 : DevRef τ sig) := by
  after_results_simp

theorem opsD_arg0 (W : Valuation τ sig (Elt F)) :
    after opsD W (main_arg0 : DevRef τ sig) = W (main_arg0 : DevRef τ sig) := by
  after_results_simp

theorem opsD_arg1 (W : Valuation τ sig (Elt F)) :
    after opsD W (main_arg1 : DevRef τ sig) = W (main_arg1 : DevRef τ sig) := by
  after_results_simp

theorem opsD_arg2 (W : Valuation τ sig (Elt F)) :
    after opsD W (main_arg2 : DevRef τ sig) = W (main_arg2 : DevRef τ sig) := by
  after_results_simp

theorem opsE_v6 (W : Valuation τ sig (Elt F)) :
    after opsE W (main_v6 : DevRef τ sig)
      = shift (W (main_arg1 : DevRef τ sig)) (perAtomOf (W (main_v1 : DevRef τ sig)) (W (main_v3 : DevRef τ sig))) := by
  after_results_simp
  simp only [TRef.toBuf, TRef.ofBuf, cast_eq, id_eq, shift, perAtomOf]

theorem opsE_arg0 (W : Valuation τ sig (Elt F)) :
    after opsE W (main_arg0 : DevRef τ sig) = W (main_arg0 : DevRef τ sig) := by
  after_results_simp

theorem opsE_arg1 (W : Valuation τ sig (Elt F)) :
    after opsE W (main_arg1 : DevRef τ sig) = W (main_arg1 : DevRef τ sig) := by
  after_results_simp

theorem opsE_arg2 (W : Valuation τ sig (Elt F)) :
    after opsE W (main_arg2 : DevRef τ sig) = W (main_arg2 : DevRef τ sig) := by
  after_results_simp

/-! ## What the whole line leaves -/

/-- The fold at the result buffer is `refG` of the arguments' contents. -/
theorem res_eq (V : Valuation τ sig (Elt F)) :
    after ops V (main_v6 : DevRef τ sig)
      = refG (V (main_arg0 : DevRef τ sig)) (V (main_arg1 : DevRef τ sig)) (V (main_arg2 : DevRef τ sig)) := by
  unfold refG perAtom taken inRange
  rw [after_append', after_append', after_append', after_append', opsE_v6,
    opsD_arg1, opsC_arg1, opsB_arg1, opsA_arg1,
    opsD_v1, opsC_v1, opsB_v1, opsA_v1,
    opsD_v3, opsC_arg2, opsB_arg2, opsA_arg2,
    opsC_v12, opsC_v5, opsB_v5, opsA_v2]

theorem arg0_eq (V : Valuation τ sig (Elt F)) :
    after ops V (main_arg0 : DevRef τ sig) = V (main_arg0 : DevRef τ sig) := by
  rw [after_append', after_append', after_append', after_append', opsE_arg0, opsD_arg0, opsC_arg0, opsB_arg0, opsA_arg0]

theorem arg1_eq (V : Valuation τ sig (Elt F)) :
    after ops V (main_arg1 : DevRef τ sig) = V (main_arg1 : DevRef τ sig) := by
  rw [after_append', after_append', after_append', after_append', opsE_arg1, opsD_arg1, opsC_arg1, opsB_arg1, opsA_arg1]

theorem arg2_eq (V : Valuation τ sig (Elt F)) :
    after ops V (main_arg2 : DevRef τ sig) = V (main_arg2 : DevRef τ sig) := by
  rw [after_append', after_append', after_append', after_append', opsE_arg2, opsD_arg2, opsC_arg2, opsB_arg2, opsA_arg2]

/-- On every device, for any float values, from any memory with zero counters: every weakly fair execution of
    @main terminates with the second result at `refG` of the arguments and the arguments unchanged (the first
    result is the first argument's buffer itself). -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = refG (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v6).trans (res_eq _),
      (h c main_arg0).trans (arg0_eq _), (h c main_arg1).trans (arg1_eq _), (h c main_arg2).trans (arg2_eq _)⟩)
    (run_main m ρ)

end Cert.Proof.Ref

end
-- ==== Proof.lean ====
/-
  The kernel gathers, per molecule, the self energies of its 200 atoms' species from a table of eight, adds them
  up four at a time, and adds the molecule's energy; the reference does the same with one gather and one sum
  over the atom axis. Under the precondition (finite floats, species in [0, 7]) every tile's body runs, the two
  programs leave their arguments unchanged, the species array comes back as it was, and over the extended
  reals — where the order and grouping of a sum do not matter — the two shifted-energy arrays are equal.
-/
import proofs.«206988_g4337916970008_retrytranche1_694_23_alg».proof.Defs
import proofs.«206988_g4337916970008_retrytranche1_694_23_alg».proof.Proof.Gen.Kernel
import proofs.«206988_g4337916970008_retrytranche1_694_23_alg».proof.Proof.Gen.Kernel.Skeleton
import proofs.«206988_g4337916970008_retrytranche1_694_23_alg».proof.Proof.Gen.KernelIdeal
import proofs.«206988_g4337916970008_retrytranche1_694_23_alg».proof.Proof.Gen.KernelIdeal.Skeleton
import proofs.«206988_g4337916970008_retrytranche1_694_23_alg».proof.Proof.Gen.ReferenceIdeal
import proofs.«206988_g4337916970008_retrytranche1_694_23_alg».proof.Proof.Gen.Pre_input_domain
import proofs.«206988_g4337916970008_retrytranche1_694_23_alg».proof.Proof.TileBody
import proofs.«206988_g4337916970008_retrytranche1_694_23_alg».proof.Proof.LaunchKI
import proofs.«206988_g4337916970008_retrytranche1_694_23_alg».proof.Proof.TileBodyKB
import proofs.«206988_g4337916970008_retrytranche1_694_23_alg».proof.Proof.LaunchKB
import proofs.«206988_g4337916970008_retrytranche1_694_23_alg».proof.Proof.PreKB
import proofs.«206988_g4337916970008_retrytranche1_694_23_alg».proof.Proof.BridgeIdeal
import proofs.«206988_g4337916970008_retrytranche1_694_23_alg».proof.Proof.RefRun
import Idealize.ShloMosaic.Adequacy
import Idealize.ShloMosaic.Init

noncomputable section

namespace Cert.Proof

open Idealize.ShloMosaic Idealize.SL.Sem

/-- The word-level kernel program runs and leaves its arguments unchanged: its run's post, the results dropped. -/
theorem frame_Kernel : Cert.frame_Kernel := fun m ρ hpre =>
  (θ_run Cert.Kernel.defs _ _).mono (fun _ h c => (h c).2.2)
    (KB.run_main (F := Bits) m ρ (KB.tileObl m (KB.preOK_of_pre m hpre)))

/-- The idealized kernel program runs and leaves its arguments unchanged. -/
theorem frame_KernelIdeal : Cert.frame_KernelIdeal := fun m ρ hpre =>
  (θ_run Cert.KernelIdeal.defs _ _).mono (fun _ h c => (h c).2.2)
    (KI.run_main (F := Ideal) m ρ (KI.tileObl m (KI.preOK_of_pre m hpre)))

/-- The reference runs and leaves its arguments unchanged. -/
theorem frame_ReferenceIdeal : Cert.frame_ReferenceIdeal := fun m ρ _ =>
  (θ_run Cert.ReferenceIdeal.defs _ _).mono (fun _ h c => (h c).2) (Ref.run (F := Ideal) m ρ)

/-- Over the extended reals the two programs end with equal results: the species array, and the kernel's result
    function of the arguments, which under the precondition is the reference's composed term of them. -/
theorem algebraic : Cert.algebraic_KernelIdeal_ReferenceIdeal := by
  intro m ρ m' ρ' hpre hagree
  refine ⟨fun c => m (KI.a0Loc c), fun c => KI.outF m c,
    (θ_run Cert.KernelIdeal.defs _ _).mono (fun _ h c => h c)
      (KI.run_main (F := Ideal) m ρ (KI.tileObl m (KI.preOK_of_pre m hpre))), ?_⟩
  refine (θ_run Cert.ReferenceIdeal.defs _ _).mono (fun _ h c => ⟨(h c).2.1.trans (hagree c).1, (h c).1.trans ?_, (h c).2⟩)
    (Ref.run (F := Ideal) m' ρ')
  rw [(hagree c).1, (hagree c).2.1, (hagree c).2.2]
  exact (KI.outF_eq_refG m hpre c).symm

/-- Everything the certificate claims. -/
theorem claim : Cert.Claim :=
  ⟨Cert.Kernel.Gen.facts, Cert.KernelIdeal.Gen.facts, Cert.ReferenceIdeal.Gen.facts, Cert.Pre_input_domain.Gen.facts,
    frame_Kernel, frame_KernelIdeal, frame_ReferenceIdeal, trivial, algebraic⟩

end Cert.Proof

end
